-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v303)) (v1 : (c : Dev Cert.KernelIdeal.nD) → Buf (Elt Ideal) ((c.tc : Thread Cert.KernelIdeal.nD Cert.KernelIdeal.τ).loc Cert.KernelIdeal.main_v303)) (v2 : (c : Dev Cert.KernelIdeal.nD) → Buf (Elt Ideal) ((c.tc : Thread Cert.KernelIdeal.nD Cert.KernelIdeal.τ).loc Cert.KernelIdeal.main_v321)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v303) = v0 c
          ∧ r.2.mem ((c.tc : Thread Cert.KernelIdeal.nD Cert.KernelIdeal.τ).loc Cert.KernelIdeal.main_v303) = v1 c
          ∧ r.2.mem ((c.tc : Thread Cert.KernelIdeal.nD Cert.KernelIdeal.τ).loc Cert.KernelIdeal.main_v321) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v607) = v0 c
          ∧ r.2.mem ((c.tc : Thread Cert.ReferenceIdeal.nD Cert.ReferenceIdeal.τ).loc Cert.ReferenceIdeal.main_v607) = v1 c
          ∧ r.2.mem ((c.tc : Thread Cert.ReferenceIdeal.nD Cert.ReferenceIdeal.τ).loc Cert.ReferenceIdeal.main_v625) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S4x64x64 : Shape := ⟨3, ![4, 64, 64]⟩
abbrev S4x64 : Shape := ⟨2, ![4, 64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S4x64x64 : S_.BroadcastsInDim S4x64x64 (![] : Fin 0 → Fin S4x64x64.rank)
  reducesTo_S4x64x64_S_d0_1_2 : S4x64x64.ReducesTo [0, 1, 2] S_
  bcast_S_S4x64 : S_.BroadcastsInDim S4x64 (![] : Fin 0 → Fin S4x64.rank)
  reducesTo_S4x64_S_d0_1 : S4x64.ReducesTo [0, 1] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S1 .f32) (main_arg17 : FVec F S64 .f32) (main_arg18 : FVec F S64 .f32) (main_v63 : IVec S_ 1) (main_v67 : IVec S_ 1) : IVec S_ 1 :=
  let main_v68 : IVec S_ 1 := andi main_v63 main_v67
  let main_v69 : FVec F S1 .f32 := Host.absf main_arg16
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  main_v83

def fn_part3 {F : FTy → Type} [FloatOps F] (main_arg13 : FVec F S64x64 .f32) (main_arg14 : FVec F S64 .f32) (main_arg15 : FVec F S64x1 .f32) (main_arg16 : FVec F S1 .f32) (main_arg17 : FVec F S64 .f32) (main_arg18 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg13
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x1 .f32 := Host.absf main_arg15
  let main_cst_24 : FVec F S_ .f32 := constant S_ .f32 0x7F800000#32
  let main_v65 : FVec F S64x1 .f32 := broadcastInDim S64x1 ![] bcast_S_S64x1 main_cst_24
  let main_v66 : IVec S64x1 1 := cmpf .olt main_v64 main_v65
  let main_c_25 : IVec S_ 1 := constantI S_ 1 1#1
  let main_v67 : IVec S_ 1 := (fun x v => Host.reduce IntOp.andi x v reducesTo_S64x1_S_d0_1 h_S_) main_v66 main_c_25
  fn_part4 (F := F) main_arg16 main_arg17 main_arg18 main_v63 main_v67

def fn_part2 {F : FTy → Type} [FloatOps F] (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64x1 .f32) (main_arg16 : FVec F S1 .f32) (main_arg17 : FVec F S64 .f32) (main_arg18 : FVec F S64 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_v48 main_v49 main_v50

def fn_part1 {F : FTy → Type} [FloatOps F] (main_arg6 : FVec F S4x64 .f32) (main_arg7 : FVec F S4x64x64 .f32) (main_arg8 : FVec F S4x64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64x1 .f32) (main_arg16 : FVec F S1 .f32) (main_arg17 : FVec F S64 .f32) (main_arg18 : FVec F S64 .f32) (main_v13 : IVec S_ 1) (main_v16 : IVec S4x64x64 1) : IVec S_ 1 :=
  let main_c_5 : IVec S_ 1 := constantI S_ 1 1#1
  let main_v17 : IVec S_ 1 := (fun x v => Host.reduce IntOp.andi x v reducesTo_S4x64x64_S_d0_1_2 h_S_) main_v16 main_c_5
  let main_v18 : IVec S_ 1 := andi main_v13 main_v17
  let main_v19 : FVec F S4x64 .f32 := Host.absf main_arg6
  let main_cst_6 : FVec F S_ .f32 := constant S_ .f32 0x7F800000#32
  let main_v20 : FVec F S4x64 .f32 := broadcastInDim S4x64 ![] bcast_S_S4x64 main_cst_6
  let main_v21 : IVec S4x64 1 := cmpf .olt main_v19 main_v20
  let main_c_7 : IVec S_ 1 := constantI S_ 1 1#1
  let main_v22 : IVec S_ 1 := (fun x v => Host.reduce IntOp.andi x v reducesTo_S4x64_S_d0_1 h_S_) main_v21 main_c_7
  let main_v23 : IVec S_ 1 := andi main_v18 main_v22
  let main_v24 : FVec F S4x64x64 .f32 := Host.absf main_arg7
  let main_cst_8 : FVec F S_ .f32 := constant S_ .f32 0x7F800000#32
  let main_v25 : FVec F S4x64x64 .f32 := broadcastInDim S4x64x64 ![] bcast_S_S4x64x64 main_cst_8
  let main_v26 : IVec S4x64x64 1 := cmpf .olt main_v24 main_v25
  let main_c_9 : IVec S_ 1 := constantI S_ 1 1#1
  let main_v27 : IVec S_ 1 := (fun x v => Host.reduce IntOp.andi x v reducesTo_S4x64x64_S_d0_1_2 h_S_) main_v26 main_c_9
  let main_v28 : IVec S_ 1 := andi main_v23 main_v27
  let main_v29 : FVec F S4x64 .f32 := Host.absf main_arg8
  let main_cst_10 : FVec F S_ .f32 := constant S_ .f32 0x7F800000#32
  let main_v30 : FVec F S4x64 .f32 := broadcastInDim S4x64 ![] bcast_S_S4x64 main_cst_10
  let main_v31 : IVec S4x64 1 := cmpf .olt main_v29 main_v30
  let main_c_11 : IVec S_ 1 := constantI S_ 1 1#1
  let main_v32 : IVec S_ 1 := (fun x v => Host.reduce IntOp.andi x v reducesTo_S4x64_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S50000x128 .f32) (main_arg1 : IVec S2x800000 32) (main_arg2 : IVec S50000 32) (main_arg3 : FVec F S128x64 .f32) (main_arg4 : FVec F S64 .f32) (main_arg5 : FVec F S4x64x64 .f32) (main_arg6 : FVec F S4x64 .f32) (main_arg7 : FVec F S4x64x64 .f32) (main_arg8 : FVec F S4x64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64x1 .f32) (main_arg16 : FVec F S1 .f32) (main_arg17 : FVec F S64 .f32) (main_arg18 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S4x64x64 .f32 := Host.absf main_arg5
  let main_cst_4 : FVec F S_ .f32 := constant S_ .f32 0x7F800000#32
  let main_v15 : FVec F S4x64x64 .f32 := broadcastInDim S4x64x64 ![] bcast_S_S4x64x64 main_cst_4
  let main_v16 : IVec S4x64x64 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S4x64x64 : Shape := ⟨3, ![4, 64, 64]⟩
abbrev S4x64 : Shape := ⟨2, ![4, 64]⟩
abbrev S64x64 : Shape := ⟨2, ![64, 64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S800000x1 : Shape := ⟨2, ![800000, 1]⟩
abbrev S50000x64 : Shape := ⟨2, ![50000, 64]⟩
abbrev S5000x128 : Shape := ⟨2, ![5000, 128]⟩
abbrev S5000x64 : Shape := ⟨2, ![5000, 64]⟩
abbrev S1x64 : Shape := ⟨2, ![1, 64]⟩
abbrev S1x64x64 : Shape := ⟨3, ![1, 64, 64]⟩
abbrev S850000x64 : Shape := ⟨2, ![850000, 64]⟩
abbrev S800000x64 : Shape := ⟨2, ![800000, 64]⟩
abbrev S50000x1 : Shape := ⟨2, ![50000, 1]⟩
abbrev S500x64 : Shape := ⟨2, ![500, 64]⟩
abbrev S1x1 : Shape := ⟨2, ![1, 1]⟩
abbrev S500x1 : Shape := ⟨2, ![500, 1]⟩

abbrev nBuf : Space → Nat
  | .hbm => 402
  | .vmem => 134
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x64, .f32⟩
  | 4 => ⟨S64, .f32⟩
  | 5 => ⟨S4x64x64, .f32⟩
  | 6 => ⟨S4x64, .f32⟩
  | 7 => ⟨S4x64x64, .f32⟩
  | 8 => ⟨S4x64, .f32⟩
  | 9 => ⟨S64x64, .f32⟩
  | 10 => ⟨S64, .f32⟩
  | 11 => ⟨S64x64, .f32⟩
  | 12 => ⟨S64, .f32⟩
  | 13 => ⟨S64x64, .f32⟩
  | 14 => ⟨S64, .f32⟩
  | 15 => ⟨S64x1, .f32⟩
  | 16 => ⟨S1, .f32⟩
  | 17 => ⟨S64, .f32⟩
  | 18 => ⟨S64, .f32⟩
  | 19 => ⟨S1x800000, .i32⟩
  | 20 => ⟨S800000, .i32⟩
  | 21 => ⟨S1x800000, .i32⟩
  | 22 => ⟨S800000, .i32⟩
  | 23 => ⟨S50000, .i32⟩
  | 24 => ⟨S850000, .i32⟩
  | 25 => ⟨S850000, .i32⟩
  | 26 => ⟨S_, .f32⟩
  | 27 => ⟨S850000, .f32⟩
  | 28 => ⟨S_, .f32⟩
  | 29 => ⟨S50000, .f32⟩
  | 30 => ⟨S850000x1, .i32⟩
  | 31 => ⟨S50000, .f32⟩
  | 32 => ⟨S_, .f32⟩
  | 33 => ⟨S50000, .f32⟩
  | 34 => ⟨S50000, .f32⟩
  | 35 => ⟨S50000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000, .f32⟩
  | 54 => ⟨S850000, .f32⟩
  | 55 => ⟨S_, .f32⟩
  | 56 => ⟨S800000, .f32⟩
  | 57 => ⟨S_, .f32⟩
  | 58 => ⟨S50000, .f32⟩
  | 59 => ⟨S800000x1, .i32⟩
  | 60 => ⟨S50000, .f32⟩
  | 61 => ⟨S_, .f32⟩
  | 62 => ⟨S50000, .f32⟩
  | 63 => ⟨S50000, .f32⟩
  | 64 => ⟨S50000x64, .f32⟩
  | 65 => ⟨S1x64, .f32⟩
  | 66 => ⟨S50000x64, .f32⟩
  | 67 => ⟨S1x64x64, .f32⟩
  | 68 => ⟨S64x64, .f32⟩
  | 69 => ⟨S1x64, .f32⟩
  | 70 => ⟨S64, .f32⟩
  | 71 => ⟨S50000x64, .f32⟩
  | 72 => ⟨S_, .i32⟩
  | 73 => ⟨S850000, .i32⟩
  | 74 => ⟨S850000, .i1⟩
  | 75 => ⟨S_, .i32⟩
  | 76 => ⟨S850000, .i32⟩
  | 77 => ⟨S850000, .i32⟩
  | 78 => ⟨S850000, .i32⟩
  | 79 => ⟨S850000x1, .i32⟩
  | 80 => ⟨S850000x64, .f32⟩
  | 81 => ⟨S850000x1, .f32⟩
  | 82 => ⟨S850000x64, .f32⟩
  | 83 => ⟨S850000x64, .f32⟩
  | 84 => ⟨S_, .f32⟩
  | 85 => ⟨S50000x64, .f32⟩
  | 86 => ⟨S850000x1, .i32⟩
  | 87 => ⟨S50000x64, .f32⟩
  | 88 => ⟨S1x64, .f32⟩
  | 89 => ⟨S50000x64, .f32⟩
  | 90 => ⟨S1x64x64, .f32⟩
  | 91 => ⟨S64x64, .f32⟩
  | 92 => ⟨S1x64, .f32⟩
  | 93 => ⟨S64, .f32⟩
  | 94 => ⟨S50000x64, .f32⟩
  | 95 => ⟨S_, .i32⟩
  | 96 => ⟨S850000, .i32⟩
  | 97 => ⟨S850000, .i1⟩
  | 98 => ⟨S_, .i32⟩
  | 99 => ⟨S850000, .i32⟩
  | 100 => ⟨S850000, .i32⟩
  | 101 => ⟨S850000, .i32⟩
  | 102 => ⟨S850000x1, .i32⟩
  | 103 => ⟨S850000x64, .f32⟩
  | 104 => ⟨S850000x1, .f32⟩
  | 105 => ⟨S850000x64, .f32⟩
  | 106 => ⟨S850000x64, .f32⟩
  | 107 => ⟨S_, .f32⟩
  | 108 => ⟨S50000x64, .f32⟩
  | 109 => ⟨S850000x1, .i32⟩
  | 110 => ⟨S50000x64, .f32⟩
  | 111 => ⟨S1x64, .f32⟩
  | 112 => ⟨S50000x64, .f32⟩
  | 113 => ⟨S_, .i32⟩
  | 114 => ⟨S800000, .i32⟩
  | 115 => ⟨S800000, .i1⟩
  | 116 => ⟨S_, .i32⟩
  | 117 => ⟨S800000, .i32⟩
  | 118 => ⟨S800000, .i32⟩
  | 119 => ⟨S800000, .i32⟩
  | 120 => ⟨S800000x1, .i32⟩
  | 121 => ⟨S800000x64, .f32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S50000x128, .f32⟩

abbrev hbmTy0_1 (i : Nat) : BufTy := match i % 128 with
  | 0 => ⟨S800000, .i32⟩
  | 1 => ⟨S800000x1, .i32⟩
  | 2 => ⟨S800000x64, .f32⟩
  | 3 => ⟨S800000x64, .f32⟩
  | 4 => ⟨S800000x64, .f32⟩
  | 5 => ⟨S_, .f32⟩
  | 6 => ⟨S50000x64, .f32⟩
  | 7 => ⟨S800000x1, .i32⟩
  | 8 => ⟨S50000x64, .f32⟩
  | 9 => ⟨S50000x1, .f32⟩
  | 10 => ⟨S50000x64, .f32⟩
  | 11 => ⟨S50000x64, .f32⟩
  | 12 => ⟨S50000x64, .f32⟩
  | 13 => ⟨S50000x64, .f32⟩
  | 14 => ⟨S1x64x64, .f32⟩
  | 15 => ⟨S64x64, .f32⟩
  | 16 => ⟨S1x64, .f32⟩
  | 17 => ⟨S64, .f32⟩
  | 18 => ⟨S50000x64, .f32⟩
  | 19 => ⟨S_, .i32⟩
  | 20 => ⟨S850000, .i32⟩
  | 21 => ⟨S850000, .i1⟩
  | 22 => ⟨S_, .i32⟩
  | 23 => ⟨S850000, .i32⟩
  | 24 => ⟨S850000, .i32⟩
  | 25 => ⟨S850000, .i32⟩
  | 26 => ⟨S850000x1, .i32⟩
  | 27 => ⟨S850000x64, .f32⟩
  | 28 => ⟨S850000x1, .f32⟩
  | 29 => ⟨S850000x64, .f32⟩
  | 30 => ⟨S850000x64, .f32⟩
  | 31 => ⟨S_, .f32⟩
  | 32 => ⟨S50000x64, .f32⟩
  | 33 => ⟨S850000x1, .i32⟩
  | 34 => ⟨S50000x64, .f32⟩
  | 35 => ⟨S1x64, .f32⟩
  | 36 => ⟨S50000x64, .f32⟩
  | 37 => ⟨S1x64x64, .f32⟩
  | 38 => ⟨S64x64, .f32⟩
  | 39 => ⟨S1x64, .f32⟩
  | 40 => ⟨S64, .f32⟩
  | 41 => ⟨S50000x64, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000x64, .f32⟩
  | 51 => ⟨S850000x1, .f32⟩
  | 52 => ⟨S850000x64, .f32⟩
  | 53 => ⟨S850000x64, .f32⟩
  | 54 => ⟨S_, .f32⟩
  | 55 => ⟨S50000x64, .f32⟩
  | 56 => ⟨S850000x1, .i32⟩
  | 57 => ⟨S50000x64, .f32⟩
  | 58 => ⟨S1x64, .f32⟩
  | 59 => ⟨S50000x64, .f32⟩
  | 60 => ⟨S_, .i32⟩
  | 61 => ⟨S800000, .i32⟩
  | 62 => ⟨S800000, .i1⟩
  | 63 => ⟨S_, .i32⟩
  | 64 => ⟨S800000, .i32⟩
  | 65 => ⟨S800000, .i32⟩
  | 66 => ⟨S800000, .i32⟩
  | 67 => ⟨S800000x1, .i32⟩
  | 68 => ⟨S800000x64, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000x64, .f32⟩
  | 78 => ⟨S800000x64, .f32⟩
  | 79 => ⟨S800000x64, .f32⟩
  | 80 => ⟨S_, .f32⟩
  | 81 => ⟨S50000x64, .f32⟩
  | 82 => ⟨S800000x1, .i32⟩
  | 83 => ⟨S50000x64, .f32⟩
  | 84 => ⟨S50000x1, .f32⟩
  | 85 => ⟨S50000x64, .f32⟩
  | 86 => ⟨S50000x64, .f32⟩
  | 87 => ⟨S50000x64, .f32⟩
  | 88 => ⟨S50000x64, .f32⟩
  | 89 => ⟨S1x64x64, .f32⟩
  | 90 => ⟨S64x64, .f32⟩
  | 91 => ⟨S1x64, .f32⟩
  | 92 => ⟨S64, .f32⟩
  | 93 => ⟨S50000x64, .f32⟩
  | 94 => ⟨S_, .i32⟩
  | 95 => ⟨S850000, .i32⟩
  | 96 => ⟨S850000, .i1⟩
  | 97 => ⟨S_, .i32⟩
  | 98 => ⟨S850000, .i32⟩
  | 99 => ⟨S850000, .i32⟩
  | 100 => ⟨S850000, .i32⟩
  | 101 => ⟨S850000x1, .i32⟩
  | 102 => ⟨S850000x64, .f32⟩
  | 103 => ⟨S850000x1, .f32⟩
  | 104 => ⟨S850000x64, .f32⟩
  | 105 => ⟨S850000x64, .f32⟩
  | 106 => ⟨S_, .f32⟩
  | 107 => ⟨S50000x64, .f32⟩
  | 108 => ⟨S850000x1, .i32⟩
  | 109 => ⟨S50000x64, .f32⟩
  | 110 => ⟨S1x64, .f32⟩
  | 111 => ⟨S50000x64, .f32⟩
  | 112 => ⟨S1x64x64, .f32⟩
  | 113 => ⟨S64x64, .f32⟩
  | 114 => ⟨S1x64, .f32⟩
  | 115 => ⟨S64, .f32⟩
  | 116 => ⟨S50000x64, .f32⟩
  | 117 => ⟨S_, .i32⟩
  | 118 => ⟨S850000, .i32⟩
  | 119 => ⟨S850000, .i1⟩
  | 120 => ⟨S_, .i32⟩
  | 121 => ⟨S850000, .i32⟩
  | 122 => ⟨S850000, .i32⟩
  | 123 => ⟨S850000, .i32⟩
  | 124 => ⟨S850000x1, .i32⟩
  | 125 => ⟨S850000x64, .f32⟩
  | 126 => ⟨S850000x1, .f32⟩
  | 127 => ⟨S850000x64, .f32⟩
  | _ => ⟨S50000x128, .f32⟩

abbrev hbmTy0_2 (i : Nat) : BufTy := match i % 128 with
  | 0 => ⟨S850000x64, .f32⟩
  | 1 => ⟨S_, .f32⟩
  | 2 => ⟨S50000x64, .f32⟩
  | 3 => ⟨S850000x1, .i32⟩
  | 4 => ⟨S50000x64, .f32⟩
  | 5 => ⟨S1x64, .f32⟩
  | 6 => ⟨S50000x64, .f32⟩
  | 7 => ⟨S_, .i32⟩
  | 8 => ⟨S800000, .i32⟩
  | 9 => ⟨S800000, .i1⟩
  | 10 => ⟨S_, .i32⟩
  | 11 => ⟨S800000, .i32⟩
  | 12 => ⟨S800000, .i32⟩
  | 13 => ⟨S800000, .i32⟩
  | 14 => ⟨S800000x1, .i32⟩
  | 15 => ⟨S800000x64, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x64, .f32⟩
  | 25 => ⟨S800000x64, .f32⟩
  | 26 => ⟨S800000x64, .f32⟩
  | 27 => ⟨S_, .f32⟩
  | 28 => ⟨S50000x64, .f32⟩
  | 29 => ⟨S800000x1, .i32⟩
  | 30 => ⟨S50000x64, .f32⟩
  | 31 => ⟨S50000x1, .f32⟩
  | 32 => ⟨S50000x64, .f32⟩
  | 33 => ⟨S50000x64, .f32⟩
  | 34 => ⟨S50000x64, .f32⟩
  | 35 => ⟨S50000x64, .f32⟩
  | 36 => ⟨S1x64x64, .f32⟩
  | 37 => ⟨S64x64, .f32⟩
  | 38 => ⟨S1x64, .f32⟩
  | 39 => ⟨S64, .f32⟩
  | 40 => ⟨S50000x64, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000x64, .f32⟩
  | 50 => ⟨S850000x1, .f32⟩
  | 51 => ⟨S850000x64, .f32⟩
  | 52 => ⟨S850000x64, .f32⟩
  | 53 => ⟨S_, .f32⟩
  | 54 => ⟨S50000x64, .f32⟩
  | 55 => ⟨S850000x1, .i32⟩
  | 56 => ⟨S50000x64, .f32⟩
  | 57 => ⟨S1x64, .f32⟩
  | 58 => ⟨S50000x64, .f32⟩
  | 59 => ⟨S1x64x64, .f32⟩
  | 60 => ⟨S64x64, .f32⟩
  | 61 => ⟨S1x64, .f32⟩
  | 62 => ⟨S64, .f32⟩
  | 63 => ⟨S50000x64, .f32⟩
  | 64 => ⟨S_, .i32⟩
  | 65 => ⟨S850000, .i32⟩
  | 66 => ⟨S850000, .i1⟩
  | 67 => ⟨S_, .i32⟩
  | 68 => ⟨S850000, .i32⟩
  | 69 => ⟨S850000, .i32⟩
  | 70 => ⟨S850000, .i32⟩
  | 71 => ⟨S850000x1, .i32⟩
  | 72 => ⟨S850000x64, .f32⟩
  | 73 => ⟨S850000x1, .f32⟩
  | 74 => ⟨S850000x64, .f32⟩
  | 75 => ⟨S850000x64, .f32⟩
  | 76 => ⟨S_, .f32⟩
  | 77 => ⟨S50000x64, .f32⟩
  | 78 => ⟨S850000x1, .i32⟩
  | 79 => ⟨S50000x64, .f32⟩
  | 80 => ⟨S1x64, .f32⟩
  | 81 => ⟨S50000x64, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000x64, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000x64, .f32⟩
  | 100 => ⟨S800000x64, .f32⟩
  | 101 => ⟨S800000x64, .f32⟩
  | 102 => ⟨S_, .f32⟩
  | 103 => ⟨S50000x64, .f32⟩
  | 104 => ⟨S800000x1, .i32⟩
  | 105 => ⟨S50000x64, .f32⟩
  | 106 => ⟨S50000x1, .f32⟩
  | 107 => ⟨S50000x64, .f32⟩
  | 108 => ⟨S50000x64, .f32⟩
  | 109 => ⟨S50000x64, .f32⟩
  | 110 => ⟨S50000x64, .f32⟩
  | 111 => ⟨S_, .f32⟩
  | 112 => ⟨S500x64, .f32⟩
  | 113 => ⟨S50000x1, .i32⟩
  | 114 => ⟨S500x64, .f32⟩
  | 115 => ⟨S1x64, .f32⟩
  | 116 => ⟨S1x64, .f32⟩
  | 117 => ⟨S1x64, .f32⟩
  | 118 => ⟨S1x1, .f32⟩
  | 119 => ⟨S1x64, .f32⟩
  | 120 => ⟨S1x64, .f32⟩
  | 121 => ⟨S500x1, .f32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S50000x128, .f32⟩

abbrev hbmTy0_3 (i : Nat) : BufTy := match i % 128 with
  | 0 => ⟨S800000, .i32⟩
  | 1 => ⟨S800000x1, .i32⟩
  | 2 => ⟨S800000x64, .f32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S800000x64, .f32⟩
  | 12 => ⟨S800000x64, .f32⟩
  | 13 => ⟨S800000x64, .f32⟩
  | 14 => ⟨S_, .f32⟩
  | 15 => ⟨S_, .f32⟩
  | 16 => ⟨S_, .f32⟩
  | 17 => ⟨S_, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev vmemTy0_0 (i : Nat) : BufTy := match i % 128 with
  | 0 => ⟨S5000x128, .f32⟩
  | 1 => ⟨S5000x128, .f32⟩
  | 2 => ⟨S128x64, .f32⟩
  | 3 => ⟨S5000x64, .f32⟩
  | 4 => ⟨S5000x64, .f32⟩
  | 5 => ⟨S5000x64, .f32⟩
  | 6 => ⟨S5000x64, .f32⟩
  | 7 => ⟨S1x64, .f32⟩
  | 8 => ⟨S5000x64, .f32⟩
  | 9 => ⟨S5000x64, .f32⟩
  | 10 => ⟨S5000x64, .f32⟩
  | 11 => ⟨S5000x64, .f32⟩
  | 12 => ⟨S64x64, .f32⟩
  | 13 => ⟨S5000x64, .f32⟩
  | 14 => ⟨S5000x64, .f32⟩
  | 15 => ⟨S5000x64, .f32⟩
  | 16 => ⟨S5000x64, .f32⟩
  | 17 => ⟨S1x64, .f32⟩
  | 18 => ⟨S5000x64, .f32⟩
  | 19 => ⟨S5000x64, .f32⟩
  | 20 => ⟨S5000x64, .f32⟩
  | 21 => ⟨S5000x64, .f32⟩
  | 22 => ⟨S64x64, .f32⟩
  | 23 => ⟨S5000x64, .f32⟩
  | 24 => ⟨S5000x64, .f32⟩
  | 25 => ⟨S5000x64, .f32⟩
  | 26 => ⟨S5000x64, .f32⟩
  | 27 => ⟨S1x64, .f32⟩
  | 28 => ⟨S5000x64, .f32⟩
  | 29 => ⟨S5000x64, .f32⟩
  | 30 => ⟨S5000x64, .f32⟩
  | 31 => ⟨S5000x64, .f32⟩
  | 32 => ⟨S5000x64, .f32⟩
  | 33 => ⟨S5000x64, .f32⟩
  | 34 => ⟨S5000x64, .f32⟩
  | 35 => ⟨S5000x64, .f32⟩
  | 36 => ⟨S5000x64, .f32⟩
  | 37 => ⟨S5000x64, .f32⟩
  | 38 => ⟨S5000x64, .f32⟩
  | 39 => ⟨S5000x64, .f32⟩
  | 40 => ⟨S64x64, .f32⟩
  | 41 => ⟨S5000x64, .f32⟩
  | 42 => ⟨S5000x64, .f32⟩
  | 43 => ⟨S5000x64, .f32⟩
  | 44 => ⟨S5000x64, .f32⟩
  | 45 => ⟨S1x64, .f32⟩
  | 46 => ⟨S5000x64, .f32⟩
  | 47 => ⟨S5000x64, .f32⟩
  | 48 => ⟨S5000x64, .f32⟩
  | 49 => ⟨S5000x64, .f32⟩
  | 50 => ⟨S64x64, .f32⟩
  | 51 => ⟨S5000x64, .f32⟩
  | 52 => ⟨S5000x64, .f32⟩
  | 53 => ⟨S5000x64, .f32⟩
  | 54 => ⟨S5000x64, .f32⟩
  | 55 => ⟨S1x64, .f32⟩
  | 56 => ⟨S5000x64, .f32⟩
  | 57 => ⟨S5000x64, .f32⟩
  | 58 => ⟨S5000x64, .f32⟩
  | 59 => ⟨S5000x64, .f32⟩
  | 60 => ⟨S5000x64, .f32⟩
  | 61 => ⟨S5000x64, .f32⟩
  | 62 => ⟨S5000x64, .f32⟩
  | 63 => ⟨S5000x64, .f32⟩
  | 64 => ⟨S5000x64, .f32⟩
  | 65 => ⟨S5000x64, .f32⟩
  | 66 => ⟨S5000x64, .f32⟩
  | 67 => ⟨S5000x64, .f32⟩
  | 68 => ⟨S64x64, .f32⟩
  | 69 => ⟨S5000x64, .f32⟩
  | 70 => ⟨S5000x64, .f32⟩
  | 71 => ⟨S5000x64, .f32⟩
  | 72 => ⟨S5000x64, .f32⟩
  | 73 => ⟨S1x64, .f32⟩
  | 74 => ⟨S5000x64, .f32⟩
  | 75 => ⟨S5000x64, .f32⟩
  | 76 => ⟨S5000x64, .f32⟩
  | 77 => ⟨S5000x64, .f32⟩
  | 78 => ⟨S64x64, .f32⟩
  | 79 => ⟨S5000x64, .f32⟩
  | 80 => ⟨S5000x64, .f32⟩
  | 81 => ⟨S5000x64, .f32⟩
  | 82 => ⟨S5000x64, .f32⟩
  | 83 => ⟨S1x64, .f32⟩
  | 84 => ⟨S5000x64, .f32⟩
  | 85 => ⟨S5000x64, .f32⟩
  | 86 => ⟨S5000x64, .f32⟩
  | 87 => ⟨S5000x64, .f32⟩
  | 88 => ⟨S5000x64, .f32⟩
  | 89 => ⟨S5000x64, .f32⟩
  | 90 => ⟨S5000x64, .f32⟩
  | 91 => ⟨S5000x64, .f32⟩
  | 92 => ⟨S5000x64, .f32⟩
  | 93 => ⟨S5000x64, .f32⟩
  | 94 => ⟨S5000x64, .f32⟩
  | 95 => ⟨S5000x64, .f32⟩
  | 96 => ⟨S64x64, .f32⟩
  | 97 => ⟨S5000x64, .f32⟩
  | 98 => ⟨S5000x64, .f32⟩
  | 99 => ⟨S5000x64, .f32⟩
  | 100 => ⟨S5000x64, .f32⟩
  | 101 => ⟨S1x64, .f32⟩
  | 102 => ⟨S5000x64, .f32⟩
  | 103 => ⟨S5000x64, .f32⟩
  | 104 => ⟨S5000x64, .f32⟩
  | 105 => ⟨S5000x64, .f32⟩
  | 106 => ⟨S64x64, .f32⟩
  | 107 => ⟨S5000x64, .f32⟩
  | 108 => ⟨S5000x64, .f32⟩
  | 109 => ⟨S5000x64, .f32⟩
  | 110 => ⟨S5000x64, .f32⟩
  | 111 => ⟨S1x64, .f32⟩
  | 112 => ⟨S5000x64, .f32⟩
  | 113 => ⟨S5000x64, .f32⟩
  | 114 => ⟨S5000x64, .f32⟩
  | 115 => ⟨S5000x64, .f32⟩
  | 116 => ⟨S5000x64, .f32⟩
  | 117 => ⟨S5000x64, .f32⟩
  | 118 => ⟨S5000x64, .f32⟩
  | 119 => ⟨S5000x64, .f32⟩
  | 120 => ⟨S5000x64, .f32⟩
  | 121 => ⟨S5000x64, .f32⟩
  | 122 => ⟨S500x64, .f32⟩
  | 123 => ⟨S64x64, .f32⟩
  | 124 => ⟨S1x64, .f32⟩
  | 125 => ⟨S64x64, .f32⟩
  | 126 => ⟨S1x64, .f32⟩
  | 127 => ⟨S64x64, .f32⟩
  | _ => ⟨S50000x128, .f32⟩

abbrev vmemTy0_1 (i : Nat) : BufTy := match i % 128 with
  | 0 => ⟨S1x64, .f32⟩
  | 1 => ⟨S64x1, .f32⟩
  | 2 => ⟨S1x1, .f32⟩
  | 3 => ⟨S1x64, .f32⟩
  | 4 => ⟨S1x64, .f32⟩
  | 5 => ⟨S500x1, .f32⟩
  | _ => ⟨S50000x128, .f32⟩

abbrev vmemTy (i : Nat) : BufTy := match i / 128 with
  | 0 => vmemTy0_0 i
  | 1 => vmemTy0_1 i
  | _ => ⟨S50000x128, .f32⟩

abbrev bufTy : (tb : Table) → Fin (tcTables nBuf tb) → BufTy
  | .hbm, ⟨i, _⟩ => hbmTy i
  | .local _ .vmem, ⟨i, _⟩ => vmemTy i
  | _, _ => ⟨S50000x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 134 → Bool
  | ⟨i, _⟩ => dmaSemScopedAt i

abbrev sig : RefSig :=
  ofTc nBuf bufTy 0 134 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_cst_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_1 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_c : Ref sig .tc := ⟨.hbm, 36, rfl⟩
abbrev main_v14 : Ref sig .tc := ⟨.hbm, 37, rfl⟩
abbrev main_v15 : Ref sig .tc := ⟨.hbm, 38, rfl⟩
abbrev main_c_2 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_c_3 : Ref sig .tc := ⟨.hbm, 45, rfl⟩
abbrev main_v21 : Ref sig .tc := ⟨.hbm, 46, rfl⟩
abbrev main_v22 : Ref sig .tc := ⟨.hbm, 47, rfl⟩
abbrev main_c_4 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_5 : Ref sig .tc := ⟨.hbm, 55, rfl⟩
abbrev main_v29 : Ref sig .tc := ⟨.hbm, 56, rfl⟩
abbrev main_cst_6 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_7 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_c_8 : Ref sig .tc := ⟨.hbm, 72, rfl⟩
abbrev main_v43 : Ref sig .tc := ⟨.hbm, 73, rfl⟩
abbrev main_v44 : Ref sig .tc := ⟨.hbm, 74, rfl⟩
abbrev main_c_9 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_10 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_c_11 : Ref sig .tc := ⟨.hbm, 95, rfl⟩
abbrev main_v63 : Ref sig .tc := ⟨.hbm, 96, rfl⟩
abbrev main_v64 : Ref sig .tc := ⟨.hbm, 97, rfl⟩
abbrev main_c_12 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_13 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_c_14 : Ref sig .tc := ⟨.hbm, 113, rfl⟩
abbrev main_v78 : Ref sig .tc := ⟨.hbm, 114, rfl⟩
abbrev main_v79 : Ref sig .tc := ⟨.hbm, 115, rfl⟩
abbrev main_c_15 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_c_16 : Ref sig .tc := ⟨.hbm, 122, rfl⟩
abbrev main_v85 : Ref sig .tc := ⟨.hbm, 123, rfl⟩
abbrev main_v86 : Ref sig .tc := ⟨.hbm, 124, rfl⟩
abbrev main_c_17 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_cst_18 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_c_19 : Ref sig .tc := ⟨.hbm, 147, rfl⟩
abbrev main_v107 : Ref sig .tc := ⟨.hbm, 148, rfl⟩
abbrev main_v108 : Ref sig .tc := ⟨.hbm, 149, rfl⟩
abbrev main_c_20 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_cst_21 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_c_22 : Ref sig .tc := ⟨.hbm, 170, rfl⟩
abbrev main_v127 : Ref sig .tc := ⟨.hbm, 171, rfl⟩
abbrev main_v128 : Ref sig .tc := ⟨.hbm, 172, rfl⟩
abbrev main_c_23 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_cst_24 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_c_25 : Ref sig .tc := ⟨.hbm, 188, rfl⟩
abbrev main_v142 : Ref sig .tc := ⟨.hbm, 189, rfl⟩
abbrev main_v143 : Ref sig .tc := ⟨.hbm, 190, rfl⟩
abbrev main_c_26 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_c_27 : Ref sig .tc := ⟨.hbm, 197, rfl⟩
abbrev main_v149 : Ref sig .tc := ⟨.hbm, 198, rfl⟩
abbrev main_v150 : Ref sig .tc := ⟨.hbm, 199, rfl⟩
abbrev main_c_28 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_cst_29 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_c_30 : Ref sig .tc := ⟨.hbm, 222, rfl⟩
abbrev main_v171 : Ref sig .tc := ⟨.hbm, 223, rfl⟩
abbrev main_v172 : Ref sig .tc := ⟨.hbm, 224, rfl⟩
abbrev main_c_31 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_cst_32 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_c_33 : Ref sig .tc := ⟨.hbm, 245, rfl⟩
abbrev main_v191 : Ref sig .tc := ⟨.hbm, 246, rfl⟩
abbrev main_v192 : Ref sig .tc := ⟨.hbm, 247, rfl⟩
abbrev main_c_34 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_cst_35 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_c_36 : Ref sig .tc := ⟨.hbm, 263, rfl⟩
abbrev main_v206 : Ref sig .tc := ⟨.hbm, 264, rfl⟩
abbrev main_v207 : Ref sig .tc := ⟨.hbm, 265, rfl⟩
abbrev main_c_37 : Ref sig .tc := ⟨.hbm, 266, rfl⟩
abbrev main_v208 : Ref sig .tc := ⟨.hbm, 267, rfl⟩
abbrev main_v209 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_c_38 : Ref sig .tc := ⟨.hbm, 272, rfl⟩
abbrev main_v213 : Ref sig .tc := ⟨.hbm, 273, rfl⟩
abbrev main_v214 : Ref sig .tc := ⟨.hbm, 274, rfl⟩
abbrev main_c_39 : Ref sig .tc := ⟨.hbm, 275, rfl⟩
abbrev main_v215 : Ref sig .tc := ⟨.hbm, 276, rfl⟩
abbrev main_v216 : Ref sig .tc := ⟨.hbm, 277, rfl⟩
abbrev main_v217 : Ref sig .tc := ⟨.hbm, 278, rfl⟩
abbrev main_v218 : Ref sig .tc := ⟨.hbm, 279, rfl⟩
abbrev main_v219 : Ref sig .tc := ⟨.hbm, 280, rfl⟩
abbrev main_v220 : Ref sig .tc := ⟨.hbm, 281, rfl⟩
abbrev main_v221 : Ref sig .tc := ⟨.hbm, 282, rfl⟩
abbrev main_cst_40 : Ref sig .tc := ⟨.hbm, 283, rfl⟩
abbrev main_v222 : Ref sig .tc := ⟨.hbm, 284, rfl⟩
abbrev main_v223 : Ref sig .tc := ⟨.hbm, 285, rfl⟩
abbrev main_v224 : Ref sig .tc := ⟨.hbm, 286, rfl⟩
abbrev main_v225 : Ref sig .tc := ⟨.hbm, 287, rfl⟩
abbrev main_v226 : Ref sig .tc := ⟨.hbm, 288, rfl⟩
abbrev main_v227 : Ref sig .tc := ⟨.hbm, 289, rfl⟩
abbrev main_v228 : Ref sig .tc := ⟨.hbm, 290, rfl⟩
abbrev main_v229 : Ref sig .tc := ⟨.hbm, 291, rfl⟩
abbrev main_v230 : Ref sig .tc := ⟨.hbm, 292, rfl⟩
abbrev main_v231 : Ref sig .tc := ⟨.hbm, 293, rfl⟩
abbrev main_v232 : Ref sig .tc := ⟨.hbm, 294, rfl⟩
abbrev main_v233 : Ref sig .tc := ⟨.hbm, 295, rfl⟩
abbrev main_v234 : Ref sig .tc := ⟨.hbm, 296, rfl⟩
abbrev main_c_41 : Ref sig .tc := ⟨.hbm, 297, rfl⟩
abbrev main_v235 : Ref sig .tc := ⟨.hbm, 298, rfl⟩
abbrev main_v236 : Ref sig .tc := ⟨.hbm, 299, rfl⟩
abbrev main_c_42 : Ref sig .tc := ⟨.hbm, 300, rfl⟩
abbrev main_v237 : Ref sig .tc := ⟨.hbm, 301, rfl⟩
abbrev main_v238 : Ref sig .tc := ⟨.hbm, 302, rfl⟩
abbrev main_v239 : Ref sig .tc := ⟨.hbm, 303, rfl⟩
abbrev main_v240 : Ref sig .tc := ⟨.hbm, 304, rfl⟩
abbrev main_v241 : Ref sig .tc := ⟨.hbm, 305, rfl⟩
abbrev main_v242 : Ref sig .tc := ⟨.hbm, 306, rfl⟩
abbrev main_v243 : Ref sig .tc := ⟨.hbm, 307, rfl⟩
abbrev main_v244 : Ref sig .tc := ⟨.hbm, 308, rfl⟩
abbrev main_cst_43 : Ref sig .tc := ⟨.hbm, 309, rfl⟩
abbrev main_v245 : Ref sig .tc := ⟨.hbm, 310, rfl⟩
abbrev main_v246 : Ref sig .tc := ⟨.hbm, 311, rfl⟩
abbrev main_v247 : Ref sig .tc := ⟨.hbm, 312, rfl⟩
abbrev main_v248 : Ref sig .tc := ⟨.hbm, 313, rfl⟩
abbrev main_v249 : Ref sig .tc := ⟨.hbm, 314, rfl⟩
abbrev main_v250 : Ref sig .tc := ⟨.hbm, 315, rfl⟩
abbrev main_v251 : Ref sig .tc := ⟨.hbm, 316, rfl⟩
abbrev main_v252 : Ref sig .tc := ⟨.hbm, 317, rfl⟩
abbrev main_v253 : Ref sig .tc := ⟨.hbm, 318, rfl⟩
abbrev main_v254 : Ref sig .tc := ⟨.hbm, 319, rfl⟩
abbrev main_c_44 : Ref sig .tc := ⟨.hbm, 320, rfl⟩
abbrev main_v255 : Ref sig .tc := ⟨.hbm, 321, rfl⟩
abbrev main_v256 : Ref sig .tc := ⟨.hbm, 322, rfl⟩
abbrev main_c_45 : Ref sig .tc := ⟨.hbm, 323, rfl⟩
abbrev main_v257 : Ref sig .tc := ⟨.hbm, 324, rfl⟩
abbrev main_v258 : Ref sig .tc := ⟨.hbm, 325, rfl⟩
abbrev main_v259 : Ref sig .tc := ⟨.hbm, 326, rfl⟩
abbrev main_v260 : Ref sig .tc := ⟨.hbm, 327, rfl⟩
abbrev main_v261 : Ref sig .tc := ⟨.hbm, 328, rfl⟩
abbrev main_v262 : Ref sig .tc := ⟨.hbm, 329, rfl⟩
abbrev main_v263 : Ref sig .tc := ⟨.hbm, 330, rfl⟩
abbrev main_v264 : Ref sig .tc := ⟨.hbm, 331, rfl⟩
abbrev main_cst_46 : Ref sig .tc := ⟨.hbm, 332, rfl⟩
abbrev main_v265 : Ref sig .tc := ⟨.hbm, 333, rfl⟩
abbrev main_v266 : Ref sig .tc := ⟨.hbm, 334, rfl⟩
abbrev main_v267 : Ref sig .tc := ⟨.hbm, 335, rfl⟩
abbrev main_v268 : Ref sig .tc := ⟨.hbm, 336, rfl⟩
abbrev main_v269 : Ref sig .tc := ⟨.hbm, 337, rfl⟩
abbrev main_c_47 : Ref sig .tc := ⟨.hbm, 338, rfl⟩
abbrev main_v270 : Ref sig .tc := ⟨.hbm, 339, rfl⟩
abbrev main_v271 : Ref sig .tc := ⟨.hbm, 340, rfl⟩
abbrev main_c_48 : Ref sig .tc := ⟨.hbm, 341, rfl⟩
abbrev main_v272 : Ref sig .tc := ⟨.hbm, 342, rfl⟩
abbrev main_v273 : Ref sig .tc := ⟨.hbm, 343, rfl⟩
abbrev main_v274 : Ref sig .tc := ⟨.hbm, 344, rfl⟩
abbrev main_v275 : Ref sig .tc := ⟨.hbm, 345, rfl⟩
abbrev main_v276 : Ref sig .tc := ⟨.hbm, 346, rfl⟩
abbrev main_c_49 : Ref sig .tc := ⟨.hbm, 347, rfl⟩
abbrev main_v277 : Ref sig .tc := ⟨.hbm, 348, rfl⟩
abbrev main_v278 : Ref sig .tc := ⟨.hbm, 349, rfl⟩
abbrev main_c_50 : Ref sig .tc := ⟨.hbm, 350, rfl⟩
abbrev main_v279 : Ref sig .tc := ⟨.hbm, 351, rfl⟩
abbrev main_v280 : Ref sig .tc := ⟨.hbm, 352, rfl⟩
abbrev main_v281 : Ref sig .tc := ⟨.hbm, 353, rfl⟩
abbrev main_v282 : Ref sig .tc := ⟨.hbm, 354, rfl⟩
abbrev main_v283 : Ref sig .tc := ⟨.hbm, 355, rfl⟩
abbrev main_v284 : Ref sig .tc := ⟨.hbm, 356, rfl⟩
abbrev main_v285 : Ref sig .tc := ⟨.hbm, 357, rfl⟩
abbrev main_cst_51 : Ref sig .tc := ⟨.hbm, 358, rfl⟩
abbrev main_v286 : Ref sig .tc := ⟨.hbm, 359, rfl⟩
abbrev main_v287 : Ref sig .tc := ⟨.hbm, 360, rfl⟩
abbrev main_v288 : Ref sig .tc := ⟨.hbm, 361, rfl⟩
abbrev main_v289 : Ref sig .tc := ⟨.hbm, 362, rfl⟩
abbrev main_v290 : Ref sig .tc := ⟨.hbm, 363, rfl⟩
abbrev main_v291 : Ref sig .tc := ⟨.hbm, 364, rfl⟩
abbrev main_v292 : Ref sig .tc := ⟨.hbm, 365, rfl⟩
abbrev main_v293 : Ref sig .tc := ⟨.hbm, 366, rfl⟩
abbrev main_cst_52 : Ref sig .tc := ⟨.hbm, 367, rfl⟩
abbrev main_v294 : Ref sig .tc := ⟨.hbm, 368, rfl⟩
abbrev main_v295 : Ref sig .tc := ⟨.hbm, 369, rfl⟩
abbrev main_v296 : Ref sig .tc := ⟨.hbm, 370, rfl⟩
abbrev main_v297 : Ref sig .tc := ⟨.hbm, 371, rfl⟩
abbrev main_v298 : Ref sig .tc := ⟨.hbm, 372, rfl⟩
abbrev main_v299 : Ref sig .tc := ⟨.hbm, 373, rfl⟩
abbrev main_v300 : Ref sig .tc := ⟨.hbm, 374, rfl⟩
abbrev main_v301 : Ref sig .tc := ⟨.hbm, 375, rfl⟩
abbrev main_v302 : Ref sig .tc := ⟨.hbm, 376, rfl⟩
abbrev main_v303 : Ref sig .tc := ⟨.hbm, 377, rfl⟩
abbrev main_c_53 : Ref sig .tc := ⟨.hbm, 378, rfl⟩
abbrev main_v304 : Ref sig .tc := ⟨.hbm, 379, rfl⟩
abbrev main_v305 : Ref sig .tc := ⟨.hbm, 380, rfl⟩
abbrev main_c_54 : Ref sig .tc := ⟨.hbm, 381, rfl⟩
abbrev main_v306 : Ref sig .tc := ⟨.hbm, 382, rfl⟩
abbrev main_v307 : Ref sig .tc := ⟨.hbm, 383, rfl⟩
abbrev main_v308 : Ref sig .tc := ⟨.hbm, 384, rfl⟩
abbrev main_v309 : Ref sig .tc := ⟨.hbm, 385, rfl⟩
abbrev main_v310 : Ref sig .tc := ⟨.hbm, 386, rfl⟩
abbrev main_c_55 : Ref sig .tc := ⟨.hbm, 387, rfl⟩
abbrev main_v311 : Ref sig .tc := ⟨.hbm, 388, rfl⟩
abbrev main_v312 : Ref sig .tc := ⟨.hbm, 389, rfl⟩
abbrev main_c_56 : Ref sig .tc := ⟨.hbm, 390, rfl⟩
abbrev main_v313 : Ref sig .tc := ⟨.hbm, 391, rfl⟩
abbrev main_v314 : Ref sig .tc := ⟨.hbm, 392, rfl⟩
abbrev main_v315 : Ref sig .tc := ⟨.hbm, 393, rfl⟩
abbrev main_v316 : Ref sig .tc := ⟨.hbm, 394, rfl⟩
abbrev main_v317 : Ref sig .tc := ⟨.hbm, 395, rfl⟩
abbrev main_v318 : Ref sig .tc := ⟨.hbm, 396, rfl⟩
abbrev main_v319 : Ref sig .tc := ⟨.hbm, 397, rfl⟩
abbrev main_cst_57 : Ref sig .tc := ⟨.hbm, 398, rfl⟩
abbrev main_v320 : Ref sig .tc := ⟨.hbm, 399, rfl⟩
abbrev main_cst_58 : Ref sig .tc := ⟨.hbm, 400, rfl⟩
abbrev main_v321 : Ref sig .tc := ⟨.hbm, 401, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg1_1 : Ref sig .tc := ⟨.vmem, 33, rfl⟩
abbrev cc6_stg2_0 : Ref sig .tc := ⟨.vmem, 34, rfl⟩
abbrev cc6_stg2_1 : Ref sig .tc := ⟨.vmem, 35, rfl⟩
abbrev cc6_stg3_0 : Ref sig .tc := ⟨.vmem, 36, rfl⟩
abbrev cc6_stg3_1 : Ref sig .tc := ⟨.vmem, 37, rfl⟩
abbrev cc7_stg0_0 : Ref sig .tc := ⟨.vmem, 38, rfl⟩
abbrev cc7_stg0_1 : Ref sig .tc := ⟨.vmem, 39, rfl⟩
abbrev cc7_stg1_0 : Ref sig .tc := ⟨.vmem, 40, rfl⟩
abbrev cc7_stg2_0 : Ref sig .tc := ⟨.vmem, 41, rfl⟩
abbrev cc7_stg2_1 : Ref sig .tc := ⟨.vmem, 42, rfl⟩
abbrev cc8_stg0_0 : Ref sig .tc := ⟨.vmem, 43, rfl⟩
abbrev cc8_stg0_1 : Ref sig .tc := ⟨.vmem, 44, rfl⟩
abbrev cc8_stg1_0 : Ref sig .tc := ⟨.vmem, 45, rfl⟩
abbrev cc8_stg2_0 : Ref sig .tc := ⟨.vmem, 46, rfl⟩
abbrev cc8_stg2_1 : Ref sig .tc := ⟨.vmem, 47, rfl⟩
abbrev cc9_stg0_0 : Ref sig .tc := ⟨.vmem, 48, rfl⟩
abbrev cc9_stg0_1 : Ref sig .tc := ⟨.vmem, 49, rfl⟩
abbrev cc9_stg1_0 : Ref sig .tc := ⟨.vmem, 50, rfl⟩
abbrev cc9_stg2_0 : Ref sig .tc := ⟨.vmem, 51, rfl⟩
abbrev cc9_stg2_1 : Ref sig .tc := ⟨.vmem, 52, rfl⟩
abbrev cc10_stg0_0 : Ref sig .tc := ⟨.vmem, 53, rfl⟩
abbrev cc10_stg0_1 : Ref sig .tc := ⟨.vmem, 54, rfl⟩
abbrev cc10_stg1_0 : Ref sig .tc := ⟨.vmem, 55, rfl⟩
abbrev cc10_stg2_0 : Ref sig .tc := ⟨.vmem, 56, rfl⟩
abbrev cc10_stg2_1 : Ref sig .tc := ⟨.vmem, 57, rfl⟩
abbrev cc11_stg0_0 : Ref sig .tc := ⟨.vmem, 58, rfl⟩
abbrev cc11_stg0_1 : Ref sig .tc := ⟨.vmem, 59, rfl⟩
abbrev cc11_stg1_0 : Ref sig .tc := ⟨.vmem, 60, rfl⟩
abbrev cc11_stg1_1 : Ref sig .tc := ⟨.vmem, 61, rfl⟩
abbrev cc11_stg2_0 : Ref sig .tc := ⟨.vmem, 62, rfl⟩
abbrev cc11_stg2_1 : Ref sig .tc := ⟨.vmem, 63, rfl⟩
abbrev cc11_stg3_0 : Ref sig .tc := ⟨.vmem, 64, rfl⟩
abbrev cc11_stg3_1 : Ref sig .tc := ⟨.vmem, 65, rfl⟩
abbrev cc12_stg0_0 : Ref sig .tc := ⟨.vmem, 66, rfl⟩
abbrev cc12_stg0_1 : Ref sig .tc := ⟨.vmem, 67, rfl⟩
abbrev cc12_stg1_0 : Ref sig .tc := ⟨.vmem, 68, rfl⟩
abbrev cc12_stg2_0 : Ref sig .tc := ⟨.vmem, 69, rfl⟩
abbrev cc12_stg2_1 : Ref sig .tc := ⟨.vmem, 70, rfl⟩
abbrev cc13_stg0_0 : Ref sig .tc := ⟨.vmem, 71, rfl⟩
abbrev cc13_stg0_1 : Ref sig .tc := ⟨.vmem, 72, rfl⟩
abbrev cc13_stg1_0 : Ref sig .tc := ⟨.vmem, 73, rfl⟩
abbrev cc13_stg2_0 : Ref sig .tc := ⟨.vmem, 74, rfl⟩
abbrev cc13_stg2_1 : Ref sig .tc := ⟨.vmem, 75, rfl⟩
abbrev cc14_stg0_0 : Ref sig .tc := ⟨.vmem, 76, rfl⟩
abbrev cc14_stg0_1 : Ref sig .tc := ⟨.vmem, 77, rfl⟩
abbrev cc14_stg1_0 : Ref sig .tc := ⟨.vmem, 78, rfl⟩
abbrev cc14_stg2_0 : Ref sig .tc := ⟨.vmem, 79, rfl⟩
abbrev cc14_stg2_1 : Ref sig .tc := ⟨.vmem, 80, rfl⟩
abbrev cc15_stg0_0 : Ref sig .tc := ⟨.vmem, 81, rfl⟩
abbrev cc15_stg0_1 : Ref sig .tc := ⟨.vmem, 82, rfl⟩
abbrev cc15_stg1_0 : Ref sig .tc := ⟨.vmem, 83, rfl⟩
abbrev cc15_stg2_0 : Ref sig .tc := ⟨.vmem, 84, rfl⟩
abbrev cc15_stg2_1 : Ref sig .tc := ⟨.vmem, 85, rfl⟩
abbrev cc16_stg0_0 : Ref sig .tc := ⟨.vmem, 86, rfl⟩
abbrev cc16_stg0_1 : Ref sig .tc := ⟨.vmem, 87, rfl⟩
abbrev cc16_stg1_0 : Ref sig .tc := ⟨.vmem, 88, rfl⟩
abbrev cc16_stg1_1 : Ref sig .tc := ⟨.vmem, 89, rfl⟩
abbrev cc16_stg2_0 : Ref sig .tc := ⟨.vmem, 90, rfl⟩
abbrev cc16_stg2_1 : Ref sig .tc := ⟨.vmem, 91, rfl⟩
abbrev cc16_stg3_0 : Ref sig .tc := ⟨.vmem, 92, rfl⟩
abbrev cc16_stg3_1 : Ref sig .tc := ⟨.vmem, 93, rfl⟩
abbrev cc17_stg0_0 : Ref sig .tc := ⟨.vmem, 94, rfl⟩
abbrev cc17_stg0_1 : Ref sig .tc := ⟨.vmem, 95, rfl⟩
abbrev cc17_stg1_0 : Ref sig .tc := ⟨.vmem, 96, rfl⟩
abbrev cc17_stg2_0 : Ref sig .tc := ⟨.vmem, 97, rfl⟩
abbrev cc17_stg2_1 : Ref sig .tc := ⟨.vmem, 98, rfl⟩
abbrev cc18_stg0_0 : Ref sig .tc := ⟨.vmem, 99, rfl⟩
abbrev cc18_stg0_1 : Ref sig .tc := ⟨.vmem, 100, rfl⟩
abbrev cc18_stg1_0 : Ref sig .tc := ⟨.vmem, 101, rfl⟩
abbrev cc18_stg2_0 : Ref sig .tc := ⟨.vmem, 102, rfl⟩
abbrev cc18_stg2_1 : Ref sig .tc := ⟨.vmem, 103, rfl⟩
abbrev cc19_stg0_0 : Ref sig .tc := ⟨.vmem, 104, rfl⟩
abbrev cc19_stg0_1 : Ref sig .tc := ⟨.vmem, 105, rfl⟩
abbrev cc19_stg1_0 : Ref sig .tc := ⟨.vmem, 106, rfl⟩
abbrev cc19_stg2_0 : Ref sig .tc := ⟨.vmem, 107, rfl⟩
abbrev cc19_stg2_1 : Ref sig .tc := ⟨.vmem, 108, rfl⟩
abbrev cc20_stg0_0 : Ref sig .tc := ⟨.vmem, 109, rfl⟩
abbrev cc20_stg0_1 : Ref sig .tc := ⟨.vmem, 110, rfl⟩
abbrev cc20_stg1_0 : Ref sig .tc := ⟨.vmem, 111, rfl⟩
abbrev cc20_stg2_0 : Ref sig .tc := ⟨.vmem, 112, rfl⟩
abbrev cc20_stg2_1 : Ref sig .tc := ⟨.vmem, 113, rfl⟩
abbrev cc21_stg0_0 : Ref sig .tc := ⟨.vmem, 114, rfl⟩
abbrev cc21_stg0_1 : Ref sig .tc := ⟨.vmem, 115, rfl⟩
abbrev cc21_stg1_0 : Ref sig .tc := ⟨.vmem, 116, rfl⟩
abbrev cc21_stg1_1 : Ref sig .tc := ⟨.vmem, 117, rfl⟩
abbrev cc21_stg2_0 : Ref sig .tc := ⟨.vmem, 118, rfl⟩
abbrev cc21_stg2_1 : Ref sig .tc := ⟨.vmem, 119, rfl⟩
abbrev cc21_stg3_0 : Ref sig .tc := ⟨.vmem, 120, rfl⟩
abbrev cc21_stg3_1 : Ref sig .tc := ⟨.vmem, 121, rfl⟩
abbrev cc22_stg0_0 : Ref sig .tc := ⟨.vmem, 122, rfl⟩
abbrev cc22_stg1_0 : Ref sig .tc := ⟨.vmem, 123, rfl⟩
abbrev cc22_stg2_0 : Ref sig .tc := ⟨.vmem, 124, rfl⟩
abbrev cc22_stg3_0 : Ref sig .tc := ⟨.vmem, 125, rfl⟩
abbrev cc22_stg4_0 : Ref sig .tc := ⟨.vmem, 126, rfl⟩
abbrev cc22_stg5_0 : Ref sig .tc := ⟨.vmem, 127, rfl⟩
abbrev cc22_stg6_0 : Ref sig .tc := ⟨.vmem, 128, rfl⟩
abbrev cc22_stg7_0 : Ref sig .tc := ⟨.vmem, 129, rfl⟩
abbrev cc22_stg8_0 : Ref sig .tc := ⟨.vmem, 130, rfl⟩
abbrev cc22_stg9_0 : Ref sig .tc := ⟨.vmem, 131, rfl⟩
abbrev cc22_stg10_0 : Ref sig .tc := ⟨.vmem, 132, rfl⟩
abbrev cc22_stg11_0 : Ref sig .tc := ⟨.vmem, 133, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem1_1 : DmaSem sig := 33
abbrev cc6_sem2_0 : DmaSem sig := 34
abbrev cc6_sem2_1 : DmaSem sig := 35
abbrev cc6_sem3_0 : DmaSem sig := 36
abbrev cc6_sem3_1 : DmaSem sig := 37
abbrev cc7_sem0_0 : DmaSem sig := 38
abbrev cc7_sem0_1 : DmaSem sig := 39
abbrev cc7_sem1_0 : DmaSem sig := 40
abbrev cc7_sem2_0 : DmaSem sig := 41
abbrev cc7_sem2_1 : DmaSem sig := 42
abbrev cc8_sem0_0 : DmaSem sig := 43
abbrev cc8_sem0_1 : DmaSem sig := 44
abbrev cc8_sem1_0 : DmaSem sig := 45
abbrev cc8_sem2_0 : DmaSem sig := 46
abbrev cc8_sem2_1 : DmaSem sig := 47
abbrev cc9_sem0_0 : DmaSem sig := 48
abbrev cc9_sem0_1 : DmaSem sig := 49
abbrev cc9_sem1_0 : DmaSem sig := 50
abbrev cc9_sem2_0 : DmaSem sig := 51
abbrev cc9_sem2_1 : DmaSem sig := 52
abbrev cc10_sem0_0 : DmaSem sig := 53
abbrev cc10_sem0_1 : DmaSem sig := 54
abbrev cc10_sem1_0 : DmaSem sig := 55
abbrev cc10_sem2_0 : DmaSem sig := 56
abbrev cc10_sem2_1 : DmaSem sig := 57
abbrev cc11_sem0_0 : DmaSem sig := 58
abbrev cc11_sem0_1 : DmaSem sig := 59
abbrev cc11_sem1_0 : DmaSem sig := 60
abbrev cc11_sem1_1 : DmaSem sig := 61
abbrev cc11_sem2_0 : DmaSem sig := 62
abbrev cc11_sem2_1 : DmaSem sig := 63
abbrev cc11_sem3_0 : DmaSem sig := 64
abbrev cc11_sem3_1 : DmaSem sig := 65
abbrev cc12_sem0_0 : DmaSem sig := 66
abbrev cc12_sem0_1 : DmaSem sig := 67
abbrev cc12_sem1_0 : DmaSem sig := 68
abbrev cc12_sem2_0 : DmaSem sig := 69
abbrev cc12_sem2_1 : DmaSem sig := 70
abbrev cc13_sem0_0 : DmaSem sig := 71
abbrev cc13_sem0_1 : DmaSem sig := 72
abbrev cc13_sem1_0 : DmaSem sig := 73
abbrev cc13_sem2_0 : DmaSem sig := 74
abbrev cc13_sem2_1 : DmaSem sig := 75
abbrev cc14_sem0_0 : DmaSem sig := 76
abbrev cc14_sem0_1 : DmaSem sig := 77
abbrev cc14_sem1_0 : DmaSem sig := 78
abbrev cc14_sem2_0 : DmaSem sig := 79
abbrev cc14_sem2_1 : DmaSem sig := 80
abbrev cc15_sem0_0 : DmaSem sig := 81
abbrev cc15_sem0_1 : DmaSem sig := 82
abbrev cc15_sem1_0 : DmaSem sig := 83
abbrev cc15_sem2_0 : DmaSem sig := 84
abbrev cc15_sem2_1 : DmaSem sig := 85
abbrev cc16_sem0_0 : DmaSem sig := 86
abbrev cc16_sem0_1 : DmaSem sig := 87
abbrev cc16_sem1_0 : DmaSem sig := 88
abbrev cc16_sem1_1 : DmaSem sig := 89
abbrev cc16_sem2_0 : DmaSem sig := 90
abbrev cc16_sem2_1 : DmaSem sig := 91
abbrev cc16_sem3_0 : DmaSem sig := 92
abbrev cc16_sem3_1 : DmaSem sig := 93
abbrev cc17_sem0_0 : DmaSem sig := 94
abbrev cc17_sem0_1 : DmaSem sig := 95
abbrev cc17_sem1_0 : DmaSem sig := 96
abbrev cc17_sem2_0 : DmaSem sig := 97
abbrev cc17_sem2_1 : DmaSem sig := 98
abbrev cc18_sem0_0 : DmaSem sig := 99
abbrev cc18_sem0_1 : DmaSem sig := 100
abbrev cc18_sem1_0 : DmaSem sig := 101
abbrev cc18_sem2_0 : DmaSem sig := 102
abbrev cc18_sem2_1 : DmaSem sig := 103
abbrev cc19_sem0_0 : DmaSem sig := 104
abbrev cc19_sem0_1 : DmaSem sig := 105
abbrev cc19_sem1_0 : DmaSem sig := 106
abbrev cc19_sem2_0 : DmaSem sig := 107
abbrev cc19_sem2_1 : DmaSem sig := 108
abbrev cc20_sem0_0 : DmaSem sig := 109
abbrev cc20_sem0_1 : DmaSem sig := 110
abbrev cc20_sem1_0 : DmaSem sig := 111
abbrev cc20_sem2_0 : DmaSem sig := 112
abbrev cc20_sem2_1 : DmaSem sig := 113
abbrev cc21_sem0_0 : DmaSem sig := 114
abbrev cc21_sem0_1 : DmaSem sig := 115
abbrev cc21_sem1_0 : DmaSem sig := 116
abbrev cc21_sem1_1 : DmaSem sig := 117
abbrev cc21_sem2_0 : DmaSem sig := 118
abbrev cc21_sem2_1 : DmaSem sig := 119
abbrev cc21_sem3_0 : DmaSem sig := 120
abbrev cc21_sem3_1 : DmaSem sig := 121
abbrev cc22_sem0_0 : DmaSem sig := 122
abbrev cc22_sem1_0 : DmaSem sig := 123
abbrev cc22_sem2_0 : DmaSem sig := 124
abbrev cc22_sem3_0 : DmaSem sig := 125
abbrev cc22_sem4_0 : DmaSem sig := 126
abbrev cc22_sem5_0 : DmaSem sig := 127
abbrev cc22_sem6_0 : DmaSem sig := 128
abbrev cc22_sem7_0 : DmaSem sig := 129
abbrev cc22_sem8_0 : DmaSem sig := 130
abbrev cc22_sem9_0 : DmaSem sig := 131
abbrev cc22_sem10_0 : DmaSem sig := 132
abbrev cc22_sem11_0 : DmaSem sig := 133

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S5000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S5000x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S5000x64 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S5000x64 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S5000x64 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 2 → Memref sig .tc .vmem S5000x64 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S64x64 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S5000x64 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![10], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S5000x64 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x64 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 2 → Memref sig .tc .vmem S5000x64 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev grid14 : Pipeline.Grid := ⟨1, ![10], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S5000x64 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S64x64 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 2 → Memref sig .tc .vmem S5000x64 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev grid15 : Pipeline.Grid := ⟨1, ![10], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S5000x64 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S1x64 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 2 → Memref sig .tc .vmem S5000x64 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true]

abbrev grid16 : Pipeline.Grid := ⟨1, ![10], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_2 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_3 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S5000x64 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 2 → Memref sig .tc .vmem S5000x64 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true]

abbrev stage16_2 : Fin 2 → Memref sig .tc .vmem S5000x64 .f32 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true]

abbrev stage16_3 : Fin 2 → Memref sig .tc .vmem S5000x64 .f32 := fun | 0 => Memref.whole cc16_stg3_0 | 1 => Memref.whole cc16_stg3_1 | ⟨_ + 2, h⟩ => absurd h (Nat.not_lt.2 (Nat.le_add_left _ _))
abbrev sem16_3 : Fin 2 → DmaSem sig := fun | 0 => cc16_sem3_0 | 1 => cc16_sem3_1 | ⟨_ + 2, h⟩ => absurd h (Nat.not_lt.2 (Nat.le_add_left _ _))
abbrev reads16_3 : Fin grid16.rank → Bool := ![true]

abbrev grid17 : Pipeline.Grid := ⟨1, ![10], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S5000x64 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 1 → Memref sig .tc .vmem S64x64 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 2 → Memref sig .tc .vmem S5000x64 .f32 := fun | 0 => Memref.whole cc17_stg2_0 | 1 => Memref.whole cc17_stg2_1 | ⟨_ + 2, h⟩ => absurd h (Nat.not_lt.2 (Nat.le_add_left _ _))
abbrev sem17_2 : Fin 2 → DmaSem sig := fun | 0 => cc17_sem2_0 | 1 => cc17_sem2_1 | ⟨_ + 2, h⟩ => absurd h (Nat.not_lt.2 (Nat.le_add_left _ _))
abbrev reads17_2 : Fin grid17.rank → Bool := ![true]

abbrev grid18 : Pipeline.Grid := ⟨1, ![10], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_2 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S5000x64 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 1 → Memref sig .tc .vmem S1x64 .f32 := fun | 0 => Memref.whole cc18_stg1_0 | ⟨_ + 1, h⟩ => absurd h (Nat.not_lt.2 (Nat.le_add_left _ _))
abbrev sem18_1 : Fin 1 → DmaSem sig := fun | 0 => cc18_sem1_0 | ⟨_ + 1, h⟩ => absurd h (Nat.not_lt.2 (Nat.le_add_left _ _))
abbrev reads18_1 : Fin grid18.rank → Bool := ![false]

abbrev stage18_2 : Fin 2 → Memref sig .tc .vmem S5000x64 .f32 := fun | 0 => Memref.whole cc18_stg2_0 | 1 => Memref.whole cc18_stg2_1 | ⟨_ + 2, h⟩ => absurd h (Nat.not_lt.2 (Nat.le_add_left _ _))
abbrev sem18_2 : Fin 2 → DmaSem sig := fun | 0 => cc18_sem2_0 | 1 => cc18_sem2_1 | ⟨_ + 2, h⟩ => absurd h (Nat.not_lt.2 (Nat.le_add_left _ _))
abbrev reads18_2 : Fin grid18.rank → Bool := ![true]

abbrev grid19 : Pipeline.Grid := ⟨1, ![10], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_2 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S5000x64 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 1 → Memref sig .tc .vmem S64x64 .f32 := fun | 0 => Memref.whole cc19_stg1_0 | ⟨_ + 1, h⟩ => absurd h (Nat.not_lt.2 (Nat.le_add_left _ _))
abbrev sem19_1 : Fin 1 → DmaSem sig := fun | 0 => cc19_sem1_0 | ⟨_ + 1, h⟩ => absurd h (Nat.not_lt.2 (Nat.le_add_left _ _))
abbrev reads19_1 : Fin grid19.rank → Bool := ![false]

abbrev stage19_2 : Fin 2 → Memref sig .tc .vmem S5000x64 .f32 := fun | 0 => Memref.whole cc19_stg2_0 | 1 => Memref.whole cc19_stg2_1 | ⟨_ + 2, h⟩ => absurd h (Nat.not_lt.2 (Nat.le_add_left _ _))
abbrev sem19_2 : Fin 2 → DmaSem sig := fun | 0 => cc19_sem2_0 | 1 => cc19_sem2_1 | ⟨_ + 2, h⟩ => absurd h (Nat.not_lt.2 (Nat.le_add_left _ _))
abbrev reads19_2 : Fin grid19.rank → Bool := ![true]

abbrev grid20 : Pipeline.Grid := ⟨1, ![10], ![false]⟩

def cc20_transform_0 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_1 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_2 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage20_0 : Fin 2 → Memref sig .tc .vmem S5000x64 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 1 → Memref sig .tc .vmem S1x64 .f32 := fun | 0 => Memref.whole cc20_stg1_0 | ⟨_ + 1, h⟩ => absurd h (Nat.not_lt.2 (Nat.le_add_left _ _))
abbrev sem20_1 : Fin 1 → DmaSem sig := fun | 0 => cc20_sem1_0 | ⟨_ + 1, h⟩ => absurd h (Nat.not_lt.2 (Nat.le_add_left _ _))
abbrev reads20_1 : Fin grid20.rank → Bool := ![false]

abbrev stage20_2 : Fin 2 → Memref sig .tc .vmem S5000x64 .f32 := fun | 0 => Memref.whole cc20_stg2_0 | 1 => Memref.whole cc20_stg2_1 | ⟨_ + 2, h⟩ => absurd h (Nat.not_lt.2 (Nat.le_add_left _ _))
abbrev sem20_2 : Fin 2 → DmaSem sig := fun | 0 => cc20_sem2_0 | 1 => cc20_sem2_1 | ⟨_ + 2, h⟩ => absurd h (Nat.not_lt.2 (Nat.le_add_left _ _))
abbrev reads20_2 : Fin grid20.rank → Bool := ![true]

abbrev grid21 : Pipeline.Grid := ⟨1, ![10], ![false]⟩

def cc21_transform_0 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_1 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_2 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_3 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage21_0 : Fin 2 → Memref sig .tc .vmem S5000x64 .f32 := fun | 0 => Memref.whole cc21_stg0_0 | 1 => Memref.whole cc21_stg0_1 | ⟨_ + 2, h⟩ => absurd h (Nat.not_lt.2 (Nat.le_add_left _ _))
abbrev sem21_0 : Fin 2 → DmaSem sig := fun | 0 => cc21_sem0_0 | 1 => cc21_sem0_1 | ⟨_ + 2, h⟩ => absurd h (Nat.not_lt.2 (Nat.le_add_left _ _))
abbrev reads21_0 : Fin grid21.rank → Bool := ![true]

abbrev stage21_1 : Fin 2 → Memref sig .tc .vmem S5000x64 .f32 := fun | 0 => Memref.whole cc21_stg1_0 | 1 => Memref.whole cc21_stg1_1 | ⟨_ + 2, h⟩ => absurd h (Nat.not_lt.2 (Nat.le_add_left _ _))
abbrev sem21_1 : Fin 2 → DmaSem sig := fun | 0 => cc21_sem1_0 | 1 => cc21_sem1_1 | ⟨_ + 2, h⟩ => absurd h (Nat.not_lt.2 (Nat.le_add_left _ _))
abbrev reads21_1 : Fin grid21.rank → Bool := ![true]

abbrev stage21_2 : Fin 2 → Memref sig .tc .vmem S5000x64 .f32 := fun | 0 => Memref.whole cc21_stg2_0 | 1 => Memref.whole cc21_stg2_1 | ⟨_ + 2, h⟩ => absurd h (Nat.not_lt.2 (Nat.le_add_left _ _))
abbrev sem21_2 : Fin 2 → DmaSem sig := fun | 0 => cc21_sem2_0 | 1 => cc21_sem2_1 | ⟨_ + 2, h⟩ => absurd h (Nat.not_lt.2 (Nat.le_add_left _ _))
abbrev reads21_2 : Fin grid21.rank → Bool := ![true]

abbrev stage21_3 : Fin 2 → Memref sig .tc .vmem S5000x64 .f32 := fun | 0 => Memref.whole cc21_stg3_0 | 1 => Memref.whole cc21_stg3_1 | ⟨_ + 2, h⟩ => absurd h (Nat.not_lt.2 (Nat.le_add_left _ _))
abbrev sem21_3 : Fin 2 → DmaSem sig := fun | 0 => cc21_sem3_0 | 1 => cc21_sem3_1 | ⟨_ + 2, h⟩ => absurd h (Nat.not_lt.2 (Nat.le_add_left _ _))
abbrev reads21_3 : Fin grid21.rank → Bool := ![true]

abbrev grid22 : Pipeline.Grid := ⟨1, ![1], ![false]⟩

def cc22_transform_0 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_1 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_2 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_3 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_4 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_5 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_6 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_7 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_8 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_9 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_10 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_11 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage22_0 : Fin 1 → Memref sig .tc .vmem S500x64 .f32 := fun | 0 => Memref.whole cc22_stg0_0 | ⟨_ + 1, h⟩ => absurd h (Nat.not_lt.2 (Nat.le_add_left _ _))
abbrev sem22_0 : Fin 1 → DmaSem sig := fun | 0 => cc22_sem0_0 | ⟨_ + 1, h⟩ => absurd h (Nat.not_lt.2 (Nat.le_add_left _ _))
abbrev reads22_0 : Fin grid22.rank → Bool := ![false]

abbrev stage22_1 : Fin 1 → Memref sig .tc .vmem S64x64 .f32 := fun | 0 => Memref.whole cc22_stg1_0 | ⟨_ + 1, h⟩ => absurd h (Nat.not_lt.2 (Nat.le_add_left _ _))
abbrev sem22_1 : Fin 1 → DmaSem sig := fun | 0 => cc22_sem1_0 | ⟨_ + 1, h⟩ => absurd h (Nat.not_lt.2 (Nat.le_add_left _ _))
abbrev reads22_1 : Fin grid22.rank → Bool := ![false]

abbrev stage22_2 : Fin 1 → Memref sig .tc .vmem S1x64 .f32 := fun | 0 => Memref.whole cc22_stg2_0 | ⟨_ + 1, h⟩ => absurd h (Nat.not_lt.2 (Nat.le_add_left _ _))
abbrev sem22_2 : Fin 1 → DmaSem sig := fun | 0 => cc22_sem2_0 | ⟨_ + 1, h⟩ => absurd h (Nat.not_lt.2 (Nat.le_add_left _ _))
abbrev reads22_2 : Fin grid22.rank → Bool := ![false]

abbrev stage22_3 : Fin 1 → Memref sig .tc .vmem S64x64 .f32 := fun | 0 => Memref.whole cc22_stg3_0 | ⟨_ + 1, h⟩ => absurd h (Nat.not_lt.2 (Nat.le_add_left _ _))
abbrev sem22_3 : Fin 1 → DmaSem sig := fun | 0 => cc22_sem3_0 | ⟨_ + 1, h⟩ => absurd h (Nat.not_lt.2 (Nat.le_add_left _ _))
abbrev reads22_3 : Fin grid22.rank → Bool := ![false]

abbrev stage22_4 : Fin 1 → Memref sig .tc .vmem S1x64 .f32 := fun | 0 => Memref.whole cc22_stg4_0 | ⟨_ + 1, h⟩ => absurd h (Nat.not_lt.2 (Nat.le_add_left _ _))
abbrev sem22_4 : Fin 1 → DmaSem sig := fun | 0 => cc22_sem4_0 | ⟨_ + 1, h⟩ => absurd h (Nat.not_lt.2 (Nat.le_add_left _ _))
abbrev reads22_4 : Fin grid22.rank → Bool := ![false]

abbrev stage22_5 : Fin 1 → Memref sig .tc .vmem S64x64 .f32 := fun | 0 => Memref.whole cc22_stg5_0 | ⟨_ + 1, h⟩ => absurd h (Nat.not_lt.2 (Nat.le_add_left _ _))
abbrev sem22_5 : Fin 1 → DmaSem sig := fun | 0 => cc22_sem5_0 | ⟨_ + 1, h⟩ => absurd h (Nat.not_lt.2 (Nat.le_add_left _ _))
abbrev reads22_5 : Fin grid22.rank → Bool := ![false]

abbrev stage22_6 : Fin 1 → Memref sig .tc .vmem S1x64 .f32 := fun | 0 => Memref.whole cc22_stg6_0 | ⟨_ + 1, h⟩ => absurd h (Nat.not_lt.2 (Nat.le_add_left _ _))
abbrev sem22_6 : Fin 1 → DmaSem sig := fun | 0 => cc22_sem6_0 | ⟨_ + 1, h⟩ => absurd h (Nat.not_lt.2 (Nat.le_add_left _ _))
abbrev reads22_6 : Fin grid22.rank → Bool := ![false]

abbrev stage22_7 : Fin 1 → Memref sig .tc .vmem S64x1 .f32 := fun | 0 => Memref.whole cc22_stg7_0 | ⟨_ + 1, h⟩ => absurd h (Nat.not_lt.2 (Nat.le_add_left _ _))
abbrev sem22_7 : Fin 1 → DmaSem sig := fun | 0 => cc22_sem7_0 | ⟨_ + 1, h⟩ => absurd h (Nat.not_lt.2 (Nat.le_add_left _ _))
abbrev reads22_7 : Fin grid22.rank → Bool := ![false]

abbrev stage22_8 : Fin 1 → Memref sig .tc .vmem S1x1 .f32 := fun | 0 => Memref.whole cc22_stg8_0 | ⟨_ + 1, h⟩ => absurd h (Nat.not_lt.2 (Nat.le_add_left _ _))
abbrev sem22_8 : Fin 1 → DmaSem sig := fun | 0 => cc22_sem8_0 | ⟨_ + 1, h⟩ => absurd h (Nat.not_lt.2 (Nat.le_add_left _ _))
abbrev reads22_8 : Fin grid22.rank → Bool := ![false]

abbrev stage22_9 : Fin 1 → Memref sig .tc .vmem S1x64 .f32 := fun | 0 => Memref.whole cc22_stg9_0 | ⟨_ + 1, h⟩ => absurd h (Nat.not_lt.2 (Nat.le_add_left _ _))
abbrev sem22_9 : Fin 1 → DmaSem sig := fun | 0 => cc22_sem9_0 | ⟨_ + 1, h⟩ => absurd h (Nat.not_lt.2 (Nat.le_add_left _ _))
abbrev reads22_9 : Fin grid22.rank → Bool := ![false]

abbrev stage22_10 : Fin 1 → Memref sig .tc .vmem S1x64 .f32 := fun | 0 => Memref.whole cc22_stg10_0 | ⟨_ + 1, h⟩ => absurd h (Nat.not_lt.2 (Nat.le_add_left _ _))
abbrev sem22_10 : Fin 1 → DmaSem sig := fun | 0 => cc22_sem10_0 | ⟨_ + 1, h⟩ => absurd h (Nat.not_lt.2 (Nat.le_add_left _ _))
abbrev reads22_10 : Fin grid22.rank → Bool := ![false]

abbrev stage22_11 : Fin 1 → Memref sig .tc .vmem S500x1 .f32 := fun | 0 => Memref.whole cc22_stg11_0 | ⟨_ + 1, h⟩ => absurd h (Nat.not_lt.2 (Nat.le_add_left _ _))
abbrev sem22_11 : Fin 1 → DmaSem sig := fun | 0 => cc22_sem11_0 | ⟨_ + 1, h⟩ => absurd h (Nat.not_lt.2 (Nat.le_add_left _ _))
abbrev reads22_11 : Fin grid22.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S_S800000 : S_.BroadcastsInDim S800000 (![] : Fin 0 → Fin S800000.rank)
  bcast_S800000_S800000x1_0 : S800000.BroadcastsInDim S800000x1 (![0] : Fin 1 → Fin S800000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  bcast_S_S500x64 : S_.BroadcastsInDim S500x64 (![] : Fin 0 → Fin S500x64.rank)
  shapeCasts_S1_S1x1 : S1.ShapeCasts S1x1
  inb_S500x64_S500x64_0_0 : ∀ a, (![0, 0] : Fin 2 → Nat) a + S500x64.size a ≤ S500x64.size a
  h_S500x64 : 0 < S500x64.numel
  shapeCasts_S500x64_S500x64 : S500x64.ShapeCasts S500x64
  broadcasts_S1x64_S500x64 : S1x64.Broadcasts S500x64
  reduces_S500x64_S64 : S500x64.Reduces [0] S64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S500x1 : S1x1.Broadcasts S500x1
  inb_S500x1_S500x1_0_0 : ∀ a, (![0, 0] : Fin 2 → Nat) a + S500x1.size a ≤ S500x1.size a
  h_S500x1 : 0 < S500x1.numel
  reducesTo_S800000x64_S_d0_1 : S800000x64.ReducesTo [0, 1] S_
  h_S_ : 0 < S_.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  scatter_S50000_S800000x1_S800000_n_0_0_1_wf : ScatterDims.WF S50000 S800000x1 S800000 [] [0] [0] 1
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S500x64_S50000x1_S50000x64_1_0_0_1_wf : ScatterDims.WF S500x64 S50000x1 S50000x64 [1] [0] [0] 1
  dot_S500x64_S64x64_S500x64_1_0_0_1_n_n_wf : DotDims.WF S500x64 S64x64 S500x64 [1] [0] [0] [1] [] []
  dot_S500x64_S64x1_S500x1_1_0_0_1_n_n_wf : DotDims.WF S500x64 S64x1 S500x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S50000x64.size a
  hwx5_2 : ∀ i : grid5.Coords, EltTy.bits .f32 = 32 ∨ (Rect.block (s := S50000x64) S5000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S50000x64.size a
  hwx6_1 : ∀ i : grid6.Coords, EltTy.bits .f32 = 32 ∨ (Rect.block (s := S50000x64) S5000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S50000x64.size a
  hwx6_2 : ∀ i : grid6.Coords, EltTy.bits .f32 = 32 ∨ (Rect.block (s := S50000x64) S5000x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x64.size a ≤ S50000x64.size a
  hwx6_3 : ∀ i : grid6.Coords, EltTy.bits .f32 = 32 ∨ (Rect.block (s := S50000x64) S5000x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S50000x64.size a
  hwx7_0 : ∀ i : grid7.Coords, EltTy.bits .f32 = 32 ∨ (Rect.block (s := S50000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x64.size a ≤ S64x64.size a
  hwx7_1 : ∀ i : grid7.Coords, EltTy.bits .f32 = 32 ∨ (Rect.block (s := S64x64) S64x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x64.size a ≤ S50000x64.size a
  hwx7_2 : ∀ i : grid7.Coords, EltTy.bits .f32 = 32 ∨ (Rect.block (s := S50000x64) S5000x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S50000x64.size a
  hwx8_0 : ∀ i : grid8.Coords, EltTy.bits .f32 = 32 ∨ (Rect.block (s := S50000x64) S5000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x64.size a ≤ S50000x64.size a
  hwx8_2 : ∀ i : grid8.Coords, EltTy.bits .f32 = 32 ∨ (Rect.block (s := S50000x64) S5000x64.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S50000x64.size a
  hwx9_0 : ∀ i : grid9.Coords, EltTy.bits .f32 = 32 ∨ (Rect.block (s := S50000x64) S5000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x64.size a ≤ S64x64.size a
  hwx9_1 : ∀ i : grid9.Coords, EltTy.bits .f32 = 32 ∨ (Rect.block (s := S64x64) S64x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x64.size a ≤ S50000x64.size a
  hwx9_2 : ∀ i : grid9.Coords, EltTy.bits .f32 = 32 ∨ (Rect.block (s := S50000x64) S5000x64.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x64.size a ≤ S50000x64.size a
  hwx10_0 : ∀ i : grid10.Coords, EltTy.bits .f32 = 32 ∨ (Rect.block (s := S50000x64) S5000x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x64.size a ≤ S1x64.size a
  hwx10_1 : ∀ i : grid10.Coords, EltTy.bits .f32 = 32 ∨ (Rect.block (s := S1x64) S1x64.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S5000x64.size a ≤ S50000x64.size a
  hwx10_2 : ∀ i : grid10.Coords, EltTy.bits .f32 = 32 ∨ (Rect.block (s := S50000x64) S5000x64.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x64.size a ≤ S50000x64.size a
  hwx11_0 : ∀ i : grid11.Coords, EltTy.bits .f32 = 32 ∨ (Rect.block (s := S50000x64) S5000x64.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S5000x64.size a ≤ S50000x64.size a
  hwx11_1 : ∀ i : grid11.Coords, EltTy.bits .f32 = 32 ∨ (Rect.block (s := S50000x64) S5000x64.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S5000x64.size a ≤ S50000x64.size a
  hwx11_2 : ∀ i : grid11.Coords, EltTy.bits .f32 = 32 ∨ (Rect.block (s := S50000x64) S5000x64.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S5000x64.size a ≤ S50000x64.size a
  hwx11_3 : ∀ i : grid11.Coords, EltTy.bits .f32 = 32 ∨ (Rect.block (s := S50000x64) S5000x64.size (cc11_transform_3 i) (hinb11_3 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x64.size a ≤ S50000x64.size a
  hwx12_0 : ∀ i : grid12.Coords, EltTy.bits .f32 = 32 ∨ (Rect.block (s := S50000x64) S5000x64.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S64x64.size a ≤ S64x64.size a
  hwx12_1 : ∀ i : grid12.Coords, EltTy.bits .f32 = 32 ∨ (Rect.block (s := S64x64) S64x64.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S5000x64.size a ≤ S50000x64.size a
  hwx12_2 : ∀ i : grid12.Coords, EltTy.bits .f32 = 32 ∨ (Rect.block (s := S50000x64) S5000x64.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x64.size a ≤ S50000x64.size a
  hwx13_0 : ∀ i : grid13.Coords, EltTy.bits .f32 = 32 ∨ (Rect.block (s := S50000x64) S5000x64.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x64.size a ≤ S1x64.size a
  hwx13_1 : ∀ i : grid13.Coords, EltTy.bits .f32 = 32 ∨ (Rect.block (s := S1x64) S1x64.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S5000x64.size a ≤ S50000x64.size a
  hwx13_2 : ∀ i : grid13.Coords, EltTy.bits .f32 = 32 ∨ (Rect.block (s := S50000x64) S5000x64.size (cc13_transform_2 i) (hinb13_2 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S5000x64.size a ≤ S50000x64.size a
  hwx14_0 : ∀ i : grid14.Coords, EltTy.bits .f32 = 32 ∨ (Rect.block (s := S50000x64) S5000x64.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S64x64.size a ≤ S64x64.size a
  hwx14_1 : ∀ i : grid14.Coords, EltTy.bits .f32 = 32 ∨ (Rect.block (s := S64x64) S64x64.size (cc14_transform_1 i) (hinb14_1 i)).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S5000x64.size a ≤ S50000x64.size a
  hwx14_2 : ∀ i : grid14.Coords, EltTy.bits .f32 = 32 ∨ (Rect.block (s := S50000x64) S5000x64.size (cc14_transform_2 i) (hinb14_2 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S5000x64.size a ≤ S50000x64.size a
  hwx15_0 : ∀ i : grid15.Coords, EltTy.bits .f32 = 32 ∨ (Rect.block (s := S50000x64) S5000x64.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S1x64.size a ≤ S1x64.size a
  hwx15_1 : ∀ i : grid15.Coords, EltTy.bits .f32 = 32 ∨ (Rect.block (s := S1x64) S1x64.size (cc15_transform_1 i) (hinb15_1 i)).WholeWords (EltTy.packing .f32)
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S5000x64.size a ≤ S50000x64.size a
  hwx15_2 : ∀ i : grid15.Coords, EltTy.bits .f32 = 32 ∨ (Rect.block (s := S50000x64) S5000x64.size (cc15_transform_2 i) (hinb15_2 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S5000x64.size a ≤ S50000x64.size a
  hwx16_0 : ∀ i : grid16.Coords, EltTy.bits .f32 = 32 ∨ (Rect.block (s := S50000x64) S5000x64.size (cc16_transform_0 i) (hinb16_0 i)).WholeWords (EltTy.packing .f32)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S5000x64.size a ≤ S50000x64.size a
  hwx16_1 : ∀ i : grid16.Coords, EltTy.bits .f32 = 32 ∨ (Rect.block (s := S50000x64) S5000x64.size (cc16_transform_1 i) (hinb16_1 i)).WholeWords (EltTy.packing .f32)
  hstage16_2 : ∀ j, (stage16_2 j).IsWhole
  nbuf16_2 : grid16.bufCount reads16_2 false = 2
  hreads16_2 : ∀ i i' : grid16.Coords, (∀ a, reads16_2 a = true → i a = i' a) → cc16_transform_2 i = cc16_transform_2 i'
  hinb16_2 : ∀ (i : grid16.Coords) a, (cc16_transform_2 i a + 1) * S5000x64.size a ≤ S50000x64.size a
  hwx16_2 : ∀ i : grid16.Coords, EltTy.bits .f32 = 32 ∨ (Rect.block (s := S50000x64) S5000x64.size (cc16_transform_2 i) (hinb16_2 i)).WholeWords (EltTy.packing .f32)
  hstage16_3 : ∀ j, (stage16_3 j).IsWhole
  nbuf16_3 : grid16.bufCount reads16_3 false = 2
  hreads16_3 : ∀ i i' : grid16.Coords, (∀ a, reads16_3 a = true → i a = i' a) → cc16_transform_3 i = cc16_transform_3 i'
  hinb16_3 : ∀ (i : grid16.Coords) a, (cc16_transform_3 i a + 1) * S5000x64.size a ≤ S50000x64.size a
  hwx16_3 : ∀ i : grid16.Coords, EltTy.bits .f32 = 32 ∨ (Rect.block (s := S50000x64) S5000x64.size (cc16_transform_3 i) (hinb16_3 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S5000x64.size a ≤ S50000x64.size a
  hwx17_0 : ∀ i : grid17.Coords, EltTy.bits .f32 = 32 ∨ (Rect.block (s := S50000x64) S5000x64.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S64x64.size a ≤ S64x64.size a
  hwx17_1 : ∀ i : grid17.Coords, EltTy.bits .f32 = 32 ∨ (Rect.block (s := S64x64) S64x64.size (cc17_transform_1 i) (hinb17_1 i)).WholeWords (EltTy.packing .f32)
  hstage17_2 : ∀ j, (stage17_2 j).IsWhole
  nbuf17_2 : grid17.bufCount reads17_2 false = 2
  hreads17_2 : ∀ i i' : grid17.Coords, (∀ a, reads17_2 a = true → i a = i' a) → cc17_transform_2 i = cc17_transform_2 i'
  hinb17_2 : ∀ (i : grid17.Coords) a, (cc17_transform_2 i a + 1) * S5000x64.size a ≤ S50000x64.size a
  hwx17_2 : ∀ i : grid17.Coords, EltTy.bits .f32 = 32 ∨ (Rect.block (s := S50000x64) S5000x64.size (cc17_transform_2 i) (hinb17_2 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S5000x64.size a ≤ S50000x64.size a
  hwx18_0 : ∀ i : grid18.Coords, EltTy.bits .f32 = 32 ∨ (Rect.block (s := S50000x64) S5000x64.size (cc18_transform_0 i) (hinb18_0 i)).WholeWords (EltTy.packing .f32)
  hstage18_1 : ∀ j, (stage18_1 j).IsWhole
  nbuf18_1 : grid18.bufCount reads18_1 true = 1
  hreads18_1 : ∀ i i' : grid18.Coords, (∀ a, reads18_1 a = true → i a = i' a) → cc18_transform_1 i = cc18_transform_1 i'
  hinb18_1 : ∀ (i : grid18.Coords) a, (cc18_transform_1 i a + 1) * S1x64.size a ≤ S1x64.size a
  hwx18_1 : ∀ i : grid18.Coords, EltTy.bits .f32 = 32 ∨ (Rect.block (s := S1x64) S1x64.size (cc18_transform_1 i) (hinb18_1 i)).WholeWords (EltTy.packing .f32)
  hstage18_2 : ∀ j, (stage18_2 j).IsWhole
  nbuf18_2 : grid18.bufCount reads18_2 false = 2
  hreads18_2 : ∀ i i' : grid18.Coords, (∀ a, reads18_2 a = true → i a = i' a) → cc18_transform_2 i = cc18_transform_2 i'
  hinb18_2 : ∀ (i : grid18.Coords) a, (cc18_transform_2 i a + 1) * S5000x64.size a ≤ S50000x64.size a
  hwx18_2 : ∀ i : grid18.Coords, EltTy.bits .f32 = 32 ∨ (Rect.block (s := S50000x64) S5000x64.size (cc18_transform_2 i) (hinb18_2 i)).WholeWords (EltTy.packing .f32)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S5000x64.size a ≤ S50000x64.size a
  hwx19_0 : ∀ i : grid19.Coords, EltTy.bits .f32 = 32 ∨ (Rect.block (s := S50000x64) S5000x64.size (cc19_transform_0 i) (hinb19_0 i)).WholeWords (EltTy.packing .f32)
  hstage19_1 : ∀ j, (stage19_1 j).IsWhole
  nbuf19_1 : grid19.bufCount reads19_1 true = 1
  hreads19_1 : ∀ i i' : grid19.Coords, (∀ a, reads19_1 a = true → i a = i' a) → cc19_transform_1 i = cc19_transform_1 i'
  hinb19_1 : ∀ (i : grid19.Coords) a, (cc19_transform_1 i a + 1) * S64x64.size a ≤ S64x64.size a
  hwx19_1 : ∀ i : grid19.Coords, EltTy.bits .f32 = 32 ∨ (Rect.block (s := S64x64) S64x64.size (cc19_transform_1 i) (hinb19_1 i)).WholeWords (EltTy.packing .f32)
  hstage19_2 : ∀ j, (stage19_2 j).IsWhole
  nbuf19_2 : grid19.bufCount reads19_2 false = 2
  hreads19_2 : ∀ i i' : grid19.Coords, (∀ a, reads19_2 a = true → i a = i' a) → cc19_transform_2 i = cc19_transform_2 i'
  hinb19_2 : ∀ (i : grid19.Coords) a, (cc19_transform_2 i a + 1) * S5000x64.size a ≤ S50000x64.size a
  hwx19_2 : ∀ i : grid19.Coords, EltTy.bits .f32 = 32 ∨ (Rect.block (s := S50000x64) S5000x64.size (cc19_transform_2 i) (hinb19_2 i)).WholeWords (EltTy.packing .f32)
  hrank20 : 0 < grid20.rank
  hstage20_0 : ∀ j, (stage20_0 j).IsWhole
  nbuf20_0 : grid20.bufCount reads20_0 false = 2
  hreads20_0 : ∀ i i' : grid20.Coords, (∀ a, reads20_0 a = true → i a = i' a) → cc20_transform_0 i = cc20_transform_0 i'
  hinb20_0 : ∀ (i : grid20.Coords) a, (cc20_transform_0 i a + 1) * S5000x64.size a ≤ S50000x64.size a
  hwx20_0 : ∀ i : grid20.Coords, EltTy.bits .f32 = 32 ∨ (Rect.block (s := S50000x64) S5000x64.size (cc20_transform_0 i) (hinb20_0 i)).WholeWords (EltTy.packing .f32)
  hstage20_1 : ∀ j, (stage20_1 j).IsWhole
  nbuf20_1 : grid20.bufCount reads20_1 true = 1
  hreads20_1 : ∀ i i' : grid20.Coords, (∀ a, reads20_1 a = true → i a = i' a) → cc20_transform_1 i = cc20_transform_1 i'
  hinb20_1 : ∀ (i : grid20.Coords) a, (cc20_transform_1 i a + 1) * S1x64.size a ≤ S1x64.size a
  hwx20_1 : ∀ i : grid20.Coords, EltTy.bits .f32 = 32 ∨ (Rect.block (s := S1x64) S1x64.size (cc20_transform_1 i) (hinb20_1 i)).WholeWords (EltTy.packing .f32)
  hstage20_2 : ∀ j, (stage20_2 j).IsWhole
  nbuf20_2 : grid20.bufCount reads20_2 false = 2
  hreads20_2 : ∀ i i' : grid20.Coords, (∀ a, reads20_2 a = true → i a = i' a) → cc20_transform_2 i = cc20_transform_2 i'
  hinb20_2 : ∀ (i : grid20.Coords) a, (cc20_transform_2 i a + 1) * S5000x64.size a ≤ S50000x64.size a
  hwx20_2 : ∀ i : grid20.Coords, EltTy.bits .f32 = 32 ∨ (Rect.block (s := S50000x64) S5000x64.size (cc20_transform_2 i) (hinb20_2 i)).WholeWords (EltTy.packing .f32)
  hrank21 : 0 < grid21.rank
  hstage21_0 : ∀ j, (stage21_0 j).IsWhole
  nbuf21_0 : grid21.bufCount reads21_0 false = 2
  hreads21_0 : ∀ i i' : grid21.Coords, (∀ a, reads21_0 a = true → i a = i' a) → cc21_transform_0 i = cc21_transform_0 i'
  hinb21_0 : ∀ (i : grid21.Coords) a, (cc21_transform_0 i a + 1) * S5000x64.size a ≤ S50000x64.size a
  hwx21_0 : ∀ i : grid21.Coords, EltTy.bits .f32 = 32 ∨ (Rect.block (s := S50000x64) S5000x64.size (cc21_transform_0 i) (hinb21_0 i)).WholeWords (EltTy.packing .f32)
  hstage21_1 : ∀ j, (stage21_1 j).IsWhole
  nbuf21_1 : grid21.bufCount reads21_1 false = 2
  hreads21_1 : ∀ i i' : grid21.Coords, (∀ a, reads21_1 a = true → i a = i' a) → cc21_transform_1 i = cc21_transform_1 i'
  hinb21_1 : ∀ (i : grid21.Coords) a, (cc21_transform_1 i a + 1) * S5000x64.size a ≤ S50000x64.size a
  hwx21_1 : ∀ i : grid21.Coords, EltTy.bits .f32 = 32 ∨ (Rect.block (s := S50000x64) S5000x64.size (cc21_transform_1 i) (hinb21_1 i)).WholeWords (EltTy.packing .f32)
  hstage21_2 : ∀ j, (stage21_2 j).IsWhole
  nbuf21_2 : grid21.bufCount reads21_2 false = 2
  hreads21_2 : ∀ i i' : grid21.Coords, (∀ a, reads21_2 a = true → i a = i' a) → cc21_transform_2 i = cc21_transform_2 i'
  hinb21_2 : ∀ (i : grid21.Coords) a, (cc21_transform_2 i a + 1) * S5000x64.size a ≤ S50000x64.size a
  hwx21_2 : ∀ i : grid21.Coords, EltTy.bits .f32 = 32 ∨ (Rect.block (s := S50000x64) S5000x64.size (cc21_transform_2 i) (hinb21_2 i)).WholeWords (EltTy.packing .f32)
  hstage21_3 : ∀ j, (stage21_3 j).IsWhole
  nbuf21_3 : grid21.bufCount reads21_3 false = 2
  hreads21_3 : ∀ i i' : grid21.Coords, (∀ a, reads21_3 a = true → i a = i' a) → cc21_transform_3 i = cc21_transform_3 i'
  hinb21_3 : ∀ (i : grid21.Coords) a, (cc21_transform_3 i a + 1) * S5000x64.size a ≤ S50000x64.size a
  hwx21_3 : ∀ i : grid21.Coords, EltTy.bits .f32 = 32 ∨ (Rect.block (s := S50000x64) S5000x64.size (cc21_transform_3 i) (hinb21_3 i)).WholeWords (EltTy.packing .f32)
  hrank22 : 0 < grid22.rank
  hstage22_0 : ∀ j, (stage22_0 j).IsWhole
  nbuf22_0 : grid22.bufCount reads22_0 true = 1
  hreads22_0 : ∀ i i' : grid22.Coords, (∀ a, reads22_0 a = true → i a = i' a) → cc22_transform_0 i = cc22_transform_0 i'
  hinb22_0 : ∀ (i : grid22.Coords) a, (cc22_transform_0 i a + 1) * S500x64.size a ≤ S500x64.size a
  hwx22_0 : ∀ i : grid22.Coords, EltTy.bits .f32 = 32 ∨ (Rect.block (s := S500x64) S500x64.size (cc22_transform_0 i) (hinb22_0 i)).WholeWords (EltTy.packing .f32)
  hstage22_1 : ∀ j, (stage22_1 j).IsWhole
  nbuf22_1 : grid22.bufCount reads22_1 true = 1
  hreads22_1 : ∀ i i' : grid22.Coords, (∀ a, reads22_1 a = true → i a = i' a) → cc22_transform_1 i = cc22_transform_1 i'
  hinb22_1 : ∀ (i : grid22.Coords) a, (cc22_transform_1 i a + 1) * S64x64.size a ≤ S64x64.size a
  hwx22_1 : ∀ i : grid22.Coords, EltTy.bits .f32 = 32 ∨ (Rect.block (s := S64x64) S64x64.size (cc22_transform_1 i) (hinb22_1 i)).WholeWords (EltTy.packing .f32)
  hstage22_2 : ∀ j, (stage22_2 j).IsWhole
  nbuf22_2 : grid22.bufCount reads22_2 true = 1
  hreads22_2 : ∀ i i' : grid22.Coords, (∀ a, reads22_2 a = true → i a = i' a) → cc22_transform_2 i = cc22_transform_2 i'
  hinb22_2 : ∀ (i : grid22.Coords) a, (cc22_transform_2 i a + 1) * S1x64.size a ≤ S1x64.size a
  hwx22_2 : ∀ i : grid22.Coords, EltTy.bits .f32 = 32 ∨ (Rect.block (s := S1x64) S1x64.size (cc22_transform_2 i) (hinb22_2 i)).WholeWords (EltTy.packing .f32)
  hstage22_3 : ∀ j, (stage22_3 j).IsWhole
  nbuf22_3 : grid22.bufCount reads22_3 true = 1
  hreads22_3 : ∀ i i' : grid22.Coords, (∀ a, reads22_3 a = true → i a = i' a) → cc22_transform_3 i = cc22_transform_3 i'
  hinb22_3 : ∀ (i : grid22.Coords) a, (cc22_transform_3 i a + 1) * S64x64.size a ≤ S64x64.size a
  hwx22_3 : ∀ i : grid22.Coords, EltTy.bits .f32 = 32 ∨ (Rect.block (s := S64x64) S64x64.size (cc22_transform_3 i) (hinb22_3 i)).WholeWords (EltTy.packing .f32)
  hstage22_4 : ∀ j, (stage22_4 j).IsWhole
  nbuf22_4 : grid22.bufCount reads22_4 true = 1
  hreads22_4 : ∀ i i' : grid22.Coords, (∀ a, reads22_4 a = true → i a = i' a) → cc22_transform_4 i = cc22_transform_4 i'
  hinb22_4 : ∀ (i : grid22.Coords) a, (cc22_transform_4 i a + 1) * S1x64.size a ≤ S1x64.size a
  hwx22_4 : ∀ i : grid22.Coords, EltTy.bits .f32 = 32 ∨ (Rect.block (s := S1x64) S1x64.size (cc22_transform_4 i) (hinb22_4 i)).WholeWords (EltTy.packing .f32)
  hstage22_5 : ∀ j, (stage22_5 j).IsWhole
  nbuf22_5 : grid22.bufCount reads22_5 true = 1
  hreads22_5 : ∀ i i' : grid22.Coords, (∀ a, reads22_5 a = true → i a = i' a) → cc22_transform_5 i = cc22_transform_5 i'
  hinb22_5 : ∀ (i : grid22.Coords) a, (cc22_transform_5 i a + 1) * S64x64.size a ≤ S64x64.size a
  hwx22_5 : ∀ i : grid22.Coords, EltTy.bits .f32 = 32 ∨ (Rect.block (s := S64x64) S64x64.size (cc22_transform_5 i) (hinb22_5 i)).WholeWords (EltTy.packing .f32)
  hstage22_6 : ∀ j, (stage22_6 j).IsWhole
  nbuf22_6 : grid22.bufCount reads22_6 true = 1
  hreads22_6 : ∀ i i' : grid22.Coords, (∀ a, reads22_6 a = true → i a = i' a) → cc22_transform_6 i = cc22_transform_6 i'
  hinb22_6 : ∀ (i : grid22.Coords) a, (cc22_transform_6 i a + 1) * S1x64.size a ≤ S1x64.size a
  hwx22_6 : ∀ i : grid22.Coords, EltTy.bits .f32 = 32 ∨ (Rect.block (s := S1x64) S1x64.size (cc22_transform_6 i) (hinb22_6 i)).WholeWords (EltTy.packing .f32)
  hstage22_7 : ∀ j, (stage22_7 j).IsWhole
  nbuf22_7 : grid22.bufCount reads22_7 true = 1
  hreads22_7 : ∀ i i' : grid22.Coords, (∀ a, reads22_7 a = true → i a = i' a) → cc22_transform_7 i = cc22_transform_7 i'
  hinb22_7 : ∀ (i : grid22.Coords) a, (cc22_transform_7 i a + 1) * S64x1.size a ≤ S64x1.size a
  hwx22_7 : ∀ i : grid22.Coords, EltTy.bits .f32 = 32 ∨ (Rect.block (s := S64x1) S64x1.size (cc22_transform_7 i) (hinb22_7 i)).WholeWords (EltTy.packing .f32)
  hstage22_8 : ∀ j, (stage22_8 j).IsWhole
  nbuf22_8 : grid22.bufCount reads22_8 true = 1
  hreads22_8 : ∀ i i' : grid22.Coords, (∀ a, reads22_8 a = true → i a = i' a) → cc22_transform_8 i = cc22_transform_8 i'
  hinb22_8 : ∀ (i : grid22.Coords) a, (cc22_transform_8 i a + 1) * S1x1.size a ≤ S1x1.size a
  hwx22_8 : ∀ i : grid22.Coords, EltTy.bits .f32 = 32 ∨ (Rect.block (s := S1x1) S1x1.size (cc22_transform_8 i) (hinb22_8 i)).WholeWords (EltTy.packing .f32)
  hstage22_9 : ∀ j, (stage22_9 j).IsWhole
  nbuf22_9 : grid22.bufCount reads22_9 true = 1
  hreads22_9 : ∀ i i' : grid22.Coords, (∀ a, reads22_9 a = true → i a = i' a) → cc22_transform_9 i = cc22_transform_9 i'
  hinb22_9 : ∀ (i : grid22.Coords) a, (cc22_transform_9 i a + 1) * S1x64.size a ≤ S1x64.size a
  hwx22_9 : ∀ i : grid22.Coords, EltTy.bits .f32 = 32 ∨ (Rect.block (s := S1x64) S1x64.size (cc22_transform_9 i) (hinb22_9 i)).WholeWords (EltTy.packing .f32)
  hstage22_10 : ∀ j, (stage22_10 j).IsWhole
  nbuf22_10 : grid22.bufCount reads22_10 true = 1
  hreads22_10 : ∀ i i' : grid22.Coords, (∀ a, reads22_10 a = true → i a = i' a) → cc22_transform_10 i = cc22_transform_10 i'
  hinb22_10 : ∀ (i : grid22.Coords) a, (cc22_transform_10 i a + 1) * S1x64.size a ≤ S1x64.size a
  hwx22_10 : ∀ i : grid22.Coords, EltTy.bits .f32 = 32 ∨ (Rect.block (s := S1x64) S1x64.size (cc22_transform_10 i) (hinb22_10 i)).WholeWords (EltTy.packing .f32)
  hstage22_11 : ∀ j, (stage22_11 j).IsWhole
  nbuf22_11 : grid22.bufCount reads22_11 true = 1
  hreads22_11 : ∀ i i' : grid22.Coords, (∀ a, reads22_11 a = true → i a = i' a) → cc22_transform_11 i = cc22_transform_11 i'
  hinb22_11 : ∀ (i : grid22.Coords) a, (cc22_transform_11 i a + 1) * S500x1.size a ≤ S500x1.size a
  hwx22_11 : ∀ i : grid22.Coords, EltTy.bits .f32 = 32 ∨ (Rect.block (s := S500x1) S500x1.size (cc22_transform_11 i) (hinb22_11 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S500x64_S50000x1_S50000x64_1_0_0_1 : ScatterDims S500x64 S50000x1 S50000x64 where
  updateWindowDims := [1]
  insertedWindowDims := [0]
  scatterDimsToOperandDims := [0]
  indexVectorDim := 1
  wf := scatter_S500x64_S50000x1_S50000x64_1_0_0_1_wf
def dot_S500x64_S64x64_S500x64_1_0_0_1_n_n : DotDims S500x64 S64x64 S500x64 where
  lhsContracting := [1]
  rhsContracting := [0]
  lhsNonContracting := [0]
  rhsNonContracting := [1]
  lhsBatch := []
  rhsBatch := []
  wf := dot_S500x64_S64x64_S500x64_1_0_0_1_n_n_wf
def dot_S500x64_S64x1_S500x1_1_0_0_1_n_n : DotDims S500x64 S64x1 S500x1 where
  lhsContracting := [1]
  rhsContracting := [0]
  lhsNonContracting := [0]
  rhsNonContracting := [1]
  lhsBatch := []
  rhsBatch := []
  wf := dot_S500x64_S64x1_S500x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v35) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v37) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v37) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v42) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v55) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v56) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v57) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v37) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v59) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v37) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v57) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v100) S5000x64.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v101) S5000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v101) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v103) S64x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v106) S5000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v119) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v120) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v121) S5000x64.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v101) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v123) S64x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v126) S5000x64.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v139) S5000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v140) S1x64.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v141) S5000x64.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v101) S5000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v121) S5000x64.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v164) S5000x64.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_v165) S5000x64.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev win12_0 : Pipeline.Window sig grid12 :=
  Pipeline.Window.ofSpec (Memref.whole main_v165) S5000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v167) S64x64.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v170) S5000x64.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v183) S5000x64.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v184) S1x64.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v185) S5000x64.size cc13_transform_2 reads13_2 true false 2 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev win14_0 : Pipeline.Window sig grid14 :=
  Pipeline.Window.ofSpec (Memref.whole main_v165) S5000x64.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v187) S64x64.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v190) S5000x64.size cc14_transform_2 reads14_2 true false 2 stage14_2 sem14_2
    hrank14 hreads14_2 hinb14_2 nbuf14_2 (Memref.isWhole_whole _) hwx14_2 hstage14_2

abbrev win14 : Fin 3 → Pipeline.Window sig grid14 := fun | 0 => win14_0 | 1 => win14_1 | 2 => win14_2 | ⟨_ + 3, h⟩ => absurd h (Nat.not_lt.2 (Nat.le_add_left _ _))
abbrev spec14 : Fin 3 → Pipeline.WinSpec sig grid14.rank := fun w => (win14 w).toWinSpec

abbrev win15_0 : Pipeline.Window sig grid15 :=
  Pipeline.Window.ofSpec (Memref.whole main_v203) S5000x64.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v204) S1x64.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v205) S5000x64.size cc15_transform_2 reads15_2 true false 2 stage15_2 sem15_2
    hrank15 hreads15_2 hinb15_2 nbuf15_2 (Memref.isWhole_whole _) hwx15_2 hstage15_2

abbrev win15 : Fin 3 → Pipeline.Window sig grid15 := fun | 0 => win15_0 | 1 => win15_1 | 2 => win15_2 | ⟨_ + 3, h⟩ => absurd h (Nat.not_lt.2 (Nat.le_add_left _ _))
abbrev spec15 : Fin 3 → Pipeline.WinSpec sig grid15.rank := fun w => (win15 w).toWinSpec

abbrev win16_0 : Pipeline.Window sig grid16 :=
  Pipeline.Window.ofSpec (Memref.whole main_v165) S5000x64.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v185) S5000x64.size cc16_transform_1 reads16_1 false false 2 stage16_1 sem16_1
    hrank16 hreads16_1 hinb16_1 nbuf16_1 (Memref.isWhole_whole _) hwx16_1 hstage16_1

abbrev win16_2 : Pipeline.Window sig grid16 :=
  Pipeline.Window.ofSpec (Memref.whole main_v228) S5000x64.size cc16_transform_2 reads16_2 false false 2 stage16_2 sem16_2
    hrank16 hreads16_2 hinb16_2 nbuf16_2 (Memref.isWhole_whole _) hwx16_2 hstage16_2

abbrev win16_3 : Pipeline.Window sig grid16 :=
  Pipeline.Window.ofSpec (Memref.whole main_v229) S5000x64.size cc16_transform_3 reads16_3 true false 2 stage16_3 sem16_3
    hrank16 hreads16_3 hinb16_3 nbuf16_3 (Memref.isWhole_whole _) hwx16_3 hstage16_3

abbrev win16 : Fin 4 → Pipeline.Window sig grid16 := fun | 0 => win16_0 | 1 => win16_1 | 2 => win16_2 | 3 => win16_3 | ⟨_ + 4, h⟩ => absurd h (Nat.not_lt.2 (Nat.le_add_left _ _))
abbrev spec16 : Fin 4 → Pipeline.WinSpec sig grid16.rank := fun w => (win16 w).toWinSpec

abbrev win17_0 : Pipeline.Window sig grid17 :=
  Pipeline.Window.ofSpec (Memref.whole main_v229) S5000x64.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v231) S64x64.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v234) S5000x64.size cc17_transform_2 reads17_2 true false 2 stage17_2 sem17_2
    hrank17 hreads17_2 hinb17_2 nbuf17_2 (Memref.isWhole_whole _) hwx17_2 hstage17_2

abbrev win17 : Fin 3 → Pipeline.Window sig grid17 := fun | 0 => win17_0 | 1 => win17_1 | 2 => win17_2 | ⟨_ + 3, h⟩ => absurd h (Nat.not_lt.2 (Nat.le_add_left _ _))
abbrev spec17 : Fin 3 → Pipeline.WinSpec sig grid17.rank := fun w => (win17 w).toWinSpec

abbrev win18_0 : Pipeline.Window sig grid18 :=
  Pipeline.Window.ofSpec (Memref.whole main_v247) S5000x64.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v248) S1x64.size cc18_transform_1 reads18_1 false true 1 stage18_1 sem18_1
    hrank18 hreads18_1 hinb18_1 nbuf18_1 (Memref.isWhole_whole _) hwx18_1 hstage18_1

abbrev win18_2 : Pipeline.Window sig grid18 :=
  Pipeline.Window.ofSpec (Memref.whole main_v249) S5000x64.size cc18_transform_2 reads18_2 true false 2 stage18_2 sem18_2
    hrank18 hreads18_2 hinb18_2 nbuf18_2 (Memref.isWhole_whole _) hwx18_2 hstage18_2

abbrev win18 : Fin 3 → Pipeline.Window sig grid18 := fun | 0 => win18_0 | 1 => win18_1 | 2 => win18_2 | ⟨_ + 3, h⟩ => absurd h (Nat.not_lt.2 (Nat.le_add_left _ _))
abbrev spec18 : Fin 3 → Pipeline.WinSpec sig grid18.rank := fun w => (win18 w).toWinSpec

abbrev win19_0 : Pipeline.Window sig grid19 :=
  Pipeline.Window.ofSpec (Memref.whole main_v229) S5000x64.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v251) S64x64.size cc19_transform_1 reads19_1 false true 1 stage19_1 sem19_1
    hrank19 hreads19_1 hinb19_1 nbuf19_1 (Memref.isWhole_whole _) hwx19_1 hstage19_1

abbrev win19_2 : Pipeline.Window sig grid19 :=
  Pipeline.Window.ofSpec (Memref.whole main_v254) S5000x64.size cc19_transform_2 reads19_2 true false 2 stage19_2 sem19_2
    hrank19 hreads19_2 hinb19_2 nbuf19_2 (Memref.isWhole_whole _) hwx19_2 hstage19_2

abbrev win19 : Fin 3 → Pipeline.Window sig grid19 := fun | 0 => win19_0 | 1 => win19_1 | 2 => win19_2 | ⟨_ + 3, h⟩ => absurd h (Nat.not_lt.2 (Nat.le_add_left _ _))
abbrev spec19 : Fin 3 → Pipeline.WinSpec sig grid19.rank := fun w => (win19 w).toWinSpec

abbrev win20_0 : Pipeline.Window sig grid20 :=
  Pipeline.Window.ofSpec (Memref.whole main_v267) S5000x64.size cc20_transform_0 reads20_0 false false 2 stage20_0 sem20_0
    hrank20 hreads20_0 hinb20_0 nbuf20_0 (Memref.isWhole_whole _) hwx20_0 hstage20_0

abbrev win20_1 : Pipeline.Window sig grid20 :=
  Pipeline.Window.ofSpec (Memref.whole main_v268) S1x64.size cc20_transform_1 reads20_1 false true 1 stage20_1 sem20_1
    hrank20 hreads20_1 hinb20_1 nbuf20_1 (Memref.isWhole_whole _) hwx20_1 hstage20_1

abbrev win20_2 : Pipeline.Window sig grid20 :=
  Pipeline.Window.ofSpec (Memref.whole main_v269) S5000x64.size cc20_transform_2 reads20_2 true false 2 stage20_2 sem20_2
    hrank20 hreads20_2 hinb20_2 nbuf20_2 (Memref.isWhole_whole _) hwx20_2 hstage20_2

abbrev win20 : Fin 3 → Pipeline.Window sig grid20 := fun | 0 => win20_0 | 1 => win20_1 | 2 => win20_2 | ⟨_ + 3, h⟩ => absurd h (Nat.not_lt.2 (Nat.le_add_left _ _))
abbrev spec20 : Fin 3 → Pipeline.WinSpec sig grid20.rank := fun w => (win20 w).toWinSpec

abbrev win21_0 : Pipeline.Window sig grid21 :=
  Pipeline.Window.ofSpec (Memref.whole main_v229) S5000x64.size cc21_transform_0 reads21_0 false false 2 stage21_0 sem21_0
    hrank21 hreads21_0 hinb21_0 nbuf21_0 (Memref.isWhole_whole _) hwx21_0 hstage21_0

abbrev win21_1 : Pipeline.Window sig grid21 :=
  Pipeline.Window.ofSpec (Memref.whole main_v249) S5000x64.size cc21_transform_1 reads21_1 false false 2 stage21_1 sem21_1
    hrank21 hreads21_1 hinb21_1 nbuf21_1 (Memref.isWhole_whole _) hwx21_1 hstage21_1

abbrev win21_2 : Pipeline.Window sig grid21 :=
  Pipeline.Window.ofSpec (Memref.whole main_v292) S5000x64.size cc21_transform_2 reads21_2 false false 2 stage21_2 sem21_2
    hrank21 hreads21_2 hinb21_2 nbuf21_2 (Memref.isWhole_whole _) hwx21_2 hstage21_2

abbrev win21_3 : Pipeline.Window sig grid21 :=
  Pipeline.Window.ofSpec (Memref.whole main_v293) S5000x64.size cc21_transform_3 reads21_3 true false 2 stage21_3 sem21_3
    hrank21 hreads21_3 hinb21_3 nbuf21_3 (Memref.isWhole_whole _) hwx21_3 hstage21_3

abbrev win21 : Fin 4 → Pipeline.Window sig grid21 := fun | 0 => win21_0 | 1 => win21_1 | 2 => win21_2 | 3 => win21_3 | ⟨_ + 4, h⟩ => absurd h (Nat.not_lt.2 (Nat.le_add_left _ _))
abbrev spec21 : Fin 4 → Pipeline.WinSpec sig grid21.rank := fun w => (win21 w).toWinSpec

abbrev win22_0 : Pipeline.Window sig grid22 :=
  Pipeline.Window.ofSpec (Memref.whole main_v296) S500x64.size cc22_transform_0 reads22_0 false true 1 stage22_0 sem22_0
    hrank22 hreads22_0 hinb22_0 nbuf22_0 (Memref.isWhole_whole _) hwx22_0 hstage22_0

abbrev win22_1 : Pipeline.Window sig grid22 :=
  Pipeline.Window.ofSpec (Memref.whole main_arg9) S64x64.size cc22_transform_1 reads22_1 false true 1 stage22_1 sem22_1
    hrank22 hreads22_1 hinb22_1 nbuf22_1 (Memref.isWhole_whole _) hwx22_1 hstage22_1

abbrev win22_2 : Pipeline.Window sig grid22 :=
  Pipeline.Window.ofSpec (Memref.whole main_v297) S1x64.size cc22_transform_2 reads22_2 false true 1 stage22_2 sem22_2
    hrank22 hreads22_2 hinb22_2 nbuf22_2 (Memref.isWhole_whole _) hwx22_2 hstage22_2

abbrev win22_3 : Pipeline.Window sig grid22 :=
  Pipeline.Window.ofSpec (Memref.whole main_arg11) S64x64.size cc22_transform_3 reads22_3 false true 1 stage22_3 sem22_3
    hrank22 hreads22_3 hinb22_3 nbuf22_3 (Memref.isWhole_whole _) hwx22_3 hstage22_3

abbrev win22_4 : Pipeline.Window sig grid22 :=
  Pipeline.Window.ofSpec (Memref.whole main_v298) S1x64.size cc22_transform_4 reads22_4 false true 1 stage22_4 sem22_4
    hrank22 hreads22_4 hinb22_4 nbuf22_4 (Memref.isWhole_whole _) hwx22_4 hstage22_4

abbrev win22_5 : Pipeline.Window sig grid22 :=
  Pipeline.Window.ofSpec (Memref.whole main_arg13) S64x64.size cc22_transform_5 reads22_5 false true 1 stage22_5 sem22_5
    hrank22 hreads22_5 hinb22_5 nbuf22_5 (Memref.isWhole_whole _) hwx22_5 hstage22_5

abbrev win22_6 : Pipeline.Window sig grid22 :=
  Pipeline.Window.ofSpec (Memref.whole main_v299) S1x64.size cc22_transform_6 reads22_6 false true 1 stage22_6 sem22_6
    hrank22 hreads22_6 hinb22_6 nbuf22_6 (Memref.isWhole_whole _) hwx22_6 hstage22_6

abbrev win22_7 : Pipeline.Window sig grid22 :=
  Pipeline.Window.ofSpec (Memref.whole main_arg15) S64x1.size cc22_transform_7 reads22_7 false true 1 stage22_7 sem22_7
    hrank22 hreads22_7 hinb22_7 nbuf22_7 (Memref.isWhole_whole _) hwx22_7 hstage22_7

abbrev win22_8 : Pipeline.Window sig grid22 :=
  Pipeline.Window.ofSpec (Memref.whole main_v300) S1x1.size cc22_transform_8 reads22_8 false true 1 stage22_8 sem22_8
    hrank22 hreads22_8 hinb22_8 nbuf22_8 (Memref.isWhole_whole _) hwx22_8 hstage22_8

abbrev win22_9 : Pipeline.Window sig grid22 :=
  Pipeline.Window.ofSpec (Memref.whole main_v301) S1x64.size cc22_transform_9 reads22_9 false true 1 stage22_9 sem22_9
    hrank22 hreads22_9 hinb22_9 nbuf22_9 (Memref.isWhole_whole _) hwx22_9 hstage22_9

abbrev win22_10 : Pipeline.Window sig grid22 :=
  Pipeline.Window.ofSpec (Memref.whole main_v302) S1x64.size cc22_transform_10 reads22_10 false true 1 stage22_10 sem22_10
    hrank22 hreads22_10 hinb22_10 nbuf22_10 (Memref.isWhole_whole _) hwx22_10 hstage22_10

abbrev win22_11 : Pipeline.Window sig grid22 :=
  Pipeline.Window.ofSpec (Memref.whole main_v303) S500x1.size cc22_transform_11 reads22_11 true true 1 stage22_11 sem22_11
    hrank22 hreads22_11 hinb22_11 nbuf22_11 (Memref.isWhole_whole _) hwx22_11 hstage22_11

abbrev win22 : Fin 12 → Pipeline.Window sig grid22 := fun | 0 => win22_0 | 1 => win22_1 | 2 => win22_2 | 3 => win22_3 | 4 => win22_4 | 5 => win22_5 | 6 => win22_6 | 7 => win22_7 | 8 => win22_8 | 9 => win22_9 | 10 => win22_10 | 11 => win22_11 | ⟨_ + 12, h⟩ => absurd h (Nat.not_lt.2 (Nat.le_add_left _ _))
abbrev spec22 : Fin 12 → Pipeline.WinSpec sig grid22.rank := fun w => (win22 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S4x64x64 : Shape := ⟨3, ![4, 64, 64]⟩
abbrev S4x64 : Shape := ⟨2, ![4, 64]⟩
abbrev S64x64 : Shape := ⟨2, ![64, 64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S50000x64 : Shape := ⟨2, ![50000, 64]⟩
abbrev S1x64 : Shape := ⟨2, ![1, 64]⟩
abbrev S_ : Shape := ⟨0, ![]⟩
abbrev S1x64x64 : Shape := ⟨3, ![1, 64, 64]⟩
abbrev S850000 : Shape := ⟨1, ![850000]⟩
abbrev S850000x1 : Shape := ⟨2, ![850000, 1]⟩
abbrev S850000x64 : Shape := ⟨2, ![850000, 64]⟩
abbrev S800000x1 : Shape := ⟨2, ![800000, 1]⟩
abbrev S800000x64 : Shape := ⟨2, ![800000, 64]⟩
abbrev S50000x1 : Shape := ⟨2, ![50000, 1]⟩
abbrev S500x64 : Shape := ⟨2, ![500, 64]⟩
abbrev S500x1 : Shape := ⟨2, ![500, 1]⟩
abbrev S1x1 : Shape := ⟨2, ![1, 1]⟩

abbrev nBuf : Space → Nat
  | .hbm => 871
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x64, .f32⟩
  | 4 => ⟨S64, .f32⟩
  | 5 => ⟨S4x64x64, .f32⟩
  | 6 => ⟨S4x64, .f32⟩
  | 7 => ⟨S4x64x64, .f32⟩
  | 8 => ⟨S4x64, .f32⟩
  | 9 => ⟨S64x64, .f32⟩
  | 10 => ⟨S64, .f32⟩
  | 11 => ⟨S64x64, .f32⟩
  | 12 => ⟨S64, .f32⟩
  | 13 => ⟨S64x64, .f32⟩
  | 14 => ⟨S64, .f32⟩
  | 15 => ⟨S64x1, .f32⟩
  | 16 => ⟨S1, .f32⟩
  | 17 => ⟨S64, .f32⟩
  | 18 => ⟨S64, .f32⟩
  | 19 => ⟨S1x800000, .i32⟩
  | 20 => ⟨S800000, .i32⟩
  | 21 => ⟨S1x800000, .i32⟩
  | 22 => ⟨S800000, .i32⟩
  | 23 => ⟨S50000x64, .f32⟩
  | 24 => ⟨S1x64, .f32⟩
  | 25 => ⟨S50000x64, .f32⟩
  | 26 => ⟨S50000x64, .f32⟩
  | 27 => ⟨S_, .f32⟩
  | 28 => ⟨S50000x64, .f32⟩
  | 29 => ⟨S50000x64, .f32⟩
  | 30 => ⟨S1x64x64, .f32⟩
  | 31 => ⟨S64x64, .f32⟩
  | 32 => ⟨S1x64, .f32⟩
  | 33 => ⟨S64, .f32⟩
  | 34 => ⟨S50000x64, .f32⟩
  | 35 => ⟨S50000, .i32⟩
  | 36 => ⟨S850000, .i32⟩
  | 37 => ⟨S850000, .i32⟩
  | 38 => ⟨S_, .f32⟩
  | 39 => ⟨S850000, .f32⟩
  | 40 => ⟨S_, .f32⟩
  | 41 => ⟨S50000, .f32⟩
  | 42 => ⟨S850000x1, .i32⟩
  | 43 => ⟨S50000, .f32⟩
  | 44 => ⟨S_, .f32⟩
  | 45 => ⟨S50000, .f32⟩
  | 46 => ⟨S50000, .f32⟩
  | 47 => ⟨S50000, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000, .f32⟩
  | 66 => ⟨S850000, .f32⟩
  | 67 => ⟨S850000x1, .f32⟩
  | 68 => ⟨S_, .i32⟩
  | 69 => ⟨S850000, .i32⟩
  | 70 => ⟨S850000, .i1⟩
  | 71 => ⟨S_, .i32⟩
  | 72 => ⟨S850000, .i32⟩
  | 73 => ⟨S850000, .i32⟩
  | 74 => ⟨S850000, .i32⟩
  | 75 => ⟨S850000x1, .i32⟩
  | 76 => ⟨S850000x64, .f32⟩
  | 77 => ⟨S850000x64, .f32⟩
  | 78 => ⟨S850000x64, .f32⟩
  | 79 => ⟨S_, .f32⟩
  | 80 => ⟨S50000x64, .f32⟩
  | 81 => ⟨S850000x1, .i32⟩
  | 82 => ⟨S50000x64, .f32⟩
  | 83 => ⟨S1x64, .f32⟩
  | 84 => ⟨S50000x64, .f32⟩
  | 85 => ⟨S50000x64, .f32⟩
  | 86 => ⟨S_, .f32⟩
  | 87 => ⟨S50000x64, .f32⟩
  | 88 => ⟨S50000x64, .f32⟩
  | 89 => ⟨S1x64x64, .f32⟩
  | 90 => ⟨S64x64, .f32⟩
  | 91 => ⟨S1x64, .f32⟩
  | 92 => ⟨S64, .f32⟩
  | 93 => ⟨S50000x64, .f32⟩
  | 94 => ⟨S50000, .i32⟩
  | 95 => ⟨S850000, .i32⟩
  | 96 => ⟨S850000, .i32⟩
  | 97 => ⟨S_, .f32⟩
  | 98 => ⟨S850000, .f32⟩
  | 99 => ⟨S_, .f32⟩
  | 100 => ⟨S50000, .f32⟩
  | 101 => ⟨S850000x1, .i32⟩
  | 102 => ⟨S50000, .f32⟩
  | 103 => ⟨S_, .f32⟩
  | 104 => ⟨S50000, .f32⟩
  | 105 => ⟨S50000, .f32⟩
  | 106 => ⟨S50000, .f32⟩
  | 107 => ⟨S_, .i32⟩
  | 108 => ⟨S850000, .i32⟩
  | 109 => ⟨S850000, .i1⟩
  | 110 => ⟨S_, .i32⟩
  | 111 => ⟨S850000, .i32⟩
  | 112 => ⟨S850000, .i32⟩
  | 113 => ⟨S850000, .i32⟩
  | 114 => ⟨S850000x1, .i32⟩
  | 115 => ⟨S850000, .f32⟩
  | 116 => ⟨S_, .i32⟩
  | 117 => ⟨S850000, .i32⟩
  | 118 => ⟨S850000, .i1⟩
  | 119 => ⟨S_, .i32⟩
  | 120 => ⟨S850000, .i32⟩
  | 121 => ⟨S850000, .i32⟩
  | 122 => ⟨S850000, .i32⟩
  | 123 => ⟨S850000x1, .i32⟩
  | 124 => ⟨S850000, .f32⟩
  | 125 => ⟨S850000, .f32⟩
  | 126 => ⟨S850000x1, .f32⟩
  | 127 => ⟨S_, .i32⟩
  | _ => ⟨S50000x128, .f32⟩

abbrev hbmTy0_1 (i : Nat) : BufTy := match i % 128 with
  | 0 => ⟨S850000, .i32⟩
  | 1 => ⟨S850000, .i1⟩
  | 2 => ⟨S_, .i32⟩
  | 3 => ⟨S850000, .i32⟩
  | 4 => ⟨S850000, .i32⟩
  | 5 => ⟨S850000, .i32⟩
  | 6 => ⟨S850000x1, .i32⟩
  | 7 => ⟨S850000x64, .f32⟩
  | 8 => ⟨S850000x64, .f32⟩
  | 9 => ⟨S850000x64, .f32⟩
  | 10 => ⟨S_, .f32⟩
  | 11 => ⟨S50000x64, .f32⟩
  | 12 => ⟨S850000x1, .i32⟩
  | 13 => ⟨S50000x64, .f32⟩
  | 14 => ⟨S1x64, .f32⟩
  | 15 => ⟨S50000x64, .f32⟩
  | 16 => ⟨S50000x64, .f32⟩
  | 17 => ⟨S_, .f32⟩
  | 18 => ⟨S50000x64, .f32⟩
  | 19 => ⟨S50000x64, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x64, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x64, .f32⟩
  | 38 => ⟨S800000x64, .f32⟩
  | 39 => ⟨S800000x64, .f32⟩
  | 40 => ⟨S_, .f32⟩
  | 41 => ⟨S800000x64, .f32⟩
  | 42 => ⟨S800000x64, .f32⟩
  | 43 => ⟨S_, .f32⟩
  | 44 => ⟨S50000x64, .f32⟩
  | 45 => ⟨S800000x1, .i32⟩
  | 46 => ⟨S50000x64, .f32⟩
  | 47 => ⟨S_, .f32⟩
  | 48 => ⟨S800000, .f32⟩
  | 49 => ⟨S_, .f32⟩
  | 50 => ⟨S50000, .f32⟩
  | 51 => ⟨S800000x1, .i32⟩
  | 52 => ⟨S50000, .f32⟩
  | 53 => ⟨S_, .f32⟩
  | 54 => ⟨S50000, .f32⟩
  | 55 => ⟨S50000, .f32⟩
  | 56 => ⟨S50000x1, .f32⟩
  | 57 => ⟨S50000x64, .f32⟩
  | 58 => ⟨S50000x64, .f32⟩
  | 59 => ⟨S50000x64, .f32⟩
  | 60 => ⟨S_, .f32⟩
  | 61 => ⟨S50000x64, .f32⟩
  | 62 => ⟨S50000x64, .f32⟩
  | 63 => ⟨S50000x64, .f32⟩
  | 64 => ⟨S50000x64, .f32⟩
  | 65 => ⟨S50000x64, .f32⟩
  | 66 => ⟨S1x64x64, .f32⟩
  | 67 => ⟨S64x64, .f32⟩
  | 68 => ⟨S1x64, .f32⟩
  | 69 => ⟨S64, .f32⟩
  | 70 => ⟨S50000x64, .f32⟩
  | 71 => ⟨S50000, .i32⟩
  | 72 => ⟨S850000, .i32⟩
  | 73 => ⟨S850000, .i32⟩
  | 74 => ⟨S_, .f32⟩
  | 75 => ⟨S850000, .f32⟩
  | 76 => ⟨S_, .f32⟩
  | 77 => ⟨S50000, .f32⟩
  | 78 => ⟨S850000x1, .i32⟩
  | 79 => ⟨S50000, .f32⟩
  | 80 => ⟨S_, .f32⟩
  | 81 => ⟨S50000, .f32⟩
  | 82 => ⟨S50000, .f32⟩
  | 83 => ⟨S50000, .f32⟩
  | 84 => ⟨S_, .i32⟩
  | 85 => ⟨S850000, .i32⟩
  | 86 => ⟨S850000, .i1⟩
  | 87 => ⟨S_, .i32⟩
  | 88 => ⟨S850000, .i32⟩
  | 89 => ⟨S850000, .i32⟩
  | 90 => ⟨S850000, .i32⟩
  | 91 => ⟨S850000x1, .i32⟩
  | 92 => ⟨S850000, .f32⟩
  | 93 => ⟨S_, .i32⟩
  | 94 => ⟨S850000, .i32⟩
  | 95 => ⟨S850000, .i1⟩
  | 96 => ⟨S_, .i32⟩
  | 97 => ⟨S850000, .i32⟩
  | 98 => ⟨S850000, .i32⟩
  | 99 => ⟨S850000, .i32⟩
  | 100 => ⟨S850000x1, .i32⟩
  | 101 => ⟨S850000, .f32⟩
  | 102 => ⟨S850000, .f32⟩
  | 103 => ⟨S850000x1, .f32⟩
  | 104 => ⟨S_, .i32⟩
  | 105 => ⟨S850000, .i32⟩
  | 106 => ⟨S850000, .i1⟩
  | 107 => ⟨S_, .i32⟩
  | 108 => ⟨S850000, .i32⟩
  | 109 => ⟨S850000, .i32⟩
  | 110 => ⟨S850000, .i32⟩
  | 111 => ⟨S850000x1, .i32⟩
  | 112 => ⟨S850000x64, .f32⟩
  | 113 => ⟨S850000x64, .f32⟩
  | 114 => ⟨S850000x64, .f32⟩
  | 115 => ⟨S_, .f32⟩
  | 116 => ⟨S50000x64, .f32⟩
  | 117 => ⟨S850000x1, .i32⟩
  | 118 => ⟨S50000x64, .f32⟩
  | 119 => ⟨S1x64, .f32⟩
  | 120 => ⟨S50000x64, .f32⟩
  | 121 => ⟨S50000x64, .f32⟩
  | 122 => ⟨S_, .f32⟩
  | 123 => ⟨S50000x64, .f32⟩
  | 124 => ⟨S50000x64, .f32⟩
  | 125 => ⟨S1x64x64, .f32⟩
  | 126 => ⟨S64x64, .f32⟩
  | 127 => ⟨S1x64, .f32⟩
  | _ => ⟨S50000x128, .f32⟩

abbrev hbmTy0_2 (i : Nat) : BufTy := match i % 128 with
  | 0 => ⟨S64, .f32⟩
  | 1 => ⟨S50000x64, .f32⟩
  | 2 => ⟨S50000, .i32⟩
  | 3 => ⟨S850000, .i32⟩
  | 4 => ⟨S850000, .i32⟩
  | 5 => ⟨S_, .f32⟩
  | 6 => ⟨S850000, .f32⟩
  | 7 => ⟨S_, .f32⟩
  | 8 => ⟨S50000, .f32⟩
  | 9 => ⟨S850000x1, .i32⟩
  | 10 => ⟨S50000, .f32⟩
  | 11 => ⟨S_, .f32⟩
  | 12 => ⟨S50000, .f32⟩
  | 13 => ⟨S50000, .f32⟩
  | 14 => ⟨S50000, .f32⟩
  | 15 => ⟨S_, .i32⟩
  | 16 => ⟨S850000, .i32⟩
  | 17 => ⟨S850000, .i1⟩
  | 18 => ⟨S_, .i32⟩
  | 19 => ⟨S850000, .i32⟩
  | 20 => ⟨S850000, .i32⟩
  | 21 => ⟨S850000, .i32⟩
  | 22 => ⟨S850000x1, .i32⟩
  | 23 => ⟨S850000, .f32⟩
  | 24 => ⟨S_, .i32⟩
  | 25 => ⟨S850000, .i32⟩
  | 26 => ⟨S850000, .i1⟩
  | 27 => ⟨S_, .i32⟩
  | 28 => ⟨S850000, .i32⟩
  | 29 => ⟨S850000, .i32⟩
  | 30 => ⟨S850000, .i32⟩
  | 31 => ⟨S850000x1, .i32⟩
  | 32 => ⟨S850000, .f32⟩
  | 33 => ⟨S850000, .f32⟩
  | 34 => ⟨S850000x1, .f32⟩
  | 35 => ⟨S_, .i32⟩
  | 36 => ⟨S850000, .i32⟩
  | 37 => ⟨S850000, .i1⟩
  | 38 => ⟨S_, .i32⟩
  | 39 => ⟨S850000, .i32⟩
  | 40 => ⟨S850000, .i32⟩
  | 41 => ⟨S850000, .i32⟩
  | 42 => ⟨S850000x1, .i32⟩
  | 43 => ⟨S850000x64, .f32⟩
  | 44 => ⟨S850000x64, .f32⟩
  | 45 => ⟨S850000x64, .f32⟩
  | 46 => ⟨S_, .f32⟩
  | 47 => ⟨S50000x64, .f32⟩
  | 48 => ⟨S850000x1, .i32⟩
  | 49 => ⟨S50000x64, .f32⟩
  | 50 => ⟨S1x64, .f32⟩
  | 51 => ⟨S50000x64, .f32⟩
  | 52 => ⟨S50000x64, .f32⟩
  | 53 => ⟨S_, .f32⟩
  | 54 => ⟨S50000x64, .f32⟩
  | 55 => ⟨S50000x64, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x64, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000x64, .f32⟩
  | 74 => ⟨S800000x64, .f32⟩
  | 75 => ⟨S800000x64, .f32⟩
  | 76 => ⟨S_, .f32⟩
  | 77 => ⟨S800000x64, .f32⟩
  | 78 => ⟨S800000x64, .f32⟩
  | 79 => ⟨S_, .f32⟩
  | 80 => ⟨S50000x64, .f32⟩
  | 81 => ⟨S800000x1, .i32⟩
  | 82 => ⟨S50000x64, .f32⟩
  | 83 => ⟨S_, .f32⟩
  | 84 => ⟨S800000, .f32⟩
  | 85 => ⟨S_, .f32⟩
  | 86 => ⟨S50000, .f32⟩
  | 87 => ⟨S800000x1, .i32⟩
  | 88 => ⟨S50000, .f32⟩
  | 89 => ⟨S_, .f32⟩
  | 90 => ⟨S50000, .f32⟩
  | 91 => ⟨S50000, .f32⟩
  | 92 => ⟨S50000x1, .f32⟩
  | 93 => ⟨S50000x64, .f32⟩
  | 94 => ⟨S50000x64, .f32⟩
  | 95 => ⟨S50000x64, .f32⟩
  | 96 => ⟨S_, .f32⟩
  | 97 => ⟨S50000x64, .f32⟩
  | 98 => ⟨S50000x64, .f32⟩
  | 99 => ⟨S50000x64, .f32⟩
  | 100 => ⟨S50000x64, .f32⟩
  | 101 => ⟨S50000x64, .f32⟩
  | 102 => ⟨S1x64x64, .f32⟩
  | 103 => ⟨S64x64, .f32⟩
  | 104 => ⟨S1x64, .f32⟩
  | 105 => ⟨S64, .f32⟩
  | 106 => ⟨S50000x64, .f32⟩
  | 107 => ⟨S50000, .i32⟩
  | 108 => ⟨S850000, .i32⟩
  | 109 => ⟨S850000, .i32⟩
  | 110 => ⟨S_, .f32⟩
  | 111 => ⟨S850000, .f32⟩
  | 112 => ⟨S_, .f32⟩
  | 113 => ⟨S50000, .f32⟩
  | 114 => ⟨S850000x1, .i32⟩
  | 115 => ⟨S50000, .f32⟩
  | 116 => ⟨S_, .f32⟩
  | 117 => ⟨S50000, .f32⟩
  | 118 => ⟨S50000, .f32⟩
  | 119 => ⟨S50000, .f32⟩
  | 120 => ⟨S_, .i32⟩
  | 121 => ⟨S850000, .i32⟩
  | 122 => ⟨S850000, .i1⟩
  | 123 => ⟨S_, .i32⟩
  | 124 => ⟨S850000, .i32⟩
  | 125 => ⟨S850000, .i32⟩
  | 126 => ⟨S850000, .i32⟩
  | 127 => ⟨S850000x1, .i32⟩
  | _ => ⟨S50000x128, .f32⟩

abbrev hbmTy0_3 (i : Nat) : BufTy := match i % 128 with
  | 0 => ⟨S850000, .f32⟩
  | 1 => ⟨S_, .i32⟩
  | 2 => ⟨S850000, .i32⟩
  | 3 => ⟨S850000, .i1⟩
  | 4 => ⟨S_, .i32⟩
  | 5 => ⟨S850000, .i32⟩
  | 6 => ⟨S850000, .i32⟩
  | 7 => ⟨S850000, .i32⟩
  | 8 => ⟨S850000x1, .i32⟩
  | 9 => ⟨S850000, .f32⟩
  | 10 => ⟨S850000, .f32⟩
  | 11 => ⟨S850000x1, .f32⟩
  | 12 => ⟨S_, .i32⟩
  | 13 => ⟨S850000, .i32⟩
  | 14 => ⟨S850000, .i1⟩
  | 15 => ⟨S_, .i32⟩
  | 16 => ⟨S850000, .i32⟩
  | 17 => ⟨S850000, .i32⟩
  | 18 => ⟨S850000, .i32⟩
  | 19 => ⟨S850000x1, .i32⟩
  | 20 => ⟨S850000x64, .f32⟩
  | 21 => ⟨S850000x64, .f32⟩
  | 22 => ⟨S850000x64, .f32⟩
  | 23 => ⟨S_, .f32⟩
  | 24 => ⟨S50000x64, .f32⟩
  | 25 => ⟨S850000x1, .i32⟩
  | 26 => ⟨S50000x64, .f32⟩
  | 27 => ⟨S1x64, .f32⟩
  | 28 => ⟨S50000x64, .f32⟩
  | 29 => ⟨S50000x64, .f32⟩
  | 30 => ⟨S_, .f32⟩
  | 31 => ⟨S50000x64, .f32⟩
  | 32 => ⟨S50000x64, .f32⟩
  | 33 => ⟨S1x64x64, .f32⟩
  | 34 => ⟨S64x64, .f32⟩
  | 35 => ⟨S1x64, .f32⟩
  | 36 => ⟨S64, .f32⟩
  | 37 => ⟨S50000x64, .f32⟩
  | 38 => ⟨S50000, .i32⟩
  | 39 => ⟨S850000, .i32⟩
  | 40 => ⟨S850000, .i32⟩
  | 41 => ⟨S_, .f32⟩
  | 42 => ⟨S850000, .f32⟩
  | 43 => ⟨S_, .f32⟩
  | 44 => ⟨S50000, .f32⟩
  | 45 => ⟨S850000x1, .i32⟩
  | 46 => ⟨S50000, .f32⟩
  | 47 => ⟨S_, .f32⟩
  | 48 => ⟨S50000, .f32⟩
  | 49 => ⟨S50000, .f32⟩
  | 50 => ⟨S50000, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000, .f32⟩
  | 60 => ⟨S_, .i32⟩
  | 61 => ⟨S850000, .i32⟩
  | 62 => ⟨S850000, .i1⟩
  | 63 => ⟨S_, .i32⟩
  | 64 => ⟨S850000, .i32⟩
  | 65 => ⟨S850000, .i32⟩
  | 66 => ⟨S850000, .i32⟩
  | 67 => ⟨S850000x1, .i32⟩
  | 68 => ⟨S850000, .f32⟩
  | 69 => ⟨S850000, .f32⟩
  | 70 => ⟨S850000x1, .f32⟩
  | 71 => ⟨S_, .i32⟩
  | 72 => ⟨S850000, .i32⟩
  | 73 => ⟨S850000, .i1⟩
  | 74 => ⟨S_, .i32⟩
  | 75 => ⟨S850000, .i32⟩
  | 76 => ⟨S850000, .i32⟩
  | 77 => ⟨S850000, .i32⟩
  | 78 => ⟨S850000x1, .i32⟩
  | 79 => ⟨S850000x64, .f32⟩
  | 80 => ⟨S850000x64, .f32⟩
  | 81 => ⟨S850000x64, .f32⟩
  | 82 => ⟨S_, .f32⟩
  | 83 => ⟨S50000x64, .f32⟩
  | 84 => ⟨S850000x1, .i32⟩
  | 85 => ⟨S50000x64, .f32⟩
  | 86 => ⟨S1x64, .f32⟩
  | 87 => ⟨S50000x64, .f32⟩
  | 88 => ⟨S50000x64, .f32⟩
  | 89 => ⟨S_, .f32⟩
  | 90 => ⟨S50000x64, .f32⟩
  | 91 => ⟨S50000x64, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000x64, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000x64, .f32⟩
  | 110 => ⟨S800000x64, .f32⟩
  | 111 => ⟨S800000x64, .f32⟩
  | 112 => ⟨S_, .f32⟩
  | 113 => ⟨S800000x64, .f32⟩
  | 114 => ⟨S800000x64, .f32⟩
  | 115 => ⟨S_, .f32⟩
  | 116 => ⟨S50000x64, .f32⟩
  | 117 => ⟨S800000x1, .i32⟩
  | 118 => ⟨S50000x64, .f32⟩
  | 119 => ⟨S_, .f32⟩
  | 120 => ⟨S800000, .f32⟩
  | 121 => ⟨S_, .f32⟩
  | 122 => ⟨S50000, .f32⟩
  | 123 => ⟨S800000x1, .i32⟩
  | 124 => ⟨S50000, .f32⟩
  | 125 => ⟨S_, .f32⟩
  | 126 => ⟨S50000, .f32⟩
  | 127 => ⟨S50000, .f32⟩
  | _ => ⟨S50000x128, .f32⟩

abbrev hbmTy0_4 (i : Nat) : BufTy := match i % 128 with
  | 0 => ⟨S50000x1, .f32⟩
  | 1 => ⟨S50000x64, .f32⟩
  | 2 => ⟨S50000x64, .f32⟩
  | 3 => ⟨S50000x64, .f32⟩
  | 4 => ⟨S_, .f32⟩
  | 5 => ⟨S50000x64, .f32⟩
  | 6 => ⟨S50000x64, .f32⟩
  | 7 => ⟨S50000x64, .f32⟩
  | 8 => ⟨S50000x64, .f32⟩
  | 9 => ⟨S50000x64, .f32⟩
  | 10 => ⟨S1x64x64, .f32⟩
  | 11 => ⟨S64x64, .f32⟩
  | 12 => ⟨S1x64, .f32⟩
  | 13 => ⟨S64, .f32⟩
  | 14 => ⟨S50000x64, .f32⟩
  | 15 => ⟨S50000, .i32⟩
  | 16 => ⟨S850000, .i32⟩
  | 17 => ⟨S850000, .i32⟩
  | 18 => ⟨S_, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .f32⟩
  | 27 => ⟨S50000, .f32⟩
  | 28 => ⟨S_, .i32⟩
  | 29 => ⟨S850000, .i32⟩
  | 30 => ⟨S850000, .i1⟩
  | 31 => ⟨S_, .i32⟩
  | 32 => ⟨S850000, .i32⟩
  | 33 => ⟨S850000, .i32⟩
  | 34 => ⟨S850000, .i32⟩
  | 35 => ⟨S850000x1, .i32⟩
  | 36 => ⟨S850000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S850000, .f32⟩
  | 47 => ⟨S850000x1, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000x64, .f32⟩
  | 57 => ⟨S850000x64, .f32⟩
  | 58 => ⟨S850000x64, .f32⟩
  | 59 => ⟨S_, .f32⟩
  | 60 => ⟨S50000x64, .f32⟩
  | 61 => ⟨S850000x1, .i32⟩
  | 62 => ⟨S50000x64, .f32⟩
  | 63 => ⟨S1x64, .f32⟩
  | 64 => ⟨S50000x64, .f32⟩
  | 65 => ⟨S50000x64, .f32⟩
  | 66 => ⟨S_, .f32⟩
  | 67 => ⟨S50000x64, .f32⟩
  | 68 => ⟨S50000x64, .f32⟩
  | 69 => ⟨S1x64x64, .f32⟩
  | 70 => ⟨S64x64, .f32⟩
  | 71 => ⟨S1x64, .f32⟩
  | 72 => ⟨S64, .f32⟩
  | 73 => ⟨S50000x64, .f32⟩
  | 74 => ⟨S50000, .i32⟩
  | 75 => ⟨S850000, .i32⟩
  | 76 => ⟨S850000, .i32⟩
  | 77 => ⟨S_, .f32⟩
  | 78 => ⟨S850000, .f32⟩
  | 79 => ⟨S_, .f32⟩
  | 80 => ⟨S50000, .f32⟩
  | 81 => ⟨S850000x1, .i32⟩
  | 82 => ⟨S50000, .f32⟩
  | 83 => ⟨S_, .f32⟩
  | 84 => ⟨S50000, .f32⟩
  | 85 => ⟨S50000, .f32⟩
  | 86 => ⟨S50000, .f32⟩
  | 87 => ⟨S_, .i32⟩
  | 88 => ⟨S850000, .i32⟩
  | 89 => ⟨S850000, .i1⟩
  | 90 => ⟨S_, .i32⟩
  | 91 => ⟨S850000, .i32⟩
  | 92 => ⟨S850000, .i32⟩
  | 93 => ⟨S850000, .i32⟩
  | 94 => ⟨S850000x1, .i32⟩
  | 95 => ⟨S850000, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000, .f32⟩
  | 105 => ⟨S850000, .f32⟩
  | 106 => ⟨S850000x1, .f32⟩
  | 107 => ⟨S_, .i32⟩
  | 108 => ⟨S850000, .i32⟩
  | 109 => ⟨S850000, .i1⟩
  | 110 => ⟨S_, .i32⟩
  | 111 => ⟨S850000, .i32⟩
  | 112 => ⟨S850000, .i32⟩
  | 113 => ⟨S850000, .i32⟩
  | 114 => ⟨S850000x1, .i32⟩
  | 115 => ⟨S850000x64, .f32⟩
  | 116 => ⟨S850000x64, .f32⟩
  | 117 => ⟨S850000x64, .f32⟩
  | 118 => ⟨S_, .f32⟩
  | 119 => ⟨S50000x64, .f32⟩
  | 120 => ⟨S850000x1, .i32⟩
  | 121 => ⟨S50000x64, .f32⟩
  | 122 => ⟨S1x64, .f32⟩
  | 123 => ⟨S50000x64, .f32⟩
  | 124 => ⟨S50000x64, .f32⟩
  | 125 => ⟨S_, .f32⟩
  | 126 => ⟨S50000x64, .f32⟩
  | 127 => ⟨S50000x64, .f32⟩
  | _ => ⟨S50000x128, .f32⟩

abbrev hbmTy0_5 (i : Nat) : BufTy := match i % 128 with
  | 0 => ⟨S_, .i32⟩
  | 1 => ⟨S800000, .i32⟩
  | 2 => ⟨S800000, .i1⟩
  | 3 => ⟨S_, .i32⟩
  | 4 => ⟨S800000, .i32⟩
  | 5 => ⟨S800000, .i32⟩
  | 6 => ⟨S800000, .i32⟩
  | 7 => ⟨S800000x1, .i32⟩
  | 8 => ⟨S800000x64, .f32⟩
  | 9 => ⟨S_, .i32⟩
  | 10 => ⟨S800000, .i32⟩
  | 11 => ⟨S800000, .i1⟩
  | 12 => ⟨S_, .i32⟩
  | 13 => ⟨S800000, .i32⟩
  | 14 => ⟨S800000, .i32⟩
  | 15 => ⟨S800000, .i32⟩
  | 16 => ⟨S800000x1, .i32⟩
  | 17 => ⟨S800000x64, .f32⟩
  | 18 => ⟨S800000x64, .f32⟩
  | 19 => ⟨S800000x64, .f32⟩
  | 20 => ⟨S_, .f32⟩
  | 21 => ⟨S800000x64, .f32⟩
  | 22 => ⟨S800000x64, .f32⟩
  | 23 => ⟨S_, .f32⟩
  | 24 => ⟨S50000x64, .f32⟩
  | 25 => ⟨S800000x1, .i32⟩
  | 26 => ⟨S50000x64, .f32⟩
  | 27 => ⟨S_, .f32⟩
  | 28 => ⟨S800000, .f32⟩
  | 29 => ⟨S_, .f32⟩
  | 30 => ⟨S50000, .f32⟩
  | 31 => ⟨S800000x1, .i32⟩
  | 32 => ⟨S50000, .f32⟩
  | 33 => ⟨S_, .f32⟩
  | 34 => ⟨S50000, .f32⟩
  | 35 => ⟨S50000, .f32⟩
  | 36 => ⟨S50000x1, .f32⟩
  | 37 => ⟨S50000x64, .f32⟩
  | 38 => ⟨S50000x64, .f32⟩
  | 39 => ⟨S50000x64, .f32⟩
  | 40 => ⟨S_, .f32⟩
  | 41 => ⟨S50000x64, .f32⟩
  | 42 => ⟨S50000x64, .f32⟩
  | 43 => ⟨S50000x64, .f32⟩
  | 44 => ⟨S50000x64, .f32⟩
  | 45 => ⟨S50000x64, .f32⟩
  | 46 => ⟨S_, .f32⟩
  | 47 => ⟨S500x64, .f32⟩
  | 48 => ⟨S50000x1, .i32⟩
  | 49 => ⟨S500x64, .f32⟩
  | 50 => ⟨S500x64, .f32⟩
  | 51 => ⟨S1x64, .f32⟩
  | 52 => ⟨S500x64, .f32⟩
  | 53 => ⟨S500x64, .f32⟩
  | 54 => ⟨S_, .f32⟩
  | 55 => ⟨S64, .f32⟩
  | 56 => ⟨S_, .f32⟩
  | 57 => ⟨S64, .f32⟩
  | 58 => ⟨S64, .f32⟩
  | 59 => ⟨S_, .i32⟩
  | 60 => ⟨S_, .f32⟩
  | 61 => ⟨S64, .f32⟩
  | 62 => ⟨S1x64, .f32⟩
  | 63 => ⟨S_, .f32⟩
  | 64 => ⟨S1x64, .f32⟩
  | 65 => ⟨S1x64, .f32⟩
  | 66 => ⟨S500x64, .f32⟩
  | 67 => ⟨S500x64, .f32⟩
  | 68 => ⟨S500x64, .f32⟩
  | 69 => ⟨S_, .f32⟩
  | 70 => ⟨S_, .f32⟩
  | 71 => ⟨S_, .f32⟩
  | 72 => ⟨S_, .f32⟩
  | 73 => ⟨S64, .f32⟩
  | 74 => ⟨S64, .f32⟩
  | 75 => ⟨S64, .f32⟩
  | 76 => ⟨S_, .f32⟩
  | 77 => ⟨S_, .i1⟩
  | 78 => ⟨S_, .f32⟩
  | 79 => ⟨S_, .f32⟩
  | 80 => ⟨S64, .f32⟩
  | 81 => ⟨S64, .f32⟩
  | 82 => ⟨S1x64, .f32⟩
  | 83 => ⟨S500x64, .f32⟩
  | 84 => ⟨S500x64, .f32⟩
  | 85 => ⟨S_, .f32⟩
  | 86 => ⟨S64, .f32⟩
  | 87 => ⟨S64, .f32⟩
  | 88 => ⟨S64, .f32⟩
  | 89 => ⟨S1x64, .f32⟩
  | 90 => ⟨S500x64, .f32⟩
  | 91 => ⟨S500x64, .f32⟩
  | 92 => ⟨S1x64, .f32⟩
  | 93 => ⟨S500x64, .f32⟩
  | 94 => ⟨S500x64, .f32⟩
  | 95 => ⟨S1x64, .f32⟩
  | 96 => ⟨S500x64, .f32⟩
  | 97 => ⟨S500x64, .f32⟩
  | 98 => ⟨S_, .f32⟩
  | 99 => ⟨S500x64, .f32⟩
  | 100 => ⟨S500x64, .f32⟩
  | 101 => ⟨S500x64, .f32⟩
  | 102 => ⟨S1x64, .f32⟩
  | 103 => ⟨S500x64, .f32⟩
  | 104 => ⟨S500x64, .f32⟩
  | 105 => ⟨S_, .f32⟩
  | 106 => ⟨S64, .f32⟩
  | 107 => ⟨S_, .f32⟩
  | 108 => ⟨S64, .f32⟩
  | 109 => ⟨S64, .f32⟩
  | 110 => ⟨S_, .i32⟩
  | 111 => ⟨S_, .f32⟩
  | 112 => ⟨S64, .f32⟩
  | 113 => ⟨S1x64, .f32⟩
  | 114 => ⟨S_, .f32⟩
  | 115 => ⟨S1x64, .f32⟩
  | 116 => ⟨S1x64, .f32⟩
  | 117 => ⟨S500x64, .f32⟩
  | 118 => ⟨S500x64, .f32⟩
  | 119 => ⟨S500x64, .f32⟩
  | 120 => ⟨S_, .f32⟩
  | 121 => ⟨S_, .f32⟩
  | 122 => ⟨S_, .f32⟩
  | 123 => ⟨S_, .f32⟩
  | 124 => ⟨S64, .f32⟩
  | 125 => ⟨S64, .f32⟩
  | 126 => ⟨S64, .f32⟩
  | 127 => ⟨S_, .f32⟩
  | _ => ⟨S50000x128, .f32⟩

abbrev hbmTy0_6 (i : Nat) : BufTy := match i % 128 with
  | 0 => ⟨S_, .i1⟩
  | 1 => ⟨S_, .f32⟩
  | 2 => ⟨S_, .f32⟩
  | 3 => ⟨S64, .f32⟩
  | 4 => ⟨S64, .f32⟩
  | 5 => ⟨S1x64, .f32⟩
  | 6 => ⟨S500x64, .f32⟩
  | 7 => ⟨S500x64, .f32⟩
  | 8 => ⟨S_, .f32⟩
  | 9 => ⟨S64, .f32⟩
  | 10 => ⟨S64, .f32⟩
  | 11 => ⟨S64, .f32⟩
  | 12 => ⟨S1x64, .f32⟩
  | 13 => ⟨S500x64, .f32⟩
  | 14 => ⟨S500x64, .f32⟩
  | 15 => ⟨S1x64, .f32⟩
  | 16 => ⟨S500x64, .f32⟩
  | 17 => ⟨S500x64, .f32⟩
  | 18 => ⟨S1x64, .f32⟩
  | 19 => ⟨S500x64, .f32⟩
  | 20 => ⟨S500x64, .f32⟩
  | 21 => ⟨S_, .f32⟩
  | 22 => ⟨S500x64, .f32⟩
  | 23 => ⟨S500x64, .f32⟩
  | 24 => ⟨S500x64, .f32⟩
  | 25 => ⟨S1x64, .f32⟩
  | 26 => ⟨S500x64, .f32⟩
  | 27 => ⟨S500x64, .f32⟩
  | 28 => ⟨S_, .f32⟩
  | 29 => ⟨S64, .f32⟩
  | 30 => ⟨S_, .f32⟩
  | 31 => ⟨S64, .f32⟩
  | 32 => ⟨S64, .f32⟩
  | 33 => ⟨S_, .i32⟩
  | 34 => ⟨S_, .f32⟩
  | 35 => ⟨S64, .f32⟩
  | 36 => ⟨S1x64, .f32⟩
  | 37 => ⟨S_, .f32⟩
  | 38 => ⟨S1x64, .f32⟩
  | 39 => ⟨S1x64, .f32⟩
  | 40 => ⟨S500x64, .f32⟩
  | 41 => ⟨S500x64, .f32⟩
  | 42 => ⟨S500x64, .f32⟩
  | 43 => ⟨S_, .f32⟩
  | 44 => ⟨S_, .f32⟩
  | 45 => ⟨S_, .f32⟩
  | 46 => ⟨S_, .f32⟩
  | 47 => ⟨S64, .f32⟩
  | 48 => ⟨S64, .f32⟩
  | 49 => ⟨S64, .f32⟩
  | 50 => ⟨S_, .f32⟩
  | 51 => ⟨S_, .i1⟩
  | 52 => ⟨S_, .f32⟩
  | 53 => ⟨S_, .f32⟩
  | 54 => ⟨S64, .f32⟩
  | 55 => ⟨S64, .f32⟩
  | 56 => ⟨S1x64, .f32⟩
  | 57 => ⟨S500x64, .f32⟩
  | 58 => ⟨S500x64, .f32⟩
  | 59 => ⟨S_, .f32⟩
  | 60 => ⟨S64, .f32⟩
  | 61 => ⟨S64, .f32⟩
  | 62 => ⟨S64, .f32⟩
  | 63 => ⟨S1x64, .f32⟩
  | 64 => ⟨S500x64, .f32⟩
  | 65 => ⟨S500x64, .f32⟩
  | 66 => ⟨S1x64, .f32⟩
  | 67 => ⟨S500x64, .f32⟩
  | 68 => ⟨S500x64, .f32⟩
  | 69 => ⟨S1x64, .f32⟩
  | 70 => ⟨S500x64, .f32⟩
  | 71 => ⟨S500x64, .f32⟩
  | 72 => ⟨S_, .f32⟩
  | 73 => ⟨S500x64, .f32⟩
  | 74 => ⟨S500x64, .f32⟩
  | 75 => ⟨S500x1, .f32⟩
  | 76 => ⟨S1x1, .f32⟩
  | 77 => ⟨S500x1, .f32⟩
  | 78 => ⟨S500x1, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x64, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x64, .f32⟩
  | 97 => ⟨S800000x64, .f32⟩
  | 98 => ⟨S800000x64, .f32⟩
  | 99 => ⟨S_, .f32⟩
  | 100 => ⟨S_, .f32⟩
  | 101 => ⟨S_, .f32⟩
  | 102 => ⟨S_, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_call0_cst : Ref sig .tc := ⟨.hbm, 27, rfl⟩
abbrev main_call0_v0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst : Ref sig .tc := ⟨.hbm, 38, rfl⟩
abbrev main_v17 : Ref sig .tc := ⟨.hbm, 39, rfl⟩
abbrev main_cst_0 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_1 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c : Ref sig .tc := ⟨.hbm, 48, rfl⟩
abbrev main_v24 : Ref sig .tc := ⟨.hbm, 49, rfl⟩
abbrev main_v25 : Ref sig .tc := ⟨.hbm, 50, rfl⟩
abbrev main_c_2 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_3 : Ref sig .tc := ⟨.hbm, 57, rfl⟩
abbrev main_v31 : Ref sig .tc := ⟨.hbm, 58, rfl⟩
abbrev main_v32 : Ref sig .tc := ⟨.hbm, 59, rfl⟩
abbrev main_c_4 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_c_5 : Ref sig .tc := ⟨.hbm, 68, rfl⟩
abbrev main_v40 : Ref sig .tc := ⟨.hbm, 69, rfl⟩
abbrev main_v41 : Ref sig .tc := ⟨.hbm, 70, rfl⟩
abbrev main_c_6 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_7 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_call1_cst : Ref sig .tc := ⟨.hbm, 86, rfl⟩
abbrev main_call1_v0 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_8 : Ref sig .tc := ⟨.hbm, 97, rfl⟩
abbrev main_v64 : Ref sig .tc := ⟨.hbm, 98, rfl⟩
abbrev main_cst_9 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_10 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_c_11 : Ref sig .tc := ⟨.hbm, 107, rfl⟩
abbrev main_v71 : Ref sig .tc := ⟨.hbm, 108, rfl⟩
abbrev main_v72 : Ref sig .tc := ⟨.hbm, 109, rfl⟩
abbrev main_c_12 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_c_13 : Ref sig .tc := ⟨.hbm, 116, rfl⟩
abbrev main_v78 : Ref sig .tc := ⟨.hbm, 117, rfl⟩
abbrev main_v79 : Ref sig .tc := ⟨.hbm, 118, rfl⟩
abbrev main_c_14 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_c_15 : Ref sig .tc := ⟨.hbm, 127, rfl⟩
abbrev main_v87 : Ref sig .tc := ⟨.hbm, 128, rfl⟩
abbrev main_v88 : Ref sig .tc := ⟨.hbm, 129, rfl⟩
abbrev main_c_16 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_17 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_call2_cst : Ref sig .tc := ⟨.hbm, 145, rfl⟩
abbrev main_call2_v0 : Ref sig .tc := ⟨.hbm, 146, rfl⟩
abbrev main_v102 : Ref sig .tc := ⟨.hbm, 147, rfl⟩
abbrev main_c_18 : Ref sig .tc := ⟨.hbm, 148, rfl⟩
abbrev main_v103 : Ref sig .tc := ⟨.hbm, 149, rfl⟩
abbrev main_v104 : Ref sig .tc := ⟨.hbm, 150, rfl⟩
abbrev main_c_19 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_c_20 : Ref sig .tc := ⟨.hbm, 157, rfl⟩
abbrev main_v110 : Ref sig .tc := ⟨.hbm, 158, rfl⟩
abbrev main_v111 : Ref sig .tc := ⟨.hbm, 159, rfl⟩
abbrev main_c_21 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_cst_22 : Ref sig .tc := ⟨.hbm, 168, rfl⟩
abbrev main_v119 : Ref sig .tc := ⟨.hbm, 169, rfl⟩
abbrev main_v120 : Ref sig .tc := ⟨.hbm, 170, rfl⟩
abbrev main_cst_23 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_cst_24 : Ref sig .tc := ⟨.hbm, 175, rfl⟩
abbrev main_v124 : Ref sig .tc := ⟨.hbm, 176, rfl⟩
abbrev main_cst_25 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_cst_26 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_cst_27 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_cst_28 : Ref sig .tc := ⟨.hbm, 202, rfl⟩
abbrev main_v147 : Ref sig .tc := ⟨.hbm, 203, rfl⟩
abbrev main_cst_29 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_cst_30 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_c_31 : Ref sig .tc := ⟨.hbm, 212, rfl⟩
abbrev main_v154 : Ref sig .tc := ⟨.hbm, 213, rfl⟩
abbrev main_v155 : Ref sig .tc := ⟨.hbm, 214, rfl⟩
abbrev main_c_32 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_c_33 : Ref sig .tc := ⟨.hbm, 221, rfl⟩
abbrev main_v161 : Ref sig .tc := ⟨.hbm, 222, rfl⟩
abbrev main_v162 : Ref sig .tc := ⟨.hbm, 223, rfl⟩
abbrev main_c_34 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_c_35 : Ref sig .tc := ⟨.hbm, 232, rfl⟩
abbrev main_v170 : Ref sig .tc := ⟨.hbm, 233, rfl⟩
abbrev main_v171 : Ref sig .tc := ⟨.hbm, 234, rfl⟩
abbrev main_c_36 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_cst_37 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_call3_cst : Ref sig .tc := ⟨.hbm, 250, rfl⟩
abbrev main_call3_v0 : Ref sig .tc := ⟨.hbm, 251, rfl⟩
abbrev main_v185 : Ref sig .tc := ⟨.hbm, 252, rfl⟩
abbrev main_v186 : Ref sig .tc := ⟨.hbm, 253, rfl⟩
abbrev main_v187 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_cst_38 : Ref sig .tc := ⟨.hbm, 261, rfl⟩
abbrev main_v194 : Ref sig .tc := ⟨.hbm, 262, rfl⟩
abbrev main_cst_39 : Ref sig .tc := ⟨.hbm, 263, rfl⟩
abbrev main_v195 : Ref sig .tc := ⟨.hbm, 264, rfl⟩
abbrev main_v196 : Ref sig .tc := ⟨.hbm, 265, rfl⟩
abbrev main_v197 : Ref sig .tc := ⟨.hbm, 266, rfl⟩
abbrev main_cst_40 : Ref sig .tc := ⟨.hbm, 267, rfl⟩
abbrev main_v198 : Ref sig .tc := ⟨.hbm, 268, rfl⟩
abbrev main_v199 : Ref sig .tc := ⟨.hbm, 269, rfl⟩
abbrev main_v200 : Ref sig .tc := ⟨.hbm, 270, rfl⟩
abbrev main_c_41 : Ref sig .tc := ⟨.hbm, 271, rfl⟩
abbrev main_v201 : Ref sig .tc := ⟨.hbm, 272, rfl⟩
abbrev main_v202 : Ref sig .tc := ⟨.hbm, 273, rfl⟩
abbrev main_c_42 : Ref sig .tc := ⟨.hbm, 274, rfl⟩
abbrev main_v203 : Ref sig .tc := ⟨.hbm, 275, rfl⟩
abbrev main_v204 : Ref sig .tc := ⟨.hbm, 276, rfl⟩
abbrev main_v205 : Ref sig .tc := ⟨.hbm, 277, rfl⟩
abbrev main_v206 : Ref sig .tc := ⟨.hbm, 278, rfl⟩
abbrev main_v207 : Ref sig .tc := ⟨.hbm, 279, rfl⟩
abbrev main_c_43 : Ref sig .tc := ⟨.hbm, 280, rfl⟩
abbrev main_v208 : Ref sig .tc := ⟨.hbm, 281, rfl⟩
abbrev main_v209 : Ref sig .tc := ⟨.hbm, 282, rfl⟩
abbrev main_c_44 : Ref sig .tc := ⟨.hbm, 283, rfl⟩
abbrev main_v210 : Ref sig .tc := ⟨.hbm, 284, rfl⟩
abbrev main_v211 : Ref sig .tc := ⟨.hbm, 285, rfl⟩
abbrev main_v212 : Ref sig .tc := ⟨.hbm, 286, rfl⟩
abbrev main_v213 : Ref sig .tc := ⟨.hbm, 287, rfl⟩
abbrev main_v214 : Ref sig .tc := ⟨.hbm, 288, rfl⟩
abbrev main_v215 : Ref sig .tc := ⟨.hbm, 289, rfl⟩
abbrev main_v216 : Ref sig .tc := ⟨.hbm, 290, rfl⟩
abbrev main_c_45 : Ref sig .tc := ⟨.hbm, 291, rfl⟩
abbrev main_v217 : Ref sig .tc := ⟨.hbm, 292, rfl⟩
abbrev main_v218 : Ref sig .tc := ⟨.hbm, 293, rfl⟩
abbrev main_c_46 : Ref sig .tc := ⟨.hbm, 294, rfl⟩
abbrev main_v219 : Ref sig .tc := ⟨.hbm, 295, rfl⟩
abbrev main_v220 : Ref sig .tc := ⟨.hbm, 296, rfl⟩
abbrev main_v221 : Ref sig .tc := ⟨.hbm, 297, rfl⟩
abbrev main_v222 : Ref sig .tc := ⟨.hbm, 298, rfl⟩
abbrev main_v223 : Ref sig .tc := ⟨.hbm, 299, rfl⟩
abbrev main_v224 : Ref sig .tc := ⟨.hbm, 300, rfl⟩
abbrev main_v225 : Ref sig .tc := ⟨.hbm, 301, rfl⟩
abbrev main_cst_47 : Ref sig .tc := ⟨.hbm, 302, rfl⟩
abbrev main_v226 : Ref sig .tc := ⟨.hbm, 303, rfl⟩
abbrev main_v227 : Ref sig .tc := ⟨.hbm, 304, rfl⟩
abbrev main_v228 : Ref sig .tc := ⟨.hbm, 305, rfl⟩
abbrev main_v229 : Ref sig .tc := ⟨.hbm, 306, rfl⟩
abbrev main_v230 : Ref sig .tc := ⟨.hbm, 307, rfl⟩
abbrev main_v231 : Ref sig .tc := ⟨.hbm, 308, rfl⟩
abbrev main_call4_cst : Ref sig .tc := ⟨.hbm, 309, rfl⟩
abbrev main_call4_v0 : Ref sig .tc := ⟨.hbm, 310, rfl⟩
abbrev main_v232 : Ref sig .tc := ⟨.hbm, 311, rfl⟩
abbrev main_c_48 : Ref sig .tc := ⟨.hbm, 312, rfl⟩
abbrev main_v233 : Ref sig .tc := ⟨.hbm, 313, rfl⟩
abbrev main_v234 : Ref sig .tc := ⟨.hbm, 314, rfl⟩
abbrev main_c_49 : Ref sig .tc := ⟨.hbm, 315, rfl⟩
abbrev main_v235 : Ref sig .tc := ⟨.hbm, 316, rfl⟩
abbrev main_v236 : Ref sig .tc := ⟨.hbm, 317, rfl⟩
abbrev main_v237 : Ref sig .tc := ⟨.hbm, 318, rfl⟩
abbrev main_v238 : Ref sig .tc := ⟨.hbm, 319, rfl⟩
abbrev main_v239 : Ref sig .tc := ⟨.hbm, 320, rfl⟩
abbrev main_c_50 : Ref sig .tc := ⟨.hbm, 321, rfl⟩
abbrev main_v240 : Ref sig .tc := ⟨.hbm, 322, rfl⟩
abbrev main_v241 : Ref sig .tc := ⟨.hbm, 323, rfl⟩
abbrev main_c_51 : Ref sig .tc := ⟨.hbm, 324, rfl⟩
abbrev main_v242 : Ref sig .tc := ⟨.hbm, 325, rfl⟩
abbrev main_v243 : Ref sig .tc := ⟨.hbm, 326, rfl⟩
abbrev main_v244 : Ref sig .tc := ⟨.hbm, 327, rfl⟩
abbrev main_v245 : Ref sig .tc := ⟨.hbm, 328, rfl⟩
abbrev main_v246 : Ref sig .tc := ⟨.hbm, 329, rfl⟩
abbrev main_v247 : Ref sig .tc := ⟨.hbm, 330, rfl⟩
abbrev main_v248 : Ref sig .tc := ⟨.hbm, 331, rfl⟩
abbrev main_cst_52 : Ref sig .tc := ⟨.hbm, 332, rfl⟩
abbrev main_v249 : Ref sig .tc := ⟨.hbm, 333, rfl⟩
abbrev main_v250 : Ref sig .tc := ⟨.hbm, 334, rfl⟩
abbrev main_cst_53 : Ref sig .tc := ⟨.hbm, 335, rfl⟩
abbrev main_v251 : Ref sig .tc := ⟨.hbm, 336, rfl⟩
abbrev main_v252 : Ref sig .tc := ⟨.hbm, 337, rfl⟩
abbrev main_v253 : Ref sig .tc := ⟨.hbm, 338, rfl⟩
abbrev main_cst_54 : Ref sig .tc := ⟨.hbm, 339, rfl⟩
abbrev main_v254 : Ref sig .tc := ⟨.hbm, 340, rfl⟩
abbrev main_cst_55 : Ref sig .tc := ⟨.hbm, 341, rfl⟩
abbrev main_v255 : Ref sig .tc := ⟨.hbm, 342, rfl⟩
abbrev main_v256 : Ref sig .tc := ⟨.hbm, 343, rfl⟩
abbrev main_v257 : Ref sig .tc := ⟨.hbm, 344, rfl⟩
abbrev main_cst_56 : Ref sig .tc := ⟨.hbm, 345, rfl⟩
abbrev main_v258 : Ref sig .tc := ⟨.hbm, 346, rfl⟩
abbrev main_v259 : Ref sig .tc := ⟨.hbm, 347, rfl⟩
abbrev main_v260 : Ref sig .tc := ⟨.hbm, 348, rfl⟩
abbrev main_v261 : Ref sig .tc := ⟨.hbm, 349, rfl⟩
abbrev main_v262 : Ref sig .tc := ⟨.hbm, 350, rfl⟩
abbrev main_v263 : Ref sig .tc := ⟨.hbm, 351, rfl⟩
abbrev main_cst_57 : Ref sig .tc := ⟨.hbm, 352, rfl⟩
abbrev main_v264 : Ref sig .tc := ⟨.hbm, 353, rfl⟩
abbrev main_v265 : Ref sig .tc := ⟨.hbm, 354, rfl⟩
abbrev main_v266 : Ref sig .tc := ⟨.hbm, 355, rfl⟩
abbrev main_v267 : Ref sig .tc := ⟨.hbm, 356, rfl⟩
abbrev main_v268 : Ref sig .tc := ⟨.hbm, 357, rfl⟩
abbrev main_v269 : Ref sig .tc := ⟨.hbm, 358, rfl⟩
abbrev main_v270 : Ref sig .tc := ⟨.hbm, 359, rfl⟩
abbrev main_v271 : Ref sig .tc := ⟨.hbm, 360, rfl⟩
abbrev main_v272 : Ref sig .tc := ⟨.hbm, 361, rfl⟩
abbrev main_v273 : Ref sig .tc := ⟨.hbm, 362, rfl⟩
abbrev main_v274 : Ref sig .tc := ⟨.hbm, 363, rfl⟩
abbrev main_v275 : Ref sig .tc := ⟨.hbm, 364, rfl⟩
abbrev main_v276 : Ref sig .tc := ⟨.hbm, 365, rfl⟩
abbrev main_cst_58 : Ref sig .tc := ⟨.hbm, 366, rfl⟩
abbrev main_v277 : Ref sig .tc := ⟨.hbm, 367, rfl⟩
abbrev main_cst_59 : Ref sig .tc := ⟨.hbm, 368, rfl⟩
abbrev main_v278 : Ref sig .tc := ⟨.hbm, 369, rfl⟩
abbrev main_v279 : Ref sig .tc := ⟨.hbm, 370, rfl⟩
abbrev main_v280 : Ref sig .tc := ⟨.hbm, 371, rfl⟩
abbrev main_cst_60 : Ref sig .tc := ⟨.hbm, 372, rfl⟩
abbrev main_v281 : Ref sig .tc := ⟨.hbm, 373, rfl⟩
abbrev main_v282 : Ref sig .tc := ⟨.hbm, 374, rfl⟩
abbrev main_v283 : Ref sig .tc := ⟨.hbm, 375, rfl⟩
abbrev main_c_61 : Ref sig .tc := ⟨.hbm, 376, rfl⟩
abbrev main_v284 : Ref sig .tc := ⟨.hbm, 377, rfl⟩
abbrev main_v285 : Ref sig .tc := ⟨.hbm, 378, rfl⟩
abbrev main_c_62 : Ref sig .tc := ⟨.hbm, 379, rfl⟩
abbrev main_v286 : Ref sig .tc := ⟨.hbm, 380, rfl⟩
abbrev main_v287 : Ref sig .tc := ⟨.hbm, 381, rfl⟩
abbrev main_v288 : Ref sig .tc := ⟨.hbm, 382, rfl⟩
abbrev main_v289 : Ref sig .tc := ⟨.hbm, 383, rfl⟩
abbrev main_v290 : Ref sig .tc := ⟨.hbm, 384, rfl⟩
abbrev main_c_63 : Ref sig .tc := ⟨.hbm, 385, rfl⟩
abbrev main_v291 : Ref sig .tc := ⟨.hbm, 386, rfl⟩
abbrev main_v292 : Ref sig .tc := ⟨.hbm, 387, rfl⟩
abbrev main_c_64 : Ref sig .tc := ⟨.hbm, 388, rfl⟩
abbrev main_v293 : Ref sig .tc := ⟨.hbm, 389, rfl⟩
abbrev main_v294 : Ref sig .tc := ⟨.hbm, 390, rfl⟩
abbrev main_v295 : Ref sig .tc := ⟨.hbm, 391, rfl⟩
abbrev main_v296 : Ref sig .tc := ⟨.hbm, 392, rfl⟩
abbrev main_v297 : Ref sig .tc := ⟨.hbm, 393, rfl⟩
abbrev main_v298 : Ref sig .tc := ⟨.hbm, 394, rfl⟩
abbrev main_v299 : Ref sig .tc := ⟨.hbm, 395, rfl⟩
abbrev main_c_65 : Ref sig .tc := ⟨.hbm, 396, rfl⟩
abbrev main_v300 : Ref sig .tc := ⟨.hbm, 397, rfl⟩
abbrev main_v301 : Ref sig .tc := ⟨.hbm, 398, rfl⟩
abbrev main_c_66 : Ref sig .tc := ⟨.hbm, 399, rfl⟩
abbrev main_v302 : Ref sig .tc := ⟨.hbm, 400, rfl⟩
abbrev main_v303 : Ref sig .tc := ⟨.hbm, 401, rfl⟩
abbrev main_v304 : Ref sig .tc := ⟨.hbm, 402, rfl⟩
abbrev main_v305 : Ref sig .tc := ⟨.hbm, 403, rfl⟩
abbrev main_v306 : Ref sig .tc := ⟨.hbm, 404, rfl⟩
abbrev main_v307 : Ref sig .tc := ⟨.hbm, 405, rfl⟩
abbrev main_v308 : Ref sig .tc := ⟨.hbm, 406, rfl⟩
abbrev main_cst_67 : Ref sig .tc := ⟨.hbm, 407, rfl⟩
abbrev main_v309 : Ref sig .tc := ⟨.hbm, 408, rfl⟩
abbrev main_v310 : Ref sig .tc := ⟨.hbm, 409, rfl⟩
abbrev main_v311 : Ref sig .tc := ⟨.hbm, 410, rfl⟩
abbrev main_v312 : Ref sig .tc := ⟨.hbm, 411, rfl⟩
abbrev main_v313 : Ref sig .tc := ⟨.hbm, 412, rfl⟩
abbrev main_v314 : Ref sig .tc := ⟨.hbm, 413, rfl⟩
abbrev main_call5_cst : Ref sig .tc := ⟨.hbm, 414, rfl⟩
abbrev main_call5_v0 : Ref sig .tc := ⟨.hbm, 415, rfl⟩
abbrev main_v315 : Ref sig .tc := ⟨.hbm, 416, rfl⟩
abbrev main_v316 : Ref sig .tc := ⟨.hbm, 417, rfl⟩
abbrev main_v317 : Ref sig .tc := ⟨.hbm, 418, rfl⟩
abbrev main_v318 : Ref sig .tc := ⟨.hbm, 419, rfl⟩
abbrev main_v319 : Ref sig .tc := ⟨.hbm, 420, rfl⟩
abbrev main_v320 : Ref sig .tc := ⟨.hbm, 421, rfl⟩
abbrev main_v321 : Ref sig .tc := ⟨.hbm, 422, rfl⟩
abbrev main_v322 : Ref sig .tc := ⟨.hbm, 423, rfl⟩
abbrev main_v323 : Ref sig .tc := ⟨.hbm, 424, rfl⟩
abbrev main_cst_68 : Ref sig .tc := ⟨.hbm, 425, rfl⟩
abbrev main_v324 : Ref sig .tc := ⟨.hbm, 426, rfl⟩
abbrev main_cst_69 : Ref sig .tc := ⟨.hbm, 427, rfl⟩
abbrev main_v325 : Ref sig .tc := ⟨.hbm, 428, rfl⟩
abbrev main_v326 : Ref sig .tc := ⟨.hbm, 429, rfl⟩
abbrev main_v327 : Ref sig .tc := ⟨.hbm, 430, rfl⟩
abbrev main_cst_70 : Ref sig .tc := ⟨.hbm, 431, rfl⟩
abbrev main_v328 : Ref sig .tc := ⟨.hbm, 432, rfl⟩
abbrev main_v329 : Ref sig .tc := ⟨.hbm, 433, rfl⟩
abbrev main_v330 : Ref sig .tc := ⟨.hbm, 434, rfl⟩
abbrev main_c_71 : Ref sig .tc := ⟨.hbm, 435, rfl⟩
abbrev main_v331 : Ref sig .tc := ⟨.hbm, 436, rfl⟩
abbrev main_v332 : Ref sig .tc := ⟨.hbm, 437, rfl⟩
abbrev main_c_72 : Ref sig .tc := ⟨.hbm, 438, rfl⟩
abbrev main_v333 : Ref sig .tc := ⟨.hbm, 439, rfl⟩
abbrev main_v334 : Ref sig .tc := ⟨.hbm, 440, rfl⟩
abbrev main_v335 : Ref sig .tc := ⟨.hbm, 441, rfl⟩
abbrev main_v336 : Ref sig .tc := ⟨.hbm, 442, rfl⟩
abbrev main_v337 : Ref sig .tc := ⟨.hbm, 443, rfl⟩
abbrev main_c_73 : Ref sig .tc := ⟨.hbm, 444, rfl⟩
abbrev main_v338 : Ref sig .tc := ⟨.hbm, 445, rfl⟩
abbrev main_v339 : Ref sig .tc := ⟨.hbm, 446, rfl⟩
abbrev main_c_74 : Ref sig .tc := ⟨.hbm, 447, rfl⟩
abbrev main_v340 : Ref sig .tc := ⟨.hbm, 448, rfl⟩
abbrev main_v341 : Ref sig .tc := ⟨.hbm, 449, rfl⟩
abbrev main_v342 : Ref sig .tc := ⟨.hbm, 450, rfl⟩
abbrev main_v343 : Ref sig .tc := ⟨.hbm, 451, rfl⟩
abbrev main_v344 : Ref sig .tc := ⟨.hbm, 452, rfl⟩
abbrev main_v345 : Ref sig .tc := ⟨.hbm, 453, rfl⟩
abbrev main_v346 : Ref sig .tc := ⟨.hbm, 454, rfl⟩
abbrev main_c_75 : Ref sig .tc := ⟨.hbm, 455, rfl⟩
abbrev main_v347 : Ref sig .tc := ⟨.hbm, 456, rfl⟩
abbrev main_v348 : Ref sig .tc := ⟨.hbm, 457, rfl⟩
abbrev main_c_76 : Ref sig .tc := ⟨.hbm, 458, rfl⟩
abbrev main_v349 : Ref sig .tc := ⟨.hbm, 459, rfl⟩
abbrev main_v350 : Ref sig .tc := ⟨.hbm, 460, rfl⟩
abbrev main_v351 : Ref sig .tc := ⟨.hbm, 461, rfl⟩
abbrev main_v352 : Ref sig .tc := ⟨.hbm, 462, rfl⟩
abbrev main_v353 : Ref sig .tc := ⟨.hbm, 463, rfl⟩
abbrev main_v354 : Ref sig .tc := ⟨.hbm, 464, rfl⟩
abbrev main_v355 : Ref sig .tc := ⟨.hbm, 465, rfl⟩
abbrev main_cst_77 : Ref sig .tc := ⟨.hbm, 466, rfl⟩
abbrev main_v356 : Ref sig .tc := ⟨.hbm, 467, rfl⟩
abbrev main_v357 : Ref sig .tc := ⟨.hbm, 468, rfl⟩
abbrev main_v358 : Ref sig .tc := ⟨.hbm, 469, rfl⟩
abbrev main_v359 : Ref sig .tc := ⟨.hbm, 470, rfl⟩
abbrev main_v360 : Ref sig .tc := ⟨.hbm, 471, rfl⟩
abbrev main_v361 : Ref sig .tc := ⟨.hbm, 472, rfl⟩
abbrev main_call6_cst : Ref sig .tc := ⟨.hbm, 473, rfl⟩
abbrev main_call6_v0 : Ref sig .tc := ⟨.hbm, 474, rfl⟩
abbrev main_v362 : Ref sig .tc := ⟨.hbm, 475, rfl⟩
abbrev main_c_78 : Ref sig .tc := ⟨.hbm, 476, rfl⟩
abbrev main_v363 : Ref sig .tc := ⟨.hbm, 477, rfl⟩
abbrev main_v364 : Ref sig .tc := ⟨.hbm, 478, rfl⟩
abbrev main_c_79 : Ref sig .tc := ⟨.hbm, 479, rfl⟩
abbrev main_v365 : Ref sig .tc := ⟨.hbm, 480, rfl⟩
abbrev main_v366 : Ref sig .tc := ⟨.hbm, 481, rfl⟩
abbrev main_v367 : Ref sig .tc := ⟨.hbm, 482, rfl⟩
abbrev main_v368 : Ref sig .tc := ⟨.hbm, 483, rfl⟩
abbrev main_v369 : Ref sig .tc := ⟨.hbm, 484, rfl⟩
abbrev main_c_80 : Ref sig .tc := ⟨.hbm, 485, rfl⟩
abbrev main_v370 : Ref sig .tc := ⟨.hbm, 486, rfl⟩
abbrev main_v371 : Ref sig .tc := ⟨.hbm, 487, rfl⟩
abbrev main_c_81 : Ref sig .tc := ⟨.hbm, 488, rfl⟩
abbrev main_v372 : Ref sig .tc := ⟨.hbm, 489, rfl⟩
abbrev main_v373 : Ref sig .tc := ⟨.hbm, 490, rfl⟩
abbrev main_v374 : Ref sig .tc := ⟨.hbm, 491, rfl⟩
abbrev main_v375 : Ref sig .tc := ⟨.hbm, 492, rfl⟩
abbrev main_v376 : Ref sig .tc := ⟨.hbm, 493, rfl⟩
abbrev main_v377 : Ref sig .tc := ⟨.hbm, 494, rfl⟩
abbrev main_v378 : Ref sig .tc := ⟨.hbm, 495, rfl⟩
abbrev main_cst_82 : Ref sig .tc := ⟨.hbm, 496, rfl⟩
abbrev main_v379 : Ref sig .tc := ⟨.hbm, 497, rfl⟩
abbrev main_v380 : Ref sig .tc := ⟨.hbm, 498, rfl⟩
abbrev main_cst_83 : Ref sig .tc := ⟨.hbm, 499, rfl⟩
abbrev main_v381 : Ref sig .tc := ⟨.hbm, 500, rfl⟩
abbrev main_v382 : Ref sig .tc := ⟨.hbm, 501, rfl⟩
abbrev main_v383 : Ref sig .tc := ⟨.hbm, 502, rfl⟩
abbrev main_cst_84 : Ref sig .tc := ⟨.hbm, 503, rfl⟩
abbrev main_v384 : Ref sig .tc := ⟨.hbm, 504, rfl⟩
abbrev main_cst_85 : Ref sig .tc := ⟨.hbm, 505, rfl⟩
abbrev main_v385 : Ref sig .tc := ⟨.hbm, 506, rfl⟩
abbrev main_v386 : Ref sig .tc := ⟨.hbm, 507, rfl⟩
abbrev main_v387 : Ref sig .tc := ⟨.hbm, 508, rfl⟩
abbrev main_cst_86 : Ref sig .tc := ⟨.hbm, 509, rfl⟩
abbrev main_v388 : Ref sig .tc := ⟨.hbm, 510, rfl⟩
abbrev main_v389 : Ref sig .tc := ⟨.hbm, 511, rfl⟩
abbrev main_v390 : Ref sig .tc := ⟨.hbm, 512, rfl⟩
abbrev main_v391 : Ref sig .tc := ⟨.hbm, 513, rfl⟩
abbrev main_v392 : Ref sig .tc := ⟨.hbm, 514, rfl⟩
abbrev main_v393 : Ref sig .tc := ⟨.hbm, 515, rfl⟩
abbrev main_cst_87 : Ref sig .tc := ⟨.hbm, 516, rfl⟩
abbrev main_v394 : Ref sig .tc := ⟨.hbm, 517, rfl⟩
abbrev main_v395 : Ref sig .tc := ⟨.hbm, 518, rfl⟩
abbrev main_v396 : Ref sig .tc := ⟨.hbm, 519, rfl⟩
abbrev main_v397 : Ref sig .tc := ⟨.hbm, 520, rfl⟩
abbrev main_v398 : Ref sig .tc := ⟨.hbm, 521, rfl⟩
abbrev main_v399 : Ref sig .tc := ⟨.hbm, 522, rfl⟩
abbrev main_v400 : Ref sig .tc := ⟨.hbm, 523, rfl⟩
abbrev main_v401 : Ref sig .tc := ⟨.hbm, 524, rfl⟩
abbrev main_v402 : Ref sig .tc := ⟨.hbm, 525, rfl⟩
abbrev main_v403 : Ref sig .tc := ⟨.hbm, 526, rfl⟩
abbrev main_v404 : Ref sig .tc := ⟨.hbm, 527, rfl⟩
abbrev main_v405 : Ref sig .tc := ⟨.hbm, 528, rfl⟩
abbrev main_v406 : Ref sig .tc := ⟨.hbm, 529, rfl⟩
abbrev main_cst_88 : Ref sig .tc := ⟨.hbm, 530, rfl⟩
abbrev main_v407 : Ref sig .tc := ⟨.hbm, 531, rfl⟩
abbrev main_cst_89 : Ref sig .tc := ⟨.hbm, 532, rfl⟩
abbrev main_v408 : Ref sig .tc := ⟨.hbm, 533, rfl⟩
abbrev main_v409 : Ref sig .tc := ⟨.hbm, 534, rfl⟩
abbrev main_v410 : Ref sig .tc := ⟨.hbm, 535, rfl⟩
abbrev main_cst_90 : Ref sig .tc := ⟨.hbm, 536, rfl⟩
abbrev main_v411 : Ref sig .tc := ⟨.hbm, 537, rfl⟩
abbrev main_v412 : Ref sig .tc := ⟨.hbm, 538, rfl⟩
abbrev main_v413 : Ref sig .tc := ⟨.hbm, 539, rfl⟩
abbrev main_c_91 : Ref sig .tc := ⟨.hbm, 540, rfl⟩
abbrev main_v414 : Ref sig .tc := ⟨.hbm, 541, rfl⟩
abbrev main_v415 : Ref sig .tc := ⟨.hbm, 542, rfl⟩
abbrev main_c_92 : Ref sig .tc := ⟨.hbm, 543, rfl⟩
abbrev main_v416 : Ref sig .tc := ⟨.hbm, 544, rfl⟩
abbrev main_v417 : Ref sig .tc := ⟨.hbm, 545, rfl⟩
abbrev main_v418 : Ref sig .tc := ⟨.hbm, 546, rfl⟩
abbrev main_v419 : Ref sig .tc := ⟨.hbm, 547, rfl⟩
abbrev main_v420 : Ref sig .tc := ⟨.hbm, 548, rfl⟩
abbrev main_c_93 : Ref sig .tc := ⟨.hbm, 549, rfl⟩
abbrev main_v421 : Ref sig .tc := ⟨.hbm, 550, rfl⟩
abbrev main_v422 : Ref sig .tc := ⟨.hbm, 551, rfl⟩
abbrev main_c_94 : Ref sig .tc := ⟨.hbm, 552, rfl⟩
abbrev main_v423 : Ref sig .tc := ⟨.hbm, 553, rfl⟩
abbrev main_v424 : Ref sig .tc := ⟨.hbm, 554, rfl⟩
abbrev main_v425 : Ref sig .tc := ⟨.hbm, 555, rfl⟩
abbrev main_v426 : Ref sig .tc := ⟨.hbm, 556, rfl⟩
abbrev main_v427 : Ref sig .tc := ⟨.hbm, 557, rfl⟩
abbrev main_v428 : Ref sig .tc := ⟨.hbm, 558, rfl⟩
abbrev main_v429 : Ref sig .tc := ⟨.hbm, 559, rfl⟩
abbrev main_c_95 : Ref sig .tc := ⟨.hbm, 560, rfl⟩
abbrev main_v430 : Ref sig .tc := ⟨.hbm, 561, rfl⟩
abbrev main_v431 : Ref sig .tc := ⟨.hbm, 562, rfl⟩
abbrev main_c_96 : Ref sig .tc := ⟨.hbm, 563, rfl⟩
abbrev main_v432 : Ref sig .tc := ⟨.hbm, 564, rfl⟩
abbrev main_v433 : Ref sig .tc := ⟨.hbm, 565, rfl⟩
abbrev main_v434 : Ref sig .tc := ⟨.hbm, 566, rfl⟩
abbrev main_v435 : Ref sig .tc := ⟨.hbm, 567, rfl⟩
abbrev main_v436 : Ref sig .tc := ⟨.hbm, 568, rfl⟩
abbrev main_v437 : Ref sig .tc := ⟨.hbm, 569, rfl⟩
abbrev main_v438 : Ref sig .tc := ⟨.hbm, 570, rfl⟩
abbrev main_cst_97 : Ref sig .tc := ⟨.hbm, 571, rfl⟩
abbrev main_v439 : Ref sig .tc := ⟨.hbm, 572, rfl⟩
abbrev main_v440 : Ref sig .tc := ⟨.hbm, 573, rfl⟩
abbrev main_v441 : Ref sig .tc := ⟨.hbm, 574, rfl⟩
abbrev main_v442 : Ref sig .tc := ⟨.hbm, 575, rfl⟩
abbrev main_v443 : Ref sig .tc := ⟨.hbm, 576, rfl⟩
abbrev main_v444 : Ref sig .tc := ⟨.hbm, 577, rfl⟩
abbrev main_call7_cst : Ref sig .tc := ⟨.hbm, 578, rfl⟩
abbrev main_call7_v0 : Ref sig .tc := ⟨.hbm, 579, rfl⟩
abbrev main_v445 : Ref sig .tc := ⟨.hbm, 580, rfl⟩
abbrev main_v446 : Ref sig .tc := ⟨.hbm, 581, rfl⟩
abbrev main_v447 : Ref sig .tc := ⟨.hbm, 582, rfl⟩
abbrev main_v448 : Ref sig .tc := ⟨.hbm, 583, rfl⟩
abbrev main_v449 : Ref sig .tc := ⟨.hbm, 584, rfl⟩
abbrev main_v450 : Ref sig .tc := ⟨.hbm, 585, rfl⟩
abbrev main_v451 : Ref sig .tc := ⟨.hbm, 586, rfl⟩
abbrev main_v452 : Ref sig .tc := ⟨.hbm, 587, rfl⟩
abbrev main_v453 : Ref sig .tc := ⟨.hbm, 588, rfl⟩
abbrev main_cst_98 : Ref sig .tc := ⟨.hbm, 589, rfl⟩
abbrev main_v454 : Ref sig .tc := ⟨.hbm, 590, rfl⟩
abbrev main_cst_99 : Ref sig .tc := ⟨.hbm, 591, rfl⟩
abbrev main_v455 : Ref sig .tc := ⟨.hbm, 592, rfl⟩
abbrev main_v456 : Ref sig .tc := ⟨.hbm, 593, rfl⟩
abbrev main_v457 : Ref sig .tc := ⟨.hbm, 594, rfl⟩
abbrev main_cst_100 : Ref sig .tc := ⟨.hbm, 595, rfl⟩
abbrev main_v458 : Ref sig .tc := ⟨.hbm, 596, rfl⟩
abbrev main_v459 : Ref sig .tc := ⟨.hbm, 597, rfl⟩
abbrev main_v460 : Ref sig .tc := ⟨.hbm, 598, rfl⟩
abbrev main_c_101 : Ref sig .tc := ⟨.hbm, 599, rfl⟩
abbrev main_v461 : Ref sig .tc := ⟨.hbm, 600, rfl⟩
abbrev main_v462 : Ref sig .tc := ⟨.hbm, 601, rfl⟩
abbrev main_c_102 : Ref sig .tc := ⟨.hbm, 602, rfl⟩
abbrev main_v463 : Ref sig .tc := ⟨.hbm, 603, rfl⟩
abbrev main_v464 : Ref sig .tc := ⟨.hbm, 604, rfl⟩
abbrev main_v465 : Ref sig .tc := ⟨.hbm, 605, rfl⟩
abbrev main_v466 : Ref sig .tc := ⟨.hbm, 606, rfl⟩
abbrev main_v467 : Ref sig .tc := ⟨.hbm, 607, rfl⟩
abbrev main_c_103 : Ref sig .tc := ⟨.hbm, 608, rfl⟩
abbrev main_v468 : Ref sig .tc := ⟨.hbm, 609, rfl⟩
abbrev main_v469 : Ref sig .tc := ⟨.hbm, 610, rfl⟩
abbrev main_c_104 : Ref sig .tc := ⟨.hbm, 611, rfl⟩
abbrev main_v470 : Ref sig .tc := ⟨.hbm, 612, rfl⟩
abbrev main_v471 : Ref sig .tc := ⟨.hbm, 613, rfl⟩
abbrev main_v472 : Ref sig .tc := ⟨.hbm, 614, rfl⟩
abbrev main_v473 : Ref sig .tc := ⟨.hbm, 615, rfl⟩
abbrev main_v474 : Ref sig .tc := ⟨.hbm, 616, rfl⟩
abbrev main_v475 : Ref sig .tc := ⟨.hbm, 617, rfl⟩
abbrev main_v476 : Ref sig .tc := ⟨.hbm, 618, rfl⟩
abbrev main_c_105 : Ref sig .tc := ⟨.hbm, 619, rfl⟩
abbrev main_v477 : Ref sig .tc := ⟨.hbm, 620, rfl⟩
abbrev main_v478 : Ref sig .tc := ⟨.hbm, 621, rfl⟩
abbrev main_c_106 : Ref sig .tc := ⟨.hbm, 622, rfl⟩
abbrev main_v479 : Ref sig .tc := ⟨.hbm, 623, rfl⟩
abbrev main_v480 : Ref sig .tc := ⟨.hbm, 624, rfl⟩
abbrev main_v481 : Ref sig .tc := ⟨.hbm, 625, rfl⟩
abbrev main_v482 : Ref sig .tc := ⟨.hbm, 626, rfl⟩
abbrev main_v483 : Ref sig .tc := ⟨.hbm, 627, rfl⟩
abbrev main_v484 : Ref sig .tc := ⟨.hbm, 628, rfl⟩
abbrev main_v485 : Ref sig .tc := ⟨.hbm, 629, rfl⟩
abbrev main_cst_107 : Ref sig .tc := ⟨.hbm, 630, rfl⟩
abbrev main_v486 : Ref sig .tc := ⟨.hbm, 631, rfl⟩
abbrev main_v487 : Ref sig .tc := ⟨.hbm, 632, rfl⟩
abbrev main_v488 : Ref sig .tc := ⟨.hbm, 633, rfl⟩
abbrev main_v489 : Ref sig .tc := ⟨.hbm, 634, rfl⟩
abbrev main_v490 : Ref sig .tc := ⟨.hbm, 635, rfl⟩
abbrev main_v491 : Ref sig .tc := ⟨.hbm, 636, rfl⟩
abbrev main_call8_cst : Ref sig .tc := ⟨.hbm, 637, rfl⟩
abbrev main_call8_v0 : Ref sig .tc := ⟨.hbm, 638, rfl⟩
abbrev main_v492 : Ref sig .tc := ⟨.hbm, 639, rfl⟩
abbrev main_c_108 : Ref sig .tc := ⟨.hbm, 640, rfl⟩
abbrev main_v493 : Ref sig .tc := ⟨.hbm, 641, rfl⟩
abbrev main_v494 : Ref sig .tc := ⟨.hbm, 642, rfl⟩
abbrev main_c_109 : Ref sig .tc := ⟨.hbm, 643, rfl⟩
abbrev main_v495 : Ref sig .tc := ⟨.hbm, 644, rfl⟩
abbrev main_v496 : Ref sig .tc := ⟨.hbm, 645, rfl⟩
abbrev main_v497 : Ref sig .tc := ⟨.hbm, 646, rfl⟩
abbrev main_v498 : Ref sig .tc := ⟨.hbm, 647, rfl⟩
abbrev main_v499 : Ref sig .tc := ⟨.hbm, 648, rfl⟩
abbrev main_c_110 : Ref sig .tc := ⟨.hbm, 649, rfl⟩
abbrev main_v500 : Ref sig .tc := ⟨.hbm, 650, rfl⟩
abbrev main_v501 : Ref sig .tc := ⟨.hbm, 651, rfl⟩
abbrev main_c_111 : Ref sig .tc := ⟨.hbm, 652, rfl⟩
abbrev main_v502 : Ref sig .tc := ⟨.hbm, 653, rfl⟩
abbrev main_v503 : Ref sig .tc := ⟨.hbm, 654, rfl⟩
abbrev main_v504 : Ref sig .tc := ⟨.hbm, 655, rfl⟩
abbrev main_v505 : Ref sig .tc := ⟨.hbm, 656, rfl⟩
abbrev main_v506 : Ref sig .tc := ⟨.hbm, 657, rfl⟩
abbrev main_v507 : Ref sig .tc := ⟨.hbm, 658, rfl⟩
abbrev main_v508 : Ref sig .tc := ⟨.hbm, 659, rfl⟩
abbrev main_cst_112 : Ref sig .tc := ⟨.hbm, 660, rfl⟩
abbrev main_v509 : Ref sig .tc := ⟨.hbm, 661, rfl⟩
abbrev main_v510 : Ref sig .tc := ⟨.hbm, 662, rfl⟩
abbrev main_cst_113 : Ref sig .tc := ⟨.hbm, 663, rfl⟩
abbrev main_v511 : Ref sig .tc := ⟨.hbm, 664, rfl⟩
abbrev main_v512 : Ref sig .tc := ⟨.hbm, 665, rfl⟩
abbrev main_v513 : Ref sig .tc := ⟨.hbm, 666, rfl⟩
abbrev main_cst_114 : Ref sig .tc := ⟨.hbm, 667, rfl⟩
abbrev main_v514 : Ref sig .tc := ⟨.hbm, 668, rfl⟩
abbrev main_cst_115 : Ref sig .tc := ⟨.hbm, 669, rfl⟩
abbrev main_v515 : Ref sig .tc := ⟨.hbm, 670, rfl⟩
abbrev main_v516 : Ref sig .tc := ⟨.hbm, 671, rfl⟩
abbrev main_v517 : Ref sig .tc := ⟨.hbm, 672, rfl⟩
abbrev main_cst_116 : Ref sig .tc := ⟨.hbm, 673, rfl⟩
abbrev main_v518 : Ref sig .tc := ⟨.hbm, 674, rfl⟩
abbrev main_v519 : Ref sig .tc := ⟨.hbm, 675, rfl⟩
abbrev main_v520 : Ref sig .tc := ⟨.hbm, 676, rfl⟩
abbrev main_v521 : Ref sig .tc := ⟨.hbm, 677, rfl⟩
abbrev main_v522 : Ref sig .tc := ⟨.hbm, 678, rfl⟩
abbrev main_v523 : Ref sig .tc := ⟨.hbm, 679, rfl⟩
abbrev main_cst_117 : Ref sig .tc := ⟨.hbm, 680, rfl⟩
abbrev main_v524 : Ref sig .tc := ⟨.hbm, 681, rfl⟩
abbrev main_v525 : Ref sig .tc := ⟨.hbm, 682, rfl⟩
abbrev main_v526 : Ref sig .tc := ⟨.hbm, 683, rfl⟩
abbrev main_v527 : Ref sig .tc := ⟨.hbm, 684, rfl⟩
abbrev main_v528 : Ref sig .tc := ⟨.hbm, 685, rfl⟩
abbrev main_cst_118 : Ref sig .tc := ⟨.hbm, 686, rfl⟩
abbrev main_v529 : Ref sig .tc := ⟨.hbm, 687, rfl⟩
abbrev main_v530 : Ref sig .tc := ⟨.hbm, 688, rfl⟩
abbrev main_v531 : Ref sig .tc := ⟨.hbm, 689, rfl⟩
abbrev main_v532 : Ref sig .tc := ⟨.hbm, 690, rfl⟩
abbrev main_v533 : Ref sig .tc := ⟨.hbm, 691, rfl⟩
abbrev main_v534 : Ref sig .tc := ⟨.hbm, 692, rfl⟩
abbrev main_v535 : Ref sig .tc := ⟨.hbm, 693, rfl⟩
abbrev main_cst_119 : Ref sig .tc := ⟨.hbm, 694, rfl⟩
abbrev main_v536 : Ref sig .tc := ⟨.hbm, 695, rfl⟩
abbrev main_cst_120 : Ref sig .tc := ⟨.hbm, 696, rfl⟩
abbrev main_v537 : Ref sig .tc := ⟨.hbm, 697, rfl⟩
abbrev main_v538 : Ref sig .tc := ⟨.hbm, 698, rfl⟩
abbrev main_c_121 : Ref sig .tc := ⟨.hbm, 699, rfl⟩
abbrev main_call9_cst : Ref sig .tc := ⟨.hbm, 700, rfl⟩
abbrev main_call9_v0 : Ref sig .tc := ⟨.hbm, 701, rfl⟩
abbrev main_call9_v1 : Ref sig .tc := ⟨.hbm, 702, rfl⟩
abbrev main_call9_cst_0 : Ref sig .tc := ⟨.hbm, 703, rfl⟩
abbrev main_call9_v2 : Ref sig .tc := ⟨.hbm, 704, rfl⟩
abbrev main_call9_v3 : Ref sig .tc := ⟨.hbm, 705, rfl⟩
abbrev main_call9_v4 : Ref sig .tc := ⟨.hbm, 706, rfl⟩
abbrev main_call9_v5 : Ref sig .tc := ⟨.hbm, 707, rfl⟩
abbrev main_call9_v6 : Ref sig .tc := ⟨.hbm, 708, rfl⟩
abbrev main_call9_v7 : Ref sig .tc := ⟨.hbm, 709, rfl⟩
abbrev main_call9_cst_1 : Ref sig .tc := ⟨.hbm, 710, rfl⟩
abbrev main_call9_v8 : Ref sig .tc := ⟨.hbm, 711, rfl⟩
abbrev main_call9_cst_2 : Ref sig .tc := ⟨.hbm, 712, rfl⟩
abbrev main_call9_v9 : Ref sig .tc := ⟨.hbm, 713, rfl⟩
abbrev main_call9_v10 : Ref sig .tc := ⟨.hbm, 714, rfl⟩
abbrev main_call9_v11 : Ref sig .tc := ⟨.hbm, 715, rfl⟩
abbrev main_call9_cst_3 : Ref sig .tc := ⟨.hbm, 716, rfl⟩
abbrev main_call9_v12 : Ref sig .tc := ⟨.hbm, 717, rfl⟩
abbrev main_call9_cst_4 : Ref sig .tc := ⟨.hbm, 718, rfl⟩
abbrev main_call9_call0_v0 : Ref sig .tc := ⟨.hbm, 719, rfl⟩
abbrev main_call9_call0_v1 : Ref sig .tc := ⟨.hbm, 720, rfl⟩
abbrev main_v539 : Ref sig .tc := ⟨.hbm, 721, rfl⟩
abbrev main_v540 : Ref sig .tc := ⟨.hbm, 722, rfl⟩
abbrev main_v541 : Ref sig .tc := ⟨.hbm, 723, rfl⟩
abbrev main_v542 : Ref sig .tc := ⟨.hbm, 724, rfl⟩
abbrev main_cst_122 : Ref sig .tc := ⟨.hbm, 725, rfl⟩
abbrev main_v543 : Ref sig .tc := ⟨.hbm, 726, rfl⟩
abbrev main_v544 : Ref sig .tc := ⟨.hbm, 727, rfl⟩
abbrev main_v545 : Ref sig .tc := ⟨.hbm, 728, rfl⟩
abbrev main_v546 : Ref sig .tc := ⟨.hbm, 729, rfl⟩
abbrev main_v547 : Ref sig .tc := ⟨.hbm, 730, rfl⟩
abbrev main_v548 : Ref sig .tc := ⟨.hbm, 731, rfl⟩
abbrev main_v549 : Ref sig .tc := ⟨.hbm, 732, rfl⟩
abbrev main_v550 : Ref sig .tc := ⟨.hbm, 733, rfl⟩
abbrev main_v551 : Ref sig .tc := ⟨.hbm, 734, rfl⟩
abbrev main_v552 : Ref sig .tc := ⟨.hbm, 735, rfl⟩
abbrev main_v553 : Ref sig .tc := ⟨.hbm, 736, rfl⟩
abbrev main_v554 : Ref sig .tc := ⟨.hbm, 737, rfl⟩
abbrev main_call10_cst : Ref sig .tc := ⟨.hbm, 738, rfl⟩
abbrev main_call10_v0 : Ref sig .tc := ⟨.hbm, 739, rfl⟩
abbrev main_v555 : Ref sig .tc := ⟨.hbm, 740, rfl⟩
abbrev main_v556 : Ref sig .tc := ⟨.hbm, 741, rfl⟩
abbrev main_v557 : Ref sig .tc := ⟨.hbm, 742, rfl⟩
abbrev main_v558 : Ref sig .tc := ⟨.hbm, 743, rfl⟩
abbrev main_v559 : Ref sig .tc := ⟨.hbm, 744, rfl⟩
abbrev main_cst_123 : Ref sig .tc := ⟨.hbm, 745, rfl⟩
abbrev main_v560 : Ref sig .tc := ⟨.hbm, 746, rfl⟩
abbrev main_cst_124 : Ref sig .tc := ⟨.hbm, 747, rfl⟩
abbrev main_v561 : Ref sig .tc := ⟨.hbm, 748, rfl⟩
abbrev main_v562 : Ref sig .tc := ⟨.hbm, 749, rfl⟩
abbrev main_c_125 : Ref sig .tc := ⟨.hbm, 750, rfl⟩
abbrev main_call11_cst : Ref sig .tc := ⟨.hbm, 751, rfl⟩
abbrev main_call11_v0 : Ref sig .tc := ⟨.hbm, 752, rfl⟩
abbrev main_call11_v1 : Ref sig .tc := ⟨.hbm, 753, rfl⟩
abbrev main_call11_cst_0 : Ref sig .tc := ⟨.hbm, 754, rfl⟩
abbrev main_call11_v2 : Ref sig .tc := ⟨.hbm, 755, rfl⟩
abbrev main_call11_v3 : Ref sig .tc := ⟨.hbm, 756, rfl⟩
abbrev main_call11_v4 : Ref sig .tc := ⟨.hbm, 757, rfl⟩
abbrev main_call11_v5 : Ref sig .tc := ⟨.hbm, 758, rfl⟩
abbrev main_call11_v6 : Ref sig .tc := ⟨.hbm, 759, rfl⟩
abbrev main_call11_v7 : Ref sig .tc := ⟨.hbm, 760, rfl⟩
abbrev main_call11_cst_1 : Ref sig .tc := ⟨.hbm, 761, rfl⟩
abbrev main_call11_v8 : Ref sig .tc := ⟨.hbm, 762, rfl⟩
abbrev main_call11_cst_2 : Ref sig .tc := ⟨.hbm, 763, rfl⟩
abbrev main_call11_v9 : Ref sig .tc := ⟨.hbm, 764, rfl⟩
abbrev main_call11_v10 : Ref sig .tc := ⟨.hbm, 765, rfl⟩
abbrev main_call11_v11 : Ref sig .tc := ⟨.hbm, 766, rfl⟩
abbrev main_call11_cst_3 : Ref sig .tc := ⟨.hbm, 767, rfl⟩
abbrev main_call11_v12 : Ref sig .tc := ⟨.hbm, 768, rfl⟩
abbrev main_call11_cst_4 : Ref sig .tc := ⟨.hbm, 769, rfl⟩
abbrev main_call11_call0_v0 : Ref sig .tc := ⟨.hbm, 770, rfl⟩
abbrev main_call11_call0_v1 : Ref sig .tc := ⟨.hbm, 771, rfl⟩
abbrev main_v563 : Ref sig .tc := ⟨.hbm, 772, rfl⟩
abbrev main_v564 : Ref sig .tc := ⟨.hbm, 773, rfl⟩
abbrev main_v565 : Ref sig .tc := ⟨.hbm, 774, rfl⟩
abbrev main_v566 : Ref sig .tc := ⟨.hbm, 775, rfl⟩
abbrev main_cst_126 : Ref sig .tc := ⟨.hbm, 776, rfl⟩
abbrev main_v567 : Ref sig .tc := ⟨.hbm, 777, rfl⟩
abbrev main_v568 : Ref sig .tc := ⟨.hbm, 778, rfl⟩
abbrev main_v569 : Ref sig .tc := ⟨.hbm, 779, rfl⟩
abbrev main_v570 : Ref sig .tc := ⟨.hbm, 780, rfl⟩
abbrev main_v571 : Ref sig .tc := ⟨.hbm, 781, rfl⟩
abbrev main_v572 : Ref sig .tc := ⟨.hbm, 782, rfl⟩
abbrev main_v573 : Ref sig .tc := ⟨.hbm, 783, rfl⟩
abbrev main_v574 : Ref sig .tc := ⟨.hbm, 784, rfl⟩
abbrev main_v575 : Ref sig .tc := ⟨.hbm, 785, rfl⟩
abbrev main_v576 : Ref sig .tc := ⟨.hbm, 786, rfl⟩
abbrev main_v577 : Ref sig .tc := ⟨.hbm, 787, rfl⟩
abbrev main_v578 : Ref sig .tc := ⟨.hbm, 788, rfl⟩
abbrev main_call12_cst : Ref sig .tc := ⟨.hbm, 789, rfl⟩
abbrev main_call12_v0 : Ref sig .tc := ⟨.hbm, 790, rfl⟩
abbrev main_v579 : Ref sig .tc := ⟨.hbm, 791, rfl⟩
abbrev main_v580 : Ref sig .tc := ⟨.hbm, 792, rfl⟩
abbrev main_v581 : Ref sig .tc := ⟨.hbm, 793, rfl⟩
abbrev main_v582 : Ref sig .tc := ⟨.hbm, 794, rfl⟩
abbrev main_v583 : Ref sig .tc := ⟨.hbm, 795, rfl⟩
abbrev main_cst_127 : Ref sig .tc := ⟨.hbm, 796, rfl⟩
abbrev main_v584 : Ref sig .tc := ⟨.hbm, 797, rfl⟩
abbrev main_cst_128 : Ref sig .tc := ⟨.hbm, 798, rfl⟩
abbrev main_v585 : Ref sig .tc := ⟨.hbm, 799, rfl⟩
abbrev main_v586 : Ref sig .tc := ⟨.hbm, 800, rfl⟩
abbrev main_c_129 : Ref sig .tc := ⟨.hbm, 801, rfl⟩
abbrev main_call13_cst : Ref sig .tc := ⟨.hbm, 802, rfl⟩
abbrev main_call13_v0 : Ref sig .tc := ⟨.hbm, 803, rfl⟩
abbrev main_call13_v1 : Ref sig .tc := ⟨.hbm, 804, rfl⟩
abbrev main_call13_cst_0 : Ref sig .tc := ⟨.hbm, 805, rfl⟩
abbrev main_call13_v2 : Ref sig .tc := ⟨.hbm, 806, rfl⟩
abbrev main_call13_v3 : Ref sig .tc := ⟨.hbm, 807, rfl⟩
abbrev main_call13_v4 : Ref sig .tc := ⟨.hbm, 808, rfl⟩
abbrev main_call13_v5 : Ref sig .tc := ⟨.hbm, 809, rfl⟩
abbrev main_call13_v6 : Ref sig .tc := ⟨.hbm, 810, rfl⟩
abbrev main_call13_v7 : Ref sig .tc := ⟨.hbm, 811, rfl⟩
abbrev main_call13_cst_1 : Ref sig .tc := ⟨.hbm, 812, rfl⟩
abbrev main_call13_v8 : Ref sig .tc := ⟨.hbm, 813, rfl⟩
abbrev main_call13_cst_2 : Ref sig .tc := ⟨.hbm, 814, rfl⟩
abbrev main_call13_v9 : Ref sig .tc := ⟨.hbm, 815, rfl⟩
abbrev main_call13_v10 : Ref sig .tc := ⟨.hbm, 816, rfl⟩
abbrev main_call13_v11 : Ref sig .tc := ⟨.hbm, 817, rfl⟩
abbrev main_call13_cst_3 : Ref sig .tc := ⟨.hbm, 818, rfl⟩
abbrev main_call13_v12 : Ref sig .tc := ⟨.hbm, 819, rfl⟩
abbrev main_call13_cst_4 : Ref sig .tc := ⟨.hbm, 820, rfl⟩
abbrev main_call13_call0_v0 : Ref sig .tc := ⟨.hbm, 821, rfl⟩
abbrev main_call13_call0_v1 : Ref sig .tc := ⟨.hbm, 822, rfl⟩
abbrev main_v587 : Ref sig .tc := ⟨.hbm, 823, rfl⟩
abbrev main_v588 : Ref sig .tc := ⟨.hbm, 824, rfl⟩
abbrev main_v589 : Ref sig .tc := ⟨.hbm, 825, rfl⟩
abbrev main_v590 : Ref sig .tc := ⟨.hbm, 826, rfl⟩
abbrev main_cst_130 : Ref sig .tc := ⟨.hbm, 827, rfl⟩
abbrev main_v591 : Ref sig .tc := ⟨.hbm, 828, rfl⟩
abbrev main_v592 : Ref sig .tc := ⟨.hbm, 829, rfl⟩
abbrev main_v593 : Ref sig .tc := ⟨.hbm, 830, rfl⟩
abbrev main_v594 : Ref sig .tc := ⟨.hbm, 831, rfl⟩
abbrev main_v595 : Ref sig .tc := ⟨.hbm, 832, rfl⟩
abbrev main_v596 : Ref sig .tc := ⟨.hbm, 833, rfl⟩
abbrev main_v597 : Ref sig .tc := ⟨.hbm, 834, rfl⟩
abbrev main_v598 : Ref sig .tc := ⟨.hbm, 835, rfl⟩
abbrev main_v599 : Ref sig .tc := ⟨.hbm, 836, rfl⟩
abbrev main_v600 : Ref sig .tc := ⟨.hbm, 837, rfl⟩
abbrev main_v601 : Ref sig .tc := ⟨.hbm, 838, rfl⟩
abbrev main_v602 : Ref sig .tc := ⟨.hbm, 839, rfl⟩
abbrev main_call14_cst : Ref sig .tc := ⟨.hbm, 840, rfl⟩
abbrev main_call14_v0 : Ref sig .tc := ⟨.hbm, 841, rfl⟩
abbrev main_v603 : Ref sig .tc := ⟨.hbm, 842, rfl⟩
abbrev main_v604 : Ref sig .tc := ⟨.hbm, 843, rfl⟩
abbrev main_v605 : Ref sig .tc := ⟨.hbm, 844, rfl⟩
abbrev main_v606 : Ref sig .tc := ⟨.hbm, 845, rfl⟩
abbrev main_v607 : Ref sig .tc := ⟨.hbm, 846, rfl⟩
abbrev main_c_131 : Ref sig .tc := ⟨.hbm, 847, rfl⟩
abbrev main_v608 : Ref sig .tc := ⟨.hbm, 848, rfl⟩
abbrev main_v609 : Ref sig .tc := ⟨.hbm, 849, rfl⟩
abbrev main_c_132 : Ref sig .tc := ⟨.hbm, 850, rfl⟩
abbrev main_v610 : Ref sig .tc := ⟨.hbm, 851, rfl⟩
abbrev main_v611 : Ref sig .tc := ⟨.hbm, 852, rfl⟩
abbrev main_v612 : Ref sig .tc := ⟨.hbm, 853, rfl⟩
abbrev main_v613 : Ref sig .tc := ⟨.hbm, 854, rfl⟩
abbrev main_v614 : Ref sig .tc := ⟨.hbm, 855, rfl⟩
abbrev main_c_133 : Ref sig .tc := ⟨.hbm, 856, rfl⟩
abbrev main_v615 : Ref sig .tc := ⟨.hbm, 857, rfl⟩
abbrev main_v616 : Ref sig .tc := ⟨.hbm, 858, rfl⟩
abbrev main_c_134 : Ref sig .tc := ⟨.hbm, 859, rfl⟩
abbrev main_v617 : Ref sig .tc := ⟨.hbm, 860, rfl⟩
abbrev main_v618 : Ref sig .tc := ⟨.hbm, 861, rfl⟩
abbrev main_v619 : Ref sig .tc := ⟨.hbm, 862, rfl⟩
abbrev main_v620 : Ref sig .tc := ⟨.hbm, 863, rfl⟩
abbrev main_v621 : Ref sig .tc := ⟨.hbm, 864, rfl⟩
abbrev main_v622 : Ref sig .tc := ⟨.hbm, 865, rfl⟩
abbrev main_v623 : Ref sig .tc := ⟨.hbm, 866, rfl⟩
abbrev main_cst_135 : Ref sig .tc := ⟨.hbm, 867, rfl⟩
abbrev main_v624 : Ref sig .tc := ⟨.hbm, 868, rfl⟩
abbrev main_cst_136 : Ref sig .tc := ⟨.hbm, 869, rfl⟩
abbrev main_v625 : Ref sig .tc := ⟨.hbm, 870, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x64 : S_.BroadcastsInDim S800000x64 (![] : Fin 0 → Fin S800000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  bcast_S_S500x64 : S_.BroadcastsInDim S500x64 (![] : Fin 0 → Fin S500x64.rank)
  bcast_S1x64_S500x64_0_1 : S1x64.BroadcastsInDim S500x64 (![0, 1] : Fin 2 → Fin S500x64.rank)
  reducesTo_S500x64_S64_d0 : S500x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S1_S1x1_1 : S1.BroadcastsInDim S1x1 (![1] : Fin 1 → Fin S1x1.rank)
  bcast_S1x1_S500x1_0_1 : S1x1.BroadcastsInDim S500x1 (![0, 1] : Fin 2 → Fin S500x1.rank)
  reducesTo_S800000x64_S_d0_1 : S800000x64.ReducesTo [0, 1] S_
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  scatter_S500x64_S50000x1_S50000x64_1_0_0_1_wf : ScatterDims.WF S500x64 S50000x1 S50000x64 [1] [0] [0] 1
  dot_S500x64_S64x64_S500x64_1_0_0_1_n_n_wf : DotDims.WF S500x64 S64x64 S500x64 [1] [0] [0] [1] [] []
  dot_S500x64_S64x1_S500x1_1_0_0_1_n_n_wf : DotDims.WF S500x64 S64x1 S500x1 [1] [0] [0] [1] [] []

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S500x64_S50000x1_S50000x64_1_0_0_1 : ScatterDims S500x64 S50000x1 S50000x64 where
  updateWindowDims := [1]
  insertedWindowDims := [0]
  scatterDimsToOperandDims := [0]
  indexVectorDim := 1
  wf := scatter_S500x64_S50000x1_S50000x64_1_0_0_1_wf
def dot_S500x64_S64x64_S500x64_1_0_0_1_n_n : DotDims S500x64 S64x64 S500x64 where
  lhsContracting := [1]
  rhsContracting := [0]
  lhsNonContracting := [0]
  rhsNonContracting := [1]
  lhsBatch := []
  rhsBatch := []
  wf := dot_S500x64_S64x64_S500x64_1_0_0_1_n_n_wf
def dot_S500x64_S64x1_S500x1_1_0_0_1_n_n : DotDims S500x64 S64x1 S500x1 where
  lhsContracting := [1]
  rhsContracting := [0]
  lhsNonContracting := [0]
  rhsNonContracting := [1]
  lhsBatch := []
  rhsBatch := []
  wf := dot_S500x64_S64x1_S500x1_1_0_0_1_n_n_wf

class Facts : Prop extends Facts₀ where

variable [Facts]
-- ==== Proof.RefBase.lean ====
/- Two lists of operations run one after the other: the buffer contents afterwards are the second list's fold started from
   the first list's. -/
import Idealize.ShloMosaic.Lib.StableHlo.Run

namespace Cert.ReferenceIdeal.RefRun

open Idealize.ShloMosaic

variable {τ : Topo} {sig : RefSig} {Val : EltTy → Type}

/-- The contents after two lists run one after the other: the second's fold started at the first's. -/
theorem after_append (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

end Cert.ReferenceIdeal.RefRun
-- ==== Proof.RefOpsPre.lean ====
/- The reference program's operations, part 1 of 6: the two edge rows of the edge table, the input projection x·W + b, and its rectifier. Each list entry is one operation of the
   program, in program order, written as the program writes it; where the program calls an outlined function, that function's
   operations stand in place of the call, over the buffers of that call. With each list: every buffer it touches is a
   TensorCore reference, every operation determines its result, and a buffer that is not among the list's result buffers
   keeps its contents through the list. -/
import proofs.«117928_j61658550502081_1_alg».proof.Proof.Gen.ReferenceIdeal
import proofs.«117928_j61658550502081_1_alg».proof.Proof.RefBase

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- The reference's operations 1 … 11 of 852, in order; an outlined function's operations stand at its call, over that call's buffers. -/
abbrev opsSeg00 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)), -- %0 = stablehlo.slice %arg1 [0:1, 0:800000] : (tensor<2x800000xi32>) -> tensor<1x800000xi32>
    StableHlo.reshape main_v0 main_v1 rfl shapeCasts_S1x800000_S800000, -- %1 = stablehlo.reshape %0 : (tensor<1x800000xi32>) -> tensor<800000xi32>
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)), -- %2 = stablehlo.slice %arg1 [1:2, 0:800000] : (tensor<2x800000xi32>) -> tensor<1x800000xi32>
    StableHlo.reshape main_v2 main_v3 rfl shapeCasts_S1x800000_S800000, -- %3 = stablehlo.reshape %2 : (tensor<1x800000xi32>) -> tensor<800000xi32>
    StableHlo.binary main_arg0 main_arg3 main_v4 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)), -- %4 = stablehlo.dot_general %arg0, %arg3, contracting_dims = [1] x [0], precision = [DEFAULT, DEFAULT] : (tensor<50000x128xf32>, tensor<128x64xf32>) -> tensor<50000x64xf32>
    StableHlo.unary main_arg4 main_v5 (broadcastInDim S1x64 ![1] bcast_S64_S1x64_1 : (⟨S64, .f32⟩ : BufTy).Contents (Elt F) → (⟨S1x64, .f32⟩ : BufTy).Contents (Elt F)), -- %5 = stablehlo.broadcast_in_dim %arg4, dims = [1] : (tensor<64xf32>) -> tensor<1x64xf32>
    StableHlo.unary main_v5 main_v6 (broadcastInDim S50000x64 ![0, 1] bcast_S1x64_S50000x64_0_1 : (⟨S1x64, .f32⟩ : BufTy).Contents (Elt F) → (⟨S50000x64, .f32⟩ : BufTy).Contents (Elt F)), -- %6 = stablehlo.broadcast_in_dim %5, dims = [0, 1] : (tensor<1x64xf32>) -> tensor<50000x64xf32>
    StableHlo.binary main_v4 main_v6 main_v7 (addf : (⟨S50000x64, .f32⟩ : BufTy).Contents (Elt F) → (⟨S50000x64, .f32⟩ : BufTy).Contents (Elt F) → (⟨S50000x64, .f32⟩ : BufTy).Contents (Elt F)), -- %7 = stablehlo.add %4, %6 : tensor<50000x64xf32>
    StableHlo.TRef.nullary main_call0.cst (constant S_ .f32 0x00000000#32), -- @relu (main_call0): %cst = stablehlo.constant dense<0.000000e+00> : tensor<f32>
    StableHlo.TRef.unary main_call0.cst main_call0.v0 (broadcastInDim S50000x64 ![] bcast_S_S50000x64), -- @relu (main_call0): %0 = stablehlo.broadcast_in_dim %cst, dims = [] : (tensor<f32>) -> tensor<50000x64xf32>
    StableHlo.TRef.binary (.of main_v7 : StableHlo.TRef sig ⟨S50000x64, .f32⟩) main_call0.v0 main_call0.v1 maximumf ] -- @relu (main_call0): %1 = stablehlo.maximum %arg0, %0 : tensor<50000x64xf32>

/-- Every buffer these operations touch is a TensorCore reference. -/
theorem opsSeg00_sub : (opsSeg00 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

/-- Each of these operations determines its results. -/
theorem opsSeg00_fresh : (opsSeg00 : List (HloOp τ sig (Elt F))).Forall fun op => op.fresh = ∅ :=
  ⟨rfl, rfl, rfl, rfl, rfl, rfl, rfl, rfl, rfl, rfl, rfl⟩

/-- The buffers these operations write, in order. -/
abbrev opsSeg00_W : List (Ref sig .tc) :=
  [main_v0, main_v1, main_v2, main_v3, main_v4, main_v5, main_v6, main_v7, main_call0.cst.ref, main_call0.v0.ref, main_call0.v1.ref]

/-- Each operation writes only its own result buffer, which is in the list. -/
theorem opsSeg00_writes : (opsSeg00 : List (HloOp τ sig (Elt F))).Forall fun op =>
    op.writes ⊆ (opsSeg00_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer none of these operations writes keeps its contents through them. -/
theorem opsSeg00_keep (V : Valuation τ sig (Elt F)) (r : Ref sig .tc) (h : r ∉ opsSeg00_W) :
    StableHlo.after (opsSeg00 (F := F)) V (Proc.devRef .tc r) = V (Proc.devRef .tc r) :=
  StableHlo.after_of_writes_sub opsSeg00 V opsSeg00_writes h

/-- The two edge rows of the edge table, the input projection x·W + b, and its rectifier. -/
abbrev opsPre : List (HloOp τ sig (Elt F)) :=
  opsSeg00

/-- The buffers opsPre writes, in order. -/
abbrev opsPre_W : List (Ref sig .tc) :=
  opsSeg00_W

/-- The contents after opsPre, piece by piece. -/
theorem opsPre_after (V : Valuation τ sig (Elt F)) :
    StableHlo.after (opsPre (F := F)) V = StableHlo.after opsSeg00 V := by
  simp only [opsPre, after_append]

/-- A buffer opsPre does not write keeps its contents through it. -/
theorem opsPre_keep (V : Valuation τ sig (Elt F)) (r : Ref sig .tc) (h : r ∉ opsPre_W) :
    StableHlo.after (opsPre (F := F)) V (Proc.devRef .tc r) = V (Proc.devRef .tc r) := by
  rw [opsPre_after]
  rw [opsSeg00_keep _ r (fun hm => h (hm))]

end Cert.ReferenceIdeal.RefRun

end
-- ==== Proof.RefOpsL0.lean ====
/- The reference program's operations, part 2 of 6: message-passing layer 0: the layer's two weight slices, the two normalized neighbourhood aggregations with their rectifiers, the gradient gate, and the gated blend that forms the next node features. Each list entry is one operation of the
   program, in program order, written as the program writes it; where the program calls an outlined function, that function's
   operations stand in place of the call, over the buffers of that call. With each list: every buffer it touches is a
   TensorCore reference, every operation determines its result, and a buffer that is not among the list's result buffers
   keeps its contents through the list. -/
import proofs.«117928_j61658550502081_1_alg».proof.Proof.Gen.ReferenceIdeal
import proofs.«117928_j61658550502081_1_alg».proof.Proof.RefBase

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- The reference's operations 12 … 62 of 852, in order; an outlined function's operations stand at its call, over that call's buffers. -/
abbrev opsSeg01 : List (HloOp τ sig (Elt F)) :=
  [ StableHlo.unary main_arg5 main_v9 ((extractStridedSlice S1x64x64 ![0, 0, 0] · slices_S4x64x64_S1x64x64_0_0_0) : (⟨S4x64x64, .f32⟩ : BufTy).Contents (Elt F) → (⟨S1x64x64, .f32⟩ : BufTy).Contents (Elt F)), -- %9 = stablehlo.slice %arg5 [0:1, 0:64, 0:64] : (tensor<4x64x64xf32>) -> tensor<1x64x64xf32>
    StableHlo.reshape main_v9 main_v10 rfl shapeCasts_S1x64x64_S64x64, -- %10 = stablehlo.reshape %9 : (tensor<1x64x64xf32>) -> tensor<64x64xf32>
    StableHlo.unary main_arg6 main_v11 ((extractStridedSlice S1x64 ![0, 0] · slices_S4x64_S1x64_0_0) : (⟨S4x64, .f32⟩ : BufTy).Contents (Elt F) → (⟨S1x64, .f32⟩ : BufTy).Contents (Elt F)), -- %11 = stablehlo.slice %arg6 [0:1, 0:64] : (tensor<4x64xf32>) -> tensor<1x64xf32>
    StableHlo.reshape main_v11 main_v12 rfl shapeCasts_S1x64_S64, -- %12 = stablehlo.reshape %11 : (tensor<1x64xf32>) -> tensor<64xf32>
    StableHlo.binary main_v8 main_v10 main_v13 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)), -- %13 = stablehlo.dot_general %8, %10, contracting_dims = [1] x [0], precision = [DEFAULT, DEFAULT] : (tensor<50000x64xf32>, tensor<64x64xf32>) -> tensor<50000x64xf32>
    StableHlo.nullary main_v14 (iotaInDim S50000 32 0), -- %14 = stablehlo.iota dim = 0 : tensor<50000xi32>
    StableHlo.binary main_v1 main_v14 main_v15 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)), -- %15 = stablehlo.concatenate %1, %14, dim = 0 : (tensor<800000xi32>, tensor<50000xi32>) -> tensor<850000xi32>
    StableHlo.binary main_v3 main_v14 main_v16 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)), -- %16 = stablehlo.concatenate %3, %14, dim = 0 : (tensor<800000xi32>, tensor<50000xi32>) -> tensor<850000xi32>
    StableHlo.nullary main_cst (constant S_ .f32 0x3F800000#32), -- %cst = stablehlo.constant dense<1.000000e+00> : tensor<f32>
    StableHlo.unary main_cst main_v17 (broadcastInDim S850000 ![] bcast_S_S850000 : (⟨S_, .f32⟩ : BufTy).Contents (Elt F) → (⟨S850000, .f32⟩ : BufTy).Contents (Elt F)), -- %17 = stablehlo.broadcast_in_dim %cst, dims = [] : (tensor<f32>) -> tensor<850000xf32>
    StableHlo.nullary main_cst_0 (constant S_ .f32 0x00000000#32), -- %cst_0 = stablehlo.constant dense<0.000000e+00> : tensor<f32>
    StableHlo.unary main_cst_0 main_v18 (broadcastInDim S50000 ![] bcast_S_S50000 : (⟨S_, .f32⟩ : BufTy).Contents (Elt F) → (⟨S50000, .f32⟩ : BufTy).Contents (Elt F)), -- %18 = stablehlo.broadcast_in_dim %cst_0, dims = [] : (tensor<f32>) -> tensor<50000xf32>
    StableHlo.unary main_v16 main_v19 (broadcastInDim S850000x1 ![0] bcast_S850000_S850000x1_0 : (⟨S850000, .i32⟩ : BufTy).Contents (Elt F) → (⟨S850000x1, .i32⟩ : BufTy).Contents (Elt F)), -- %19 = stablehlo.broadcast_in_dim %16, dims = [0] : (tensor<850000xi32>) -> tensor<850000x1xi32>
    StableHlo.ternary main_v18 main_v19 main_v17 main_v20 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)), -- %20 = "stablehlo.scatter"(%18, %19, %17) <{indices_are_sorted = false, scatter_dimension_numbers = #stablehlo.scatter<inserted_window_dims = [0], scatter_dims_to_operand_dims = [0], index_vector_dim = 1>, unique_indices = false}> ( {
    StableHlo.nullary main_cst_1 (constant S_ .f32 0x3F800000#32), -- %cst_1 = stablehlo.constant dense<1.000000e+00> : tensor<f32>
    StableHlo.unary main_cst_1 main_v21 (broadcastInDim S50000 ![] bcast_S_S50000 : (⟨S_, .f32⟩ : BufTy).Contents (Elt F) → (⟨S50000, .f32⟩ : BufTy).Contents (Elt F)), -- %21 = stablehlo.broadcast_in_dim %cst_1, dims = [] : (tensor<f32>) -> tensor<50000xf32>
    StableHlo.binary main_v20 main_v21 main_v22 (maximumf : (⟨S50000, .f32⟩ : BufTy).Contents (Elt F) → (⟨S50000, .f32⟩ : BufTy).Contents (Elt F) → (⟨S50000, .f32⟩ : BufTy).Contents (Elt F)), -- %22 = stablehlo.maximum %20, %21 : tensor<50000xf32>
    StableHlo.unary main_v22 main_v23 (Host.rsqrt : (⟨S50000, .f32⟩ : BufTy).Contents (Elt F) → (⟨S50000, .f32⟩ : BufTy).Contents (Elt F)), -- %23 = stablehlo.rsqrt %22 : tensor<50000xf32>
    StableHlo.nullary main_c (constantI S_ 32 0#32), -- %c = stablehlo.constant dense<0> : tensor<i32>
    StableHlo.unary main_c main_v24 (broadcastInDim S850000 ![] bcast_S_S850000 : (⟨S_, .i32⟩ : BufTy).Contents (Elt F) → (⟨S850000, .i32⟩ : BufTy).Contents (Elt F)), -- %24 = stablehlo.broadcast_in_dim %c, dims = [] : (tensor<i32>) -> tensor<850000xi32>
    StableHlo.binary main_v15 main_v24 main_v25 (cmpi .slt : (⟨S850000, .i32⟩ : BufTy).Contents (Elt F) → (⟨S850000, .i32⟩ : BufTy).Contents (Elt F) → (⟨S850000, .i1⟩ : BufTy).Contents (Elt F)), -- %25 = stablehlo.compare LT, %15, %24, SIGNED : (tensor<850000xi32>, tensor<850000xi32>) -> tensor<850000xi1>
    StableHlo.nullary main_c_2 (constantI S_ 32 50000#32), -- %c_2 = stablehlo.constant dense<50000> : tensor<i32>
    StableHlo.unary main_c_2 main_v26 (broadcastInDim S850000 ![] bcast_S_S850000 : (⟨S_, .i32⟩ : BufTy).Contents (Elt F) → (⟨S850000, .i32⟩ : BufTy).Contents (Elt F)), -- %26 = stablehlo.broadcast_in_dim %c_2, dims = [] : (tensor<i32>) -> tensor<850000xi32>
    StableHlo.binary main_v15 main_v26 main_v27 (addi : (⟨S850000, .i32⟩ : BufTy).Contents (Elt F) → (⟨S850000, .i32⟩ : BufTy).Contents (Elt F) → (⟨S850000, .i32⟩ : BufTy).Contents (Elt F)), -- %27 = stablehlo.add %15, %26 : tensor<850000xi32>
    StableHlo.ternary main_v25 main_v27 main_v15 main_v28 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)), -- %28 = stablehlo.select %25, %27, %15 : tensor<850000xi1>, tensor<850000xi32>
    StableHlo.unary main_v28 main_v29 (broadcastInDim S850000x1 ![0] bcast_S850000_S850000x1_0 : (⟨S850000, .i32⟩ : BufTy).Contents (Elt F) → (⟨S850000x1, .i32⟩ : BufTy).Contents (Elt F)), -- %29 = stablehlo.broadcast_in_dim %28, dims = [0] : (tensor<850000xi32>) -> tensor<850000x1xi32>
    StableHlo.binary main_v23 main_v29 main_v30 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)), -- %30 = "stablehlo.gather"(%23, %29) <{dimension_numbers = #stablehlo.gather<collapsed_slice_dims = [0], start_index_map = [0], index_vector_dim = 1>, indices_are_sorted = false, slice_sizes = array<i64: 1>}> : (tensor<50000xf32>, tensor<850000x1xi32>) -> tensor<850000xf32>
    StableHlo.nullary main_c_3 (constantI S_ 32 0#32), -- %c_3 = stablehlo.constant dense<0> : tensor<i32>
    StableHlo.unary main_c_3 main_v31 (broadcastInDim S850000 ![] bcast_S_S850000 : (⟨S_, .i32⟩ : BufTy).Contents (Elt F) → (⟨S850000, .i32⟩ : BufTy).Contents (Elt F)), -- %31 = stablehlo.broadcast_in_dim %c_3, dims = [] : (tensor<i32>) -> tensor<850000xi32>
    StableHlo.binary main_v16 main_v31 main_v32 (cmpi .slt : (⟨S850000, .i32⟩ : BufTy).Contents (Elt F) → (⟨S850000, .i32⟩ : BufTy).Contents (Elt F) → (⟨S850000, .i1⟩ : BufTy).Contents (Elt F)), -- %32 = stablehlo.compare LT, %16, %31, SIGNED : (tensor<850000xi32>, tensor<850000xi32>) -> tensor<850000xi1>
    StableHlo.nullary main_c_4 (constantI S_ 32 50000#32), -- %c_4 = stablehlo.constant dense<50000> : tensor<i32>
    StableHlo.unary main_c_4 main_v33 (broadcastInDim S850000 ![] bcast_S_S850000 : (⟨S_, .i32⟩ : BufTy).Contents (Elt F) → (⟨S850000, .i32⟩ : BufTy).Contents (Elt F)), -- %33 = stablehlo.broadcast_in_dim %c_4, dims = [] : (tensor<i32>) -> tensor<850000xi32>
    StableHlo.binary main_v16 main_v33 main_v34 (addi : (⟨S850000, .i32⟩ : BufTy).Contents (Elt F) → (⟨S850000, .i32⟩ : BufTy).Contents (Elt F) → (⟨S850000, .i32⟩ : BufTy).Contents (Elt F)), -- %34 = stablehlo.add %16, %33 : tensor<850000xi32>
    StableHlo.ternary main_v32 main_v34 main_v16 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)), -- %35 = stablehlo.select %32, %34, %16 : tensor<850000xi1>, tensor<850000xi32>
    StableHlo.unary main_v35 main_v36 (broadcastInDim S850000x1 ![0] bcast_S850000_S850000x1_0 : (⟨S850000, .i32⟩ : BufTy).Contents (Elt F) → (⟨S850000x1, .i32⟩ : BufTy).Contents (Elt F)), -- %36 = stablehlo.broadcast_in_dim %35, dims = [0] : (tensor<850000xi32>) -> tensor<850000x1xi32>
    StableHlo.binary main_v23 main_v36 main_v37 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)), -- %37 = "stablehlo.gather"(%23, %36) <{dimension_numbers = #stablehlo.gather<collapsed_slice_dims = [0], start_index_map = [0], index_vector_dim = 1>, indices_are_sorted = false, slice_sizes = array<i64: 1>}> : (tensor<50000xf32>, tensor<850000x1xi32>) -> tensor<850000xf32>
    StableHlo.binary main_v30 main_v37 main_v38 (mulf : (⟨S850000, .f32⟩ : BufTy).Contents (Elt F) → (⟨S850000, .f32⟩ : BufTy).Contents (Elt F) → (⟨S850000, .f32⟩ : BufTy).Contents (Elt F)), -- %38 = stablehlo.multiply %30, %37 : tensor<850000xf32>
    StableHlo.unary main_v38 main_v39 (broadcastInDim S850000x1 ![0] bcast_S850000_S850000x1_0 : (⟨S850000, .f32⟩ : BufTy).Contents (Elt F) → (⟨S850000x1, .f32⟩ : BufTy).Contents (Elt F)), -- %39 = stablehlo.broadcast_in_dim %38, dims = [0] : (tensor<850000xf32>) -> tensor<850000x1xf32>
    StableHlo.nullary main_c_5 (constantI S_ 32 0#32), -- %c_5 = stablehlo.constant dense<0> : tensor<i32>
    StableHlo.unary main_c_5 main_v40 (broadcastInDim S850000 ![] bcast_S_S850000 : (⟨S_, .i32⟩ : BufTy).Contents (Elt F) → (⟨S850000, .i32⟩ : BufTy).Contents (Elt F)), -- %40 = stablehlo.broadcast_in_dim %c_5, dims = [] : (tensor<i32>) -> tensor<850000xi32>
    StableHlo.binary main_v15 main_v40 main_v41 (cmpi .slt : (⟨S850000, .i32⟩ : BufTy).Contents (Elt F) → (⟨S850000, .i32⟩ : BufTy).Contents (Elt F) → (⟨S850000, .i1⟩ : BufTy).Contents (Elt F)), -- %41 = stablehlo.compare LT, %15, %40, SIGNED : (tensor<850000xi32>, tensor<850000xi32>) -> tensor<850000xi1>
    StableHlo.nullary main_c_6 (constantI S_ 32 50000#32), -- %c_6 = stablehlo.constant dense<50000> : tensor<i32>
    StableHlo.unary main_c_6 main_v42 (broadcastInDim S850000 ![] bcast_S_S850000 : (⟨S_, .i32⟩ : BufTy).Contents (Elt F) → (⟨S850000, .i32⟩ : BufTy).Contents (Elt F)), -- %42 = stablehlo.broadcast_in_dim %c_6, dims = [] : (tensor<i32>) -> tensor<850000xi32>
    StableHlo.binary main_v15 main_v42 main_v43 (addi : (⟨S850000, .i32⟩ : BufTy).Contents (Elt F) → (⟨S850000, .i32⟩ : BufTy).Contents (Elt F) → (⟨S850000, .i32⟩ : BufTy).Contents (Elt F)), -- %43 = stablehlo.add %15, %42 : tensor<850000xi32>
    StableHlo.ternary main_v41 main_v43 main_v15 main_v44 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)), -- %44 = stablehlo.select %41, %43, %15 : tensor<850000xi1>, tensor<850000xi32>
    StableHlo.unary main_v44 main_v45 (broadcastInDim S850000x1 ![0] bcast_S850000_S850000x1_0 : (⟨S850000, .i32⟩ : BufTy).Contents (Elt F) → (⟨S850000x1, .i32⟩ : BufTy).Contents (Elt F)), -- %45 = stablehlo.broadcast_in_dim %44, dims = [0] : (tensor<850000xi32>) -> tensor<850000x1xi32>
    StableHlo.binary main_v13 main_v45 main_v46 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)), -- %46 = "stablehlo.gather"(%13, %45) <{dimension_numbers = #stablehlo.gather<offset_dims = [1], collapsed_slice_dims = [0], start_index_map = [0], index_vector_dim = 1>, indices_are_sorted = false, slice_sizes = array<i64: 1, 64>}> : (tensor<50000x64xf32>, tensor<850000x1xi32>) -> tensor<850000x64xf32>
    StableHlo.unary main_v39 main_v47 (broadcastInDim S850000x64 ![0, 1] bcast_S850000x1_S850000x64_0_1 : (⟨S850000x1, .f32⟩ : BufTy).Contents (Elt F) → (⟨S850000x64, .f32⟩ : BufTy).Contents (Elt F)), -- %47 = stablehlo.broadcast_in_dim %39, dims = [0, 1] : (tensor<850000x1xf32>) -> tensor<850000x64xf32>
    StableHlo.binary main_v46 main_v47 main_v48 (mulf : (⟨S850000x64, .f32⟩ : BufTy).Contents (Elt F) → (⟨S850000x64, .f32⟩ : BufTy).Contents (Elt F) → (⟨S850000x64, .f32⟩ : BufTy).Contents (Elt F)), -- %48 = stablehlo.multiply %46, %47 : tensor<850000x64xf32>
    StableHlo.nullary main_cst_7 (constant S_ .f32 0x00000000#32), -- %cst_7 = stablehlo.constant dense<0.000000e+00> : tensor<f32>
    StableHlo.unary main_cst_7 main_v49 (broadcastInDim S50000x64 ![] bcast_S_S50000x64 : (⟨S_, .f32⟩ : BufTy).Contents (Elt F) → (⟨S50000x64, .f32⟩ : BufTy).Contents (Elt F)) ] -- %49 = stablehlo.broadcast_in_dim %cst_7, dims = [] : (tensor<f32>) -> tensor<50000x64xf32>

/-- Every buffer these operations touch is a TensorCore reference. -/
theorem opsSeg01_sub : (opsSeg01 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.binary_bufs_sub .., StableHlo.nullary_bufs_sub .., StableHlo.binary_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub ..⟩

/-- Each of these operations determines its results. -/
theorem opsSeg01_fresh : (opsSeg01 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers these operations write, in order. -/
abbrev opsSeg01_W : List (Ref sig .tc) :=
  [main_v9, main_v10, main_v11, main_v12, main_v13, main_v14, main_v15, main_v16, main_cst, main_v17, main_cst_0, main_v18, main_v19, main_v20, main_cst_1, main_v21, main_v22, main_v23, main_c, main_v24, main_v25, main_c_2, main_v26, main_v27, main_v28, main_v29, main_v30, main_c_3, main_v31, main_v32, main_c_4, main_v33, main_v34, main_v35, main_v36, main_v37, main_v38, main_v39, main_c_5, main_v40, main_v41, main_c_6, main_v42, main_v43, main_v44, main_v45, main_v46, main_v47, main_v48, main_cst_7, main_v49]

/-- Each operation writes only its own result buffer, which is in the list. -/
theorem opsSeg01_writes : (opsSeg01 : List (HloOp τ sig (Elt F))).Forall fun op =>
    op.writes ⊆ (opsSeg01_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer none of these operations writes keeps its contents through them. -/
theorem opsSeg01_keep (V : Valuation τ sig (Elt F)) (r : Ref sig .tc) (h : r ∉ opsSeg01_W) :
    StableHlo.after (opsSeg01 (F := F)) V (Proc.devRef .tc r) = V (Proc.devRef .tc r) :=
  StableHlo.after_of_writes_sub opsSeg01 V opsSeg01_writes h

/-- The reference's operations 63 … 124 of 852, in order; an outlined function's operations stand at its call, over that call's buffers. -/
abbrev opsSeg02 : List (HloOp τ sig (Elt F)) :=
  [ StableHlo.unary main_v16 main_v50 (broadcastInDim S850000x1 ![0] bcast_S850000_S850000x1_0 : (⟨S850000, .i32⟩ : BufTy).Contents (Elt F) → (⟨S850000x1, .i32⟩ : BufTy).Contents (Elt F)), -- %50 = stablehlo.broadcast_in_dim %16, dims = [0] : (tensor<850000xi32>) -> tensor<850000x1xi32>
    StableHlo.ternary main_v49 main_v50 main_v48 main_v51 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)), -- %51 = "stablehlo.scatter"(%49, %50, %48) <{indices_are_sorted = false, scatter_dimension_numbers = #stablehlo.scatter<update_window_dims = [1], inserted_window_dims = [0], scatter_dims_to_operand_dims = [0], index_vector_dim = 1>, unique_indices = false}> ( {
    StableHlo.unary main_v12 main_v52 (broadcastInDim S1x64 ![1] bcast_S64_S1x64_1 : (⟨S64, .f32⟩ : BufTy).Contents (Elt F) → (⟨S1x64, .f32⟩ : BufTy).Contents (Elt F)), -- %52 = stablehlo.broadcast_in_dim %12, dims = [1] : (tensor<64xf32>) -> tensor<1x64xf32>
    StableHlo.unary main_v52 main_v53 (broadcastInDim S50000x64 ![0, 1] bcast_S1x64_S50000x64_0_1 : (⟨S1x64, .f32⟩ : BufTy).Contents (Elt F) → (⟨S50000x64, .f32⟩ : BufTy).Contents (Elt F)), -- %53 = stablehlo.broadcast_in_dim %52, dims = [0, 1] : (tensor<1x64xf32>) -> tensor<50000x64xf32>
    StableHlo.binary main_v51 main_v53 main_v54 (addf : (⟨S50000x64, .f32⟩ : BufTy).Contents (Elt F) → (⟨S50000x64, .f32⟩ : BufTy).Contents (Elt F) → (⟨S50000x64, .f32⟩ : BufTy).Contents (Elt F)), -- %54 = stablehlo.add %51, %53 : tensor<50000x64xf32>
    StableHlo.TRef.nullary main_call1.cst (constant S_ .f32 0x00000000#32), -- @relu (main_call1): %cst = stablehlo.constant dense<0.000000e+00> : tensor<f32>
    StableHlo.TRef.unary main_call1.cst main_call1.v0 (broadcastInDim S50000x64 ![] bcast_S_S50000x64), -- @relu (main_call1): %0 = stablehlo.broadcast_in_dim %cst, dims = [] : (tensor<f32>) -> tensor<50000x64xf32>
    StableHlo.TRef.binary (.of main_v54 : StableHlo.TRef sig ⟨S50000x64, .f32⟩) main_call1.v0 main_call1.v1 maximumf, -- @relu (main_call1): %1 = stablehlo.maximum %arg0, %0 : tensor<50000x64xf32>
    StableHlo.unary main_arg7 main_v56 ((extractStridedSlice S1x64x64 ![0, 0, 0] · slices_S4x64x64_S1x64x64_0_0_0) : (⟨S4x64x64, .f32⟩ : BufTy).Contents (Elt F) → (⟨S1x64x64, .f32⟩ : BufTy).Contents (Elt F)), -- %56 = stablehlo.slice %arg7 [0:1, 0:64, 0:64] : (tensor<4x64x64xf32>) -> tensor<1x64x64xf32>
    StableHlo.reshape main_v56 main_v57 rfl shapeCasts_S1x64x64_S64x64, -- %57 = stablehlo.reshape %56 : (tensor<1x64x64xf32>) -> tensor<64x64xf32>
    StableHlo.unary main_arg8 main_v58 ((extractStridedSlice S1x64 ![0, 0] · slices_S4x64_S1x64_0_0) : (⟨S4x64, .f32⟩ : BufTy).Contents (Elt F) → (⟨S1x64, .f32⟩ : BufTy).Contents (Elt F)), -- %58 = stablehlo.slice %arg8 [0:1, 0:64] : (tensor<4x64xf32>) -> tensor<1x64xf32>
    StableHlo.reshape main_v58 main_v59 rfl shapeCasts_S1x64_S64, -- %59 = stablehlo.reshape %58 : (tensor<1x64xf32>) -> tensor<64xf32>
    StableHlo.binary main_v8 main_v57 main_v60 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)), -- %60 = stablehlo.dot_general %8, %57, contracting_dims = [1] x [0], precision = [DEFAULT, DEFAULT] : (tensor<50000x64xf32>, tensor<64x64xf32>) -> tensor<50000x64xf32>
    StableHlo.nullary main_v61 (iotaInDim S50000 32 0), -- %61 = stablehlo.iota dim = 0 : tensor<50000xi32>
    StableHlo.binary main_v1 main_v61 main_v62 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)), -- %62 = stablehlo.concatenate %1, %61, dim = 0 : (tensor<800000xi32>, tensor<50000xi32>) -> tensor<850000xi32>
    StableHlo.binary main_v3 main_v61 main_v63 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)), -- %63 = stablehlo.concatenate %3, %61, dim = 0 : (tensor<800000xi32>, tensor<50000xi32>) -> tensor<850000xi32>
    StableHlo.nullary main_cst_8 (constant S_ .f32 0x3F800000#32), -- %cst_8 = stablehlo.constant dense<1.000000e+00> : tensor<f32>
    StableHlo.unary main_cst_8 main_v64 (broadcastInDim S850000 ![] bcast_S_S850000 : (⟨S_, .f32⟩ : BufTy).Contents (Elt F) → (⟨S850000, .f32⟩ : BufTy).Contents (Elt F)), -- %64 = stablehlo.broadcast_in_dim %cst_8, dims = [] : (tensor<f32>) -> tensor<850000xf32>
    StableHlo.nullary main_cst_9 (constant S_ .f32 0x00000000#32), -- %cst_9 = stablehlo.constant dense<0.000000e+00> : tensor<f32>
    StableHlo.unary main_cst_9 main_v65 (broadcastInDim S50000 ![] bcast_S_S50000 : (⟨S_, .f32⟩ : BufTy).Contents (Elt F) → (⟨S50000, .f32⟩ : BufTy).Contents (Elt F)), -- %65 = stablehlo.broadcast_in_dim %cst_9, dims = [] : (tensor<f32>) -> tensor<50000xf32>
    StableHlo.unary main_v63 main_v66 (broadcastInDim S850000x1 ![0] bcast_S850000_S850000x1_0 : (⟨S850000, .i32⟩ : BufTy).Contents (Elt F) → (⟨S850000x1, .i32⟩ : BufTy).Contents (Elt F)), -- %66 = stablehlo.broadcast_in_dim %63, dims = [0] : (tensor<850000xi32>) -> tensor<850000x1xi32>
    StableHlo.ternary main_v65 main_v66 main_v64 main_v67 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)), -- %67 = "stablehlo.scatter"(%65, %66, %64) <{indices_are_sorted = false, scatter_dimension_numbers = #stablehlo.scatter<inserted_window_dims = [0], scatter_dims_to_operand_dims = [0], index_vector_dim = 1>, unique_indices = false}> ( {
    StableHlo.nullary main_cst_10 (constant S_ .f32 0x3F800000#32), -- %cst_10 = stablehlo.constant dense<1.000000e+00> : tensor<f32>
    StableHlo.unary main_cst_10 main_v68 (broadcastInDim S50000 ![] bcast_S_S50000 : (⟨S_, .f32⟩ : BufTy).Contents (Elt F) → (⟨S50000, .f32⟩ : BufTy).Contents (Elt F)), -- %68 = stablehlo.broadcast_in_dim %cst_10, dims = [] : (tensor<f32>) -> tensor<50000xf32>
    StableHlo.binary main_v67 main_v68 main_v69 (maximumf : (⟨S50000, .f32⟩ : BufTy).Contents (Elt F) → (⟨S50000, .f32⟩ : BufTy).Contents (Elt F) → (⟨S50000, .f32⟩ : BufTy).Contents (Elt F)), -- %69 = stablehlo.maximum %67, %68 : tensor<50000xf32>
    StableHlo.unary main_v69 main_v70 (Host.rsqrt : (⟨S50000, .f32⟩ : BufTy).Contents (Elt F) → (⟨S50000, .f32⟩ : BufTy).Contents (Elt F)), -- %70 = stablehlo.rsqrt %69 : tensor<50000xf32>
    StableHlo.nullary main_c_11 (constantI S_ 32 0#32), -- %c_11 = stablehlo.constant dense<0> : tensor<i32>
    StableHlo.unary main_c_11 main_v71 (broadcastInDim S850000 ![] bcast_S_S850000 : (⟨S_, .i32⟩ : BufTy).Contents (Elt F) → (⟨S850000, .i32⟩ : BufTy).Contents (Elt F)), -- %71 = stablehlo.broadcast_in_dim %c_11, dims = [] : (tensor<i32>) -> tensor<850000xi32>
    StableHlo.binary main_v62 main_v71 main_v72 (cmpi .slt : (⟨S850000, .i32⟩ : BufTy).Contents (Elt F) → (⟨S850000, .i32⟩ : BufTy).Contents (Elt F) → (⟨S850000, .i1⟩ : BufTy).Contents (Elt F)), -- %72 = stablehlo.compare LT, %62, %71, SIGNED : (tensor<850000xi32>, tensor<850000xi32>) -> tensor<850000xi1>
    StableHlo.nullary main_c_12 (constantI S_ 32 50000#32), -- %c_12 = stablehlo.constant dense<50000> : tensor<i32>
    StableHlo.unary main_c_12 main_v73 (broadcastInDim S850000 ![] bcast_S_S850000 : (⟨S_, .i32⟩ : BufTy).Contents (Elt F) → (⟨S850000, .i32⟩ : BufTy).Contents (Elt F)), -- %73 = stablehlo.broadcast_in_dim %c_12, dims = [] : (tensor<i32>) -> tensor<850000xi32>
    StableHlo.binary main_v62 main_v73 main_v74 (addi : (⟨S850000, .i32⟩ : BufTy).Contents (Elt F) → (⟨S850000, .i32⟩ : BufTy).Contents (Elt F) → (⟨S850000, .i32⟩ : BufTy).Contents (Elt F)), -- %74 = stablehlo.add %62, %73 : tensor<850000xi32>
    StableHlo.ternary main_v72 main_v74 main_v62 main_v75 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)), -- %75 = stablehlo.select %72, %74, %62 : tensor<850000xi1>, tensor<850000xi32>
    StableHlo.unary main_v75 main_v76 (broadcastInDim S850000x1 ![0] bcast_S850000_S850000x1_0 : (⟨S850000, .i32⟩ : BufTy).Contents (Elt F) → (⟨S850000x1, .i32⟩ : BufTy).Contents (Elt F)), -- %76 = stablehlo.broadcast_in_dim %75, dims = [0] : (tensor<850000xi32>) -> tensor<850000x1xi32>
    StableHlo.binary main_v70 main_v76 main_v77 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)), -- %77 = "stablehlo.gather"(%70, %76) <{dimension_numbers = #stablehlo.gather<collapsed_slice_dims = [0], start_index_map = [0], index_vector_dim = 1>, indices_are_sorted = false, slice_sizes = array<i64: 1>}> : (tensor<50000xf32>, tensor<850000x1xi32>) -> tensor<850000xf32>
    StableHlo.nullary main_c_13 (constantI S_ 32 0#32), -- %c_13 = stablehlo.constant dense<0> : tensor<i32>
    StableHlo.unary main_c_13 main_v78 (broadcastInDim S850000 ![] bcast_S_S850000 : (⟨S_, .i32⟩ : BufTy).Contents (Elt F) → (⟨S850000, .i32⟩ : BufTy).Contents (Elt F)), -- %78 = stablehlo.broadcast_in_dim %c_13, dims = [] : (tensor<i32>) -> tensor<850000xi32>
    StableHlo.binary main_v63 main_v78 main_v79 (cmpi .slt : (⟨S850000, .i32⟩ : BufTy).Contents (Elt F) → (⟨S850000, .i32⟩ : BufTy).Contents (Elt F) → (⟨S850000, .i1⟩ : BufTy).Contents (Elt F)), -- %79 = stablehlo.compare LT, %63, %78, SIGNED : (tensor<850000xi32>, tensor<850000xi32>) -> tensor<850000xi1>
    StableHlo.nullary main_c_14 (constantI S_ 32 50000#32), -- %c_14 = stablehlo.constant dense<50000> : tensor<i32>
    StableHlo.unary main_c_14 main_v80 (broadcastInDim S850000 ![] bcast_S_S850000 : (⟨S_, .i32⟩ : BufTy).Contents (Elt F) → (⟨S850000, .i32⟩ : BufTy).Contents (Elt F)), -- %80 = stablehlo.broadcast_in_dim %c_14, dims = [] : (tensor<i32>) -> tensor<850000xi32>
    StableHlo.binary main_v63 main_v80 main_v81 (addi : (⟨S850000, .i32⟩ : BufTy).Contents (Elt F) → (⟨S850000, .i32⟩ : BufTy).Contents (Elt F) → (⟨S850000, .i32⟩ : BufTy).Contents (Elt F)), -- %81 = stablehlo.add %63, %80 : tensor<850000xi32>
    StableHlo.ternary main_v79 main_v81 main_v63 main_v82 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)), -- %82 = stablehlo.select %79, %81, %63 : tensor<850000xi1>, tensor<850000xi32>
    StableHlo.unary main_v82 main_v83 (broadcastInDim S850000x1 ![0] bcast_S850000_S850000x1_0 : (⟨S850000, .i32⟩ : BufTy).Contents (Elt F) → (⟨S850000x1, .i32⟩ : BufTy).Contents (Elt F)), -- %83 = stablehlo.broadcast_in_dim %82, dims = [0] : (tensor<850000xi32>) -> tensor<850000x1xi32>
    StableHlo.binary main_v70 main_v83 main_v84 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)), -- %84 = "stablehlo.gather"(%70, %83) <{dimension_numbers = #stablehlo.gather<collapsed_slice_dims = [0], start_index_map = [0], index_vector_dim = 1>, indices_are_sorted = false, slice_sizes = array<i64: 1>}> : (tensor<50000xf32>, tensor<850000x1xi32>) -> tensor<850000xf32>
    StableHlo.binary main_v77 main_v84 main_v85 (mulf : (⟨S850000, .f32⟩ : BufTy).Contents (Elt F) → (⟨S850000, .f32⟩ : BufTy).Contents (Elt F) → (⟨S850000, .f32⟩ : BufTy).Contents (Elt F)), -- %85 = stablehlo.multiply %77, %84 : tensor<850000xf32>
    StableHlo.unary main_v85 main_v86 (broadcastInDim S850000x1 ![0] bcast_S850000_S850000x1_0 : (⟨S850000, .f32⟩ : BufTy).Contents (Elt F) → (⟨S850000x1, .f32⟩ : BufTy).Contents (Elt F)), -- %86 = stablehlo.broadcast_in_dim %85, dims = [0] : (tensor<850000xf32>) -> tensor<850000x1xf32>
    StableHlo.nullary main_c_15 (constantI S_ 32 0#32), -- %c_15 = stablehlo.constant dense<0> : tensor<i32>
    StableHlo.unary main_c_15 main_v87 (broadcastInDim S850000 ![] bcast_S_S850000 : (⟨S_, .i32⟩ : BufTy).Contents (Elt F) → (⟨S850000, .i32⟩ : BufTy).Contents (Elt F)), -- %87 = stablehlo.broadcast_in_dim %c_15, dims = [] : (tensor<i32>) -> tensor<850000xi32>
    StableHlo.binary main_v62 main_v87 main_v88 (cmpi .slt : (⟨S850000, .i32⟩ : BufTy).Contents (Elt F) → (⟨S850000, .i32⟩ : BufTy).Contents (Elt F) → (⟨S850000, .i1⟩ : BufTy).Contents (Elt F)), -- %88 = stablehlo.compare LT, %62, %87, SIGNED : (tensor<850000xi32>, tensor<850000xi32>) -> tensor<850000xi1>
    StableHlo.nullary main_c_16 (constantI S_ 32 50000#32), -- %c_16 = stablehlo.constant dense<50000> : tensor<i32>
    StableHlo.unary main_c_16 main_v89 (broadcastInDim S850000 ![] bcast_S_S850000 : (⟨S_, .i32⟩ : BufTy).Contents (Elt F) → (⟨S850000, .i32⟩ : BufTy).Contents (Elt F)), -- %89 = stablehlo.broadcast_in_dim %c_16, dims = [] : (tensor<i32>) -> tensor<850000xi32>
    StableHlo.binary main_v62 main_v89 main_v90 (addi : (⟨S850000, .i32⟩ : BufTy).Contents (Elt F) → (⟨S850000, .i32⟩ : BufTy).Contents (Elt F) → (⟨S850000, .i32⟩ : BufTy).Contents (Elt F)), -- %90 = stablehlo.add %62, %89 : tensor<850000xi32>
    StableHlo.ternary main_v88 main_v90 main_v62 main_v91 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)), -- %91 = stablehlo.select %88, %90, %62 : tensor<850000xi1>, tensor<850000xi32>
    StableHlo.unary main_v91 main_v92 (broadcastInDim S850000x1 ![0] bcast_S850000_S850000x1_0 : (⟨S850000, .i32⟩ : BufTy).Contents (Elt F) → (⟨S850000x1, .i32⟩ : BufTy).Contents (Elt F)), -- %92 = stablehlo.broadcast_in_dim %91, dims = [0] : (tensor<850000xi32>) -> tensor<850000x1xi32>
    StableHlo.binary main_v60 main_v92 main_v93 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)), -- %93 = "stablehlo.gather"(%60, %92) <{dimension_numbers = #stablehlo.gather<offset_dims = [1], collapsed_slice_dims = [0], start_index_map = [0], index_vector_dim = 1>, indices_are_sorted = false, slice_sizes = array<i64: 1, 64>}> : (tensor<50000x64xf32>, tensor<850000x1xi32>) -> tensor<850000x64xf32>
    StableHlo.unary main_v86 main_v94 (broadcastInDim S850000x64 ![0, 1] bcast_S850000x1_S850000x64_0_1 : (⟨S850000x1, .f32⟩ : BufTy).Contents (Elt F) → (⟨S850000x64, .f32⟩ : BufTy).Contents (Elt F)), -- %94 = stablehlo.broadcast_in_dim %86, dims = [0, 1] : (tensor<850000x1xf32>) -> tensor<850000x64xf32>
    StableHlo.binary main_v93 main_v94 main_v95 (mulf : (⟨S850000x64, .f32⟩ : BufTy).Contents (Elt F) → (⟨S850000x64, .f32⟩ : BufTy).Contents (Elt F) → (⟨S850000x64, .f32⟩ : BufTy).Contents (Elt F)), -- %95 = stablehlo.multiply %93, %94 : tensor<850000x64xf32>
    StableHlo.nullary main_cst_17 (constant S_ .f32 0x00000000#32), -- %cst_17 = stablehlo.constant dense<0.000000e+00> : tensor<f32>
    StableHlo.unary main_cst_17 main_v96 (broadcastInDim S50000x64 ![] bcast_S_S50000x64 : (⟨S_, .f32⟩ : BufTy).Contents (Elt F) → (⟨S50000x64, .f32⟩ : BufTy).Contents (Elt F)), -- %96 = stablehlo.broadcast_in_dim %cst_17, dims = [] : (tensor<f32>) -> tensor<50000x64xf32>
    StableHlo.unary main_v63 main_v97 (broadcastInDim S850000x1 ![0] bcast_S850000_S850000x1_0 : (⟨S850000, .i32⟩ : BufTy).Contents (Elt F) → (⟨S850000x1, .i32⟩ : BufTy).Contents (Elt F)), -- %97 = stablehlo.broadcast_in_dim %63, dims = [0] : (tensor<850000xi32>) -> tensor<850000x1xi32>
    StableHlo.ternary main_v96 main_v97 main_v95 main_v98 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)), -- %98 = "stablehlo.scatter"(%96, %97, %95) <{indices_are_sorted = false, scatter_dimension_numbers = #stablehlo.scatter<update_window_dims = [1], inserted_window_dims = [0], scatter_dims_to_operand_dims = [0], index_vector_dim = 1>, unique_indices = false}> ( {
    StableHlo.unary main_v59 main_v99 (broadcastInDim S1x64 ![1] bcast_S64_S1x64_1 : (⟨S64, .f32⟩ : BufTy).Contents (Elt F) → (⟨S1x64, .f32⟩ : BufTy).Contents (Elt F)) ] -- %99 = stablehlo.broadcast_in_dim %59, dims = [1] : (tensor<64xf32>) -> tensor<1x64xf32>

/-- Every buffer these operations touch is a TensorCore reference. -/
theorem opsSeg02_sub : (opsSeg02 : List (HloOp τ sig (Elt F))).Forall fun op => op.bufs ⊆ StableHlo.tcRefs τ sig :=
  ⟨StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.binary_bufs_sub .., StableHlo.nullary_bufs_sub .., StableHlo.binary_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub ..⟩

/-- Each of these operations determines its results. -/
theorem opsSeg02_fresh : (opsSeg02 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers these operations write, in order. -/
abbrev opsSeg02_W : List (Ref sig .tc) :=
  [main_v50, main_v51, main_v52, main_v53, main_v54, main_call1.cst.ref, main_call1.v0.ref, main_call1.v1.ref, main_v56, main_v57, main_v58, main_v59, main_v60, main_v61, main_v62, main_v63, main_cst_8, main_v64, main_cst_9, main_v65, main_v66, main_v67, main_cst_10, main_v68, main_v69, main_v70, main_c_11, main_v71, main_v72, main_c_12, main_v73, main_v74, main_v75, main_v76, main_v77, main_c_13, main_v78, main_v79, main_c_14, main_v80, main_v81, main_v82, main_v83, main_v84, main_v85, main_v86, main_c_15, main_v87, main_v88, main_c_16, main_v89, main_v90, main_v91, main_v92, main_v93, main_v94, main_v95, main_cst_17, main_v96, main_v97, main_v98, main_v99]

/-- Each operation writes only its own result buffer, which is in the list. -/
theorem opsSeg02_writes : (opsSeg02 : List (HloOp τ sig (Elt F))).Forall fun op =>
    op.writes ⊆ (opsSeg02_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer none of these operations writes keeps its contents through them. -/
theorem opsSeg02_keep (V : Valuation τ sig (Elt F)) (r : Ref sig .tc) (h : r ∉ opsSeg02_W) :
    StableHlo.after (opsSeg02 (F := F)) V (Proc.devRef .tc r) = V (Proc.devRef .tc r) :=
  StableHlo.after_of_writes_sub opsSeg02 V opsSeg02_writes h

/-- The reference's operations 125 … 175 of 852, in order; an outlined function's operations stand at its call, over that call's buffers. -/
abbrev opsSeg03 : List (HloOp τ sig (Elt F)) :=
  [ StableHlo.unary main_v99 main_v100 (broadcastInDim S50000x64 ![0, 1] bcast_S1x64_S50000x64_0_1 : (⟨S1x64, .f32⟩ : BufTy).Contents (Elt F) → (⟨S50000x64, .f32⟩ : BufTy).Contents (Elt F)), -- %100 = stablehlo.broadcast_in_dim %99, dims = [0, 1] : (tensor<1x64xf32>) -> tensor<50000x64xf32>
    StableHlo.binary main_v98 main_v100 main_v101 (addf : (⟨S50000x64, .f32⟩ : BufTy).Contents (Elt F) → (⟨S50000x64, .f32⟩ : BufTy).Contents (Elt F) → (⟨S50000x64, .f32⟩ : BufTy).Contents (Elt F)), -- %101 = stablehlo.add %98, %100 : tensor<50000x64xf32>
    StableHlo.TRef.nullary main_call2.cst (constant S_ .f32 0x00000000#32), -- @relu (main_call2): %cst = stablehlo.constant dense<0.000000e+00> : tensor<f32>
    StableHlo.TRef.unary main_call2.cst main_call2.v0 (broadcastInDim S50000x64 ![] bcast_S_S50000x64), -- @relu (main_call2): %0 = stablehlo.broadcast_in_dim %cst, dims = [] : (tensor<f32>) -> tensor<50000x64xf32>
    StableHlo.TRef.binary (.of main_v101 : StableHlo.TRef sig ⟨S50000x64, .f32⟩) main_call2.v0 main_call2.v1 maximumf, -- @relu (main_call2): %1 = stablehlo.maximum %arg0, %0 : tensor<50000x64xf32>
    StableHlo.nullary main_c_18 (constantI S_ 32 0#32), -- %c_18 = stablehlo.constant dense<0> : tensor<i32>
    StableHlo.unary main_c_18 main_v103 (broadcastInDim S800000 ![] bcast_S_S800000 : (⟨S_, .i32⟩ : BufTy).Contents (Elt F) → (⟨S800000, .i32⟩ : BufTy).Contents (Elt F)), -- %103 = stablehlo.broadcast_in_dim %c_18, dims = [] : (tensor<i32>) -> tensor<800000xi32>
    StableHlo.binary main_v1 main_v103 main_v104 (cmpi .slt : (⟨S800000, .i32⟩ : BufTy).Contents (Elt F) → (⟨S800000, .i32⟩ : BufTy).Contents (Elt F) → (⟨S800000, .i1⟩ : BufTy).Contents (Elt F)), -- %104 = stablehlo.compare LT, %1, %103, SIGNED : (tensor<800000xi32>, tensor<800000xi32>) -> tensor<800000xi1>
    StableHlo.nullary main_c_19 (constantI S_ 32 50000#32), -- %c_19 = stablehlo.constant dense<50000> : tensor<i32>
    StableHlo.unary main_c_19 main_v105 (broadcastInDim S800000 ![] bcast_S_S800000 : (⟨S_, .i32⟩ : BufTy).Contents (Elt F) → (⟨S800000, .i32⟩ : BufTy).Contents (Elt F)), -- %105 = stablehlo.broadcast_in_dim %c_19, dims = [] : (tensor<i32>) -> tensor<800000xi32>
    StableHlo.binary main_v1 main_v105 main_v106 (addi : (⟨S800000, .i32⟩ : BufTy).Contents (Elt F) → (⟨S800000, .i32⟩ : BufTy).Contents (Elt F) → (⟨S800000, .i32⟩ : BufTy).Contents (Elt F)), -- %106 = stablehlo.add %1, %105 : tensor<800000xi32>
    StableHlo.ternary main_v104 main_v106 main_v1 main_v107 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)), -- %107 = stablehlo.select %104, %106, %1 : tensor<800000xi1>, tensor<800000xi32>
    StableHlo.unary main_v107 main_v108 (broadcastInDim S800000x1 ![0] bcast_S800000_S800000x1_0 : (⟨S800000, .i32⟩ : BufTy).Contents (Elt F) → (⟨S800000x1, .i32⟩ : BufTy).Contents (Elt F)), -- %108 = stablehlo.broadcast_in_dim %107, dims = [0] : (tensor<800000xi32>) -> tensor<800000x1xi32>
    StableHlo.binary main_v102 main_v108 main_v109 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)), -- %109 = "stablehlo.gather"(%102, %108) <{dimension_numbers = #stablehlo.gather<offset_dims = [1], collapsed_slice_dims = [0], start_index_map = [0], index_vector_dim = 1>, indices_are_sorted = false, slice_sizes = array<i64: 1, 64>}> : (tensor<50000x64xf32>, tensor<800000x1xi32>) -> tensor<800000x64xf32>
    StableHlo.nullary main_c_20 (constantI S_ 32 0#32), -- %c_20 = stablehlo.constant dense<0> : tensor<i32>
    StableHlo.unary main_c_20 main_v110 (broadcastInDim S800000 ![] bcast_S_S800000 : (⟨S_, .i32⟩ : BufTy).Contents (Elt F) → (⟨S800000, .i32⟩ : BufTy).Contents (Elt F)), -- %110 = stablehlo.broadcast_in_dim %c_20, dims = [] : (tensor<i32>) -> tensor<800000xi32>
    StableHlo.binary main_v3 main_v110 main_v111 (cmpi .slt : (⟨S800000, .i32⟩ : BufTy).Contents (Elt F) → (⟨S800000, .i32⟩ : BufTy).Contents (Elt F) → (⟨S800000, .i1⟩ : BufTy).Contents (Elt F)), -- %111 = stablehlo.compare LT, %3, %110, SIGNED : (tensor<800000xi32>, tensor<800000xi32>) -> tensor<800000xi1>
    StableHlo.nullary main_c_21 (constantI S_ 32 50000#32), -- %c_21 = stablehlo.constant dense<50000> : tensor<i32>
    StableHlo.unary main_c_21 main_v112 (broadcastInDim S800000 ![] bcast_S_S800000 : (⟨S_, .i32⟩ : BufTy).Contents (Elt F) → (⟨S800000, .i32⟩ : BufTy).Contents (Elt F)), -- %112 = stablehlo.broadcast_in_dim %c_21, dims = [] : (tensor<i32>) -> tensor<800000xi32>
    StableHlo.binary main_v3 main_v112 main_v113 (addi : (⟨S800000, .i32⟩ : BufTy).Contents (Elt F) → (⟨S800000, .i32⟩ : BufTy).Contents (Elt F) → (⟨S800000, .i32⟩ : BufTy).Contents (Elt F)), -- %113 = stablehlo.add %3, %112 : tensor<800000xi32>
    StableHlo.ternary main_v111 main_v113 main_v3 main_v114 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)), -- %114 = stablehlo.select %111, %113, %3 : tensor<800000xi1>, tensor<800000xi32>
    StableHlo.unary main_v114 main_v115 (broadcastInDim S800000x1 ![0] bcast_S800000_S800000x1_0 : (⟨S800000, .i32⟩ : BufTy).Contents (Elt F) → (⟨S800000x1, .i32⟩ : BufTy).Contents (Elt F)), -- %115 = stablehlo.broadcast_in_dim %114, dims = [0] : (tensor<800000xi32>) -> tensor<800000x1xi32>
    StableHlo.binary main_v102 main_v115 main_v116 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)), -- %116 = "stablehlo.gather"(%102, %115) <{dimension_numbers = #stablehlo.gather<offset_dims = [1], collapsed_slice_dims = [0], start_index_map = [0], index_vector_dim = 1>, indices_are_sorted = false, slice_sizes = array<i64: 1, 64>}> : (tensor<50000x64xf32>, tensor<800000x1xi32>) -> tensor<800000x64xf32>
    StableHlo.binary main_v109 main_v116 main_v117 (subf : (⟨S800000x64, .f32⟩ : BufTy).Contents (Elt F) → (⟨S800000x64, .f32⟩ : BufTy).Contents (Elt F) → (⟨S800000x64, .f32⟩ : BufTy).Contents (Elt F)), -- %117 = stablehlo.subtract %109, %116 : tensor<800000x64xf32>
    StableHlo.unary main_v117 main_v118 (Host.absf : (⟨S800000x64, .f32⟩ : BufTy).Contents (Elt F) → (⟨S800000x64, .f32⟩ : BufTy).Contents (Elt F)), -- %118 = stablehlo.abs %117 : tensor<800000x64xf32>
    StableHlo.nullary main_cst_22 (constant S_ .f32 0x40000000#32), -- %cst_22 = stablehlo.constant dense<2.000000e+00> : tensor<f32>
    StableHlo.unary main_cst_22 main_v119 (broadcastInDim S800000x64 ![] bcast_S_S800000x64 : (⟨S_, .f32⟩ : BufTy).Contents (Elt F) → (⟨S800000x64, .f32⟩ : BufTy).Contents (Elt F)), -- %119 = stablehlo.broadcast_in_dim %cst_22, dims = [] : (tensor<f32>) -> tensor<800000x64xf32>
    StableHlo.binary main_v118 main_v119 main_v120 (Host.powf : (⟨S800000x64, .f32⟩ : BufTy).Contents (Elt F) → (⟨S800000x64, .f32⟩ : BufTy).Contents (Elt F) → (⟨S800000x64, .f32⟩ : BufTy).Contents (Elt F)), -- %120 = stablehlo.power %118, %119 : tensor<800000x64xf32>
    StableHlo.nullary main_cst_23 (constant S_ .f32 0x00000000#32), -- %cst_23 = stablehlo.constant dense<0.000000e+00> : tensor<f32>
    StableHlo.unary main_cst_23 main_v121 (broadcastInDim S50000x64 ![] bcast_S_S50000x64 : (⟨S_, .f32⟩ : BufTy).Contents (Elt F) → (⟨S50000x64, .f32⟩ : BufTy).Contents (Elt F)), -- %121 = stablehlo.broadcast_in_dim %cst_23, dims = [] : (tensor<f32>) -> tensor<50000x64xf32>
    StableHlo.unary main_v1 main_v122 (broadcastInDim S800000x1 ![0] bcast_S800000_S800000x1_0 : (⟨S800000, .i32⟩ : BufTy).Contents (Elt F) → (⟨S800000x1, .i32⟩ : BufTy).Contents (Elt F)), -- %122 = stablehlo.broadcast_in_dim %1, dims = [0] : (tensor<800000xi32>) -> tensor<800000x1xi32>
    StableHlo.ternary main_v121 main_v122 main_v120 main_v123 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)), -- %123 = "stablehlo.scatter"(%121, %122, %120) <{indices_are_sorted = false, scatter_dimension_numbers = #stablehlo.scatter<update_window_dims = [1], inserted_window_dims = [0], scatter_dims_to_operand_dims = [0], index_vector_dim = 1>, unique_indices = false}> ( {
    StableHlo.nullary main_cst_24 (constant S_ .f32 0x3F800000#32), -- %cst_24 = stablehlo.constant dense<1.000000e+00> : tensor<f32>
    StableHlo.unary main_cst_24 main_v124 (broadcastInDim S800000 ![] bcast_S_S800000 : (⟨S_, .f32⟩ : BufTy).Contents (Elt F) → (⟨S800000, .f32⟩ : BufTy).Contents (Elt F)), -- %124 = stablehlo.broadcast_in_dim %cst_24, dims = [] : (tensor<f32>) -> tensor<800000xf32>
    StableHlo.nullary main_cst_25 (constant S_ .f32 0x00000000#32), -- %cst_25 = stablehlo.constant dense<0.000000e+00> : tensor<f32>
    StableHlo.unary main_cst_25 main_v125 (broadcastInDim S50000 ![] bcast_S_S50000 : (⟨S_, .f32⟩ : BufTy).Contents (Elt F) → (⟨S50000, .f32⟩ : BufTy).Contents (Elt F)), -- %125 = stablehlo.broadcast_in_dim %cst_25, dims = [] : (tensor<f32>) -> tensor<50000xf32>
    StableHlo.unary main_v1 main_v126 (broadcastInDim S800000x1 ![0] bcast_S800000_S800000x1_0 : (⟨S800000, .i32⟩ : BufTy).Contents (Elt F) → (⟨S800000x1, .i32⟩ : BufTy).Contents (Elt F)), -- %126 = stablehlo.broadcast_in_dim %1, dims = [0] : (tensor<800000xi32>) -> tensor<800000x1xi32>
    StableHlo.ternary main_v125 main_v126 main_v124 main_v127 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)), -- %127 = "stablehlo.scatter"(%125, %126, %124) <{indices_are_sorted = false, scatter_dimension_numbers = #stablehlo.scatter<inserted_window_dims = [0], scatter_dims_to_operand_dims = [0], index_vector_dim = 1>, unique_indices = false}> ( {
    StableHlo.nullary main_cst_26 (constant S_ .f32 0x3F800000#32), -- %cst_26 = stablehlo.constant dense<1.000000e+00> : tensor<f32>
    StableHlo.unary main_cst_26 main_v128 (broadcastInDim S50000 ![] bcast_S_S50000 : (⟨S_, .f32⟩ : BufTy).Contents (Elt F) → (⟨S50000, .f32⟩ : BufTy).Contents (Elt F)), -- %128 = stablehlo.broadcast_in_dim %cst_26, dims = [] : (tensor<f32>) -> tensor<50000xf32>
    StableHlo.binary main_v127 main_v128 main_v129 (maximumf : (⟨S50000, .f32⟩ : BufTy).Contents (Elt F) → (⟨S50000, .f32⟩ : BufTy).Contents (Elt F) → (⟨S50000, .f32⟩ : BufTy).Contents (Elt F)), -- %129 = stablehlo.maximum %127, %128 : tensor<50000xf32>
    StableHlo.unary main_v129 main_v130 (broadcastInDim S50000x1 ![0] bcast_S50000_S50000x1_0 : (⟨S50000, .f32⟩ : BufTy).Contents (Elt F) → (⟨S50000x1, .f32⟩ : BufTy).Contents (Elt F)), -- %130 = stablehlo.broadcast_in_dim %129, dims = [0] : (tensor<50000xf32>) -> tensor<50000x1xf32>
    StableHlo.unary main_v130 main_v131 (broadcastInDim S50000x64 ![0, 1] bcast_S50000x1_S50000x64_0_1 : (⟨S50000x1, .f32⟩ : BufTy).Contents (Elt F) → (⟨S50000x64, .f32⟩ : BufTy).Contents (Elt F)), -- %131 = stablehlo.broadcast_in_dim %130, dims = [0, 1] : (tensor<50000x1xf32>) -> tensor<50000x64xf32>
    StableHlo.binary main_v123 main_v131 main_v132 (Host.divf : (⟨S50000x64, .f32⟩ : BufTy).Contents (Elt F) → (⟨S50000x64, .f32⟩ : BufTy).Contents (Elt F) → (⟨S50000x64, .f32⟩ : BufTy).Contents (Elt F)), -- %132 = stablehlo.divide %123, %131 : tensor<50000x64xf32>
    StableHlo.unary main_v132 main_v133 (Host.tanh : (⟨S50000x64, .f32⟩ : BufTy).Contents (Elt F) → (⟨S50000x64, .f32⟩ : BufTy).Contents (Elt F)), -- %133 = stablehlo.tanh %132 : tensor<50000x64xf32>
    StableHlo.nullary main_cst_27 (constant S_ .f32 0x3F800000#32), -- %cst_27 = stablehlo.constant dense<1.000000e+00> : tensor<f32>
    StableHlo.unary main_cst_27 main_v134 (broadcastInDim S50000x64 ![] bcast_S_S50000x64 : (⟨S_, .f32⟩ : BufTy).Contents (Elt F) → (⟨S50000x64, .f32⟩ : BufTy).Contents (Elt F)), -- %134 = stablehlo.broadcast_in_dim %cst_27, dims = [] : (tensor<f32>) -> tensor<50000x64xf32>
    StableHlo.binary main_v134 main_v133 main_v135 (subf : (⟨S50000x64, .f32⟩ : BufTy).Contents (Elt F) → (⟨S50000x64, .f32⟩ : BufTy).Contents (Elt F) → (⟨S50000x64, .f32⟩ : BufTy).Contents (Elt F)), -- %135 = stablehlo.subtract %134, %133 : tensor<50000x64xf32>
    StableHlo.binary main_v135 main_v8 main_v136 (mulf : (⟨S50000x64, .f32⟩ : BufTy).Contents (Elt F) → (⟨S50000x64, .f32⟩ : BufTy).Contents (Elt F) → (⟨S50000x64, .f32⟩ : BufTy).Contents (Elt F)), -- %136 = stablehlo.multiply %135, %8 : tensor<50000x64xf32>
    StableHlo.binary main_v133 main_v55 main_v137 (mulf : (⟨S50000x64, .f32⟩ : BufTy).Contents (Elt F) → (⟨S50000x64, .f32⟩ : BufTy).Contents (Elt F) → (⟨S50000x64, .f32⟩ : BufTy).Contents (Elt F)), -- %137 = stablehlo.multiply %133, %55 : tensor<50000x64xf32>
    StableHlo.binary main_v136 main_v137 main_v138 (addf : (⟨S50000x64, .f32⟩ : BufTy).Contents (Elt F) → (⟨S50000x64, .f32⟩ : BufTy).Contents (Elt F) → (⟨S50000x64, .f32⟩ : BufTy).Contents (Elt F)) ] -- %138 = stablehlo.add %136, %137 : tensor<50000x64xf32>

/-- Every buffer these operations touch is a TensorCore reference. -/
theorem opsSeg03_sub : (opsSeg03 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.binary_bufs_sub .., StableHlo.binary_bufs_sub .., StableHlo.binary_bufs_sub ..⟩

/-- Each of these operations determines its results. -/
theorem opsSeg03_fresh : (opsSeg03 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers these operations write, in order. -/
abbrev opsSeg03_W : List (Ref sig .tc) :=
  [main_v100, main_v101, main_call2.cst.ref, main_call2.v0.ref, main_call2.v1.ref, main_c_18, main_v103, main_v104, main_c_19, main_v105, main_v106, main_v107, main_v108, main_v109, main_c_20, main_v110, main_v111, main_c_21, main_v112, main_v113, main_v114, main_v115, main_v116, main_v117, main_v118, main_cst_22, main_v119, main_v120, main_cst_23, main_v121, main_v122, main_v123, main_cst_24, main_v124, main_cst_25, main_v125, main_v126, main_v127, main_cst_26, main_v128, main_v129, main_v130, main_v131, main_v132, main_v133, main_cst_27, main_v134, main_v135, main_v136, main_v137, main_v138]

/-- Each operation writes only its own result buffer, which is in the list. -/
theorem opsSeg03_writes : (opsSeg03 : List (HloOp τ sig (Elt F))).Forall fun op =>
    op.writes ⊆ (opsSeg03_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer none of these operations writes keeps its contents through them. -/
theorem opsSeg03_keep (V : Valuation τ sig (Elt F)) (r : Ref sig .tc) (h : r ∉ opsSeg03_W) :
    StableHlo.after (opsSeg03 (F := F)) V (Proc.devRef .tc r) = V (Proc.devRef .tc r) :=
  StableHlo.after_of_writes_sub opsSeg03 V opsSeg03_writes h

/-- Message-passing layer 0: the layer's two weight slices, the two normalized neighbourhood aggregations with their rectifiers, the gradient gate, and the gated blend that forms the next node features. -/
abbrev opsLayer0 : List (HloOp τ sig (Elt F)) :=
  opsSeg01 ++ (opsSeg02 ++ (opsSeg03))

/-- The buffers opsLayer0 writes, in order. -/
abbrev opsLayer0_W : List (Ref sig .tc) :=
  opsSeg01_W ++ (opsSeg02_W ++ (opsSeg03_W))

/-- The contents after opsLayer0, piece by piece. -/
theorem opsLayer0_after (V : Valuation τ sig (Elt F)) :
    StableHlo.after (opsLayer0 (F := F)) V = StableHlo.after opsSeg03 (StableHlo.after opsSeg02 (StableHlo.after opsSeg01 V)) := by
  simp only [opsLayer0, after_append]

/-- A buffer opsLayer0 does not write keeps its contents through it. -/
theorem opsLayer0_keep (V : Valuation τ sig (Elt F)) (r : Ref sig .tc) (h : r ∉ opsLayer0_W) :
    StableHlo.after (opsLayer0 (F := F)) V (Proc.devRef .tc r) = V (Proc.devRef .tc r) := by
  rw [opsLayer0_after]
  rw [opsSeg03_keep _ r (fun hm => h (List.mem_append_right _ (List.mem_append_right _ (hm)))),
    opsSeg02_keep _ r (fun hm => h (List.mem_append_right _ (List.mem_append_left _ hm))),
    opsSeg01_keep _ r (fun hm => h (List.mem_append_left _ hm))]

end Cert.ReferenceIdeal.RefRun

end
-- ==== Proof.RefOpsL1.lean ====
/- The reference program's operations, part 3 of 6: message-passing layer 1, in the same order as layer 0. Each list entry is one operation of the
   program, in program order, written as the program writes it; where the program calls an outlined function, that function's
   operations stand in place of the call, over the buffers of that call. With each list: every buffer it touches is a
   TensorCore reference, every operation determines its result, and a buffer that is not among the list's result buffers
   keeps its contents through the list. -/
import proofs.«117928_j61658550502081_1_alg».proof.Proof.Gen.ReferenceIdeal
import proofs.«117928_j61658550502081_1_alg».proof.Proof.RefBase

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- The reference's operations 176 … 186 of 852, in order; an outlined function's operations stand at its call, over that call's buffers. -/
abbrev opsSeg04 : List (HloOp τ sig (Elt F)) :=
  [ StableHlo.unary main_arg5 main_v139 ((extractStridedSlice S1x64x64 ![1, 0, 0] · slices_S4x64x64_S1x64x64_1_0_0) : (⟨S4x64x64, .f32⟩ : BufTy).Contents (Elt F) → (⟨S1x64x64, .f32⟩ : BufTy).Contents (Elt F)), -- %139 = stablehlo.slice %arg5 [1:2, 0:64, 0:64] : (tensor<4x64x64xf32>) -> tensor<1x64x64xf32>
    StableHlo.reshape main_v139 main_v140 rfl shapeCasts_S1x64x64_S64x64, -- %140 = stablehlo.reshape %139 : (tensor<1x64x64xf32>) -> tensor<64x64xf32>
    StableHlo.unary main_arg6 main_v141 ((extractStridedSlice S1x64 ![1, 0] · slices_S4x64_S1x64_1_0) : (⟨S4x64, .f32⟩ : BufTy).Contents (Elt F) → (⟨S1x64, .f32⟩ : BufTy).Contents (Elt F)), -- %141 = stablehlo.slice %arg6 [1:2, 0:64] : (tensor<4x64xf32>) -> tensor<1x64xf32>
    StableHlo.reshape main_v141 main_v142 rfl shapeCasts_S1x64_S64, -- %142 = stablehlo.reshape %141 : (tensor<1x64xf32>) -> tensor<64xf32>
    StableHlo.binary main_v138 main_v140 main_v143 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)), -- %143 = stablehlo.dot_general %138, %140, contracting_dims = [1] x [0], precision = [DEFAULT, DEFAULT] : (tensor<50000x64xf32>, tensor<64x64xf32>) -> tensor<50000x64xf32>
    StableHlo.nullary main_v144 (iotaInDim S50000 32 0), -- %144 = stablehlo.iota dim = 0 : tensor<50000xi32>
    StableHlo.binary main_v1 main_v144 main_v145 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)), -- %145 = stablehlo.concatenate %1, %144, dim = 0 : (tensor<800000xi32>, tensor<50000xi32>) -> tensor<850000xi32>
    StableHlo.binary main_v3 main_v144 main_v146 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)), -- %146 = stablehlo.concatenate %3, %144, dim = 0 : (tensor<800000xi32>, tensor<50000xi32>) -> tensor<850000xi32>
    StableHlo.nullary main_cst_28 (constant S_ .f32 0x3F800000#32), -- %cst_28 = stablehlo.constant dense<1.000000e+00> : tensor<f32>
    StableHlo.unary main_cst_28 main_v147 (broadcastInDim S850000 ![] bcast_S_S850000 : (⟨S_, .f32⟩ : BufTy).Contents (Elt F) → (⟨S850000, .f32⟩ : BufTy).Contents (Elt F)), -- %147 = stablehlo.broadcast_in_dim %cst_28, dims = [] : (tensor<f32>) -> tensor<850000xf32>
    StableHlo.nullary main_cst_29 (constant S_ .f32 0x00000000#32) ] -- %cst_29 = stablehlo.constant dense<0.000000e+00> : tensor<f32>

/-- Every buffer these operations touch is a TensorCore reference. -/
theorem opsSeg04_sub : (opsSeg04 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.binary_bufs_sub .., StableHlo.nullary_bufs_sub .., StableHlo.binary_bufs_sub .., StableHlo.binary_bufs_sub .., StableHlo.nullary_bufs_sub .., StableHlo.unary_bufs_sub .., StableHlo.nullary_bufs_sub ..⟩

/-- Each of these operations determines its results. -/
theorem opsSeg04_fresh : (opsSeg04 : List (HloOp τ sig (Elt F))).Forall fun op => op.fresh = ∅ :=
  ⟨rfl, rfl, rfl, rfl, rfl, rfl, rfl, rfl, rfl, rfl, rfl⟩

/-- The buffers these operations write, in order. -/
abbrev opsSeg04_W : List (Ref sig .tc) :=
  [main_v139, main_v140, main_v141, main_v142, main_v143, main_v144, main_v145, main_v146, main_cst_28, main_v147, main_cst_29]

/-- Each operation writes only its own result buffer, which is in the list. -/
theorem opsSeg04_writes : (opsSeg04 : List (HloOp τ sig (Elt F))).Forall fun op =>
    op.writes ⊆ (opsSeg04_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer none of these operations writes keeps its contents through them. -/
theorem opsSeg04_keep (V : Valuation τ sig (Elt F)) (r : Ref sig .tc) (h : r ∉ opsSeg04_W) :
    StableHlo.after (opsSeg04 (F := F)) V (Proc.devRef .tc r) = V (Proc.devRef .tc r) :=
  StableHlo.after_of_writes_sub opsSeg04 V opsSeg04_writes h

/-- The reference's operations 187 … 248 of 852, in order; an outlined function's operations stand at its call, over that call's buffers. -/
abbrev opsSeg05 : List (HloOp τ sig (Elt F)) :=
  [ StableHlo.unary main_cst_29 main_v148 (broadcastInDim S50000 ![] bcast_S_S50000 : (⟨S_, .f32⟩ : BufTy).Contents (Elt F) → (⟨S50000, .f32⟩ : BufTy).Contents (Elt F)), -- %148 = stablehlo.broadcast_in_dim %cst_29, dims = [] : (tensor<f32>) -> tensor<50000xf32>
    StableHlo.unary main_v146 main_v149 (broadcastInDim S850000x1 ![0] bcast_S850000_S850000x1_0 : (⟨S850000, .i32⟩ : BufTy).Contents (Elt F) → (⟨S850000x1, .i32⟩ : BufTy).Contents (Elt F)), -- %149 = stablehlo.broadcast_in_dim %146, dims = [0] : (tensor<850000xi32>) -> tensor<850000x1xi32>
    StableHlo.ternary main_v148 main_v149 main_v147 main_v150 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)), -- %150 = "stablehlo.scatter"(%148, %149, %147) <{indices_are_sorted = false, scatter_dimension_numbers = #stablehlo.scatter<inserted_window_dims = [0], scatter_dims_to_operand_dims = [0], index_vector_dim = 1>, unique_indices = false}> ( {
    StableHlo.nullary main_cst_30 (constant S_ .f32 0x3F800000#32), -- %cst_30 = stablehlo.constant dense<1.000000e+00> : tensor<f32>
    StableHlo.unary main_cst_30 main_v151 (broadcastInDim S50000 ![] bcast_S_S50000 : (⟨S_, .f32⟩ : BufTy).Contents (Elt F) → (⟨S50000, .f32⟩ : BufTy).Contents (Elt F)), -- %151 = stablehlo.broadcast_in_dim %cst_30, dims = [] : (tensor<f32>) -> tensor<50000xf32>
    StableHlo.binary main_v150 main_v151 main_v152 (maximumf : (⟨S50000, .f32⟩ : BufTy).Contents (Elt F) → (⟨S50000, .f32⟩ : BufTy).Contents (Elt F) → (⟨S50000, .f32⟩ : BufTy).Contents (Elt F)), -- %152 = stablehlo.maximum %150, %151 : tensor<50000xf32>
    StableHlo.unary main_v152 main_v153 (Host.rsqrt : (⟨S50000, .f32⟩ : BufTy).Contents (Elt F) → (⟨S50000, .f32⟩ : BufTy).Contents (Elt F)), -- %153 = stablehlo.rsqrt %152 : tensor<50000xf32>
    StableHlo.nullary main_c_31 (constantI S_ 32 0#32), -- %c_31 = stablehlo.constant dense<0> : tensor<i32>
    StableHlo.unary main_c_31 main_v154 (broadcastInDim S850000 ![] bcast_S_S850000 : (⟨S_, .i32⟩ : BufTy).Contents (Elt F) → (⟨S850000, .i32⟩ : BufTy).Contents (Elt F)), -- %154 = stablehlo.broadcast_in_dim %c_31, dims = [] : (tensor<i32>) -> tensor<850000xi32>
    StableHlo.binary main_v145 main_v154 main_v155 (cmpi .slt : (⟨S850000, .i32⟩ : BufTy).Contents (Elt F) → (⟨S850000, .i32⟩ : BufTy).Contents (Elt F) → (⟨S850000, .i1⟩ : BufTy).Contents (Elt F)), -- %155 = stablehlo.compare LT, %145, %154, SIGNED : (tensor<850000xi32>, tensor<850000xi32>) -> tensor<850000xi1>
    StableHlo.nullary main_c_32 (constantI S_ 32 50000#32), -- %c_32 = stablehlo.constant dense<50000> : tensor<i32>
    StableHlo.unary main_c_32 main_v156 (broadcastInDim S850000 ![] bcast_S_S850000 : (⟨S_, .i32⟩ : BufTy).Contents (Elt F) → (⟨S850000, .i32⟩ : BufTy).Contents (Elt F)), -- %156 = stablehlo.broadcast_in_dim %c_32, dims = [] : (tensor<i32>) -> tensor<850000xi32>
    StableHlo.binary main_v145 main_v156 main_v157 (addi : (⟨S850000, .i32⟩ : BufTy).Contents (Elt F) → (⟨S850000, .i32⟩ : BufTy).Contents (Elt F) → (⟨S850000, .i32⟩ : BufTy).Contents (Elt F)), -- %157 = stablehlo.add %145, %156 : tensor<850000xi32>
    StableHlo.ternary main_v155 main_v157 main_v145 main_v158 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)), -- %158 = stablehlo.select %155, %157, %145 : tensor<850000xi1>, tensor<850000xi32>
    StableHlo.unary main_v158 main_v159 (broadcastInDim S850000x1 ![0] bcast_S850000_S850000x1_0 : (⟨S850000, .i32⟩ : BufTy).Contents (Elt F) → (⟨S850000x1, .i32⟩ : BufTy).Contents (Elt F)), -- %159 = stablehlo.broadcast_in_dim %158, dims = [0] : (tensor<850000xi32>) -> tensor<850000x1xi32>
    StableHlo.binary main_v153 main_v159 main_v160 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)), -- %160 = "stablehlo.gather"(%153, %159) <{dimension_numbers = #stablehlo.gather<collapsed_slice_dims = [0], start_index_map = [0], index_vector_dim = 1>, indices_are_sorted = false, slice_sizes = array<i64: 1>}> : (tensor<50000xf32>, tensor<850000x1xi32>) -> tensor<850000xf32>
    StableHlo.nullary main_c_33 (constantI S_ 32 0#32), -- %c_33 = stablehlo.constant dense<0> : tensor<i32>
    StableHlo.unary main_c_33 main_v161 (broadcastInDim S850000 ![] bcast_S_S850000 : (⟨S_, .i32⟩ : BufTy).Contents (Elt F) → (⟨S850000, .i32⟩ : BufTy).Contents (Elt F)), -- %161 = stablehlo.broadcast_in_dim %c_33, dims = [] : (tensor<i32>) -> tensor<850000xi32>
    StableHlo.binary main_v146 main_v161 main_v162 (cmpi .slt : (⟨S850000, .i32⟩ : BufTy).Contents (Elt F) → (⟨S850000, .i32⟩ : BufTy).Contents (Elt F) → (⟨S850000, .i1⟩ : BufTy).Contents (Elt F)), -- %162 = stablehlo.compare LT, %146, %161, SIGNED : (tensor<850000xi32>, tensor<850000xi32>) -> tensor<850000xi1>
    StableHlo.nullary main_c_34 (constantI S_ 32 50000#32), -- %c_34 = stablehlo.constant dense<50000> : tensor<i32>
    StableHlo.unary main_c_34 main_v163 (broadcastInDim S850000 ![] bcast_S_S850000 : (⟨S_, .i32⟩ : BufTy).Contents (Elt F) → (⟨S850000, .i32⟩ : BufTy).Contents (Elt F)), -- %163 = stablehlo.broadcast_in_dim %c_34, dims = [] : (tensor<i32>) -> tensor<850000xi32>
    StableHlo.binary main_v146 main_v163 main_v164 (addi : (⟨S850000, .i32⟩ : BufTy).Contents (Elt F) → (⟨S850000, .i32⟩ : BufTy).Contents (Elt F) → (⟨S850000, .i32⟩ : BufTy).Contents (Elt F)), -- %164 = stablehlo.add %146, %163 : tensor<850000xi32>
    StableHlo.ternary main_v162 main_v164 main_v146 main_v165 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)), -- %165 = stablehlo.select %162, %164, %146 : tensor<850000xi1>, tensor<850000xi32>
    StableHlo.unary main_v165 main_v166 (broadcastInDim S850000x1 ![0] bcast_S850000_S850000x1_0 : (⟨S850000, .i32⟩ : BufTy).Contents (Elt F) → (⟨S850000x1, .i32⟩ : BufTy).Contents (Elt F)), -- %166 = stablehlo.broadcast_in_dim %165, dims = [0] : (tensor<850000xi32>) -> tensor<850000x1xi32>
    StableHlo.binary main_v153 main_v166 main_v167 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)), -- %167 = "stablehlo.gather"(%153, %166) <{dimension_numbers = #stablehlo.gather<collapsed_slice_dims = [0], start_index_map = [0], index_vector_dim = 1>, indices_are_sorted = false, slice_sizes = array<i64: 1>}> : (tensor<50000xf32>, tensor<850000x1xi32>) -> tensor<850000xf32>
    StableHlo.binary main_v160 main_v167 main_v168 (mulf : (⟨S850000, .f32⟩ : BufTy).Contents (Elt F) → (⟨S850000, .f32⟩ : BufTy).Contents (Elt F) → (⟨S850000, .f32⟩ : BufTy).Contents (Elt F)), -- %168 = stablehlo.multiply %160, %167 : tensor<850000xf32>
    StableHlo.unary main_v168 main_v169 (broadcastInDim S850000x1 ![0] bcast_S850000_S850000x1_0 : (⟨S850000, .f32⟩ : BufTy).Contents (Elt F) → (⟨S850000x1, .f32⟩ : BufTy).Contents (Elt F)), -- %169 = stablehlo.broadcast_in_dim %168, dims = [0] : (tensor<850000xf32>) -> tensor<850000x1xf32>
    StableHlo.nullary main_c_35 (constantI S_ 32 0#32), -- %c_35 = stablehlo.constant dense<0> : tensor<i32>
    StableHlo.unary main_c_35 main_v170 (broadcastInDim S850000 ![] bcast_S_S850000 : (⟨S_, .i32⟩ : BufTy).Contents (Elt F) → (⟨S850000, .i32⟩ : BufTy).Contents (Elt F)), -- %170 = stablehlo.broadcast_in_dim %c_35, dims = [] : (tensor<i32>) -> tensor<850000xi32>
    StableHlo.binary main_v145 main_v170 main_v171 (cmpi .slt : (⟨S850000, .i32⟩ : BufTy).Contents (Elt F) → (⟨S850000, .i32⟩ : BufTy).Contents (Elt F) → (⟨S850000, .i1⟩ : BufTy).Contents (Elt F)), -- %171 = stablehlo.compare LT, %145, %170, SIGNED : (tensor<850000xi32>, tensor<850000xi32>) -> tensor<850000xi1>
    StableHlo.nullary main_c_36 (constantI S_ 32 50000#32), -- %c_36 = stablehlo.constant dense<50000> : tensor<i32>
    StableHlo.unary main_c_36 main_v172 (broadcastInDim S850000 ![] bcast_S_S850000 : (⟨S_, .i32⟩ : BufTy).Contents (Elt F) → (⟨S850000, .i32⟩ : BufTy).Contents (Elt F)), -- %172 = stablehlo.broadcast_in_dim %c_36, dims = [] : (tensor<i32>) -> tensor<850000xi32>
    StableHlo.binary main_v145 main_v172 main_v173 (addi : (⟨S850000, .i32⟩ : BufTy).Contents (Elt F) → (⟨S850000, .i32⟩ : BufTy).Contents (Elt F) → (⟨S850000, .i32⟩ : BufTy).Contents (Elt F)), -- %173 = stablehlo.add %145, %172 : tensor<850000xi32>
    StableHlo.ternary main_v171 main_v173 main_v145 main_v174 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)), -- %174 = stablehlo.select %171, %173, %145 : tensor<850000xi1>, tensor<850000xi32>
    StableHlo.unary main_v174 main_v175 (broadcastInDim S850000x1 ![0] bcast_S850000_S850000x1_0 : (⟨S850000, .i32⟩ : BufTy).Contents (Elt F) → (⟨S850000x1, .i32⟩ : BufTy).Contents (Elt F)), -- %175 = stablehlo.broadcast_in_dim %174, dims = [0] : (tensor<850000xi32>) -> tensor<850000x1xi32>
    StableHlo.binary main_v143 main_v175 main_v176 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)), -- %176 = "stablehlo.gather"(%143, %175) <{dimension_numbers = #stablehlo.gather<offset_dims = [1], collapsed_slice_dims = [0], start_index_map = [0], index_vector_dim = 1>, indices_are_sorted = false, slice_sizes = array<i64: 1, 64>}> : (tensor<50000x64xf32>, tensor<850000x1xi32>) -> tensor<850000x64xf32>
    StableHlo.unary main_v169 main_v177 (broadcastInDim S850000x64 ![0, 1] bcast_S850000x1_S850000x64_0_1 : (⟨S850000x1, .f32⟩ : BufTy).Contents (Elt F) → (⟨S850000x64, .f32⟩ : BufTy).Contents (Elt F)), -- %177 = stablehlo.broadcast_in_dim %169, dims = [0, 1] : (tensor<850000x1xf32>) -> tensor<850000x64xf32>
    StableHlo.binary main_v176 main_v177 main_v178 (mulf : (⟨S850000x64, .f32⟩ : BufTy).Contents (Elt F) → (⟨S850000x64, .f32⟩ : BufTy).Contents (Elt F) → (⟨S850000x64, .f32⟩ : BufTy).Contents (Elt F)), -- %178 = stablehlo.multiply %176, %177 : tensor<850000x64xf32>
    StableHlo.nullary main_cst_37 (constant S_ .f32 0x00000000#32), -- %cst_37 = stablehlo.constant dense<0.000000e+00> : tensor<f32>
    StableHlo.unary main_cst_37 main_v179 (broadcastInDim S50000x64 ![] bcast_S_S50000x64 : (⟨S_, .f32⟩ : BufTy).Contents (Elt F) → (⟨S50000x64, .f32⟩ : BufTy).Contents (Elt F)), -- %179 = stablehlo.broadcast_in_dim %cst_37, dims = [] : (tensor<f32>) -> tensor<50000x64xf32>
    StableHlo.unary main_v146 main_v180 (broadcastInDim S850000x1 ![0] bcast_S850000_S850000x1_0 : (⟨S850000, .i32⟩ : BufTy).Contents (Elt F) → (⟨S850000x1, .i32⟩ : BufTy).Contents (Elt F)), -- %180 = stablehlo.broadcast_in_dim %146, dims = [0] : (tensor<850000xi32>) -> tensor<850000x1xi32>
    StableHlo.ternary main_v179 main_v180 main_v178 main_v181 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)), -- %181 = "stablehlo.scatter"(%179, %180, %178) <{indices_are_sorted = false, scatter_dimension_numbers = #stablehlo.scatter<update_window_dims = [1], inserted_window_dims = [0], scatter_dims_to_operand_dims = [0], index_vector_dim = 1>, unique_indices = false}> ( {
    StableHlo.unary main_v142 main_v182 (broadcastInDim S1x64 ![1] bcast_S64_S1x64_1 : (⟨S64, .f32⟩ : BufTy).Contents (Elt F) → (⟨S1x64, .f32⟩ : BufTy).Contents (Elt F)), -- %182 = stablehlo.broadcast_in_dim %142, dims = [1] : (tensor<64xf32>) -> tensor<1x64xf32>
    StableHlo.unary main_v182 main_v183 (broadcastInDim S50000x64 ![0, 1] bcast_S1x64_S50000x64_0_1 : (⟨S1x64, .f32⟩ : BufTy).Contents (Elt F) → (⟨S50000x64, .f32⟩ : BufTy).Contents (Elt F)), -- %183 = stablehlo.broadcast_in_dim %182, dims = [0, 1] : (tensor<1x64xf32>) -> tensor<50000x64xf32>
    StableHlo.binary main_v181 main_v183 main_v184 (addf : (⟨S50000x64, .f32⟩ : BufTy).Contents (Elt F) → (⟨S50000x64, .f32⟩ : BufTy).Contents (Elt F) → (⟨S50000x64, .f32⟩ : BufTy).Contents (Elt F)), -- %184 = stablehlo.add %181, %183 : tensor<50000x64xf32>
    StableHlo.TRef.nullary main_call3.cst (constant S_ .f32 0x00000000#32), -- @relu (main_call3): %cst = stablehlo.constant dense<0.000000e+00> : tensor<f32>
    StableHlo.TRef.unary main_call3.cst main_call3.v0 (broadcastInDim S50000x64 ![] bcast_S_S50000x64), -- @relu (main_call3): %0 = stablehlo.broadcast_in_dim %cst, dims = [] : (tensor<f32>) -> tensor<50000x64xf32>
    StableHlo.TRef.binary (.of main_v184 : StableHlo.TRef sig ⟨S50000x64, .f32⟩) main_call3.v0 main_call3.v1 maximumf, -- @relu (main_call3): %1 = stablehlo.maximum %arg0, %0 : tensor<50000x64xf32>
    StableHlo.unary main_arg7 main_v186 ((extractStridedSlice S1x64x64 ![1, 0, 0] · slices_S4x64x64_S1x64x64_1_0_0) : (⟨S4x64x64, .f32⟩ : BufTy).Contents (Elt F) → (⟨S1x64x64, .f32⟩ : BufTy).Contents (Elt F)), -- %186 = stablehlo.slice %arg7 [1:2, 0:64, 0:64] : (tensor<4x64x64xf32>) -> tensor<1x64x64xf32>
    StableHlo.reshape main_v186 main_v187 rfl shapeCasts_S1x64x64_S64x64, -- %187 = stablehlo.reshape %186 : (tensor<1x64x64xf32>) -> tensor<64x64xf32>
    StableHlo.unary main_arg8 main_v188 ((extractStridedSlice S1x64 ![1, 0] · slices_S4x64_S1x64_1_0) : (⟨S4x64, .f32⟩ : BufTy).Contents (Elt F) → (⟨S1x64, .f32⟩ : BufTy).Contents (Elt F)), -- %188 = stablehlo.slice %arg8 [1:2, 0:64] : (tensor<4x64xf32>) -> tensor<1x64xf32>
    StableHlo.reshape main_v188 main_v189 rfl shapeCasts_S1x64_S64, -- %189 = stablehlo.reshape %188 : (tensor<1x64xf32>) -> tensor<64xf32>
    StableHlo.binary main_v138 main_v187 main_v190 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)), -- %190 = stablehlo.dot_general %138, %187, contracting_dims = [1] x [0], precision = [DEFAULT, DEFAULT] : (tensor<50000x64xf32>, tensor<64x64xf32>) -> tensor<50000x64xf32>
    StableHlo.nullary main_v191 (iotaInDim S50000 32 0), -- %191 = stablehlo.iota dim = 0 : tensor<50000xi32>
    StableHlo.binary main_v1 main_v191 main_v192 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)), -- %192 = stablehlo.concatenate %1, %191, dim = 0 : (tensor<800000xi32>, tensor<50000xi32>) -> tensor<850000xi32>
    StableHlo.binary main_v3 main_v191 main_v193 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)), -- %193 = stablehlo.concatenate %3, %191, dim = 0 : (tensor<800000xi32>, tensor<50000xi32>) -> tensor<850000xi32>
    StableHlo.nullary main_cst_38 (constant S_ .f32 0x3F800000#32), -- %cst_38 = stablehlo.constant dense<1.000000e+00> : tensor<f32>
    StableHlo.unary main_cst_38 main_v194 (broadcastInDim S850000 ![] bcast_S_S850000 : (⟨S_, .f32⟩ : BufTy).Contents (Elt F) → (⟨S850000, .f32⟩ : BufTy).Contents (Elt F)), -- %194 = stablehlo.broadcast_in_dim %cst_38, dims = [] : (tensor<f32>) -> tensor<850000xf32>
    StableHlo.nullary main_cst_39 (constant S_ .f32 0x00000000#32), -- %cst_39 = stablehlo.constant dense<0.000000e+00> : tensor<f32>
    StableHlo.unary main_cst_39 main_v195 (broadcastInDim S50000 ![] bcast_S_S50000 : (⟨S_, .f32⟩ : BufTy).Contents (Elt F) → (⟨S50000, .f32⟩ : BufTy).Contents (Elt F)), -- %195 = stablehlo.broadcast_in_dim %cst_39, dims = [] : (tensor<f32>) -> tensor<50000xf32>
    StableHlo.unary main_v193 main_v196 (broadcastInDim S850000x1 ![0] bcast_S850000_S850000x1_0 : (⟨S850000, .i32⟩ : BufTy).Contents (Elt F) → (⟨S850000x1, .i32⟩ : BufTy).Contents (Elt F)), -- %196 = stablehlo.broadcast_in_dim %193, dims = [0] : (tensor<850000xi32>) -> tensor<850000x1xi32>
    StableHlo.ternary main_v195 main_v196 main_v194 main_v197 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)) ] -- %197 = "stablehlo.scatter"(%195, %196, %194) <{indices_are_sorted = false, scatter_dimension_numbers = #stablehlo.scatter<inserted_window_dims = [0], scatter_dims_to_operand_dims = [0], index_vector_dim = 1>, unique_indices = false}> ( {

/-- Every buffer these operations touch is a TensorCore reference. -/
theorem opsSeg05_sub : (opsSeg05 : List (HloOp τ sig (Elt F))).Forall fun op => op.bufs ⊆ StableHlo.tcRefs τ sig :=
  ⟨StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.binary_bufs_sub .., StableHlo.nullary_bufs_sub .., StableHlo.binary_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub ..⟩

/-- Each of these operations determines its results. -/
theorem opsSeg05_fresh : (opsSeg05 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers these operations write, in order. -/
abbrev opsSeg05_W : List (Ref sig .tc) :=
  [main_v148, main_v149, main_v150, main_cst_30, main_v151, main_v152, main_v153, main_c_31, main_v154, main_v155, main_c_32, main_v156, main_v157, main_v158, main_v159, main_v160, main_c_33, main_v161, main_v162, main_c_34, main_v163, main_v164, main_v165, main_v166, main_v167, main_v168, main_v169, main_c_35, main_v170, main_v171, main_c_36, main_v172, main_v173, main_v174, main_v175, main_v176, main_v177, main_v178, main_cst_37, main_v179, main_v180, main_v181, main_v182, main_v183, main_v184, main_call3.cst.ref, main_call3.v0.ref, main_call3.v1.ref, main_v186, main_v187, main_v188, main_v189, main_v190, main_v191, main_v192, main_v193, main_cst_38, main_v194, main_cst_39, main_v195, main_v196, main_v197]

/-- Each operation writes only its own result buffer, which is in the list. -/
theorem opsSeg05_writes : (opsSeg05 : List (HloOp τ sig (Elt F))).Forall fun op =>
    op.writes ⊆ (opsSeg05_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer none of these operations writes keeps its contents through them. -/
theorem opsSeg05_keep (V : Valuation τ sig (Elt F)) (r : Ref sig .tc) (h : r ∉ opsSeg05_W) :
    StableHlo.after (opsSeg05 (F := F)) V (Proc.devRef .tc r) = V (Proc.devRef .tc r) :=
  StableHlo.after_of_writes_sub opsSeg05 V opsSeg05_writes h

/-- The reference's operations 249 … 310 of 852, in order; an outlined function's operations stand at its call, over that call's buffers. -/
abbrev opsSeg06 : List (HloOp τ sig (Elt F)) :=
  [ StableHlo.nullary main_cst_40 (constant S_ .f32 0x3F800000#32), -- %cst_40 = stablehlo.constant dense<1.000000e+00> : tensor<f32>
    StableHlo.unary main_cst_40 main_v198 (broadcastInDim S50000 ![] bcast_S_S50000 : (⟨S_, .f32⟩ : BufTy).Contents (Elt F) → (⟨S50000, .f32⟩ : BufTy).Contents (Elt F)), -- %198 = stablehlo.broadcast_in_dim %cst_40, dims = [] : (tensor<f32>) -> tensor<50000xf32>
    StableHlo.binary main_v197 main_v198 main_v199 (maximumf : (⟨S50000, .f32⟩ : BufTy).Contents (Elt F) → (⟨S50000, .f32⟩ : BufTy).Contents (Elt F) → (⟨S50000, .f32⟩ : BufTy).Contents (Elt F)), -- %199 = stablehlo.maximum %197, %198 : tensor<50000xf32>
    StableHlo.unary main_v199 main_v200 (Host.rsqrt : (⟨S50000, .f32⟩ : BufTy).Contents (Elt F) → (⟨S50000, .f32⟩ : BufTy).Contents (Elt F)), -- %200 = stablehlo.rsqrt %199 : tensor<50000xf32>
    StableHlo.nullary main_c_41 (constantI S_ 32 0#32), -- %c_41 = stablehlo.constant dense<0> : tensor<i32>
    StableHlo.unary main_c_41 main_v201 (broadcastInDim S850000 ![] bcast_S_S850000 : (⟨S_, .i32⟩ : BufTy).Contents (Elt F) → (⟨S850000, .i32⟩ : BufTy).Contents (Elt F)), -- %201 = stablehlo.broadcast_in_dim %c_41, dims = [] : (tensor<i32>) -> tensor<850000xi32>
    StableHlo.binary main_v192 main_v201 main_v202 (cmpi .slt : (⟨S850000, .i32⟩ : BufTy).Contents (Elt F) → (⟨S850000, .i32⟩ : BufTy).Contents (Elt F) → (⟨S850000, .i1⟩ : BufTy).Contents (Elt F)), -- %202 = stablehlo.compare LT, %192, %201, SIGNED : (tensor<850000xi32>, tensor<850000xi32>) -> tensor<850000xi1>
    StableHlo.nullary main_c_42 (constantI S_ 32 50000#32), -- %c_42 = stablehlo.constant dense<50000> : tensor<i32>
    StableHlo.unary main_c_42 main_v203 (broadcastInDim S850000 ![] bcast_S_S850000 : (⟨S_, .i32⟩ : BufTy).Contents (Elt F) → (⟨S850000, .i32⟩ : BufTy).Contents (Elt F)), -- %203 = stablehlo.broadcast_in_dim %c_42, dims = [] : (tensor<i32>) -> tensor<850000xi32>
    StableHlo.binary main_v192 main_v203 main_v204 (addi : (⟨S850000, .i32⟩ : BufTy).Contents (Elt F) → (⟨S850000, .i32⟩ : BufTy).Contents (Elt F) → (⟨S850000, .i32⟩ : BufTy).Contents (Elt F)), -- %204 = stablehlo.add %192, %203 : tensor<850000xi32>
    StableHlo.ternary main_v202 main_v204 main_v192 main_v205 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)), -- %205 = stablehlo.select %202, %204, %192 : tensor<850000xi1>, tensor<850000xi32>
    StableHlo.unary main_v205 main_v206 (broadcastInDim S850000x1 ![0] bcast_S850000_S850000x1_0 : (⟨S850000, .i32⟩ : BufTy).Contents (Elt F) → (⟨S850000x1, .i32⟩ : BufTy).Contents (Elt F)), -- %206 = stablehlo.broadcast_in_dim %205, dims = [0] : (tensor<850000xi32>) -> tensor<850000x1xi32>
    StableHlo.binary main_v200 main_v206 main_v207 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)), -- %207 = "stablehlo.gather"(%200, %206) <{dimension_numbers = #stablehlo.gather<collapsed_slice_dims = [0], start_index_map = [0], index_vector_dim = 1>, indices_are_sorted = false, slice_sizes = array<i64: 1>}> : (tensor<50000xf32>, tensor<850000x1xi32>) -> tensor<850000xf32>
    StableHlo.nullary main_c_43 (constantI S_ 32 0#32), -- %c_43 = stablehlo.constant dense<0> : tensor<i32>
    StableHlo.unary main_c_43 main_v208 (broadcastInDim S850000 ![] bcast_S_S850000 : (⟨S_, .i32⟩ : BufTy).Contents (Elt F) → (⟨S850000, .i32⟩ : BufTy).Contents (Elt F)), -- %208 = stablehlo.broadcast_in_dim %c_43, dims = [] : (tensor<i32>) -> tensor<850000xi32>
    StableHlo.binary main_v193 main_v208 main_v209 (cmpi .slt : (⟨S850000, .i32⟩ : BufTy).Contents (Elt F) → (⟨S850000, .i32⟩ : BufTy).Contents (Elt F) → (⟨S850000, .i1⟩ : BufTy).Contents (Elt F)), -- %209 = stablehlo.compare LT, %193, %208, SIGNED : (tensor<850000xi32>, tensor<850000xi32>) -> tensor<850000xi1>
    StableHlo.nullary main_c_44 (constantI S_ 32 50000#32), -- %c_44 = stablehlo.constant dense<50000> : tensor<i32>
    StableHlo.unary main_c_44 main_v210 (broadcastInDim S850000 ![] bcast_S_S850000 : (⟨S_, .i32⟩ : BufTy).Contents (Elt F) → (⟨S850000, .i32⟩ : BufTy).Contents (Elt F)), -- %210 = stablehlo.broadcast_in_dim %c_44, dims = [] : (tensor<i32>) -> tensor<850000xi32>
    StableHlo.binary main_v193 main_v210 main_v211 (addi : (⟨S850000, .i32⟩ : BufTy).Contents (Elt F) → (⟨S850000, .i32⟩ : BufTy).Contents (Elt F) → (⟨S850000, .i32⟩ : BufTy).Contents (Elt F)), -- %211 = stablehlo.add %193, %210 : tensor<850000xi32>
    StableHlo.ternary main_v209 main_v211 main_v193 main_v212 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)), -- %212 = stablehlo.select %209, %211, %193 : tensor<850000xi1>, tensor<850000xi32>
    StableHlo.unary main_v212 main_v213 (broadcastInDim S850000x1 ![0] bcast_S850000_S850000x1_0 : (⟨S850000, .i32⟩ : BufTy).Contents (Elt F) → (⟨S850000x1, .i32⟩ : BufTy).Contents (Elt F)), -- %213 = stablehlo.broadcast_in_dim %212, dims = [0] : (tensor<850000xi32>) -> tensor<850000x1xi32>
    StableHlo.binary main_v200 main_v213 main_v214 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)), -- %214 = "stablehlo.gather"(%200, %213) <{dimension_numbers = #stablehlo.gather<collapsed_slice_dims = [0], start_index_map = [0], index_vector_dim = 1>, indices_are_sorted = false, slice_sizes = array<i64: 1>}> : (tensor<50000xf32>, tensor<850000x1xi32>) -> tensor<850000xf32>
    StableHlo.binary main_v207 main_v214 main_v215 (mulf : (⟨S850000, .f32⟩ : BufTy).Contents (Elt F) → (⟨S850000, .f32⟩ : BufTy).Contents (Elt F) → (⟨S850000, .f32⟩ : BufTy).Contents (Elt F)), -- %215 = stablehlo.multiply %207, %214 : tensor<850000xf32>
    StableHlo.unary main_v215 main_v216 (broadcastInDim S850000x1 ![0] bcast_S850000_S850000x1_0 : (⟨S850000, .f32⟩ : BufTy).Contents (Elt F) → (⟨S850000x1, .f32⟩ : BufTy).Contents (Elt F)), -- %216 = stablehlo.broadcast_in_dim %215, dims = [0] : (tensor<850000xf32>) -> tensor<850000x1xf32>
    StableHlo.nullary main_c_45 (constantI S_ 32 0#32), -- %c_45 = stablehlo.constant dense<0> : tensor<i32>
    StableHlo.unary main_c_45 main_v217 (broadcastInDim S850000 ![] bcast_S_S850000 : (⟨S_, .i32⟩ : BufTy).Contents (Elt F) → (⟨S850000, .i32⟩ : BufTy).Contents (Elt F)), -- %217 = stablehlo.broadcast_in_dim %c_45, dims = [] : (tensor<i32>) -> tensor<850000xi32>
    StableHlo.binary main_v192 main_v217 main_v218 (cmpi .slt : (⟨S850000, .i32⟩ : BufTy).Contents (Elt F) → (⟨S850000, .i32⟩ : BufTy).Contents (Elt F) → (⟨S850000, .i1⟩ : BufTy).Contents (Elt F)), -- %218 = stablehlo.compare LT, %192, %217, SIGNED : (tensor<850000xi32>, tensor<850000xi32>) -> tensor<850000xi1>
    StableHlo.nullary main_c_46 (constantI S_ 32 50000#32), -- %c_46 = stablehlo.constant dense<50000> : tensor<i32>
    StableHlo.unary main_c_46 main_v219 (broadcastInDim S850000 ![] bcast_S_S850000 : (⟨S_, .i32⟩ : BufTy).Contents (Elt F) → (⟨S850000, .i32⟩ : BufTy).Contents (Elt F)), -- %219 = stablehlo.broadcast_in_dim %c_46, dims = [] : (tensor<i32>) -> tensor<850000xi32>
    StableHlo.binary main_v192 main_v219 main_v220 (addi : (⟨S850000, .i32⟩ : BufTy).Contents (Elt F) → (⟨S850000, .i32⟩ : BufTy).Contents (Elt F) → (⟨S850000, .i32⟩ : BufTy).Contents (Elt F)), -- %220 = stablehlo.add %192, %219 : tensor<850000xi32>
    StableHlo.ternary main_v218 main_v220 main_v192 main_v221 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)), -- %221 = stablehlo.select %218, %220, %192 : tensor<850000xi1>, tensor<850000xi32>
    StableHlo.unary main_v221 main_v222 (broadcastInDim S850000x1 ![0] bcast_S850000_S850000x1_0 : (⟨S850000, .i32⟩ : BufTy).Contents (Elt F) → (⟨S850000x1, .i32⟩ : BufTy).Contents (Elt F)), -- %222 = stablehlo.broadcast_in_dim %221, dims = [0] : (tensor<850000xi32>) -> tensor<850000x1xi32>
    StableHlo.binary main_v190 main_v222 main_v223 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)), -- %223 = "stablehlo.gather"(%190, %222) <{dimension_numbers = #stablehlo.gather<offset_dims = [1], collapsed_slice_dims = [0], start_index_map = [0], index_vector_dim = 1>, indices_are_sorted = false, slice_sizes = array<i64: 1, 64>}> : (tensor<50000x64xf32>, tensor<850000x1xi32>) -> tensor<850000x64xf32>
    StableHlo.unary main_v216 main_v224 (broadcastInDim S850000x64 ![0, 1] bcast_S850000x1_S850000x64_0_1 : (⟨S850000x1, .f32⟩ : BufTy).Contents (Elt F) → (⟨S850000x64, .f32⟩ : BufTy).Contents (Elt F)), -- %224 = stablehlo.broadcast_in_dim %216, dims = [0, 1] : (tensor<850000x1xf32>) -> tensor<850000x64xf32>
    StableHlo.binary main_v223 main_v224 main_v225 (mulf : (⟨S850000x64, .f32⟩ : BufTy).Contents (Elt F) → (⟨S850000x64, .f32⟩ : BufTy).Contents (Elt F) → (⟨S850000x64, .f32⟩ : BufTy).Contents (Elt F)), -- %225 = stablehlo.multiply %223, %224 : tensor<850000x64xf32>
    StableHlo.nullary main_cst_47 (constant S_ .f32 0x00000000#32), -- %cst_47 = stablehlo.constant dense<0.000000e+00> : tensor<f32>
    StableHlo.unary main_cst_47 main_v226 (broadcastInDim S50000x64 ![] bcast_S_S50000x64 : (⟨S_, .f32⟩ : BufTy).Contents (Elt F) → (⟨S50000x64, .f32⟩ : BufTy).Contents (Elt F)), -- %226 = stablehlo.broadcast_in_dim %cst_47, dims = [] : (tensor<f32>) -> tensor<50000x64xf32>
    StableHlo.unary main_v193 main_v227 (broadcastInDim S850000x1 ![0] bcast_S850000_S850000x1_0 : (⟨S850000, .i32⟩ : BufTy).Contents (Elt F) → (⟨S850000x1, .i32⟩ : BufTy).Contents (Elt F)), -- %227 = stablehlo.broadcast_in_dim %193, dims = [0] : (tensor<850000xi32>) -> tensor<850000x1xi32>
    StableHlo.ternary main_v226 main_v227 main_v225 main_v228 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)), -- %228 = "stablehlo.scatter"(%226, %227, %225) <{indices_are_sorted = false, scatter_dimension_numbers = #stablehlo.scatter<update_window_dims = [1], inserted_window_dims = [0], scatter_dims_to_operand_dims = [0], index_vector_dim = 1>, unique_indices = false}> ( {
    StableHlo.unary main_v189 main_v229 (broadcastInDim S1x64 ![1] bcast_S64_S1x64_1 : (⟨S64, .f32⟩ : BufTy).Contents (Elt F) → (⟨S1x64, .f32⟩ : BufTy).Contents (Elt F)), -- %229 = stablehlo.broadcast_in_dim %189, dims = [1] : (tensor<64xf32>) -> tensor<1x64xf32>
    StableHlo.unary main_v229 main_v230 (broadcastInDim S50000x64 ![0, 1] bcast_S1x64_S50000x64_0_1 : (⟨S1x64, .f32⟩ : BufTy).Contents (Elt F) → (⟨S50000x64, .f32⟩ : BufTy).Contents (Elt F)), -- %230 = stablehlo.broadcast_in_dim %229, dims = [0, 1] : (tensor<1x64xf32>) -> tensor<50000x64xf32>
    StableHlo.binary main_v228 main_v230 main_v231 (addf : (⟨S50000x64, .f32⟩ : BufTy).Contents (Elt F) → (⟨S50000x64, .f32⟩ : BufTy).Contents (Elt F) → (⟨S50000x64, .f32⟩ : BufTy).Contents (Elt F)), -- %231 = stablehlo.add %228, %230 : tensor<50000x64xf32>
    StableHlo.TRef.nullary main_call4.cst (constant S_ .f32 0x00000000#32), -- @relu (main_call4): %cst = stablehlo.constant dense<0.000000e+00> : tensor<f32>
    StableHlo.TRef.unary main_call4.cst main_call4.v0 (broadcastInDim S50000x64 ![] bcast_S_S50000x64), -- @relu (main_call4): %0 = stablehlo.broadcast_in_dim %cst, dims = [] : (tensor<f32>) -> tensor<50000x64xf32>
    StableHlo.TRef.binary (.of main_v231 : StableHlo.TRef sig ⟨S50000x64, .f32⟩) main_call4.v0 main_call4.v1 maximumf, -- @relu (main_call4): %1 = stablehlo.maximum %arg0, %0 : tensor<50000x64xf32>
    StableHlo.nullary main_c_48 (constantI S_ 32 0#32), -- %c_48 = stablehlo.constant dense<0> : tensor<i32>
    StableHlo.unary main_c_48 main_v233 (broadcastInDim S800000 ![] bcast_S_S800000 : (⟨S_, .i32⟩ : BufTy).Contents (Elt F) → (⟨S800000, .i32⟩ : BufTy).Contents (Elt F)), -- %233 = stablehlo.broadcast_in_dim %c_48, dims = [] : (tensor<i32>) -> tensor<800000xi32>
    StableHlo.binary main_v1 main_v233 main_v234 (cmpi .slt : (⟨S800000, .i32⟩ : BufTy).Contents (Elt F) → (⟨S800000, .i32⟩ : BufTy).Contents (Elt F) → (⟨S800000, .i1⟩ : BufTy).Contents (Elt F)), -- %234 = stablehlo.compare LT, %1, %233, SIGNED : (tensor<800000xi32>, tensor<800000xi32>) -> tensor<800000xi1>
    StableHlo.nullary main_c_49 (constantI S_ 32 50000#32), -- %c_49 = stablehlo.constant dense<50000> : tensor<i32>
    StableHlo.unary main_c_49 main_v235 (broadcastInDim S800000 ![] bcast_S_S800000 : (⟨S_, .i32⟩ : BufTy).Contents (Elt F) → (⟨S800000, .i32⟩ : BufTy).Contents (Elt F)), -- %235 = stablehlo.broadcast_in_dim %c_49, dims = [] : (tensor<i32>) -> tensor<800000xi32>
    StableHlo.binary main_v1 main_v235 main_v236 (addi : (⟨S800000, .i32⟩ : BufTy).Contents (Elt F) → (⟨S800000, .i32⟩ : BufTy).Contents (Elt F) → (⟨S800000, .i32⟩ : BufTy).Contents (Elt F)), -- %236 = stablehlo.add %1, %235 : tensor<800000xi32>
    StableHlo.ternary main_v234 main_v236 main_v1 main_v237 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)), -- %237 = stablehlo.select %234, %236, %1 : tensor<800000xi1>, tensor<800000xi32>
    StableHlo.unary main_v237 main_v238 (broadcastInDim S800000x1 ![0] bcast_S800000_S800000x1_0 : (⟨S800000, .i32⟩ : BufTy).Contents (Elt F) → (⟨S800000x1, .i32⟩ : BufTy).Contents (Elt F)), -- %238 = stablehlo.broadcast_in_dim %237, dims = [0] : (tensor<800000xi32>) -> tensor<800000x1xi32>
    StableHlo.binary main_v232 main_v238 main_v239 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)), -- %239 = "stablehlo.gather"(%232, %238) <{dimension_numbers = #stablehlo.gather<offset_dims = [1], collapsed_slice_dims = [0], start_index_map = [0], index_vector_dim = 1>, indices_are_sorted = false, slice_sizes = array<i64: 1, 64>}> : (tensor<50000x64xf32>, tensor<800000x1xi32>) -> tensor<800000x64xf32>
    StableHlo.nullary main_c_50 (constantI S_ 32 0#32), -- %c_50 = stablehlo.constant dense<0> : tensor<i32>
    StableHlo.unary main_c_50 main_v240 (broadcastInDim S800000 ![] bcast_S_S800000 : (⟨S_, .i32⟩ : BufTy).Contents (Elt F) → (⟨S800000, .i32⟩ : BufTy).Contents (Elt F)), -- %240 = stablehlo.broadcast_in_dim %c_50, dims = [] : (tensor<i32>) -> tensor<800000xi32>
    StableHlo.binary main_v3 main_v240 main_v241 (cmpi .slt : (⟨S800000, .i32⟩ : BufTy).Contents (Elt F) → (⟨S800000, .i32⟩ : BufTy).Contents (Elt F) → (⟨S800000, .i1⟩ : BufTy).Contents (Elt F)), -- %241 = stablehlo.compare LT, %3, %240, SIGNED : (tensor<800000xi32>, tensor<800000xi32>) -> tensor<800000xi1>
    StableHlo.nullary main_c_51 (constantI S_ 32 50000#32), -- %c_51 = stablehlo.constant dense<50000> : tensor<i32>
    StableHlo.unary main_c_51 main_v242 (broadcastInDim S800000 ![] bcast_S_S800000 : (⟨S_, .i32⟩ : BufTy).Contents (Elt F) → (⟨S800000, .i32⟩ : BufTy).Contents (Elt F)), -- %242 = stablehlo.broadcast_in_dim %c_51, dims = [] : (tensor<i32>) -> tensor<800000xi32>
    StableHlo.binary main_v3 main_v242 main_v243 (addi : (⟨S800000, .i32⟩ : BufTy).Contents (Elt F) → (⟨S800000, .i32⟩ : BufTy).Contents (Elt F) → (⟨S800000, .i32⟩ : BufTy).Contents (Elt F)), -- %243 = stablehlo.add %3, %242 : tensor<800000xi32>
    StableHlo.ternary main_v241 main_v243 main_v3 main_v244 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)), -- %244 = stablehlo.select %241, %243, %3 : tensor<800000xi1>, tensor<800000xi32>
    StableHlo.unary main_v244 main_v245 (broadcastInDim S800000x1 ![0] bcast_S800000_S800000x1_0 : (⟨S800000, .i32⟩ : BufTy).Contents (Elt F) → (⟨S800000x1, .i32⟩ : BufTy).Contents (Elt F)) ] -- %245 = stablehlo.broadcast_in_dim %244, dims = [0] : (tensor<800000xi32>) -> tensor<800000x1xi32>

/-- Every buffer these operations touch is a TensorCore reference. -/
theorem opsSeg06_sub : (opsSeg06 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub ..⟩

/-- Each of these operations determines its results. -/
theorem opsSeg06_fresh : (opsSeg06 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers these operations write, in order. -/
abbrev opsSeg06_W : List (Ref sig .tc) :=
  [main_cst_40, main_v198, main_v199, main_v200, main_c_41, main_v201, main_v202, main_c_42, main_v203, main_v204, main_v205, main_v206, main_v207, main_c_43, main_v208, main_v209, main_c_44, main_v210, main_v211, main_v212, main_v213, main_v214, main_v215, main_v216, main_c_45, main_v217, main_v218, main_c_46, main_v219, main_v220, main_v221, main_v222, main_v223, main_v224, main_v225, main_cst_47, main_v226, main_v227, main_v228, main_v229, main_v230, main_v231, main_call4.cst.ref, main_call4.v0.ref, main_call4.v1.ref, main_c_48, main_v233, main_v234, main_c_49, main_v235, main_v236, main_v237, main_v238, main_v239, main_c_50, main_v240, main_v241, main_c_51, main_v242, main_v243, main_v244, main_v245]

/-- Each operation writes only its own result buffer, which is in the list. -/
theorem opsSeg06_writes : (opsSeg06 : List (HloOp τ sig (Elt F))).Forall fun op =>
    op.writes ⊆ (opsSeg06_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer none of these operations writes keeps its contents through them. -/
theorem opsSeg06_keep (V : Valuation τ sig (Elt F)) (r : Ref sig .tc) (h : r ∉ opsSeg06_W) :
    StableHlo.after (opsSeg06 (F := F)) V (Proc.devRef .tc r) = V (Proc.devRef .tc r) :=
  StableHlo.after_of_writes_sub opsSeg06 V opsSeg06_writes h

/-- The reference's operations 311 … 339 of 852, in order; an outlined function's operations stand at its call, over that call's buffers. -/
abbrev opsSeg07 : List (HloOp τ sig (Elt F)) :=
  [ StableHlo.binary main_v232 main_v245 main_v246 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)), -- %246 = "stablehlo.gather"(%232, %245) <{dimension_numbers = #stablehlo.gather<offset_dims = [1], collapsed_slice_dims = [0], start_index_map = [0], index_vector_dim = 1>, indices_are_sorted = false, slice_sizes = array<i64: 1, 64>}> : (tensor<50000x64xf32>, tensor<800000x1xi32>) -> tensor<800000x64xf32>
    StableHlo.binary main_v239 main_v246 main_v247 (subf : (⟨S800000x64, .f32⟩ : BufTy).Contents (Elt F) → (⟨S800000x64, .f32⟩ : BufTy).Contents (Elt F) → (⟨S800000x64, .f32⟩ : BufTy).Contents (Elt F)), -- %247 = stablehlo.subtract %239, %246 : tensor<800000x64xf32>
    StableHlo.unary main_v247 main_v248 (Host.absf : (⟨S800000x64, .f32⟩ : BufTy).Contents (Elt F) → (⟨S800000x64, .f32⟩ : BufTy).Contents (Elt F)), -- %248 = stablehlo.abs %247 : tensor<800000x64xf32>
    StableHlo.nullary main_cst_52 (constant S_ .f32 0x40000000#32), -- %cst_52 = stablehlo.constant dense<2.000000e+00> : tensor<f32>
    StableHlo.unary main_cst_52 main_v249 (broadcastInDim S800000x64 ![] bcast_S_S800000x64 : (⟨S_, .f32⟩ : BufTy).Contents (Elt F) → (⟨S800000x64, .f32⟩ : BufTy).Contents (Elt F)), -- %249 = stablehlo.broadcast_in_dim %cst_52, dims = [] : (tensor<f32>) -> tensor<800000x64xf32>
    StableHlo.binary main_v248 main_v249 main_v250 (Host.powf : (⟨S800000x64, .f32⟩ : BufTy).Contents (Elt F) → (⟨S800000x64, .f32⟩ : BufTy).Contents (Elt F) → (⟨S800000x64, .f32⟩ : BufTy).Contents (Elt F)), -- %250 = stablehlo.power %248, %249 : tensor<800000x64xf32>
    StableHlo.nullary main_cst_53 (constant S_ .f32 0x00000000#32), -- %cst_53 = stablehlo.constant dense<0.000000e+00> : tensor<f32>
    StableHlo.unary main_cst_53 main_v251 (broadcastInDim S50000x64 ![] bcast_S_S50000x64 : (⟨S_, .f32⟩ : BufTy).Contents (Elt F) → (⟨S50000x64, .f32⟩ : BufTy).Contents (Elt F)), -- %251 = stablehlo.broadcast_in_dim %cst_53, dims = [] : (tensor<f32>) -> tensor<50000x64xf32>
    StableHlo.unary main_v1 main_v252 (broadcastInDim S800000x1 ![0] bcast_S800000_S800000x1_0 : (⟨S800000, .i32⟩ : BufTy).Contents (Elt F) → (⟨S800000x1, .i32⟩ : BufTy).Contents (Elt F)), -- %252 = stablehlo.broadcast_in_dim %1, dims = [0] : (tensor<800000xi32>) -> tensor<800000x1xi32>
    StableHlo.ternary main_v251 main_v252 main_v250 main_v253 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)), -- %253 = "stablehlo.scatter"(%251, %252, %250) <{indices_are_sorted = false, scatter_dimension_numbers = #stablehlo.scatter<update_window_dims = [1], inserted_window_dims = [0], scatter_dims_to_operand_dims = [0], index_vector_dim = 1>, unique_indices = false}> ( {
    StableHlo.nullary main_cst_54 (constant S_ .f32 0x3F800000#32), -- %cst_54 = stablehlo.constant dense<1.000000e+00> : tensor<f32>
    StableHlo.unary main_cst_54 main_v254 (broadcastInDim S800000 ![] bcast_S_S800000 : (⟨S_, .f32⟩ : BufTy).Contents (Elt F) → (⟨S800000, .f32⟩ : BufTy).Contents (Elt F)), -- %254 = stablehlo.broadcast_in_dim %cst_54, dims = [] : (tensor<f32>) -> tensor<800000xf32>
    StableHlo.nullary main_cst_55 (constant S_ .f32 0x00000000#32), -- %cst_55 = stablehlo.constant dense<0.000000e+00> : tensor<f32>
    StableHlo.unary main_cst_55 main_v255 (broadcastInDim S50000 ![] bcast_S_S50000 : (⟨S_, .f32⟩ : BufTy).Contents (Elt F) → (⟨S50000, .f32⟩ : BufTy).Contents (Elt F)), -- %255 = stablehlo.broadcast_in_dim %cst_55, dims = [] : (tensor<f32>) -> tensor<50000xf32>
    StableHlo.unary main_v1 main_v256 (broadcastInDim S800000x1 ![0] bcast_S800000_S800000x1_0 : (⟨S800000, .i32⟩ : BufTy).Contents (Elt F) → (⟨S800000x1, .i32⟩ : BufTy).Contents (Elt F)), -- %256 = stablehlo.broadcast_in_dim %1, dims = [0] : (tensor<800000xi32>) -> tensor<800000x1xi32>
    StableHlo.ternary main_v255 main_v256 main_v254 main_v257 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)), -- %257 = "stablehlo.scatter"(%255, %256, %254) <{indices_are_sorted = false, scatter_dimension_numbers = #stablehlo.scatter<inserted_window_dims = [0], scatter_dims_to_operand_dims = [0], index_vector_dim = 1>, unique_indices = false}> ( {
    StableHlo.nullary main_cst_56 (constant S_ .f32 0x3F800000#32), -- %cst_56 = stablehlo.constant dense<1.000000e+00> : tensor<f32>
    StableHlo.unary main_cst_56 main_v258 (broadcastInDim S50000 ![] bcast_S_S50000 : (⟨S_, .f32⟩ : BufTy).Contents (Elt F) → (⟨S50000, .f32⟩ : BufTy).Contents (Elt F)), -- %258 = stablehlo.broadcast_in_dim %cst_56, dims = [] : (tensor<f32>) -> tensor<50000xf32>
    StableHlo.binary main_v257 main_v258 main_v259 (maximumf : (⟨S50000, .f32⟩ : BufTy).Contents (Elt F) → (⟨S50000, .f32⟩ : BufTy).Contents (Elt F) → (⟨S50000, .f32⟩ : BufTy).Contents (Elt F)), -- %259 = stablehlo.maximum %257, %258 : tensor<50000xf32>
    StableHlo.unary main_v259 main_v260 (broadcastInDim S50000x1 ![0] bcast_S50000_S50000x1_0 : (⟨S50000, .f32⟩ : BufTy).Contents (Elt F) → (⟨S50000x1, .f32⟩ : BufTy).Contents (Elt F)), -- %260 = stablehlo.broadcast_in_dim %259, dims = [0] : (tensor<50000xf32>) -> tensor<50000x1xf32>
    StableHlo.unary main_v260 main_v261 (broadcastInDim S50000x64 ![0, 1] bcast_S50000x1_S50000x64_0_1 : (⟨S50000x1, .f32⟩ : BufTy).Contents (Elt F) → (⟨S50000x64, .f32⟩ : BufTy).Contents (Elt F)), -- %261 = stablehlo.broadcast_in_dim %260, dims = [0, 1] : (tensor<50000x1xf32>) -> tensor<50000x64xf32>
    StableHlo.binary main_v253 main_v261 main_v262 (Host.divf : (⟨S50000x64, .f32⟩ : BufTy).Contents (Elt F) → (⟨S50000x64, .f32⟩ : BufTy).Contents (Elt F) → (⟨S50000x64, .f32⟩ : BufTy).Contents (Elt F)), -- %262 = stablehlo.divide %253, %261 : tensor<50000x64xf32>
    StableHlo.unary main_v262 main_v263 (Host.tanh : (⟨S50000x64, .f32⟩ : BufTy).Contents (Elt F) → (⟨S50000x64, .f32⟩ : BufTy).Contents (Elt F)), -- %263 = stablehlo.tanh %262 : tensor<50000x64xf32>
    StableHlo.nullary main_cst_57 (constant S_ .f32 0x3F800000#32), -- %cst_57 = stablehlo.constant dense<1.000000e+00> : tensor<f32>
    StableHlo.unary main_cst_57 main_v264 (broadcastInDim S50000x64 ![] bcast_S_S50000x64 : (⟨S_, .f32⟩ : BufTy).Contents (Elt F) → (⟨S50000x64, .f32⟩ : BufTy).Contents (Elt F)), -- %264 = stablehlo.broadcast_in_dim %cst_57, dims = [] : (tensor<f32>) -> tensor<50000x64xf32>
    StableHlo.binary main_v264 main_v263 main_v265 (subf : (⟨S50000x64, .f32⟩ : BufTy).Contents (Elt F) → (⟨S50000x64, .f32⟩ : BufTy).Contents (Elt F) → (⟨S50000x64, .f32⟩ : BufTy).Contents (Elt F)), -- %265 = stablehlo.subtract %264, %263 : tensor<50000x64xf32>
    StableHlo.binary main_v265 main_v138 main_v266 (mulf : (⟨S50000x64, .f32⟩ : BufTy).Contents (Elt F) → (⟨S50000x64, .f32⟩ : BufTy).Contents (Elt F) → (⟨S50000x64, .f32⟩ : BufTy).Contents (Elt F)), -- %266 = stablehlo.multiply %265, %138 : tensor<50000x64xf32>
    StableHlo.binary main_v263 main_v185 main_v267 (mulf : (⟨S50000x64, .f32⟩ : BufTy).Contents (Elt F) → (⟨S50000x64, .f32⟩ : BufTy).Contents (Elt F) → (⟨S50000x64, .f32⟩ : BufTy).Contents (Elt F)), -- %267 = stablehlo.multiply %263, %185 : tensor<50000x64xf32>
    StableHlo.binary main_v266 main_v267 main_v268 (addf : (⟨S50000x64, .f32⟩ : BufTy).Contents (Elt F) → (⟨S50000x64, .f32⟩ : BufTy).Contents (Elt F) → (⟨S50000x64, .f32⟩ : BufTy).Contents (Elt F)) ] -- %268 = stablehlo.add %266, %267 : tensor<50000x64xf32>

/-- Every buffer these operations touch is a TensorCore reference. -/
theorem opsSeg07_sub : (opsSeg07 : List (HloOp τ sig (Elt F))).Forall fun op => op.bufs ⊆ StableHlo.tcRefs τ sig :=
  ⟨StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.binary_bufs_sub .., StableHlo.binary_bufs_sub .., StableHlo.binary_bufs_sub ..⟩

/-- Each of these operations determines its results. -/
theorem opsSeg07_fresh : (opsSeg07 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers these operations write, in order. -/
abbrev opsSeg07_W : List (Ref sig .tc) :=
  [main_v246, main_v247, main_v248, main_cst_52, main_v249, main_v250, main_cst_53, main_v251, main_v252, main_v253, main_cst_54, main_v254, main_cst_55, main_v255, main_v256, main_v257, main_cst_56, main_v258, main_v259, main_v260, main_v261, main_v262, main_v263, main_cst_57, main_v264, main_v265, main_v266, main_v267, main_v268]

/-- Each operation writes only its own result buffer, which is in the list. -/
theorem opsSeg07_writes : (opsSeg07 : List (HloOp τ sig (Elt F))).Forall fun op =>
    op.writes ⊆ (opsSeg07_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer none of these operations writes keeps its contents through them. -/
theorem opsSeg07_keep (V : Valuation τ sig (Elt F)) (r : Ref sig .tc) (h : r ∉ opsSeg07_W) :
    StableHlo.after (opsSeg07 (F := F)) V (Proc.devRef .tc r) = V (Proc.devRef .tc r) :=
  StableHlo.after_of_writes_sub opsSeg07 V opsSeg07_writes h

/-- Message-passing layer 1, in the same order as layer 0. -/
abbrev opsLayer1 : List (HloOp τ sig (Elt F)) :=
  opsSeg04 ++ (opsSeg05 ++ (opsSeg06 ++ (opsSeg07)))

/-- The buffers opsLayer1 writes, in order. -/
abbrev opsLayer1_W : List (Ref sig .tc) :=
  opsSeg04_W ++ (opsSeg05_W ++ (opsSeg06_W ++ (opsSeg07_W)))

/-- The contents after opsLayer1, piece by piece. -/
theorem opsLayer1_after (V : Valuation τ sig (Elt F)) :
    StableHlo.after (opsLayer1 (F := F)) V = StableHlo.after opsSeg07 (StableHlo.after opsSeg06 (StableHlo.after opsSeg05 (StableHlo.after opsSeg04 V))) := by
  simp only [opsLayer1, after_append]

/-- A buffer opsLayer1 does not write keeps its contents through it. -/
theorem opsLayer1_keep (V : Valuation τ sig (Elt F)) (r : Ref sig .tc) (h : r ∉ opsLayer1_W) :
    StableHlo.after (opsLayer1 (F := F)) V (Proc.devRef .tc r) = V (Proc.devRef .tc r) := by
  rw [opsLayer1_after]
  rw [opsSeg07_keep _ r (fun hm => h (List.mem_append_right _ (List.mem_append_right _ (List.mem_append_right _ (hm))))),
    opsSeg06_keep _ r (fun hm => h (List.mem_append_right _ (List.mem_append_right _ (List.mem_append_left _ hm)))),
    opsSeg05_keep _ r (fun hm => h (List.mem_append_right _ (List.mem_append_left _ hm))),
    opsSeg04_keep _ r (fun hm => h (List.mem_append_left _ hm))]

end Cert.ReferenceIdeal.RefRun

end
-- ==== Proof.RefOpsL2.lean ====
/- The reference program's operations, part 4 of 6: message-passing layer 2, in the same order as layer 0. Each list entry is one operation of the
   program, in program order, written as the program writes it; where the program calls an outlined function, that function's
   operations stand in place of the call, over the buffers of that call. With each list: every buffer it touches is a
   TensorCore reference, every operation determines its result, and a buffer that is not among the list's result buffers
   keeps its contents through the list. -/
import proofs.«117928_j61658550502081_1_alg».proof.Proof.Gen.ReferenceIdeal
import proofs.«117928_j61658550502081_1_alg».proof.Proof.RefBase

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- The reference's operations 340 … 370 of 852, in order; an outlined function's operations stand at its call, over that call's buffers. -/
abbrev opsSeg08 : List (HloOp τ sig (Elt F)) :=
  [ StableHlo.unary main_arg5 main_v269 ((extractStridedSlice S1x64x64 ![2, 0, 0] · slices_S4x64x64_S1x64x64_2_0_0) : (⟨S4x64x64, .f32⟩ : BufTy).Contents (Elt F) → (⟨S1x64x64, .f32⟩ : BufTy).Contents (Elt F)), -- %269 = stablehlo.slice %arg5 [2:3, 0:64, 0:64] : (tensor<4x64x64xf32>) -> tensor<1x64x64xf32>
    StableHlo.reshape main_v269 main_v270 rfl shapeCasts_S1x64x64_S64x64, -- %270 = stablehlo.reshape %269 : (tensor<1x64x64xf32>) -> tensor<64x64xf32>
    StableHlo.unary main_arg6 main_v271 ((extractStridedSlice S1x64 ![2, 0] · slices_S4x64_S1x64_2_0) : (⟨S4x64, .f32⟩ : BufTy).Contents (Elt F) → (⟨S1x64, .f32⟩ : BufTy).Contents (Elt F)), -- %271 = stablehlo.slice %arg6 [2:3, 0:64] : (tensor<4x64xf32>) -> tensor<1x64xf32>
    StableHlo.reshape main_v271 main_v272 rfl shapeCasts_S1x64_S64, -- %272 = stablehlo.reshape %271 : (tensor<1x64xf32>) -> tensor<64xf32>
    StableHlo.binary main_v268 main_v270 main_v273 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)), -- %273 = stablehlo.dot_general %268, %270, contracting_dims = [1] x [0], precision = [DEFAULT, DEFAULT] : (tensor<50000x64xf32>, tensor<64x64xf32>) -> tensor<50000x64xf32>
    StableHlo.nullary main_v274 (iotaInDim S50000 32 0), -- %274 = stablehlo.iota dim = 0 : tensor<50000xi32>
    StableHlo.binary main_v1 main_v274 main_v275 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)), -- %275 = stablehlo.concatenate %1, %274, dim = 0 : (tensor<800000xi32>, tensor<50000xi32>) -> tensor<850000xi32>
    StableHlo.binary main_v3 main_v274 main_v276 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)), -- %276 = stablehlo.concatenate %3, %274, dim = 0 : (tensor<800000xi32>, tensor<50000xi32>) -> tensor<850000xi32>
    StableHlo.nullary main_cst_58 (constant S_ .f32 0x3F800000#32), -- %cst_58 = stablehlo.constant dense<1.000000e+00> : tensor<f32>
    StableHlo.unary main_cst_58 main_v277 (broadcastInDim S850000 ![] bcast_S_S850000 : (⟨S_, .f32⟩ : BufTy).Contents (Elt F) → (⟨S850000, .f32⟩ : BufTy).Contents (Elt F)), -- %277 = stablehlo.broadcast_in_dim %cst_58, dims = [] : (tensor<f32>) -> tensor<850000xf32>
    StableHlo.nullary main_cst_59 (constant S_ .f32 0x00000000#32), -- %cst_59 = stablehlo.constant dense<0.000000e+00> : tensor<f32>
    StableHlo.unary main_cst_59 main_v278 (broadcastInDim S50000 ![] bcast_S_S50000 : (⟨S_, .f32⟩ : BufTy).Contents (Elt F) → (⟨S50000, .f32⟩ : BufTy).Contents (Elt F)), -- %278 = stablehlo.broadcast_in_dim %cst_59, dims = [] : (tensor<f32>) -> tensor<50000xf32>
    StableHlo.unary main_v276 main_v279 (broadcastInDim S850000x1 ![0] bcast_S850000_S850000x1_0 : (⟨S850000, .i32⟩ : BufTy).Contents (Elt F) → (⟨S850000x1, .i32⟩ : BufTy).Contents (Elt F)), -- %279 = stablehlo.broadcast_in_dim %276, dims = [0] : (tensor<850000xi32>) -> tensor<850000x1xi32>
    StableHlo.ternary main_v278 main_v279 main_v277 main_v280 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)), -- %280 = "stablehlo.scatter"(%278, %279, %277) <{indices_are_sorted = false, scatter_dimension_numbers = #stablehlo.scatter<inserted_window_dims = [0], scatter_dims_to_operand_dims = [0], index_vector_dim = 1>, unique_indices = false}> ( {
    StableHlo.nullary main_cst_60 (constant S_ .f32 0x3F800000#32), -- %cst_60 = stablehlo.constant dense<1.000000e+00> : tensor<f32>
    StableHlo.unary main_cst_60 main_v281 (broadcastInDim S50000 ![] bcast_S_S50000 : (⟨S_, .f32⟩ : BufTy).Contents (Elt F) → (⟨S50000, .f32⟩ : BufTy).Contents (Elt F)), -- %281 = stablehlo.broadcast_in_dim %cst_60, dims = [] : (tensor<f32>) -> tensor<50000xf32>
    StableHlo.binary main_v280 main_v281 main_v282 (maximumf : (⟨S50000, .f32⟩ : BufTy).Contents (Elt F) → (⟨S50000, .f32⟩ : BufTy).Contents (Elt F) → (⟨S50000, .f32⟩ : BufTy).Contents (Elt F)), -- %282 = stablehlo.maximum %280, %281 : tensor<50000xf32>
    StableHlo.unary main_v282 main_v283 (Host.rsqrt : (⟨S50000, .f32⟩ : BufTy).Contents (Elt F) → (⟨S50000, .f32⟩ : BufTy).Contents (Elt F)), -- %283 = stablehlo.rsqrt %282 : tensor<50000xf32>
    StableHlo.nullary main_c_61 (constantI S_ 32 0#32), -- %c_61 = stablehlo.constant dense<0> : tensor<i32>
    StableHlo.unary main_c_61 main_v284 (broadcastInDim S850000 ![] bcast_S_S850000 : (⟨S_, .i32⟩ : BufTy).Contents (Elt F) → (⟨S850000, .i32⟩ : BufTy).Contents (Elt F)), -- %284 = stablehlo.broadcast_in_dim %c_61, dims = [] : (tensor<i32>) -> tensor<850000xi32>
    StableHlo.binary main_v275 main_v284 main_v285 (cmpi .slt : (⟨S850000, .i32⟩ : BufTy).Contents (Elt F) → (⟨S850000, .i32⟩ : BufTy).Contents (Elt F) → (⟨S850000, .i1⟩ : BufTy).Contents (Elt F)), -- %285 = stablehlo.compare LT, %275, %284, SIGNED : (tensor<850000xi32>, tensor<850000xi32>) -> tensor<850000xi1>
    StableHlo.nullary main_c_62 (constantI S_ 32 50000#32), -- %c_62 = stablehlo.constant dense<50000> : tensor<i32>
    StableHlo.unary main_c_62 main_v286 (broadcastInDim S850000 ![] bcast_S_S850000 : (⟨S_, .i32⟩ : BufTy).Contents (Elt F) → (⟨S850000, .i32⟩ : BufTy).Contents (Elt F)), -- %286 = stablehlo.broadcast_in_dim %c_62, dims = [] : (tensor<i32>) -> tensor<850000xi32>
    StableHlo.binary main_v275 main_v286 main_v287 (addi : (⟨S850000, .i32⟩ : BufTy).Contents (Elt F) → (⟨S850000, .i32⟩ : BufTy).Contents (Elt F) → (⟨S850000, .i32⟩ : BufTy).Contents (Elt F)), -- %287 = stablehlo.add %275, %286 : tensor<850000xi32>
    StableHlo.ternary main_v285 main_v287 main_v275 main_v288 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)), -- %288 = stablehlo.select %285, %287, %275 : tensor<850000xi1>, tensor<850000xi32>
    StableHlo.unary main_v288 main_v289 (broadcastInDim S850000x1 ![0] bcast_S850000_S850000x1_0 : (⟨S850000, .i32⟩ : BufTy).Contents (Elt F) → (⟨S850000x1, .i32⟩ : BufTy).Contents (Elt F)), -- %289 = stablehlo.broadcast_in_dim %288, dims = [0] : (tensor<850000xi32>) -> tensor<850000x1xi32>
    StableHlo.binary main_v283 main_v289 main_v290 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)), -- %290 = "stablehlo.gather"(%283, %289) <{dimension_numbers = #stablehlo.gather<collapsed_slice_dims = [0], start_index_map = [0], index_vector_dim = 1>, indices_are_sorted = false, slice_sizes = array<i64: 1>}> : (tensor<50000xf32>, tensor<850000x1xi32>) -> tensor<850000xf32>
    StableHlo.nullary main_c_63 (constantI S_ 32 0#32), -- %c_63 = stablehlo.constant dense<0> : tensor<i32>
    StableHlo.unary main_c_63 main_v291 (broadcastInDim S850000 ![] bcast_S_S850000 : (⟨S_, .i32⟩ : BufTy).Contents (Elt F) → (⟨S850000, .i32⟩ : BufTy).Contents (Elt F)), -- %291 = stablehlo.broadcast_in_dim %c_63, dims = [] : (tensor<i32>) -> tensor<850000xi32>
    StableHlo.binary main_v276 main_v291 main_v292 (cmpi .slt : (⟨S850000, .i32⟩ : BufTy).Contents (Elt F) → (⟨S850000, .i32⟩ : BufTy).Contents (Elt F) → (⟨S850000, .i1⟩ : BufTy).Contents (Elt F)), -- %292 = stablehlo.compare LT, %276, %291, SIGNED : (tensor<850000xi32>, tensor<850000xi32>) -> tensor<850000xi1>
    StableHlo.nullary main_c_64 (constantI S_ 32 50000#32) ] -- %c_64 = stablehlo.constant dense<50000> : tensor<i32>

/-- Every buffer these operations touch is a TensorCore reference. -/
theorem opsSeg08_sub : (opsSeg08 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.binary_bufs_sub .., StableHlo.nullary_bufs_sub .., StableHlo.binary_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub ..⟩

/-- Each of these operations determines its results. -/
theorem opsSeg08_fresh : (opsSeg08 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers these operations write, in order. -/
abbrev opsSeg08_W : List (Ref sig .tc) :=
  [main_v269, main_v270, main_v271, main_v272, main_v273, main_v274, main_v275, main_v276, main_cst_58, main_v277, main_cst_59, main_v278, main_v279, main_v280, main_cst_60, main_v281, main_v282, main_v283, main_c_61, main_v284, main_v285, main_c_62, main_v286, main_v287, main_v288, main_v289, main_v290, main_c_63, main_v291, main_v292, main_c_64]

/-- Each operation writes only its own result buffer, which is in the list. -/
theorem opsSeg08_writes : (opsSeg08 : List (HloOp τ sig (Elt F))).Forall fun op =>
    op.writes ⊆ (opsSeg08_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer none of these operations writes keeps its contents through them. -/
theorem opsSeg08_keep (V : Valuation τ sig (Elt F)) (r : Ref sig .tc) (h : r ∉ opsSeg08_W) :
    StableHlo.after (opsSeg08 (F := F)) V (Proc.devRef .tc r) = V (Proc.devRef .tc r) :=
  StableHlo.after_of_writes_sub opsSeg08 V opsSeg08_writes h

/-- The reference's operations 371 … 432 of 852, in order; an outlined function's operations stand at its call, over that call's buffers. -/
abbrev opsSeg09 : List (HloOp τ sig (Elt F)) :=
  [ StableHlo.unary main_c_64 main_v293 (broadcastInDim S850000 ![] bcast_S_S850000 : (⟨S_, .i32⟩ : BufTy).Contents (Elt F) → (⟨S850000, .i32⟩ : BufTy).Contents (Elt F)), -- %293 = stablehlo.broadcast_in_dim %c_64, dims = [] : (tensor<i32>) -> tensor<850000xi32>
    StableHlo.binary main_v276 main_v293 main_v294 (addi : (⟨S850000, .i32⟩ : BufTy).Contents (Elt F) → (⟨S850000, .i32⟩ : BufTy).Contents (Elt F) → (⟨S850000, .i32⟩ : BufTy).Contents (Elt F)), -- %294 = stablehlo.add %276, %293 : tensor<850000xi32>
    StableHlo.ternary main_v292 main_v294 main_v276 main_v295 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)), -- %295 = stablehlo.select %292, %294, %276 : tensor<850000xi1>, tensor<850000xi32>
    StableHlo.unary main_v295 main_v296 (broadcastInDim S850000x1 ![0] bcast_S850000_S850000x1_0 : (⟨S850000, .i32⟩ : BufTy).Contents (Elt F) → (⟨S850000x1, .i32⟩ : BufTy).Contents (Elt F)), -- %296 = stablehlo.broadcast_in_dim %295, dims = [0] : (tensor<850000xi32>) -> tensor<850000x1xi32>
    StableHlo.binary main_v283 main_v296 main_v297 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)), -- %297 = "stablehlo.gather"(%283, %296) <{dimension_numbers = #stablehlo.gather<collapsed_slice_dims = [0], start_index_map = [0], index_vector_dim = 1>, indices_are_sorted = false, slice_sizes = array<i64: 1>}> : (tensor<50000xf32>, tensor<850000x1xi32>) -> tensor<850000xf32>
    StableHlo.binary main_v290 main_v297 main_v298 (mulf : (⟨S850000, .f32⟩ : BufTy).Contents (Elt F) → (⟨S850000, .f32⟩ : BufTy).Contents (Elt F) → (⟨S850000, .f32⟩ : BufTy).Contents (Elt F)), -- %298 = stablehlo.multiply %290, %297 : tensor<850000xf32>
    StableHlo.unary main_v298 main_v299 (broadcastInDim S850000x1 ![0] bcast_S850000_S850000x1_0 : (⟨S850000, .f32⟩ : BufTy).Contents (Elt F) → (⟨S850000x1, .f32⟩ : BufTy).Contents (Elt F)), -- %299 = stablehlo.broadcast_in_dim %298, dims = [0] : (tensor<850000xf32>) -> tensor<850000x1xf32>
    StableHlo.nullary main_c_65 (constantI S_ 32 0#32), -- %c_65 = stablehlo.constant dense<0> : tensor<i32>
    StableHlo.unary main_c_65 main_v300 (broadcastInDim S850000 ![] bcast_S_S850000 : (⟨S_, .i32⟩ : BufTy).Contents (Elt F) → (⟨S850000, .i32⟩ : BufTy).Contents (Elt F)), -- %300 = stablehlo.broadcast_in_dim %c_65, dims = [] : (tensor<i32>) -> tensor<850000xi32>
    StableHlo.binary main_v275 main_v300 main_v301 (cmpi .slt : (⟨S850000, .i32⟩ : BufTy).Contents (Elt F) → (⟨S850000, .i32⟩ : BufTy).Contents (Elt F) → (⟨S850000, .i1⟩ : BufTy).Contents (Elt F)), -- %301 = stablehlo.compare LT, %275, %300, SIGNED : (tensor<850000xi32>, tensor<850000xi32>) -> tensor<850000xi1>
    StableHlo.nullary main_c_66 (constantI S_ 32 50000#32), -- %c_66 = stablehlo.constant dense<50000> : tensor<i32>
    StableHlo.unary main_c_66 main_v302 (broadcastInDim S850000 ![] bcast_S_S850000 : (⟨S_, .i32⟩ : BufTy).Contents (Elt F) → (⟨S850000, .i32⟩ : BufTy).Contents (Elt F)), -- %302 = stablehlo.broadcast_in_dim %c_66, dims = [] : (tensor<i32>) -> tensor<850000xi32>
    StableHlo.binary main_v275 main_v302 main_v303 (addi : (⟨S850000, .i32⟩ : BufTy).Contents (Elt F) → (⟨S850000, .i32⟩ : BufTy).Contents (Elt F) → (⟨S850000, .i32⟩ : BufTy).Contents (Elt F)), -- %303 = stablehlo.add %275, %302 : tensor<850000xi32>
    StableHlo.ternary main_v301 main_v303 main_v275 main_v304 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)), -- %304 = stablehlo.select %301, %303, %275 : tensor<850000xi1>, tensor<850000xi32>
    StableHlo.unary main_v304 main_v305 (broadcastInDim S850000x1 ![0] bcast_S850000_S850000x1_0 : (⟨S850000, .i32⟩ : BufTy).Contents (Elt F) → (⟨S850000x1, .i32⟩ : BufTy).Contents (Elt F)), -- %305 = stablehlo.broadcast_in_dim %304, dims = [0] : (tensor<850000xi32>) -> tensor<850000x1xi32>
    StableHlo.binary main_v273 main_v305 main_v306 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)), -- %306 = "stablehlo.gather"(%273, %305) <{dimension_numbers = #stablehlo.gather<offset_dims = [1], collapsed_slice_dims = [0], start_index_map = [0], index_vector_dim = 1>, indices_are_sorted = false, slice_sizes = array<i64: 1, 64>}> : (tensor<50000x64xf32>, tensor<850000x1xi32>) -> tensor<850000x64xf32>
    StableHlo.unary main_v299 main_v307 (broadcastInDim S850000x64 ![0, 1] bcast_S850000x1_S850000x64_0_1 : (⟨S850000x1, .f32⟩ : BufTy).Contents (Elt F) → (⟨S850000x64, .f32⟩ : BufTy).Contents (Elt F)), -- %307 = stablehlo.broadcast_in_dim %299, dims = [0, 1] : (tensor<850000x1xf32>) -> tensor<850000x64xf32>
    StableHlo.binary main_v306 main_v307 main_v308 (mulf : (⟨S850000x64, .f32⟩ : BufTy).Contents (Elt F) → (⟨S850000x64, .f32⟩ : BufTy).Contents (Elt F) → (⟨S850000x64, .f32⟩ : BufTy).Contents (Elt F)), -- %308 = stablehlo.multiply %306, %307 : tensor<850000x64xf32>
    StableHlo.nullary main_cst_67 (constant S_ .f32 0x00000000#32), -- %cst_67 = stablehlo.constant dense<0.000000e+00> : tensor<f32>
    StableHlo.unary main_cst_67 main_v309 (broadcastInDim S50000x64 ![] bcast_S_S50000x64 : (⟨S_, .f32⟩ : BufTy).Contents (Elt F) → (⟨S50000x64, .f32⟩ : BufTy).Contents (Elt F)), -- %309 = stablehlo.broadcast_in_dim %cst_67, dims = [] : (tensor<f32>) -> tensor<50000x64xf32>
    StableHlo.unary main_v276 main_v310 (broadcastInDim S850000x1 ![0] bcast_S850000_S850000x1_0 : (⟨S850000, .i32⟩ : BufTy).Contents (Elt F) → (⟨S850000x1, .i32⟩ : BufTy).Contents (Elt F)), -- %310 = stablehlo.broadcast_in_dim %276, dims = [0] : (tensor<850000xi32>) -> tensor<850000x1xi32>
    StableHlo.ternary main_v309 main_v310 main_v308 main_v311 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)), -- %311 = "stablehlo.scatter"(%309, %310, %308) <{indices_are_sorted = false, scatter_dimension_numbers = #stablehlo.scatter<update_window_dims = [1], inserted_window_dims = [0], scatter_dims_to_operand_dims = [0], index_vector_dim = 1>, unique_indices = false}> ( {
    StableHlo.unary main_v272 main_v312 (broadcastInDim S1x64 ![1] bcast_S64_S1x64_1 : (⟨S64, .f32⟩ : BufTy).Contents (Elt F) → (⟨S1x64, .f32⟩ : BufTy).Contents (Elt F)), -- %312 = stablehlo.broadcast_in_dim %272, dims = [1] : (tensor<64xf32>) -> tensor<1x64xf32>
    StableHlo.unary main_v312 main_v313 (broadcastInDim S50000x64 ![0, 1] bcast_S1x64_S50000x64_0_1 : (⟨S1x64, .f32⟩ : BufTy).Contents (Elt F) → (⟨S50000x64, .f32⟩ : BufTy).Contents (Elt F)), -- %313 = stablehlo.broadcast_in_dim %312, dims = [0, 1] : (tensor<1x64xf32>) -> tensor<50000x64xf32>
    StableHlo.binary main_v311 main_v313 main_v314 (addf : (⟨S50000x64, .f32⟩ : BufTy).Contents (Elt F) → (⟨S50000x64, .f32⟩ : BufTy).Contents (Elt F) → (⟨S50000x64, .f32⟩ : BufTy).Contents (Elt F)), -- %314 = stablehlo.add %311, %313 : tensor<50000x64xf32>
    StableHlo.TRef.nullary main_call5.cst (constant S_ .f32 0x00000000#32), -- @relu (main_call5): %cst = stablehlo.constant dense<0.000000e+00> : tensor<f32>
    StableHlo.TRef.unary main_call5.cst main_call5.v0 (broadcastInDim S50000x64 ![] bcast_S_S50000x64), -- @relu (main_call5): %0 = stablehlo.broadcast_in_dim %cst, dims = [] : (tensor<f32>) -> tensor<50000x64xf32>
    StableHlo.TRef.binary (.of main_v314 : StableHlo.TRef sig ⟨S50000x64, .f32⟩) main_call5.v0 main_call5.v1 maximumf, -- @relu (main_call5): %1 = stablehlo.maximum %arg0, %0 : tensor<50000x64xf32>
    StableHlo.unary main_arg7 main_v316 ((extractStridedSlice S1x64x64 ![2, 0, 0] · slices_S4x64x64_S1x64x64_2_0_0) : (⟨S4x64x64, .f32⟩ : BufTy).Contents (Elt F) → (⟨S1x64x64, .f32⟩ : BufTy).Contents (Elt F)), -- %316 = stablehlo.slice %arg7 [2:3, 0:64, 0:64] : (tensor<4x64x64xf32>) -> tensor<1x64x64xf32>
    StableHlo.reshape main_v316 main_v317 rfl shapeCasts_S1x64x64_S64x64, -- %317 = stablehlo.reshape %316 : (tensor<1x64x64xf32>) -> tensor<64x64xf32>
    StableHlo.unary main_arg8 main_v318 ((extractStridedSlice S1x64 ![2, 0] · slices_S4x64_S1x64_2_0) : (⟨S4x64, .f32⟩ : BufTy).Contents (Elt F) → (⟨S1x64, .f32⟩ : BufTy).Contents (Elt F)), -- %318 = stablehlo.slice %arg8 [2:3, 0:64] : (tensor<4x64xf32>) -> tensor<1x64xf32>
    StableHlo.reshape main_v318 main_v319 rfl shapeCasts_S1x64_S64, -- %319 = stablehlo.reshape %318 : (tensor<1x64xf32>) -> tensor<64xf32>
    StableHlo.binary main_v268 main_v317 main_v320 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)), -- %320 = stablehlo.dot_general %268, %317, contracting_dims = [1] x [0], precision = [DEFAULT, DEFAULT] : (tensor<50000x64xf32>, tensor<64x64xf32>) -> tensor<50000x64xf32>
    StableHlo.nullary main_v321 (iotaInDim S50000 32 0), -- %321 = stablehlo.iota dim = 0 : tensor<50000xi32>
    StableHlo.binary main_v1 main_v321 main_v322 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)), -- %322 = stablehlo.concatenate %1, %321, dim = 0 : (tensor<800000xi32>, tensor<50000xi32>) -> tensor<850000xi32>
    StableHlo.binary main_v3 main_v321 main_v323 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)), -- %323 = stablehlo.concatenate %3, %321, dim = 0 : (tensor<800000xi32>, tensor<50000xi32>) -> tensor<850000xi32>
    StableHlo.nullary main_cst_68 (constant S_ .f32 0x3F800000#32), -- %cst_68 = stablehlo.constant dense<1.000000e+00> : tensor<f32>
    StableHlo.unary main_cst_68 main_v324 (broadcastInDim S850000 ![] bcast_S_S850000 : (⟨S_, .f32⟩ : BufTy).Contents (Elt F) → (⟨S850000, .f32⟩ : BufTy).Contents (Elt F)), -- %324 = stablehlo.broadcast_in_dim %cst_68, dims = [] : (tensor<f32>) -> tensor<850000xf32>
    StableHlo.nullary main_cst_69 (constant S_ .f32 0x00000000#32), -- %cst_69 = stablehlo.constant dense<0.000000e+00> : tensor<f32>
    StableHlo.unary main_cst_69 main_v325 (broadcastInDim S50000 ![] bcast_S_S50000 : (⟨S_, .f32⟩ : BufTy).Contents (Elt F) → (⟨S50000, .f32⟩ : BufTy).Contents (Elt F)), -- %325 = stablehlo.broadcast_in_dim %cst_69, dims = [] : (tensor<f32>) -> tensor<50000xf32>
    StableHlo.unary main_v323 main_v326 (broadcastInDim S850000x1 ![0] bcast_S850000_S850000x1_0 : (⟨S850000, .i32⟩ : BufTy).Contents (Elt F) → (⟨S850000x1, .i32⟩ : BufTy).Contents (Elt F)), -- %326 = stablehlo.broadcast_in_dim %323, dims = [0] : (tensor<850000xi32>) -> tensor<850000x1xi32>
    StableHlo.ternary main_v325 main_v326 main_v324 main_v327 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)), -- %327 = "stablehlo.scatter"(%325, %326, %324) <{indices_are_sorted = false, scatter_dimension_numbers = #stablehlo.scatter<inserted_window_dims = [0], scatter_dims_to_operand_dims = [0], index_vector_dim = 1>, unique_indices = false}> ( {
    StableHlo.nullary main_cst_70 (constant S_ .f32 0x3F800000#32), -- %cst_70 = stablehlo.constant dense<1.000000e+00> : tensor<f32>
    StableHlo.unary main_cst_70 main_v328 (broadcastInDim S50000 ![] bcast_S_S50000 : (⟨S_, .f32⟩ : BufTy).Contents (Elt F) → (⟨S50000, .f32⟩ : BufTy).Contents (Elt F)), -- %328 = stablehlo.broadcast_in_dim %cst_70, dims = [] : (tensor<f32>) -> tensor<50000xf32>
    StableHlo.binary main_v327 main_v328 main_v329 (maximumf : (⟨S50000, .f32⟩ : BufTy).Contents (Elt F) → (⟨S50000, .f32⟩ : BufTy).Contents (Elt F) → (⟨S50000, .f32⟩ : BufTy).Contents (Elt F)), -- %329 = stablehlo.maximum %327, %328 : tensor<50000xf32>
    StableHlo.unary main_v329 main_v330 (Host.rsqrt : (⟨S50000, .f32⟩ : BufTy).Contents (Elt F) → (⟨S50000, .f32⟩ : BufTy).Contents (Elt F)), -- %330 = stablehlo.rsqrt %329 : tensor<50000xf32>
    StableHlo.nullary main_c_71 (constantI S_ 32 0#32), -- %c_71 = stablehlo.constant dense<0> : tensor<i32>
    StableHlo.unary main_c_71 main_v331 (broadcastInDim S850000 ![] bcast_S_S850000 : (⟨S_, .i32⟩ : BufTy).Contents (Elt F) → (⟨S850000, .i32⟩ : BufTy).Contents (Elt F)), -- %331 = stablehlo.broadcast_in_dim %c_71, dims = [] : (tensor<i32>) -> tensor<850000xi32>
    StableHlo.binary main_v322 main_v331 main_v332 (cmpi .slt : (⟨S850000, .i32⟩ : BufTy).Contents (Elt F) → (⟨S850000, .i32⟩ : BufTy).Contents (Elt F) → (⟨S850000, .i1⟩ : BufTy).Contents (Elt F)), -- %332 = stablehlo.compare LT, %322, %331, SIGNED : (tensor<850000xi32>, tensor<850000xi32>) -> tensor<850000xi1>
    StableHlo.nullary main_c_72 (constantI S_ 32 50000#32), -- %c_72 = stablehlo.constant dense<50000> : tensor<i32>
    StableHlo.unary main_c_72 main_v333 (broadcastInDim S850000 ![] bcast_S_S850000 : (⟨S_, .i32⟩ : BufTy).Contents (Elt F) → (⟨S850000, .i32⟩ : BufTy).Contents (Elt F)), -- %333 = stablehlo.broadcast_in_dim %c_72, dims = [] : (tensor<i32>) -> tensor<850000xi32>
    StableHlo.binary main_v322 main_v333 main_v334 (addi : (⟨S850000, .i32⟩ : BufTy).Contents (Elt F) → (⟨S850000, .i32⟩ : BufTy).Contents (Elt F) → (⟨S850000, .i32⟩ : BufTy).Contents (Elt F)), -- %334 = stablehlo.add %322, %333 : tensor<850000xi32>
    StableHlo.ternary main_v332 main_v334 main_v322 main_v335 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)), -- %335 = stablehlo.select %332, %334, %322 : tensor<850000xi1>, tensor<850000xi32>
    StableHlo.unary main_v335 main_v336 (broadcastInDim S850000x1 ![0] bcast_S850000_S850000x1_0 : (⟨S850000, .i32⟩ : BufTy).Contents (Elt F) → (⟨S850000x1, .i32⟩ : BufTy).Contents (Elt F)), -- %336 = stablehlo.broadcast_in_dim %335, dims = [0] : (tensor<850000xi32>) -> tensor<850000x1xi32>
    StableHlo.binary main_v330 main_v336 main_v337 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)), -- %337 = "stablehlo.gather"(%330, %336) <{dimension_numbers = #stablehlo.gather<collapsed_slice_dims = [0], start_index_map = [0], index_vector_dim = 1>, indices_are_sorted = false, slice_sizes = array<i64: 1>}> : (tensor<50000xf32>, tensor<850000x1xi32>) -> tensor<850000xf32>
    StableHlo.nullary main_c_73 (constantI S_ 32 0#32), -- %c_73 = stablehlo.constant dense<0> : tensor<i32>
    StableHlo.unary main_c_73 main_v338 (broadcastInDim S850000 ![] bcast_S_S850000 : (⟨S_, .i32⟩ : BufTy).Contents (Elt F) → (⟨S850000, .i32⟩ : BufTy).Contents (Elt F)), -- %338 = stablehlo.broadcast_in_dim %c_73, dims = [] : (tensor<i32>) -> tensor<850000xi32>
    StableHlo.binary main_v323 main_v338 main_v339 (cmpi .slt : (⟨S850000, .i32⟩ : BufTy).Contents (Elt F) → (⟨S850000, .i32⟩ : BufTy).Contents (Elt F) → (⟨S850000, .i1⟩ : BufTy).Contents (Elt F)), -- %339 = stablehlo.compare LT, %323, %338, SIGNED : (tensor<850000xi32>, tensor<850000xi32>) -> tensor<850000xi1>
    StableHlo.nullary main_c_74 (constantI S_ 32 50000#32), -- %c_74 = stablehlo.constant dense<50000> : tensor<i32>
    StableHlo.unary main_c_74 main_v340 (broadcastInDim S850000 ![] bcast_S_S850000 : (⟨S_, .i32⟩ : BufTy).Contents (Elt F) → (⟨S850000, .i32⟩ : BufTy).Contents (Elt F)), -- %340 = stablehlo.broadcast_in_dim %c_74, dims = [] : (tensor<i32>) -> tensor<850000xi32>
    StableHlo.binary main_v323 main_v340 main_v341 (addi : (⟨S850000, .i32⟩ : BufTy).Contents (Elt F) → (⟨S850000, .i32⟩ : BufTy).Contents (Elt F) → (⟨S850000, .i32⟩ : BufTy).Contents (Elt F)), -- %341 = stablehlo.add %323, %340 : tensor<850000xi32>
    StableHlo.ternary main_v339 main_v341 main_v323 main_v342 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) ] -- %342 = stablehlo.select %339, %341, %323 : tensor<850000xi1>, tensor<850000xi32>

/-- Every buffer these operations touch is a TensorCore reference. -/
theorem opsSeg09_sub : (opsSeg09 : List (HloOp τ sig (Elt F))).Forall fun op => op.bufs ⊆ StableHlo.tcRefs τ sig :=
  ⟨StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.binary_bufs_sub .., StableHlo.nullary_bufs_sub .., StableHlo.binary_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub ..⟩

/-- Each of these operations determines its results. -/
theorem opsSeg09_fresh : (opsSeg09 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers these operations write, in order. -/
abbrev opsSeg09_W : List (Ref sig .tc) :=
  [main_v293, main_v294, main_v295, main_v296, main_v297, main_v298, main_v299, main_c_65, main_v300, main_v301, main_c_66, main_v302, main_v303, main_v304, main_v305, main_v306, main_v307, main_v308, main_cst_67, main_v309, main_v310, main_v311, main_v312, main_v313, main_v314, main_call5.cst.ref, main_call5.v0.ref, main_call5.v1.ref, main_v316, main_v317, main_v318, main_v319, main_v320, main_v321, main_v322, main_v323, main_cst_68, main_v324, main_cst_69, main_v325, main_v326, main_v327, main_cst_70, main_v328, main_v329, main_v330, main_c_71, main_v331, main_v332, main_c_72, main_v333, main_v334, main_v335, main_v336, main_v337, main_c_73, main_v338, main_v339, main_c_74, main_v340, main_v341, main_v342]

/-- Each operation writes only its own result buffer, which is in the list. -/
theorem opsSeg09_writes : (opsSeg09 : List (HloOp τ sig (Elt F))).Forall fun op =>
    op.writes ⊆ (opsSeg09_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer none of these operations writes keeps its contents through them. -/
theorem opsSeg09_keep (V : Valuation τ sig (Elt F)) (r : Ref sig .tc) (h : r ∉ opsSeg09_W) :
    StableHlo.after (opsSeg09 (F := F)) V (Proc.devRef .tc r) = V (Proc.devRef .tc r) :=
  StableHlo.after_of_writes_sub opsSeg09 V opsSeg09_writes h

/-- The reference's operations 433 … 494 of 852, in order; an outlined function's operations stand at its call, over that call's buffers. -/
abbrev opsSeg10 : List (HloOp τ sig (Elt F)) :=
  [ StableHlo.unary main_v342 main_v343 (broadcastInDim S850000x1 ![0] bcast_S850000_S850000x1_0 : (⟨S850000, .i32⟩ : BufTy).Contents (Elt F) → (⟨S850000x1, .i32⟩ : BufTy).Contents (Elt F)), -- %343 = stablehlo.broadcast_in_dim %342, dims = [0] : (tensor<850000xi32>) -> tensor<850000x1xi32>
    StableHlo.binary main_v330 main_v343 main_v344 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)), -- %344 = "stablehlo.gather"(%330, %343) <{dimension_numbers = #stablehlo.gather<collapsed_slice_dims = [0], start_index_map = [0], index_vector_dim = 1>, indices_are_sorted = false, slice_sizes = array<i64: 1>}> : (tensor<50000xf32>, tensor<850000x1xi32>) -> tensor<850000xf32>
    StableHlo.binary main_v337 main_v344 main_v345 (mulf : (⟨S850000, .f32⟩ : BufTy).Contents (Elt F) → (⟨S850000, .f32⟩ : BufTy).Contents (Elt F) → (⟨S850000, .f32⟩ : BufTy).Contents (Elt F)), -- %345 = stablehlo.multiply %337, %344 : tensor<850000xf32>
    StableHlo.unary main_v345 main_v346 (broadcastInDim S850000x1 ![0] bcast_S850000_S850000x1_0 : (⟨S850000, .f32⟩ : BufTy).Contents (Elt F) → (⟨S850000x1, .f32⟩ : BufTy).Contents (Elt F)), -- %346 = stablehlo.broadcast_in_dim %345, dims = [0] : (tensor<850000xf32>) -> tensor<850000x1xf32>
    StableHlo.nullary main_c_75 (constantI S_ 32 0#32), -- %c_75 = stablehlo.constant dense<0> : tensor<i32>
    StableHlo.unary main_c_75 main_v347 (broadcastInDim S850000 ![] bcast_S_S850000 : (⟨S_, .i32⟩ : BufTy).Contents (Elt F) → (⟨S850000, .i32⟩ : BufTy).Contents (Elt F)), -- %347 = stablehlo.broadcast_in_dim %c_75, dims = [] : (tensor<i32>) -> tensor<850000xi32>
    StableHlo.binary main_v322 main_v347 main_v348 (cmpi .slt : (⟨S850000, .i32⟩ : BufTy).Contents (Elt F) → (⟨S850000, .i32⟩ : BufTy).Contents (Elt F) → (⟨S850000, .i1⟩ : BufTy).Contents (Elt F)), -- %348 = stablehlo.compare LT, %322, %347, SIGNED : (tensor<850000xi32>, tensor<850000xi32>) -> tensor<850000xi1>
    StableHlo.nullary main_c_76 (constantI S_ 32 50000#32), -- %c_76 = stablehlo.constant dense<50000> : tensor<i32>
    StableHlo.unary main_c_76 main_v349 (broadcastInDim S850000 ![] bcast_S_S850000 : (⟨S_, .i32⟩ : BufTy).Contents (Elt F) → (⟨S850000, .i32⟩ : BufTy).Contents (Elt F)), -- %349 = stablehlo.broadcast_in_dim %c_76, dims = [] : (tensor<i32>) -> tensor<850000xi32>
    StableHlo.binary main_v322 main_v349 main_v350 (addi : (⟨S850000, .i32⟩ : BufTy).Contents (Elt F) → (⟨S850000, .i32⟩ : BufTy).Contents (Elt F) → (⟨S850000, .i32⟩ : BufTy).Contents (Elt F)), -- %350 = stablehlo.add %322, %349 : tensor<850000xi32>
    StableHlo.ternary main_v348 main_v350 main_v322 main_v351 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)), -- %351 = stablehlo.select %348, %350, %322 : tensor<850000xi1>, tensor<850000xi32>
    StableHlo.unary main_v351 main_v352 (broadcastInDim S850000x1 ![0] bcast_S850000_S850000x1_0 : (⟨S850000, .i32⟩ : BufTy).Contents (Elt F) → (⟨S850000x1, .i32⟩ : BufTy).Contents (Elt F)), -- %352 = stablehlo.broadcast_in_dim %351, dims = [0] : (tensor<850000xi32>) -> tensor<850000x1xi32>
    StableHlo.binary main_v320 main_v352 main_v353 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)), -- %353 = "stablehlo.gather"(%320, %352) <{dimension_numbers = #stablehlo.gather<offset_dims = [1], collapsed_slice_dims = [0], start_index_map = [0], index_vector_dim = 1>, indices_are_sorted = false, slice_sizes = array<i64: 1, 64>}> : (tensor<50000x64xf32>, tensor<850000x1xi32>) -> tensor<850000x64xf32>
    StableHlo.unary main_v346 main_v354 (broadcastInDim S850000x64 ![0, 1] bcast_S850000x1_S850000x64_0_1 : (⟨S850000x1, .f32⟩ : BufTy).Contents (Elt F) → (⟨S850000x64, .f32⟩ : BufTy).Contents (Elt F)), -- %354 = stablehlo.broadcast_in_dim %346, dims = [0, 1] : (tensor<850000x1xf32>) -> tensor<850000x64xf32>
    StableHlo.binary main_v353 main_v354 main_v355 (mulf : (⟨S850000x64, .f32⟩ : BufTy).Contents (Elt F) → (⟨S850000x64, .f32⟩ : BufTy).Contents (Elt F) → (⟨S850000x64, .f32⟩ : BufTy).Contents (Elt F)), -- %355 = stablehlo.multiply %353, %354 : tensor<850000x64xf32>
    StableHlo.nullary main_cst_77 (constant S_ .f32 0x00000000#32), -- %cst_77 = stablehlo.constant dense<0.000000e+00> : tensor<f32>
    StableHlo.unary main_cst_77 main_v356 (broadcastInDim S50000x64 ![] bcast_S_S50000x64 : (⟨S_, .f32⟩ : BufTy).Contents (Elt F) → (⟨S50000x64, .f32⟩ : BufTy).Contents (Elt F)), -- %356 = stablehlo.broadcast_in_dim %cst_77, dims = [] : (tensor<f32>) -> tensor<50000x64xf32>
    StableHlo.unary main_v323 main_v357 (broadcastInDim S850000x1 ![0] bcast_S850000_S850000x1_0 : (⟨S850000, .i32⟩ : BufTy).Contents (Elt F) → (⟨S850000x1, .i32⟩ : BufTy).Contents (Elt F)), -- %357 = stablehlo.broadcast_in_dim %323, dims = [0] : (tensor<850000xi32>) -> tensor<850000x1xi32>
    StableHlo.ternary main_v356 main_v357 main_v355 main_v358 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)), -- %358 = "stablehlo.scatter"(%356, %357, %355) <{indices_are_sorted = false, scatter_dimension_numbers = #stablehlo.scatter<update_window_dims = [1], inserted_window_dims = [0], scatter_dims_to_operand_dims = [0], index_vector_dim = 1>, unique_indices = false}> ( {
    StableHlo.unary main_v319 main_v359 (broadcastInDim S1x64 ![1] bcast_S64_S1x64_1 : (⟨S64, .f32⟩ : BufTy).Contents (Elt F) → (⟨S1x64, .f32⟩ : BufTy).Contents (Elt F)), -- %359 = stablehlo.broadcast_in_dim %319, dims = [1] : (tensor<64xf32>) -> tensor<1x64xf32>
    StableHlo.unary main_v359 main_v360 (broadcastInDim S50000x64 ![0, 1] bcast_S1x64_S50000x64_0_1 : (⟨S1x64, .f32⟩ : BufTy).Contents (Elt F) → (⟨S50000x64, .f32⟩ : BufTy).Contents (Elt F)), -- %360 = stablehlo.broadcast_in_dim %359, dims = [0, 1] : (tensor<1x64xf32>) -> tensor<50000x64xf32>
    StableHlo.binary main_v358 main_v360 main_v361 (addf : (⟨S50000x64, .f32⟩ : BufTy).Contents (Elt F) → (⟨S50000x64, .f32⟩ : BufTy).Contents (Elt F) → (⟨S50000x64, .f32⟩ : BufTy).Contents (Elt F)), -- %361 = stablehlo.add %358, %360 : tensor<50000x64xf32>
    StableHlo.TRef.nullary main_call6.cst (constant S_ .f32 0x00000000#32), -- @relu (main_call6): %cst = stablehlo.constant dense<0.000000e+00> : tensor<f32>
    StableHlo.TRef.unary main_call6.cst main_call6.v0 (broadcastInDim S50000x64 ![] bcast_S_S50000x64), -- @relu (main_call6): %0 = stablehlo.broadcast_in_dim %cst, dims = [] : (tensor<f32>) -> tensor<50000x64xf32>
    StableHlo.TRef.binary (.of main_v361 : StableHlo.TRef sig ⟨S50000x64, .f32⟩) main_call6.v0 main_call6.v1 maximumf, -- @relu (main_call6): %1 = stablehlo.maximum %arg0, %0 : tensor<50000x64xf32>
    StableHlo.nullary main_c_78 (constantI S_ 32 0#32), -- %c_78 = stablehlo.constant dense<0> : tensor<i32>
    StableHlo.unary main_c_78 main_v363 (broadcastInDim S800000 ![] bcast_S_S800000 : (⟨S_, .i32⟩ : BufTy).Contents (Elt F) → (⟨S800000, .i32⟩ : BufTy).Contents (Elt F)), -- %363 = stablehlo.broadcast_in_dim %c_78, dims = [] : (tensor<i32>) -> tensor<800000xi32>
    StableHlo.binary main_v1 main_v363 main_v364 (cmpi .slt : (⟨S800000, .i32⟩ : BufTy).Contents (Elt F) → (⟨S800000, .i32⟩ : BufTy).Contents (Elt F) → (⟨S800000, .i1⟩ : BufTy).Contents (Elt F)), -- %364 = stablehlo.compare LT, %1, %363, SIGNED : (tensor<800000xi32>, tensor<800000xi32>) -> tensor<800000xi1>
    StableHlo.nullary main_c_79 (constantI S_ 32 50000#32), -- %c_79 = stablehlo.constant dense<50000> : tensor<i32>
    StableHlo.unary main_c_79 main_v365 (broadcastInDim S800000 ![] bcast_S_S800000 : (⟨S_, .i32⟩ : BufTy).Contents (Elt F) → (⟨S800000, .i32⟩ : BufTy).Contents (Elt F)), -- %365 = stablehlo.broadcast_in_dim %c_79, dims = [] : (tensor<i32>) -> tensor<800000xi32>
    StableHlo.binary main_v1 main_v365 main_v366 (addi : (⟨S800000, .i32⟩ : BufTy).Contents (Elt F) → (⟨S800000, .i32⟩ : BufTy).Contents (Elt F) → (⟨S800000, .i32⟩ : BufTy).Contents (Elt F)), -- %366 = stablehlo.add %1, %365 : tensor<800000xi32>
    StableHlo.ternary main_v364 main_v366 main_v1 main_v367 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)), -- %367 = stablehlo.select %364, %366, %1 : tensor<800000xi1>, tensor<800000xi32>
    StableHlo.unary main_v367 main_v368 (broadcastInDim S800000x1 ![0] bcast_S800000_S800000x1_0 : (⟨S800000, .i32⟩ : BufTy).Contents (Elt F) → (⟨S800000x1, .i32⟩ : BufTy).Contents (Elt F)), -- %368 = stablehlo.broadcast_in_dim %367, dims = [0] : (tensor<800000xi32>) -> tensor<800000x1xi32>
    StableHlo.binary main_v362 main_v368 main_v369 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)), -- %369 = "stablehlo.gather"(%362, %368) <{dimension_numbers = #stablehlo.gather<offset_dims = [1], collapsed_slice_dims = [0], start_index_map = [0], index_vector_dim = 1>, indices_are_sorted = false, slice_sizes = array<i64: 1, 64>}> : (tensor<50000x64xf32>, tensor<800000x1xi32>) -> tensor<800000x64xf32>
    StableHlo.nullary main_c_80 (constantI S_ 32 0#32), -- %c_80 = stablehlo.constant dense<0> : tensor<i32>
    StableHlo.unary main_c_80 main_v370 (broadcastInDim S800000 ![] bcast_S_S800000 : (⟨S_, .i32⟩ : BufTy).Contents (Elt F) → (⟨S800000, .i32⟩ : BufTy).Contents (Elt F)), -- %370 = stablehlo.broadcast_in_dim %c_80, dims = [] : (tensor<i32>) -> tensor<800000xi32>
    StableHlo.binary main_v3 main_v370 main_v371 (cmpi .slt : (⟨S800000, .i32⟩ : BufTy).Contents (Elt F) → (⟨S800000, .i32⟩ : BufTy).Contents (Elt F) → (⟨S800000, .i1⟩ : BufTy).Contents (Elt F)), -- %371 = stablehlo.compare LT, %3, %370, SIGNED : (tensor<800000xi32>, tensor<800000xi32>) -> tensor<800000xi1>
    StableHlo.nullary main_c_81 (constantI S_ 32 50000#32), -- %c_81 = stablehlo.constant dense<50000> : tensor<i32>
    StableHlo.unary main_c_81 main_v372 (broadcastInDim S800000 ![] bcast_S_S800000 : (⟨S_, .i32⟩ : BufTy).Contents (Elt F) → (⟨S800000, .i32⟩ : BufTy).Contents (Elt F)), -- %372 = stablehlo.broadcast_in_dim %c_81, dims = [] : (tensor<i32>) -> tensor<800000xi32>
    StableHlo.binary main_v3 main_v372 main_v373 (addi : (⟨S800000, .i32⟩ : BufTy).Contents (Elt F) → (⟨S800000, .i32⟩ : BufTy).Contents (Elt F) → (⟨S800000, .i32⟩ : BufTy).Contents (Elt F)), -- %373 = stablehlo.add %3, %372 : tensor<800000xi32>
    StableHlo.ternary main_v371 main_v373 main_v3 main_v374 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)), -- %374 = stablehlo.select %371, %373, %3 : tensor<800000xi1>, tensor<800000xi32>
    StableHlo.unary main_v374 main_v375 (broadcastInDim S800000x1 ![0] bcast_S800000_S800000x1_0 : (⟨S800000, .i32⟩ : BufTy).Contents (Elt F) → (⟨S800000x1, .i32⟩ : BufTy).Contents (Elt F)), -- %375 = stablehlo.broadcast_in_dim %374, dims = [0] : (tensor<800000xi32>) -> tensor<800000x1xi32>
    StableHlo.binary main_v362 main_v375 main_v376 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)), -- %376 = "stablehlo.gather"(%362, %375) <{dimension_numbers = #stablehlo.gather<offset_dims = [1], collapsed_slice_dims = [0], start_index_map = [0], index_vector_dim = 1>, indices_are_sorted = false, slice_sizes = array<i64: 1, 64>}> : (tensor<50000x64xf32>, tensor<800000x1xi32>) -> tensor<800000x64xf32>
    StableHlo.binary main_v369 main_v376 main_v377 (subf : (⟨S800000x64, .f32⟩ : BufTy).Contents (Elt F) → (⟨S800000x64, .f32⟩ : BufTy).Contents (Elt F) → (⟨S800000x64, .f32⟩ : BufTy).Contents (Elt F)), -- %377 = stablehlo.subtract %369, %376 : tensor<800000x64xf32>
    StableHlo.unary main_v377 main_v378 (Host.absf : (⟨S800000x64, .f32⟩ : BufTy).Contents (Elt F) → (⟨S800000x64, .f32⟩ : BufTy).Contents (Elt F)), -- %378 = stablehlo.abs %377 : tensor<800000x64xf32>
    StableHlo.nullary main_cst_82 (constant S_ .f32 0x40000000#32), -- %cst_82 = stablehlo.constant dense<2.000000e+00> : tensor<f32>
    StableHlo.unary main_cst_82 main_v379 (broadcastInDim S800000x64 ![] bcast_S_S800000x64 : (⟨S_, .f32⟩ : BufTy).Contents (Elt F) → (⟨S800000x64, .f32⟩ : BufTy).Contents (Elt F)), -- %379 = stablehlo.broadcast_in_dim %cst_82, dims = [] : (tensor<f32>) -> tensor<800000x64xf32>
    StableHlo.binary main_v378 main_v379 main_v380 (Host.powf : (⟨S800000x64, .f32⟩ : BufTy).Contents (Elt F) → (⟨S800000x64, .f32⟩ : BufTy).Contents (Elt F) → (⟨S800000x64, .f32⟩ : BufTy).Contents (Elt F)), -- %380 = stablehlo.power %378, %379 : tensor<800000x64xf32>
    StableHlo.nullary main_cst_83 (constant S_ .f32 0x00000000#32), -- %cst_83 = stablehlo.constant dense<0.000000e+00> : tensor<f32>
    StableHlo.unary main_cst_83 main_v381 (broadcastInDim S50000x64 ![] bcast_S_S50000x64 : (⟨S_, .f32⟩ : BufTy).Contents (Elt F) → (⟨S50000x64, .f32⟩ : BufTy).Contents (Elt F)), -- %381 = stablehlo.broadcast_in_dim %cst_83, dims = [] : (tensor<f32>) -> tensor<50000x64xf32>
    StableHlo.unary main_v1 main_v382 (broadcastInDim S800000x1 ![0] bcast_S800000_S800000x1_0 : (⟨S800000, .i32⟩ : BufTy).Contents (Elt F) → (⟨S800000x1, .i32⟩ : BufTy).Contents (Elt F)), -- %382 = stablehlo.broadcast_in_dim %1, dims = [0] : (tensor<800000xi32>) -> tensor<800000x1xi32>
    StableHlo.ternary main_v381 main_v382 main_v380 main_v383 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)), -- %383 = "stablehlo.scatter"(%381, %382, %380) <{indices_are_sorted = false, scatter_dimension_numbers = #stablehlo.scatter<update_window_dims = [1], inserted_window_dims = [0], scatter_dims_to_operand_dims = [0], index_vector_dim = 1>, unique_indices = false}> ( {
    StableHlo.nullary main_cst_84 (constant S_ .f32 0x3F800000#32), -- %cst_84 = stablehlo.constant dense<1.000000e+00> : tensor<f32>
    StableHlo.unary main_cst_84 main_v384 (broadcastInDim S800000 ![] bcast_S_S800000 : (⟨S_, .f32⟩ : BufTy).Contents (Elt F) → (⟨S800000, .f32⟩ : BufTy).Contents (Elt F)), -- %384 = stablehlo.broadcast_in_dim %cst_84, dims = [] : (tensor<f32>) -> tensor<800000xf32>
    StableHlo.nullary main_cst_85 (constant S_ .f32 0x00000000#32), -- %cst_85 = stablehlo.constant dense<0.000000e+00> : tensor<f32>
    StableHlo.unary main_cst_85 main_v385 (broadcastInDim S50000 ![] bcast_S_S50000 : (⟨S_, .f32⟩ : BufTy).Contents (Elt F) → (⟨S50000, .f32⟩ : BufTy).Contents (Elt F)), -- %385 = stablehlo.broadcast_in_dim %cst_85, dims = [] : (tensor<f32>) -> tensor<50000xf32>
    StableHlo.unary main_v1 main_v386 (broadcastInDim S800000x1 ![0] bcast_S800000_S800000x1_0 : (⟨S800000, .i32⟩ : BufTy).Contents (Elt F) → (⟨S800000x1, .i32⟩ : BufTy).Contents (Elt F)), -- %386 = stablehlo.broadcast_in_dim %1, dims = [0] : (tensor<800000xi32>) -> tensor<800000x1xi32>
    StableHlo.ternary main_v385 main_v386 main_v384 main_v387 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)), -- %387 = "stablehlo.scatter"(%385, %386, %384) <{indices_are_sorted = false, scatter_dimension_numbers = #stablehlo.scatter<inserted_window_dims = [0], scatter_dims_to_operand_dims = [0], index_vector_dim = 1>, unique_indices = false}> ( {
    StableHlo.nullary main_cst_86 (constant S_ .f32 0x3F800000#32), -- %cst_86 = stablehlo.constant dense<1.000000e+00> : tensor<f32>
    StableHlo.unary main_cst_86 main_v388 (broadcastInDim S50000 ![] bcast_S_S50000 : (⟨S_, .f32⟩ : BufTy).Contents (Elt F) → (⟨S50000, .f32⟩ : BufTy).Contents (Elt F)), -- %388 = stablehlo.broadcast_in_dim %cst_86, dims = [] : (tensor<f32>) -> tensor<50000xf32>
    StableHlo.binary main_v387 main_v388 main_v389 (maximumf : (⟨S50000, .f32⟩ : BufTy).Contents (Elt F) → (⟨S50000, .f32⟩ : BufTy).Contents (Elt F) → (⟨S50000, .f32⟩ : BufTy).Contents (Elt F)), -- %389 = stablehlo.maximum %387, %388 : tensor<50000xf32>
    StableHlo.unary main_v389 main_v390 (broadcastInDim S50000x1 ![0] bcast_S50000_S50000x1_0 : (⟨S50000, .f32⟩ : BufTy).Contents (Elt F) → (⟨S50000x1, .f32⟩ : BufTy).Contents (Elt F)) ] -- %390 = stablehlo.broadcast_in_dim %389, dims = [0] : (tensor<50000xf32>) -> tensor<50000x1xf32>

/-- Every buffer these operations touch is a TensorCore reference. -/
theorem opsSeg10_sub : (opsSeg10 : List (HloOp τ sig (Elt F))).Forall fun op => op.bufs ⊆ StableHlo.tcRefs τ sig :=
  ⟨StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub ..⟩

/-- Each of these operations determines its results. -/
theorem opsSeg10_fresh : (opsSeg10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers these operations write, in order. -/
abbrev opsSeg10_W : List (Ref sig .tc) :=
  [main_v343, main_v344, main_v345, main_v346, main_c_75, main_v347, main_v348, main_c_76, main_v349, main_v350, main_v351, main_v352, main_v353, main_v354, main_v355, main_cst_77, main_v356, main_v357, main_v358, main_v359, main_v360, main_v361, main_call6.cst.ref, main_call6.v0.ref, main_call6.v1.ref, main_c_78, main_v363, main_v364, main_c_79, main_v365, main_v366, main_v367, main_v368, main_v369, main_c_80, main_v370, main_v371, main_c_81, main_v372, main_v373, main_v374, main_v375, main_v376, main_v377, main_v378, main_cst_82, main_v379, main_v380, main_cst_83, main_v381, main_v382, main_v383, main_cst_84, main_v384, main_cst_85, main_v385, main_v386, main_v387, main_cst_86, main_v388, main_v389, main_v390]

/-- Each operation writes only its own result buffer, which is in the list. -/
theorem opsSeg10_writes : (opsSeg10 : List (HloOp τ sig (Elt F))).Forall fun op =>
    op.writes ⊆ (opsSeg10_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer none of these operations writes keeps its contents through them. -/
theorem opsSeg10_keep (V : Valuation τ sig (Elt F)) (r : Ref sig .tc) (h : r ∉ opsSeg10_W) :
    StableHlo.after (opsSeg10 (F := F)) V (Proc.devRef .tc r) = V (Proc.devRef .tc r) :=
  StableHlo.after_of_writes_sub opsSeg10 V opsSeg10_writes h

/-- The reference's operations 495 … 503 of 852, in order; an outlined function's operations stand at its call, over that call's buffers. -/
abbrev opsSeg11 : List (HloOp τ sig (Elt F)) :=
  [ StableHlo.unary main_v390 main_v391 (broadcastInDim S50000x64 ![0, 1] bcast_S50000x1_S50000x64_0_1 : (⟨S50000x1, .f32⟩ : BufTy).Contents (Elt F) → (⟨S50000x64, .f32⟩ : BufTy).Contents (Elt F)), -- %391 = stablehlo.broadcast_in_dim %390, dims = [0, 1] : (tensor<50000x1xf32>) -> tensor<50000x64xf32>
    StableHlo.binary main_v383 main_v391 main_v392 (Host.divf : (⟨S50000x64, .f32⟩ : BufTy).Contents (Elt F) → (⟨S50000x64, .f32⟩ : BufTy).Contents (Elt F) → (⟨S50000x64, .f32⟩ : BufTy).Contents (Elt F)), -- %392 = stablehlo.divide %383, %391 : tensor<50000x64xf32>
    StableHlo.unary main_v392 main_v393 (Host.tanh : (⟨S50000x64, .f32⟩ : BufTy).Contents (Elt F) → (⟨S50000x64, .f32⟩ : BufTy).Contents (Elt F)), -- %393 = stablehlo.tanh %392 : tensor<50000x64xf32>
    StableHlo.nullary main_cst_87 (constant S_ .f32 0x3F800000#32), -- %cst_87 = stablehlo.constant dense<1.000000e+00> : tensor<f32>
    StableHlo.unary main_cst_87 main_v394 (broadcastInDim S50000x64 ![] bcast_S_S50000x64 : (⟨S_, .f32⟩ : BufTy).Contents (Elt F) → (⟨S50000x64, .f32⟩ : BufTy).Contents (Elt F)), -- %394 = stablehlo.broadcast_in_dim %cst_87, dims = [] : (tensor<f32>) -> tensor<50000x64xf32>
    StableHlo.binary main_v394 main_v393 main_v395 (subf : (⟨S50000x64, .f32⟩ : BufTy).Contents (Elt F) → (⟨S50000x64, .f32⟩ : BufTy).Contents (Elt F) → (⟨S50000x64, .f32⟩ : BufTy).Contents (Elt F)), -- %395 = stablehlo.subtract %394, %393 : tensor<50000x64xf32>
    StableHlo.binary main_v395 main_v268 main_v396 (mulf : (⟨S50000x64, .f32⟩ : BufTy).Contents (Elt F) → (⟨S50000x64, .f32⟩ : BufTy).Contents (Elt F) → (⟨S50000x64, .f32⟩ : BufTy).Contents (Elt F)), -- %396 = stablehlo.multiply %395, %268 : tensor<50000x64xf32>
    StableHlo.binary main_v393 main_v315 main_v397 (mulf : (⟨S50000x64, .f32⟩ : BufTy).Contents (Elt F) → (⟨S50000x64, .f32⟩ : BufTy).Contents (Elt F) → (⟨S50000x64, .f32⟩ : BufTy).Contents (Elt F)), -- %397 = stablehlo.multiply %393, %315 : tensor<50000x64xf32>
    StableHlo.binary main_v396 main_v397 main_v398 (addf : (⟨S50000x64, .f32⟩ : BufTy).Contents (Elt F) → (⟨S50000x64, .f32⟩ : BufTy).Contents (Elt F) → (⟨S50000x64, .f32⟩ : BufTy).Contents (Elt F)) ] -- %398 = stablehlo.add %396, %397 : tensor<50000x64xf32>

/-- Every buffer these operations touch is a TensorCore reference. -/
theorem opsSeg11_sub : (opsSeg11 : List (HloOp τ sig (Elt F))).Forall fun op => op.bufs ⊆ StableHlo.tcRefs τ sig :=
  ⟨StableHlo.unary_bufs_sub .., StableHlo.binary_bufs_sub .., StableHlo.unary_bufs_sub .., StableHlo.nullary_bufs_sub .., StableHlo.unary_bufs_sub .., StableHlo.binary_bufs_sub .., StableHlo.binary_bufs_sub .., StableHlo.binary_bufs_sub .., StableHlo.binary_bufs_sub ..⟩

/-- Each of these operations determines its results. -/
theorem opsSeg11_fresh : (opsSeg11 : List (HloOp τ sig (Elt F))).Forall fun op => op.fresh = ∅ :=
  ⟨rfl, rfl, rfl, rfl, rfl, rfl, rfl, rfl, rfl⟩

/-- The buffers these operations write, in order. -/
abbrev opsSeg11_W : List (Ref sig .tc) :=
  [main_v391, main_v392, main_v393, main_cst_87, main_v394, main_v395, main_v396, main_v397, main_v398]

/-- Each operation writes only its own result buffer, which is in the list. -/
theorem opsSeg11_writes : (opsSeg11 : List (HloOp τ sig (Elt F))).Forall fun op =>
    op.writes ⊆ (opsSeg11_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer none of these operations writes keeps its contents through them. -/
theorem opsSeg11_keep (V : Valuation τ sig (Elt F)) (r : Ref sig .tc) (h : r ∉ opsSeg11_W) :
    StableHlo.after (opsSeg11 (F := F)) V (Proc.devRef .tc r) = V (Proc.devRef .tc r) :=
  StableHlo.after_of_writes_sub opsSeg11 V opsSeg11_writes h

/-- Message-passing layer 2, in the same order as layer 0. -/
abbrev opsLayer2 : List (HloOp τ sig (Elt F)) :=
  opsSeg08 ++ (opsSeg09 ++ (opsSeg10 ++ (opsSeg11)))

/-- The buffers opsLayer2 writes, in order. -/
abbrev opsLayer2_W : List (Ref sig .tc) :=
  opsSeg08_W ++ (opsSeg09_W ++ (opsSeg10_W ++ (opsSeg11_W)))

/-- The contents after opsLayer2, piece by piece. -/
theorem opsLayer2_after (V : Valuation τ sig (Elt F)) :
    StableHlo.after (opsLayer2 (F := F)) V = StableHlo.after opsSeg11 (StableHlo.after opsSeg10 (StableHlo.after opsSeg09 (StableHlo.after opsSeg08 V))) := by
  simp only [opsLayer2, after_append]

/-- A buffer opsLayer2 does not write keeps its contents through it. -/
theorem opsLayer2_keep (V : Valuation τ sig (Elt F)) (r : Ref sig .tc) (h : r ∉ opsLayer2_W) :
    StableHlo.after (opsLayer2 (F := F)) V (Proc.devRef .tc r) = V (Proc.devRef .tc r) := by
  rw [opsLayer2_after]
  rw [opsSeg11_keep _ r (fun hm => h (List.mem_append_right _ (List.mem_append_right _ (List.mem_append_right _ (hm))))),
    opsSeg10_keep _ r (fun hm => h (List.mem_append_right _ (List.mem_append_right _ (List.mem_append_left _ hm)))),
    opsSeg09_keep _ r (fun hm => h (List.mem_append_right _ (List.mem_append_left _ hm))),
    opsSeg08_keep _ r (fun hm => h (List.mem_append_left _ hm))]

end Cert.ReferenceIdeal.RefRun

end
-- ==== Proof.RefOpsL3.lean ====
/- The reference program's operations, part 5 of 6: message-passing layer 3, in the same order as layer 0. Each list entry is one operation of the
   program, in program order, written as the program writes it; where the program calls an outlined function, that function's
   operations stand in place of the call, over the buffers of that call. With each list: every buffer it touches is a
   TensorCore reference, every operation determines its result, and a buffer that is not among the list's result buffers
   keeps its contents through the list. -/
import proofs.«117928_j61658550502081_1_alg».proof.Proof.Gen.ReferenceIdeal
import proofs.«117928_j61658550502081_1_alg».proof.Proof.RefBase

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- The reference's operations 504 … 554 of 852, in order; an outlined function's operations stand at its call, over that call's buffers. -/
abbrev opsSeg12 : List (HloOp τ sig (Elt F)) :=
  [ StableHlo.unary main_arg5 main_v399 ((extractStridedSlice S1x64x64 ![3, 0, 0] · slices_S4x64x64_S1x64x64_3_0_0) : (⟨S4x64x64, .f32⟩ : BufTy).Contents (Elt F) → (⟨S1x64x64, .f32⟩ : BufTy).Contents (Elt F)), -- %399 = stablehlo.slice %arg5 [3:4, 0:64, 0:64] : (tensor<4x64x64xf32>) -> tensor<1x64x64xf32>
    StableHlo.reshape main_v399 main_v400 rfl shapeCasts_S1x64x64_S64x64, -- %400 = stablehlo.reshape %399 : (tensor<1x64x64xf32>) -> tensor<64x64xf32>
    StableHlo.unary main_arg6 main_v401 ((extractStridedSlice S1x64 ![3, 0] · slices_S4x64_S1x64_3_0) : (⟨S4x64, .f32⟩ : BufTy).Contents (Elt F) → (⟨S1x64, .f32⟩ : BufTy).Contents (Elt F)), -- %401 = stablehlo.slice %arg6 [3:4, 0:64] : (tensor<4x64xf32>) -> tensor<1x64xf32>
    StableHlo.reshape main_v401 main_v402 rfl shapeCasts_S1x64_S64, -- %402 = stablehlo.reshape %401 : (tensor<1x64xf32>) -> tensor<64xf32>
    StableHlo.binary main_v398 main_v400 main_v403 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)), -- %403 = stablehlo.dot_general %398, %400, contracting_dims = [1] x [0], precision = [DEFAULT, DEFAULT] : (tensor<50000x64xf32>, tensor<64x64xf32>) -> tensor<50000x64xf32>
    StableHlo.nullary main_v404 (iotaInDim S50000 32 0), -- %404 = stablehlo.iota dim = 0 : tensor<50000xi32>
    StableHlo.binary main_v1 main_v404 main_v405 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)), -- %405 = stablehlo.concatenate %1, %404, dim = 0 : (tensor<800000xi32>, tensor<50000xi32>) -> tensor<850000xi32>
    StableHlo.binary main_v3 main_v404 main_v406 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)), -- %406 = stablehlo.concatenate %3, %404, dim = 0 : (tensor<800000xi32>, tensor<50000xi32>) -> tensor<850000xi32>
    StableHlo.nullary main_cst_88 (constant S_ .f32 0x3F800000#32), -- %cst_88 = stablehlo.constant dense<1.000000e+00> : tensor<f32>
    StableHlo.unary main_cst_88 main_v407 (broadcastInDim S850000 ![] bcast_S_S850000 : (⟨S_, .f32⟩ : BufTy).Contents (Elt F) → (⟨S850000, .f32⟩ : BufTy).Contents (Elt F)), -- %407 = stablehlo.broadcast_in_dim %cst_88, dims = [] : (tensor<f32>) -> tensor<850000xf32>
    StableHlo.nullary main_cst_89 (constant S_ .f32 0x00000000#32), -- %cst_89 = stablehlo.constant dense<0.000000e+00> : tensor<f32>
    StableHlo.unary main_cst_89 main_v408 (broadcastInDim S50000 ![] bcast_S_S50000 : (⟨S_, .f32⟩ : BufTy).Contents (Elt F) → (⟨S50000, .f32⟩ : BufTy).Contents (Elt F)), -- %408 = stablehlo.broadcast_in_dim %cst_89, dims = [] : (tensor<f32>) -> tensor<50000xf32>
    StableHlo.unary main_v406 main_v409 (broadcastInDim S850000x1 ![0] bcast_S850000_S850000x1_0 : (⟨S850000, .i32⟩ : BufTy).Contents (Elt F) → (⟨S850000x1, .i32⟩ : BufTy).Contents (Elt F)), -- %409 = stablehlo.broadcast_in_dim %406, dims = [0] : (tensor<850000xi32>) -> tensor<850000x1xi32>
    StableHlo.ternary main_v408 main_v409 main_v407 main_v410 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)), -- %410 = "stablehlo.scatter"(%408, %409, %407) <{indices_are_sorted = false, scatter_dimension_numbers = #stablehlo.scatter<inserted_window_dims = [0], scatter_dims_to_operand_dims = [0], index_vector_dim = 1>, unique_indices = false}> ( {
    StableHlo.nullary main_cst_90 (constant S_ .f32 0x3F800000#32), -- %cst_90 = stablehlo.constant dense<1.000000e+00> : tensor<f32>
    StableHlo.unary main_cst_90 main_v411 (broadcastInDim S50000 ![] bcast_S_S50000 : (⟨S_, .f32⟩ : BufTy).Contents (Elt F) → (⟨S50000, .f32⟩ : BufTy).Contents (Elt F)), -- %411 = stablehlo.broadcast_in_dim %cst_90, dims = [] : (tensor<f32>) -> tensor<50000xf32>
    StableHlo.binary main_v410 main_v411 main_v412 (maximumf : (⟨S50000, .f32⟩ : BufTy).Contents (Elt F) → (⟨S50000, .f32⟩ : BufTy).Contents (Elt F) → (⟨S50000, .f32⟩ : BufTy).Contents (Elt F)), -- %412 = stablehlo.maximum %410, %411 : tensor<50000xf32>
    StableHlo.unary main_v412 main_v413 (Host.rsqrt : (⟨S50000, .f32⟩ : BufTy).Contents (Elt F) → (⟨S50000, .f32⟩ : BufTy).Contents (Elt F)), -- %413 = stablehlo.rsqrt %412 : tensor<50000xf32>
    StableHlo.nullary main_c_91 (constantI S_ 32 0#32), -- %c_91 = stablehlo.constant dense<0> : tensor<i32>
    StableHlo.unary main_c_91 main_v414 (broadcastInDim S850000 ![] bcast_S_S850000 : (⟨S_, .i32⟩ : BufTy).Contents (Elt F) → (⟨S850000, .i32⟩ : BufTy).Contents (Elt F)), -- %414 = stablehlo.broadcast_in_dim %c_91, dims = [] : (tensor<i32>) -> tensor<850000xi32>
    StableHlo.binary main_v405 main_v414 main_v415 (cmpi .slt : (⟨S850000, .i32⟩ : BufTy).Contents (Elt F) → (⟨S850000, .i32⟩ : BufTy).Contents (Elt F) → (⟨S850000, .i1⟩ : BufTy).Contents (Elt F)), -- %415 = stablehlo.compare LT, %405, %414, SIGNED : (tensor<850000xi32>, tensor<850000xi32>) -> tensor<850000xi1>
    StableHlo.nullary main_c_92 (constantI S_ 32 50000#32), -- %c_92 = stablehlo.constant dense<50000> : tensor<i32>
    StableHlo.unary main_c_92 main_v416 (broadcastInDim S850000 ![] bcast_S_S850000 : (⟨S_, .i32⟩ : BufTy).Contents (Elt F) → (⟨S850000, .i32⟩ : BufTy).Contents (Elt F)), -- %416 = stablehlo.broadcast_in_dim %c_92, dims = [] : (tensor<i32>) -> tensor<850000xi32>
    StableHlo.binary main_v405 main_v416 main_v417 (addi : (⟨S850000, .i32⟩ : BufTy).Contents (Elt F) → (⟨S850000, .i32⟩ : BufTy).Contents (Elt F) → (⟨S850000, .i32⟩ : BufTy).Contents (Elt F)), -- %417 = stablehlo.add %405, %416 : tensor<850000xi32>
    StableHlo.ternary main_v415 main_v417 main_v405 main_v418 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)), -- %418 = stablehlo.select %415, %417, %405 : tensor<850000xi1>, tensor<850000xi32>
    StableHlo.unary main_v418 main_v419 (broadcastInDim S850000x1 ![0] bcast_S850000_S850000x1_0 : (⟨S850000, .i32⟩ : BufTy).Contents (Elt F) → (⟨S850000x1, .i32⟩ : BufTy).Contents (Elt F)), -- %419 = stablehlo.broadcast_in_dim %418, dims = [0] : (tensor<850000xi32>) -> tensor<850000x1xi32>
    StableHlo.binary main_v413 main_v419 main_v420 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)), -- %420 = "stablehlo.gather"(%413, %419) <{dimension_numbers = #stablehlo.gather<collapsed_slice_dims = [0], start_index_map = [0], index_vector_dim = 1>, indices_are_sorted = false, slice_sizes = array<i64: 1>}> : (tensor<50000xf32>, tensor<850000x1xi32>) -> tensor<850000xf32>
    StableHlo.nullary main_c_93 (constantI S_ 32 0#32), -- %c_93 = stablehlo.constant dense<0> : tensor<i32>
    StableHlo.unary main_c_93 main_v421 (broadcastInDim S850000 ![] bcast_S_S850000 : (⟨S_, .i32⟩ : BufTy).Contents (Elt F) → (⟨S850000, .i32⟩ : BufTy).Contents (Elt F)), -- %421 = stablehlo.broadcast_in_dim %c_93, dims = [] : (tensor<i32>) -> tensor<850000xi32>
    StableHlo.binary main_v406 main_v421 main_v422 (cmpi .slt : (⟨S850000, .i32⟩ : BufTy).Contents (Elt F) → (⟨S850000, .i32⟩ : BufTy).Contents (Elt F) → (⟨S850000, .i1⟩ : BufTy).Contents (Elt F)), -- %422 = stablehlo.compare LT, %406, %421, SIGNED : (tensor<850000xi32>, tensor<850000xi32>) -> tensor<850000xi1>
    StableHlo.nullary main_c_94 (constantI S_ 32 50000#32), -- %c_94 = stablehlo.constant dense<50000> : tensor<i32>
    StableHlo.unary main_c_94 main_v423 (broadcastInDim S850000 ![] bcast_S_S850000 : (⟨S_, .i32⟩ : BufTy).Contents (Elt F) → (⟨S850000, .i32⟩ : BufTy).Contents (Elt F)), -- %423 = stablehlo.broadcast_in_dim %c_94, dims = [] : (tensor<i32>) -> tensor<850000xi32>
    StableHlo.binary main_v406 main_v423 main_v424 (addi : (⟨S850000, .i32⟩ : BufTy).Contents (Elt F) → (⟨S850000, .i32⟩ : BufTy).Contents (Elt F) → (⟨S850000, .i32⟩ : BufTy).Contents (Elt F)), -- %424 = stablehlo.add %406, %423 : tensor<850000xi32>
    StableHlo.ternary main_v422 main_v424 main_v406 main_v425 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)), -- %425 = stablehlo.select %422, %424, %406 : tensor<850000xi1>, tensor<850000xi32>
    StableHlo.unary main_v425 main_v426 (broadcastInDim S850000x1 ![0] bcast_S850000_S850000x1_0 : (⟨S850000, .i32⟩ : BufTy).Contents (Elt F) → (⟨S850000x1, .i32⟩ : BufTy).Contents (Elt F)), -- %426 = stablehlo.broadcast_in_dim %425, dims = [0] : (tensor<850000xi32>) -> tensor<850000x1xi32>
    StableHlo.binary main_v413 main_v426 main_v427 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)), -- %427 = "stablehlo.gather"(%413, %426) <{dimension_numbers = #stablehlo.gather<collapsed_slice_dims = [0], start_index_map = [0], index_vector_dim = 1>, indices_are_sorted = false, slice_sizes = array<i64: 1>}> : (tensor<50000xf32>, tensor<850000x1xi32>) -> tensor<850000xf32>
    StableHlo.binary main_v420 main_v427 main_v428 (mulf : (⟨S850000, .f32⟩ : BufTy).Contents (Elt F) → (⟨S850000, .f32⟩ : BufTy).Contents (Elt F) → (⟨S850000, .f32⟩ : BufTy).Contents (Elt F)), -- %428 = stablehlo.multiply %420, %427 : tensor<850000xf32>
    StableHlo.unary main_v428 main_v429 (broadcastInDim S850000x1 ![0] bcast_S850000_S850000x1_0 : (⟨S850000, .f32⟩ : BufTy).Contents (Elt F) → (⟨S850000x1, .f32⟩ : BufTy).Contents (Elt F)), -- %429 = stablehlo.broadcast_in_dim %428, dims = [0] : (tensor<850000xf32>) -> tensor<850000x1xf32>
    StableHlo.nullary main_c_95 (constantI S_ 32 0#32), -- %c_95 = stablehlo.constant dense<0> : tensor<i32>
    StableHlo.unary main_c_95 main_v430 (broadcastInDim S850000 ![] bcast_S_S850000 : (⟨S_, .i32⟩ : BufTy).Contents (Elt F) → (⟨S850000, .i32⟩ : BufTy).Contents (Elt F)), -- %430 = stablehlo.broadcast_in_dim %c_95, dims = [] : (tensor<i32>) -> tensor<850000xi32>
    StableHlo.binary main_v405 main_v430 main_v431 (cmpi .slt : (⟨S850000, .i32⟩ : BufTy).Contents (Elt F) → (⟨S850000, .i32⟩ : BufTy).Contents (Elt F) → (⟨S850000, .i1⟩ : BufTy).Contents (Elt F)), -- %431 = stablehlo.compare LT, %405, %430, SIGNED : (tensor<850000xi32>, tensor<850000xi32>) -> tensor<850000xi1>
    StableHlo.nullary main_c_96 (constantI S_ 32 50000#32), -- %c_96 = stablehlo.constant dense<50000> : tensor<i32>
    StableHlo.unary main_c_96 main_v432 (broadcastInDim S850000 ![] bcast_S_S850000 : (⟨S_, .i32⟩ : BufTy).Contents (Elt F) → (⟨S850000, .i32⟩ : BufTy).Contents (Elt F)), -- %432 = stablehlo.broadcast_in_dim %c_96, dims = [] : (tensor<i32>) -> tensor<850000xi32>
    StableHlo.binary main_v405 main_v432 main_v433 (addi : (⟨S850000, .i32⟩ : BufTy).Contents (Elt F) → (⟨S850000, .i32⟩ : BufTy).Contents (Elt F) → (⟨S850000, .i32⟩ : BufTy).Contents (Elt F)), -- %433 = stablehlo.add %405, %432 : tensor<850000xi32>
    StableHlo.ternary main_v431 main_v433 main_v405 main_v434 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)), -- %434 = stablehlo.select %431, %433, %405 : tensor<850000xi1>, tensor<850000xi32>
    StableHlo.unary main_v434 main_v435 (broadcastInDim S850000x1 ![0] bcast_S850000_S850000x1_0 : (⟨S850000, .i32⟩ : BufTy).Contents (Elt F) → (⟨S850000x1, .i32⟩ : BufTy).Contents (Elt F)), -- %435 = stablehlo.broadcast_in_dim %434, dims = [0] : (tensor<850000xi32>) -> tensor<850000x1xi32>
    StableHlo.binary main_v403 main_v435 main_v436 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)), -- %436 = "stablehlo.gather"(%403, %435) <{dimension_numbers = #stablehlo.gather<offset_dims = [1], collapsed_slice_dims = [0], start_index_map = [0], index_vector_dim = 1>, indices_are_sorted = false, slice_sizes = array<i64: 1, 64>}> : (tensor<50000x64xf32>, tensor<850000x1xi32>) -> tensor<850000x64xf32>
    StableHlo.unary main_v429 main_v437 (broadcastInDim S850000x64 ![0, 1] bcast_S850000x1_S850000x64_0_1 : (⟨S850000x1, .f32⟩ : BufTy).Contents (Elt F) → (⟨S850000x64, .f32⟩ : BufTy).Contents (Elt F)), -- %437 = stablehlo.broadcast_in_dim %429, dims = [0, 1] : (tensor<850000x1xf32>) -> tensor<850000x64xf32>
    StableHlo.binary main_v436 main_v437 main_v438 (mulf : (⟨S850000x64, .f32⟩ : BufTy).Contents (Elt F) → (⟨S850000x64, .f32⟩ : BufTy).Contents (Elt F) → (⟨S850000x64, .f32⟩ : BufTy).Contents (Elt F)), -- %438 = stablehlo.multiply %436, %437 : tensor<850000x64xf32>
    StableHlo.nullary main_cst_97 (constant S_ .f32 0x00000000#32), -- %cst_97 = stablehlo.constant dense<0.000000e+00> : tensor<f32>
    StableHlo.unary main_cst_97 main_v439 (broadcastInDim S50000x64 ![] bcast_S_S50000x64 : (⟨S_, .f32⟩ : BufTy).Contents (Elt F) → (⟨S50000x64, .f32⟩ : BufTy).Contents (Elt F)) ] -- %439 = stablehlo.broadcast_in_dim %cst_97, dims = [] : (tensor<f32>) -> tensor<50000x64xf32>

/-- Every buffer these operations touch is a TensorCore reference. -/
theorem opsSeg12_sub : (opsSeg12 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.binary_bufs_sub .., StableHlo.nullary_bufs_sub .., StableHlo.binary_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub ..⟩

/-- Each of these operations determines its results. -/
theorem opsSeg12_fresh : (opsSeg12 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers these operations write, in order. -/
abbrev opsSeg12_W : List (Ref sig .tc) :=
  [main_v399, main_v400, main_v401, main_v402, main_v403, main_v404, main_v405, main_v406, main_cst_88, main_v407, main_cst_89, main_v408, main_v409, main_v410, main_cst_90, main_v411, main_v412, main_v413, main_c_91, main_v414, main_v415, main_c_92, main_v416, main_v417, main_v418, main_v419, main_v420, main_c_93, main_v421, main_v422, main_c_94, main_v423, main_v424, main_v425, main_v426, main_v427, main_v428, main_v429, main_c_95, main_v430, main_v431, main_c_96, main_v432, main_v433, main_v434, main_v435, main_v436, main_v437, main_v438, main_cst_97, main_v439]

/-- Each operation writes only its own result buffer, which is in the list. -/
theorem opsSeg12_writes : (opsSeg12 : List (HloOp τ sig (Elt F))).Forall fun op =>
    op.writes ⊆ (opsSeg12_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer none of these operations writes keeps its contents through them. -/
theorem opsSeg12_keep (V : Valuation τ sig (Elt F)) (r : Ref sig .tc) (h : r ∉ opsSeg12_W) :
    StableHlo.after (opsSeg12 (F := F)) V (Proc.devRef .tc r) = V (Proc.devRef .tc r) :=
  StableHlo.after_of_writes_sub opsSeg12 V opsSeg12_writes h

/-- The reference's operations 555 … 616 of 852, in order; an outlined function's operations stand at its call, over that call's buffers. -/
abbrev opsSeg13 : List (HloOp τ sig (Elt F)) :=
  [ StableHlo.unary main_v406 main_v440 (broadcastInDim S850000x1 ![0] bcast_S850000_S850000x1_0 : (⟨S850000, .i32⟩ : BufTy).Contents (Elt F) → (⟨S850000x1, .i32⟩ : BufTy).Contents (Elt F)), -- %440 = stablehlo.broadcast_in_dim %406, dims = [0] : (tensor<850000xi32>) -> tensor<850000x1xi32>
    StableHlo.ternary main_v439 main_v440 main_v438 main_v441 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)), -- %441 = "stablehlo.scatter"(%439, %440, %438) <{indices_are_sorted = false, scatter_dimension_numbers = #stablehlo.scatter<update_window_dims = [1], inserted_window_dims = [0], scatter_dims_to_operand_dims = [0], index_vector_dim = 1>, unique_indices = false}> ( {
    StableHlo.unary main_v402 main_v442 (broadcastInDim S1x64 ![1] bcast_S64_S1x64_1 : (⟨S64, .f32⟩ : BufTy).Contents (Elt F) → (⟨S1x64, .f32⟩ : BufTy).Contents (Elt F)), -- %442 = stablehlo.broadcast_in_dim %402, dims = [1] : (tensor<64xf32>) -> tensor<1x64xf32>
    StableHlo.unary main_v442 main_v443 (broadcastInDim S50000x64 ![0, 1] bcast_S1x64_S50000x64_0_1 : (⟨S1x64, .f32⟩ : BufTy).Contents (Elt F) → (⟨S50000x64, .f32⟩ : BufTy).Contents (Elt F)), -- %443 = stablehlo.broadcast_in_dim %442, dims = [0, 1] : (tensor<1x64xf32>) -> tensor<50000x64xf32>
    StableHlo.binary main_v441 main_v443 main_v444 (addf : (⟨S50000x64, .f32⟩ : BufTy).Contents (Elt F) → (⟨S50000x64, .f32⟩ : BufTy).Contents (Elt F) → (⟨S50000x64, .f32⟩ : BufTy).Contents (Elt F)), -- %444 = stablehlo.add %441, %443 : tensor<50000x64xf32>
    StableHlo.TRef.nullary main_call7.cst (constant S_ .f32 0x00000000#32), -- @relu (main_call7): %cst = stablehlo.constant dense<0.000000e+00> : tensor<f32>
    StableHlo.TRef.unary main_call7.cst main_call7.v0 (broadcastInDim S50000x64 ![] bcast_S_S50000x64), -- @relu (main_call7): %0 = stablehlo.broadcast_in_dim %cst, dims = [] : (tensor<f32>) -> tensor<50000x64xf32>
    StableHlo.TRef.binary (.of main_v444 : StableHlo.TRef sig ⟨S50000x64, .f32⟩) main_call7.v0 main_call7.v1 maximumf, -- @relu (main_call7): %1 = stablehlo.maximum %arg0, %0 : tensor<50000x64xf32>
    StableHlo.unary main_arg7 main_v446 ((extractStridedSlice S1x64x64 ![3, 0, 0] · slices_S4x64x64_S1x64x64_3_0_0) : (⟨S4x64x64, .f32⟩ : BufTy).Contents (Elt F) → (⟨S1x64x64, .f32⟩ : BufTy).Contents (Elt F)), -- %446 = stablehlo.slice %arg7 [3:4, 0:64, 0:64] : (tensor<4x64x64xf32>) -> tensor<1x64x64xf32>
    StableHlo.reshape main_v446 main_v447 rfl shapeCasts_S1x64x64_S64x64, -- %447 = stablehlo.reshape %446 : (tensor<1x64x64xf32>) -> tensor<64x64xf32>
    StableHlo.unary main_arg8 main_v448 ((extractStridedSlice S1x64 ![3, 0] · slices_S4x64_S1x64_3_0) : (⟨S4x64, .f32⟩ : BufTy).Contents (Elt F) → (⟨S1x64, .f32⟩ : BufTy).Contents (Elt F)), -- %448 = stablehlo.slice %arg8 [3:4, 0:64] : (tensor<4x64xf32>) -> tensor<1x64xf32>
    StableHlo.reshape main_v448 main_v449 rfl shapeCasts_S1x64_S64, -- %449 = stablehlo.reshape %448 : (tensor<1x64xf32>) -> tensor<64xf32>
    StableHlo.binary main_v398 main_v447 main_v450 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)), -- %450 = stablehlo.dot_general %398, %447, contracting_dims = [1] x [0], precision = [DEFAULT, DEFAULT] : (tensor<50000x64xf32>, tensor<64x64xf32>) -> tensor<50000x64xf32>
    StableHlo.nullary main_v451 (iotaInDim S50000 32 0), -- %451 = stablehlo.iota dim = 0 : tensor<50000xi32>
    StableHlo.binary main_v1 main_v451 main_v452 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)), -- %452 = stablehlo.concatenate %1, %451, dim = 0 : (tensor<800000xi32>, tensor<50000xi32>) -> tensor<850000xi32>
    StableHlo.binary main_v3 main_v451 main_v453 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)), -- %453 = stablehlo.concatenate %3, %451, dim = 0 : (tensor<800000xi32>, tensor<50000xi32>) -> tensor<850000xi32>
    StableHlo.nullary main_cst_98 (constant S_ .f32 0x3F800000#32), -- %cst_98 = stablehlo.constant dense<1.000000e+00> : tensor<f32>
    StableHlo.unary main_cst_98 main_v454 (broadcastInDim S850000 ![] bcast_S_S850000 : (⟨S_, .f32⟩ : BufTy).Contents (Elt F) → (⟨S850000, .f32⟩ : BufTy).Contents (Elt F)), -- %454 = stablehlo.broadcast_in_dim %cst_98, dims = [] : (tensor<f32>) -> tensor<850000xf32>
    StableHlo.nullary main_cst_99 (constant S_ .f32 0x00000000#32), -- %cst_99 = stablehlo.constant dense<0.000000e+00> : tensor<f32>
    StableHlo.unary main_cst_99 main_v455 (broadcastInDim S50000 ![] bcast_S_S50000 : (⟨S_, .f32⟩ : BufTy).Contents (Elt F) → (⟨S50000, .f32⟩ : BufTy).Contents (Elt F)), -- %455 = stablehlo.broadcast_in_dim %cst_99, dims = [] : (tensor<f32>) -> tensor<50000xf32>
    StableHlo.unary main_v453 main_v456 (broadcastInDim S850000x1 ![0] bcast_S850000_S850000x1_0 : (⟨S850000, .i32⟩ : BufTy).Contents (Elt F) → (⟨S850000x1, .i32⟩ : BufTy).Contents (Elt F)), -- %456 = stablehlo.broadcast_in_dim %453, dims = [0] : (tensor<850000xi32>) -> tensor<850000x1xi32>
    StableHlo.ternary main_v455 main_v456 main_v454 main_v457 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)), -- %457 = "stablehlo.scatter"(%455, %456, %454) <{indices_are_sorted = false, scatter_dimension_numbers = #stablehlo.scatter<inserted_window_dims = [0], scatter_dims_to_operand_dims = [0], index_vector_dim = 1>, unique_indices = false}> ( {
    StableHlo.nullary main_cst_100 (constant S_ .f32 0x3F800000#32), -- %cst_100 = stablehlo.constant dense<1.000000e+00> : tensor<f32>
    StableHlo.unary main_cst_100 main_v458 (broadcastInDim S50000 ![] bcast_S_S50000 : (⟨S_, .f32⟩ : BufTy).Contents (Elt F) → (⟨S50000, .f32⟩ : BufTy).Contents (Elt F)), -- %458 = stablehlo.broadcast_in_dim %cst_100, dims = [] : (tensor<f32>) -> tensor<50000xf32>
    StableHlo.binary main_v457 main_v458 main_v459 (maximumf : (⟨S50000, .f32⟩ : BufTy).Contents (Elt F) → (⟨S50000, .f32⟩ : BufTy).Contents (Elt F) → (⟨S50000, .f32⟩ : BufTy).Contents (Elt F)), -- %459 = stablehlo.maximum %457, %458 : tensor<50000xf32>
    StableHlo.unary main_v459 main_v460 (Host.rsqrt : (⟨S50000, .f32⟩ : BufTy).Contents (Elt F) → (⟨S50000, .f32⟩ : BufTy).Contents (Elt F)), -- %460 = stablehlo.rsqrt %459 : tensor<50000xf32>
    StableHlo.nullary main_c_101 (constantI S_ 32 0#32), -- %c_101 = stablehlo.constant dense<0> : tensor<i32>
    StableHlo.unary main_c_101 main_v461 (broadcastInDim S850000 ![] bcast_S_S850000 : (⟨S_, .i32⟩ : BufTy).Contents (Elt F) → (⟨S850000, .i32⟩ : BufTy).Contents (Elt F)), -- %461 = stablehlo.broadcast_in_dim %c_101, dims = [] : (tensor<i32>) -> tensor<850000xi32>
    StableHlo.binary main_v452 main_v461 main_v462 (cmpi .slt : (⟨S850000, .i32⟩ : BufTy).Contents (Elt F) → (⟨S850000, .i32⟩ : BufTy).Contents (Elt F) → (⟨S850000, .i1⟩ : BufTy).Contents (Elt F)), -- %462 = stablehlo.compare LT, %452, %461, SIGNED : (tensor<850000xi32>, tensor<850000xi32>) -> tensor<850000xi1>
    StableHlo.nullary main_c_102 (constantI S_ 32 50000#32), -- %c_102 = stablehlo.constant dense<50000> : tensor<i32>
    StableHlo.unary main_c_102 main_v463 (broadcastInDim S850000 ![] bcast_S_S850000 : (⟨S_, .i32⟩ : BufTy).Contents (Elt F) → (⟨S850000, .i32⟩ : BufTy).Contents (Elt F)), -- %463 = stablehlo.broadcast_in_dim %c_102, dims = [] : (tensor<i32>) -> tensor<850000xi32>
    StableHlo.binary main_v452 main_v463 main_v464 (addi : (⟨S850000, .i32⟩ : BufTy).Contents (Elt F) → (⟨S850000, .i32⟩ : BufTy).Contents (Elt F) → (⟨S850000, .i32⟩ : BufTy).Contents (Elt F)), -- %464 = stablehlo.add %452, %463 : tensor<850000xi32>
    StableHlo.ternary main_v462 main_v464 main_v452 main_v465 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)), -- %465 = stablehlo.select %462, %464, %452 : tensor<850000xi1>, tensor<850000xi32>
    StableHlo.unary main_v465 main_v466 (broadcastInDim S850000x1 ![0] bcast_S850000_S850000x1_0 : (⟨S850000, .i32⟩ : BufTy).Contents (Elt F) → (⟨S850000x1, .i32⟩ : BufTy).Contents (Elt F)), -- %466 = stablehlo.broadcast_in_dim %465, dims = [0] : (tensor<850000xi32>) -> tensor<850000x1xi32>
    StableHlo.binary main_v460 main_v466 main_v467 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)), -- %467 = "stablehlo.gather"(%460, %466) <{dimension_numbers = #stablehlo.gather<collapsed_slice_dims = [0], start_index_map = [0], index_vector_dim = 1>, indices_are_sorted = false, slice_sizes = array<i64: 1>}> : (tensor<50000xf32>, tensor<850000x1xi32>) -> tensor<850000xf32>
    StableHlo.nullary main_c_103 (constantI S_ 32 0#32), -- %c_103 = stablehlo.constant dense<0> : tensor<i32>
    StableHlo.unary main_c_103 main_v468 (broadcastInDim S850000 ![] bcast_S_S850000 : (⟨S_, .i32⟩ : BufTy).Contents (Elt F) → (⟨S850000, .i32⟩ : BufTy).Contents (Elt F)), -- %468 = stablehlo.broadcast_in_dim %c_103, dims = [] : (tensor<i32>) -> tensor<850000xi32>
    StableHlo.binary main_v453 main_v468 main_v469 (cmpi .slt : (⟨S850000, .i32⟩ : BufTy).Contents (Elt F) → (⟨S850000, .i32⟩ : BufTy).Contents (Elt F) → (⟨S850000, .i1⟩ : BufTy).Contents (Elt F)), -- %469 = stablehlo.compare LT, %453, %468, SIGNED : (tensor<850000xi32>, tensor<850000xi32>) -> tensor<850000xi1>
    StableHlo.nullary main_c_104 (constantI S_ 32 50000#32), -- %c_104 = stablehlo.constant dense<50000> : tensor<i32>
    StableHlo.unary main_c_104 main_v470 (broadcastInDim S850000 ![] bcast_S_S850000 : (⟨S_, .i32⟩ : BufTy).Contents (Elt F) → (⟨S850000, .i32⟩ : BufTy).Contents (Elt F)), -- %470 = stablehlo.broadcast_in_dim %c_104, dims = [] : (tensor<i32>) -> tensor<850000xi32>
    StableHlo.binary main_v453 main_v470 main_v471 (addi : (⟨S850000, .i32⟩ : BufTy).Contents (Elt F) → (⟨S850000, .i32⟩ : BufTy).Contents (Elt F) → (⟨S850000, .i32⟩ : BufTy).Contents (Elt F)), -- %471 = stablehlo.add %453, %470 : tensor<850000xi32>
    StableHlo.ternary main_v469 main_v471 main_v453 main_v472 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)), -- %472 = stablehlo.select %469, %471, %453 : tensor<850000xi1>, tensor<850000xi32>
    StableHlo.unary main_v472 main_v473 (broadcastInDim S850000x1 ![0] bcast_S850000_S850000x1_0 : (⟨S850000, .i32⟩ : BufTy).Contents (Elt F) → (⟨S850000x1, .i32⟩ : BufTy).Contents (Elt F)), -- %473 = stablehlo.broadcast_in_dim %472, dims = [0] : (tensor<850000xi32>) -> tensor<850000x1xi32>
    StableHlo.binary main_v460 main_v473 main_v474 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)), -- %474 = "stablehlo.gather"(%460, %473) <{dimension_numbers = #stablehlo.gather<collapsed_slice_dims = [0], start_index_map = [0], index_vector_dim = 1>, indices_are_sorted = false, slice_sizes = array<i64: 1>}> : (tensor<50000xf32>, tensor<850000x1xi32>) -> tensor<850000xf32>
    StableHlo.binary main_v467 main_v474 main_v475 (mulf : (⟨S850000, .f32⟩ : BufTy).Contents (Elt F) → (⟨S850000, .f32⟩ : BufTy).Contents (Elt F) → (⟨S850000, .f32⟩ : BufTy).Contents (Elt F)), -- %475 = stablehlo.multiply %467, %474 : tensor<850000xf32>
    StableHlo.unary main_v475 main_v476 (broadcastInDim S850000x1 ![0] bcast_S850000_S850000x1_0 : (⟨S850000, .f32⟩ : BufTy).Contents (Elt F) → (⟨S850000x1, .f32⟩ : BufTy).Contents (Elt F)), -- %476 = stablehlo.broadcast_in_dim %475, dims = [0] : (tensor<850000xf32>) -> tensor<850000x1xf32>
    StableHlo.nullary main_c_105 (constantI S_ 32 0#32), -- %c_105 = stablehlo.constant dense<0> : tensor<i32>
    StableHlo.unary main_c_105 main_v477 (broadcastInDim S850000 ![] bcast_S_S850000 : (⟨S_, .i32⟩ : BufTy).Contents (Elt F) → (⟨S850000, .i32⟩ : BufTy).Contents (Elt F)), -- %477 = stablehlo.broadcast_in_dim %c_105, dims = [] : (tensor<i32>) -> tensor<850000xi32>
    StableHlo.binary main_v452 main_v477 main_v478 (cmpi .slt : (⟨S850000, .i32⟩ : BufTy).Contents (Elt F) → (⟨S850000, .i32⟩ : BufTy).Contents (Elt F) → (⟨S850000, .i1⟩ : BufTy).Contents (Elt F)), -- %478 = stablehlo.compare LT, %452, %477, SIGNED : (tensor<850000xi32>, tensor<850000xi32>) -> tensor<850000xi1>
    StableHlo.nullary main_c_106 (constantI S_ 32 50000#32), -- %c_106 = stablehlo.constant dense<50000> : tensor<i32>
    StableHlo.unary main_c_106 main_v479 (broadcastInDim S850000 ![] bcast_S_S850000 : (⟨S_, .i32⟩ : BufTy).Contents (Elt F) → (⟨S850000, .i32⟩ : BufTy).Contents (Elt F)), -- %479 = stablehlo.broadcast_in_dim %c_106, dims = [] : (tensor<i32>) -> tensor<850000xi32>
    StableHlo.binary main_v452 main_v479 main_v480 (addi : (⟨S850000, .i32⟩ : BufTy).Contents (Elt F) → (⟨S850000, .i32⟩ : BufTy).Contents (Elt F) → (⟨S850000, .i32⟩ : BufTy).Contents (Elt F)), -- %480 = stablehlo.add %452, %479 : tensor<850000xi32>
    StableHlo.ternary main_v478 main_v480 main_v452 main_v481 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)), -- %481 = stablehlo.select %478, %480, %452 : tensor<850000xi1>, tensor<850000xi32>
    StableHlo.unary main_v481 main_v482 (broadcastInDim S850000x1 ![0] bcast_S850000_S850000x1_0 : (⟨S850000, .i32⟩ : BufTy).Contents (Elt F) → (⟨S850000x1, .i32⟩ : BufTy).Contents (Elt F)), -- %482 = stablehlo.broadcast_in_dim %481, dims = [0] : (tensor<850000xi32>) -> tensor<850000x1xi32>
    StableHlo.binary main_v450 main_v482 main_v483 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)), -- %483 = "stablehlo.gather"(%450, %482) <{dimension_numbers = #stablehlo.gather<offset_dims = [1], collapsed_slice_dims = [0], start_index_map = [0], index_vector_dim = 1>, indices_are_sorted = false, slice_sizes = array<i64: 1, 64>}> : (tensor<50000x64xf32>, tensor<850000x1xi32>) -> tensor<850000x64xf32>
    StableHlo.unary main_v476 main_v484 (broadcastInDim S850000x64 ![0, 1] bcast_S850000x1_S850000x64_0_1 : (⟨S850000x1, .f32⟩ : BufTy).Contents (Elt F) → (⟨S850000x64, .f32⟩ : BufTy).Contents (Elt F)), -- %484 = stablehlo.broadcast_in_dim %476, dims = [0, 1] : (tensor<850000x1xf32>) -> tensor<850000x64xf32>
    StableHlo.binary main_v483 main_v484 main_v485 (mulf : (⟨S850000x64, .f32⟩ : BufTy).Contents (Elt F) → (⟨S850000x64, .f32⟩ : BufTy).Contents (Elt F) → (⟨S850000x64, .f32⟩ : BufTy).Contents (Elt F)), -- %485 = stablehlo.multiply %483, %484 : tensor<850000x64xf32>
    StableHlo.nullary main_cst_107 (constant S_ .f32 0x00000000#32), -- %cst_107 = stablehlo.constant dense<0.000000e+00> : tensor<f32>
    StableHlo.unary main_cst_107 main_v486 (broadcastInDim S50000x64 ![] bcast_S_S50000x64 : (⟨S_, .f32⟩ : BufTy).Contents (Elt F) → (⟨S50000x64, .f32⟩ : BufTy).Contents (Elt F)), -- %486 = stablehlo.broadcast_in_dim %cst_107, dims = [] : (tensor<f32>) -> tensor<50000x64xf32>
    StableHlo.unary main_v453 main_v487 (broadcastInDim S850000x1 ![0] bcast_S850000_S850000x1_0 : (⟨S850000, .i32⟩ : BufTy).Contents (Elt F) → (⟨S850000x1, .i32⟩ : BufTy).Contents (Elt F)), -- %487 = stablehlo.broadcast_in_dim %453, dims = [0] : (tensor<850000xi32>) -> tensor<850000x1xi32>
    StableHlo.ternary main_v486 main_v487 main_v485 main_v488 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)), -- %488 = "stablehlo.scatter"(%486, %487, %485) <{indices_are_sorted = false, scatter_dimension_numbers = #stablehlo.scatter<update_window_dims = [1], inserted_window_dims = [0], scatter_dims_to_operand_dims = [0], index_vector_dim = 1>, unique_indices = false}> ( {
    StableHlo.unary main_v449 main_v489 (broadcastInDim S1x64 ![1] bcast_S64_S1x64_1 : (⟨S64, .f32⟩ : BufTy).Contents (Elt F) → (⟨S1x64, .f32⟩ : BufTy).Contents (Elt F)) ] -- %489 = stablehlo.broadcast_in_dim %449, dims = [1] : (tensor<64xf32>) -> tensor<1x64xf32>

/-- Every buffer these operations touch is a TensorCore reference. -/
theorem opsSeg13_sub : (opsSeg13 : List (HloOp τ sig (Elt F))).Forall fun op => op.bufs ⊆ StableHlo.tcRefs τ sig :=
  ⟨StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.binary_bufs_sub .., StableHlo.nullary_bufs_sub .., StableHlo.binary_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub ..⟩

/-- Each of these operations determines its results. -/
theorem opsSeg13_fresh : (opsSeg13 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers these operations write, in order. -/
abbrev opsSeg13_W : List (Ref sig .tc) :=
  [main_v440, main_v441, main_v442, main_v443, main_v444, main_call7.cst.ref, main_call7.v0.ref, main_call7.v1.ref, main_v446, main_v447, main_v448, main_v449, main_v450, main_v451, main_v452, main_v453, main_cst_98, main_v454, main_cst_99, main_v455, main_v456, main_v457, main_cst_100, main_v458, main_v459, main_v460, main_c_101, main_v461, main_v462, main_c_102, main_v463, main_v464, main_v465, main_v466, main_v467, main_c_103, main_v468, main_v469, main_c_104, main_v470, main_v471, main_v472, main_v473, main_v474, main_v475, main_v476, main_c_105, main_v477, main_v478, main_c_106, main_v479, main_v480, main_v481, main_v482, main_v483, main_v484, main_v485, main_cst_107, main_v486, main_v487, main_v488, main_v489]

/-- Each operation writes only its own result buffer, which is in the list. -/
theorem opsSeg13_writes : (opsSeg13 : List (HloOp τ sig (Elt F))).Forall fun op =>
    op.writes ⊆ (opsSeg13_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer none of these operations writes keeps its contents through them. -/
theorem opsSeg13_keep (V : Valuation τ sig (Elt F)) (r : Ref sig .tc) (h : r ∉ opsSeg13_W) :
    StableHlo.after (opsSeg13 (F := F)) V (Proc.devRef .tc r) = V (Proc.devRef .tc r) :=
  StableHlo.after_of_writes_sub opsSeg13 V opsSeg13_writes h

/-- The reference's operations 617 … 667 of 852, in order; an outlined function's operations stand at its call, over that call's buffers. -/
abbrev opsSeg14 : List (HloOp τ sig (Elt F)) :=
  [ StableHlo.unary main_v489 main_v490 (broadcastInDim S50000x64 ![0, 1] bcast_S1x64_S50000x64_0_1 : (⟨S1x64, .f32⟩ : BufTy).Contents (Elt F) → (⟨S50000x64, .f32⟩ : BufTy).Contents (Elt F)), -- %490 = stablehlo.broadcast_in_dim %489, dims = [0, 1] : (tensor<1x64xf32>) -> tensor<50000x64xf32>
    StableHlo.binary main_v488 main_v490 main_v491 (addf : (⟨S50000x64, .f32⟩ : BufTy).Contents (Elt F) → (⟨S50000x64, .f32⟩ : BufTy).Contents (Elt F) → (⟨S50000x64, .f32⟩ : BufTy).Contents (Elt F)), -- %491 = stablehlo.add %488, %490 : tensor<50000x64xf32>
    StableHlo.TRef.nullary main_call8.cst (constant S_ .f32 0x00000000#32), -- @relu (main_call8): %cst = stablehlo.constant dense<0.000000e+00> : tensor<f32>
    StableHlo.TRef.unary main_call8.cst main_call8.v0 (broadcastInDim S50000x64 ![] bcast_S_S50000x64), -- @relu (main_call8): %0 = stablehlo.broadcast_in_dim %cst, dims = [] : (tensor<f32>) -> tensor<50000x64xf32>
    StableHlo.TRef.binary (.of main_v491 : StableHlo.TRef sig ⟨S50000x64, .f32⟩) main_call8.v0 main_call8.v1 maximumf, -- @relu (main_call8): %1 = stablehlo.maximum %arg0, %0 : tensor<50000x64xf32>
    StableHlo.nullary main_c_108 (constantI S_ 32 0#32), -- %c_108 = stablehlo.constant dense<0> : tensor<i32>
    StableHlo.unary main_c_108 main_v493 (broadcastInDim S800000 ![] bcast_S_S800000 : (⟨S_, .i32⟩ : BufTy).Contents (Elt F) → (⟨S800000, .i32⟩ : BufTy).Contents (Elt F)), -- %493 = stablehlo.broadcast_in_dim %c_108, dims = [] : (tensor<i32>) -> tensor<800000xi32>
    StableHlo.binary main_v1 main_v493 main_v494 (cmpi .slt : (⟨S800000, .i32⟩ : BufTy).Contents (Elt F) → (⟨S800000, .i32⟩ : BufTy).Contents (Elt F) → (⟨S800000, .i1⟩ : BufTy).Contents (Elt F)), -- %494 = stablehlo.compare LT, %1, %493, SIGNED : (tensor<800000xi32>, tensor<800000xi32>) -> tensor<800000xi1>
    StableHlo.nullary main_c_109 (constantI S_ 32 50000#32), -- %c_109 = stablehlo.constant dense<50000> : tensor<i32>
    StableHlo.unary main_c_109 main_v495 (broadcastInDim S800000 ![] bcast_S_S800000 : (⟨S_, .i32⟩ : BufTy).Contents (Elt F) → (⟨S800000, .i32⟩ : BufTy).Contents (Elt F)), -- %495 = stablehlo.broadcast_in_dim %c_109, dims = [] : (tensor<i32>) -> tensor<800000xi32>
    StableHlo.binary main_v1 main_v495 main_v496 (addi : (⟨S800000, .i32⟩ : BufTy).Contents (Elt F) → (⟨S800000, .i32⟩ : BufTy).Contents (Elt F) → (⟨S800000, .i32⟩ : BufTy).Contents (Elt F)), -- %496 = stablehlo.add %1, %495 : tensor<800000xi32>
    StableHlo.ternary main_v494 main_v496 main_v1 main_v497 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)), -- %497 = stablehlo.select %494, %496, %1 : tensor<800000xi1>, tensor<800000xi32>
    StableHlo.unary main_v497 main_v498 (broadcastInDim S800000x1 ![0] bcast_S800000_S800000x1_0 : (⟨S800000, .i32⟩ : BufTy).Contents (Elt F) → (⟨S800000x1, .i32⟩ : BufTy).Contents (Elt F)), -- %498 = stablehlo.broadcast_in_dim %497, dims = [0] : (tensor<800000xi32>) -> tensor<800000x1xi32>
    StableHlo.binary main_v492 main_v498 main_v499 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)), -- %499 = "stablehlo.gather"(%492, %498) <{dimension_numbers = #stablehlo.gather<offset_dims = [1], collapsed_slice_dims = [0], start_index_map = [0], index_vector_dim = 1>, indices_are_sorted = false, slice_sizes = array<i64: 1, 64>}> : (tensor<50000x64xf32>, tensor<800000x1xi32>) -> tensor<800000x64xf32>
    StableHlo.nullary main_c_110 (constantI S_ 32 0#32), -- %c_110 = stablehlo.constant dense<0> : tensor<i32>
    StableHlo.unary main_c_110 main_v500 (broadcastInDim S800000 ![] bcast_S_S800000 : (⟨S_, .i32⟩ : BufTy).Contents (Elt F) → (⟨S800000, .i32⟩ : BufTy).Contents (Elt F)), -- %500 = stablehlo.broadcast_in_dim %c_110, dims = [] : (tensor<i32>) -> tensor<800000xi32>
    StableHlo.binary main_v3 main_v500 main_v501 (cmpi .slt : (⟨S800000, .i32⟩ : BufTy).Contents (Elt F) → (⟨S800000, .i32⟩ : BufTy).Contents (Elt F) → (⟨S800000, .i1⟩ : BufTy).Contents (Elt F)), -- %501 = stablehlo.compare LT, %3, %500, SIGNED : (tensor<800000xi32>, tensor<800000xi32>) -> tensor<800000xi1>
    StableHlo.nullary main_c_111 (constantI S_ 32 50000#32), -- %c_111 = stablehlo.constant dense<50000> : tensor<i32>
    StableHlo.unary main_c_111 main_v502 (broadcastInDim S800000 ![] bcast_S_S800000 : (⟨S_, .i32⟩ : BufTy).Contents (Elt F) → (⟨S800000, .i32⟩ : BufTy).Contents (Elt F)), -- %502 = stablehlo.broadcast_in_dim %c_111, dims = [] : (tensor<i32>) -> tensor<800000xi32>
    StableHlo.binary main_v3 main_v502 main_v503 (addi : (⟨S800000, .i32⟩ : BufTy).Contents (Elt F) → (⟨S800000, .i32⟩ : BufTy).Contents (Elt F) → (⟨S800000, .i32⟩ : BufTy).Contents (Elt F)), -- %503 = stablehlo.add %3, %502 : tensor<800000xi32>
    StableHlo.ternary main_v501 main_v503 main_v3 main_v504 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)), -- %504 = stablehlo.select %501, %503, %3 : tensor<800000xi1>, tensor<800000xi32>
    StableHlo.unary main_v504 main_v505 (broadcastInDim S800000x1 ![0] bcast_S800000_S800000x1_0 : (⟨S800000, .i32⟩ : BufTy).Contents (Elt F) → (⟨S800000x1, .i32⟩ : BufTy).Contents (Elt F)), -- %505 = stablehlo.broadcast_in_dim %504, dims = [0] : (tensor<800000xi32>) -> tensor<800000x1xi32>
    StableHlo.binary main_v492 main_v505 main_v506 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)), -- %506 = "stablehlo.gather"(%492, %505) <{dimension_numbers = #stablehlo.gather<offset_dims = [1], collapsed_slice_dims = [0], start_index_map = [0], index_vector_dim = 1>, indices_are_sorted = false, slice_sizes = array<i64: 1, 64>}> : (tensor<50000x64xf32>, tensor<800000x1xi32>) -> tensor<800000x64xf32>
    StableHlo.binary main_v499 main_v506 main_v507 (subf : (⟨S800000x64, .f32⟩ : BufTy).Contents (Elt F) → (⟨S800000x64, .f32⟩ : BufTy).Contents (Elt F) → (⟨S800000x64, .f32⟩ : BufTy).Contents (Elt F)), -- %507 = stablehlo.subtract %499, %506 : tensor<800000x64xf32>
    StableHlo.unary main_v507 main_v508 (Host.absf : (⟨S800000x64, .f32⟩ : BufTy).Contents (Elt F) → (⟨S800000x64, .f32⟩ : BufTy).Contents (Elt F)), -- %508 = stablehlo.abs %507 : tensor<800000x64xf32>
    StableHlo.nullary main_cst_112 (constant S_ .f32 0x40000000#32), -- %cst_112 = stablehlo.constant dense<2.000000e+00> : tensor<f32>
    StableHlo.unary main_cst_112 main_v509 (broadcastInDim S800000x64 ![] bcast_S_S800000x64 : (⟨S_, .f32⟩ : BufTy).Contents (Elt F) → (⟨S800000x64, .f32⟩ : BufTy).Contents (Elt F)), -- %509 = stablehlo.broadcast_in_dim %cst_112, dims = [] : (tensor<f32>) -> tensor<800000x64xf32>
    StableHlo.binary main_v508 main_v509 main_v510 (Host.powf : (⟨S800000x64, .f32⟩ : BufTy).Contents (Elt F) → (⟨S800000x64, .f32⟩ : BufTy).Contents (Elt F) → (⟨S800000x64, .f32⟩ : BufTy).Contents (Elt F)), -- %510 = stablehlo.power %508, %509 : tensor<800000x64xf32>
    StableHlo.nullary main_cst_113 (constant S_ .f32 0x00000000#32), -- %cst_113 = stablehlo.constant dense<0.000000e+00> : tensor<f32>
    StableHlo.unary main_cst_113 main_v511 (broadcastInDim S50000x64 ![] bcast_S_S50000x64 : (⟨S_, .f32⟩ : BufTy).Contents (Elt F) → (⟨S50000x64, .f32⟩ : BufTy).Contents (Elt F)), -- %511 = stablehlo.broadcast_in_dim %cst_113, dims = [] : (tensor<f32>) -> tensor<50000x64xf32>
    StableHlo.unary main_v1 main_v512 (broadcastInDim S800000x1 ![0] bcast_S800000_S800000x1_0 : (⟨S800000, .i32⟩ : BufTy).Contents (Elt F) → (⟨S800000x1, .i32⟩ : BufTy).Contents (Elt F)), -- %512 = stablehlo.broadcast_in_dim %1, dims = [0] : (tensor<800000xi32>) -> tensor<800000x1xi32>
    StableHlo.ternary main_v511 main_v512 main_v510 main_v513 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)), -- %513 = "stablehlo.scatter"(%511, %512, %510) <{indices_are_sorted = false, scatter_dimension_numbers = #stablehlo.scatter<update_window_dims = [1], inserted_window_dims = [0], scatter_dims_to_operand_dims = [0], index_vector_dim = 1>, unique_indices = false}> ( {
    StableHlo.nullary main_cst_114 (constant S_ .f32 0x3F800000#32), -- %cst_114 = stablehlo.constant dense<1.000000e+00> : tensor<f32>
    StableHlo.unary main_cst_114 main_v514 (broadcastInDim S800000 ![] bcast_S_S800000 : (⟨S_, .f32⟩ : BufTy).Contents (Elt F) → (⟨S800000, .f32⟩ : BufTy).Contents (Elt F)), -- %514 = stablehlo.broadcast_in_dim %cst_114, dims = [] : (tensor<f32>) -> tensor<800000xf32>
    StableHlo.nullary main_cst_115 (constant S_ .f32 0x00000000#32), -- %cst_115 = stablehlo.constant dense<0.000000e+00> : tensor<f32>
    StableHlo.unary main_cst_115 main_v515 (broadcastInDim S50000 ![] bcast_S_S50000 : (⟨S_, .f32⟩ : BufTy).Contents (Elt F) → (⟨S50000, .f32⟩ : BufTy).Contents (Elt F)), -- %515 = stablehlo.broadcast_in_dim %cst_115, dims = [] : (tensor<f32>) -> tensor<50000xf32>
    StableHlo.unary main_v1 main_v516 (broadcastInDim S800000x1 ![0] bcast_S800000_S800000x1_0 : (⟨S800000, .i32⟩ : BufTy).Contents (Elt F) → (⟨S800000x1, .i32⟩ : BufTy).Contents (Elt F)), -- %516 = stablehlo.broadcast_in_dim %1, dims = [0] : (tensor<800000xi32>) -> tensor<800000x1xi32>
    StableHlo.ternary main_v515 main_v516 main_v514 main_v517 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)), -- %517 = "stablehlo.scatter"(%515, %516, %514) <{indices_are_sorted = false, scatter_dimension_numbers = #stablehlo.scatter<inserted_window_dims = [0], scatter_dims_to_operand_dims = [0], index_vector_dim = 1>, unique_indices = false}> ( {
    StableHlo.nullary main_cst_116 (constant S_ .f32 0x3F800000#32), -- %cst_116 = stablehlo.constant dense<1.000000e+00> : tensor<f32>
    StableHlo.unary main_cst_116 main_v518 (broadcastInDim S50000 ![] bcast_S_S50000 : (⟨S_, .f32⟩ : BufTy).Contents (Elt F) → (⟨S50000, .f32⟩ : BufTy).Contents (Elt F)), -- %518 = stablehlo.broadcast_in_dim %cst_116, dims = [] : (tensor<f32>) -> tensor<50000xf32>
    StableHlo.binary main_v517 main_v518 main_v519 (maximumf : (⟨S50000, .f32⟩ : BufTy).Contents (Elt F) → (⟨S50000, .f32⟩ : BufTy).Contents (Elt F) → (⟨S50000, .f32⟩ : BufTy).Contents (Elt F)), -- %519 = stablehlo.maximum %517, %518 : tensor<50000xf32>
    StableHlo.unary main_v519 main_v520 (broadcastInDim S50000x1 ![0] bcast_S50000_S50000x1_0 : (⟨S50000, .f32⟩ : BufTy).Contents (Elt F) → (⟨S50000x1, .f32⟩ : BufTy).Contents (Elt F)), -- %520 = stablehlo.broadcast_in_dim %519, dims = [0] : (tensor<50000xf32>) -> tensor<50000x1xf32>
    StableHlo.unary main_v520 main_v521 (broadcastInDim S50000x64 ![0, 1] bcast_S50000x1_S50000x64_0_1 : (⟨S50000x1, .f32⟩ : BufTy).Contents (Elt F) → (⟨S50000x64, .f32⟩ : BufTy).Contents (Elt F)), -- %521 = stablehlo.broadcast_in_dim %520, dims = [0, 1] : (tensor<50000x1xf32>) -> tensor<50000x64xf32>
    StableHlo.binary main_v513 main_v521 main_v522 (Host.divf : (⟨S50000x64, .f32⟩ : BufTy).Contents (Elt F) → (⟨S50000x64, .f32⟩ : BufTy).Contents (Elt F) → (⟨S50000x64, .f32⟩ : BufTy).Contents (Elt F)), -- %522 = stablehlo.divide %513, %521 : tensor<50000x64xf32>
    StableHlo.unary main_v522 main_v523 (Host.tanh : (⟨S50000x64, .f32⟩ : BufTy).Contents (Elt F) → (⟨S50000x64, .f32⟩ : BufTy).Contents (Elt F)), -- %523 = stablehlo.tanh %522 : tensor<50000x64xf32>
    StableHlo.nullary main_cst_117 (constant S_ .f32 0x3F800000#32), -- %cst_117 = stablehlo.constant dense<1.000000e+00> : tensor<f32>
    StableHlo.unary main_cst_117 main_v524 (broadcastInDim S50000x64 ![] bcast_S_S50000x64 : (⟨S_, .f32⟩ : BufTy).Contents (Elt F) → (⟨S50000x64, .f32⟩ : BufTy).Contents (Elt F)), -- %524 = stablehlo.broadcast_in_dim %cst_117, dims = [] : (tensor<f32>) -> tensor<50000x64xf32>
    StableHlo.binary main_v524 main_v523 main_v525 (subf : (⟨S50000x64, .f32⟩ : BufTy).Contents (Elt F) → (⟨S50000x64, .f32⟩ : BufTy).Contents (Elt F) → (⟨S50000x64, .f32⟩ : BufTy).Contents (Elt F)), -- %525 = stablehlo.subtract %524, %523 : tensor<50000x64xf32>
    StableHlo.binary main_v525 main_v398 main_v526 (mulf : (⟨S50000x64, .f32⟩ : BufTy).Contents (Elt F) → (⟨S50000x64, .f32⟩ : BufTy).Contents (Elt F) → (⟨S50000x64, .f32⟩ : BufTy).Contents (Elt F)), -- %526 = stablehlo.multiply %525, %398 : tensor<50000x64xf32>
    StableHlo.binary main_v523 main_v445 main_v527 (mulf : (⟨S50000x64, .f32⟩ : BufTy).Contents (Elt F) → (⟨S50000x64, .f32⟩ : BufTy).Contents (Elt F) → (⟨S50000x64, .f32⟩ : BufTy).Contents (Elt F)), -- %527 = stablehlo.multiply %523, %445 : tensor<50000x64xf32>
    StableHlo.binary main_v526 main_v527 main_v528 (addf : (⟨S50000x64, .f32⟩ : BufTy).Contents (Elt F) → (⟨S50000x64, .f32⟩ : BufTy).Contents (Elt F) → (⟨S50000x64, .f32⟩ : BufTy).Contents (Elt F)) ] -- %528 = stablehlo.add %526, %527 : tensor<50000x64xf32>

/-- Every buffer these operations touch is a TensorCore reference. -/
theorem opsSeg14_sub : (opsSeg14 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.binary_bufs_sub .., StableHlo.binary_bufs_sub .., StableHlo.binary_bufs_sub ..⟩

/-- Each of these operations determines its results. -/
theorem opsSeg14_fresh : (opsSeg14 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers these operations write, in order. -/
abbrev opsSeg14_W : List (Ref sig .tc) :=
  [main_v490, main_v491, main_call8.cst.ref, main_call8.v0.ref, main_call8.v1.ref, main_c_108, main_v493, main_v494, main_c_109, main_v495, main_v496, main_v497, main_v498, main_v499, main_c_110, main_v500, main_v501, main_c_111, main_v502, main_v503, main_v504, main_v505, main_v506, main_v507, main_v508, main_cst_112, main_v509, main_v510, main_cst_113, main_v511, main_v512, main_v513, main_cst_114, main_v514, main_cst_115, main_v515, main_v516, main_v517, main_cst_116, main_v518, main_v519, main_v520, main_v521, main_v522, main_v523, main_cst_117, main_v524, main_v525, main_v526, main_v527, main_v528]

/-- Each operation writes only its own result buffer, which is in the list. -/
theorem opsSeg14_writes : (opsSeg14 : List (HloOp τ sig (Elt F))).Forall fun op =>
    op.writes ⊆ (opsSeg14_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer none of these operations writes keeps its contents through them. -/
theorem opsSeg14_keep (V : Valuation τ sig (Elt F)) (r : Ref sig .tc) (h : r ∉ opsSeg14_W) :
    StableHlo.after (opsSeg14 (F := F)) V (Proc.devRef .tc r) = V (Proc.devRef .tc r) :=
  StableHlo.after_of_writes_sub opsSeg14 V opsSeg14_writes h

/-- Message-passing layer 3, in the same order as layer 0. -/
abbrev opsLayer3 : List (HloOp τ sig (Elt F)) :=
  opsSeg12 ++ (opsSeg13 ++ (opsSeg14))

/-- The buffers opsLayer3 writes, in order. -/
abbrev opsLayer3_W : List (Ref sig .tc) :=
  opsSeg12_W ++ (opsSeg13_W ++ (opsSeg14_W))

/-- The contents after opsLayer3, piece by piece. -/
theorem opsLayer3_after (V : Valuation τ sig (Elt F)) :
    StableHlo.after (opsLayer3 (F := F)) V = StableHlo.after opsSeg14 (StableHlo.after opsSeg13 (StableHlo.after opsSeg12 V)) := by
  simp only [opsLayer3, after_append]

/-- A buffer opsLayer3 does not write keeps its contents through it. -/
theorem opsLayer3_keep (V : Valuation τ sig (Elt F)) (r : Ref sig .tc) (h : r ∉ opsLayer3_W) :
    StableHlo.after (opsLayer3 (F := F)) V (Proc.devRef .tc r) = V (Proc.devRef .tc r) := by
  rw [opsLayer3_after]
  rw [opsSeg14_keep _ r (fun hm => h (List.mem_append_right _ (List.mem_append_right _ (hm)))),
    opsSeg13_keep _ r (fun hm => h (List.mem_append_right _ (List.mem_append_left _ hm))),
    opsSeg12_keep _ r (fun hm => h (List.mem_append_left _ hm))]

end Cert.ReferenceIdeal.RefRun

end
-- ==== Proof.RefOpsTail.lean ====
/- The reference program's operations, part 6 of 6: the pooling scatter over graphs, the three blocks of affine map, batch statistics (mean and variance over the batch axis), normalization and rectifier, the last affine map, and the smoothness energy over the edges. Each list entry is one operation of the
   program, in program order, written as the program writes it; where the program calls an outlined function, that function's
   operations stand in place of the call, over the buffers of that call. With each list: every buffer it touches is a
   TensorCore reference, every operation determines its result, and a buffer that is not among the list's result buffers
   keeps its contents through the list. -/
import proofs.«117928_j61658550502081_1_alg».proof.Proof.Gen.ReferenceIdeal
import proofs.«117928_j61658550502081_1_alg».proof.Proof.RefBase

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- The reference's operations 668 … 678 of 852, in order; an outlined function's operations stand at its call, over that call's buffers. -/
abbrev opsSeg15 : List (HloOp τ sig (Elt F)) :=
  [ StableHlo.nullary main_cst_118 (constant S_ .f32 0x00000000#32), -- %cst_118 = stablehlo.constant dense<0.000000e+00> : tensor<f32>
    StableHlo.unary main_cst_118 main_v529 (broadcastInDim S500x64 ![] bcast_S_S500x64 : (⟨S_, .f32⟩ : BufTy).Contents (Elt F) → (⟨S500x64, .f32⟩ : BufTy).Contents (Elt F)), -- %529 = stablehlo.broadcast_in_dim %cst_118, dims = [] : (tensor<f32>) -> tensor<500x64xf32>
    StableHlo.unary main_arg2 main_v530 (broadcastInDim S50000x1 ![0] bcast_S50000_S50000x1_0 : (⟨S50000, .i32⟩ : BufTy).Contents (Elt F) → (⟨S50000x1, .i32⟩ : BufTy).Contents (Elt F)), -- %530 = stablehlo.broadcast_in_dim %arg2, dims = [0] : (tensor<50000xi32>) -> tensor<50000x1xi32>
    StableHlo.ternary main_v529 main_v530 main_v528 main_v531 ((fun x i u => Host.scatterAdd scatter_S500x64_S50000x1_S50000x64_1_0_0_1 x i u) : (⟨S500x64, .f32⟩ : BufTy).Contents (Elt F) → (⟨S50000x1, .i32⟩ : BufTy).Contents (Elt F) → (⟨S50000x64, .f32⟩ : BufTy).Contents (Elt F) → (⟨S500x64, .f32⟩ : BufTy).Contents (Elt F)), -- %531 = "stablehlo.scatter"(%529, %530, %528) <{indices_are_sorted = false, scatter_dimension_numbers = #stablehlo.scatter<update_window_dims = [1], inserted_window_dims = [0], scatter_dims_to_operand_dims = [0], index_vector_dim = 1>, unique_indices = false}> ( {
    StableHlo.binary main_v531 main_arg9 main_v532 ((fun l r => Host.dotGeneral dot_S500x64_S64x64_S500x64_1_0_0_1_n_n none l r) : (⟨S500x64, .f32⟩ : BufTy).Contents (Elt F) → (⟨S64x64, .f32⟩ : BufTy).Contents (Elt F) → (⟨S500x64, .f32⟩ : BufTy).Contents (Elt F)), -- %532 = stablehlo.dot_general %531, %arg9, contracting_dims = [1] x [0], precision = [DEFAULT, DEFAULT] : (tensor<500x64xf32>, tensor<64x64xf32>) -> tensor<500x64xf32>
    StableHlo.unary main_arg10 main_v533 (broadcastInDim S1x64 ![1] bcast_S64_S1x64_1 : (⟨S64, .f32⟩ : BufTy).Contents (Elt F) → (⟨S1x64, .f32⟩ : BufTy).Contents (Elt F)), -- %533 = stablehlo.broadcast_in_dim %arg10, dims = [1] : (tensor<64xf32>) -> tensor<1x64xf32>
    StableHlo.unary main_v533 main_v534 (broadcastInDim S500x64 ![0, 1] bcast_S1x64_S500x64_0_1 : (⟨S1x64, .f32⟩ : BufTy).Contents (Elt F) → (⟨S500x64, .f32⟩ : BufTy).Contents (Elt F)), -- %534 = stablehlo.broadcast_in_dim %533, dims = [0, 1] : (tensor<1x64xf32>) -> tensor<500x64xf32>
    StableHlo.binary main_v532 main_v534 main_v535 (addf : (⟨S500x64, .f32⟩ : BufTy).Contents (Elt F) → (⟨S500x64, .f32⟩ : BufTy).Contents (Elt F) → (⟨S500x64, .f32⟩ : BufTy).Contents (Elt F)), -- %535 = stablehlo.add %532, %534 : tensor<500x64xf32>
    StableHlo.nullary main_cst_119 (constant S_ .f32 0x00000000#32), -- %cst_119 = stablehlo.constant dense<0.000000e+00> : tensor<f32>
    StableHlo.binary main_v535 main_cst_119 main_v536 ((fun x v => Host.reduceAdd x v reducesTo_S500x64_S64_d0 h_S_) : (⟨S500x64, .f32⟩ : BufTy).Contents (Elt F) → (⟨S_, .f32⟩ : BufTy).Contents (Elt F) → (⟨S64, .f32⟩ : BufTy).Contents (Elt F)), -- %536 = stablehlo.reduce(%535 init: %cst_119) applies stablehlo.add across dimensions = [0] : (tensor<500x64xf32>, tensor<f32>) -> tensor<64xf32> {
    StableHlo.nullary main_cst_120 (constant S_ .f32 0x43FA0000#32) ] -- %cst_120 = stablehlo.constant dense<5.000000e+02> : tensor<f32>

/-- Every buffer these operations touch is a TensorCore reference. -/
theorem opsSeg15_sub : (opsSeg15 : List (HloOp τ sig (Elt F))).Forall fun op => op.bufs ⊆ StableHlo.tcRefs τ sig :=
  ⟨StableHlo.nullary_bufs_sub .., StableHlo.unary_bufs_sub .., StableHlo.unary_bufs_sub .., StableHlo.ternary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub ..⟩

/-- Each of these operations determines its results. -/
theorem opsSeg15_fresh : (opsSeg15 : List (HloOp τ sig (Elt F))).Forall fun op => op.fresh = ∅ :=
  ⟨rfl, rfl, rfl, rfl, rfl, rfl, rfl, rfl, rfl, rfl, rfl⟩

/-- The buffers these operations write, in order. -/
abbrev opsSeg15_W : List (Ref sig .tc) :=
  [main_cst_118, main_v529, main_v530, main_v531, main_v532, main_v533, main_v534, main_v535, main_cst_119, main_v536, main_cst_120]

/-- Each operation writes only its own result buffer, which is in the list. -/
theorem opsSeg15_writes : (opsSeg15 : List (HloOp τ sig (Elt F))).Forall fun op =>
    op.writes ⊆ (opsSeg15_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer none of these operations writes keeps its contents through them. -/
theorem opsSeg15_keep (V : Valuation τ sig (Elt F)) (r : Ref sig .tc) (h : r ∉ opsSeg15_W) :
    StableHlo.after (opsSeg15 (F := F)) V (Proc.devRef .tc r) = V (Proc.devRef .tc r) :=
  StableHlo.after_of_writes_sub opsSeg15 V opsSeg15_writes h

/-- The reference's operations 679 … 722 of 852, in order; an outlined function's operations stand at its call, over that call's buffers. -/
abbrev opsSeg16 : List (HloOp τ sig (Elt F)) :=
  [ StableHlo.unary main_cst_120 main_v537 (broadcastInDim S64 ![] bcast_S_S64 : (⟨S_, .f32⟩ : BufTy).Contents (Elt F) → (⟨S64, .f32⟩ : BufTy).Contents (Elt F)), -- %537 = stablehlo.broadcast_in_dim %cst_120, dims = [] : (tensor<f32>) -> tensor<64xf32>
    StableHlo.binary main_v536 main_v537 main_v538 (Host.divf : (⟨S64, .f32⟩ : BufTy).Contents (Elt F) → (⟨S64, .f32⟩ : BufTy).Contents (Elt F) → (⟨S64, .f32⟩ : BufTy).Contents (Elt F)), -- %538 = stablehlo.divide %536, %537 : tensor<64xf32>
    StableHlo.nullary main_c_121 (constantI S_ 32 0#32), -- %c_121 = stablehlo.constant dense<0> : tensor<i32>
    StableHlo.TRef.nullary main_call9.cst (constant S_ .f32 0x00000000#32), -- @var (main_call9): %cst = stablehlo.constant dense<0.000000e+00> : tensor<f32>
    StableHlo.TRef.binary (.of main_v535 : StableHlo.TRef sig ⟨S500x64, .f32⟩) main_call9.cst main_call9.v0 (fun x v => Host.reduceAdd x v reducesTo_S500x64_S64_d0 h_S_), -- @var (main_call9): %0 = stablehlo.reduce(%arg0 init: %cst) applies stablehlo.add across dimensions = [0] : (tensor<500x64xf32>, tensor<f32>) -> tensor<64xf32> {
    StableHlo.TRef.unary main_call9.v0 main_call9.v1 (broadcastInDim S1x64 ![1] bcast_S64_S1x64_1), -- @var (main_call9): %1 = stablehlo.broadcast_in_dim %0, dims = [1] : (tensor<64xf32>) -> tensor<1x64xf32>
    StableHlo.TRef.nullary main_call9.cst_0 (constant S_ .f32 0x43FA0000#32), -- @var (main_call9): %cst_0 = stablehlo.constant dense<5.000000e+02> : tensor<f32>
    StableHlo.TRef.unary main_call9.cst_0 main_call9.v2 (broadcastInDim S1x64 ![] bcast_S_S1x64), -- @var (main_call9): %2 = stablehlo.broadcast_in_dim %cst_0, dims = [] : (tensor<f32>) -> tensor<1x64xf32>
    StableHlo.TRef.binary main_call9.v1 main_call9.v2 main_call9.v3 Host.divf, -- @var (main_call9): %3 = stablehlo.divide %1, %2 : tensor<1x64xf32>
    StableHlo.TRef.unary main_call9.v3 main_call9.v4 (broadcastInDim S500x64 ![0, 1] bcast_S1x64_S500x64_0_1), -- @var (main_call9): %4 = stablehlo.broadcast_in_dim %3, dims = [0, 1] : (tensor<1x64xf32>) -> tensor<500x64xf32>
    StableHlo.TRef.binary (.of main_v535 : StableHlo.TRef sig ⟨S500x64, .f32⟩) main_call9.v4 main_call9.v5 subf, -- @var (main_call9): %5 = stablehlo.subtract %arg0, %4 : tensor<500x64xf32>
    StableHlo.TRef.binary main_call9.v5 main_call9.v5 main_call9.v6 mulf, -- @var (main_call9): %6 = chlo.square %5 : tensor<500x64xf32> -> tensor<500x64xf32>
    StableHlo.TRef.unary (.of main_c_121 : StableHlo.TRef sig ⟨S_, .i32⟩) main_call9.v7 (sitofp .f32), -- @var (main_call9): %7 = stablehlo.convert %arg1 : (tensor<i32>) -> tensor<f32>
    StableHlo.TRef.nullary main_call9.cst_1 (constant S_ .f32 0x43FA0000#32), -- @var (main_call9): %cst_1 = stablehlo.constant dense<5.000000e+02> : tensor<f32>
    StableHlo.TRef.binary main_call9.cst_1 main_call9.v7 main_call9.v8 subf, -- @var (main_call9): %8 = stablehlo.subtract %cst_1, %7 : tensor<f32>
    StableHlo.TRef.nullary main_call9.cst_2 (constant S_ .f32 0x00000000#32), -- @var (main_call9): %cst_2 = stablehlo.constant dense<0.000000e+00> : tensor<f32>
    StableHlo.TRef.binary main_call9.v6 main_call9.cst_2 main_call9.v9 (fun x v => Host.reduceAdd x v reducesTo_S500x64_S64_d0 h_S_), -- @var (main_call9): %9 = stablehlo.reduce(%6 init: %cst_2) applies stablehlo.add across dimensions = [0] : (tensor<500x64xf32>, tensor<f32>) -> tensor<64xf32> {
    StableHlo.TRef.unary main_call9.v8 main_call9.v10 (broadcastInDim S64 ![] bcast_S_S64), -- @var (main_call9): %10 = stablehlo.broadcast_in_dim %8, dims = [] : (tensor<f32>) -> tensor<64xf32>
    StableHlo.TRef.binary main_call9.v9 main_call9.v10 main_call9.v11 Host.divf, -- @var (main_call9): %11 = stablehlo.divide %9, %10 : tensor<64xf32>
    StableHlo.TRef.nullary main_call9.cst_3 (constant S_ .f32 0x00000000#32), -- @var (main_call9): %cst_3 = stablehlo.constant dense<0.000000e+00> : tensor<f32>
    StableHlo.TRef.binary main_call9.v8 main_call9.cst_3 main_call9.v12 (cmpf .ogt), -- @var (main_call9): %12 = stablehlo.compare GT, %8, %cst_3, FLOAT : (tensor<f32>, tensor<f32>) -> tensor<i1>
    StableHlo.TRef.nullary main_call9.cst_4 (constant S_ .f32 0x7FC00000#32), -- @var (main_call9): %cst_4 = stablehlo.constant dense<0x7FC00000> : tensor<f32>
    StableHlo.TRef.unary main_call9.cst_4 main_call9.call0.v0 id, -- @where (main_call9.call0): %0 = stablehlo.convert %arg2 : tensor<f32>
    StableHlo.TRef.unary main_call9.call0.v0 main_call9.call0.v1 (broadcastInDim S64 ![] bcast_S_S64), -- @where (main_call9.call0): %1 = stablehlo.broadcast_in_dim %0, dims = [] : (tensor<f32>) -> tensor<64xf32>
    StableHlo.TRef.ternary main_call9.v12 main_call9.v11 main_call9.call0.v1 main_call9.call0.v2 (fun p a b => select (broadcastInDim S64 ![] bcast_S_S64 p) a b), -- @where (main_call9.call0): %2 = stablehlo.select %arg0, %arg1, %1 : tensor<i1>, tensor<64xf32>
    StableHlo.unary main_v538 main_v540 (broadcastInDim S1x64 ![1] bcast_S64_S1x64_1 : (⟨S64, .f32⟩ : BufTy).Contents (Elt F) → (⟨S1x64, .f32⟩ : BufTy).Contents (Elt F)), -- %540 = stablehlo.broadcast_in_dim %538, dims = [1] : (tensor<64xf32>) -> tensor<1x64xf32>
    StableHlo.unary main_v540 main_v541 (broadcastInDim S500x64 ![0, 1] bcast_S1x64_S500x64_0_1 : (⟨S1x64, .f32⟩ : BufTy).Contents (Elt F) → (⟨S500x64, .f32⟩ : BufTy).Contents (Elt F)), -- %541 = stablehlo.broadcast_in_dim %540, dims = [0, 1] : (tensor<1x64xf32>) -> tensor<500x64xf32>
    StableHlo.binary main_v535 main_v541 main_v542 (subf : (⟨S500x64, .f32⟩ : BufTy).Contents (Elt F) → (⟨S500x64, .f32⟩ : BufTy).Contents (Elt F) → (⟨S500x64, .f32⟩ : BufTy).Contents (Elt F)), -- %542 = stablehlo.subtract %535, %541 : tensor<500x64xf32>
    StableHlo.nullary main_cst_122 (constant S_ .f32 0x3727C5AC#32), -- %cst_122 = stablehlo.constant dense<9.99999974E-6> : tensor<f32>
    StableHlo.unary main_cst_122 main_v543 (broadcastInDim S64 ![] bcast_S_S64 : (⟨S_, .f32⟩ : BufTy).Contents (Elt F) → (⟨S64, .f32⟩ : BufTy).Contents (Elt F)), -- %543 = stablehlo.broadcast_in_dim %cst_122, dims = [] : (tensor<f32>) -> tensor<64xf32>
    StableHlo.binary main_v539 main_v543 main_v544 (addf : (⟨S64, .f32⟩ : BufTy).Contents (Elt F) → (⟨S64, .f32⟩ : BufTy).Contents (Elt F) → (⟨S64, .f32⟩ : BufTy).Contents (Elt F)), -- %544 = stablehlo.add %539, %543 : tensor<64xf32>
    StableHlo.unary main_v544 main_v545 (Host.rsqrt : (⟨S64, .f32⟩ : BufTy).Contents (Elt F) → (⟨S64, .f32⟩ : BufTy).Contents (Elt F)), -- %545 = stablehlo.rsqrt %544 : tensor<64xf32>
    StableHlo.unary main_v545 main_v546 (broadcastInDim S1x64 ![1] bcast_S64_S1x64_1 : (⟨S64, .f32⟩ : BufTy).Contents (Elt F) → (⟨S1x64, .f32⟩ : BufTy).Contents (Elt F)), -- %546 = stablehlo.broadcast_in_dim %545, dims = [1] : (tensor<64xf32>) -> tensor<1x64xf32>
    StableHlo.unary main_v546 main_v547 (broadcastInDim S500x64 ![0, 1] bcast_S1x64_S500x64_0_1 : (⟨S1x64, .f32⟩ : BufTy).Contents (Elt F) → (⟨S500x64, .f32⟩ : BufTy).Contents (Elt F)), -- %547 = stablehlo.broadcast_in_dim %546, dims = [0, 1] : (tensor<1x64xf32>) -> tensor<500x64xf32>
    StableHlo.binary main_v542 main_v547 main_v548 (mulf : (⟨S500x64, .f32⟩ : BufTy).Contents (Elt F) → (⟨S500x64, .f32⟩ : BufTy).Contents (Elt F) → (⟨S500x64, .f32⟩ : BufTy).Contents (Elt F)), -- %548 = stablehlo.multiply %542, %547 : tensor<500x64xf32>
    StableHlo.unary main_arg17 main_v549 (broadcastInDim S1x64 ![1] bcast_S64_S1x64_1 : (⟨S64, .f32⟩ : BufTy).Contents (Elt F) → (⟨S1x64, .f32⟩ : BufTy).Contents (Elt F)), -- %549 = stablehlo.broadcast_in_dim %arg17, dims = [1] : (tensor<64xf32>) -> tensor<1x64xf32>
    StableHlo.unary main_v549 main_v550 (broadcastInDim S500x64 ![0, 1] bcast_S1x64_S500x64_0_1 : (⟨S1x64, .f32⟩ : BufTy).Contents (Elt F) → (⟨S500x64, .f32⟩ : BufTy).Contents (Elt F)), -- %550 = stablehlo.broadcast_in_dim %549, dims = [0, 1] : (tensor<1x64xf32>) -> tensor<500x64xf32>
    StableHlo.binary main_v548 main_v550 main_v551 (mulf : (⟨S500x64, .f32⟩ : BufTy).Contents (Elt F) → (⟨S500x64, .f32⟩ : BufTy).Contents (Elt F) → (⟨S500x64, .f32⟩ : BufTy).Contents (Elt F)), -- %551 = stablehlo.multiply %548, %550 : tensor<500x64xf32>
    StableHlo.unary main_arg18 main_v552 (broadcastInDim S1x64 ![1] bcast_S64_S1x64_1 : (⟨S64, .f32⟩ : BufTy).Contents (Elt F) → (⟨S1x64, .f32⟩ : BufTy).Contents (Elt F)), -- %552 = stablehlo.broadcast_in_dim %arg18, dims = [1] : (tensor<64xf32>) -> tensor<1x64xf32>
    StableHlo.unary main_v552 main_v553 (broadcastInDim S500x64 ![0, 1] bcast_S1x64_S500x64_0_1 : (⟨S1x64, .f32⟩ : BufTy).Contents (Elt F) → (⟨S500x64, .f32⟩ : BufTy).Contents (Elt F)), -- %553 = stablehlo.broadcast_in_dim %552, dims = [0, 1] : (tensor<1x64xf32>) -> tensor<500x64xf32>
    StableHlo.binary main_v551 main_v553 main_v554 (addf : (⟨S500x64, .f32⟩ : BufTy).Contents (Elt F) → (⟨S500x64, .f32⟩ : BufTy).Contents (Elt F) → (⟨S500x64, .f32⟩ : BufTy).Contents (Elt F)), -- %554 = stablehlo.add %551, %553 : tensor<500x64xf32>
    StableHlo.TRef.nullary main_call10.cst (constant S_ .f32 0x00000000#32), -- @relu_0 (main_call10): %cst = stablehlo.constant dense<0.000000e+00> : tensor<f32>
    StableHlo.TRef.unary main_call10.cst main_call10.v0 (broadcastInDim S500x64 ![] bcast_S_S500x64), -- @relu_0 (main_call10): %0 = stablehlo.broadcast_in_dim %cst, dims = [] : (tensor<f32>) -> tensor<500x64xf32>
    StableHlo.TRef.binary (.of main_v554 : StableHlo.TRef sig ⟨S500x64, .f32⟩) main_call10.v0 main_call10.v1 maximumf ] -- @relu_0 (main_call10): %1 = stablehlo.maximum %arg0, %0 : tensor<500x64xf32>

/-- Every buffer these operations touch is a TensorCore reference. -/
theorem opsSeg16_sub : (opsSeg16 : List (HloOp τ sig (Elt F))).Forall fun op => op.bufs ⊆ StableHlo.tcRefs τ sig :=
  ⟨StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

/-- Each of these operations determines its results. -/
theorem opsSeg16_fresh : (opsSeg16 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers these operations write, in order. -/
abbrev opsSeg16_W : List (Ref sig .tc) :=
  [main_v537, main_v538, main_c_121, main_call9.cst.ref, main_call9.v0.ref, main_call9.v1.ref, main_call9.cst_0.ref, main_call9.v2.ref, main_call9.v3.ref, main_call9.v4.ref, main_call9.v5.ref, main_call9.v6.ref, main_call9.v7.ref, main_call9.cst_1.ref, main_call9.v8.ref, main_call9.cst_2.ref, main_call9.v9.ref, main_call9.v10.ref, main_call9.v11.ref, main_call9.cst_3.ref, main_call9.v12.ref, main_call9.cst_4.ref, main_call9.call0.v0.ref, main_call9.call0.v1.ref, main_call9.call0.v2.ref, main_v540, main_v541, main_v542, main_cst_122, main_v543, main_v544, main_v545, main_v546, main_v547, main_v548, main_v549, main_v550, main_v551, main_v552, main_v553, main_v554, main_call10.cst.ref, main_call10.v0.ref, main_call10.v1.ref]

/-- Each operation writes only its own result buffer, which is in the list. -/
theorem opsSeg16_writes : (opsSeg16 : List (HloOp τ sig (Elt F))).Forall fun op =>
    op.writes ⊆ (opsSeg16_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer none of these operations writes keeps its contents through them. -/
theorem opsSeg16_keep (V : Valuation τ sig (Elt F)) (r : Ref sig .tc) (h : r ∉ opsSeg16_W) :
    StableHlo.after (opsSeg16 (F := F)) V (Proc.devRef .tc r) = V (Proc.devRef .tc r) :=
  StableHlo.after_of_writes_sub opsSeg16 V opsSeg16_writes h

/-- The reference's operations 723 … 773 of 852, in order; an outlined function's operations stand at its call, over that call's buffers. -/
abbrev opsSeg17 : List (HloOp τ sig (Elt F)) :=
  [ StableHlo.binary main_v555 main_arg11 main_v556 ((fun l r => Host.dotGeneral dot_S500x64_S64x64_S500x64_1_0_0_1_n_n none l r) : (⟨S500x64, .f32⟩ : BufTy).Contents (Elt F) → (⟨S64x64, .f32⟩ : BufTy).Contents (Elt F) → (⟨S500x64, .f32⟩ : BufTy).Contents (Elt F)), -- %556 = stablehlo.dot_general %555, %arg11, contracting_dims = [1] x [0], precision = [DEFAULT, DEFAULT] : (tensor<500x64xf32>, tensor<64x64xf32>) -> tensor<500x64xf32>
    StableHlo.unary main_arg12 main_v557 (broadcastInDim S1x64 ![1] bcast_S64_S1x64_1 : (⟨S64, .f32⟩ : BufTy).Contents (Elt F) → (⟨S1x64, .f32⟩ : BufTy).Contents (Elt F)), -- %557 = stablehlo.broadcast_in_dim %arg12, dims = [1] : (tensor<64xf32>) -> tensor<1x64xf32>
    StableHlo.unary main_v557 main_v558 (broadcastInDim S500x64 ![0, 1] bcast_S1x64_S500x64_0_1 : (⟨S1x64, .f32⟩ : BufTy).Contents (Elt F) → (⟨S500x64, .f32⟩ : BufTy).Contents (Elt F)), -- %558 = stablehlo.broadcast_in_dim %557, dims = [0, 1] : (tensor<1x64xf32>) -> tensor<500x64xf32>
    StableHlo.binary main_v556 main_v558 main_v559 (addf : (⟨S500x64, .f32⟩ : BufTy).Contents (Elt F) → (⟨S500x64, .f32⟩ : BufTy).Contents (Elt F) → (⟨S500x64, .f32⟩ : BufTy).Contents (Elt F)), -- %559 = stablehlo.add %556, %558 : tensor<500x64xf32>
    StableHlo.nullary main_cst_123 (constant S_ .f32 0x00000000#32), -- %cst_123 = stablehlo.constant dense<0.000000e+00> : tensor<f32>
    StableHlo.binary main_v559 main_cst_123 main_v560 ((fun x v => Host.reduceAdd x v reducesTo_S500x64_S64_d0 h_S_) : (⟨S500x64, .f32⟩ : BufTy).Contents (Elt F) → (⟨S_, .f32⟩ : BufTy).Contents (Elt F) → (⟨S64, .f32⟩ : BufTy).Contents (Elt F)), -- %560 = stablehlo.reduce(%559 init: %cst_123) applies stablehlo.add across dimensions = [0] : (tensor<500x64xf32>, tensor<f32>) -> tensor<64xf32> {
    StableHlo.nullary main_cst_124 (constant S_ .f32 0x43FA0000#32), -- %cst_124 = stablehlo.constant dense<5.000000e+02> : tensor<f32>
    StableHlo.unary main_cst_124 main_v561 (broadcastInDim S64 ![] bcast_S_S64 : (⟨S_, .f32⟩ : BufTy).Contents (Elt F) → (⟨S64, .f32⟩ : BufTy).Contents (Elt F)), -- %561 = stablehlo.broadcast_in_dim %cst_124, dims = [] : (tensor<f32>) -> tensor<64xf32>
    StableHlo.binary main_v560 main_v561 main_v562 (Host.divf : (⟨S64, .f32⟩ : BufTy).Contents (Elt F) → (⟨S64, .f32⟩ : BufTy).Contents (Elt F) → (⟨S64, .f32⟩ : BufTy).Contents (Elt F)), -- %562 = stablehlo.divide %560, %561 : tensor<64xf32>
    StableHlo.nullary main_c_125 (constantI S_ 32 0#32), -- %c_125 = stablehlo.constant dense<0> : tensor<i32>
    StableHlo.TRef.nullary main_call11.cst (constant S_ .f32 0x00000000#32), -- @var (main_call11): %cst = stablehlo.constant dense<0.000000e+00> : tensor<f32>
    StableHlo.TRef.binary (.of main_v559 : StableHlo.TRef sig ⟨S500x64, .f32⟩) main_call11.cst main_call11.v0 (fun x v => Host.reduceAdd x v reducesTo_S500x64_S64_d0 h_S_), -- @var (main_call11): %0 = stablehlo.reduce(%arg0 init: %cst) applies stablehlo.add across dimensions = [0] : (tensor<500x64xf32>, tensor<f32>) -> tensor<64xf32> {
    StableHlo.TRef.unary main_call11.v0 main_call11.v1 (broadcastInDim S1x64 ![1] bcast_S64_S1x64_1), -- @var (main_call11): %1 = stablehlo.broadcast_in_dim %0, dims = [1] : (tensor<64xf32>) -> tensor<1x64xf32>
    StableHlo.TRef.nullary main_call11.cst_0 (constant S_ .f32 0x43FA0000#32), -- @var (main_call11): %cst_0 = stablehlo.constant dense<5.000000e+02> : tensor<f32>
    StableHlo.TRef.unary main_call11.cst_0 main_call11.v2 (broadcastInDim S1x64 ![] bcast_S_S1x64), -- @var (main_call11): %2 = stablehlo.broadcast_in_dim %cst_0, dims = [] : (tensor<f32>) -> tensor<1x64xf32>
    StableHlo.TRef.binary main_call11.v1 main_call11.v2 main_call11.v3 Host.divf, -- @var (main_call11): %3 = stablehlo.divide %1, %2 : tensor<1x64xf32>
    StableHlo.TRef.unary main_call11.v3 main_call11.v4 (broadcastInDim S500x64 ![0, 1] bcast_S1x64_S500x64_0_1), -- @var (main_call11): %4 = stablehlo.broadcast_in_dim %3, dims = [0, 1] : (tensor<1x64xf32>) -> tensor<500x64xf32>
    StableHlo.TRef.binary (.of main_v559 : StableHlo.TRef sig ⟨S500x64, .f32⟩) main_call11.v4 main_call11.v5 subf, -- @var (main_call11): %5 = stablehlo.subtract %arg0, %4 : tensor<500x64xf32>
    StableHlo.TRef.binary main_call11.v5 main_call11.v5 main_call11.v6 mulf, -- @var (main_call11): %6 = chlo.square %5 : tensor<500x64xf32> -> tensor<500x64xf32>
    StableHlo.TRef.unary (.of main_c_125 : StableHlo.TRef sig ⟨S_, .i32⟩) main_call11.v7 (sitofp .f32), -- @var (main_call11): %7 = stablehlo.convert %arg1 : (tensor<i32>) -> tensor<f32>
    StableHlo.TRef.nullary main_call11.cst_1 (constant S_ .f32 0x43FA0000#32), -- @var (main_call11): %cst_1 = stablehlo.constant dense<5.000000e+02> : tensor<f32>
    StableHlo.TRef.binary main_call11.cst_1 main_call11.v7 main_call11.v8 subf, -- @var (main_call11): %8 = stablehlo.subtract %cst_1, %7 : tensor<f32>
    StableHlo.TRef.nullary main_call11.cst_2 (constant S_ .f32 0x00000000#32), -- @var (main_call11): %cst_2 = stablehlo.constant dense<0.000000e+00> : tensor<f32>
    StableHlo.TRef.binary main_call11.v6 main_call11.cst_2 main_call11.v9 (fun x v => Host.reduceAdd x v reducesTo_S500x64_S64_d0 h_S_), -- @var (main_call11): %9 = stablehlo.reduce(%6 init: %cst_2) applies stablehlo.add across dimensions = [0] : (tensor<500x64xf32>, tensor<f32>) -> tensor<64xf32> {
    StableHlo.TRef.unary main_call11.v8 main_call11.v10 (broadcastInDim S64 ![] bcast_S_S64), -- @var (main_call11): %10 = stablehlo.broadcast_in_dim %8, dims = [] : (tensor<f32>) -> tensor<64xf32>
    StableHlo.TRef.binary main_call11.v9 main_call11.v10 main_call11.v11 Host.divf, -- @var (main_call11): %11 = stablehlo.divide %9, %10 : tensor<64xf32>
    StableHlo.TRef.nullary main_call11.cst_3 (constant S_ .f32 0x00000000#32), -- @var (main_call11): %cst_3 = stablehlo.constant dense<0.000000e+00> : tensor<f32>
    StableHlo.TRef.binary main_call11.v8 main_call11.cst_3 main_call11.v12 (cmpf .ogt), -- @var (main_call11): %12 = stablehlo.compare GT, %8, %cst_3, FLOAT : (tensor<f32>, tensor<f32>) -> tensor<i1>
    StableHlo.TRef.nullary main_call11.cst_4 (constant S_ .f32 0x7FC00000#32), -- @var (main_call11): %cst_4 = stablehlo.constant dense<0x7FC00000> : tensor<f32>
    StableHlo.TRef.unary main_call11.cst_4 main_call11.call0.v0 id, -- @where (main_call11.call0): %0 = stablehlo.convert %arg2 : tensor<f32>
    StableHlo.TRef.unary main_call11.call0.v0 main_call11.call0.v1 (broadcastInDim S64 ![] bcast_S_S64), -- @where (main_call11.call0): %1 = stablehlo.broadcast_in_dim %0, dims = [] : (tensor<f32>) -> tensor<64xf32>
    StableHlo.TRef.ternary main_call11.v12 main_call11.v11 main_call11.call0.v1 main_call11.call0.v2 (fun p a b => select (broadcastInDim S64 ![] bcast_S_S64 p) a b), -- @where (main_call11.call0): %2 = stablehlo.select %arg0, %arg1, %1 : tensor<i1>, tensor<64xf32>
    StableHlo.unary main_v562 main_v564 (broadcastInDim S1x64 ![1] bcast_S64_S1x64_1 : (⟨S64, .f32⟩ : BufTy).Contents (Elt F) → (⟨S1x64, .f32⟩ : BufTy).Contents (Elt F)), -- %564 = stablehlo.broadcast_in_dim %562, dims = [1] : (tensor<64xf32>) -> tensor<1x64xf32>
    StableHlo.unary main_v564 main_v565 (broadcastInDim S500x64 ![0, 1] bcast_S1x64_S500x64_0_1 : (⟨S1x64, .f32⟩ : BufTy).Contents (Elt F) → (⟨S500x64, .f32⟩ : BufTy).Contents (Elt F)), -- %565 = stablehlo.broadcast_in_dim %564, dims = [0, 1] : (tensor<1x64xf32>) -> tensor<500x64xf32>
    StableHlo.binary main_v559 main_v565 main_v566 (subf : (⟨S500x64, .f32⟩ : BufTy).Contents (Elt F) → (⟨S500x64, .f32⟩ : BufTy).Contents (Elt F) → (⟨S500x64, .f32⟩ : BufTy).Contents (Elt F)), -- %566 = stablehlo.subtract %559, %565 : tensor<500x64xf32>
    StableHlo.nullary main_cst_126 (constant S_ .f32 0x3727C5AC#32), -- %cst_126 = stablehlo.constant dense<9.99999974E-6> : tensor<f32>
    StableHlo.unary main_cst_126 main_v567 (broadcastInDim S64 ![] bcast_S_S64 : (⟨S_, .f32⟩ : BufTy).Contents (Elt F) → (⟨S64, .f32⟩ : BufTy).Contents (Elt F)), -- %567 = stablehlo.broadcast_in_dim %cst_126, dims = [] : (tensor<f32>) -> tensor<64xf32>
    StableHlo.binary main_v563 main_v567 main_v568 (addf : (⟨S64, .f32⟩ : BufTy).Contents (Elt F) → (⟨S64, .f32⟩ : BufTy).Contents (Elt F) → (⟨S64, .f32⟩ : BufTy).Contents (Elt F)), -- %568 = stablehlo.add %563, %567 : tensor<64xf32>
    StableHlo.unary main_v568 main_v569 (Host.rsqrt : (⟨S64, .f32⟩ : BufTy).Contents (Elt F) → (⟨S64, .f32⟩ : BufTy).Contents (Elt F)), -- %569 = stablehlo.rsqrt %568 : tensor<64xf32>
    StableHlo.unary main_v569 main_v570 (broadcastInDim S1x64 ![1] bcast_S64_S1x64_1 : (⟨S64, .f32⟩ : BufTy).Contents (Elt F) → (⟨S1x64, .f32⟩ : BufTy).Contents (Elt F)), -- %570 = stablehlo.broadcast_in_dim %569, dims = [1] : (tensor<64xf32>) -> tensor<1x64xf32>
    StableHlo.unary main_v570 main_v571 (broadcastInDim S500x64 ![0, 1] bcast_S1x64_S500x64_0_1 : (⟨S1x64, .f32⟩ : BufTy).Contents (Elt F) → (⟨S500x64, .f32⟩ : BufTy).Contents (Elt F)), -- %571 = stablehlo.broadcast_in_dim %570, dims = [0, 1] : (tensor<1x64xf32>) -> tensor<500x64xf32>
    StableHlo.binary main_v566 main_v571 main_v572 (mulf : (⟨S500x64, .f32⟩ : BufTy).Contents (Elt F) → (⟨S500x64, .f32⟩ : BufTy).Contents (Elt F) → (⟨S500x64, .f32⟩ : BufTy).Contents (Elt F)), -- %572 = stablehlo.multiply %566, %571 : tensor<500x64xf32>
    StableHlo.unary main_arg17 main_v573 (broadcastInDim S1x64 ![1] bcast_S64_S1x64_1 : (⟨S64, .f32⟩ : BufTy).Contents (Elt F) → (⟨S1x64, .f32⟩ : BufTy).Contents (Elt F)), -- %573 = stablehlo.broadcast_in_dim %arg17, dims = [1] : (tensor<64xf32>) -> tensor<1x64xf32>
    StableHlo.unary main_v573 main_v574 (broadcastInDim S500x64 ![0, 1] bcast_S1x64_S500x64_0_1 : (⟨S1x64, .f32⟩ : BufTy).Contents (Elt F) → (⟨S500x64, .f32⟩ : BufTy).Contents (Elt F)), -- %574 = stablehlo.broadcast_in_dim %573, dims = [0, 1] : (tensor<1x64xf32>) -> tensor<500x64xf32>
    StableHlo.binary main_v572 main_v574 main_v575 (mulf : (⟨S500x64, .f32⟩ : BufTy).Contents (Elt F) → (⟨S500x64, .f32⟩ : BufTy).Contents (Elt F) → (⟨S500x64, .f32⟩ : BufTy).Contents (Elt F)), -- %575 = stablehlo.multiply %572, %574 : tensor<500x64xf32>
    StableHlo.unary main_arg18 main_v576 (broadcastInDim S1x64 ![1] bcast_S64_S1x64_1 : (⟨S64, .f32⟩ : BufTy).Contents (Elt F) → (⟨S1x64, .f32⟩ : BufTy).Contents (Elt F)), -- %576 = stablehlo.broadcast_in_dim %arg18, dims = [1] : (tensor<64xf32>) -> tensor<1x64xf32>
    StableHlo.unary main_v576 main_v577 (broadcastInDim S500x64 ![0, 1] bcast_S1x64_S500x64_0_1 : (⟨S1x64, .f32⟩ : BufTy).Contents (Elt F) → (⟨S500x64, .f32⟩ : BufTy).Contents (Elt F)), -- %577 = stablehlo.broadcast_in_dim %576, dims = [0, 1] : (tensor<1x64xf32>) -> tensor<500x64xf32>
    StableHlo.binary main_v575 main_v577 main_v578 (addf : (⟨S500x64, .f32⟩ : BufTy).Contents (Elt F) → (⟨S500x64, .f32⟩ : BufTy).Contents (Elt F) → (⟨S500x64, .f32⟩ : BufTy).Contents (Elt F)), -- %578 = stablehlo.add %575, %577 : tensor<500x64xf32>
    StableHlo.TRef.nullary main_call12.cst (constant S_ .f32 0x00000000#32), -- @relu_0 (main_call12): %cst = stablehlo.constant dense<0.000000e+00> : tensor<f32>
    StableHlo.TRef.unary main_call12.cst main_call12.v0 (broadcastInDim S500x64 ![] bcast_S_S500x64), -- @relu_0 (main_call12): %0 = stablehlo.broadcast_in_dim %cst, dims = [] : (tensor<f32>) -> tensor<500x64xf32>
    StableHlo.TRef.binary (.of main_v578 : StableHlo.TRef sig ⟨S500x64, .f32⟩) main_call12.v0 main_call12.v1 maximumf ] -- @relu_0 (main_call12): %1 = stablehlo.maximum %arg0, %0 : tensor<500x64xf32>

/-- Every buffer these operations touch is a TensorCore reference. -/
theorem opsSeg17_sub : (opsSeg17 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

/-- Each of these operations determines its results. -/
theorem opsSeg17_fresh : (opsSeg17 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers these operations write, in order. -/
abbrev opsSeg17_W : List (Ref sig .tc) :=
  [main_v556, main_v557, main_v558, main_v559, main_cst_123, main_v560, main_cst_124, main_v561, main_v562, main_c_125, main_call11.cst.ref, main_call11.v0.ref, main_call11.v1.ref, main_call11.cst_0.ref, main_call11.v2.ref, main_call11.v3.ref, main_call11.v4.ref, main_call11.v5.ref, main_call11.v6.ref, main_call11.v7.ref, main_call11.cst_1.ref, main_call11.v8.ref, main_call11.cst_2.ref, main_call11.v9.ref, main_call11.v10.ref, main_call11.v11.ref, main_call11.cst_3.ref, main_call11.v12.ref, main_call11.cst_4.ref, main_call11.call0.v0.ref, main_call11.call0.v1.ref, main_call11.call0.v2.ref, main_v564, main_v565, main_v566, main_cst_126, main_v567, main_v568, main_v569, main_v570, main_v571, main_v572, main_v573, main_v574, main_v575, main_v576, main_v577, main_v578, main_call12.cst.ref, main_call12.v0.ref, main_call12.v1.ref]

/-- Each operation writes only its own result buffer, which is in the list. -/
theorem opsSeg17_writes : (opsSeg17 : List (HloOp τ sig (Elt F))).Forall fun op =>
    op.writes ⊆ (opsSeg17_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer none of these operations writes keeps its contents through them. -/
theorem opsSeg17_keep (V : Valuation τ sig (Elt F)) (r : Ref sig .tc) (h : r ∉ opsSeg17_W) :
    StableHlo.after (opsSeg17 (F := F)) V (Proc.devRef .tc r) = V (Proc.devRef .tc r) :=
  StableHlo.after_of_writes_sub opsSeg17 V opsSeg17_writes h

/-- The reference's operations 774 … 805 of 852, in order; an outlined function's operations stand at its call, over that call's buffers. -/
abbrev opsSeg18 : List (HloOp τ sig (Elt F)) :=
  [ StableHlo.binary main_v579 main_arg13 main_v580 ((fun l r => Host.dotGeneral dot_S500x64_S64x64_S500x64_1_0_0_1_n_n none l r) : (⟨S500x64, .f32⟩ : BufTy).Contents (Elt F) → (⟨S64x64, .f32⟩ : BufTy).Contents (Elt F) → (⟨S500x64, .f32⟩ : BufTy).Contents (Elt F)), -- %580 = stablehlo.dot_general %579, %arg13, contracting_dims = [1] x [0], precision = [DEFAULT, DEFAULT] : (tensor<500x64xf32>, tensor<64x64xf32>) -> tensor<500x64xf32>
    StableHlo.unary main_arg14 main_v581 (broadcastInDim S1x64 ![1] bcast_S64_S1x64_1 : (⟨S64, .f32⟩ : BufTy).Contents (Elt F) → (⟨S1x64, .f32⟩ : BufTy).Contents (Elt F)), -- %581 = stablehlo.broadcast_in_dim %arg14, dims = [1] : (tensor<64xf32>) -> tensor<1x64xf32>
    StableHlo.unary main_v581 main_v582 (broadcastInDim S500x64 ![0, 1] bcast_S1x64_S500x64_0_1 : (⟨S1x64, .f32⟩ : BufTy).Contents (Elt F) → (⟨S500x64, .f32⟩ : BufTy).Contents (Elt F)), -- %582 = stablehlo.broadcast_in_dim %581, dims = [0, 1] : (tensor<1x64xf32>) -> tensor<500x64xf32>
    StableHlo.binary main_v580 main_v582 main_v583 (addf : (⟨S500x64, .f32⟩ : BufTy).Contents (Elt F) → (⟨S500x64, .f32⟩ : BufTy).Contents (Elt F) → (⟨S500x64, .f32⟩ : BufTy).Contents (Elt F)), -- %583 = stablehlo.add %580, %582 : tensor<500x64xf32>
    StableHlo.nullary main_cst_127 (constant S_ .f32 0x00000000#32), -- %cst_127 = stablehlo.constant dense<0.000000e+00> : tensor<f32>
    StableHlo.binary main_v583 main_cst_127 main_v584 ((fun x v => Host.reduceAdd x v reducesTo_S500x64_S64_d0 h_S_) : (⟨S500x64, .f32⟩ : BufTy).Contents (Elt F) → (⟨S_, .f32⟩ : BufTy).Contents (Elt F) → (⟨S64, .f32⟩ : BufTy).Contents (Elt F)), -- %584 = stablehlo.reduce(%583 init: %cst_127) applies stablehlo.add across dimensions = [0] : (tensor<500x64xf32>, tensor<f32>) -> tensor<64xf32> {
    StableHlo.nullary main_cst_128 (constant S_ .f32 0x43FA0000#32), -- %cst_128 = stablehlo.constant dense<5.000000e+02> : tensor<f32>
    StableHlo.unary main_cst_128 main_v585 (broadcastInDim S64 ![] bcast_S_S64 : (⟨S_, .f32⟩ : BufTy).Contents (Elt F) → (⟨S64, .f32⟩ : BufTy).Contents (Elt F)), -- %585 = stablehlo.broadcast_in_dim %cst_128, dims = [] : (tensor<f32>) -> tensor<64xf32>
    StableHlo.binary main_v584 main_v585 main_v586 (Host.divf : (⟨S64, .f32⟩ : BufTy).Contents (Elt F) → (⟨S64, .f32⟩ : BufTy).Contents (Elt F) → (⟨S64, .f32⟩ : BufTy).Contents (Elt F)), -- %586 = stablehlo.divide %584, %585 : tensor<64xf32>
    StableHlo.nullary main_c_129 (constantI S_ 32 0#32), -- %c_129 = stablehlo.constant dense<0> : tensor<i32>
    StableHlo.TRef.nullary main_call13.cst (constant S_ .f32 0x00000000#32), -- @var (main_call13): %cst = stablehlo.constant dense<0.000000e+00> : tensor<f32>
    StableHlo.TRef.binary (.of main_v583 : StableHlo.TRef sig ⟨S500x64, .f32⟩) main_call13.cst main_call13.v0 (fun x v => Host.reduceAdd x v reducesTo_S500x64_S64_d0 h_S_), -- @var (main_call13): %0 = stablehlo.reduce(%arg0 init: %cst) applies stablehlo.add across dimensions = [0] : (tensor<500x64xf32>, tensor<f32>) -> tensor<64xf32> {
    StableHlo.TRef.unary main_call13.v0 main_call13.v1 (broadcastInDim S1x64 ![1] bcast_S64_S1x64_1), -- @var (main_call13): %1 = stablehlo.broadcast_in_dim %0, dims = [1] : (tensor<64xf32>) -> tensor<1x64xf32>
    StableHlo.TRef.nullary main_call13.cst_0 (constant S_ .f32 0x43FA0000#32), -- @var (main_call13): %cst_0 = stablehlo.constant dense<5.000000e+02> : tensor<f32>
    StableHlo.TRef.unary main_call13.cst_0 main_call13.v2 (broadcastInDim S1x64 ![] bcast_S_S1x64), -- @var (main_call13): %2 = stablehlo.broadcast_in_dim %cst_0, dims = [] : (tensor<f32>) -> tensor<1x64xf32>
    StableHlo.TRef.binary main_call13.v1 main_call13.v2 main_call13.v3 Host.divf, -- @var (main_call13): %3 = stablehlo.divide %1, %2 : tensor<1x64xf32>
    StableHlo.TRef.unary main_call13.v3 main_call13.v4 (broadcastInDim S500x64 ![0, 1] bcast_S1x64_S500x64_0_1), -- @var (main_call13): %4 = stablehlo.broadcast_in_dim %3, dims = [0, 1] : (tensor<1x64xf32>) -> tensor<500x64xf32>
    StableHlo.TRef.binary (.of main_v583 : StableHlo.TRef sig ⟨S500x64, .f32⟩) main_call13.v4 main_call13.v5 subf, -- @var (main_call13): %5 = stablehlo.subtract %arg0, %4 : tensor<500x64xf32>
    StableHlo.TRef.binary main_call13.v5 main_call13.v5 main_call13.v6 mulf, -- @var (main_call13): %6 = chlo.square %5 : tensor<500x64xf32> -> tensor<500x64xf32>
    StableHlo.TRef.unary (.of main_c_129 : StableHlo.TRef sig ⟨S_, .i32⟩) main_call13.v7 (sitofp .f32), -- @var (main_call13): %7 = stablehlo.convert %arg1 : (tensor<i32>) -> tensor<f32>
    StableHlo.TRef.nullary main_call13.cst_1 (constant S_ .f32 0x43FA0000#32), -- @var (main_call13): %cst_1 = stablehlo.constant dense<5.000000e+02> : tensor<f32>
    StableHlo.TRef.binary main_call13.cst_1 main_call13.v7 main_call13.v8 subf, -- @var (main_call13): %8 = stablehlo.subtract %cst_1, %7 : tensor<f32>
    StableHlo.TRef.nullary main_call13.cst_2 (constant S_ .f32 0x00000000#32), -- @var (main_call13): %cst_2 = stablehlo.constant dense<0.000000e+00> : tensor<f32>
    StableHlo.TRef.binary main_call13.v6 main_call13.cst_2 main_call13.v9 (fun x v => Host.reduceAdd x v reducesTo_S500x64_S64_d0 h_S_), -- @var (main_call13): %9 = stablehlo.reduce(%6 init: %cst_2) applies stablehlo.add across dimensions = [0] : (tensor<500x64xf32>, tensor<f32>) -> tensor<64xf32> {
    StableHlo.TRef.unary main_call13.v8 main_call13.v10 (broadcastInDim S64 ![] bcast_S_S64), -- @var (main_call13): %10 = stablehlo.broadcast_in_dim %8, dims = [] : (tensor<f32>) -> tensor<64xf32>
    StableHlo.TRef.binary main_call13.v9 main_call13.v10 main_call13.v11 Host.divf, -- @var (main_call13): %11 = stablehlo.divide %9, %10 : tensor<64xf32>
    StableHlo.TRef.nullary main_call13.cst_3 (constant S_ .f32 0x00000000#32), -- @var (main_call13): %cst_3 = stablehlo.constant dense<0.000000e+00> : tensor<f32>
    StableHlo.TRef.binary main_call13.v8 main_call13.cst_3 main_call13.v12 (cmpf .ogt), -- @var (main_call13): %12 = stablehlo.compare GT, %8, %cst_3, FLOAT : (tensor<f32>, tensor<f32>) -> tensor<i1>
    StableHlo.TRef.nullary main_call13.cst_4 (constant S_ .f32 0x7FC00000#32), -- @var (main_call13): %cst_4 = stablehlo.constant dense<0x7FC00000> : tensor<f32>
    StableHlo.TRef.unary main_call13.cst_4 main_call13.call0.v0 id, -- @where (main_call13.call0): %0 = stablehlo.convert %arg2 : tensor<f32>
    StableHlo.TRef.unary main_call13.call0.v0 main_call13.call0.v1 (broadcastInDim S64 ![] bcast_S_S64), -- @where (main_call13.call0): %1 = stablehlo.broadcast_in_dim %0, dims = [] : (tensor<f32>) -> tensor<64xf32>
    StableHlo.TRef.ternary main_call13.v12 main_call13.v11 main_call13.call0.v1 main_call13.call0.v2 (fun p a b => select (broadcastInDim S64 ![] bcast_S_S64 p) a b) ] -- @where (main_call13.call0): %2 = stablehlo.select %arg0, %arg1, %1 : tensor<i1>, tensor<64xf32>

/-- Every buffer these operations touch is a TensorCore reference. -/
theorem opsSeg18_sub : (opsSeg18 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩

/-- Each of these operations determines its results. -/
theorem opsSeg18_fresh : (opsSeg18 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers these operations write, in order. -/
abbrev opsSeg18_W : List (Ref sig .tc) :=
  [main_v580, main_v581, main_v582, main_v583, main_cst_127, main_v584, main_cst_128, main_v585, main_v586, main_c_129, main_call13.cst.ref, main_call13.v0.ref, main_call13.v1.ref, main_call13.cst_0.ref, main_call13.v2.ref, main_call13.v3.ref, main_call13.v4.ref, main_call13.v5.ref, main_call13.v6.ref, main_call13.v7.ref, main_call13.cst_1.ref, main_call13.v8.ref, main_call13.cst_2.ref, main_call13.v9.ref, main_call13.v10.ref, main_call13.v11.ref, main_call13.cst_3.ref, main_call13.v12.ref, main_call13.cst_4.ref, main_call13.call0.v0.ref, main_call13.call0.v1.ref, main_call13.call0.v2.ref]

/-- Each operation writes only its own result buffer, which is in the list. -/
theorem opsSeg18_writes : (opsSeg18 : List (HloOp τ sig (Elt F))).Forall fun op =>
    op.writes ⊆ (opsSeg18_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer none of these operations writes keeps its contents through them. -/
theorem opsSeg18_keep (V : Valuation τ sig (Elt F)) (r : Ref sig .tc) (h : r ∉ opsSeg18_W) :
    StableHlo.after (opsSeg18 (F := F)) V (Proc.devRef .tc r) = V (Proc.devRef .tc r) :=
  StableHlo.after_of_writes_sub opsSeg18 V opsSeg18_writes h

/-- The reference's operations 806 … 824 of 852, in order; an outlined function's operations stand at its call, over that call's buffers. -/
abbrev opsSeg19 : List (HloOp τ sig (Elt F)) :=
  [ StableHlo.unary main_v586 main_v588 (broadcastInDim S1x64 ![1] bcast_S64_S1x64_1 : (⟨S64, .f32⟩ : BufTy).Contents (Elt F) → (⟨S1x64, .f32⟩ : BufTy).Contents (Elt F)), -- %588 = stablehlo.broadcast_in_dim %586, dims = [1] : (tensor<64xf32>) -> tensor<1x64xf32>
    StableHlo.unary main_v588 main_v589 (broadcastInDim S500x64 ![0, 1] bcast_S1x64_S500x64_0_1 : (⟨S1x64, .f32⟩ : BufTy).Contents (Elt F) → (⟨S500x64, .f32⟩ : BufTy).Contents (Elt F)), -- %589 = stablehlo.broadcast_in_dim %588, dims = [0, 1] : (tensor<1x64xf32>) -> tensor<500x64xf32>
    StableHlo.binary main_v583 main_v589 main_v590 (subf : (⟨S500x64, .f32⟩ : BufTy).Contents (Elt F) → (⟨S500x64, .f32⟩ : BufTy).Contents (Elt F) → (⟨S500x64, .f32⟩ : BufTy).Contents (Elt F)), -- %590 = stablehlo.subtract %583, %589 : tensor<500x64xf32>
    StableHlo.nullary main_cst_130 (constant S_ .f32 0x3727C5AC#32), -- %cst_130 = stablehlo.constant dense<9.99999974E-6> : tensor<f32>
    StableHlo.unary main_cst_130 main_v591 (broadcastInDim S64 ![] bcast_S_S64 : (⟨S_, .f32⟩ : BufTy).Contents (Elt F) → (⟨S64, .f32⟩ : BufTy).Contents (Elt F)), -- %591 = stablehlo.broadcast_in_dim %cst_130, dims = [] : (tensor<f32>) -> tensor<64xf32>
    StableHlo.binary main_v587 main_v591 main_v592 (addf : (⟨S64, .f32⟩ : BufTy).Contents (Elt F) → (⟨S64, .f32⟩ : BufTy).Contents (Elt F) → (⟨S64, .f32⟩ : BufTy).Contents (Elt F)), -- %592 = stablehlo.add %587, %591 : tensor<64xf32>
    StableHlo.unary main_v592 main_v593 (Host.rsqrt : (⟨S64, .f32⟩ : BufTy).Contents (Elt F) → (⟨S64, .f32⟩ : BufTy).Contents (Elt F)), -- %593 = stablehlo.rsqrt %592 : tensor<64xf32>
    StableHlo.unary main_v593 main_v594 (broadcastInDim S1x64 ![1] bcast_S64_S1x64_1 : (⟨S64, .f32⟩ : BufTy).Contents (Elt F) → (⟨S1x64, .f32⟩ : BufTy).Contents (Elt F)), -- %594 = stablehlo.broadcast_in_dim %593, dims = [1] : (tensor<64xf32>) -> tensor<1x64xf32>
    StableHlo.unary main_v594 main_v595 (broadcastInDim S500x64 ![0, 1] bcast_S1x64_S500x64_0_1 : (⟨S1x64, .f32⟩ : BufTy).Contents (Elt F) → (⟨S500x64, .f32⟩ : BufTy).Contents (Elt F)), -- %595 = stablehlo.broadcast_in_dim %594, dims = [0, 1] : (tensor<1x64xf32>) -> tensor<500x64xf32>
    StableHlo.binary main_v590 main_v595 main_v596 (mulf : (⟨S500x64, .f32⟩ : BufTy).Contents (Elt F) → (⟨S500x64, .f32⟩ : BufTy).Contents (Elt F) → (⟨S500x64, .f32⟩ : BufTy).Contents (Elt F)), -- %596 = stablehlo.multiply %590, %595 : tensor<500x64xf32>
    StableHlo.unary main_arg17 main_v597 (broadcastInDim S1x64 ![1] bcast_S64_S1x64_1 : (⟨S64, .f32⟩ : BufTy).Contents (Elt F) → (⟨S1x64, .f32⟩ : BufTy).Contents (Elt F)), -- %597 = stablehlo.broadcast_in_dim %arg17, dims = [1] : (tensor<64xf32>) -> tensor<1x64xf32>
    StableHlo.unary main_v597 main_v598 (broadcastInDim S500x64 ![0, 1] bcast_S1x64_S500x64_0_1 : (⟨S1x64, .f32⟩ : BufTy).Contents (Elt F) → (⟨S500x64, .f32⟩ : BufTy).Contents (Elt F)), -- %598 = stablehlo.broadcast_in_dim %597, dims = [0, 1] : (tensor<1x64xf32>) -> tensor<500x64xf32>
    StableHlo.binary main_v596 main_v598 main_v599 (mulf : (⟨S500x64, .f32⟩ : BufTy).Contents (Elt F) → (⟨S500x64, .f32⟩ : BufTy).Contents (Elt F) → (⟨S500x64, .f32⟩ : BufTy).Contents (Elt F)), -- %599 = stablehlo.multiply %596, %598 : tensor<500x64xf32>
    StableHlo.unary main_arg18 main_v600 (broadcastInDim S1x64 ![1] bcast_S64_S1x64_1 : (⟨S64, .f32⟩ : BufTy).Contents (Elt F) → (⟨S1x64, .f32⟩ : BufTy).Contents (Elt F)), -- %600 = stablehlo.broadcast_in_dim %arg18, dims = [1] : (tensor<64xf32>) -> tensor<1x64xf32>
    StableHlo.unary main_v600 main_v601 (broadcastInDim S500x64 ![0, 1] bcast_S1x64_S500x64_0_1 : (⟨S1x64, .f32⟩ : BufTy).Contents (Elt F) → (⟨S500x64, .f32⟩ : BufTy).Contents (Elt F)), -- %601 = stablehlo.broadcast_in_dim %600, dims = [0, 1] : (tensor<1x64xf32>) -> tensor<500x64xf32>
    StableHlo.binary main_v599 main_v601 main_v602 (addf : (⟨S500x64, .f32⟩ : BufTy).Contents (Elt F) → (⟨S500x64, .f32⟩ : BufTy).Contents (Elt F) → (⟨S500x64, .f32⟩ : BufTy).Contents (Elt F)), -- %602 = stablehlo.add %599, %601 : tensor<500x64xf32>
    StableHlo.TRef.nullary main_call14.cst (constant S_ .f32 0x00000000#32), -- @relu_0 (main_call14): %cst = stablehlo.constant dense<0.000000e+00> : tensor<f32>
    StableHlo.TRef.unary main_call14.cst main_call14.v0 (broadcastInDim S500x64 ![] bcast_S_S500x64), -- @relu_0 (main_call14): %0 = stablehlo.broadcast_in_dim %cst, dims = [] : (tensor<f32>) -> tensor<500x64xf32>
    StableHlo.TRef.binary (.of main_v602 : StableHlo.TRef sig ⟨S500x64, .f32⟩) main_call14.v0 main_call14.v1 maximumf ] -- @relu_0 (main_call14): %1 = stablehlo.maximum %arg0, %0 : tensor<500x64xf32>

/-- Every buffer these operations touch is a TensorCore reference. -/
theorem opsSeg19_sub : (opsSeg19 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

/-- Each of these operations determines its results. -/
theorem opsSeg19_fresh : (opsSeg19 : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- The buffers these operations write, in order. -/
abbrev opsSeg19_W : List (Ref sig .tc) :=
  [main_v588, main_v589, main_v590, main_cst_130, main_v591, main_v592, main_v593, main_v594, main_v595, main_v596, main_v597, main_v598, main_v599, main_v600, main_v601, main_v602, main_call14.cst.ref, main_call14.v0.ref, main_call14.v1.ref]

/-- Each operation writes only its own result buffer, which is in the list. -/
theorem opsSeg19_writes : (opsSeg19 : List (HloOp τ sig (Elt F))).Forall fun op =>
    op.writes ⊆ (opsSeg19_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer none of these operations writes keeps its contents through them. -/
theorem opsSeg19_keep (V : Valuation τ sig (Elt F)) (r : Ref sig .tc) (h : r ∉ opsSeg19_W) :
    StableHlo.after (opsSeg19 (F := F)) V (Proc.devRef .tc r) = V (Proc.devRef .tc r) :=
  StableHlo.after_of_writes_sub opsSeg19 V opsSeg19_writes h

/-- The reference's operations 825 … 852 of 852, in order; an outlined function's operations stand at its call, over that call's buffers. -/
abbrev opsSeg20 : List (HloOp τ sig (Elt F)) :=
  [ StableHlo.binary main_v603 main_arg15 main_v604 ((fun l r => Host.dotGeneral dot_S500x64_S64x1_S500x1_1_0_0_1_n_n none l r) : (⟨S500x64, .f32⟩ : BufTy).Contents (Elt F) → (⟨S64x1, .f32⟩ : BufTy).Contents (Elt F) → (⟨S500x1, .f32⟩ : BufTy).Contents (Elt F)), -- %604 = stablehlo.dot_general %603, %arg15, contracting_dims = [1] x [0], precision = [DEFAULT, DEFAULT] : (tensor<500x64xf32>, tensor<64x1xf32>) -> tensor<500x1xf32>
    StableHlo.unary main_arg16 main_v605 (broadcastInDim S1x1 ![1] bcast_S1_S1x1_1 : (⟨S1, .f32⟩ : BufTy).Contents (Elt F) → (⟨S1x1, .f32⟩ : BufTy).Contents (Elt F)), -- %605 = stablehlo.broadcast_in_dim %arg16, dims = [1] : (tensor<1xf32>) -> tensor<1x1xf32>
    StableHlo.unary main_v605 main_v606 (broadcastInDim S500x1 ![0, 1] bcast_S1x1_S500x1_0_1 : (⟨S1x1, .f32⟩ : BufTy).Contents (Elt F) → (⟨S500x1, .f32⟩ : BufTy).Contents (Elt F)), -- %606 = stablehlo.broadcast_in_dim %605, dims = [0, 1] : (tensor<1x1xf32>) -> tensor<500x1xf32>
    StableHlo.binary main_v604 main_v606 main_v607 (addf : (⟨S500x1, .f32⟩ : BufTy).Contents (Elt F) → (⟨S500x1, .f32⟩ : BufTy).Contents (Elt F) → (⟨S500x1, .f32⟩ : BufTy).Contents (Elt F)), -- %607 = stablehlo.add %604, %606 : tensor<500x1xf32>
    StableHlo.nullary main_c_131 (constantI S_ 32 0#32), -- %c_131 = stablehlo.constant dense<0> : tensor<i32>
    StableHlo.unary main_c_131 main_v608 (broadcastInDim S800000 ![] bcast_S_S800000 : (⟨S_, .i32⟩ : BufTy).Contents (Elt F) → (⟨S800000, .i32⟩ : BufTy).Contents (Elt F)), -- %608 = stablehlo.broadcast_in_dim %c_131, dims = [] : (tensor<i32>) -> tensor<800000xi32>
    StableHlo.binary main_v1 main_v608 main_v609 (cmpi .slt : (⟨S800000, .i32⟩ : BufTy).Contents (Elt F) → (⟨S800000, .i32⟩ : BufTy).Contents (Elt F) → (⟨S800000, .i1⟩ : BufTy).Contents (Elt F)), -- %609 = stablehlo.compare LT, %1, %608, SIGNED : (tensor<800000xi32>, tensor<800000xi32>) -> tensor<800000xi1>
    StableHlo.nullary main_c_132 (constantI S_ 32 50000#32), -- %c_132 = stablehlo.constant dense<50000> : tensor<i32>
    StableHlo.unary main_c_132 main_v610 (broadcastInDim S800000 ![] bcast_S_S800000 : (⟨S_, .i32⟩ : BufTy).Contents (Elt F) → (⟨S800000, .i32⟩ : BufTy).Contents (Elt F)), -- %610 = stablehlo.broadcast_in_dim %c_132, dims = [] : (tensor<i32>) -> tensor<800000xi32>
    StableHlo.binary main_v1 main_v610 main_v611 (addi : (⟨S800000, .i32⟩ : BufTy).Contents (Elt F) → (⟨S800000, .i32⟩ : BufTy).Contents (Elt F) → (⟨S800000, .i32⟩ : BufTy).Contents (Elt F)), -- %611 = stablehlo.add %1, %610 : tensor<800000xi32>
    StableHlo.ternary main_v609 main_v611 main_v1 main_v612 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)), -- %612 = stablehlo.select %609, %611, %1 : tensor<800000xi1>, tensor<800000xi32>
    StableHlo.unary main_v612 main_v613 (broadcastInDim S800000x1 ![0] bcast_S800000_S800000x1_0 : (⟨S800000, .i32⟩ : BufTy).Contents (Elt F) → (⟨S800000x1, .i32⟩ : BufTy).Contents (Elt F)), -- %613 = stablehlo.broadcast_in_dim %612, dims = [0] : (tensor<800000xi32>) -> tensor<800000x1xi32>
    StableHlo.binary main_v528 main_v613 main_v614 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)), -- %614 = "stablehlo.gather"(%528, %613) <{dimension_numbers = #stablehlo.gather<offset_dims = [1], collapsed_slice_dims = [0], start_index_map = [0], index_vector_dim = 1>, indices_are_sorted = false, slice_sizes = array<i64: 1, 64>}> : (tensor<50000x64xf32>, tensor<800000x1xi32>) -> tensor<800000x64xf32>
    StableHlo.nullary main_c_133 (constantI S_ 32 0#32), -- %c_133 = stablehlo.constant dense<0> : tensor<i32>
    StableHlo.unary main_c_133 main_v615 (broadcastInDim S800000 ![] bcast_S_S800000 : (⟨S_, .i32⟩ : BufTy).Contents (Elt F) → (⟨S800000, .i32⟩ : BufTy).Contents (Elt F)), -- %615 = stablehlo.broadcast_in_dim %c_133, dims = [] : (tensor<i32>) -> tensor<800000xi32>
    StableHlo.binary main_v3 main_v615 main_v616 (cmpi .slt : (⟨S800000, .i32⟩ : BufTy).Contents (Elt F) → (⟨S800000, .i32⟩ : BufTy).Contents (Elt F) → (⟨S800000, .i1⟩ : BufTy).Contents (Elt F)), -- %616 = stablehlo.compare LT, %3, %615, SIGNED : (tensor<800000xi32>, tensor<800000xi32>) -> tensor<800000xi1>
    StableHlo.nullary main_c_134 (constantI S_ 32 50000#32), -- %c_134 = stablehlo.constant dense<50000> : tensor<i32>
    StableHlo.unary main_c_134 main_v617 (broadcastInDim S800000 ![] bcast_S_S800000 : (⟨S_, .i32⟩ : BufTy).Contents (Elt F) → (⟨S800000, .i32⟩ : BufTy).Contents (Elt F)), -- %617 = stablehlo.broadcast_in_dim %c_134, dims = [] : (tensor<i32>) -> tensor<800000xi32>
    StableHlo.binary main_v3 main_v617 main_v618 (addi : (⟨S800000, .i32⟩ : BufTy).Contents (Elt F) → (⟨S800000, .i32⟩ : BufTy).Contents (Elt F) → (⟨S800000, .i32⟩ : BufTy).Contents (Elt F)), -- %618 = stablehlo.add %3, %617 : tensor<800000xi32>
    StableHlo.ternary main_v616 main_v618 main_v3 main_v619 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)), -- %619 = stablehlo.select %616, %618, %3 : tensor<800000xi1>, tensor<800000xi32>
    StableHlo.unary main_v619 main_v620 (broadcastInDim S800000x1 ![0] bcast_S800000_S800000x1_0 : (⟨S800000, .i32⟩ : BufTy).Contents (Elt F) → (⟨S800000x1, .i32⟩ : BufTy).Contents (Elt F)), -- %620 = stablehlo.broadcast_in_dim %619, dims = [0] : (tensor<800000xi32>) -> tensor<800000x1xi32>
    StableHlo.binary main_v528 main_v620 main_v621 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)), -- %621 = "stablehlo.gather"(%528, %620) <{dimension_numbers = #stablehlo.gather<offset_dims = [1], collapsed_slice_dims = [0], start_index_map = [0], index_vector_dim = 1>, indices_are_sorted = false, slice_sizes = array<i64: 1, 64>}> : (tensor<50000x64xf32>, tensor<800000x1xi32>) -> tensor<800000x64xf32>
    StableHlo.binary main_v614 main_v621 main_v622 (subf : (⟨S800000x64, .f32⟩ : BufTy).Contents (Elt F) → (⟨S800000x64, .f32⟩ : BufTy).Contents (Elt F) → (⟨S800000x64, .f32⟩ : BufTy).Contents (Elt F)), -- %622 = stablehlo.subtract %614, %621 : tensor<800000x64xf32>
    StableHlo.binary main_v622 main_v622 main_v623 (mulf : (⟨S800000x64, .f32⟩ : BufTy).Contents (Elt F) → (⟨S800000x64, .f32⟩ : BufTy).Contents (Elt F) → (⟨S800000x64, .f32⟩ : BufTy).Contents (Elt F)), -- %623 = stablehlo.multiply %622, %622 : tensor<800000x64xf32>
    StableHlo.nullary main_cst_135 (constant S_ .f32 0x00000000#32), -- %cst_135 = stablehlo.constant dense<0.000000e+00> : tensor<f32>
    StableHlo.binary main_v623 main_cst_135 main_v624 ((fun x v => Host.reduceAdd x v reducesTo_S800000x64_S_d0_1 h_S_) : (⟨S800000x64, .f32⟩ : BufTy).Contents (Elt F) → (⟨S_, .f32⟩ : BufTy).Contents (Elt F) → (⟨S_, .f32⟩ : BufTy).Contents (Elt F)), -- %624 = stablehlo.reduce(%623 init: %cst_135) applies stablehlo.add across dimensions = [0, 1] : (tensor<800000x64xf32>, tensor<f32>) -> tensor<f32> {
    StableHlo.nullary main_cst_136 (constant S_ .f32 0x3F000000#32), -- %cst_136 = stablehlo.constant dense<5.000000e-01> : tensor<f32>
    StableHlo.binary main_cst_136 main_v624 main_v625 (mulf : (⟨S_, .f32⟩ : BufTy).Contents (Elt F) → (⟨S_, .f32⟩ : BufTy).Contents (Elt F) → (⟨S_, .f32⟩ : BufTy).Contents (Elt F)) ] -- %625 = stablehlo.multiply %cst_136, %624 : tensor<f32>

/-- Every buffer these operations touch is a TensorCore reference. -/
theorem opsSeg20_sub : (opsSeg20 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.nullary_bufs_sub .., StableHlo.binary_bufs_sub .., StableHlo.nullary_bufs_sub .., StableHlo.binary_bufs_sub ..⟩

/-- Each of these operations determines its results. -/
theorem opsSeg20_fresh : (opsSeg20 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

/-- The buffers these operations write, in order. -/
abbrev opsSeg20_W : List (Ref sig .tc) :=
  [main_v604, main_v605, main_v606, main_v607, main_c_131, main_v608, main_v609, main_c_132, main_v610, main_v611, main_v612, main_v613, main_v614, main_c_133, main_v615, main_v616, main_c_134, main_v617, main_v618, main_v619, main_v620, main_v621, main_v622, main_v623, main_cst_135, main_v624, main_cst_136, main_v625]

/-- Each operation writes only its own result buffer, which is in the list. -/
theorem opsSeg20_writes : (opsSeg20 : List (HloOp τ sig (Elt F))).Forall fun op =>
    op.writes ⊆ (opsSeg20_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer none of these operations writes keeps its contents through them. -/
theorem opsSeg20_keep (V : Valuation τ sig (Elt F)) (r : Ref sig .tc) (h : r ∉ opsSeg20_W) :
    StableHlo.after (opsSeg20 (F := F)) V (Proc.devRef .tc r) = V (Proc.devRef .tc r) :=
  StableHlo.after_of_writes_sub opsSeg20 V opsSeg20_writes h

/-- The pooling scatter over graphs, the three blocks of affine map, batch statistics (mean and variance over the batch axis), normalization and rectifier, the last affine map, and the smoothness energy over the edges. -/
abbrev opsTail : List (HloOp τ sig (Elt F)) :=
  opsSeg15 ++ (opsSeg16 ++ (opsSeg17 ++ (opsSeg18 ++ (opsSeg19 ++ (opsSeg20)))))

/-- The buffers opsTail writes, in order. -/
abbrev opsTail_W : List (Ref sig .tc) :=
  opsSeg15_W ++ (opsSeg16_W ++ (opsSeg17_W ++ (opsSeg18_W ++ (opsSeg19_W ++ (opsSeg20_W)))))

/-- The contents after opsTail, piece by piece. -/
theorem opsTail_after (V : Valuation τ sig (Elt F)) :
    StableHlo.after (opsTail (F := F)) V = StableHlo.after opsSeg20 (StableHlo.after opsSeg19 (StableHlo.after opsSeg18 (StableHlo.after opsSeg17 (StableHlo.after opsSeg16 (StableHlo.after opsSeg15 V))))) := by
  simp only [opsTail, after_append]

/-- A buffer opsTail does not write keeps its contents through it. -/
theorem opsTail_keep (V : Valuation τ sig (Elt F)) (r : Ref sig .tc) (h : r ∉ opsTail_W) :
    StableHlo.after (opsTail (F := F)) V (Proc.devRef .tc r) = V (Proc.devRef .tc r) := by
  rw [opsTail_after]
  rw [opsSeg20_keep _ r (fun hm => h (List.mem_append_right _ (List.mem_append_right _ (List.mem_append_right _ (List.mem_append_right _ (List.mem_append_right _ (hm))))))),
    opsSeg19_keep _ r (fun hm => h (List.mem_append_right _ (List.mem_append_right _ (List.mem_append_right _ (List.mem_append_right _ (List.mem_append_left _ hm)))))),
    opsSeg18_keep _ r (fun hm => h (List.mem_append_right _ (List.mem_append_right _ (List.mem_append_right _ (List.mem_append_left _ hm))))),
    opsSeg17_keep _ r (fun hm => h (List.mem_append_right _ (List.mem_append_right _ (List.mem_append_left _ hm)))),
    opsSeg16_keep _ r (fun hm => h (List.mem_append_right _ (List.mem_append_left _ hm))),
    opsSeg15_keep _ r (fun hm => h (List.mem_append_left _ hm))]

end Cert.ReferenceIdeal.RefRun

end
-- ==== Proof.RefOps.lean ====
/- The reference program as ONE list of operations: the six parts in program order; the buffer contents after the whole
   list are the parts' folds composed; a buffer no part writes keeps its contents. -/
import proofs.«117928_j61658550502081_1_alg».proof.Proof.RefOpsPre
import proofs.«117928_j61658550502081_1_alg».proof.Proof.RefOpsL0
import proofs.«117928_j61658550502081_1_alg».proof.Proof.RefOpsL1
import proofs.«117928_j61658550502081_1_alg».proof.Proof.RefOpsL2
import proofs.«117928_j61658550502081_1_alg».proof.Proof.RefOpsL3
import proofs.«117928_j61658550502081_1_alg».proof.Proof.RefOpsTail

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- The whole reference: input projection, four message-passing layers, pooling and head, energy. -/
abbrev ops : List (HloOp τ sig (Elt F)) :=
  opsPre ++ (opsLayer0 ++ (opsLayer1 ++ (opsLayer2 ++ (opsLayer3 ++ (opsTail)))))

/-- The buffers the reference writes, in order. -/
abbrev opsW : List (Ref sig .tc) :=
  opsPre_W ++ (opsLayer0_W ++ (opsLayer1_W ++ (opsLayer2_W ++ (opsLayer3_W ++ (opsTail_W)))))

/-- The whole reference's contents, chunk by chunk. -/
theorem after_ops (V : Valuation τ sig (Elt F)) :
    StableHlo.after (ops (F := F)) V = StableHlo.after opsTail (StableHlo.after opsLayer3 (StableHlo.after opsLayer2 (StableHlo.after opsLayer1 (StableHlo.after opsLayer0 (StableHlo.after opsPre V))))) := by
  simp only [ops, after_append]

/-- A buffer the reference does not write keeps its contents through it. -/
theorem ops_keep (V : Valuation τ sig (Elt F)) (r : Ref sig .tc) (h : r ∉ opsW) :
    StableHlo.after (ops (F := F)) V (Proc.devRef .tc r) = V (Proc.devRef .tc r) := by
  rw [after_ops]
  rw [opsTail_keep _ r (fun hm => h (List.mem_append_right _ (List.mem_append_right _ (List.mem_append_right _ (List.mem_append_right _ (List.mem_append_right _ (hm))))))),
    opsLayer3_keep _ r (fun hm => h (List.mem_append_right _ (List.mem_append_right _ (List.mem_append_right _ (List.mem_append_right _ (List.mem_append_left _ hm)))))),
    opsLayer2_keep _ r (fun hm => h (List.mem_append_right _ (List.mem_append_right _ (List.mem_append_right _ (List.mem_append_left _ hm))))),
    opsLayer1_keep _ r (fun hm => h (List.mem_append_right _ (List.mem_append_right _ (List.mem_append_left _ hm)))),
    opsLayer0_keep _ r (fun hm => h (List.mem_append_right _ (List.mem_append_left _ hm))),
    opsPre_keep _ r (fun hm => h (List.mem_append_left _ hm))]

end Cert.ReferenceIdeal.RefRun

end
-- ==== Proof.RefMainA.lean ====
/- The program's statement windows as runs of operation lists: each window of @main is, by unfolding, the sequential
   run of the pieces of the operation list that it spans (an outlined function's body unfolds at its call into that
   function's operations over the call's buffers). -/
import proofs.«117928_j61658550502081_1_alg».proof.Proof.RefOps

noncomputable section

namespace Cert.ReferenceIdeal.RefRun

open Cert.ReferenceIdeal Cert.ReferenceIdeal.Gen Idealize.ShloMosaic Idealize.ShloMosaic.TcCoe Idealize.SL.Sem

variable {F : FTy → Type} [FloatOps F]

set_option maxRecDepth 8192 in
/-- Window 0 of @main is the run of its operations. -/
theorem main_part0_eq (c : Dev nD) :
    main_part0 (F := F) c = StableHlo.seq (opsSeg00 ++ opsSeg01) := rfl

set_option maxRecDepth 8192 in
/-- Window 1 of @main is the run of its operations. -/
theorem main_part1_eq (c : Dev nD) :
    main_part1 (F := F) c = StableHlo.seq (opsSeg02) := rfl

set_option maxRecDepth 8192 in
/-- Window 2 of @main is the run of its operations. -/
theorem main_part2_eq (c : Dev nD) :
    main_part2 (F := F) c = StableHlo.seq (opsSeg03 ++ opsSeg04) := rfl

set_option maxRecDepth 8192 in
/-- Window 3 of @main is the run of its operations. -/
theorem main_part3_eq (c : Dev nD) :
    main_part3 (F := F) c = StableHlo.seq (opsSeg05) := rfl

set_option maxRecDepth 8192 in
/-- Window 4 of @main is the run of its operations. -/
theorem main_part4_eq (c : Dev nD) :
    main_part4 (F := F) c = StableHlo.seq (opsSeg06) := rfl

end Cert.ReferenceIdeal.RefRun

end
-- ==== Proof.RefMainB.lean ====
/- The program's statement windows as runs of operation lists: each window of @main is, by unfolding, the sequential
   run of the pieces of the operation list that it spans (an outlined function's body unfolds at its call into that
   function's operations over the call's buffers). -/
import proofs.«117928_j61658550502081_1_alg».proof.Proof.RefOps

noncomputable section

namespace Cert.ReferenceIdeal.RefRun

open Cert.ReferenceIdeal Cert.ReferenceIdeal.Gen Idealize.ShloMosaic Idealize.ShloMosaic.TcCoe Idealize.SL.Sem

variable {F : FTy → Type} [FloatOps F]

set_option maxRecDepth 8192 in
/-- Window 5 of @main is the run of its operations. -/
theorem main_part5_eq (c : Dev nD) :
    main_part5 (F := F) c = StableHlo.seq (opsSeg07 ++ opsSeg08) := rfl

set_option maxRecDepth 8192 in
/-- Window 6 of @main is the run of its operations. -/
theorem main_part6_eq (c : Dev nD) :
    main_part6 (F := F) c = StableHlo.seq (opsSeg09) := rfl

set_option maxRecDepth 8192 in
/-- Window 7 of @main is the run of its operations. -/
theorem main_part7_eq (c : Dev nD) :
    main_part7 (F := F) c = StableHlo.seq (opsSeg10) := rfl

set_option maxRecDepth 8192 in
/-- Window 8 of @main is the run of its operations. -/
theorem main_part8_eq (c : Dev nD) :
    main_part8 (F := F) c = StableHlo.seq (opsSeg11 ++ opsSeg12) := rfl

set_option maxRecDepth 8192 in
/-- Window 9 of @main is the run of its operations. -/
theorem main_part9_eq (c : Dev nD) :
    main_part9 (F := F) c = StableHlo.seq (opsSeg13) := rfl

end Cert.ReferenceIdeal.RefRun

end
-- ==== Proof.RefMainC.lean ====
/- The program's statement windows as runs of operation lists: each window of @main is, by unfolding, the sequential
   run of the pieces of the operation list that it spans (an outlined function's body unfolds at its call into that
   function's operations over the call's buffers). -/
import proofs.«117928_j61658550502081_1_alg».proof.Proof.RefOps

noncomputable section

namespace Cert.ReferenceIdeal.RefRun

open Cert.ReferenceIdeal Cert.ReferenceIdeal.Gen Idealize.ShloMosaic Idealize.ShloMosaic.TcCoe Idealize.SL.Sem

variable {F : FTy → Type} [FloatOps F]

set_option maxRecDepth 8192 in
/-- Window 10 of @main is the run of its operations. -/
theorem main_part10_eq (c : Dev nD) :
    main_part10 (F := F) c = StableHlo.seq (opsSeg14 ++ opsSeg15) := rfl

set_option maxRecDepth 8192 in
/-- Window 11 of @main is the run of its operations. -/
theorem main_part11_eq (c : Dev nD) :
    main_part11 (F := F) c = StableHlo.seq (opsSeg16 ++ opsSeg17 ++ opsSeg18) := rfl

set_option maxRecDepth 8192 in
/-- Window 12 of @main is the run of its operations. -/
theorem main_part12_eq (c : Dev nD) :
    main_part12 (F := F) c = StableHlo.seq (opsSeg19 ++ opsSeg20) := rfl

end Cert.ReferenceIdeal.RefRun

end
-- ==== Proof.RefMain.lean ====
/- @main is the sequential run of the reference's operation list. The list is its pieces in order (appending is
   associative); a run of appended lists is the runs in sequence; each window of @main is the run of the pieces it spans;
   and sequencing is associative. Also: every buffer the list touches is a TensorCore reference, every operation of it
   determines its result, and the signature scopes no TensorCore buffer and no semaphore. -/
import proofs.«117928_j61658550502081_1_alg».proof.Proof.RefMainA
import proofs.«117928_j61658550502081_1_alg».proof.Proof.RefMainB
import proofs.«117928_j61658550502081_1_alg».proof.Proof.RefMainC

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- The operation list as its pieces in order, appended from the right. -/
theorem ops_flat : (ops : List (HloOp τ sig (Elt F))) = opsSeg00 ++ (opsSeg01 ++ (opsSeg02 ++ (opsSeg03 ++ (opsSeg04 ++ (opsSeg05 ++ (opsSeg06 ++ (opsSeg07 ++ (opsSeg08 ++ (opsSeg09 ++ (opsSeg10 ++ (opsSeg11 ++ (opsSeg12 ++ (opsSeg13 ++ (opsSeg14 ++ (opsSeg15 ++ (opsSeg16 ++ (opsSeg17 ++ (opsSeg18 ++ (opsSeg19 ++ (opsSeg20)))))))))))))))))))) := by
  simp only [ops, opsPre, opsLayer0, opsLayer1, opsLayer2, opsLayer3, opsTail, List.append_assoc]

/-- @main on any device is the sequential run of the operation list. -/
theorem main_eq (c : Dev nD) : main (F := F) c = StableHlo.seq ops := by
  rw [ops_flat]
  show (main_part0 (F := F) c >>= fun _ => main_part1 (F := F) c >>= fun _ => main_part2 (F := F) c >>= fun _ => main_part3 (F := F) c >>= fun _ => main_part4 (F := F) c >>= fun _ => main_part5 (F := F) c >>= fun _ => main_part6 (F := F) c >>= fun _ => main_part7 (F := F) c >>= fun _ => main_part8 (F := F) c >>= fun _ => main_part9 (F := F) c >>= fun _ => main_part10 (F := F) c >>= fun _ => main_part11 (F := F) c >>= fun _ => main_part12 (F := F) c) = _
  simp only [main_part0_eq, main_part1_eq, main_part2_eq, main_part3_eq, main_part4_eq, main_part5_eq, main_part6_eq, main_part7_eq, main_part8_eq, main_part9_eq, main_part10_eq, main_part11_eq, main_part12_eq, StableHlo.seq_append, bind_assoc]

theorem scopedRefs_eq : (Finset.univ.filter fun b : Ref sig .tc => b.isScoped) = ∅ := by decide
theorem scopedSems_eq : (Finset.univ.filter fun sm : SemLoc sig => sm.isScoped .tc) = ∅ := by decide

/-- Every buffer the operations touch is a TensorCore reference. -/
theorem ops_sub : (ops : List (HloOp τ sig (Elt F))).Forall fun op => op.bufs ⊆ StableHlo.tcRefs τ sig := by
  rw [ops_flat]
  refine List.forall_iff_forall_mem.mpr fun op h => ?_
  simp only [List.mem_append] at h
  rcases h with h | h | h | h | h | h | h | h | h | h | h | h | h | h | h | h | h | h | h | h | h
  exacts [List.forall_iff_forall_mem.mp opsSeg00_sub op h,
    List.forall_iff_forall_mem.mp opsSeg01_sub op h,
    List.forall_iff_forall_mem.mp opsSeg02_sub op h,
    List.forall_iff_forall_mem.mp opsSeg03_sub op h,
    List.forall_iff_forall_mem.mp opsSeg04_sub op h,
    List.forall_iff_forall_mem.mp opsSeg05_sub op h,
    List.forall_iff_forall_mem.mp opsSeg06_sub op h,
    List.forall_iff_forall_mem.mp opsSeg07_sub op h,
    List.forall_iff_forall_mem.mp opsSeg08_sub op h,
    List.forall_iff_forall_mem.mp opsSeg09_sub op h,
    List.forall_iff_forall_mem.mp opsSeg10_sub op h,
    List.forall_iff_forall_mem.mp opsSeg11_sub op h,
    List.forall_iff_forall_mem.mp opsSeg12_sub op h,
    List.forall_iff_forall_mem.mp opsSeg13_sub op h,
    List.forall_iff_forall_mem.mp opsSeg14_sub op h,
    List.forall_iff_forall_mem.mp opsSeg15_sub op h,
    List.forall_iff_forall_mem.mp opsSeg16_sub op h,
    List.forall_iff_forall_mem.mp opsSeg17_sub op h,
    List.forall_iff_forall_mem.mp opsSeg18_sub op h,
    List.forall_iff_forall_mem.mp opsSeg19_sub op h,
    List.forall_iff_forall_mem.mp opsSeg20_sub op h]

/-- Every operation determines its results. -/
theorem ops_fresh : ∀ op ∈ (ops : List (HloOp τ sig (Elt F))), op.fresh = ∅ := by
  rw [ops_flat]
  intro op h
  simp only [List.mem_append] at h
  rcases h with h | h | h | h | h | h | h | h | h | h | h | h | h | h | h | h | h | h | h | h | h
  exacts [List.forall_iff_forall_mem.mp opsSeg00_fresh op h,
    List.forall_iff_forall_mem.mp opsSeg01_fresh op h,
    List.forall_iff_forall_mem.mp opsSeg02_fresh op h,
    List.forall_iff_forall_mem.mp opsSeg03_fresh op h,
    List.forall_iff_forall_mem.mp opsSeg04_fresh op h,
    List.forall_iff_forall_mem.mp opsSeg05_fresh op h,
    List.forall_iff_forall_mem.mp opsSeg06_fresh op h,
    List.forall_iff_forall_mem.mp opsSeg07_fresh op h,
    List.forall_iff_forall_mem.mp opsSeg08_fresh op h,
    List.forall_iff_forall_mem.mp opsSeg09_fresh op h,
    List.forall_iff_forall_mem.mp opsSeg10_fresh op h,
    List.forall_iff_forall_mem.mp opsSeg11_fresh op h,
    List.forall_iff_forall_mem.mp opsSeg12_fresh op h,
    List.forall_iff_forall_mem.mp opsSeg13_fresh op h,
    List.forall_iff_forall_mem.mp opsSeg14_fresh op h,
    List.forall_iff_forall_mem.mp opsSeg15_fresh op h,
    List.forall_iff_forall_mem.mp opsSeg16_fresh op h,
    List.forall_iff_forall_mem.mp opsSeg17_fresh op h,
    List.forall_iff_forall_mem.mp opsSeg18_fresh op h,
    List.forall_iff_forall_mem.mp opsSeg19_fresh op h,
    List.forall_iff_forall_mem.mp opsSeg20_fresh op h]

end Cert.ReferenceIdeal.RefRun

end
-- ==== Proof.RefRunRaw.lean ====
/- The reference's run. From any memory with zero counters, on every device, every weakly fair execution of @main terminates
   and faults nothing; afterwards every TensorCore buffer holds the fold of the operation list over the buffer contents at
   launch. In particular the two result buffers hold that fold at their own references, and each of the nineteen argument
   buffers — written by no operation — holds what it held at launch. -/
import proofs.«117928_j61658550502081_1_alg».proof.Proof.RefMain

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- Every buffer after the run: the operation list's fold over the launch contents. -/
theorem run_all (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b)
        = StableHlo.after ops (StableHlo.launchContents m c) (Proc.devRef .tc b) :=
  StableHlo.run_seq scopedRefs_eq scopedSems_eq defs main (fun _ => ops) main_eq (fun _ => ops_sub) m ρ (fun _ => ops_fresh)

theorem main_arg0_not_written : main_arg0 ∉ opsW := by decide
theorem main_arg1_not_written : main_arg1 ∉ opsW := by decide
theorem main_arg2_not_written : main_arg2 ∉ opsW := by decide
theorem main_arg3_not_written : main_arg3 ∉ opsW := by decide
theorem main_arg4_not_written : main_arg4 ∉ opsW := by decide
theorem main_arg5_not_written : main_arg5 ∉ opsW := by decide
theorem main_arg6_not_written : main_arg6 ∉ opsW := by decide
theorem main_arg7_not_written : main_arg7 ∉ opsW := by decide
theorem main_arg8_not_written : main_arg8 ∉ opsW := by decide
theorem main_arg9_not_written : main_arg9 ∉ opsW := by decide
theorem main_arg10_not_written : main_arg10 ∉ opsW := by decide
theorem main_arg11_not_written : main_arg11 ∉ opsW := by decide
theorem main_arg12_not_written : main_arg12 ∉ opsW := by decide
theorem main_arg13_not_written : main_arg13 ∉ opsW := by decide
theorem main_arg14_not_written : main_arg14 ∉ opsW := by decide
theorem main_arg15_not_written : main_arg15 ∉ opsW := by decide
theorem main_arg16_not_written : main_arg16 ∉ opsW := by decide
theorem main_arg17_not_written : main_arg17 ∉ opsW := by decide
theorem main_arg18_not_written : main_arg18 ∉ opsW := by decide

/-- The run, read at the two result buffers and the nineteen arguments: the results are the fold of the operation list over
    the launch contents (left unevaluated), the arguments are unchanged. -/
theorem run_raw (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v607) = StableHlo.after ops (StableHlo.launchContents m c) (Proc.devRef .tc main_v607)
      ∧ r.2.mem ((c.tc : Thread nD τ).loc main_v625) = StableHlo.after ops (StableHlo.launchContents m c) (Proc.devRef .tc main_v625)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => ⟨h c main_v607, h c main_v625,
      (h c main_arg0).trans (ops_keep _ main_arg0 main_arg0_not_written),
      (h c main_arg1).trans (ops_keep _ main_arg1 main_arg1_not_written),
      (h c main_arg2).trans (ops_keep _ main_arg2 main_arg2_not_written),
      (h c main_arg3).trans (ops_keep _ main_arg3 main_arg3_not_written),
      (h c main_arg4).trans (ops_keep _ main_arg4 main_arg4_not_written),
      (h c main_arg5).trans (ops_keep _ main_arg5 main_arg5_not_written),
      (h c main_arg6).trans (ops_keep _ main_arg6 main_arg6_not_written),
      (h c main_arg7).trans (ops_keep _ main_arg7 main_arg7_not_written),
      (h c main_arg8).trans (ops_keep _ main_arg8 main_arg8_not_written),
      (h c main_arg9).trans (ops_keep _ main_arg9 main_arg9_not_written),
      (h c main_arg10).trans (ops_keep _ main_arg10 main_arg10_not_written),
      (h c main_arg11).trans (ops_keep _ main_arg11 main_arg11_not_written),
      (h c main_arg12).trans (ops_keep _ main_arg12 main_arg12_not_written),
      (h c main_arg13).trans (ops_keep _ main_arg13 main_arg13_not_written),
      (h c main_arg14).trans (ops_keep _ main_arg14 main_arg14_not_written),
      (h c main_arg15).trans (ops_keep _ main_arg15 main_arg15_not_written),
      (h c main_arg16).trans (ops_keep _ main_arg16 main_arg16_not_written),
      (h c main_arg17).trans (ops_keep _ main_arg17 main_arg17_not_written),
      (h c main_arg18).trans (ops_keep _ main_arg18 main_arg18_not_written)⟩)
    (run_all m ρ)

end Cert.ReferenceIdeal.RefRun

end
-- ==== Proof.RefFrame.lean ====
/- The reference's frame: from any memory with zero counters, every weakly fair execution of @main terminates, faults
   nothing, and leaves the nineteen argument arrays as they were — the run's statement, keeping only its facts about the
   arguments. -/
import proofs.«117928_j61658550502081_1_alg».proof.Defs
import proofs.«117928_j61658550502081_1_alg».proof.Proof.Gen.Pre_finite_inputs
import proofs.«117928_j61658550502081_1_alg».proof.Proof.RefRunRaw

noncomputable section

namespace Cert.ReferenceIdeal.RefRun

open Cert.ReferenceIdeal Cert.ReferenceIdeal.Gen Idealize.ShloMosaic Idealize.ShloMosaic.TcCoe Idealize.SL.Sem

/-- The reference runs and its argument arrays end unchanged. -/
theorem frame_ri : Cert.frame_ReferenceIdeal := fun m ρ _ =>
  (θ_run _ _ _).mono (fun _ h c => (h c).2.2) (run_raw (F := Ideal) m ρ)

end Cert.ReferenceIdeal.RefRun

end
-- ==== Proof.KRun.lean ====
/-
  The idealized kernel's run with its results kept.

  @main is 23 pipelined regions among 24 stretches of host operations. Over the fold of buffer contents through the
  47 segments — a stretch's operations applied in order, a region's arrays at what its write-backs leave — every
  weakly fair execution terminates with each unscoped buffer at the last boundary's contents. Here the two result
  buffers (the [500,1] head output and the scalar energy) are read off that final state beside the argument
  arrays, which end as launched.
-/
import proofs.«117928_j61658550502081_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two result buffers at the last
    boundary's contents and every argument array as launched. -/
theorem run_W47 : θ_run defs (onTc (τ := τ) (main (F := F))) ⟨m, fun _ => 0, ρ⟩ (fun r => ∀ c : Dev nD,
      r.2.mem ((c.tc : Thread nD τ).loc main_v303) = W47 m ρ c (Proc.devRef .tc main_v303)
      ∧ r.2.mem ((c.tc : Thread nD τ).loc main_v321) = W47 m ρ c (Proc.devRef .tc main_v321)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W47 m ρ c b)
    (hfin := fun c s' => by
      iintro ⟨⟨Hh, -⟩, HSI⟩
      unfold StableHlo.held
      imodintro
      iapply (pointsTo_read_all (Pipeline.ucRefs τ sig) (fun b => (((c : Thread nD τ)).1, b)) (W47 m ρ c) s')
      isplitl [Hh] <;> iassumption)
    (hQ := fun s h c =>
      ⟨h c _ (mem_uc main_v303 (by decide)),
       h c _ (mem_uc main_v321 (by decide)),
       (h c _ (mem_uc main_arg0 (by decide))).trans (W47_main_arg0 m ρ c),
       (h c _ (mem_uc main_arg1 (by decide))).trans (W47_main_arg1 m ρ c),
       (h c _ (mem_uc main_arg2 (by decide))).trans (W47_main_arg2 m ρ c),
       (h c _ (mem_uc main_arg3 (by decide))).trans (W47_main_arg3 m ρ c),
       (h c _ (mem_uc main_arg4 (by decide))).trans (W47_main_arg4 m ρ c),
       (h c _ (mem_uc main_arg5 (by decide))).trans (W47_main_arg5 m ρ c),
       (h c _ (mem_uc main_arg6 (by decide))).trans (W47_main_arg6 m ρ c),
       (h c _ (mem_uc main_arg7 (by decide))).trans (W47_main_arg7 m ρ c),
       (h c _ (mem_uc main_arg8 (by decide))).trans (W47_main_arg8 m ρ c),
       (h c _ (mem_uc main_arg9 (by decide))).trans (W47_main_arg9 m ρ c),
       (h c _ (mem_uc main_arg10 (by decide))).trans (W47_main_arg10 m ρ c),
       (h c _ (mem_uc main_arg11 (by decide))).trans (W47_main_arg11 m ρ c),
       (h c _ (mem_uc main_arg12 (by decide))).trans (W47_main_arg12 m ρ c),
       (h c _ (mem_uc main_arg13 (by decide))).trans (W47_main_arg13 m ρ c),
       (h c _ (mem_uc main_arg14 (by decide))).trans (W47_main_arg14 m ρ c),
       (h c _ (mem_uc main_arg15 (by decide))).trans (W47_main_arg15 m ρ c),
       (h c _ (mem_uc main_arg16 (by decide))).trans (W47_main_arg16 m ρ c),
       (h c _ (mem_uc main_arg17 (by decide))).trans (W47_main_arg17 m ρ c),
       (h c _ (mem_uc main_arg18 (by decide))).trans (W47_main_arg18 m ρ c)⟩)

end Cert.KernelIdeal.KRun

end
-- ==== Proof.LibRegionOp.lean ====
/-
  A kernel region seen as one host operation.

  A pipelined region leaves each of its arrays at some contents `A w` and every other buffer as it found it
  (`Pipeline.withArrays`). When every array but one — the output `wo` — is left as the region found it, and a host
  operation `op` writes exactly that output's buffer with the very contents the region leaves there, the buffer
  contents after the region are the contents after the one-operation line `[op]`. A program of several regions
  among stretches of host operations is then, as far as buffer contents go, one straight line of operations.
-/
import Idealize.ShloMosaic.Lib.Pipeline.FrameSuffix
import Idealize.ShloMosaic.Lib.StableHlo.Run

noncomputable section

namespace Idealize.ShloMosaic.Pipeline

open Idealize.ShloMosaic.TcCoe

variable {nD : Nat} {τ : Topo} {sig : RefSig} {Val : EltTy → Type}

/-- The contents after two lines run one after the other are the second line's fold of the first's. -/
theorem after_append_eq (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

/-- A region that leaves every array but `wo` as entered, and array `wo` at what `op` — an operation writing that
    buffer only — computes from the entry contents, leaves the buffers as the line `[op]` does. -/
theorem withArrays_eq_after_op {gr : Nat} {W : Nat} (win : Fin W → WinSpec sig gr)
    (hinj : Function.Injective (arrRef win)) (c : Dev nD) (V : Valuation τ sig Val)
    (A : (w : Fin W) → Buf Val ((win w).arr.view.loc (c.tc : Thread nD τ)))
    (wo : Fin W) (op : HloOp τ sig Val)
    (hw : op.writes = {Proc.devRef .tc (arrRef win wo)})
    (hres : A wo = op.result V (Proc.devRef .tc (arrRef win wo)))
    (hin : ∀ w, w ≠ wo → A w = V (Proc.devRef .tc (arrRef win w))) :
    withArrays win c V A = StableHlo.after [op] V := by
  funext b
  rw [StableHlo.after_cons, StableHlo.after_nil]
  by_cases h : ∃ w, Proc.devRef .tc (arrRef win w) = b
  · obtain ⟨w, rfl⟩ := h
    rw [withArrays_arr win hinj c V A w]
    by_cases hwo : w = wo
    · subst hwo; exact hres
    · rw [hin w hwo, op.result_of_not_mem V (by
        rw [hw, Finset.mem_singleton]
        exact fun e => hwo (hinj (Proc.devRef_injective _ e)))]
  · have hb : b ∉ op.writes := by
      rw [hw, Finset.mem_singleton]
      exact fun e => h ⟨wo, e.symm⟩
    rw [op.result_of_not_mem V hb]
    unfold withArrays
    rw [dif_neg h]

end Idealize.ShloMosaic.Pipeline

end
-- ==== Proof.KOps.lean ====
/-
  The three kinds of dense per-node operation of the network, each as ONE function of whole arrays over the extended
  reals, entry by entry: a matrix product of a [50000, K] array with a [K, 64] array (K = 128 for the input projection,
  K = 64 inside the layers), a row of biases added to every row and clamped below at zero, and the convex combination
  (1 - t) * x + t * y of two arrays by a third.
-/
import proofs.«117928_j61658550502081_1_alg».proof.KernelIdeal
import Idealize.ShloMosaic.Lib.ValueIdx
import Idealize.ShloMosaic.PureOps.Ideal.Laws

noncomputable section

namespace Cert.KernelIdeal.KV

open Idealize.ShloMosaic Idealize.ShloMosaic.ValueIdx Cert.KernelIdeal

open scoped BigOperators

/-- The [50000, 128] by [128, 64] product: entry (p, q) is the sum over k of x (p, k) * w (k, q). -/
def MM128 (x : Vec Ideal S50000x128 .f32) (w : Vec Ideal S128x64 .f32) : Vec Ideal S50000x64 .f32 :=
  fun i => ((∑ k : Fin 128, (x (ix2 (n0 := 50000) (n1 := 128) (i 0) k) : EReal) * (w (ix2 (n0 := 128) (n1 := 64) k (i 1)) : EReal)) : EReal)

/-- The [50000, 64] by [64, 64] product: entry (p, q) is the sum over k of x (p, k) * w (k, q). -/
def MM64 (x : Vec Ideal S50000x64 .f32) (w : Vec Ideal S64x64 .f32) : Vec Ideal S50000x64 .f32 :=
  fun i => ((∑ k : Fin 64, (x (ix2 (n0 := 50000) (n1 := 64) (i 0) k) : EReal) * (w (ix2 (n0 := 64) (n1 := 64) k (i 1)) : EReal)) : EReal)

/-- A bias row added to every row, then the maximum with zero: entry (p, q) is max (x (p, q) + b (0, q)) 0. -/
def BR (x : Vec Ideal S50000x64 .f32) (b : Vec Ideal S1x64 .f32) : Vec Ideal S50000x64 .f32 :=
  fun i => (max ((x i : EReal) + (b (ix2 (n0 := 1) (n1 := 64) 0 (i 1)) : EReal)) 0 : EReal)

/-- The convex combination by t: entry i is (1 - t i) * x i + t i * y i, the one written as its 32-bit word. -/
def CB (t x y : Vec Ideal S50000x64 .f32) : Vec Ideal S50000x64 .f32 :=
  fun i => ((Ideal.ofBits .f32 0x3F800000#32 - (t i : EReal)) * (x i : EReal) + (t i : EReal) * (y i : EReal) : EReal)

/-- The product at an entry given by its two coordinates. -/
theorem MM128_apply (x : Vec Ideal S50000x128 .f32) (w : Vec Ideal S128x64 .f32) (p : Fin 50000) (q : Fin 64) :
    MM128 x w (ix2 p q) = ∑ k : Fin 128, (x (ix2 p k) : EReal) * (w (ix2 k q) : EReal) := rfl

/-- The product at an entry given by its two coordinates. -/
theorem MM64_apply (x : Vec Ideal S50000x64 .f32) (w : Vec Ideal S64x64 .f32) (p : Fin 50000) (q : Fin 64) :
    MM64 x w (ix2 p q) = ∑ k : Fin 64, (x (ix2 p k) : EReal) * (w (ix2 k q) : EReal) := rfl

/-- The biased, clamped array at an entry given by its two coordinates. -/
theorem BR_apply (x : Vec Ideal S50000x64 .f32) (b : Vec Ideal S1x64 .f32) (p : Fin 50000) (q : Fin 64) :
    BR x b (ix2 p q) = max ((x (ix2 p q) : EReal) + (b (ix2 0 q) : EReal)) 0 := rfl

/-- The combination at an entry. -/
theorem CB_apply (t x y : Vec Ideal S50000x64 .f32) (i : S50000x64.Idx) :
    CB t x y i = (Ideal.ofBits .f32 0x3F800000#32 - (t i : EReal)) * (x i : EReal) + (t i : EReal) * (y i : EReal) := rfl

end Cert.KernelIdeal.KV

end
-- ==== Proof.KHead.lean ====
/-
  The multilayer-perceptron head of the network, as one function of its eleven arrays over the extended reals.

  A dense layer sends a [500, 64] matrix h, a [64, M] matrix W and a [1, M] row b to the matrix whose entry (p, q) is
  (∑ k, h (p, k) * W (k, q)) + b (0, q). A batch normalisation followed by a rectifier sends a [500, 64] matrix y and two
  [1, 64] rows g, b to the matrix whose entry (p, q) is

      max (((y (p, q) - m q) * rsqrt (v q + ε)) * g (0, q) + b (0, q)) 0,

  where m q = (∑ p, y (p, q)) / 500 is the mean of column q, v q = (∑ p, (y (p, q) - m q) * (y (p, q) - m q)) / 500 its
  (biased) variance, and ε, 500 and 0 are the extended reals the float words 0x3727C5AC, 0x43FA0000 and 0x00000000
  denote. The head is three dense layers of width 64, each followed by that normalisation with the same two rows,
  and a last dense layer of width 1.
-/
import proofs.«117928_j61658550502081_1_alg».proof.KernelIdeal
import Idealize.ShloMosaic.PureOps.Ideal.Laws
import Idealize.ShloMosaic.Lib.ValueIdx

noncomputable section

namespace Cert.KernelIdeal.KV

open Idealize.ShloMosaic Idealize.ShloMosaic.ValueIdx

/-- The number of rows, 500, as the float word the program divides by. -/
abbrev rows500 : EReal := Ideal.ofBits .f32 0x43FA0000#32
/-- The normalisation's ε (the float nearest 1e-5). -/
abbrev bnEps : EReal := Ideal.ofBits .f32 0x3727C5AC#32
/-- The float zero the rectifier clamps against. -/
abbrev fzero : EReal := Ideal.ofBits .f32 0x00000000#32

/-! ## A dense layer -/

/-- Entry (p, q) of the product of a [500, 64] matrix with a [64, M] matrix. -/
def mmAt {M : Nat} (h : (⟨2, ![500, 64]⟩ : Shape).Idx → EReal) (W : (⟨2, ![64, M]⟩ : Shape).Idx → EReal)
    (p : Fin 500) (q : Fin M) : EReal :=
  ∑ k : Fin 64, h (ix2 p k) * W (ix2 k q)

/-- The product of a [500, 64] matrix with a [64, M] matrix. -/
def mm {M : Nat} (h : (⟨2, ![500, 64]⟩ : Shape).Idx → EReal) (W : (⟨2, ![64, M]⟩ : Shape).Idx → EReal) :
    (⟨2, ![500, M]⟩ : Shape).Idx → EReal :=
  fun i => mmAt h W (i 0) (i 1)

/-- A [1, M] row added to every row of a [500, M] matrix. -/
def addRow {M : Nat} (y : (⟨2, ![500, M]⟩ : Shape).Idx → EReal) (b : (⟨2, ![1, M]⟩ : Shape).Idx → EReal) :
    (⟨2, ![500, M]⟩ : Shape).Idx → EReal :=
  fun i => y i + b (ix2 0 (i 1))

/-- A dense layer: entry (p, q) is (∑ k, h (p, k) * W (k, q)) + b (0, q). -/
def dense {M : Nat} (h : (⟨2, ![500, 64]⟩ : Shape).Idx → EReal) (W : (⟨2, ![64, M]⟩ : Shape).Idx → EReal)
    (b : (⟨2, ![1, M]⟩ : Shape).Idx → EReal) : (⟨2, ![500, M]⟩ : Shape).Idx → EReal :=
  addRow (mm h W) b

theorem mm_ix2 {M : Nat} (h : (⟨2, ![500, 64]⟩ : Shape).Idx → EReal) (W : (⟨2, ![64, M]⟩ : Shape).Idx → EReal)
    (p : Fin 500) (q : Fin M) : mm h W (ix2 p q) = ∑ k : Fin 64, h (ix2 p k) * W (ix2 k q) := rfl

theorem addRow_ix2 {M : Nat} (y : (⟨2, ![500, M]⟩ : Shape).Idx → EReal) (b : (⟨2, ![1, M]⟩ : Shape).Idx → EReal)
    (p : Fin 500) (q : Fin M) : addRow y b (ix2 p q) = y (ix2 p q) + b (ix2 0 q) := rfl

theorem dense_ix2 {M : Nat} (h : (⟨2, ![500, 64]⟩ : Shape).Idx → EReal) (W : (⟨2, ![64, M]⟩ : Shape).Idx → EReal)
    (b : (⟨2, ![1, M]⟩ : Shape).Idx → EReal) (p : Fin 500) (q : Fin M) :
    dense h W b (ix2 p q) = (∑ k : Fin 64, h (ix2 p k) * W (ix2 k q)) + b (ix2 0 q) := rfl

/-! ## Batch normalisation over the 500 rows, then the rectifier -/

/-- The mean of column q. -/
def colMean (y : Vec Ideal S500x64 .f32) (q : Fin 64) : EReal :=
  Ideal.div (∑ p : Fin 500, y (ix2 p q)) rows500

/-- The biased variance of column q. -/
def colVar (y : Vec Ideal S500x64 .f32) (q : Fin 64) : EReal :=
  Ideal.div (∑ p : Fin 500, (y (ix2 p q) - colMean y q) * (y (ix2 p q) - colMean y q)) rows500

/-- Entry (p, q) of the normalised, scaled, shifted and rectified matrix. -/
def bnreluAt (y : Vec Ideal S500x64 .f32) (g b : Vec Ideal S1x64 .f32) (p : Fin 500) (q : Fin 64) : EReal :=
  max (((y (ix2 p q) - colMean y q) * Ideal.rsqrt (colVar y q + bnEps)) * g (ix2 0 q) + b (ix2 0 q)) fzero

/-- Batch normalisation of the columns of y with scale row g and shift row b, then the rectifier. -/
def bnrelu (y : Vec Ideal S500x64 .f32) (g b : Vec Ideal S1x64 .f32) : Vec Ideal S500x64 .f32 :=
  fun i => bnreluAt y g b (i 0) (i 1)

theorem bnrelu_ix2 (y : Vec Ideal S500x64 .f32) (g b : Vec Ideal S1x64 .f32) (p : Fin 500) (q : Fin 64) :
    bnrelu y g b (ix2 p q)
      = max (((y (ix2 p q) - colMean y q) * Ideal.rsqrt (colVar y q + bnEps)) * g (ix2 0 q) + b (ix2 0 q)) fzero := rfl

/-! ## The head -/

/-- The head, of its arrays in the order the kernel takes them: the pooled features h, then weight matrix and bias
    row of each of the four dense layers, then the normalisation's scale row g and shift row bb. -/
def HEAD (h : Vec Ideal S500x64 .f32) (w1 : Vec Ideal S64x64 .f32) (b1 : Vec Ideal S1x64 .f32)
    (w2 : Vec Ideal S64x64 .f32) (b2 : Vec Ideal S1x64 .f32) (w3 : Vec Ideal S64x64 .f32) (b3 : Vec Ideal S1x64 .f32)
    (w4 : Vec Ideal S64x1 .f32) (b4 : Vec Ideal S1x1 .f32) (g bb : Vec Ideal S1x64 .f32) : Vec Ideal S500x1 .f32 :=
  dense (bnrelu (dense (bnrelu (dense (bnrelu (dense h w1 b1) g bb) w2 b2) g bb) w3 b3) g bb) w4 b4

end Cert.KernelIdeal.KV

end
-- ==== Proof.KRops.lean ====
/-
  The idealized kernel's @main as one straight line of operations.

  Each of the 23 pipelined regions writes one array, a whole-array function of the arrays it reads: a matrix product
  (`MM128`, `MM64`), a bias row added and the result clamped at zero (`BR`), the convex combination (1 − τ)·x + τ·x'
  (`CB`), or the batch-normalised three-layer head (`HEAD`). Written as one operation each and put between the 24
  stretches of host operations in program order, they make @main a single list; it is cut where the mathematics cuts:
  the prelude (index vectors, normalisation, the input projection), the four message-passing layers, and the tail
  (pooling, the head, the energy).
-/
import proofs.«117928_j61658550502081_1_alg».proof.Proof.Gen.KernelIdeal.Launch
import proofs.«117928_j61658550502081_1_alg».proof.Proof.KOps
import proofs.«117928_j61658550502081_1_alg».proof.Proof.KHead
import Idealize.ShloMosaic.Lib.StableHlo.Run

noncomputable section

namespace Cert.KernelIdeal.KV

open Cert.KernelIdeal Cert.KernelIdeal.Gen
open Idealize.ShloMosaic Idealize.ShloMosaic.TcCoe

/-! ## One operation per region: the written array as a function of the arrays read -/

abbrev rop0 : HloOp τ sig (Elt Ideal) := StableHlo.binary main_arg0 main_arg3 main_v35 MM128
abbrev rop1 : HloOp τ sig (Elt Ideal) := StableHlo.binary main_v35 main_v36 main_v37 BR
abbrev rop2 : HloOp τ sig (Elt Ideal) := StableHlo.binary main_v37 main_v39 main_v42 MM64
abbrev rop3 : HloOp τ sig (Elt Ideal) := StableHlo.binary main_v55 main_v56 main_v57 BR
abbrev rop4 : HloOp τ sig (Elt Ideal) := StableHlo.binary main_v37 main_v59 main_v62 MM64
abbrev rop5 : HloOp τ sig (Elt Ideal) := StableHlo.binary main_v75 main_v76 main_v77 BR
abbrev rop6 : HloOp τ sig (Elt Ideal) := StableHlo.ternary main_v100 main_v37 main_v57 main_v101 CB
abbrev rop7 : HloOp τ sig (Elt Ideal) := StableHlo.binary main_v101 main_v103 main_v106 MM64
abbrev rop8 : HloOp τ sig (Elt Ideal) := StableHlo.binary main_v119 main_v120 main_v121 BR
abbrev rop9 : HloOp τ sig (Elt Ideal) := StableHlo.binary main_v101 main_v123 main_v126 MM64
abbrev rop10 : HloOp τ sig (Elt Ideal) := StableHlo.binary main_v139 main_v140 main_v141 BR
abbrev rop11 : HloOp τ sig (Elt Ideal) := StableHlo.ternary main_v164 main_v101 main_v121 main_v165 CB
abbrev rop12 : HloOp τ sig (Elt Ideal) := StableHlo.binary main_v165 main_v167 main_v170 MM64
abbrev rop13 : HloOp τ sig (Elt Ideal) := StableHlo.binary main_v183 main_v184 main_v185 BR
abbrev rop14 : HloOp τ sig (Elt Ideal) := StableHlo.binary main_v165 main_v187 main_v190 MM64
abbrev rop15 : HloOp τ sig (Elt Ideal) := StableHlo.binary main_v203 main_v204 main_v205 BR
abbrev rop16 : HloOp τ sig (Elt Ideal) := StableHlo.ternary main_v228 main_v165 main_v185 main_v229 CB
abbrev rop17 : HloOp τ sig (Elt Ideal) := StableHlo.binary main_v229 main_v231 main_v234 MM64
abbrev rop18 : HloOp τ sig (Elt Ideal) := StableHlo.binary main_v247 main_v248 main_v249 BR
abbrev rop19 : HloOp τ sig (Elt Ideal) := StableHlo.binary main_v229 main_v251 main_v254 MM64
abbrev rop20 : HloOp τ sig (Elt Ideal) := StableHlo.binary main_v267 main_v268 main_v269 BR
abbrev rop21 : HloOp τ sig (Elt Ideal) := StableHlo.ternary main_v292 main_v229 main_v249 main_v293 CB
abbrev rop22 : HloOp τ sig (Elt Ideal) :=
  StableHlo.nary ![main_v296, main_arg9, main_v297, main_arg11, main_v298, main_arg13, main_v299, main_arg15, main_v300, main_v301, main_v302] main_v303
    (fun u => HEAD (u 0) (u 1) (u 2) (u 3) (u 4) (u 5) (u 6) (u 7) (u 8) (u 9) (u 10))

/-! ## The line, cut at the prelude, the layers and the tail -/

/-- Index vectors, degree normalisation, edge counts; then x₀ = relu (x · W_pre + b_pre). -/
abbrev kPre : List (HloOp τ sig (Elt Ideal)) := hostOps0 ++ [rop0] ++ hostOps1 ++ [rop1]
/-- Message-passing layer 0: two graph convolutions, the gate, the combination. -/
abbrev kLayer0 : List (HloOp τ sig (Elt Ideal)) := hostOps2 ++ [rop2] ++ hostOps3 ++ [rop3] ++ hostOps4 ++ [rop4] ++ hostOps5 ++ [rop5] ++ hostOps6 ++ [rop6]
/-- Message-passing layer 1: two graph convolutions, the gate, the combination. -/
abbrev kLayer1 : List (HloOp τ sig (Elt Ideal)) := hostOps7 ++ [rop7] ++ hostOps8 ++ [rop8] ++ hostOps9 ++ [rop9] ++ hostOps10 ++ [rop10] ++ hostOps11 ++ [rop11]
/-- Message-passing layer 2: two graph convolutions, the gate, the combination. -/
abbrev kLayer2 : List (HloOp τ sig (Elt Ideal)) := hostOps12 ++ [rop12] ++ hostOps13 ++ [rop13] ++ hostOps14 ++ [rop14] ++ hostOps15 ++ [rop15] ++ hostOps16 ++ [rop16]
/-- Message-passing layer 3: two graph convolutions, the gate, the combination. -/
abbrev kLayer3 : List (HloOp τ sig (Elt Ideal)) := hostOps17 ++ [rop17] ++ hostOps18 ++ [rop18] ++ hostOps19 ++ [rop19] ++ hostOps20 ++ [rop20] ++ hostOps21 ++ [rop21]
/-- Pooling per graph, the head, and the energy of the last features. -/
abbrev kTail : List (HloOp τ sig (Elt Ideal)) := hostOps22 ++ [rop22] ++ hostOps23
abbrev kops : List (HloOp τ sig (Elt Ideal)) := kPre ++ kLayer0 ++ kLayer1 ++ kLayer2 ++ kLayer3 ++ kTail

end Cert.KernelIdeal.KV

end
-- ==== Proof.KFoldA.lean ====
/-
  Each region's exit contents are its single operation applied to its entry contents.

  Given what a region writes — one whole-array function of the arrays it reads — and that every window but its
  output is read-only, so that those arrays leave the region as they entered it, the buffer contents at the
  region's exit are the contents after the one-operation line.
-/
import proofs.«117928_j61658550502081_1_alg».proof.Proof.Gen.KernelIdeal.Frame
import proofs.«117928_j61658550502081_1_alg».proof.Proof.LibRegionOp
import proofs.«117928_j61658550502081_1_alg».proof.Proof.KRops

set_option maxRecDepth 16384

noncomputable section

namespace Cert.KernelIdeal.KV

open Cert.KernelIdeal Cert.KernelIdeal.Gen
open Idealize.ShloMosaic Idealize.ShloMosaic.TcCoe
open Idealize.ShloMosaic.Pipeline (Dat)

variable (m : (ℓ : Loc nD τ sig) → Buf (Elt Ideal) ℓ) (ρ : Dev nD → PrngReg)

/-- What region 0 writes: its output array after the region, as a function of the arrays it reads. -/
abbrev RV0 : Prop := ∀ (V : (c : Dev nD) → (b : Ref sig .tc) → Buf (Elt Ideal) ((c : Thread nD τ).loc b)) (c : Dev nD), (dat0 V c).arrAt 2 cfg0.N = MM128 (V c (Pipeline.arrRef spec0 0)) (V c (Pipeline.arrRef spec0 1))

/-- The windows of region 0 other than its output are read-only. -/
theorem inputs0 : ∀ w : Fin cfg0.W, w ≠ 2 → (cfg0.win w).isOut = false := by decide

/-- Region 0 leaves the buffers as its one operation does. -/
theorem W2_eq (h0 : RV0) (c : Dev nD) : W2 m ρ c = StableHlo.after [rop0] (W1 m ρ c) := by
  unfold W2
  refine Pipeline.withArrays_eq_after_op spec0 launch0.win.arr_inj c (W1 m ρ c) _ 2 rop0 rfl ?_ ?_
  · exact (h0 (V1 m ρ) c).trans (StableHlo.binary_result main_arg0 main_arg3 main_v35 MM128 _ _ _ (W1 m ρ c)).symm
  · intro w hw
    exact ((dat0 (V1 m ρ) c).arrAt_in w (inputs0 w hw) cfg0.N).trans (A_eq0 (V1 m ρ) c w)

/-- What region 1 writes: its output array after the region, as a function of the arrays it reads. -/
abbrev RV1 : Prop := ∀ (V : (c : Dev nD) → (b : Ref sig .tc) → Buf (Elt Ideal) ((c : Thread nD τ).loc b)) (c : Dev nD), (dat1 V c).arrAt 2 cfg1.N = BR (V c (Pipeline.arrRef spec1 0)) (V c (Pipeline.arrRef spec1 1))

/-- The windows of region 1 other than its output are read-only. -/
theorem inputs1 : ∀ w : Fin cfg1.W, w ≠ 2 → (cfg1.win w).isOut = false := by decide

/-- Region 1 leaves the buffers as its one operation does. -/
theorem W4_eq (h1 : RV1) (c : Dev nD) : W4 m ρ c = StableHlo.after [rop1] (W3 m ρ c) := by
  unfold W4
  refine Pipeline.withArrays_eq_after_op spec1 launch1.win.arr_inj c (W3 m ρ c) _ 2 rop1 rfl ?_ ?_
  · exact (h1 (V3 m ρ) c).trans (StableHlo.binary_result main_v35 main_v36 main_v37 BR _ _ _ (W3 m ρ c)).symm
  · intro w hw
    exact ((dat1 (V3 m ρ) c).arrAt_in w (inputs1 w hw) cfg1.N).trans (A_eq1 (V3 m ρ) c w)

/-- What region 2 writes: its output array after the region, as a function of the arrays it reads. -/
abbrev RV2 : Prop := ∀ (V : (c : Dev nD) → (b : Ref sig .tc) → Buf (Elt Ideal) ((c : Thread nD τ).loc b)) (c : Dev nD), (dat2 V c).arrAt 2 cfg2.N = MM64 (V c (Pipeline.arrRef spec2 0)) (V c (Pipeline.arrRef spec2 1))

/-- The windows of region 2 other than its output are read-only. -/
theorem inputs2 : ∀ w : Fin cfg2.W, w ≠ 2 → (cfg2.win w).isOut = false := by decide

/-- Region 2 leaves the buffers as its one operation does. -/
theorem W6_eq (h2 : RV2) (c : Dev nD) : W6 m ρ c = StableHlo.after [rop2] (W5 m ρ c) := by
  unfold W6
  refine Pipeline.withArrays_eq_after_op spec2 launch2.win.arr_inj c (W5 m ρ c) _ 2 rop2 rfl ?_ ?_
  · exact (h2 (V5 m ρ) c).trans (StableHlo.binary_result main_v37 main_v39 main_v42 MM64 _ _ _ (W5 m ρ c)).symm
  · intro w hw
    exact ((dat2 (V5 m ρ) c).arrAt_in w (inputs2 w hw) cfg2.N).trans (A_eq2 (V5 m ρ) c w)

/-- What region 3 writes: its output array after the region, as a function of the arrays it reads. -/
abbrev RV3 : Prop := ∀ (V : (c : Dev nD) → (b : Ref sig .tc) → Buf (Elt Ideal) ((c : Thread nD τ).loc b)) (c : Dev nD), (dat3 V c).arrAt 2 cfg3.N = BR (V c (Pipeline.arrRef spec3 0)) (V c (Pipeline.arrRef spec3 1))

/-- The windows of region 3 other than its output are read-only. -/
theorem inputs3 : ∀ w : Fin cfg3.W, w ≠ 2 → (cfg3.win w).isOut = false := by decide

/-- Region 3 leaves the buffers as its one operation does. -/
theorem W8_eq (h3 : RV3) (c : Dev nD) : W8 m ρ c = StableHlo.after [rop3] (W7 m ρ c) := by
  unfold W8
  refine Pipeline.withArrays_eq_after_op spec3 launch3.win.arr_inj c (W7 m ρ c) _ 2 rop3 rfl ?_ ?_
  · exact (h3 (V7 m ρ) c).trans (StableHlo.binary_result main_v55 main_v56 main_v57 BR _ _ _ (W7 m ρ c)).symm
  · intro w hw
    exact ((dat3 (V7 m ρ) c).arrAt_in w (inputs3 w hw) cfg3.N).trans (A_eq3 (V7 m ρ) c w)

/-- What region 4 writes: its output array after the region, as a function of the arrays it reads. -/
abbrev RV4 : Prop := ∀ (V : (c : Dev nD) → (b : Ref sig .tc) → Buf (Elt Ideal) ((c : Thread nD τ).loc b)) (c : Dev nD), (dat4 V c).arrAt 2 cfg4.N = MM64 (V c (Pipeline.arrRef spec4 0)) (V c (Pipeline.arrRef spec4 1))

/-- The windows of region 4 other than its output are read-only. -/
theorem inputs4 : ∀ w : Fin cfg4.W, w ≠ 2 → (cfg4.win w).isOut = false := by decide

/-- Region 4 leaves the buffers as its one operation does. -/
theorem W10_eq (h4 : RV4) (c : Dev nD) : W10 m ρ c = StableHlo.after [rop4] (W9 m ρ c) := by
  unfold W10
  refine Pipeline.withArrays_eq_after_op spec4 launch4.win.arr_inj c (W9 m ρ c) _ 2 rop4 rfl ?_ ?_
  · exact (h4 (V9 m ρ) c).trans (StableHlo.binary_result main_v37 main_v59 main_v62 MM64 _ _ _ (W9 m ρ c)).symm
  · intro w hw
    exact ((dat4 (V9 m ρ) c).arrAt_in w (inputs4 w hw) cfg4.N).trans (A_eq4 (V9 m ρ) c w)

/-- What region 5 writes: its output array after the region, as a function of the arrays it reads. -/
abbrev RV5 : Prop := ∀ (V : (c : Dev nD) → (b : Ref sig .tc) → Buf (Elt Ideal) ((c : Thread nD τ).loc b)) (c : Dev nD), (dat5 V c).arrAt 2 cfg5.N = BR (V c (Pipeline.arrRef spec5 0)) (V c (Pipeline.arrRef spec5 1))

/-- The windows of region 5 other than its output are read-only. -/
theorem inputs5 : ∀ w : Fin cfg5.W, w ≠ 2 → (cfg5.win w).isOut = false := by decide

/-- Region 5 leaves the buffers as its one operation does. -/
theorem W12_eq (h5 : RV5) (c : Dev nD) : W12 m ρ c = StableHlo.after [rop5] (W11 m ρ c) := by
  unfold W12
  refine Pipeline.withArrays_eq_after_op spec5 launch5.win.arr_inj c (W11 m ρ c) _ 2 rop5 rfl ?_ ?_
  · exact (h5 (V11 m ρ) c).trans (StableHlo.binary_result main_v75 main_v76 main_v77 BR _ _ _ (W11 m ρ c)).symm
  · intro w hw
    exact ((dat5 (V11 m ρ) c).arrAt_in w (inputs5 w hw) cfg5.N).trans (A_eq5 (V11 m ρ) c w)

/-- What region 6 writes: its output array after the region, as a function of the arrays it reads. -/
abbrev RV6 : Prop := ∀ (V : (c : Dev nD) → (b : Ref sig .tc) → Buf (Elt Ideal) ((c : Thread nD τ).loc b)) (c : Dev nD), (dat6 V c).arrAt 3 cfg6.N = CB (V c (Pipeline.arrRef spec6 2)) (V c (Pipeline.arrRef spec6 0)) (V c (Pipeline.arrRef spec6 1))

/-- The windows of region 6 other than its output are read-only. -/
theorem inputs6 : ∀ w : Fin cfg6.W, w ≠ 3 → (cfg6.win w).isOut = false := by decide

/-- Region 6 leaves the buffers as its one operation does. -/
theorem W14_eq (h6 : RV6) (c : Dev nD) : W14 m ρ c = StableHlo.after [rop6] (W13 m ρ c) := by
  unfold W14
  refine Pipeline.withArrays_eq_after_op spec6 launch6.win.arr_inj c (W13 m ρ c) _ 3 rop6 rfl ?_ ?_
  · exact (h6 (V13 m ρ) c).trans (StableHlo.ternary_result main_v100 main_v37 main_v57 main_v101 CB _ _ _ _ (W13 m ρ c)).symm
  · intro w hw
    exact ((dat6 (V13 m ρ) c).arrAt_in w (inputs6 w hw) cfg6.N).trans (A_eq6 (V13 m ρ) c w)

/-- What region 7 writes: its output array after the region, as a function of the arrays it reads. -/
abbrev RV7 : Prop := ∀ (V : (c : Dev nD) → (b : Ref sig .tc) → Buf (Elt Ideal) ((c : Thread nD τ).loc b)) (c : Dev nD), (dat7 V c).arrAt 2 cfg7.N = MM64 (V c (Pipeline.arrRef spec7 0)) (V c (Pipeline.arrRef spec7 1))

/-- The windows of region 7 other than its output are read-only. -/
theorem inputs7 : ∀ w : Fin cfg7.W, w ≠ 2 → (cfg7.win w).isOut = false := by decide

/-- Region 7 leaves the buffers as its one operation does. -/
theorem W16_eq (h7 : RV7) (c : Dev nD) : W16 m ρ c = StableHlo.after [rop7] (W15 m ρ c) := by
  unfold W16
  refine Pipeline.withArrays_eq_after_op spec7 launch7.win.arr_inj c (W15 m ρ c) _ 2 rop7 rfl ?_ ?_
  · exact (h7 (V15 m ρ) c).trans (StableHlo.binary_result main_v101 main_v103 main_v106 MM64 _ _ _ (W15 m ρ c)).symm
  · intro w hw
    exact ((dat7 (V15 m ρ) c).arrAt_in w (inputs7 w hw) cfg7.N).trans (A_eq7 (V15 m ρ) c w)

/-- What region 8 writes: its output array after the region, as a function of the arrays it reads. -/
abbrev RV8 : Prop := ∀ (V : (c : Dev nD) → (b : Ref sig .tc) → Buf (Elt Ideal) ((c : Thread nD τ).loc b)) (c : Dev nD), (dat8 V c).arrAt 2 cfg8.N = BR (V c (Pipeline.arrRef spec8 0)) (V c (Pipeline.arrRef spec8 1))

/-- The windows of region 8 other than its output are read-only. -/
theorem inputs8 : ∀ w : Fin cfg8.W, w ≠ 2 → (cfg8.win w).isOut = false := by decide

/-- Region 8 leaves the buffers as its one operation does. -/
theorem W18_eq (h8 : RV8) (c : Dev nD) : W18 m ρ c = StableHlo.after [rop8] (W17 m ρ c) := by
  unfold W18
  refine Pipeline.withArrays_eq_after_op spec8 launch8.win.arr_inj c (W17 m ρ c) _ 2 rop8 rfl ?_ ?_
  · exact (h8 (V17 m ρ) c).trans (StableHlo.binary_result main_v119 main_v120 main_v121 BR _ _ _ (W17 m ρ c)).symm
  · intro w hw
    exact ((dat8 (V17 m ρ) c).arrAt_in w (inputs8 w hw) cfg8.N).trans (A_eq8 (V17 m ρ) c w)

/-- What region 9 writes: its output array after the region, as a function of the arrays it reads. -/
abbrev RV9 : Prop := ∀ (V : (c : Dev nD) → (b : Ref sig .tc) → Buf (Elt Ideal) ((c : Thread nD τ).loc b)) (c : Dev nD), (dat9 V c).arrAt 2 cfg9.N = MM64 (V c (Pipeline.arrRef spec9 0)) (V c (Pipeline.arrRef spec9 1))

/-- The windows of region 9 other than its output are read-only. -/
theorem inputs9 : ∀ w : Fin cfg9.W, w ≠ 2 → (cfg9.win w).isOut = false := by decide

/-- Region 9 leaves the buffers as its one operation does. -/
theorem W20_eq (h9 : RV9) (c : Dev nD) : W20 m ρ c = StableHlo.after [rop9] (W19 m ρ c) := by
  unfold W20
  refine Pipeline.withArrays_eq_after_op spec9 launch9.win.arr_inj c (W19 m ρ c) _ 2 rop9 rfl ?_ ?_
  · exact (h9 (V19 m ρ) c).trans (StableHlo.binary_result main_v101 main_v123 main_v126 MM64 _ _ _ (W19 m ρ c)).symm
  · intro w hw
    exact ((dat9 (V19 m ρ) c).arrAt_in w (inputs9 w hw) cfg9.N).trans (A_eq9 (V19 m ρ) c w)

/-- What region 10 writes: its output array after the region, as a function of the arrays it reads. -/
abbrev RV10 : Prop := ∀ (V : (c : Dev nD) → (b : Ref sig .tc) → Buf (Elt Ideal) ((c : Thread nD τ).loc b)) (c : Dev nD), (dat10 V c).arrAt 2 cfg10.N = BR (V c (Pipeline.arrRef spec10 0)) (V c (Pipeline.arrRef spec10 1))

/-- The windows of region 10 other than its output are read-only. -/
theorem inputs10 : ∀ w : Fin cfg10.W, w ≠ 2 → (cfg10.win w).isOut = false := by decide

/-- Region 10 leaves the buffers as its one operation does. -/
theorem W22_eq (h10 : RV10) (c : Dev nD) : W22 m ρ c = StableHlo.after [rop10] (W21 m ρ c) := by
  unfold W22
  refine Pipeline.withArrays_eq_after_op spec10 launch10.win.arr_inj c (W21 m ρ c) _ 2 rop10 rfl ?_ ?_
  · exact (h10 (V21 m ρ) c).trans (StableHlo.binary_result main_v139 main_v140 main_v141 BR _ _ _ (W21 m ρ c)).symm
  · intro w hw
    exact ((dat10 (V21 m ρ) c).arrAt_in w (inputs10 w hw) cfg10.N).trans (A_eq10 (V21 m ρ) c w)

/-- What region 11 writes: its output array after the region, as a function of the arrays it reads. -/
abbrev RV11 : Prop := ∀ (V : (c : Dev nD) → (b : Ref sig .tc) → Buf (Elt Ideal) ((c : Thread nD τ).loc b)) (c : Dev nD), (dat11 V c).arrAt 3 cfg11.N = CB (V c (Pipeline.arrRef spec11 2)) (V c (Pipeline.arrRef spec11 0)) (V c (Pipeline.arrRef spec11 1))

/-- The windows of region 11 other than its output are read-only. -/
theorem inputs11 : ∀ w : Fin cfg11.W, w ≠ 3 → (cfg11.win w).isOut = false := by decide

/-- Region 11 leaves the buffers as its one operation does. -/
theorem W24_eq (h11 : RV11) (c : Dev nD) : W24 m ρ c = StableHlo.after [rop11] (W23 m ρ c) := by
  unfold W24
  refine Pipeline.withArrays_eq_after_op spec11 launch11.win.arr_inj c (W23 m ρ c) _ 3 rop11 rfl ?_ ?_
  · exact (h11 (V23 m ρ) c).trans (StableHlo.ternary_result main_v164 main_v101 main_v121 main_v165 CB _ _ _ _ (W23 m ρ c)).symm
  · intro w hw
    exact ((dat11 (V23 m ρ) c).arrAt_in w (inputs11 w hw) cfg11.N).trans (A_eq11 (V23 m ρ) c w)

end Cert.KernelIdeal.KV

end
-- ==== Proof.KFoldB.lean ====
/-
  Each region's exit contents are its single operation applied to its entry contents.

  Given what a region writes — one whole-array function of the arrays it reads — and that every window but its
  output is read-only, so that those arrays leave the region as they entered it, the buffer contents at the
  region's exit are the contents after the one-operation line.
-/
import proofs.«117928_j61658550502081_1_alg».proof.Proof.Gen.KernelIdeal.Frame
import proofs.«117928_j61658550502081_1_alg».proof.Proof.LibRegionOp
import proofs.«117928_j61658550502081_1_alg».proof.Proof.KRops

set_option maxRecDepth 16384

noncomputable section

namespace Cert.KernelIdeal.KV

open Cert.KernelIdeal Cert.KernelIdeal.Gen
open Idealize.ShloMosaic Idealize.ShloMosaic.TcCoe
open Idealize.ShloMosaic.Pipeline (Dat)

variable (m : (ℓ : Loc nD τ sig) → Buf (Elt Ideal) ℓ) (ρ : Dev nD → PrngReg)

/-- What region 12 writes: its output array after the region, as a function of the arrays it reads. -/
abbrev RV12 : Prop := ∀ (V : (c : Dev nD) → (b : Ref sig .tc) → Buf (Elt Ideal) ((c : Thread nD τ).loc b)) (c : Dev nD), (dat12 V c).arrAt 2 cfg12.N = MM64 (V c (Pipeline.arrRef spec12 0)) (V c (Pipeline.arrRef spec12 1))

/-- The windows of region 12 other than its output are read-only. -/
theorem inputs12 : ∀ w : Fin cfg12.W, w ≠ 2 → (cfg12.win w).isOut = false := by decide

/-- Region 12 leaves the buffers as its one operation does. -/
theorem W26_eq (h12 : RV12) (c : Dev nD) : W26 m ρ c = StableHlo.after [rop12] (W25 m ρ c) := by
  unfold W26
  refine Pipeline.withArrays_eq_after_op spec12 launch12.win.arr_inj c (W25 m ρ c) _ 2 rop12 rfl ?_ ?_
  · exact (h12 (V25 m ρ) c).trans (StableHlo.binary_result main_v165 main_v167 main_v170 MM64 _ _ _ (W25 m ρ c)).symm
  · intro w hw
    exact ((dat12 (V25 m ρ) c).arrAt_in w (inputs12 w hw) cfg12.N).trans (A_eq12 (V25 m ρ) c w)

/-- What region 13 writes: its output array after the region, as a function of the arrays it reads. -/
abbrev RV13 : Prop := ∀ (V : (c : Dev nD) → (b : Ref sig .tc) → Buf (Elt Ideal) ((c : Thread nD τ).loc b)) (c : Dev nD), (dat13 V c).arrAt 2 cfg13.N = BR (V c (Pipeline.arrRef spec13 0)) (V c (Pipeline.arrRef spec13 1))

/-- The windows of region 13 other than its output are read-only. -/
theorem inputs13 : ∀ w : Fin cfg13.W, w ≠ 2 → (cfg13.win w).isOut = false := by decide

/-- Region 13 leaves the buffers as its one operation does. -/
theorem W28_eq (h13 : RV13) (c : Dev nD) : W28 m ρ c = StableHlo.after [rop13] (W27 m ρ c) := by
  unfold W28
  refine Pipeline.withArrays_eq_after_op spec13 launch13.win.arr_inj c (W27 m ρ c) _ 2 rop13 rfl ?_ ?_
  · exact (h13 (V27 m ρ) c).trans (StableHlo.binary_result main_v183 main_v184 main_v185 BR _ _ _ (W27 m ρ c)).symm
  · intro w hw
    exact ((dat13 (V27 m ρ) c).arrAt_in w (inputs13 w hw) cfg13.N).trans (A_eq13 (V27 m ρ) c w)

/-- What region 14 writes: its output array after the region, as a function of the arrays it reads. -/
abbrev RV14 : Prop := ∀ (V : (c : Dev nD) → (b : Ref sig .tc) → Buf (Elt Ideal) ((c : Thread nD τ).loc b)) (c : Dev nD), (dat14 V c).arrAt 2 cfg14.N = MM64 (V c (Pipeline.arrRef spec14 0)) (V c (Pipeline.arrRef spec14 1))

/-- The windows of region 14 other than its output are read-only. -/
theorem inputs14 : ∀ w : Fin cfg14.W, w ≠ 2 → (cfg14.win w).isOut = false := by decide

/-- Region 14 leaves the buffers as its one operation does. -/
theorem W30_eq (h14 : RV14) (c : Dev nD) : W30 m ρ c = StableHlo.after [rop14] (W29 m ρ c) := by
  unfold W30
  refine Pipeline.withArrays_eq_after_op spec14 launch14.win.arr_inj c (W29 m ρ c) _ 2 rop14 rfl ?_ ?_
  · exact (h14 (V29 m ρ) c).trans (StableHlo.binary_result main_v165 main_v187 main_v190 MM64 _ _ _ (W29 m ρ c)).symm
  · intro w hw
    exact ((dat14 (V29 m ρ) c).arrAt_in w (inputs14 w hw) cfg14.N).trans (A_eq14 (V29 m ρ) c w)

/-- What region 15 writes: its output array after the region, as a function of the arrays it reads. -/
abbrev RV15 : Prop := ∀ (V : (c : Dev nD) → (b : Ref sig .tc) → Buf (Elt Ideal) ((c : Thread nD τ).loc b)) (c : Dev nD), (dat15 V c).arrAt 2 cfg15.N = BR (V c (Pipeline.arrRef spec15 0)) (V c (Pipeline.arrRef spec15 1))

/-- The windows of region 15 other than its output are read-only. -/
theorem inputs15 : ∀ w : Fin cfg15.W, w ≠ 2 → (cfg15.win w).isOut = false := by decide

/-- Region 15 leaves the buffers as its one operation does. -/
theorem W32_eq (h15 : RV15) (c : Dev nD) : W32 m ρ c = StableHlo.after [rop15] (W31 m ρ c) := by
  unfold W32
  refine Pipeline.withArrays_eq_after_op spec15 launch15.win.arr_inj c (W31 m ρ c) _ 2 rop15 rfl ?_ ?_
  · exact (h15 (V31 m ρ) c).trans (StableHlo.binary_result main_v203 main_v204 main_v205 BR _ _ _ (W31 m ρ c)).symm
  · intro w hw
    exact ((dat15 (V31 m ρ) c).arrAt_in w (inputs15 w hw) cfg15.N).trans (A_eq15 (V31 m ρ) c w)

/-- What region 16 writes: its output array after the region, as a function of the arrays it reads. -/
abbrev RV16 : Prop := ∀ (V : (c : Dev nD) → (b : Ref sig .tc) → Buf (Elt Ideal) ((c : Thread nD τ).loc b)) (c : Dev nD), (dat16 V c).arrAt 3 cfg16.N = CB (V c (Pipeline.arrRef spec16 2)) (V c (Pipeline.arrRef spec16 0)) (V c (Pipeline.arrRef spec16 1))

/-- The windows of region 16 other than its output are read-only. -/
theorem inputs16 : ∀ w : Fin cfg16.W, w ≠ 3 → (cfg16.win w).isOut = false := by decide

/-- Region 16 leaves the buffers as its one operation does. -/
theorem W34_eq (h16 : RV16) (c : Dev nD) : W34 m ρ c = StableHlo.after [rop16] (W33 m ρ c) := by
  unfold W34
  refine Pipeline.withArrays_eq_after_op spec16 launch16.win.arr_inj c (W33 m ρ c) _ 3 rop16 rfl ?_ ?_
  · exact (h16 (V33 m ρ) c).trans (StableHlo.ternary_result main_v228 main_v165 main_v185 main_v229 CB _ _ _ _ (W33 m ρ c)).symm
  · intro w hw
    exact ((dat16 (V33 m ρ) c).arrAt_in w (inputs16 w hw) cfg16.N).trans (A_eq16 (V33 m ρ) c w)

/-- What region 17 writes: its output array after the region, as a function of the arrays it reads. -/
abbrev RV17 : Prop := ∀ (V : (c : Dev nD) → (b : Ref sig .tc) → Buf (Elt Ideal) ((c : Thread nD τ).loc b)) (c : Dev nD), (dat17 V c).arrAt 2 cfg17.N = MM64 (V c (Pipeline.arrRef spec17 0)) (V c (Pipeline.arrRef spec17 1))

/-- The windows of region 17 other than its output are read-only. -/
theorem inputs17 : ∀ w : Fin cfg17.W, w ≠ 2 → (cfg17.win w).isOut = false := by decide

/-- Region 17 leaves the buffers as its one operation does. -/
theorem W36_eq (h17 : RV17) (c : Dev nD) : W36 m ρ c = StableHlo.after [rop17] (W35 m ρ c) := by
  unfold W36
  refine Pipeline.withArrays_eq_after_op spec17 launch17.win.arr_inj c (W35 m ρ c) _ 2 rop17 rfl ?_ ?_
  · exact (h17 (V35 m ρ) c).trans (StableHlo.binary_result main_v229 main_v231 main_v234 MM64 _ _ _ (W35 m ρ c)).symm
  · intro w hw
    exact ((dat17 (V35 m ρ) c).arrAt_in w (inputs17 w hw) cfg17.N).trans (A_eq17 (V35 m ρ) c w)

/-- What region 18 writes: its output array after the region, as a function of the arrays it reads. -/
abbrev RV18 : Prop := ∀ (V : (c : Dev nD) → (b : Ref sig .tc) → Buf (Elt Ideal) ((c : Thread nD τ).loc b)) (c : Dev nD), (dat18 V c).arrAt 2 cfg18.N = BR (V c (Pipeline.arrRef spec18 0)) (V c (Pipeline.arrRef spec18 1))

/-- The windows of region 18 other than its output are read-only. -/
theorem inputs18 : ∀ w : Fin cfg18.W, w ≠ 2 → (cfg18.win w).isOut = false := by decide

/-- Region 18 leaves the buffers as its one operation does. -/
theorem W38_eq (h18 : RV18) (c : Dev nD) : W38 m ρ c = StableHlo.after [rop18] (W37 m ρ c) := by
  unfold W38
  refine Pipeline.withArrays_eq_after_op spec18 launch18.win.arr_inj c (W37 m ρ c) _ 2 rop18 rfl ?_ ?_
  · exact (h18 (V37 m ρ) c).trans (StableHlo.binary_result main_v247 main_v248 main_v249 BR _ _ _ (W37 m ρ c)).symm
  · intro w hw
    exact ((dat18 (V37 m ρ) c).arrAt_in w (inputs18 w hw) cfg18.N).trans (A_eq18 (V37 m ρ) c w)

/-- What region 19 writes: its output array after the region, as a function of the arrays it reads. -/
abbrev RV19 : Prop := ∀ (V : (c : Dev nD) → (b : Ref sig .tc) → Buf (Elt Ideal) ((c : Thread nD τ).loc b)) (c : Dev nD), (dat19 V c).arrAt 2 cfg19.N = MM64 (V c (Pipeline.arrRef spec19 0)) (V c (Pipeline.arrRef spec19 1))

/-- The windows of region 19 other than its output are read-only. -/
theorem inputs19 : ∀ w : Fin cfg19.W, w ≠ 2 → (cfg19.win w).isOut = false := by decide

/-- Region 19 leaves the buffers as its one operation does. -/
theorem W40_eq (h19 : RV19) (c : Dev nD) : W40 m ρ c = StableHlo.after [rop19] (W39 m ρ c) := by
  unfold W40
  refine Pipeline.withArrays_eq_after_op spec19 launch19.win.arr_inj c (W39 m ρ c) _ 2 rop19 rfl ?_ ?_
  · exact (h19 (V39 m ρ) c).trans (StableHlo.binary_result main_v229 main_v251 main_v254 MM64 _ _ _ (W39 m ρ c)).symm
  · intro w hw
    exact ((dat19 (V39 m ρ) c).arrAt_in w (inputs19 w hw) cfg19.N).trans (A_eq19 (V39 m ρ) c w)

/-- What region 20 writes: its output array after the region, as a function of the arrays it reads. -/
abbrev RV20 : Prop := ∀ (V : (c : Dev nD) → (b : Ref sig .tc) → Buf (Elt Ideal) ((c : Thread nD τ).loc b)) (c : Dev nD), (dat20 V c).arrAt 2 cfg20.N = BR (V c (Pipeline.arrRef spec20 0)) (V c (Pipeline.arrRef spec20 1))

/-- The windows of region 20 other than its output are read-only. -/
theorem inputs20 : ∀ w : Fin cfg20.W, w ≠ 2 → (cfg20.win w).isOut = false := by decide

/-- Region 20 leaves the buffers as its one operation does. -/
theorem W42_eq (h20 : RV20) (c : Dev nD) : W42 m ρ c = StableHlo.after [rop20] (W41 m ρ c) := by
  unfold W42
  refine Pipeline.withArrays_eq_after_op spec20 launch20.win.arr_inj c (W41 m ρ c) _ 2 rop20 rfl ?_ ?_
  · exact (h20 (V41 m ρ) c).trans (StableHlo.binary_result main_v267 main_v268 main_v269 BR _ _ _ (W41 m ρ c)).symm
  · intro w hw
    exact ((dat20 (V41 m ρ) c).arrAt_in w (inputs20 w hw) cfg20.N).trans (A_eq20 (V41 m ρ) c w)

/-- What region 21 writes: its output array after the region, as a function of the arrays it reads. -/
abbrev RV21 : Prop := ∀ (V : (c : Dev nD) → (b : Ref sig .tc) → Buf (Elt Ideal) ((c : Thread nD τ).loc b)) (c : Dev nD), (dat21 V c).arrAt 3 cfg21.N = CB (V c (Pipeline.arrRef spec21 2)) (V c (Pipeline.arrRef spec21 0)) (V c (Pipeline.arrRef spec21 1))

/-- The windows of region 21 other than its output are read-only. -/
theorem inputs21 : ∀ w : Fin cfg21.W, w ≠ 3 → (cfg21.win w).isOut = false := by decide

/-- Region 21 leaves the buffers as its one operation does. -/
theorem W44_eq (h21 : RV21) (c : Dev nD) : W44 m ρ c = StableHlo.after [rop21] (W43 m ρ c) := by
  unfold W44
  refine Pipeline.withArrays_eq_after_op spec21 launch21.win.arr_inj c (W43 m ρ c) _ 3 rop21 rfl ?_ ?_
  · exact (h21 (V43 m ρ) c).trans (StableHlo.ternary_result main_v292 main_v229 main_v249 main_v293 CB _ _ _ _ (W43 m ρ c)).symm
  · intro w hw
    exact ((dat21 (V43 m ρ) c).arrAt_in w (inputs21 w hw) cfg21.N).trans (A_eq21 (V43 m ρ) c w)

/-- What region 22 writes: its output array after the region, as a function of the arrays it reads. -/
abbrev RV22 : Prop := ∀ (V : (c : Dev nD) → (b : Ref sig .tc) → Buf (Elt Ideal) ((c : Thread nD τ).loc b)) (c : Dev nD), (dat22 V c).arrAt 11 cfg22.N = HEAD (V c (Pipeline.arrRef spec22 0)) (V c (Pipeline.arrRef spec22 1)) (V c (Pipeline.arrRef spec22 2)) (V c (Pipeline.arrRef spec22 3)) (V c (Pipeline.arrRef spec22 4)) (V c (Pipeline.arrRef spec22 5)) (V c (Pipeline.arrRef spec22 6)) (V c (Pipeline.arrRef spec22 7)) (V c (Pipeline.arrRef spec22 8)) (V c (Pipeline.arrRef spec22 9)) (V c (Pipeline.arrRef spec22 10))

/-- The windows of region 22 other than its output are read-only. -/
theorem inputs22 : ∀ w : Fin cfg22.W, w ≠ 11 → (cfg22.win w).isOut = false := by decide

/-- Region 22 leaves the buffers as its one operation does. -/
theorem W46_eq (h22 : RV22) (c : Dev nD) : W46 m ρ c = StableHlo.after [rop22] (W45 m ρ c) := by
  unfold W46
  refine Pipeline.withArrays_eq_after_op spec22 launch22.win.arr_inj c (W45 m ρ c) _ 11 rop22 rfl ?_ ?_
  · exact (h22 (V45 m ρ) c).trans (StableHlo.nary_result ![main_v296, main_arg9, main_v297, main_arg11, main_v298, main_arg13, main_v299, main_arg15, main_v300, main_v301, main_v302] main_v303 (fun u => HEAD (u 0) (u 1) (u 2) (u 3) (u 4) (u 5) (u 6) (u 7) (u 8) (u 9) (u 10)) _ _ (W45 m ρ c)).symm
  · intro w hw
    exact ((dat22 (V45 m ρ) c).arrAt_in w (inputs22 w hw) cfg22.N).trans (A_eq22 (V45 m ρ) c w)

end Cert.KernelIdeal.KV

end
-- ==== Proof.LibAppendN.lean ====
/-
  The buffer contents after several lines of host operations run one after the other: the fold over the
  concatenation is the folds nested, first line innermost.
-/
import proofs.«117928_j61658550502081_1_alg».proof.Proof.LibRegionOp

noncomputable section

namespace Idealize.ShloMosaic.Pipeline

variable {nD : Nat} {τ : Topo} {sig : RefSig} {Val : EltTy → Type}

/-- The fold over 3 lines run one after the other, unnested. -/
theorem after_append3 (l0 l1 l2 : List (HloOp τ sig Val)) (V : Valuation τ sig Val) :
    StableHlo.after (l0 ++ l1 ++ l2) V = StableHlo.after l2 (StableHlo.after l1 (StableHlo.after l0 (V))) := by
  simp only [after_append_eq]

/-- The fold over 4 lines run one after the other, unnested. -/
theorem after_append4 (l0 l1 l2 l3 : List (HloOp τ sig Val)) (V : Valuation τ sig Val) :
    StableHlo.after (l0 ++ l1 ++ l2 ++ l3) V = StableHlo.after l3 (StableHlo.after l2 (StableHlo.after l1 (StableHlo.after l0 (V)))) := by
  simp only [after_append_eq]

/-- The fold over 6 lines run one after the other, unnested. -/
theorem after_append6 (l0 l1 l2 l3 l4 l5 : List (HloOp τ sig Val)) (V : Valuation τ sig Val) :
    StableHlo.after (l0 ++ l1 ++ l2 ++ l3 ++ l4 ++ l5) V = StableHlo.after l5 (StableHlo.after l4 (StableHlo.after l3 (StableHlo.after l2 (StableHlo.after l1 (StableHlo.after l0 (V)))))) := by
  simp only [after_append_eq]

/-- The fold over 10 lines run one after the other, unnested. -/
theorem after_append10 (l0 l1 l2 l3 l4 l5 l6 l7 l8 l9 : List (HloOp τ sig Val)) (V : Valuation τ sig Val) :
    StableHlo.after (l0 ++ l1 ++ l2 ++ l3 ++ l4 ++ l5 ++ l6 ++ l7 ++ l8 ++ l9) V = StableHlo.after l9 (StableHlo.after l8 (StableHlo.after l7 (StableHlo.after l6 (StableHlo.after l5 (StableHlo.after l4 (StableHlo.after l3 (StableHlo.after l2 (StableHlo.after l1 (StableHlo.after l0 (V)))))))))) := by
  simp only [after_append_eq]

end Idealize.ShloMosaic.Pipeline

end
-- ==== Proof.KFold.lean ====
/-
  The buffer contents through @main are one fold.

  The contents at the 47 segment boundaries alternate between a stretch of host operations applied in order and a
  region's write-backs. With each region's exit contents its single operation applied to its entry contents, the
  contents at the return are the whole line applied to the launch contents — through the prelude, the four layers
  and the tail in turn.
-/
import proofs.«117928_j61658550502081_1_alg».proof.Proof.KFoldA
import proofs.«117928_j61658550502081_1_alg».proof.Proof.KFoldB
import proofs.«117928_j61658550502081_1_alg».proof.Proof.LibAppendN

set_option maxRecDepth 16384

noncomputable section

namespace Cert.KernelIdeal.KV

open Cert.KernelIdeal Cert.KernelIdeal.Gen
open Idealize.ShloMosaic Idealize.ShloMosaic.TcCoe

variable (m : (ℓ : Loc nD τ sig) → Buf (Elt Ideal) ℓ) (ρ : Dev nD → PrngReg)

/-- Through the prelude. -/
theorem fold_pre (h0 : RV0) (h1 : RV1) (c : Dev nD) : W4 m ρ c = StableHlo.after kPre (W0 m ρ c) :=
  ((W4_eq m ρ h1 c).trans (congrArg (StableHlo.after [rop1]) (congrArg (StableHlo.after hostOps1) ((W2_eq m ρ h0 c).trans (congrArg (StableHlo.after [rop0]) (congrArg (StableHlo.after hostOps0) (rfl))))))).trans (Pipeline.after_append4 hostOps0 [rop0] hostOps1 [rop1] (W0 m ρ c)).symm

/-- Through layer 0. -/
theorem fold_layer0 (h2 : RV2) (h3 : RV3) (h4 : RV4) (h5 : RV5) (h6 : RV6) (c : Dev nD) : W14 m ρ c = StableHlo.after kLayer0 (W4 m ρ c) :=
  ((W14_eq m ρ h6 c).trans (congrArg (StableHlo.after [rop6]) (congrArg (StableHlo.after hostOps6) ((W12_eq m ρ h5 c).trans (congrArg (StableHlo.after [rop5]) (congrArg (StableHlo.after hostOps5) ((W10_eq m ρ h4 c).trans (congrArg (StableHlo.after [rop4]) (congrArg (StableHlo.after hostOps4) ((W8_eq m ρ h3 c).trans (congrArg (StableHlo.after [rop3]) (congrArg (StableHlo.after hostOps3) ((W6_eq m ρ h2 c).trans (congrArg (StableHlo.after [rop2]) (congrArg (StableHlo.after hostOps2) (rfl)))))))))))))))).trans (Pipeline.after_append10 hostOps2 [rop2] hostOps3 [rop3] hostOps4 [rop4] hostOps5 [rop5] hostOps6 [rop6] (W4 m ρ c)).symm

/-- Through layer 1. -/
theorem fold_layer1 (h7 : RV7) (h8 : RV8) (h9 : RV9) (h10 : RV10) (h11 : RV11) (c : Dev nD) : W24 m ρ c = StableHlo.after kLayer1 (W14 m ρ c) :=
  ((W24_eq m ρ h11 c).trans (congrArg (StableHlo.after [rop11]) (congrArg (StableHlo.after hostOps11) ((W22_eq m ρ h10 c).trans (congrArg (StableHlo.after [rop10]) (congrArg (StableHlo.after hostOps10) ((W20_eq m ρ h9 c).trans (congrArg (StableHlo.after [rop9]) (congrArg (StableHlo.after hostOps9) ((W18_eq m ρ h8 c).trans (congrArg (StableHlo.after [rop8]) (congrArg (StableHlo.after hostOps8) ((W16_eq m ρ h7 c).trans (congrArg (StableHlo.after [rop7]) (congrArg (StableHlo.after hostOps7) (rfl)))))))))))))))).trans (Pipeline.after_append10 hostOps7 [rop7] hostOps8 [rop8] hostOps9 [rop9] hostOps10 [rop10] hostOps11 [rop11] (W14 m ρ c)).symm

/-- Through layer 2. -/
theorem fold_layer2 (h12 : RV12) (h13 : RV13) (h14 : RV14) (h15 : RV15) (h16 : RV16) (c : Dev nD) : W34 m ρ c = StableHlo.after kLayer2 (W24 m ρ c) :=
  ((W34_eq m ρ h16 c).trans (congrArg (StableHlo.after [rop16]) (congrArg (StableHlo.after hostOps16) ((W32_eq m ρ h15 c).trans (congrArg (StableHlo.after [rop15]) (congrArg (StableHlo.after hostOps15) ((W30_eq m ρ h14 c).trans (congrArg (StableHlo.after [rop14]) (congrArg (StableHlo.after hostOps14) ((W28_eq m ρ h13 c).trans (congrArg (StableHlo.after [rop13]) (congrArg (StableHlo.after hostOps13) ((W26_eq m ρ h12 c).trans (congrArg (StableHlo.after [rop12]) (congrArg (StableHlo.after hostOps12) (rfl)))))))))))))))).trans (Pipeline.after_append10 hostOps12 [rop12] hostOps13 [rop13] hostOps14 [rop14] hostOps15 [rop15] hostOps16 [rop16] (W24 m ρ c)).symm

/-- Through layer 3. -/
theorem fold_layer3 (h17 : RV17) (h18 : RV18) (h19 : RV19) (h20 : RV20) (h21 : RV21) (c : Dev nD) : W44 m ρ c = StableHlo.after kLayer3 (W34 m ρ c) :=
  ((W44_eq m ρ h21 c).trans (congrArg (StableHlo.after [rop21]) (congrArg (StableHlo.after hostOps21) ((W42_eq m ρ h20 c).trans (congrArg (StableHlo.after [rop20]) (congrArg (StableHlo.after hostOps20) ((W40_eq m ρ h19 c).trans (congrArg (StableHlo.after [rop19]) (congrArg (StableHlo.after hostOps19) ((W38_eq m ρ h18 c).trans (congrArg (StableHlo.after [rop18]) (congrArg (StableHlo.after hostOps18) ((W36_eq m ρ h17 c).trans (congrArg (StableHlo.after [rop17]) (congrArg (StableHlo.after hostOps17) (rfl)))))))))))))))).trans (Pipeline.after_append10 hostOps17 [rop17] hostOps18 [rop18] hostOps19 [rop19] hostOps20 [rop20] hostOps21 [rop21] (W34 m ρ c)).symm

/-- Through the tail. -/
theorem fold_tail (h22 : RV22) (c : Dev nD) : W47 m ρ c = StableHlo.after kTail (W44 m ρ c) :=
  (congrArg (StableHlo.after hostOps23) ((W46_eq m ρ h22 c).trans (congrArg (StableHlo.after [rop22]) (congrArg (StableHlo.after hostOps22) (rfl))))).trans (Pipeline.after_append3 hostOps22 [rop22] hostOps23 (W44 m ρ c)).symm

/-- The whole line, chunk by chunk. -/
theorem after_kops_chunks (V : Valuation τ sig (Elt Ideal)) :
    StableHlo.after kops V = StableHlo.after kTail (StableHlo.after kLayer3 (StableHlo.after kLayer2 (StableHlo.after kLayer1
      (StableHlo.after kLayer0 (StableHlo.after kPre V))))) :=
  Pipeline.after_append6 kPre kLayer0 kLayer1 kLayer2 kLayer3 kTail V

/-- The contents at the return are the whole line applied to the launch contents. -/
theorem W47_eq (h0 : RV0) (h1 : RV1) (h2 : RV2) (h3 : RV3) (h4 : RV4) (h5 : RV5) (h6 : RV6) (h7 : RV7) (h8 : RV8) (h9 : RV9) (h10 : RV10) (h11 : RV11) (h12 : RV12) (h13 : RV13) (h14 : RV14) (h15 : RV15) (h16 : RV16) (h17 : RV17) (h18 : RV18) (h19 : RV19) (h20 : RV20) (h21 : RV21) (h22 : RV22) (c : Dev nD) :
    W47 m ρ c = StableHlo.after kops (W0 m ρ c) :=
  ((fold_tail m ρ h22 c).trans (congrArg (StableHlo.after kTail)
    ((fold_layer3 m ρ h17 h18 h19 h20 h21 c).trans (congrArg (StableHlo.after kLayer3)
      ((fold_layer2 m ρ h12 h13 h14 h15 h16 c).trans (congrArg (StableHlo.after kLayer2)
        ((fold_layer1 m ρ h7 h8 h9 h10 h11 c).trans (congrArg (StableHlo.after kLayer1)
          ((fold_layer0 m ρ h2 h3 h4 h5 h6 c).trans (congrArg (StableHlo.after kLayer0)
            (fold_pre m ρ h0 h1 c))))))))))).trans (after_kops_chunks (W0 m ρ c)).symm

end Cert.KernelIdeal.KV

end
-- ==== Proof.LibPlainDot.lean ====
/-
  A plain matrix product's contraction sum, re-indexed by the contracted coordinate.

  For a dot of an [n, K] operand with a [K, M] operand into [n, M] that contracts the left operand's axis 1 with the
  right operand's axis 0 and has no batch axes, the sum over the contraction index of left(row i, k) * right(k, column i)
  is the sum over k : Fin K of L (i 0, k) * R (k, i 1): what both a kernel's matrix unit and a host dot_general
  compute at an output index over the extended reals.
-/
import Idealize.ShloMosaic.PureOps.Ideal.Laws
import Idealize.ShloMosaic.Lib.ValueIdx

namespace Cert.LibPlainDot

open Idealize.ShloMosaic Idealize.ShloMosaic.ValueIdx

variable {n K M : Nat}

/-- The dimension numbers of a plain product: contract axis 1 with axis 0, keep axis 0 and axis 1, no batch axes. -/
structure IsPlain (d : DotDims ⟨2, ![n, K]⟩ ⟨2, ![K, M]⟩ ⟨2, ![n, M]⟩) : Prop where
  lc : d.lhsContracting = [1]
  rc : d.rhsContracting = [0]
  ln : d.lhsNonContracting = [0]
  rn : d.rhsNonContracting = [1]
  lb : d.lhsBatch = []
  rb : d.rhsBatch = []

/-- The contraction sum of a plain product at output index `i` is the sum over the contracted coordinate. -/
theorem sum_contr {α : Type} [AddCommMonoid α] (d : DotDims ⟨2, ![n, K]⟩ ⟨2, ![K, M]⟩ ⟨2, ![n, M]⟩) (hd : IsPlain d)
    (f : (⟨2, ![n, K]⟩ : Shape).Idx → (⟨2, ![K, M]⟩ : Shape).Idx → α) (i : (⟨2, ![n, M]⟩ : Shape).Idx) :
    ∑ q : d.contr.Idx, f (d.lhsIdx i q) (d.rhsIdx i q) = ∑ k : Fin K, f (ix2 (i 0) k) (ix2 k (i 1)) := by
  obtain ⟨lc, rc, ln, rn, lb, rb, wf⟩ := d
  obtain ⟨h1, h2, h3, h4, h5, h6⟩ := hd
  simp only at h1 h2 h3 h4 h5 h6
  subst h1 h2 h3 h4 h5 h6
  let d : DotDims ⟨2, ![n, K]⟩ ⟨2, ![K, M]⟩ ⟨2, ![n, M]⟩ := ⟨[1], [0], [0], [1], [], [], wf⟩
  show ∑ q : d.contr.Idx, f (d.lhsIdx i q) (d.rhsIdx i q) = _
  rw [← Equiv.sum_comp (contrEquiv1 d K rfl rfl).symm]
  refine Finset.sum_congr rfl fun k _ => ?_
  have hk := contrEquiv1_symm_val d K rfl rfl k
  have el : d.lhsIdx i ((contrEquiv1 d K rfl rfl).symm k) = ix2 (i 0) k := funext fun a => Fin.ext (by
    match a with
    | ⟨0, _⟩ =>
      show (d.lhsIdx i _ 0).val = (i 0).val
      unfold DotDims.lhsIdx
      rw [dif_neg (show ¬(0 : Fin (⟨2, ![n, K]⟩ : Shape).rank) ∈ d.lhsBatch from List.not_mem_nil),
        dif_pos (show (0 : Fin (⟨2, ![n, K]⟩ : Shape).rank) ∈ d.lhsNonContracting from List.mem_singleton.mpr rfl)]
      rfl
    | ⟨1, _⟩ => exact (d.lhsIdx_val_of_single rfl i _).trans hk)
  have er : d.rhsIdx i ((contrEquiv1 d K rfl rfl).symm k) = ix2 k (i 1) := funext fun a => Fin.ext (by
    match a with
    | ⟨0, _⟩ => exact (d.rhsIdx_val_of_single rfl i _).trans hk
    | ⟨1, _⟩ =>
      show (d.rhsIdx i _ 1).val = (i 1).val
      unfold DotDims.rhsIdx
      rw [dif_neg (show ¬(1 : Fin (⟨2, ![K, M]⟩ : Shape).rank) ∈ d.rhsBatch from List.not_mem_nil),
        dif_pos (show (1 : Fin (⟨2, ![K, M]⟩ : Shape).rank) ∈ d.rhsNonContracting from List.mem_singleton.mpr rfl)]
      rfl)
  rw [el, er]
  try rfl

end Cert.LibPlainDot
-- ==== Proof.LibDotApply.lean ====
/-
  A plain matrix product read at an entry, over the extended reals.

  For an [n, K] operand and a [K, M] operand contracted over K with no batch axes, the kernel's matrix-unit product
  into a zero accumulator and the host's dot_general both read, at entry (p, c), the sum over k : Fin K of
  L (p, k) * R (k, c): there is no rounding and no order of accumulation left in either.
-/
import proofs.«117928_j61658550502081_1_alg».proof.Proof.LibPlainDot
import Idealize.ShloMosaic.PureOps.Ideal.Laws
import Idealize.ShloMosaic.Lib.ValueIdx

noncomputable section

namespace Cert.LibDotApply

open Idealize.ShloMosaic Idealize.ShloMosaic.ValueIdx Cert.LibPlainDot

variable {n K M : Nat} {φ₁ φ₂ : FTy}

/-- A kernel's matrix-unit product of plain dimension numbers into a zero accumulator, at entry (p, c). -/
theorem matmul_zero_apply (d : DotDims ⟨2, ![n, K]⟩ ⟨2, ![K, M]⟩ ⟨2, ![n, M]⟩) (hd : IsPlain d) (prec : Option ContractPrecision)
    (lhs : FVec Ideal ⟨2, ![n, K]⟩ φ₁) (rhs : FVec Ideal ⟨2, ![K, M]⟩ φ₂) (p : Fin n) (c : Fin M) :
    FloatOps.matmul d prec lhs rhs (constant ⟨2, ![n, M]⟩ .f32 0x00000000#32) (ix2 p c)
      = ∑ k : Fin K, lhs (ix2 p k) * rhs (ix2 k c) :=
  (Ideal.matmul_constant_zero_apply d prec lhs rhs (ix2 p c)).trans
    (sum_contr d hd (fun a b => lhs a * rhs b) (ix2 p c))

/-- The host's dot_general of plain dimension numbers, at entry (p, c). -/
theorem dotGeneral_apply (d : DotDims ⟨2, ![n, K]⟩ ⟨2, ![K, M]⟩ ⟨2, ![n, M]⟩) (hd : IsPlain d) (prec : Option ContractPrecision)
    (sched : HostSchedule) (lhs : FVec Ideal ⟨2, ![n, K]⟩ φ₁) (rhs : FVec Ideal ⟨2, ![K, M]⟩ φ₂) (p : Fin n) (c : Fin M) :
    FloatOps.dotGeneral d prec sched lhs rhs (ix2 p c) = ∑ k : Fin K, lhs (ix2 p k) * rhs (ix2 k c) :=
  (Ideal.dotGeneral_apply d prec sched lhs rhs (ix2 p c)).trans
    (sum_contr d hd (fun a b => lhs a * rhs b) (ix2 p c))

end Cert.LibDotApply

end
-- ==== Proof.KPay.lean ====
/-
  What each kind of kernel body computes from its loaded blocks, read at one entry of the block, over the extended reals:
  the matrix unit's product into a zero accumulator is the sum over the contracted coordinate (the narrowing of both
  operands to bf16 is the identity on extended reals), the bias-and-clamp body is max (x + b) 0 with the bias row read at
  the entry's column, and the combine body is (1 - t) * x + t * y.
-/
import proofs.«117928_j61658550502081_1_alg».proof.Proof.Gen.KernelIdeal.Skeleton
import proofs.«117928_j61658550502081_1_alg».proof.Proof.LibDotApply
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KV

open Idealize.ShloMosaic Idealize.ShloMosaic.ValueIdx Cert.KernelIdeal Cert.KernelIdeal.Gen Cert.LibPlainDot Cert.LibDotApply

open scoped BigOperators

/-- The input projection's dimension numbers are a plain product's. -/
theorem plain128 : IsPlain dot_S5000x128_S128x64_S5000x64_1_0_0_1_n_n := ⟨rfl, rfl, rfl, rfl, rfl, rfl⟩
/-- The layers' dimension numbers are a plain product's. -/
theorem plain64 : IsPlain dot_S5000x64_S64x64_S5000x64_1_0_0_1_n_n := ⟨rfl, rfl, rfl, rfl, rfl, rfl⟩

/-- The input projection's block product at an entry: the sum over k of x (p, k) * w (k, q). -/
theorem pay0_apply (x0 : Vec Ideal S5000x128 .f32) (x1 : Vec Ideal S128x64 .f32) (p : Fin 5000) (q : Fin 64) :
    k0_pay1 (F := Ideal) x0 x1 (ix2 p q) = ∑ k : Fin 128, (x0 (ix2 p k) : EReal) * (x1 (ix2 k q) : EReal) := by
  unfold k0_pay1
  exact matmul_zero_apply dot_S5000x128_S128x64_S5000x64_1_0_0_1_n_n plain128 none
    (truncf .bf16 x0 bitsLt_bf16_f32) (truncf .bf16 x1 bitsLt_bf16_f32) p q

/-- A layer's block product at an entry: the sum over k of x (p, k) * w (k, q). -/
theorem pay2_apply (x0 : Vec Ideal S5000x64 .f32) (x1 : Vec Ideal S64x64 .f32) (p : Fin 5000) (q : Fin 64) :
    k2_pay1 (F := Ideal) x0 x1 (ix2 p q) = ∑ k : Fin 64, (x0 (ix2 p k) : EReal) * (x1 (ix2 k q) : EReal) := by
  unfold k2_pay1
  rw [shapeCast_self, shapeCast_self]
  exact matmul_zero_apply dot_S5000x64_S64x64_S5000x64_1_0_0_1_n_n plain64 none
    (truncf .bf16 x0 bitsLt_bf16_f32) (truncf .bf16 x1 bitsLt_bf16_f32) p q

/-- The bias-and-clamp block at an entry. -/
theorem pay1_apply (x0 : Vec Ideal S5000x64 .f32) (x1 : Vec Ideal S1x64 .f32) (p : Fin 5000) (q : Fin 64) :
    k1_pay1 (F := Ideal) x0 x1 (ix2 p q) = max ((x0 (ix2 p q) : EReal) + (x1 (ix2 0 q) : EReal)) 0 := by
  unfold k1_pay1
  rw [shapeCast_self, shapeCast_self]
  show max ((x0 (ix2 p q) : EReal) + broadcastTo S5000x64 x1 broadcasts_S1x64_S5000x64 (ix2 p q)) (Ideal.ofBits .f32 0x00000000#32) = _
  rw [broadcastTo_1b_ab_apply, Ideal.ofBits_zero_f32]

/-- The combination block at an entry. -/
theorem pay6_apply (t x y : Vec Ideal S5000x64 .f32) (j : S5000x64.Idx) :
    k6_pay1 (F := Ideal) t x y j = (Ideal.ofBits .f32 0x3F800000#32 - (t j : EReal)) * (x j : EReal) + (t j : EReal) * (y j : EReal) := by
  unfold k6_pay1
  rw [shapeCast_self, shapeCast_self, shapeCast_self]
  rfl

end Cert.KernelIdeal.KV

end
-- ==== Proof.KBlock.lean ====
/-
  One block of 5000 rows, for each kind of kernel body: when each loaded block is the rows T * 5000 … T * 5000 + 4999 of
  its array (a weight matrix or a bias row being its whole array), what the body stores at a block entry is the
  whole-array function of KOps at the array entry the block entry sits at.
-/
import proofs.«117928_j61658550502081_1_alg».proof.Proof.KOps
import proofs.«117928_j61658550502081_1_alg».proof.Proof.KPay

noncomputable section

namespace Cert.KernelIdeal.KV

open Idealize.ShloMosaic Idealize.ShloMosaic.ValueIdx Cert.KernelIdeal Cert.KernelIdeal.Gen

open scoped BigOperators

/-- The zero offsets of a whole-buffer access, as the constant function. -/
theorem zero_offsets : (![0, 0] : Fin 2 → Nat) = fun _ => 0 := funext fun a => by fin_cases a <;> rfl

/-- A block of 5000 rows of the input projection: when the row block x0 is rows T * 5000 … of X and the weight block
    is W, the body's product at block entry y is the whole product at the array entry i that y sits at. -/
theorem mm128_block (X : Vec Ideal S50000x128 .f32) (W : Vec Ideal S128x64 .f32)
    (x0 : Vec Ideal S5000x128 .f32) (x1 : Vec Ideal S128x64 .f32) (T : Nat)
    (h0 : ∀ (y : S5000x128.Idx) (i : S50000x128.Idx), (i 0).val = T * 5000 + (y 0).val → (i 1).val = (y 1).val → x0 y = X i)
    (h1 : x1 = W)
    (y : S5000x64.Idx) (i : S50000x64.Idx) (hi0 : (i 0).val = T * 5000 + (y 0).val) (hi1 : (i 1).val = (y 1).val) :
    k0_pay1 (F := Ideal) x0 x1 y = MM128 X W i := by
  obtain ⟨p, q, rfl⟩ : ∃ (p : Fin 5000) (q : Fin 64), y = ix2 p q := ⟨y 0, y 1, eq_ix2 y⟩
  obtain ⟨a, b, rfl⟩ : ∃ (a : Fin 50000) (b : Fin 64), i = ix2 a b := ⟨i 0, i 1, eq_ix2 i⟩
  obtain rfl : b = q := Fin.ext hi1
  subst h1
  rw [pay0_apply, MM128_apply]
  exact Finset.sum_congr rfl fun k _ => congrArg (· * (x1 (ix2 k b) : EReal)) (h0 (ix2 p k) (ix2 a k) hi0 rfl)

/-- A block of 5000 rows of a layer's product, likewise. -/
theorem mm64_block (X : Vec Ideal S50000x64 .f32) (W : Vec Ideal S64x64 .f32)
    (x0 : Vec Ideal S5000x64 .f32) (x1 : Vec Ideal S64x64 .f32) (T : Nat)
    (h0 : ∀ (y : S5000x64.Idx) (i : S50000x64.Idx), (i 0).val = T * 5000 + (y 0).val → (i 1).val = (y 1).val → x0 y = X i)
    (h1 : x1 = W)
    (y : S5000x64.Idx) (i : S50000x64.Idx) (hi0 : (i 0).val = T * 5000 + (y 0).val) (hi1 : (i 1).val = (y 1).val) :
    k2_pay1 (F := Ideal) x0 x1 y = MM64 X W i := by
  obtain ⟨p, q, rfl⟩ : ∃ (p : Fin 5000) (q : Fin 64), y = ix2 p q := ⟨y 0, y 1, eq_ix2 y⟩
  obtain ⟨a, b, rfl⟩ : ∃ (a : Fin 50000) (b : Fin 64), i = ix2 a b := ⟨i 0, i 1, eq_ix2 i⟩
  obtain rfl : b = q := Fin.ext hi1
  subst h1
  rw [pay2_apply, MM64_apply]
  exact Finset.sum_congr rfl fun k _ => congrArg (· * (x1 (ix2 k b) : EReal)) (h0 (ix2 p k) (ix2 a k) hi0 rfl)

/-- A block of 5000 rows of the biased, clamped array, the bias row being the whole of B. -/
theorem br_block (X : Vec Ideal S50000x64 .f32) (B : Vec Ideal S1x64 .f32)
    (x0 : Vec Ideal S5000x64 .f32) (x1 : Vec Ideal S1x64 .f32) (T : Nat)
    (h0 : ∀ (y : S5000x64.Idx) (i : S50000x64.Idx), (i 0).val = T * 5000 + (y 0).val → (i 1).val = (y 1).val → x0 y = X i)
    (h1 : x1 = B)
    (y : S5000x64.Idx) (i : S50000x64.Idx) (hi0 : (i 0).val = T * 5000 + (y 0).val) (hi1 : (i 1).val = (y 1).val) :
    k1_pay1 (F := Ideal) x0 x1 y = BR X B i := by
  obtain ⟨p, q, rfl⟩ : ∃ (p : Fin 5000) (q : Fin 64), y = ix2 p q := ⟨y 0, y 1, eq_ix2 y⟩
  obtain ⟨a, b, rfl⟩ : ∃ (a : Fin 50000) (b : Fin 64), i = ix2 a b := ⟨i 0, i 1, eq_ix2 i⟩
  obtain rfl : b = q := Fin.ext hi1
  subst h1
  rw [pay1_apply, BR_apply, h0 (ix2 p b) (ix2 a b) hi0 rfl]

/-- A block of 5000 rows of the combination: the three blocks are the same rows of the three arrays. -/
theorem cb_block (Tt X Y : Vec Ideal S50000x64 .f32) (t x y : Vec Ideal S5000x64 .f32) (T : Nat)
    (ht : ∀ (j : S5000x64.Idx) (i : S50000x64.Idx), (i 0).val = T * 5000 + (j 0).val → (i 1).val = (j 1).val → t j = Tt i)
    (hx : ∀ (j : S5000x64.Idx) (i : S50000x64.Idx), (i 0).val = T * 5000 + (j 0).val → (i 1).val = (j 1).val → x j = X i)
    (hy : ∀ (j : S5000x64.Idx) (i : S50000x64.Idx), (i 0).val = T * 5000 + (j 0).val → (i 1).val = (j 1).val → y j = Y i)
    (j : S5000x64.Idx) (i : S50000x64.Idx) (hi0 : (i 0).val = T * 5000 + (j 0).val) (hi1 : (i 1).val = (j 1).val) :
    k6_pay1 (F := Ideal) t x y j = CB Tt X Y i := by
  rw [pay6_apply, CB_apply, ht j i hi0 hi1, hx j i hi0 hi1, hy j i hi0 hi1]

end Cert.KernelIdeal.KV

end
-- ==== Proof.KR0.lean ====
/-
  Region 0 of the network's forward pass (a matrix product, rows tiled by 5000 over ten grid points): each point's
  loaded blocks are rows of the arrays the region reads, what the point writes back is its block of one whole-array
  function of those arrays, the ten blocks cover the output array, so the output array ends holding that function.
-/
import proofs.«117928_j61658550502081_1_alg».proof.Proof.Gen.KernelIdeal.Frame
import proofs.«117928_j61658550502081_1_alg».proof.Proof.KBlock
import Idealize.ShloMosaic.Lib.Pipeline.Value

set_option maxRecDepth 16384

noncomputable section

namespace Cert.KernelIdeal.KV

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The index maps of region 0's windows, decided over the ten grid points: a row-blocked window is at block row t,
    block column 0; a window that stages its whole array is at block (0, 0). -/
theorem r0_idx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Window 0's block at point t is rows t * 5000 … t * 5000 + 4999 of its array. -/
theorem r0_blk0 (c : Dev nD) (t : Fin cfg0.N) (y : S5000x128.Idx) (i : S50000x128.Idx)
    (h0 : (i 0).val = t.val * 5000 + (y 0).val) (h1 : (i 1).val = (y 1).val) :
    (iblk0 V c 0 t : Vec Ideal S5000x128 .f32) y = (V c (Pipeline.arrRef spec0 0) : Vec Ideal S50000x128 .f32) i := by
  obtain ⟨e0a, e0b, e1a, e1b, e2a, e2b⟩ := r0_idx t
  unfold iblk0
  rw [View.read_apply]
  show (V c (Pipeline.arrRef spec0 0) : Vec Ideal S50000x128 .f32) _ = _
  refine congrArg _ (funext fun a => Fin.ext ?_)
  match a with
  | ⟨0, _⟩ => show win0_0.index t (0 : Fin 2) * 5000 + 1 * (y 0).val = (i 0).val; rw [e0a, h0]; omega
  | ⟨1, _⟩ => show win0_0.index t (1 : Fin 2) * 128 + 1 * (y 1).val = (i 1).val; rw [e0b, h1]; omega

/-- Window 1's block at every point is its whole array. -/
theorem r0_blk1 (c : Dev nD) (t : Fin cfg0.N) :
    (iblk0 V c 1 t : Vec Ideal S128x64 .f32) = (V c (Pipeline.arrRef spec0 1) : Vec Ideal S128x64 .f32) := by
  obtain ⟨e0a, e0b, e1a, e1b, e2a, e2b⟩ := r0_idx t
  funext y
  unfold iblk0
  rw [View.read_apply]
  show (V c (Pipeline.arrRef spec0 1) : Vec Ideal S128x64 .f32) _ = _
  refine congrArg _ (funext fun a => Fin.ext ?_)
  match a with
  | ⟨0, _⟩ => show win0_1.index t (0 : Fin 2) * 128 + 1 * (y 0).val = (y 0).val; rw [e1a]; omega
  | ⟨1, _⟩ => show win0_1.index t (1 : Fin 2) * 64 + 1 * (y 1).val = (y 1).val; rw [e1b]; omega

/-- What point t writes back is block t of the whole-array function: the product of its row-blocked operand with its weight matrix. -/
theorem r0_flushed (c : Dev nD) (t : Fin cfg0.N) :
    (dat0 V c).flushed 2 t = ((cfg0.win 2).blk t).view.read (Elt Ideal) (MM128 (V c (Pipeline.arrRef spec0 0)) (V c (Pipeline.arrRef spec0 1))) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x64) zero_offsets]
  obtain ⟨e0a, e0b, e1a, e1b, e2a, e2b⟩ := r0_idx t
  funext j
  show k0_pay1 (F := Ideal) (iblk0 V c 0 t) (iblk0 V c 1 t) ((cfg0.win 2).xinj (grid0.coords t) j)
      = MM128 (V c (Pipeline.arrRef spec0 0)) (V c (Pipeline.arrRef spec0 1)) (((cfg0.win 2).blk t).view.emb j)
  refine mm128_block (V c (Pipeline.arrRef spec0 0)) (V c (Pipeline.arrRef spec0 1)) (iblk0 V c 0 t) (iblk0 V c 1 t) t.val
    (fun y i h0 h1 => r0_blk0 V c t y i h0 h1) (r0_blk1 V c t) ((cfg0.win 2).xinj (grid0.coords t) j) (((cfg0.win 2).blk t).view.emb j) ?_ ?_
  · show win0_2.index t (0 : Fin 2) * 5000 + 1 * (j 0).val = t.val * 5000 + (j 0).val; rw [e2a]; omega
  · show win0_2.index t (1 : Fin 2) * 64 + 1 * (j 1).val = (j 1).val; rw [e2b]; omega

/-- An entry of the output array is in point t's block iff each coordinate is in the block's range on its axis. -/
theorem r0_mem_blk (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v35).slice (win0_2.rect t)).set ↔ _
  rw [View.set_slice_whole, Rect.mem_set_unit]
  exact Iff.rfl

/-- Every entry of the output array is in some point's block: row r is in the block of point r / 5000. -/
theorem r0_cover (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨e0a, e0b, e1a, e1b, e2a, e2b⟩ := r0_idx t
  refine ⟨t, flush0_2 t, ?_⟩
  rw [r0_mem_blk]
  intro a
  match a with
  | ⟨0, _⟩ => show win0_2.index t (0 : Fin 2) * 5000 ≤ (i 0).val ∧ (i 0).val < win0_2.index t (0 : Fin 2) * 5000 + 5000; rw [e2a, ht]; omega
  | ⟨1, _⟩ => show win0_2.index t (1 : Fin 2) * 64 ≤ (i 1).val ∧ (i 1).val < win0_2.index t (1 : Fin 2) * 64 + 64; rw [e2b]; omega

/-- THE VALUE OF REGION 0: its output array after the region is the product of its row-blocked operand with its weight matrix, as the region finds them. -/
theorem region0_value (c : Dev nD) :
    (dat0 V c).arrAt 2 cfg0.N = MM128 (V c (Pipeline.arrRef spec0 0)) (V c (Pipeline.arrRef spec0 1)) :=
  (dat0 V c).arrAt_eq_of_cover 2 (MM128 (V c (Pipeline.arrRef spec0 0)) (V c (Pipeline.arrRef spec0 1))) (fun t _ => r0_flushed V c t) r0_cover

end Cert.KernelIdeal.KV

end
-- ==== Proof.KR1.lean ====
/-
  Region 1 of the network's forward pass (a bias row added and a clamp at zero, rows tiled by 5000 over ten grid points): each point's
  loaded blocks are rows of the arrays the region reads, what the point writes back is its block of one whole-array
  function of those arrays, the ten blocks cover the output array, so the output array ends holding that function.
-/
import proofs.«117928_j61658550502081_1_alg».proof.Proof.Gen.KernelIdeal.Frame
import proofs.«117928_j61658550502081_1_alg».proof.Proof.KBlock
import Idealize.ShloMosaic.Lib.Pipeline.Value

set_option maxRecDepth 16384

noncomputable section

namespace Cert.KernelIdeal.KV

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The index maps of region 1's windows, decided over the ten grid points: a row-blocked window is at block row t,
    block column 0; a window that stages its whole array is at block (0, 0). -/
theorem r1_idx : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Window 0's block at point t is rows t * 5000 … t * 5000 + 4999 of its array. -/
theorem r1_blk0 (c : Dev nD) (t : Fin cfg1.N) (y : S5000x64.Idx) (i : S50000x64.Idx)
    (h0 : (i 0).val = t.val * 5000 + (y 0).val) (h1 : (i 1).val = (y 1).val) :
    (iblk1 V c 0 t : Vec Ideal S5000x64 .f32) y = (V c (Pipeline.arrRef spec1 0) : Vec Ideal S50000x64 .f32) i := by
  obtain ⟨e0a, e0b, e1a, e1b, e2a, e2b⟩ := r1_idx t
  unfold iblk1
  rw [View.read_apply]
  show (V c (Pipeline.arrRef spec1 0) : Vec Ideal S50000x64 .f32) _ = _
  refine congrArg _ (funext fun a => Fin.ext ?_)
  match a with
  | ⟨0, _⟩ => show win1_0.index t (0 : Fin 2) * 5000 + 1 * (y 0).val = (i 0).val; rw [e0a, h0]; omega
  | ⟨1, _⟩ => show win1_0.index t (1 : Fin 2) * 64 + 1 * (y 1).val = (i 1).val; rw [e0b, h1]; omega

/-- Window 1's block at every point is its whole array. -/
theorem r1_blk1 (c : Dev nD) (t : Fin cfg1.N) :
    (iblk1 V c 1 t : Vec Ideal S1x64 .f32) = (V c (Pipeline.arrRef spec1 1) : Vec Ideal S1x64 .f32) := by
  obtain ⟨e0a, e0b, e1a, e1b, e2a, e2b⟩ := r1_idx t
  funext y
  unfold iblk1
  rw [View.read_apply]
  show (V c (Pipeline.arrRef spec1 1) : Vec Ideal S1x64 .f32) _ = _
  refine congrArg _ (funext fun a => Fin.ext ?_)
  match a with
  | ⟨0, _⟩ => show win1_1.index t (0 : Fin 2) * 1 + 1 * (y 0).val = (y 0).val; rw [e1a]; omega
  | ⟨1, _⟩ => show win1_1.index t (1 : Fin 2) * 64 + 1 * (y 1).val = (y 1).val; rw [e1b]; omega

/-- What point t writes back is block t of the whole-array function: its operand with the bias row added to every row, clamped below at zero. -/
theorem r1_flushed (c : Dev nD) (t : Fin cfg1.N) :
    (dat1 V c).flushed 2 t = ((cfg1.win 2).blk t).view.read (Elt Ideal) (BR (V c (Pipeline.arrRef spec1 0)) (V c (Pipeline.arrRef spec1 1))) := by
  show (cfg1.win 2).cut (grid1.coords t) ((dat1 V c).after 2 t) = _
  rw [after1_2]
  unfold out1_2
  rw [View.canon_unit_zero zero_offsets]
  simp only [View.ld_unit_zero (S := S5000x64) zero_offsets, View.ld_unit_zero (S := S1x64) zero_offsets]
  obtain ⟨e0a, e0b, e1a, e1b, e2a, e2b⟩ := r1_idx t
  funext j
  show k1_pay1 (F := Ideal) (iblk1 V c 0 t) (iblk1 V c 1 t) ((cfg1.win 2).xinj (grid1.coords t) j)
      = BR (V c (Pipeline.arrRef spec1 0)) (V c (Pipeline.arrRef spec1 1)) (((cfg1.win 2).blk t).view.emb j)
  refine br_block (V c (Pipeline.arrRef spec1 0)) (V c (Pipeline.arrRef spec1 1)) (iblk1 V c 0 t) (iblk1 V c 1 t) t.val
    (fun y i h0 h1 => r1_blk0 V c t y i h0 h1) (r1_blk1 V c t) ((cfg1.win 2).xinj (grid1.coords t) j) (((cfg1.win 2).blk t).view.emb j) ?_ ?_
  · show win1_2.index t (0 : Fin 2) * 5000 + 1 * (j 0).val = t.val * 5000 + (j 0).val; rw [e2a]; omega
  · show win1_2.index t (1 : Fin 2) * 64 + 1 * (j 1).val = (j 1).val; rw [e2b]; omega

/-- An entry of the output array is in point t's block iff each coordinate is in the block's range on its axis. -/
theorem r1_mem_blk (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v37).slice (win1_2.rect t)).set ↔ _
  rw [View.set_slice_whole, Rect.mem_set_unit]
  exact Iff.rfl

/-- Every entry of the output array is in some point's block: row r is in the block of point r / 5000. -/
theorem r1_cover (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨e0a, e0b, e1a, e1b, e2a, e2b⟩ := r1_idx t
  refine ⟨t, flush1_2 t, ?_⟩
  rw [r1_mem_blk]
  intro a
  match a with
  | ⟨0, _⟩ => show win1_2.index t (0 : Fin 2) * 5000 ≤ (i 0).val ∧ (i 0).val < win1_2.index t (0 : Fin 2) * 5000 + 5000; rw [e2a, ht]; omega
  | ⟨1, _⟩ => show win1_2.index t (1 : Fin 2) * 64 ≤ (i 1).val ∧ (i 1).val < win1_2.index t (1 : Fin 2) * 64 + 64; rw [e2b]; omega

/-- THE VALUE OF REGION 1: its output array after the region is its operand with the bias row added to every row, clamped below at zero, as the region finds them. -/
theorem region1_value (c : Dev nD) :
    (dat1 V c).arrAt 2 cfg1.N = BR (V c (Pipeline.arrRef spec1 0)) (V c (Pipeline.arrRef spec1 1)) :=
  (dat1 V c).arrAt_eq_of_cover 2 (BR (V c (Pipeline.arrRef spec1 0)) (V c (Pipeline.arrRef spec1 1))) (fun t _ => r1_flushed V c t) r1_cover

end Cert.KernelIdeal.KV

end
-- ==== Proof.KR2.lean ====
/-
  Region 2 of the network's forward pass (a matrix product, rows tiled by 5000 over ten grid points): each point's
  loaded blocks are rows of the arrays the region reads, what the point writes back is its block of one whole-array
  function of those arrays, the ten blocks cover the output array, so the output array ends holding that function.
-/
import proofs.«117928_j61658550502081_1_alg».proof.Proof.Gen.KernelIdeal.Frame
import proofs.«117928_j61658550502081_1_alg».proof.Proof.KBlock
import Idealize.ShloMosaic.Lib.Pipeline.Value

set_option maxRecDepth 16384

noncomputable section

namespace Cert.KernelIdeal.KV

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The index maps of region 2's windows, decided over the ten grid points: a row-blocked window is at block row t,
    block column 0; a window that stages its whole array is at block (0, 0). -/
theorem r2_idx : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Window 0's block at point t is rows t * 5000 … t * 5000 + 4999 of its array. -/
theorem r2_blk0 (c : Dev nD) (t : Fin cfg2.N) (y : S5000x64.Idx) (i : S50000x64.Idx)
    (h0 : (i 0).val = t.val * 5000 + (y 0).val) (h1 : (i 1).val = (y 1).val) :
    (iblk2 V c 0 t : Vec Ideal S5000x64 .f32) y = (V c (Pipeline.arrRef spec2 0) : Vec Ideal S50000x64 .f32) i := by
  obtain ⟨e0a, e0b, e1a, e1b, e2a, e2b⟩ := r2_idx t
  unfold iblk2
  rw [View.read_apply]
  show (V c (Pipeline.arrRef spec2 0) : Vec Ideal S50000x64 .f32) _ = _
  refine congrArg _ (funext fun a => Fin.ext ?_)
  match a with
  | ⟨0, _⟩ => show win2_0.index t (0 : Fin 2) * 5000 + 1 * (y 0).val = (i 0).val; rw [e0a, h0]; omega
  | ⟨1, _⟩ => show win2_0.index t (1 : Fin 2) * 64 + 1 * (y 1).val = (i 1).val; rw [e0b, h1]; omega

/-- Window 1's block at every point is its whole array. -/
theorem r2_blk1 (c : Dev nD) (t : Fin cfg2.N) :
    (iblk2 V c 1 t : Vec Ideal S64x64 .f32) = (V c (Pipeline.arrRef spec2 1) : Vec Ideal S64x64 .f32) := by
  obtain ⟨e0a, e0b, e1a, e1b, e2a, e2b⟩ := r2_idx t
  funext y
  unfold iblk2
  rw [View.read_apply]
  show (V c (Pipeline.arrRef spec2 1) : Vec Ideal S64x64 .f32) _ = _
  refine congrArg _ (funext fun a => Fin.ext ?_)
  match a with
  | ⟨0, _⟩ => show win2_1.index t (0 : Fin 2) * 64 + 1 * (y 0).val = (y 0).val; rw [e1a]; omega
  | ⟨1, _⟩ => show win2_1.index t (1 : Fin 2) * 64 + 1 * (y 1).val = (y 1).val; rw [e1b]; omega

/-- What point t writes back is block t of the whole-array function: the product of its row-blocked operand with its weight matrix. -/
theorem r2_flushed (c : Dev nD) (t : Fin cfg2.N) :
    (dat2 V c).flushed 2 t = ((cfg2.win 2).blk t).view.read (Elt Ideal) (MM64 (V c (Pipeline.arrRef spec2 0)) (V c (Pipeline.arrRef spec2 1))) := by
  show (cfg2.win 2).cut (grid2.coords t) ((dat2 V c).after 2 t) = _
  rw [after2_2]
  unfold out2_2
  rw [View.canon_unit_zero zero_offsets]
  simp only [View.ld_unit_zero (S := S5000x64) zero_offsets, View.ld_unit_zero (S := S64x64) zero_offsets]
  obtain ⟨e0a, e0b, e1a, e1b, e2a, e2b⟩ := r2_idx t
  funext j
  show k2_pay1 (F := Ideal) (iblk2 V c 0 t) (iblk2 V c 1 t) ((cfg2.win 2).xinj (grid2.coords t) j)
      = MM64 (V c (Pipeline.arrRef spec2 0)) (V c (Pipeline.arrRef spec2 1)) (((cfg2.win 2).blk t).view.emb j)
  refine mm64_block (V c (Pipeline.arrRef spec2 0)) (V c (Pipeline.arrRef spec2 1)) (iblk2 V c 0 t) (iblk2 V c 1 t) t.val
    (fun y i h0 h1 => r2_blk0 V c t y i h0 h1) (r2_blk1 V c t) ((cfg2.win 2).xinj (grid2.coords t) j) (((cfg2.win 2).blk t).view.emb j) ?_ ?_
  · show win2_2.index t (0 : Fin 2) * 5000 + 1 * (j 0).val = t.val * 5000 + (j 0).val; rw [e2a]; omega
  · show win2_2.index t (1 : Fin 2) * 64 + 1 * (j 1).val = (j 1).val; rw [e2b]; omega

/-- An entry of the output array is in point t's block iff each coordinate is in the block's range on its axis. -/
theorem r2_mem_blk (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v42).slice (win2_2.rect t)).set ↔ _
  rw [View.set_slice_whole, Rect.mem_set_unit]
  exact Iff.rfl

/-- Every entry of the output array is in some point's block: row r is in the block of point r / 5000. -/
theorem r2_cover (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨e0a, e0b, e1a, e1b, e2a, e2b⟩ := r2_idx t
  refine ⟨t, flush2_2 t, ?_⟩
  rw [r2_mem_blk]
  intro a
  match a with
  | ⟨0, _⟩ => show win2_2.index t (0 : Fin 2) * 5000 ≤ (i 0).val ∧ (i 0).val < win2_2.index t (0 : Fin 2) * 5000 + 5000; rw [e2a, ht]; omega
  | ⟨1, _⟩ => show win2_2.index t (1 : Fin 2) * 64 ≤ (i 1).val ∧ (i 1).val < win2_2.index t (1 : Fin 2) * 64 + 64; rw [e2b]; omega

/-- THE VALUE OF REGION 2: its output array after the region is the product of its row-blocked operand with its weight matrix, as the region finds them. -/
theorem region2_value (c : Dev nD) :
    (dat2 V c).arrAt 2 cfg2.N = MM64 (V c (Pipeline.arrRef spec2 0)) (V c (Pipeline.arrRef spec2 1)) :=
  (dat2 V c).arrAt_eq_of_cover 2 (MM64 (V c (Pipeline.arrRef spec2 0)) (V c (Pipeline.arrRef spec2 1))) (fun t _ => r2_flushed V c t) r2_cover

end Cert.KernelIdeal.KV

end
-- ==== Proof.KR3.lean ====
/-
  Region 3 of the network's forward pass (a bias row added and a clamp at zero, rows tiled by 5000 over ten grid points): each point's
  loaded blocks are rows of the arrays the region reads, what the point writes back is its block of one whole-array
  function of those arrays, the ten blocks cover the output array, so the output array ends holding that function.
-/
import proofs.«117928_j61658550502081_1_alg».proof.Proof.Gen.KernelIdeal.Frame
import proofs.«117928_j61658550502081_1_alg».proof.Proof.KBlock
import Idealize.ShloMosaic.Lib.Pipeline.Value

set_option maxRecDepth 16384

noncomputable section

namespace Cert.KernelIdeal.KV

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The index maps of region 3's windows, decided over the ten grid points: a row-blocked window is at block row t,
    block column 0; a window that stages its whole array is at block (0, 0). -/
theorem r3_idx : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Window 0's block at point t is rows t * 5000 … t * 5000 + 4999 of its array. -/
theorem r3_blk0 (c : Dev nD) (t : Fin cfg3.N) (y : S5000x64.Idx) (i : S50000x64.Idx)
    (h0 : (i 0).val = t.val * 5000 + (y 0).val) (h1 : (i 1).val = (y 1).val) :
    (iblk3 V c 0 t : Vec Ideal S5000x64 .f32) y = (V c (Pipeline.arrRef spec3 0) : Vec Ideal S50000x64 .f32) i := by
  obtain ⟨e0a, e0b, e1a, e1b, e2a, e2b⟩ := r3_idx t
  unfold iblk3
  rw [View.read_apply]
  show (V c (Pipeline.arrRef spec3 0) : Vec Ideal S50000x64 .f32) _ = _
  refine congrArg _ (funext fun a => Fin.ext ?_)
  match a with
  | ⟨0, _⟩ => show win3_0.index t (0 : Fin 2) * 5000 + 1 * (y 0).val = (i 0).val; rw [e0a, h0]; omega
  | ⟨1, _⟩ => show win3_0.index t (1 : Fin 2) * 64 + 1 * (y 1).val = (i 1).val; rw [e0b, h1]; omega

/-- Window 1's block at every point is its whole array. -/
theorem r3_blk1 (c : Dev nD) (t : Fin cfg3.N) :
    (iblk3 V c 1 t : Vec Ideal S1x64 .f32) = (V c (Pipeline.arrRef spec3 1) : Vec Ideal S1x64 .f32) := by
  obtain ⟨e0a, e0b, e1a, e1b, e2a, e2b⟩ := r3_idx t
  funext y
  unfold iblk3
  rw [View.read_apply]
  show (V c (Pipeline.arrRef spec3 1) : Vec Ideal S1x64 .f32) _ = _
  refine congrArg _ (funext fun a => Fin.ext ?_)
  match a with
  | ⟨0, _⟩ => show win3_1.index t (0 : Fin 2) * 1 + 1 * (y 0).val = (y 0).val; rw [e1a]; omega
  | ⟨1, _⟩ => show win3_1.index t (1 : Fin 2) * 64 + 1 * (y 1).val = (y 1).val; rw [e1b]; omega

/-- What point t writes back is block t of the whole-array function: its operand with the bias row added to every row, clamped below at zero. -/
theorem r3_flushed (c : Dev nD) (t : Fin cfg3.N) :
    (dat3 V c).flushed 2 t = ((cfg3.win 2).blk t).view.read (Elt Ideal) (BR (V c (Pipeline.arrRef spec3 0)) (V c (Pipeline.arrRef spec3 1))) := by
  show (cfg3.win 2).cut (grid3.coords t) ((dat3 V c).after 2 t) = _
  rw [after3_2]
  unfold out3_2
  rw [View.canon_unit_zero zero_offsets]
  simp only [View.ld_unit_zero (S := S5000x64) zero_offsets, View.ld_unit_zero (S := S1x64) zero_offsets]
  obtain ⟨e0a, e0b, e1a, e1b, e2a, e2b⟩ := r3_idx t
  funext j
  show k1_pay1 (F := Ideal) (iblk3 V c 0 t) (iblk3 V c 1 t) ((cfg3.win 2).xinj (grid3.coords t) j)
      = BR (V c (Pipeline.arrRef spec3 0)) (V c (Pipeline.arrRef spec3 1)) (((cfg3.win 2).blk t).view.emb j)
  refine br_block (V c (Pipeline.arrRef spec3 0)) (V c (Pipeline.arrRef spec3 1)) (iblk3 V c 0 t) (iblk3 V c 1 t) t.val
    (fun y i h0 h1 => r3_blk0 V c t y i h0 h1) (r3_blk1 V c t) ((cfg3.win 2).xinj (grid3.coords t) j) (((cfg3.win 2).blk t).view.emb j) ?_ ?_
  · show win3_2.index t (0 : Fin 2) * 5000 + 1 * (j 0).val = t.val * 5000 + (j 0).val; rw [e2a]; omega
  · show win3_2.index t (1 : Fin 2) * 64 + 1 * (j 1).val = (j 1).val; rw [e2b]; omega

/-- An entry of the output array is in point t's block iff each coordinate is in the block's range on its axis. -/
theorem r3_mem_blk (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v57).slice (win3_2.rect t)).set ↔ _
  rw [View.set_slice_whole, Rect.mem_set_unit]
  exact Iff.rfl

/-- Every entry of the output array is in some point's block: row r is in the block of point r / 5000. -/
theorem r3_cover (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  have hN : cfg3.N = 10 := N_3
  obtain ⟨t, ht⟩ : ∃ t : Fin cfg3.N, t.val = (i 0).val / 5000 := ⟨⟨(i 0).val / 5000, by rw [hN]; omega⟩, rfl⟩
  obtain ⟨e0a, e0b, e1a, e1b, e2a, e2b⟩ := r3_idx t
  refine ⟨t, flush3_2 t, ?_⟩
  rw [r3_mem_blk]
  intro a
  match a with
  | ⟨0, _⟩ => show win3_2.index t (0 : Fin 2) * 5000 ≤ (i 0).val ∧ (i 0).val < win3_2.index t (0 : Fin 2) * 5000 + 5000; rw [e2a, ht]; omega
  | ⟨1, _⟩ => show win3_2.index t (1 : Fin 2) * 64 ≤ (i 1).val ∧ (i 1).val < win3_2.index t (1 : Fin 2) * 64 + 64; rw [e2b]; omega

/-- THE VALUE OF REGION 3: its output array after the region is its operand with the bias row added to every row, clamped below at zero, as the region finds them. -/
theorem region3_value (c : Dev nD) :
    (dat3 V c).arrAt 2 cfg3.N = BR (V c (Pipeline.arrRef spec3 0)) (V c (Pipeline.arrRef spec3 1)) :=
  (dat3 V c).arrAt_eq_of_cover 2 (BR (V c (Pipeline.arrRef spec3 0)) (V c (Pipeline.arrRef spec3 1))) (fun t _ => r3_flushed V c t) r3_cover

end Cert.KernelIdeal.KV

end
-- ==== Proof.KR4.lean ====
/-
  Region 4 of the network's forward pass (a matrix product, rows tiled by 5000 over ten grid points): each point's
  loaded blocks are rows of the arrays the region reads, what the point writes back is its block of one whole-array
  function of those arrays, the ten blocks cover the output array, so the output array ends holding that function.
-/
import proofs.«117928_j61658550502081_1_alg».proof.Proof.Gen.KernelIdeal.Frame
import proofs.«117928_j61658550502081_1_alg».proof.Proof.KBlock
import Idealize.ShloMosaic.Lib.Pipeline.Value

set_option maxRecDepth 16384

noncomputable section

namespace Cert.KernelIdeal.KV

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The index maps of region 4's windows, decided over the ten grid points: a row-blocked window is at block row t,
    block column 0; a window that stages its whole array is at block (0, 0). -/
theorem r4_idx : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Window 0's block at point t is rows t * 5000 … t * 5000 + 4999 of its array. -/
theorem r4_blk0 (c : Dev nD) (t : Fin cfg4.N) (y : S5000x64.Idx) (i : S50000x64.Idx)
    (h0 : (i 0).val = t.val * 5000 + (y 0).val) (h1 : (i 1).val = (y 1).val) :
    (iblk4 V c 0 t : Vec Ideal S5000x64 .f32) y = (V c (Pipeline.arrRef spec4 0) : Vec Ideal S50000x64 .f32) i := by
  obtain ⟨e0a, e0b, e1a, e1b, e2a, e2b⟩ := r4_idx t
  unfold iblk4
  rw [View.read_apply]
  show (V c (Pipeline.arrRef spec4 0) : Vec Ideal S50000x64 .f32) _ = _
  refine congrArg _ (funext fun a => Fin.ext ?_)
  match a with
  | ⟨0, _⟩ => show win4_0.index t (0 : Fin 2) * 5000 + 1 * (y 0).val = (i 0).val; rw [e0a, h0]; omega
  | ⟨1, _⟩ => show win4_0.index t (1 : Fin 2) * 64 + 1 * (y 1).val = (i 1).val; rw [e0b, h1]; omega

/-- Window 1's block at every point is its whole array. -/
theorem r4_blk1 (c : Dev nD) (t : Fin cfg4.N) :
    (iblk4 V c 1 t : Vec Ideal S64x64 .f32) = (V c (Pipeline.arrRef spec4 1) : Vec Ideal S64x64 .f32) := by
  obtain ⟨e0a, e0b, e1a, e1b, e2a, e2b⟩ := r4_idx t
  funext y
  unfold iblk4
  rw [View.read_apply]
  show (V c (Pipeline.arrRef spec4 1) : Vec Ideal S64x64 .f32) _ = _
  refine congrArg _ (funext fun a => Fin.ext ?_)
  match a with
  | ⟨0, _⟩ => show win4_1.index t (0 : Fin 2) * 64 + 1 * (y 0).val = (y 0).val; rw [e1a]; omega
  | ⟨1, _⟩ => show win4_1.index t (1 : Fin 2) * 64 + 1 * (y 1).val = (y 1).val; rw [e1b]; omega

/-- What point t writes back is block t of the whole-array function: the product of its row-blocked operand with its weight matrix. -/
theorem r4_flushed (c : Dev nD) (t : Fin cfg4.N) :
    (dat4 V c).flushed 2 t = ((cfg4.win 2).blk t).view.read (Elt Ideal) (MM64 (V c (Pipeline.arrRef spec4 0)) (V c (Pipeline.arrRef spec4 1))) := by
  show (cfg4.win 2).cut (grid4.coords t) ((dat4 V c).after 2 t) = _
  rw [after4_2]
  unfold out4_2
  rw [View.canon_unit_zero zero_offsets]
  simp only [View.ld_unit_zero (S := S5000x64) zero_offsets, View.ld_unit_zero (S := S64x64) zero_offsets]
  obtain ⟨e0a, e0b, e1a, e1b, e2a, e2b⟩ := r4_idx t
  funext j
  show k2_pay1 (F := Ideal) (iblk4 V c 0 t) (iblk4 V c 1 t) ((cfg4.win 2).xinj (grid4.coords t) j)
      = MM64 (V c (Pipeline.arrRef spec4 0)) (V c (Pipeline.arrRef spec4 1)) (((cfg4.win 2).blk t).view.emb j)
  refine mm64_block (V c (Pipeline.arrRef spec4 0)) (V c (Pipeline.arrRef spec4 1)) (iblk4 V c 0 t) (iblk4 V c 1 t) t.val
    (fun y i h0 h1 => r4_blk0 V c t y i h0 h1) (r4_blk1 V c t) ((cfg4.win 2).xinj (grid4.coords t) j) (((cfg4.win 2).blk t).view.emb j) ?_ ?_
  · show win4_2.index t (0 : Fin 2) * 5000 + 1 * (j 0).val = t.val * 5000 + (j 0).val; rw [e2a]; omega
  · show win4_2.index t (1 : Fin 2) * 64 + 1 * (j 1).val = (j 1).val; rw [e2b]; omega

/-- An entry of the output array is in point t's block iff each coordinate is in the block's range on its axis. -/
theorem r4_mem_blk (t : Fin cfg4.N) (i : S50000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v62).slice (win4_2.rect t)).set ↔ _
  rw [View.set_slice_whole, Rect.mem_set_unit]
  exact Iff.rfl

/-- Every entry of the output array is in some point's block: row r is in the block of point r / 5000. -/
theorem r4_cover (i : S50000x64.Idx) :
    ∃ t : Fin cfg4.N, (cfg4.win 2).flush t = true ∧ i ∈ ((cfg4.win 2).blk t).view.set := by
  have hi0 : (i 0).val < 50000 := (i 0).isLt
  have hi1 : (i 1).val < 64 := (i 1).isLt
  have hN : cfg4.N = 10 := N_4
  obtain ⟨t, ht⟩ : ∃ t : Fin cfg4.N, t.val = (i 0).val / 5000 := ⟨⟨(i 0).val / 5000, by rw [hN]; omega⟩, rfl⟩
  obtain ⟨e0a, e0b, e1a, e1b, e2a, e2b⟩ := r4_idx t
  refine ⟨t, flush4_2 t, ?_⟩
  rw [r4_mem_blk]
  intro a
  match a with
  | ⟨0, _⟩ => show win4_2.index t (0 : Fin 2) * 5000 ≤ (i 0).val ∧ (i 0).val < win4_2.index t (0 : Fin 2) * 5000 + 5000; rw [e2a, ht]; omega
  | ⟨1, _⟩ => show win4_2.index t (1 : Fin 2) * 64 ≤ (i 1).val ∧ (i 1).val < win4_2.index t (1 : Fin 2) * 64 + 64; rw [e2b]; omega

/-- THE VALUE OF REGION 4: its output array after the region is the product of its row-blocked operand with its weight matrix, as the region finds them. -/
theorem region4_value (c : Dev nD) :
    (dat4 V c).arrAt 2 cfg4.N = MM64 (V c (Pipeline.arrRef spec4 0)) (V c (Pipeline.arrRef spec4 1)) :=
  (dat4 V c).arrAt_eq_of_cover 2 (MM64 (V c (Pipeline.arrRef spec4 0)) (V c (Pipeline.arrRef spec4 1))) (fun t _ => r4_flushed V c t) r4_cover

end Cert.KernelIdeal.KV

end
-- ==== Proof.KR5.lean ====
/-
  Region 5 of the network's forward pass (a bias row added and a clamp at zero, rows tiled by 5000 over ten grid points): each point's
  loaded blocks are rows of the arrays the region reads, what the point writes back is its block of one whole-array
  function of those arrays, the ten blocks cover the output array, so the output array ends holding that function.
-/
import proofs.«117928_j61658550502081_1_alg».proof.Proof.Gen.KernelIdeal.Frame
import proofs.«117928_j61658550502081_1_alg».proof.Proof.KBlock
import Idealize.ShloMosaic.Lib.Pipeline.Value

set_option maxRecDepth 16384

noncomputable section

namespace Cert.KernelIdeal.KV

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The index maps of region 5's windows, decided over the ten grid points: a row-blocked window is at block row t,
    block column 0; a window that stages its whole array is at block (0, 0). -/
theorem r5_idx : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Window 0's block at point t is rows t * 5000 … t * 5000 + 4999 of its array. -/
theorem r5_blk0 (c : Dev nD) (t : Fin cfg5.N) (y : S5000x64.Idx) (i : S50000x64.Idx)
    (h0 : (i 0).val = t.val * 5000 + (y 0).val) (h1 : (i 1).val = (y 1).val) :
    (iblk5 V c 0 t : Vec Ideal S5000x64 .f32) y = (V c (Pipeline.arrRef spec5 0) : Vec Ideal S50000x64 .f32) i := by
  obtain ⟨e0a, e0b, e1a, e1b, e2a, e2b⟩ := r5_idx t
  unfold iblk5
  rw [View.read_apply]
  show (V c (Pipeline.arrRef spec5 0) : Vec Ideal S50000x64 .f32) _ = _
  refine congrArg _ (funext fun a => Fin.ext ?_)
  match a with
  | ⟨0, _⟩ => show win5_0.index t (0 : Fin 2) * 5000 + 1 * (y 0).val = (i 0).val; rw [e0a, h0]; omega
  | ⟨1, _⟩ => show win5_0.index t (1 : Fin 2) * 64 + 1 * (y 1).val = (i 1).val; rw [e0b, h1]; omega

/-- Window 1's block at every point is its whole array. -/
theorem r5_blk1 (c : Dev nD) (t : Fin cfg5.N) :
    (iblk5 V c 1 t : Vec Ideal S1x64 .f32) = (V c (Pipeline.arrRef spec5 1) : Vec Ideal S1x64 .f32) := by
  obtain ⟨e0a, e0b, e1a, e1b, e2a, e2b⟩ := r5_idx t
  funext y
  unfold iblk5
  rw [View.read_apply]
  show (V c (Pipeline.arrRef spec5 1) : Vec Ideal S1x64 .f32) _ = _
  refine congrArg _ (funext fun a => Fin.ext ?_)
  match a with
  | ⟨0, _⟩ => show win5_1.index t (0 : Fin 2) * 1 + 1 * (y 0).val = (y 0).val; rw [e1a]; omega
  | ⟨1, _⟩ => show win5_1.index t (1 : Fin 2) * 64 + 1 * (y 1).val = (y 1).val; rw [e1b]; omega

/-- What point t writes back is block t of the whole-array function: its operand with the bias row added to every row, clamped below at zero. -/
theorem r5_flushed (c : Dev nD) (t : Fin cfg5.N) :
    (dat5 V c).flushed 2 t = ((cfg5.win 2).blk t).view.read (Elt Ideal) (BR (V c (Pipeline.arrRef spec5 0)) (V c (Pipeline.arrRef spec5 1))) := by
  show (cfg5.win 2).cut (grid5.coords t) ((dat5 V c).after 2 t) = _
  rw [after5_2]
  unfold out5_2
  rw [View.canon_unit_zero zero_offsets]
  simp only [View.ld_unit_zero (S := S5000x64) zero_offsets, View.ld_unit_zero (S := S1x64) zero_offsets]
  obtain ⟨e0a, e0b, e1a, e1b, e2a, e2b⟩ := r5_idx t
  funext j
  show k1_pay1 (F := Ideal) (iblk5 V c 0 t) (iblk5 V c 1 t) ((cfg5.win 2).xinj (grid5.coords t) j)
      = BR (V c (Pipeline.arrRef spec5 0)) (V c (Pipeline.arrRef spec5 1)) (((cfg5.win 2).blk t).view.emb j)
  refine br_block (V c (Pipeline.arrRef spec5 0)) (V c (Pipeline.arrRef spec5 1)) (iblk5 V c 0 t) (iblk5 V c 1 t) t.val
    (fun y i h0 h1 => r5_blk0 V c t y i h0 h1) (r5_blk1 V c t) ((cfg5.win 2).xinj (grid5.coords t) j) (((cfg5.win 2).blk t).view.emb j) ?_ ?_
  · show win5_2.index t (0 : Fin 2) * 5000 + 1 * (j 0).val = t.val * 5000 + (j 0).val; rw [e2a]; omega
  · show win5_2.index t (1 : Fin 2) * 64 + 1 * (j 1).val = (j 1).val; rw [e2b]; omega

/-- An entry of the output array is in point t's block iff each coordinate is in the block's range on its axis. -/
theorem r5_mem_blk (t : Fin cfg5.N) (i : S50000x64.Idx) :
    i ∈ ((cfg5.win 2).blk t).view.set ↔ ∀ a : Fin 2, win5_2.index t a * S5000x64.size a ≤ (i a).val ∧ (i a).val < win5_2.index t a * S5000x64.size a + S5000x64.size a := by
  show i ∈ ((View.whole main_v77).slice (win5_2.rect t)).set ↔ _
  rw [View.set_slice_whole, Rect.mem_set_unit]
  exact Iff.rfl

/-- Every entry of the output array is in some point's block: row r is in the block of point r / 5000. -/
theorem r5_cover (i : S50000x64.Idx) :
    ∃ t : Fin cfg5.N, (cfg5.win 2).flush t = true ∧ i ∈ ((cfg5.win 2).blk t).view.set := by
  have hi0 : (i 0).val < 50000 := (i 0).isLt
  have hi1 : (i 1).val < 64 := (i 1).isLt
  have hN : cfg5.N = 10 := N_5
  obtain ⟨t, ht⟩ : ∃ t : Fin cfg5.N, t.val = (i 0).val / 5000 := ⟨⟨(i 0).val / 5000, by rw [hN]; omega⟩, rfl⟩
  obtain ⟨e0a, e0b, e1a, e1b, e2a, e2b⟩ := r5_idx t
  refine ⟨t, flush5_2 t, ?_⟩
  rw [r5_mem_blk]
  intro a
  match a with
  | ⟨0, _⟩ => show win5_2.index t (0 : Fin 2) * 5000 ≤ (i 0).val ∧ (i 0).val < win5_2.index t (0 : Fin 2) * 5000 + 5000; rw [e2a, ht]; omega
  | ⟨1, _⟩ => show win5_2.index t (1 : Fin 2) * 64 ≤ (i 1).val ∧ (i 1).val < win5_2.index t (1 : Fin 2) * 64 + 64; rw [e2b]; omega

/-- THE VALUE OF REGION 5: its output array after the region is its operand with the bias row added to every row, clamped below at zero, as the region finds them. -/
theorem region5_value (c : Dev nD) :
    (dat5 V c).arrAt 2 cfg5.N = BR (V c (Pipeline.arrRef spec5 0)) (V c (Pipeline.arrRef spec5 1)) :=
  (dat5 V c).arrAt_eq_of_cover 2 (BR (V c (Pipeline.arrRef spec5 0)) (V c (Pipeline.arrRef spec5 1))) (fun t _ => r5_flushed V c t) r5_cover

end Cert.KernelIdeal.KV

end
-- ==== Proof.KR6.lean ====
/-
  Region 6 of the network's forward pass (a convex combination, rows tiled by 5000 over ten grid points): each point's
  loaded blocks are rows of the arrays the region reads, what the point writes back is its block of one whole-array
  function of those arrays, the ten blocks cover the output array, so the output array ends holding that function.
-/
import proofs.«117928_j61658550502081_1_alg».proof.Proof.Gen.KernelIdeal.Frame
import proofs.«117928_j61658550502081_1_alg».proof.Proof.KBlock
import Idealize.ShloMosaic.Lib.Pipeline.Value

set_option maxRecDepth 16384

noncomputable section

namespace Cert.KernelIdeal.KV

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The index maps of region 6's windows, decided over the ten grid points: a row-blocked window is at block row t,
    block column 0; a window that stages its whole array is at block (0, 0). -/
theorem r6_idx : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0 :=
  (by decide +kernel : ∀ t : Fin grid6.N, _)

/-- Window 0's block at point t is rows t * 5000 … t * 5000 + 4999 of its array. -/
theorem r6_blk0 (c : Dev nD) (t : Fin cfg6.N) (y : S5000x64.Idx) (i : S50000x64.Idx)
    (h0 : (i 0).val = t.val * 5000 + (y 0).val) (h1 : (i 1).val = (y 1).val) :
    (iblk6 V c 0 t : Vec Ideal S5000x64 .f32) y = (V c (Pipeline.arrRef spec6 0) : Vec Ideal S50000x64 .f32) i := by
  obtain ⟨e0a, e0b, e1a, e1b, e2a, e2b, e3a, e3b⟩ := r6_idx t
  unfold iblk6
  rw [View.read_apply]
  show (V c (Pipeline.arrRef spec6 0) : Vec Ideal S50000x64 .f32) _ = _
  refine congrArg _ (funext fun a => Fin.ext ?_)
  match a with
  | ⟨0, _⟩ => show win6_0.index t (0 : Fin 2) * 5000 + 1 * (y 0).val = (i 0).val; rw [e0a, h0]; omega
  | ⟨1, _⟩ => show win6_0.index t (1 : Fin 2) * 64 + 1 * (y 1).val = (i 1).val; rw [e0b, h1]; omega

/-- Window 1's block at point t is rows t * 5000 … t * 5000 + 4999 of its array. -/
theorem r6_blk1 (c : Dev nD) (t : Fin cfg6.N) (y : S5000x64.Idx) (i : S50000x64.Idx)
    (h0 : (i 0).val = t.val * 5000 + (y 0).val) (h1 : (i 1).val = (y 1).val) :
    (iblk6 V c 1 t : Vec Ideal S5000x64 .f32) y = (V c (Pipeline.arrRef spec6 1) : Vec Ideal S50000x64 .f32) i := by
  obtain ⟨e0a, e0b, e1a, e1b, e2a, e2b, e3a, e3b⟩ := r6_idx t
  unfold iblk6
  rw [View.read_apply]
  show (V c (Pipeline.arrRef spec6 1) : Vec Ideal S50000x64 .f32) _ = _
  refine congrArg _ (funext fun a => Fin.ext ?_)
  match a with
  | ⟨0, _⟩ => show win6_1.index t (0 : Fin 2) * 5000 + 1 * (y 0).val = (i 0).val; rw [e1a, h0]; omega
  | ⟨1, _⟩ => show win6_1.index t (1 : Fin 2) * 64 + 1 * (y 1).val = (i 1).val; rw [e1b, h1]; omega

/-- Window 2's block at point t is rows t * 5000 … t * 5000 + 4999 of its array. -/
theorem r6_blk2 (c : Dev nD) (t : Fin cfg6.N) (y : S5000x64.Idx) (i : S50000x64.Idx)
    (h0 : (i 0).val = t.val * 5000 + (y 0).val) (h1 : (i 1).val = (y 1).val) :
    (iblk6 V c 2 t : Vec Ideal S5000x64 .f32) y = (V c (Pipeline.arrRef spec6 2) : Vec Ideal S50000x64 .f32) i := by
  obtain ⟨e0a, e0b, e1a, e1b, e2a, e2b, e3a, e3b⟩ := r6_idx t
  unfold iblk6
  rw [View.read_apply]
  show (V c (Pipeline.arrRef spec6 2) : Vec Ideal S50000x64 .f32) _ = _
  refine congrArg _ (funext fun a => Fin.ext ?_)
  match a with
  | ⟨0, _⟩ => show win6_2.index t (0 : Fin 2) * 5000 + 1 * (y 0).val = (i 0).val; rw [e2a, h0]; omega
  | ⟨1, _⟩ => show win6_2.index t (1 : Fin 2) * 64 + 1 * (y 1).val = (i 1).val; rw [e2b, h1]; omega

/-- What point t writes back is block t of the whole-array function: the convex combination of its two operands by the third. -/
theorem r6_flushed (c : Dev nD) (t : Fin cfg6.N) :
    (dat6 V c).flushed 3 t = ((cfg6.win 3).blk t).view.read (Elt Ideal) (CB (V c (Pipeline.arrRef spec6 2)) (V c (Pipeline.arrRef spec6 0)) (V c (Pipeline.arrRef spec6 1))) := by
  show (cfg6.win 3).cut (grid6.coords t) ((dat6 V c).after 3 t) = _
  rw [after6_3]
  unfold out6_3
  rw [View.canon_unit_zero zero_offsets]
  simp only [View.ld_unit_zero (S := S5000x64) zero_offsets]
  obtain ⟨e0a, e0b, e1a, e1b, e2a, e2b, e3a, e3b⟩ := r6_idx t
  funext j
  show k6_pay1 (F := Ideal) (iblk6 V c 2 t) (iblk6 V c 0 t) (iblk6 V c 1 t) ((cfg6.win 3).xinj (grid6.coords t) j)
      = CB (V c (Pipeline.arrRef spec6 2)) (V c (Pipeline.arrRef spec6 0)) (V c (Pipeline.arrRef spec6 1)) (((cfg6.win 3).blk t).view.emb j)
  refine cb_block (V c (Pipeline.arrRef spec6 2)) (V c (Pipeline.arrRef spec6 0)) (V c (Pipeline.arrRef spec6 1)) (iblk6 V c 2 t) (iblk6 V c 0 t) (iblk6 V c 1 t) t.val
    (fun y i h0 h1 => r6_blk2 V c t y i h0 h1) (fun y i h0 h1 => r6_blk0 V c t y i h0 h1) (fun y i h0 h1 => r6_blk1 V c t y i h0 h1) ((cfg6.win 3).xinj (grid6.coords t) j) (((cfg6.win 3).blk t).view.emb j) ?_ ?_
  · show win6_3.index t (0 : Fin 2) * 5000 + 1 * (j 0).val = t.val * 5000 + (j 0).val; rw [e3a]; omega
  · show win6_3.index t (1 : Fin 2) * 64 + 1 * (j 1).val = (j 1).val; rw [e3b]; omega

/-- An entry of the output array is in point t's block iff each coordinate is in the block's range on its axis. -/
theorem r6_mem_blk (t : Fin cfg6.N) (i : S50000x64.Idx) :
    i ∈ ((cfg6.win 3).blk t).view.set ↔ ∀ a : Fin 2, win6_3.index t a * S5000x64.size a ≤ (i a).val ∧ (i a).val < win6_3.index t a * S5000x64.size a + S5000x64.size a := by
  show i ∈ ((View.whole main_v101).slice (win6_3.rect t)).set ↔ _
  rw [View.set_slice_whole, Rect.mem_set_unit]
  exact Iff.rfl

/-- Every entry of the output array is in some point's block: row r is in the block of point r / 5000. -/
theorem r6_cover (i : S50000x64.Idx) :
    ∃ t : Fin cfg6.N, (cfg6.win 3).flush t = true ∧ i ∈ ((cfg6.win 3).blk t).view.set := by
  have hi0 : (i 0).val < 50000 := (i 0).isLt
  have hi1 : (i 1).val < 64 := (i 1).isLt
  have hN : cfg6.N = 10 := N_6
  obtain ⟨t, ht⟩ : ∃ t : Fin cfg6.N, t.val = (i 0).val / 5000 := ⟨⟨(i 0).val / 5000, by rw [hN]; omega⟩, rfl⟩
  obtain ⟨e0a, e0b, e1a, e1b, e2a, e2b, e3a, e3b⟩ := r6_idx t
  refine ⟨t, flush6_3 t, ?_⟩
  rw [r6_mem_blk]
  intro a
  match a with
  | ⟨0, _⟩ => show win6_3.index t (0 : Fin 2) * 5000 ≤ (i 0).val ∧ (i 0).val < win6_3.index t (0 : Fin 2) * 5000 + 5000; rw [e3a, ht]; omega
  | ⟨1, _⟩ => show win6_3.index t (1 : Fin 2) * 64 ≤ (i 1).val ∧ (i 1).val < win6_3.index t (1 : Fin 2) * 64 + 64; rw [e3b]; omega

/-- THE VALUE OF REGION 6: its output array after the region is the convex combination of its two operands by the third, as the region finds them. -/
theorem region6_value (c : Dev nD) :
    (dat6 V c).arrAt 3 cfg6.N = CB (V c (Pipeline.arrRef spec6 2)) (V c (Pipeline.arrRef spec6 0)) (V c (Pipeline.arrRef spec6 1)) :=
  (dat6 V c).arrAt_eq_of_cover 3 (CB (V c (Pipeline.arrRef spec6 2)) (V c (Pipeline.arrRef spec6 0)) (V c (Pipeline.arrRef spec6 1))) (fun t _ => r6_flushed V c t) r6_cover

end Cert.KernelIdeal.KV

end
-- ==== Proof.KR7.lean ====
/-
  Region 7 of the network's forward pass (a matrix product, rows tiled by 5000 over ten grid points): each point's
  loaded blocks are rows of the arrays the region reads, what the point writes back is its block of one whole-array
  function of those arrays, the ten blocks cover the output array, so the output array ends holding that function.
-/
import proofs.«117928_j61658550502081_1_alg».proof.Proof.Gen.KernelIdeal.Frame
import proofs.«117928_j61658550502081_1_alg».proof.Proof.KBlock
import Idealize.ShloMosaic.Lib.Pipeline.Value

set_option maxRecDepth 16384

noncomputable section

namespace Cert.KernelIdeal.KV

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The index maps of region 7's windows, decided over the ten grid points: a row-blocked window is at block row t,
    block column 0; a window that stages its whole array is at block (0, 0). -/
theorem r7_idx : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- Window 0's block at point t is rows t * 5000 … t * 5000 + 4999 of its array. -/
theorem r7_blk0 (c : Dev nD) (t : Fin cfg7.N) (y : S5000x64.Idx) (i : S50000x64.Idx)
    (h0 : (i 0).val = t.val * 5000 + (y 0).val) (h1 : (i 1).val = (y 1).val) :
    (iblk7 V c 0 t : Vec Ideal S5000x64 .f32) y = (V c (Pipeline.arrRef spec7 0) : Vec Ideal S50000x64 .f32) i := by
  obtain ⟨e0a, e0b, e1a, e1b, e2a, e2b⟩ := r7_idx t
  unfold iblk7
  rw [View.read_apply]
  show (V c (Pipeline.arrRef spec7 0) : Vec Ideal S50000x64 .f32) _ = _
  refine congrArg _ (funext fun a => Fin.ext ?_)
  match a with
  | ⟨0, _⟩ => show win7_0.index t (0 : Fin 2) * 5000 + 1 * (y 0).val = (i 0).val; rw [e0a, h0]; omega
  | ⟨1, _⟩ => show win7_0.index t (1 : Fin 2) * 64 + 1 * (y 1).val = (i 1).val; rw [e0b, h1]; omega

/-- Window 1's block at every point is its whole array. -/
theorem r7_blk1 (c : Dev nD) (t : Fin cfg7.N) :
    (iblk7 V c 1 t : Vec Ideal S64x64 .f32) = (V c (Pipeline.arrRef spec7 1) : Vec Ideal S64x64 .f32) := by
  obtain ⟨e0a, e0b, e1a, e1b, e2a, e2b⟩ := r7_idx t
  funext y
  unfold iblk7
  rw [View.read_apply]
  show (V c (Pipeline.arrRef spec7 1) : Vec Ideal S64x64 .f32) _ = _
  refine congrArg _ (funext fun a => Fin.ext ?_)
  match a with
  | ⟨0, _⟩ => show win7_1.index t (0 : Fin 2) * 64 + 1 * (y 0).val = (y 0).val; rw [e1a]; omega
  | ⟨1, _⟩ => show win7_1.index t (1 : Fin 2) * 64 + 1 * (y 1).val = (y 1).val; rw [e1b]; omega

/-- What point t writes back is block t of the whole-array function: the product of its row-blocked operand with its weight matrix. -/
theorem r7_flushed (c : Dev nD) (t : Fin cfg7.N) :
    (dat7 V c).flushed 2 t = ((cfg7.win 2).blk t).view.read (Elt Ideal) (MM64 (V c (Pipeline.arrRef spec7 0)) (V c (Pipeline.arrRef spec7 1))) := by
  show (cfg7.win 2).cut (grid7.coords t) ((dat7 V c).after 2 t) = _
  rw [after7_2]
  unfold out7_2
  rw [View.canon_unit_zero zero_offsets]
  simp only [View.ld_unit_zero (S := S5000x64) zero_offsets, View.ld_unit_zero (S := S64x64) zero_offsets]
  obtain ⟨e0a, e0b, e1a, e1b, e2a, e2b⟩ := r7_idx t
  funext j
  show k2_pay1 (F := Ideal) (iblk7 V c 0 t) (iblk7 V c 1 t) ((cfg7.win 2).xinj (grid7.coords t) j)
      = MM64 (V c (Pipeline.arrRef spec7 0)) (V c (Pipeline.arrRef spec7 1)) (((cfg7.win 2).blk t).view.emb j)
  refine mm64_block (V c (Pipeline.arrRef spec7 0)) (V c (Pipeline.arrRef spec7 1)) (iblk7 V c 0 t) (iblk7 V c 1 t) t.val
    (fun y i h0 h1 => r7_blk0 V c t y i h0 h1) (r7_blk1 V c t) ((cfg7.win 2).xinj (grid7.coords t) j) (((cfg7.win 2).blk t).view.emb j) ?_ ?_
  · show win7_2.index t (0 : Fin 2) * 5000 + 1 * (j 0).val = t.val * 5000 + (j 0).val; rw [e2a]; omega
  · show win7_2.index t (1 : Fin 2) * 64 + 1 * (j 1).val = (j 1).val; rw [e2b]; omega

/-- An entry of the output array is in point t's block iff each coordinate is in the block's range on its axis. -/
theorem r7_mem_blk (t : Fin cfg7.N) (i : S50000x64.Idx) :
    i ∈ ((cfg7.win 2).blk t).view.set ↔ ∀ a : Fin 2, win7_2.index t a * S5000x64.size a ≤ (i a).val ∧ (i a).val < win7_2.index t a * S5000x64.size a + S5000x64.size a := by
  show i ∈ ((View.whole main_v106).slice (win7_2.rect t)).set ↔ _
  rw [View.set_slice_whole, Rect.mem_set_unit]
  exact Iff.rfl

/-- Every entry of the output array is in some point's block: row r is in the block of point r / 5000. -/
theorem r7_cover (i : S50000x64.Idx) :
    ∃ t : Fin cfg7.N, (cfg7.win 2).flush t = true ∧ i ∈ ((cfg7.win 2).blk t).view.set := by
  have hi0 : (i 0).val < 50000 := (i 0).isLt
  have hi1 : (i 1).val < 64 := (i 1).isLt
  have hN : cfg7.N = 10 := N_7
  obtain ⟨t, ht⟩ : ∃ t : Fin cfg7.N, t.val = (i 0).val / 5000 := ⟨⟨(i 0).val / 5000, by rw [hN]; omega⟩, rfl⟩
  obtain ⟨e0a, e0b, e1a, e1b, e2a, e2b⟩ := r7_idx t
  refine ⟨t, flush7_2 t, ?_⟩
  rw [r7_mem_blk]
  intro a
  match a with
  | ⟨0, _⟩ => show win7_2.index t (0 : Fin 2) * 5000 ≤ (i 0).val ∧ (i 0).val < win7_2.index t (0 : Fin 2) * 5000 + 5000; rw [e2a, ht]; omega
  | ⟨1, _⟩ => show win7_2.index t (1 : Fin 2) * 64 ≤ (i 1).val ∧ (i 1).val < win7_2.index t (1 : Fin 2) * 64 + 64; rw [e2b]; omega

/-- THE VALUE OF REGION 7: its output array after the region is the product of its row-blocked operand with its weight matrix, as the region finds them. -/
theorem region7_value (c : Dev nD) :
    (dat7 V c).arrAt 2 cfg7.N = MM64 (V c (Pipeline.arrRef spec7 0)) (V c (Pipeline.arrRef spec7 1)) :=
  (dat7 V c).arrAt_eq_of_cover 2 (MM64 (V c (Pipeline.arrRef spec7 0)) (V c (Pipeline.arrRef spec7 1))) (fun t _ => r7_flushed V c t) r7_cover

end Cert.KernelIdeal.KV

end
-- ==== Proof.KR8.lean ====
/-
  Region 8 of the network's forward pass (a bias row added and a clamp at zero, rows tiled by 5000 over ten grid points): each point's
  loaded blocks are rows of the arrays the region reads, what the point writes back is its block of one whole-array
  function of those arrays, the ten blocks cover the output array, so the output array ends holding that function.
-/
import proofs.«117928_j61658550502081_1_alg».proof.Proof.Gen.KernelIdeal.Frame
import proofs.«117928_j61658550502081_1_alg».proof.Proof.KBlock
import Idealize.ShloMosaic.Lib.Pipeline.Value

set_option maxRecDepth 16384

noncomputable section

namespace Cert.KernelIdeal.KV

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The index maps of region 8's windows, decided over the ten grid points: a row-blocked window is at block row t,
    block column 0; a window that stages its whole array is at block (0, 0). -/
theorem r8_idx : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- Window 0's block at point t is rows t * 5000 … t * 5000 + 4999 of its array. -/
theorem r8_blk0 (c : Dev nD) (t : Fin cfg8.N) (y : S5000x64.Idx) (i : S50000x64.Idx)
    (h0 : (i 0).val = t.val * 5000 + (y 0).val) (h1 : (i 1).val = (y 1).val) :
    (iblk8 V c 0 t : Vec Ideal S5000x64 .f32) y = (V c (Pipeline.arrRef spec8 0) : Vec Ideal S50000x64 .f32) i := by
  obtain ⟨e0a, e0b, e1a, e1b, e2a, e2b⟩ := r8_idx t
  unfold iblk8
  rw [View.read_apply]
  show (V c (Pipeline.arrRef spec8 0) : Vec Ideal S50000x64 .f32) _ = _
  refine congrArg _ (funext fun a => Fin.ext ?_)
  match a with
  | ⟨0, _⟩ => show win8_0.index t (0 : Fin 2) * 5000 + 1 * (y 0).val = (i 0).val; rw [e0a, h0]; omega
  | ⟨1, _⟩ => show win8_0.index t (1 : Fin 2) * 64 + 1 * (y 1).val = (i 1).val; rw [e0b, h1]; omega

/-- Window 1's block at every point is its whole array. -/
theorem r8_blk1 (c : Dev nD) (t : Fin cfg8.N) :
    (iblk8 V c 1 t : Vec Ideal S1x64 .f32) = (V c (Pipeline.arrRef spec8 1) : Vec Ideal S1x64 .f32) := by
  obtain ⟨e0a, e0b, e1a, e1b, e2a, e2b⟩ := r8_idx t
  funext y
  unfold iblk8
  rw [View.read_apply]
  show (V c (Pipeline.arrRef spec8 1) : Vec Ideal S1x64 .f32) _ = _
  refine congrArg _ (funext fun a => Fin.ext ?_)
  match a with
  | ⟨0, _⟩ => show win8_1.index t (0 : Fin 2) * 1 + 1 * (y 0).val = (y 0).val; rw [e1a]; omega
  | ⟨1, _⟩ => show win8_1.index t (1 : Fin 2) * 64 + 1 * (y 1).val = (y 1).val; rw [e1b]; omega

/-- What point t writes back is block t of the whole-array function: its operand with the bias row added to every row, clamped below at zero. -/
theorem r8_flushed (c : Dev nD) (t : Fin cfg8.N) :
    (dat8 V c).flushed 2 t = ((cfg8.win 2).blk t).view.read (Elt Ideal) (BR (V c (Pipeline.arrRef spec8 0)) (V c (Pipeline.arrRef spec8 1))) := by
  show (cfg8.win 2).cut (grid8.coords t) ((dat8 V c).after 2 t) = _
  rw [after8_2]
  unfold out8_2
  rw [View.canon_unit_zero zero_offsets]
  simp only [View.ld_unit_zero (S := S5000x64) zero_offsets, View.ld_unit_zero (S := S1x64) zero_offsets]
  obtain ⟨e0a, e0b, e1a, e1b, e2a, e2b⟩ := r8_idx t
  funext j
  show k1_pay1 (F := Ideal) (iblk8 V c 0 t) (iblk8 V c 1 t) ((cfg8.win 2).xinj (grid8.coords t) j)
      = BR (V c (Pipeline.arrRef spec8 0)) (V c (Pipeline.arrRef spec8 1)) (((cfg8.win 2).blk t).view.emb j)
  refine br_block (V c (Pipeline.arrRef spec8 0)) (V c (Pipeline.arrRef spec8 1)) (iblk8 V c 0 t) (iblk8 V c 1 t) t.val
    (fun y i h0 h1 => r8_blk0 V c t y i h0 h1) (r8_blk1 V c t) ((cfg8.win 2).xinj (grid8.coords t) j) (((cfg8.win 2).blk t).view.emb j) ?_ ?_
  · show win8_2.index t (0 : Fin 2) * 5000 + 1 * (j 0).val = t.val * 5000 + (j 0).val; rw [e2a]; omega
  · show win8_2.index t (1 : Fin 2) * 64 + 1 * (j 1).val = (j 1).val; rw [e2b]; omega

/-- An entry of the output array is in point t's block iff each coordinate is in the block's range on its axis. -/
theorem r8_mem_blk (t : Fin cfg8.N) (i : S50000x64.Idx) :
    i ∈ ((cfg8.win 2).blk t).view.set ↔ ∀ a : Fin 2, win8_2.index t a * S5000x64.size a ≤ (i a).val ∧ (i a).val < win8_2.index t a * S5000x64.size a + S5000x64.size a := by
  show i ∈ ((View.whole main_v121).slice (win8_2.rect t)).set ↔ _
  rw [View.set_slice_whole, Rect.mem_set_unit]
  exact Iff.rfl

/-- Every entry of the output array is in some point's block: row r is in the block of point r / 5000. -/
theorem r8_cover (i : S50000x64.Idx) :
    ∃ t : Fin cfg8.N, (cfg8.win 2).flush t = true ∧ i ∈ ((cfg8.win 2).blk t).view.set := by
  have hi0 : (i 0).val < 50000 := (i 0).isLt
  have hi1 : (i 1).val < 64 := (i 1).isLt
  have hN : cfg8.N = 10 := N_8
  obtain ⟨t, ht⟩ : ∃ t : Fin cfg8.N, t.val = (i 0).val / 5000 := ⟨⟨(i 0).val / 5000, by rw [hN]; omega⟩, rfl⟩
  obtain ⟨e0a, e0b, e1a, e1b, e2a, e2b⟩ := r8_idx t
  refine ⟨t, flush8_2 t, ?_⟩
  rw [r8_mem_blk]
  intro a
  match a with
  | ⟨0, _⟩ => show win8_2.index t (0 : Fin 2) * 5000 ≤ (i 0).val ∧ (i 0).val < win8_2.index t (0 : Fin 2) * 5000 + 5000; rw [e2a, ht]; omega
  | ⟨1, _⟩ => show win8_2.index t (1 : Fin 2) * 64 ≤ (i 1).val ∧ (i 1).val < win8_2.index t (1 : Fin 2) * 64 + 64; rw [e2b]; omega

/-- THE VALUE OF REGION 8: its output array after the region is its operand with the bias row added to every row, clamped below at zero, as the region finds them. -/
theorem region8_value (c : Dev nD) :
    (dat8 V c).arrAt 2 cfg8.N = BR (V c (Pipeline.arrRef spec8 0)) (V c (Pipeline.arrRef spec8 1)) :=
  (dat8 V c).arrAt_eq_of_cover 2 (BR (V c (Pipeline.arrRef spec8 0)) (V c (Pipeline.arrRef spec8 1))) (fun t _ => r8_flushed V c t) r8_cover

end Cert.KernelIdeal.KV

end
-- ==== Proof.KR9.lean ====
/-
  Region 9 of the network's forward pass (a matrix product, rows tiled by 5000 over ten grid points): each point's
  loaded blocks are rows of the arrays the region reads, what the point writes back is its block of one whole-array
  function of those arrays, the ten blocks cover the output array, so the output array ends holding that function.
-/
import proofs.«117928_j61658550502081_1_alg».proof.Proof.Gen.KernelIdeal.Frame
import proofs.«117928_j61658550502081_1_alg».proof.Proof.KBlock
import Idealize.ShloMosaic.Lib.Pipeline.Value

set_option maxRecDepth 16384

noncomputable section

namespace Cert.KernelIdeal.KV

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The index maps of region 9's windows, decided over the ten grid points: a row-blocked window is at block row t,
    block column 0; a window that stages its whole array is at block (0, 0). -/
theorem r9_idx : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0 :=
  (by decide +kernel : ∀ t : Fin grid9.N, _)

/-- Window 0's block at point t is rows t * 5000 … t * 5000 + 4999 of its array. -/
theorem r9_blk0 (c : Dev nD) (t : Fin cfg9.N) (y : S5000x64.Idx) (i : S50000x64.Idx)
    (h0 : (i 0).val = t.val * 5000 + (y 0).val) (h1 : (i 1).val = (y 1).val) :
    (iblk9 V c 0 t : Vec Ideal S5000x64 .f32) y = (V c (Pipeline.arrRef spec9 0) : Vec Ideal S50000x64 .f32) i := by
  obtain ⟨e0a, e0b, e1a, e1b, e2a, e2b⟩ := r9_idx t
  unfold iblk9
  rw [View.read_apply]
  show (V c (Pipeline.arrRef spec9 0) : Vec Ideal S50000x64 .f32) _ = _
  refine congrArg _ (funext fun a => Fin.ext ?_)
  match a with
  | ⟨0, _⟩ => show win9_0.index t (0 : Fin 2) * 5000 + 1 * (y 0).val = (i 0).val; rw [e0a, h0]; omega
  | ⟨1, _⟩ => show win9_0.index t (1 : Fin 2) * 64 + 1 * (y 1).val = (i 1).val; rw [e0b, h1]; omega

/-- Window 1's block at every point is its whole array. -/
theorem r9_blk1 (c : Dev nD) (t : Fin cfg9.N) :
    (iblk9 V c 1 t : Vec Ideal S64x64 .f32) = (V c (Pipeline.arrRef spec9 1) : Vec Ideal S64x64 .f32) := by
  obtain ⟨e0a, e0b, e1a, e1b, e2a, e2b⟩ := r9_idx t
  funext y
  unfold iblk9
  rw [View.read_apply]
  show (V c (Pipeline.arrRef spec9 1) : Vec Ideal S64x64 .f32) _ = _
  refine congrArg _ (funext fun a => Fin.ext ?_)
  match a with
  | ⟨0, _⟩ => show win9_1.index t (0 : Fin 2) * 64 + 1 * (y 0).val = (y 0).val; rw [e1a]; omega
  | ⟨1, _⟩ => show win9_1.index t (1 : Fin 2) * 64 + 1 * (y 1).val = (y 1).val; rw [e1b]; omega

/-- What point t writes back is block t of the whole-array function: the product of its row-blocked operand with its weight matrix. -/
theorem r9_flushed (c : Dev nD) (t : Fin cfg9.N) :
    (dat9 V c).flushed 2 t = ((cfg9.win 2).blk t).view.read (Elt Ideal) (MM64 (V c (Pipeline.arrRef spec9 0)) (V c (Pipeline.arrRef spec9 1))) := by
  show (cfg9.win 2).cut (grid9.coords t) ((dat9 V c).after 2 t) = _
  rw [after9_2]
  unfold out9_2
  rw [View.canon_unit_zero zero_offsets]
  simp only [View.ld_unit_zero (S := S5000x64) zero_offsets, View.ld_unit_zero (S := S64x64) zero_offsets]
  obtain ⟨e0a, e0b, e1a, e1b, e2a, e2b⟩ := r9_idx t
  funext j
  show k2_pay1 (F := Ideal) (iblk9 V c 0 t) (iblk9 V c 1 t) ((cfg9.win 2).xinj (grid9.coords t) j)
      = MM64 (V c (Pipeline.arrRef spec9 0)) (V c (Pipeline.arrRef spec9 1)) (((cfg9.win 2).blk t).view.emb j)
  refine mm64_block (V c (Pipeline.arrRef spec9 0)) (V c (Pipeline.arrRef spec9 1)) (iblk9 V c 0 t) (iblk9 V c 1 t) t.val
    (fun y i h0 h1 => r9_blk0 V c t y i h0 h1) (r9_blk1 V c t) ((cfg9.win 2).xinj (grid9.coords t) j) (((cfg9.win 2).blk t).view.emb j) ?_ ?_
  · show win9_2.index t (0 : Fin 2) * 5000 + 1 * (j 0).val = t.val * 5000 + (j 0).val; rw [e2a]; omega
  · show win9_2.index t (1 : Fin 2) * 64 + 1 * (j 1).val = (j 1).val; rw [e2b]; omega

/-- An entry of the output array is in point t's block iff each coordinate is in the block's range on its axis. -/
theorem r9_mem_blk (t : Fin cfg9.N) (i : S50000x64.Idx) :
    i ∈ ((cfg9.win 2).blk t).view.set ↔ ∀ a : Fin 2, win9_2.index t a * S5000x64.size a ≤ (i a).val ∧ (i a).val < win9_2.index t a * S5000x64.size a + S5000x64.size a := by
  show i ∈ ((View.whole main_v126).slice (win9_2.rect t)).set ↔ _
  rw [View.set_slice_whole, Rect.mem_set_unit]
  exact Iff.rfl

/-- Every entry of the output array is in some point's block: row r is in the block of point r / 5000. -/
theorem r9_cover (i : S50000x64.Idx) :
    ∃ t : Fin cfg9.N, (cfg9.win 2).flush t = true ∧ i ∈ ((cfg9.win 2).blk t).view.set := by
  have hi0 : (i 0).val < 50000 := (i 0).isLt
  have hi1 : (i 1).val < 64 := (i 1).isLt
  have hN : cfg9.N = 10 := N_9
  obtain ⟨t, ht⟩ : ∃ t : Fin cfg9.N, t.val = (i 0).val / 5000 := ⟨⟨(i 0).val / 5000, by rw [hN]; omega⟩, rfl⟩
  obtain ⟨e0a, e0b, e1a, e1b, e2a, e2b⟩ := r9_idx t
  refine ⟨t, flush9_2 t, ?_⟩
  rw [r9_mem_blk]
  intro a
  match a with
  | ⟨0, _⟩ => show win9_2.index t (0 : Fin 2) * 5000 ≤ (i 0).val ∧ (i 0).val < win9_2.index t (0 : Fin 2) * 5000 + 5000; rw [e2a, ht]; omega
  | ⟨1, _⟩ => show win9_2.index t (1 : Fin 2) * 64 ≤ (i 1).val ∧ (i 1).val < win9_2.index t (1 : Fin 2) * 64 + 64; rw [e2b]; omega

/-- THE VALUE OF REGION 9: its output array after the region is the product of its row-blocked operand with its weight matrix, as the region finds them. -/
theorem region9_value (c : Dev nD) :
    (dat9 V c).arrAt 2 cfg9.N = MM64 (V c (Pipeline.arrRef spec9 0)) (V c (Pipeline.arrRef spec9 1)) :=
  (dat9 V c).arrAt_eq_of_cover 2 (MM64 (V c (Pipeline.arrRef spec9 0)) (V c (Pipeline.arrRef spec9 1))) (fun t _ => r9_flushed V c t) r9_cover

end Cert.KernelIdeal.KV

end
-- ==== Proof.KR10.lean ====
/-
  Region 10 of the network's forward pass (a bias row added and a clamp at zero, rows tiled by 5000 over ten grid points): each point's
  loaded blocks are rows of the arrays the region reads, what the point writes back is its block of one whole-array
  function of those arrays, the ten blocks cover the output array, so the output array ends holding that function.
-/
import proofs.«117928_j61658550502081_1_alg».proof.Proof.Gen.KernelIdeal.Frame
import proofs.«117928_j61658550502081_1_alg».proof.Proof.KBlock
import Idealize.ShloMosaic.Lib.Pipeline.Value

set_option maxRecDepth 16384

noncomputable section

namespace Cert.KernelIdeal.KV

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The index maps of region 10's windows, decided over the ten grid points: a row-blocked window is at block row t,
    block column 0; a window that stages its whole array is at block (0, 0). -/
theorem r10_idx : ∀ t : Fin cfg10.N,
    win10_0.index t (0 : Fin 2) = t.val ∧ win10_0.index t (1 : Fin 2) = 0
    ∧ win10_1.index t (0 : Fin 2) = 0 ∧ win10_1.index t (1 : Fin 2) = 0
    ∧ win10_2.index t (0 : Fin 2) = t.val ∧ win10_2.index t (1 : Fin 2) = 0 :=
  (by decide +kernel : ∀ t : Fin grid10.N, _)

/-- Window 0's block at point t is rows t * 5000 … t * 5000 + 4999 of its array. -/
theorem r10_blk0 (c : Dev nD) (t : Fin cfg10.N) (y : S5000x64.Idx) (i : S50000x64.Idx)
    (h0 : (i 0).val = t.val * 5000 + (y 0).val) (h1 : (i 1).val = (y 1).val) :
    (iblk10 V c 0 t : Vec Ideal S5000x64 .f32) y = (V c (Pipeline.arrRef spec10 0) : Vec Ideal S50000x64 .f32) i := by
  obtain ⟨e0a, e0b, e1a, e1b, e2a, e2b⟩ := r10_idx t
  unfold iblk10
  rw [View.read_apply]
  show (V c (Pipeline.arrRef spec10 0) : Vec Ideal S50000x64 .f32) _ = _
  refine congrArg _ (funext fun a => Fin.ext ?_)
  match a with
  | ⟨0, _⟩ => show win10_0.index t (0 : Fin 2) * 5000 + 1 * (y 0).val = (i 0).val; rw [e0a, h0]; omega
  | ⟨1, _⟩ => show win10_0.index t (1 : Fin 2) * 64 + 1 * (y 1).val = (i 1).val; rw [e0b, h1]; omega

/-- Window 1's block at every point is its whole array. -/
theorem r10_blk1 (c : Dev nD) (t : Fin cfg10.N) :
    (iblk10 V c 1 t : Vec Ideal S1x64 .f32) = (V c (Pipeline.arrRef spec10 1) : Vec Ideal S1x64 .f32) := by
  obtain ⟨e0a, e0b, e1a, e1b, e2a, e2b⟩ := r10_idx t
  funext y
  unfold iblk10
  rw [View.read_apply]
  show (V c (Pipeline.arrRef spec10 1) : Vec Ideal S1x64 .f32) _ = _
  refine congrArg _ (funext fun a => Fin.ext ?_)
  match a with
  | ⟨0, _⟩ => show win10_1.index t (0 : Fin 2) * 1 + 1 * (y 0).val = (y 0).val; rw [e1a]; omega
  | ⟨1, _⟩ => show win10_1.index t (1 : Fin 2) * 64 + 1 * (y 1).val = (y 1).val; rw [e1b]; omega

/-- What point t writes back is block t of the whole-array function: its operand with the bias row added to every row, clamped below at zero. -/
theorem r10_flushed (c : Dev nD) (t : Fin cfg10.N) :
    (dat10 V c).flushed 2 t = ((cfg10.win 2).blk t).view.read (Elt Ideal) (BR (V c (Pipeline.arrRef spec10 0)) (V c (Pipeline.arrRef spec10 1))) := by
  show (cfg10.win 2).cut (grid10.coords t) ((dat10 V c).after 2 t) = _
  rw [after10_2]
  unfold out10_2
  rw [View.canon_unit_zero zero_offsets]
  simp only [View.ld_unit_zero (S := S5000x64) zero_offsets, View.ld_unit_zero (S := S1x64) zero_offsets]
  obtain ⟨e0a, e0b, e1a, e1b, e2a, e2b⟩ := r10_idx t
  funext j
  show k1_pay1 (F := Ideal) (iblk10 V c 0 t) (iblk10 V c 1 t) ((cfg10.win 2).xinj (grid10.coords t) j)
      = BR (V c (Pipeline.arrRef spec10 0)) (V c (Pipeline.arrRef spec10 1)) (((cfg10.win 2).blk t).view.emb j)
  refine br_block (V c (Pipeline.arrRef spec10 0)) (V c (Pipeline.arrRef spec10 1)) (iblk10 V c 0 t) (iblk10 V c 1 t) t.val
    (fun y i h0 h1 => r10_blk0 V c t y i h0 h1) (r10_blk1 V c t) ((cfg10.win 2).xinj (grid10.coords t) j) (((cfg10.win 2).blk t).view.emb j) ?_ ?_
  · show win10_2.index t (0 : Fin 2) * 5000 + 1 * (j 0).val = t.val * 5000 + (j 0).val; rw [e2a]; omega
  · show win10_2.index t (1 : Fin 2) * 64 + 1 * (j 1).val = (j 1).val; rw [e2b]; omega

/-- An entry of the output array is in point t's block iff each coordinate is in the block's range on its axis. -/
theorem r10_mem_blk (t : Fin cfg10.N) (i : S50000x64.Idx) :
    i ∈ ((cfg10.win 2).blk t).view.set ↔ ∀ a : Fin 2, win10_2.index t a * S5000x64.size a ≤ (i a).val ∧ (i a).val < win10_2.index t a * S5000x64.size a + S5000x64.size a := by
  show i ∈ ((View.whole main_v141).slice (win10_2.rect t)).set ↔ _
  rw [View.set_slice_whole, Rect.mem_set_unit]
  exact Iff.rfl

/-- Every entry of the output array is in some point's block: row r is in the block of point r / 5000. -/
theorem r10_cover (i : S50000x64.Idx) :
    ∃ t : Fin cfg10.N, (cfg10.win 2).flush t = true ∧ i ∈ ((cfg10.win 2).blk t).view.set := by
  have hi0 : (i 0).val < 50000 := (i 0).isLt
  have hi1 : (i 1).val < 64 := (i 1).isLt
  have hN : cfg10.N = 10 := N_10
  obtain ⟨t, ht⟩ : ∃ t : Fin cfg10.N, t.val = (i 0).val / 5000 := ⟨⟨(i 0).val / 5000, by rw [hN]; omega⟩, rfl⟩
  obtain ⟨e0a, e0b, e1a, e1b, e2a, e2b⟩ := r10_idx t
  refine ⟨t, flush10_2 t, ?_⟩
  rw [r10_mem_blk]
  intro a
  match a with
  | ⟨0, _⟩ => show win10_2.index t (0 : Fin 2) * 5000 ≤ (i 0).val ∧ (i 0).val < win10_2.index t (0 : Fin 2) * 5000 + 5000; rw [e2a, ht]; omega
  | ⟨1, _⟩ => show win10_2.index t (1 : Fin 2) * 64 ≤ (i 1).val ∧ (i 1).val < win10_2.index t (1 : Fin 2) * 64 + 64; rw [e2b]; omega

/-- THE VALUE OF REGION 10: its output array after the region is its operand with the bias row added to every row, clamped below at zero, as the region finds them. -/
theorem region10_value (c : Dev nD) :
    (dat10 V c).arrAt 2 cfg10.N = BR (V c (Pipeline.arrRef spec10 0)) (V c (Pipeline.arrRef spec10 1)) :=
  (dat10 V c).arrAt_eq_of_cover 2 (BR (V c (Pipeline.arrRef spec10 0)) (V c (Pipeline.arrRef spec10 1))) (fun t _ => r10_flushed V c t) r10_cover

end Cert.KernelIdeal.KV

end
-- ==== Proof.KR11.lean ====
/-
  Region 11 of the network's forward pass (a convex combination, rows tiled by 5000 over ten grid points): each point's
  loaded blocks are rows of the arrays the region reads, what the point writes back is its block of one whole-array
  function of those arrays, the ten blocks cover the output array, so the output array ends holding that function.
-/
import proofs.«117928_j61658550502081_1_alg».proof.Proof.Gen.KernelIdeal.Frame
import proofs.«117928_j61658550502081_1_alg».proof.Proof.KBlock
import Idealize.ShloMosaic.Lib.Pipeline.Value

set_option maxRecDepth 16384

noncomputable section

namespace Cert.KernelIdeal.KV

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The index maps of region 11's windows, decided over the ten grid points: a row-blocked window is at block row t,
    block column 0; a window that stages its whole array is at block (0, 0). -/
theorem r11_idx : ∀ t : Fin cfg11.N,
    win11_0.index t (0 : Fin 2) = t.val ∧ win11_0.index t (1 : Fin 2) = 0
    ∧ win11_1.index t (0 : Fin 2) = t.val ∧ win11_1.index t (1 : Fin 2) = 0
    ∧ win11_2.index t (0 : Fin 2) = t.val ∧ win11_2.index t (1 : Fin 2) = 0
    ∧ win11_3.index t (0 : Fin 2) = t.val ∧ win11_3.index t (1 : Fin 2) = 0 :=
  (by decide +kernel : ∀ t : Fin grid11.N, _)

/-- Window 0's block at point t is rows t * 5000 … t * 5000 + 4999 of its array. -/
theorem r11_blk0 (c : Dev nD) (t : Fin cfg11.N) (y : S5000x64.Idx) (i : S50000x64.Idx)
    (h0 : (i 0).val = t.val * 5000 + (y 0).val) (h1 : (i 1).val = (y 1).val) :
    (iblk11 V c 0 t : Vec Ideal S5000x64 .f32) y = (V c (Pipeline.arrRef spec11 0) : Vec Ideal S50000x64 .f32) i := by
  obtain ⟨e0a, e0b, e1a, e1b, e2a, e2b, e3a, e3b⟩ := r11_idx t
  unfold iblk11
  rw [View.read_apply]
  show (V c (Pipeline.arrRef spec11 0) : Vec Ideal S50000x64 .f32) _ = _
  refine congrArg _ (funext fun a => Fin.ext ?_)
  match a with
  | ⟨0, _⟩ => show win11_0.index t (0 : Fin 2) * 5000 + 1 * (y 0).val = (i 0).val; rw [e0a, h0]; omega
  | ⟨1, _⟩ => show win11_0.index t (1 : Fin 2) * 64 + 1 * (y 1).val = (i 1).val; rw [e0b, h1]; omega

/-- Window 1's block at point t is rows t * 5000 … t * 5000 + 4999 of its array. -/
theorem r11_blk1 (c : Dev nD) (t : Fin cfg11.N) (y : S5000x64.Idx) (i : S50000x64.Idx)
    (h0 : (i 0).val = t.val * 5000 + (y 0).val) (h1 : (i 1).val = (y 1).val) :
    (iblk11 V c 1 t : Vec Ideal S5000x64 .f32) y = (V c (Pipeline.arrRef spec11 1) : Vec Ideal S50000x64 .f32) i := by
  obtain ⟨e0a, e0b, e1a, e1b, e2a, e2b, e3a, e3b⟩ := r11_idx t
  unfold iblk11
  rw [View.read_apply]
  show (V c (Pipeline.arrRef spec11 1) : Vec Ideal S50000x64 .f32) _ = _
  refine congrArg _ (funext fun a => Fin.ext ?_)
  match a with
  | ⟨0, _⟩ => show win11_1.index t (0 : Fin 2) * 5000 + 1 * (y 0).val = (i 0).val; rw [e1a, h0]; omega
  | ⟨1, _⟩ => show win11_1.index t (1 : Fin 2) * 64 + 1 * (y 1).val = (i 1).val; rw [e1b, h1]; omega

/-- Window 2's block at point t is rows t * 5000 … t * 5000 + 4999 of its array. -/
theorem r11_blk2 (c : Dev nD) (t : Fin cfg11.N) (y : S5000x64.Idx) (i : S50000x64.Idx)
    (h0 : (i 0).val = t.val * 5000 + (y 0).val) (h1 : (i 1).val = (y 1).val) :
    (iblk11 V c 2 t : Vec Ideal S5000x64 .f32) y = (V c (Pipeline.arrRef spec11 2) : Vec Ideal S50000x64 .f32) i := by
  obtain ⟨e0a, e0b, e1a, e1b, e2a, e2b, e3a, e3b⟩ := r11_idx t
  unfold iblk11
  rw [View.read_apply]
  show (V c (Pipeline.arrRef spec11 2) : Vec Ideal S50000x64 .f32) _ = _
  refine congrArg _ (funext fun a => Fin.ext ?_)
  match a with
  | ⟨0, _⟩ => show win11_2.index t (0 : Fin 2) * 5000 + 1 * (y 0).val = (i 0).val; rw [e2a, h0]; omega
  | ⟨1, _⟩ => show win11_2.index t (1 : Fin 2) * 64 + 1 * (y 1).val = (i 1).val; rw [e2b, h1]; omega

/-- What point t writes back is block t of the whole-array function: the convex combination of its two operands by the third. -/
theorem r11_flushed (c : Dev nD) (t : Fin cfg11.N) :
    (dat11 V c).flushed 3 t = ((cfg11.win 3).blk t).view.read (Elt Ideal) (CB (V c (Pipeline.arrRef spec11 2)) (V c (Pipeline.arrRef spec11 0)) (V c (Pipeline.arrRef spec11 1))) := by
  show (cfg11.win 3).cut (grid11.coords t) ((dat11 V c).after 3 t) = _
  rw [after11_3]
  unfold out11_3
  rw [View.canon_unit_zero zero_offsets]
  simp only [View.ld_unit_zero (S := S5000x64) zero_offsets]
  obtain ⟨e0a, e0b, e1a, e1b, e2a, e2b, e3a, e3b⟩ := r11_idx t
  funext j
  show k6_pay1 (F := Ideal) (iblk11 V c 2 t) (iblk11 V c 0 t) (iblk11 V c 1 t) ((cfg11.win 3).xinj (grid11.coords t) j)
      = CB (V c (Pipeline.arrRef spec11 2)) (V c (Pipeline.arrRef spec11 0)) (V c (Pipeline.arrRef spec11 1)) (((cfg11.win 3).blk t).view.emb j)
  refine cb_block (V c (Pipeline.arrRef spec11 2)) (V c (Pipeline.arrRef spec11 0)) (V c (Pipeline.arrRef spec11 1)) (iblk11 V c 2 t) (iblk11 V c 0 t) (iblk11 V c 1 t) t.val
    (fun y i h0 h1 => r11_blk2 V c t y i h0 h1) (fun y i h0 h1 => r11_blk0 V c t y i h0 h1) (fun y i h0 h1 => r11_blk1 V c t y i h0 h1) ((cfg11.win 3).xinj (grid11.coords t) j) (((cfg11.win 3).blk t).view.emb j) ?_ ?_
  · show win11_3.index t (0 : Fin 2) * 5000 + 1 * (j 0).val = t.val * 5000 + (j 0).val; rw [e3a]; omega
  · show win11_3.index t (1 : Fin 2) * 64 + 1 * (j 1).val = (j 1).val; rw [e3b]; omega

/-- An entry of the output array is in point t's block iff each coordinate is in the block's range on its axis. -/
theorem r11_mem_blk (t : Fin cfg11.N) (i : S50000x64.Idx) :
    i ∈ ((cfg11.win 3).blk t).view.set ↔ ∀ a : Fin 2, win11_3.index t a * S5000x64.size a ≤ (i a).val ∧ (i a).val < win11_3.index t a * S5000x64.size a + S5000x64.size a := by
  show i ∈ ((View.whole main_v165).slice (win11_3.rect t)).set ↔ _
  rw [View.set_slice_whole, Rect.mem_set_unit]
  exact Iff.rfl

/-- Every entry of the output array is in some point's block: row r is in the block of point r / 5000. -/
theorem r11_cover (i : S50000x64.Idx) :
    ∃ t : Fin cfg11.N, (cfg11.win 3).flush t = true ∧ i ∈ ((cfg11.win 3).blk t).view.set := by
  have hi0 : (i 0).val < 50000 := (i 0).isLt
  have hi1 : (i 1).val < 64 := (i 1).isLt
  have hN : cfg11.N = 10 := N_11
  obtain ⟨t, ht⟩ : ∃ t : Fin cfg11.N, t.val = (i 0).val / 5000 := ⟨⟨(i 0).val / 5000, by rw [hN]; omega⟩, rfl⟩
  obtain ⟨e0a, e0b, e1a, e1b, e2a, e2b, e3a, e3b⟩ := r11_idx t
  refine ⟨t, flush11_3 t, ?_⟩
  rw [r11_mem_blk]
  intro a
  match a with
  | ⟨0, _⟩ => show win11_3.index t (0 : Fin 2) * 5000 ≤ (i 0).val ∧ (i 0).val < win11_3.index t (0 : Fin 2) * 5000 + 5000; rw [e3a, ht]; omega
  | ⟨1, _⟩ => show win11_3.index t (1 : Fin 2) * 64 ≤ (i 1).val ∧ (i 1).val < win11_3.index t (1 : Fin 2) * 64 + 64; rw [e3b]; omega

/-- THE VALUE OF REGION 11: its output array after the region is the convex combination of its two operands by the third, as the region finds them. -/
theorem region11_value (c : Dev nD) :
    (dat11 V c).arrAt 3 cfg11.N = CB (V c (Pipeline.arrRef spec11 2)) (V c (Pipeline.arrRef spec11 0)) (V c (Pipeline.arrRef spec11 1)) :=
  (dat11 V c).arrAt_eq_of_cover 3 (CB (V c (Pipeline.arrRef spec11 2)) (V c (Pipeline.arrRef spec11 0)) (V c (Pipeline.arrRef spec11 1))) (fun t _ => r11_flushed V c t) r11_cover

end Cert.KernelIdeal.KV

end
-- ==== Proof.KR12.lean ====
/-
  Region 12 of the network's forward pass (a matrix product, rows tiled by 5000 over ten grid points): each point's
  loaded blocks are rows of the arrays the region reads, what the point writes back is its block of one whole-array
  function of those arrays, the ten blocks cover the output array, so the output array ends holding that function.
-/
import proofs.«117928_j61658550502081_1_alg».proof.Proof.Gen.KernelIdeal.Frame
import proofs.«117928_j61658550502081_1_alg».proof.Proof.KBlock
import Idealize.ShloMosaic.Lib.Pipeline.Value

set_option maxRecDepth 16384

noncomputable section

namespace Cert.KernelIdeal.KV

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The index maps of region 12's windows, decided over the ten grid points: a row-blocked window is at block row t,
    block column 0; a window that stages its whole array is at block (0, 0). -/
theorem r12_idx : ∀ t : Fin cfg12.N,
    win12_0.index t (0 : Fin 2) = t.val ∧ win12_0.index t (1 : Fin 2) = 0
    ∧ win12_1.index t (0 : Fin 2) = 0 ∧ win12_1.index t (1 : Fin 2) = 0
    ∧ win12_2.index t (0 : Fin 2) = t.val ∧ win12_2.index t (1 : Fin 2) = 0 :=
  (by decide +kernel : ∀ t : Fin grid12.N, _)

/-- Window 0's block at point t is rows t * 5000 … t * 5000 + 4999 of its array. -/
theorem r12_blk0 (c : Dev nD) (t : Fin cfg12.N) (y : S5000x64.Idx) (i : S50000x64.Idx)
    (h0 : (i 0).val = t.val * 5000 + (y 0).val) (h1 : (i 1).val = (y 1).val) :
    (iblk12 V c 0 t : Vec Ideal S5000x64 .f32) y = (V c (Pipeline.arrRef spec12 0) : Vec Ideal S50000x64 .f32) i := by
  obtain ⟨e0a, e0b, e1a, e1b, e2a, e2b⟩ := r12_idx t
  unfold iblk12
  rw [View.read_apply]
  show (V c (Pipeline.arrRef spec12 0) : Vec Ideal S50000x64 .f32) _ = _
  refine congrArg _ (funext fun a => Fin.ext ?_)
  match a with
  | ⟨0, _⟩ => show win12_0.index t (0 : Fin 2) * 5000 + 1 * (y 0).val = (i 0).val; rw [e0a, h0]; omega
  | ⟨1, _⟩ => show win12_0.index t (1 : Fin 2) * 64 + 1 * (y 1).val = (i 1).val; rw [e0b, h1]; omega

/-- Window 1's block at every point is its whole array. -/
theorem r12_blk1 (c : Dev nD) (t : Fin cfg12.N) :
    (iblk12 V c 1 t : Vec Ideal S64x64 .f32) = (V c (Pipeline.arrRef spec12 1) : Vec Ideal S64x64 .f32) := by
  obtain ⟨e0a, e0b, e1a, e1b, e2a, e2b⟩ := r12_idx t
  funext y
  unfold iblk12
  rw [View.read_apply]
  show (V c (Pipeline.arrRef spec12 1) : Vec Ideal S64x64 .f32) _ = _
  refine congrArg _ (funext fun a => Fin.ext ?_)
  match a with
  | ⟨0, _⟩ => show win12_1.index t (0 : Fin 2) * 64 + 1 * (y 0).val = (y 0).val; rw [e1a]; omega
  | ⟨1, _⟩ => show win12_1.index t (1 : Fin 2) * 64 + 1 * (y 1).val = (y 1).val; rw [e1b]; omega

/-- What point t writes back is block t of the whole-array function: the product of its row-blocked operand with its weight matrix. -/
theorem r12_flushed (c : Dev nD) (t : Fin cfg12.N) :
    (dat12 V c).flushed 2 t = ((cfg12.win 2).blk t).view.read (Elt Ideal) (MM64 (V c (Pipeline.arrRef spec12 0)) (V c (Pipeline.arrRef spec12 1))) := by
  show (cfg12.win 2).cut (grid12.coords t) ((dat12 V c).after 2 t) = _
  rw [after12_2]
  unfold out12_2
  rw [View.canon_unit_zero zero_offsets]
  simp only [View.ld_unit_zero (S := S5000x64) zero_offsets, View.ld_unit_zero (S := S64x64) zero_offsets]
  obtain ⟨e0a, e0b, e1a, e1b, e2a, e2b⟩ := r12_idx t
  funext j
  show k2_pay1 (F := Ideal) (iblk12 V c 0 t) (iblk12 V c 1 t) ((cfg12.win 2).xinj (grid12.coords t) j)
      = MM64 (V c (Pipeline.arrRef spec12 0)) (V c (Pipeline.arrRef spec12 1)) (((cfg12.win 2).blk t).view.emb j)
  refine mm64_block (V c (Pipeline.arrRef spec12 0)) (V c (Pipeline.arrRef spec12 1)) (iblk12 V c 0 t) (iblk12 V c 1 t) t.val
    (fun y i h0 h1 => r12_blk0 V c t y i h0 h1) (r12_blk1 V c t) ((cfg12.win 2).xinj (grid12.coords t) j) (((cfg12.win 2).blk t).view.emb j) ?_ ?_
  · show win12_2.index t (0 : Fin 2) * 5000 + 1 * (j 0).val = t.val * 5000 + (j 0).val; rw [e2a]; omega
  · show win12_2.index t (1 : Fin 2) * 64 + 1 * (j 1).val = (j 1).val; rw [e2b]; omega

/-- An entry of the output array is in point t's block iff each coordinate is in the block's range on its axis. -/
theorem r12_mem_blk (t : Fin cfg12.N) (i : S50000x64.Idx) :
    i ∈ ((cfg12.win 2).blk t).view.set ↔ ∀ a : Fin 2, win12_2.index t a * S5000x64.size a ≤ (i a).val ∧ (i a).val < win12_2.index t a * S5000x64.size a + S5000x64.size a := by
  show i ∈ ((View.whole main_v170).slice (win12_2.rect t)).set ↔ _
  rw [View.set_slice_whole, Rect.mem_set_unit]
  exact Iff.rfl

/-- Every entry of the output array is in some point's block: row r is in the block of point r / 5000. -/
theorem r12_cover (i : S50000x64.Idx) :
    ∃ t : Fin cfg12.N, (cfg12.win 2).flush t = true ∧ i ∈ ((cfg12.win 2).blk t).view.set := by
  have hi0 : (i 0).val < 50000 := (i 0).isLt
  have hi1 : (i 1).val < 64 := (i 1).isLt
  have hN : cfg12.N = 10 := N_12
  obtain ⟨t, ht⟩ : ∃ t : Fin cfg12.N, t.val = (i 0).val / 5000 := ⟨⟨(i 0).val / 5000, by rw [hN]; omega⟩, rfl⟩
  obtain ⟨e0a, e0b, e1a, e1b, e2a, e2b⟩ := r12_idx t
  refine ⟨t, flush12_2 t, ?_⟩
  rw [r12_mem_blk]
  intro a
  match a with
  | ⟨0, _⟩ => show win12_2.index t (0 : Fin 2) * 5000 ≤ (i 0).val ∧ (i 0).val < win12_2.index t (0 : Fin 2) * 5000 + 5000; rw [e2a, ht]; omega
  | ⟨1, _⟩ => show win12_2.index t (1 : Fin 2) * 64 ≤ (i 1).val ∧ (i 1).val < win12_2.index t (1 : Fin 2) * 64 + 64; rw [e2b]; omega

/-- THE VALUE OF REGION 12: its output array after the region is the product of its row-blocked operand with its weight matrix, as the region finds them. -/
theorem region12_value (c : Dev nD) :
    (dat12 V c).arrAt 2 cfg12.N = MM64 (V c (Pipeline.arrRef spec12 0)) (V c (Pipeline.arrRef spec12 1)) :=
  (dat12 V c).arrAt_eq_of_cover 2 (MM64 (V c (Pipeline.arrRef spec12 0)) (V c (Pipeline.arrRef spec12 1))) (fun t _ => r12_flushed V c t) r12_cover

end Cert.KernelIdeal.KV

end
-- ==== Proof.KR13.lean ====
/-
  Region 13 of the network's forward pass (a bias row added and a clamp at zero, rows tiled by 5000 over ten grid points): each point's
  loaded blocks are rows of the arrays the region reads, what the point writes back is its block of one whole-array
  function of those arrays, the ten blocks cover the output array, so the output array ends holding that function.
-/
import proofs.«117928_j61658550502081_1_alg».proof.Proof.Gen.KernelIdeal.Frame
import proofs.«117928_j61658550502081_1_alg».proof.Proof.KBlock
import Idealize.ShloMosaic.Lib.Pipeline.Value

set_option maxRecDepth 16384

noncomputable section

namespace Cert.KernelIdeal.KV

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The index maps of region 13's windows, decided over the ten grid points: a row-blocked window is at block row t,
    block column 0; a window that stages its whole array is at block (0, 0). -/
theorem r13_idx : ∀ t : Fin cfg13.N,
    win13_0.index t (0 : Fin 2) = t.val ∧ win13_0.index t (1 : Fin 2) = 0
    ∧ win13_1.index t (0 : Fin 2) = 0 ∧ win13_1.index t (1 : Fin 2) = 0
    ∧ win13_2.index t (0 : Fin 2) = t.val ∧ win13_2.index t (1 : Fin 2) = 0 :=
  (by decide +kernel : ∀ t : Fin grid13.N, _)

/-- Window 0's block at point t is rows t * 5000 … t * 5000 + 4999 of its array. -/
theorem r13_blk0 (c : Dev nD) (t : Fin cfg13.N) (y : S5000x64.Idx) (i : S50000x64.Idx)
    (h0 : (i 0).val = t.val * 5000 + (y 0).val) (h1 : (i 1).val = (y 1).val) :
    (iblk13 V c 0 t : Vec Ideal S5000x64 .f32) y = (V c (Pipeline.arrRef spec13 0) : Vec Ideal S50000x64 .f32) i := by
  obtain ⟨e0a, e0b, e1a, e1b, e2a, e2b⟩ := r13_idx t
  unfold iblk13
  rw [View.read_apply]
  show (V c (Pipeline.arrRef spec13 0) : Vec Ideal S50000x64 .f32) _ = _
  refine congrArg _ (funext fun a => Fin.ext ?_)
  match a with
  | ⟨0, _⟩ => show win13_0.index t (0 : Fin 2) * 5000 + 1 * (y 0).val = (i 0).val; rw [e0a, h0]; omega
  | ⟨1, _⟩ => show win13_0.index t (1 : Fin 2) * 64 + 1 * (y 1).val = (i 1).val; rw [e0b, h1]; omega

/-- Window 1's block at every point is its whole array. -/
theorem r13_blk1 (c : Dev nD) (t : Fin cfg13.N) :
    (iblk13 V c 1 t : Vec Ideal S1x64 .f32) = (V c (Pipeline.arrRef spec13 1) : Vec Ideal S1x64 .f32) := by
  obtain ⟨e0a, e0b, e1a, e1b, e2a, e2b⟩ := r13_idx t
  funext y
  unfold iblk13
  rw [View.read_apply]
  show (V c (Pipeline.arrRef spec13 1) : Vec Ideal S1x64 .f32) _ = _
  refine congrArg _ (funext fun a => Fin.ext ?_)
  match a with
  | ⟨0, _⟩ => show win13_1.index t (0 : Fin 2) * 1 + 1 * (y 0).val = (y 0).val; rw [e1a]; omega
  | ⟨1, _⟩ => show win13_1.index t (1 : Fin 2) * 64 + 1 * (y 1).val = (y 1).val; rw [e1b]; omega

/-- What point t writes back is block t of the whole-array function: its operand with the bias row added to every row, clamped below at zero. -/
theorem r13_flushed (c : Dev nD) (t : Fin cfg13.N) :
    (dat13 V c).flushed 2 t = ((cfg13.win 2).blk t).view.read (Elt Ideal) (BR (V c (Pipeline.arrRef spec13 0)) (V c (Pipeline.arrRef spec13 1))) := by
  show (cfg13.win 2).cut (grid13.coords t) ((dat13 V c).after 2 t) = _
  rw [after13_2]
  unfold out13_2
  rw [View.canon_unit_zero zero_offsets]
  simp only [View.ld_unit_zero (S := S5000x64) zero_offsets, View.ld_unit_zero (S := S1x64) zero_offsets]
  obtain ⟨e0a, e0b, e1a, e1b, e2a, e2b⟩ := r13_idx t
  funext j
  show k1_pay1 (F := Ideal) (iblk13 V c 0 t) (iblk13 V c 1 t) ((cfg13.win 2).xinj (grid13.coords t) j)
      = BR (V c (Pipeline.arrRef spec13 0)) (V c (Pipeline.arrRef spec13 1)) (((cfg13.win 2).blk t).view.emb j)
  refine br_block (V c (Pipeline.arrRef spec13 0)) (V c (Pipeline.arrRef spec13 1)) (iblk13 V c 0 t) (iblk13 V c 1 t) t.val
    (fun y i h0 h1 => r13_blk0 V c t y i h0 h1) (r13_blk1 V c t) ((cfg13.win 2).xinj (grid13.coords t) j) (((cfg13.win 2).blk t).view.emb j) ?_ ?_
  · show win13_2.index t (0 : Fin 2) * 5000 + 1 * (j 0).val = t.val * 5000 + (j 0).val; rw [e2a]; omega
  · show win13_2.index t (1 : Fin 2) * 64 + 1 * (j 1).val = (j 1).val; rw [e2b]; omega

/-- An entry of the output array is in point t's block iff each coordinate is in the block's range on its axis. -/
theorem r13_mem_blk (t : Fin cfg13.N) (i : S50000x64.Idx) :
    i ∈ ((cfg13.win 2).blk t).view.set ↔ ∀ a : Fin 2, win13_2.index t a * S5000x64.size a ≤ (i a).val ∧ (i a).val < win13_2.index t a * S5000x64.size a + S5000x64.size a := by
  show i ∈ ((View.whole main_v185).slice (win13_2.rect t)).set ↔ _
  rw [View.set_slice_whole, Rect.mem_set_unit]
  exact Iff.rfl

/-- Every entry of the output array is in some point's block: row r is in the block of point r / 5000. -/
theorem r13_cover (i : S50000x64.Idx) :
    ∃ t : Fin cfg13.N, (cfg13.win 2).flush t = true ∧ i ∈ ((cfg13.win 2).blk t).view.set := by
  have hi0 : (i 0).val < 50000 := (i 0).isLt
  have hi1 : (i 1).val < 64 := (i 1).isLt
  have hN : cfg13.N = 10 := N_13
  obtain ⟨t, ht⟩ : ∃ t : Fin cfg13.N, t.val = (i 0).val / 5000 := ⟨⟨(i 0).val / 5000, by rw [hN]; omega⟩, rfl⟩
  obtain ⟨e0a, e0b, e1a, e1b, e2a, e2b⟩ := r13_idx t
  refine ⟨t, flush13_2 t, ?_⟩
  rw [r13_mem_blk]
  intro a
  match a with
  | ⟨0, _⟩ => show win13_2.index t (0 : Fin 2) * 5000 ≤ (i 0).val ∧ (i 0).val < win13_2.index t (0 : Fin 2) * 5000 + 5000; rw [e2a, ht]; omega
  | ⟨1, _⟩ => show win13_2.index t (1 : Fin 2) * 64 ≤ (i 1).val ∧ (i 1).val < win13_2.index t (1 : Fin 2) * 64 + 64; rw [e2b]; omega

/-- THE VALUE OF REGION 13: its output array after the region is its operand with the bias row added to every row, clamped below at zero, as the region finds them. -/
theorem region13_value (c : Dev nD) :
    (dat13 V c).arrAt 2 cfg13.N = BR (V c (Pipeline.arrRef spec13 0)) (V c (Pipeline.arrRef spec13 1)) :=
  (dat13 V c).arrAt_eq_of_cover 2 (BR (V c (Pipeline.arrRef spec13 0)) (V c (Pipeline.arrRef spec13 1))) (fun t _ => r13_flushed V c t) r13_cover

end Cert.KernelIdeal.KV

end
-- ==== Proof.KR14.lean ====
/-
  Region 14 of the network's forward pass (a matrix product, rows tiled by 5000 over ten grid points): each point's
  loaded blocks are rows of the arrays the region reads, what the point writes back is its block of one whole-array
  function of those arrays, the ten blocks cover the output array, so the output array ends holding that function.
-/
import proofs.«117928_j61658550502081_1_alg».proof.Proof.Gen.KernelIdeal.Frame
import proofs.«117928_j61658550502081_1_alg».proof.Proof.KBlock
import Idealize.ShloMosaic.Lib.Pipeline.Value

set_option maxRecDepth 16384

noncomputable section

namespace Cert.KernelIdeal.KV

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The index maps of region 14's windows, decided over the ten grid points: a row-blocked window is at block row t,
    block column 0; a window that stages its whole array is at block (0, 0). -/
theorem r14_idx : ∀ t : Fin cfg14.N,
    win14_0.index t (0 : Fin 2) = t.val ∧ win14_0.index t (1 : Fin 2) = 0
    ∧ win14_1.index t (0 : Fin 2) = 0 ∧ win14_1.index t (1 : Fin 2) = 0
    ∧ win14_2.index t (0 : Fin 2) = t.val ∧ win14_2.index t (1 : Fin 2) = 0 :=
  (by decide +kernel : ∀ t : Fin grid14.N, _)

/-- Window 0's block at point t is rows t * 5000 … t * 5000 + 4999 of its array. -/
theorem r14_blk0 (c : Dev nD) (t : Fin cfg14.N) (y : S5000x64.Idx) (i : S50000x64.Idx)
    (h0 : (i 0).val = t.val * 5000 + (y 0).val) (h1 : (i 1).val = (y 1).val) :
    (iblk14 V c 0 t : Vec Ideal S5000x64 .f32) y = (V c (Pipeline.arrRef spec14 0) : Vec Ideal S50000x64 .f32) i := by
  obtain ⟨e0a, e0b, e1a, e1b, e2a, e2b⟩ := r14_idx t
  unfold iblk14
  rw [View.read_apply]
  show (V c (Pipeline.arrRef spec14 0) : Vec Ideal S50000x64 .f32) _ = _
  refine congrArg _ (funext fun a => Fin.ext ?_)
  match a with
  | ⟨0, _⟩ => show win14_0.index t (0 : Fin 2) * 5000 + 1 * (y 0).val = (i 0).val; rw [e0a, h0]; omega
  | ⟨1, _⟩ => show win14_0.index t (1 : Fin 2) * 64 + 1 * (y 1).val = (i 1).val; rw [e0b, h1]; omega

/-- Window 1's block at every point is its whole array. -/
theorem r14_blk1 (c : Dev nD) (t : Fin cfg14.N) :
    (iblk14 V c 1 t : Vec Ideal S64x64 .f32) = (V c (Pipeline.arrRef spec14 1) : Vec Ideal S64x64 .f32) := by
  obtain ⟨e0a, e0b, e1a, e1b, e2a, e2b⟩ := r14_idx t
  funext y
  unfold iblk14
  rw [View.read_apply]
  show (V c (Pipeline.arrRef spec14 1) : Vec Ideal S64x64 .f32) _ = _
  refine congrArg _ (funext fun a => Fin.ext ?_)
  match a with
  | ⟨0, _⟩ => show win14_1.index t (0 : Fin 2) * 64 + 1 * (y 0).val = (y 0).val; rw [e1a]; omega
  | ⟨1, _⟩ => show win14_1.index t (1 : Fin 2) * 64 + 1 * (y 1).val = (y 1).val; rw [e1b]; omega

/-- What point t writes back is block t of the whole-array function: the product of its row-blocked operand with its weight matrix. -/
theorem r14_flushed (c : Dev nD) (t : Fin cfg14.N) :
    (dat14 V c).flushed 2 t = ((cfg14.win 2).blk t).view.read (Elt Ideal) (MM64 (V c (Pipeline.arrRef spec14 0)) (V c (Pipeline.arrRef spec14 1))) := by
  show (cfg14.win 2).cut (grid14.coords t) ((dat14 V c).after 2 t) = _
  rw [after14_2]
  unfold out14_2
  rw [View.canon_unit_zero zero_offsets]
  simp only [View.ld_unit_zero (S := S5000x64) zero_offsets, View.ld_unit_zero (S := S64x64) zero_offsets]
  obtain ⟨e0a, e0b, e1a, e1b, e2a, e2b⟩ := r14_idx t
  funext j
  show k2_pay1 (F := Ideal) (iblk14 V c 0 t) (iblk14 V c 1 t) ((cfg14.win 2).xinj (grid14.coords t) j)
      = MM64 (V c (Pipeline.arrRef spec14 0)) (V c (Pipeline.arrRef spec14 1)) (((cfg14.win 2).blk t).view.emb j)
  refine mm64_block (V c (Pipeline.arrRef spec14 0)) (V c (Pipeline.arrRef spec14 1)) (iblk14 V c 0 t) (iblk14 V c 1 t) t.val
    (fun y i h0 h1 => r14_blk0 V c t y i h0 h1) (r14_blk1 V c t) ((cfg14.win 2).xinj (grid14.coords t) j) (((cfg14.win 2).blk t).view.emb j) ?_ ?_
  · show win14_2.index t (0 : Fin 2) * 5000 + 1 * (j 0).val = t.val * 5000 + (j 0).val; rw [e2a]; omega
  · show win14_2.index t (1 : Fin 2) * 64 + 1 * (j 1).val = (j 1).val; rw [e2b]; omega

/-- An entry of the output array is in point t's block iff each coordinate is in the block's range on its axis. -/
theorem r14_mem_blk (t : Fin cfg14.N) (i : S50000x64.Idx) :
    i ∈ ((cfg14.win 2).blk t).view.set ↔ ∀ a : Fin 2, win14_2.index t a * S5000x64.size a ≤ (i a).val ∧ (i a).val < win14_2.index t a * S5000x64.size a + S5000x64.size a := by
  show i ∈ ((View.whole main_v190).slice (win14_2.rect t)).set ↔ _
  rw [View.set_slice_whole, Rect.mem_set_unit]
  exact Iff.rfl

/-- Every entry of the output array is in some point's block: row r is in the block of point r / 5000. -/
theorem r14_cover (i : S50000x64.Idx) :
    ∃ t : Fin cfg14.N, (cfg14.win 2).flush t = true ∧ i ∈ ((cfg14.win 2).blk t).view.set := by
  have hi0 : (i 0).val < 50000 := (i 0).isLt
  have hi1 : (i 1).val < 64 := (i 1).isLt
  have hN : cfg14.N = 10 := N_14
  obtain ⟨t, ht⟩ : ∃ t : Fin cfg14.N, t.val = (i 0).val / 5000 := ⟨⟨(i 0).val / 5000, by rw [hN]; omega⟩, rfl⟩
  obtain ⟨e0a, e0b, e1a, e1b, e2a, e2b⟩ := r14_idx t
  refine ⟨t, flush14_2 t, ?_⟩
  rw [r14_mem_blk]
  intro a
  match a with
  | ⟨0, _⟩ => show win14_2.index t (0 : Fin 2) * 5000 ≤ (i 0).val ∧ (i 0).val < win14_2.index t (0 : Fin 2) * 5000 + 5000; rw [e2a, ht]; omega
  | ⟨1, _⟩ => show win14_2.index t (1 : Fin 2) * 64 ≤ (i 1).val ∧ (i 1).val < win14_2.index t (1 : Fin 2) * 64 + 64; rw [e2b]; omega

/-- THE VALUE OF REGION 14: its output array after the region is the product of its row-blocked operand with its weight matrix, as the region finds them. -/
theorem region14_value (c : Dev nD) :
    (dat14 V c).arrAt 2 cfg14.N = MM64 (V c (Pipeline.arrRef spec14 0)) (V c (Pipeline.arrRef spec14 1)) :=
  (dat14 V c).arrAt_eq_of_cover 2 (MM64 (V c (Pipeline.arrRef spec14 0)) (V c (Pipeline.arrRef spec14 1))) (fun t _ => r14_flushed V c t) r14_cover

end Cert.KernelIdeal.KV

end
-- ==== Proof.KR15.lean ====
/-
  Region 15 of the network's forward pass (a bias row added and a clamp at zero, rows tiled by 5000 over ten grid points): each point's
  loaded blocks are rows of the arrays the region reads, what the point writes back is its block of one whole-array
  function of those arrays, the ten blocks cover the output array, so the output array ends holding that function.
-/
import proofs.«117928_j61658550502081_1_alg».proof.Proof.Gen.KernelIdeal.Frame
import proofs.«117928_j61658550502081_1_alg».proof.Proof.KBlock
import Idealize.ShloMosaic.Lib.Pipeline.Value

set_option maxRecDepth 16384

noncomputable section

namespace Cert.KernelIdeal.KV

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The index maps of region 15's windows, decided over the ten grid points: a row-blocked window is at block row t,
    block column 0; a window that stages its whole array is at block (0, 0). -/
theorem r15_idx : ∀ t : Fin cfg15.N,
    win15_0.index t (0 : Fin 2) = t.val ∧ win15_0.index t (1 : Fin 2) = 0
    ∧ win15_1.index t (0 : Fin 2) = 0 ∧ win15_1.index t (1 : Fin 2) = 0
    ∧ win15_2.index t (0 : Fin 2) = t.val ∧ win15_2.index t (1 : Fin 2) = 0 :=
  (by decide +kernel : ∀ t : Fin grid15.N, _)

/-- Window 0's block at point t is rows t * 5000 … t * 5000 + 4999 of its array. -/
theorem r15_blk0 (c : Dev nD) (t : Fin cfg15.N) (y : S5000x64.Idx) (i : S50000x64.Idx)
    (h0 : (i 0).val = t.val * 5000 + (y 0).val) (h1 : (i 1).val = (y 1).val) :
    (iblk15 V c 0 t : Vec Ideal S5000x64 .f32) y = (V c (Pipeline.arrRef spec15 0) : Vec Ideal S50000x64 .f32) i := by
  obtain ⟨e0a, e0b, e1a, e1b, e2a, e2b⟩ := r15_idx t
  unfold iblk15
  rw [View.read_apply]
  show (V c (Pipeline.arrRef spec15 0) : Vec Ideal S50000x64 .f32) _ = _
  refine congrArg _ (funext fun a => Fin.ext ?_)
  match a with
  | ⟨0, _⟩ => show win15_0.index t (0 : Fin 2) * 5000 + 1 * (y 0).val = (i 0).val; rw [e0a, h0]; omega
  | ⟨1, _⟩ => show win15_0.index t (1 : Fin 2) * 64 + 1 * (y 1).val = (i 1).val; rw [e0b, h1]; omega

/-- Window 1's block at every point is its whole array. -/
theorem r15_blk1 (c : Dev nD) (t : Fin cfg15.N) :
    (iblk15 V c 1 t : Vec Ideal S1x64 .f32) = (V c (Pipeline.arrRef spec15 1) : Vec Ideal S1x64 .f32) := by
  obtain ⟨e0a, e0b, e1a, e1b, e2a, e2b⟩ := r15_idx t
  funext y
  unfold iblk15
  rw [View.read_apply]
  show (V c (Pipeline.arrRef spec15 1) : Vec Ideal S1x64 .f32) _ = _
  refine congrArg _ (funext fun a => Fin.ext ?_)
  match a with
  | ⟨0, _⟩ => show win15_1.index t (0 : Fin 2) * 1 + 1 * (y 0).val = (y 0).val; rw [e1a]; omega
  | ⟨1, _⟩ => show win15_1.index t (1 : Fin 2) * 64 + 1 * (y 1).val = (y 1).val; rw [e1b]; omega

/-- What point t writes back is block t of the whole-array function: its operand with the bias row added to every row, clamped below at zero. -/
theorem r15_flushed (c : Dev nD) (t : Fin cfg15.N) :
    (dat15 V c).flushed 2 t = ((cfg15.win 2).blk t).view.read (Elt Ideal) (BR (V c (Pipeline.arrRef spec15 0)) (V c (Pipeline.arrRef spec15 1))) := by
  show (cfg15.win 2).cut (grid15.coords t) ((dat15 V c).after 2 t) = _
  rw [after15_2]
  unfold out15_2
  rw [View.canon_unit_zero zero_offsets]
  simp only [View.ld_unit_zero (S := S5000x64) zero_offsets, View.ld_unit_zero (S := S1x64) zero_offsets]
  obtain ⟨e0a, e0b, e1a, e1b, e2a, e2b⟩ := r15_idx t
  funext j
  show k1_pay1 (F := Ideal) (iblk15 V c 0 t) (iblk15 V c 1 t) ((cfg15.win 2).xinj (grid15.coords t) j)
      = BR (V c (Pipeline.arrRef spec15 0)) (V c (Pipeline.arrRef spec15 1)) (((cfg15.win 2).blk t).view.emb j)
  refine br_block (V c (Pipeline.arrRef spec15 0)) (V c (Pipeline.arrRef spec15 1)) (iblk15 V c 0 t) (iblk15 V c 1 t) t.val
    (fun y i h0 h1 => r15_blk0 V c t y i h0 h1) (r15_blk1 V c t) ((cfg15.win 2).xinj (grid15.coords t) j) (((cfg15.win 2).blk t).view.emb j) ?_ ?_
  · show win15_2.index t (0 : Fin 2) * 5000 + 1 * (j 0).val = t.val * 5000 + (j 0).val; rw [e2a]; omega
  · show win15_2.index t (1 : Fin 2) * 64 + 1 * (j 1).val = (j 1).val; rw [e2b]; omega

/-- An entry of the output array is in point t's block iff each coordinate is in the block's range on its axis. -/
theorem r15_mem_blk (t : Fin cfg15.N) (i : S50000x64.Idx) :
    i ∈ ((cfg15.win 2).blk t).view.set ↔ ∀ a : Fin 2, win15_2.index t a * S5000x64.size a ≤ (i a).val ∧ (i a).val < win15_2.index t a * S5000x64.size a + S5000x64.size a := by
  show i ∈ ((View.whole main_v205).slice (win15_2.rect t)).set ↔ _
  rw [View.set_slice_whole, Rect.mem_set_unit]
  exact Iff.rfl

/-- Every entry of the output array is in some point's block: row r is in the block of point r / 5000. -/
theorem r15_cover (i : S50000x64.Idx) :
    ∃ t : Fin cfg15.N, (cfg15.win 2).flush t = true ∧ i ∈ ((cfg15.win 2).blk t).view.set := by
  have hi0 : (i 0).val < 50000 := (i 0).isLt
  have hi1 : (i 1).val < 64 := (i 1).isLt
  have hN : cfg15.N = 10 := N_15
  obtain ⟨t, ht⟩ : ∃ t : Fin cfg15.N, t.val = (i 0).val / 5000 := ⟨⟨(i 0).val / 5000, by rw [hN]; omega⟩, rfl⟩
  obtain ⟨e0a, e0b, e1a, e1b, e2a, e2b⟩ := r15_idx t
  refine ⟨t, flush15_2 t, ?_⟩
  rw [r15_mem_blk]
  intro a
  match a with
  | ⟨0, _⟩ => show win15_2.index t (0 : Fin 2) * 5000 ≤ (i 0).val ∧ (i 0).val < win15_2.index t (0 : Fin 2) * 5000 + 5000; rw [e2a, ht]; omega
  | ⟨1, _⟩ => show win15_2.index t (1 : Fin 2) * 64 ≤ (i 1).val ∧ (i 1).val < win15_2.index t (1 : Fin 2) * 64 + 64; rw [e2b]; omega

/-- THE VALUE OF REGION 15: its output array after the region is its operand with the bias row added to every row, clamped below at zero, as the region finds them. -/
theorem region15_value (c : Dev nD) :
    (dat15 V c).arrAt 2 cfg15.N = BR (V c (Pipeline.arrRef spec15 0)) (V c (Pipeline.arrRef spec15 1)) :=
  (dat15 V c).arrAt_eq_of_cover 2 (BR (V c (Pipeline.arrRef spec15 0)) (V c (Pipeline.arrRef spec15 1))) (fun t _ => r15_flushed V c t) r15_cover

end Cert.KernelIdeal.KV

end
-- ==== Proof.KR16.lean ====
/-
  Region 16 of the network's forward pass (a convex combination, rows tiled by 5000 over ten grid points): each point's
  loaded blocks are rows of the arrays the region reads, what the point writes back is its block of one whole-array
  function of those arrays, the ten blocks cover the output array, so the output array ends holding that function.
-/
import proofs.«117928_j61658550502081_1_alg».proof.Proof.Gen.KernelIdeal.Frame
import proofs.«117928_j61658550502081_1_alg».proof.Proof.KBlock
import Idealize.ShloMosaic.Lib.Pipeline.Value

set_option maxRecDepth 16384

noncomputable section

namespace Cert.KernelIdeal.KV

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The index maps of region 16's windows, decided over the ten grid points: a row-blocked window is at block row t,
    block column 0; a window that stages its whole array is at block (0, 0). -/
theorem r16_idx : ∀ t : Fin cfg16.N,
    win16_0.index t (0 : Fin 2) = t.val ∧ win16_0.index t (1 : Fin 2) = 0
    ∧ win16_1.index t (0 : Fin 2) = t.val ∧ win16_1.index t (1 : Fin 2) = 0
    ∧ win16_2.index t (0 : Fin 2) = t.val ∧ win16_2.index t (1 : Fin 2) = 0
    ∧ win16_3.index t (0 : Fin 2) = t.val ∧ win16_3.index t (1 : Fin 2) = 0 :=
  (by decide +kernel : ∀ t : Fin grid16.N, _)

/-- Window 0's block at point t is rows t * 5000 … t * 5000 + 4999 of its array. -/
theorem r16_blk0 (c : Dev nD) (t : Fin cfg16.N) (y : S5000x64.Idx) (i : S50000x64.Idx)
    (h0 : (i 0).val = t.val * 5000 + (y 0).val) (h1 : (i 1).val = (y 1).val) :
    (iblk16 V c 0 t : Vec Ideal S5000x64 .f32) y = (V c (Pipeline.arrRef spec16 0) : Vec Ideal S50000x64 .f32) i := by
  obtain ⟨e0a, e0b, e1a, e1b, e2a, e2b, e3a, e3b⟩ := r16_idx t
  unfold iblk16
  rw [View.read_apply]
  show (V c (Pipeline.arrRef spec16 0) : Vec Ideal S50000x64 .f32) _ = _
  refine congrArg _ (funext fun a => Fin.ext ?_)
  match a with
  | ⟨0, _⟩ => show win16_0.index t (0 : Fin 2) * 5000 + 1 * (y 0).val = (i 0).val; rw [e0a, h0]; omega
  | ⟨1, _⟩ => show win16_0.index t (1 : Fin 2) * 64 + 1 * (y 1).val = (i 1).val; rw [e0b, h1]; omega

/-- Window 1's block at point t is rows t * 5000 … t * 5000 + 4999 of its array. -/
theorem r16_blk1 (c : Dev nD) (t : Fin cfg16.N) (y : S5000x64.Idx) (i : S50000x64.Idx)
    (h0 : (i 0).val = t.val * 5000 + (y 0).val) (h1 : (i 1).val = (y 1).val) :
    (iblk16 V c 1 t : Vec Ideal S5000x64 .f32) y = (V c (Pipeline.arrRef spec16 1) : Vec Ideal S50000x64 .f32) i := by
  obtain ⟨e0a, e0b, e1a, e1b, e2a, e2b, e3a, e3b⟩ := r16_idx t
  unfold iblk16
  rw [View.read_apply]
  show (V c (Pipeline.arrRef spec16 1) : Vec Ideal S50000x64 .f32) _ = _
  refine congrArg _ (funext fun a => Fin.ext ?_)
  match a with
  | ⟨0, _⟩ => show win16_1.index t (0 : Fin 2) * 5000 + 1 * (y 0).val = (i 0).val; rw [e1a, h0]; omega
  | ⟨1, _⟩ => show win16_1.index t (1 : Fin 2) * 64 + 1 * (y 1).val = (i 1).val; rw [e1b, h1]; omega

/-- Window 2's block at point t is rows t * 5000 … t * 5000 + 4999 of its array. -/
theorem r16_blk2 (c : Dev nD) (t : Fin cfg16.N) (y : S5000x64.Idx) (i : S50000x64.Idx)
    (h0 : (i 0).val = t.val * 5000 + (y 0).val) (h1 : (i 1).val = (y 1).val) :
    (iblk16 V c 2 t : Vec Ideal S5000x64 .f32) y = (V c (Pipeline.arrRef spec16 2) : Vec Ideal S50000x64 .f32) i := by
  obtain ⟨e0a, e0b, e1a, e1b, e2a, e2b, e3a, e3b⟩ := r16_idx t
  unfold iblk16
  rw [View.read_apply]
  show (V c (Pipeline.arrRef spec16 2) : Vec Ideal S50000x64 .f32) _ = _
  refine congrArg _ (funext fun a => Fin.ext ?_)
  match a with
  | ⟨0, _⟩ => show win16_2.index t (0 : Fin 2) * 5000 + 1 * (y 0).val = (i 0).val; rw [e2a, h0]; omega
  | ⟨1, _⟩ => show win16_2.index t (1 : Fin 2) * 64 + 1 * (y 1).val = (i 1).val; rw [e2b, h1]; omega

/-- What point t writes back is block t of the whole-array function: the convex combination of its two operands by the third. -/
theorem r16_flushed (c : Dev nD) (t : Fin cfg16.N) :
    (dat16 V c).flushed 3 t = ((cfg16.win 3).blk t).view.read (Elt Ideal) (CB (V c (Pipeline.arrRef spec16 2)) (V c (Pipeline.arrRef spec16 0)) (V c (Pipeline.arrRef spec16 1))) := by
  show (cfg16.win 3).cut (grid16.coords t) ((dat16 V c).after 3 t) = _
  rw [after16_3]
  unfold out16_3
  rw [View.canon_unit_zero zero_offsets]
  simp only [View.ld_unit_zero (S := S5000x64) zero_offsets]
  obtain ⟨e0a, e0b, e1a, e1b, e2a, e2b, e3a, e3b⟩ := r16_idx t
  funext j
  show k6_pay1 (F := Ideal) (iblk16 V c 2 t) (iblk16 V c 0 t) (iblk16 V c 1 t) ((cfg16.win 3).xinj (grid16.coords t) j)
      = CB (V c (Pipeline.arrRef spec16 2)) (V c (Pipeline.arrRef spec16 0)) (V c (Pipeline.arrRef spec16 1)) (((cfg16.win 3).blk t).view.emb j)
  refine cb_block (V c (Pipeline.arrRef spec16 2)) (V c (Pipeline.arrRef spec16 0)) (V c (Pipeline.arrRef spec16 1)) (iblk16 V c 2 t) (iblk16 V c 0 t) (iblk16 V c 1 t) t.val
    (fun y i h0 h1 => r16_blk2 V c t y i h0 h1) (fun y i h0 h1 => r16_blk0 V c t y i h0 h1) (fun y i h0 h1 => r16_blk1 V c t y i h0 h1) ((cfg16.win 3).xinj (grid16.coords t) j) (((cfg16.win 3).blk t).view.emb j) ?_ ?_
  · show win16_3.index t (0 : Fin 2) * 5000 + 1 * (j 0).val = t.val * 5000 + (j 0).val; rw [e3a]; omega
  · show win16_3.index t (1 : Fin 2) * 64 + 1 * (j 1).val = (j 1).val; rw [e3b]; omega

/-- An entry of the output array is in point t's block iff each coordinate is in the block's range on its axis. -/
theorem r16_mem_blk (t : Fin cfg16.N) (i : S50000x64.Idx) :
    i ∈ ((cfg16.win 3).blk t).view.set ↔ ∀ a : Fin 2, win16_3.index t a * S5000x64.size a ≤ (i a).val ∧ (i a).val < win16_3.index t a * S5000x64.size a + S5000x64.size a := by
  show i ∈ ((View.whole main_v229).slice (win16_3.rect t)).set ↔ _
  rw [View.set_slice_whole, Rect.mem_set_unit]
  exact Iff.rfl

/-- Every entry of the output array is in some point's block: row r is in the block of point r / 5000. -/
theorem r16_cover (i : S50000x64.Idx) :
    ∃ t : Fin cfg16.N, (cfg16.win 3).flush t = true ∧ i ∈ ((cfg16.win 3).blk t).view.set := by
  have hi0 : (i 0).val < 50000 := (i 0).isLt
  have hi1 : (i 1).val < 64 := (i 1).isLt
  have hN : cfg16.N = 10 := N_16
  obtain ⟨t, ht⟩ : ∃ t : Fin cfg16.N, t.val = (i 0).val / 5000 := ⟨⟨(i 0).val / 5000, by rw [hN]; omega⟩, rfl⟩
  obtain ⟨e0a, e0b, e1a, e1b, e2a, e2b, e3a, e3b⟩ := r16_idx t
  refine ⟨t, flush16_3 t, ?_⟩
  rw [r16_mem_blk]
  intro a
  match a with
  | ⟨0, _⟩ => show win16_3.index t (0 : Fin 2) * 5000 ≤ (i 0).val ∧ (i 0).val < win16_3.index t (0 : Fin 2) * 5000 + 5000; rw [e3a, ht]; omega
  | ⟨1, _⟩ => show win16_3.index t (1 : Fin 2) * 64 ≤ (i 1).val ∧ (i 1).val < win16_3.index t (1 : Fin 2) * 64 + 64; rw [e3b]; omega

/-- THE VALUE OF REGION 16: its output array after the region is the convex combination of its two operands by the third, as the region finds them. -/
theorem region16_value (c : Dev nD) :
    (dat16 V c).arrAt 3 cfg16.N = CB (V c (Pipeline.arrRef spec16 2)) (V c (Pipeline.arrRef spec16 0)) (V c (Pipeline.arrRef spec16 1)) :=
  (dat16 V c).arrAt_eq_of_cover 3 (CB (V c (Pipeline.arrRef spec16 2)) (V c (Pipeline.arrRef spec16 0)) (V c (Pipeline.arrRef spec16 1))) (fun t _ => r16_flushed V c t) r16_cover

end Cert.KernelIdeal.KV

end
-- ==== Proof.KR17.lean ====
/-
  Region 17 of the network's forward pass (a matrix product, rows tiled by 5000 over ten grid points): each point's
  loaded blocks are rows of the arrays the region reads, what the point writes back is its block of one whole-array
  function of those arrays, the ten blocks cover the output array, so the output array ends holding that function.
-/
import proofs.«117928_j61658550502081_1_alg».proof.Proof.Gen.KernelIdeal.Frame
import proofs.«117928_j61658550502081_1_alg».proof.Proof.KBlock
import Idealize.ShloMosaic.Lib.Pipeline.Value

set_option maxRecDepth 16384

noncomputable section

namespace Cert.KernelIdeal.KV

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The index maps of region 17's windows, decided over the ten grid points: a row-blocked window is at block row t,
    block column 0; a window that stages its whole array is at block (0, 0). -/
theorem r17_idx : ∀ t : Fin cfg17.N,
    win17_0.index t (0 : Fin 2) = t.val ∧ win17_0.index t (1 : Fin 2) = 0
    ∧ win17_1.index t (0 : Fin 2) = 0 ∧ win17_1.index t (1 : Fin 2) = 0
    ∧ win17_2.index t (0 : Fin 2) = t.val ∧ win17_2.index t (1 : Fin 2) = 0 :=
  (by decide +kernel : ∀ t : Fin grid17.N, _)

/-- Window 0's block at point t is rows t * 5000 … t * 5000 + 4999 of its array. -/
theorem r17_blk0 (c : Dev nD) (t : Fin cfg17.N) (y : S5000x64.Idx) (i : S50000x64.Idx)
    (h0 : (i 0).val = t.val * 5000 + (y 0).val) (h1 : (i 1).val = (y 1).val) :
    (iblk17 V c 0 t : Vec Ideal S5000x64 .f32) y = (V c (Pipeline.arrRef spec17 0) : Vec Ideal S50000x64 .f32) i := by
  obtain ⟨e0a, e0b, e1a, e1b, e2a, e2b⟩ := r17_idx t
  unfold iblk17
  rw [View.read_apply]
  show (V c (Pipeline.arrRef spec17 0) : Vec Ideal S50000x64 .f32) _ = _
  refine congrArg _ (funext fun a => Fin.ext ?_)
  match a with
  | ⟨0, _⟩ => show win17_0.index t (0 : Fin 2) * 5000 + 1 * (y 0).val = (i 0).val; rw [e0a, h0]; omega
  | ⟨1, _⟩ => show win17_0.index t (1 : Fin 2) * 64 + 1 * (y 1).val = (i 1).val; rw [e0b, h1]; omega

/-- Window 1's block at every point is its whole array. -/
theorem r17_blk1 (c : Dev nD) (t : Fin cfg17.N) :
    (iblk17 V c 1 t : Vec Ideal S64x64 .f32) = (V c (Pipeline.arrRef spec17 1) : Vec Ideal S64x64 .f32) := by
  obtain ⟨e0a, e0b, e1a, e1b, e2a, e2b⟩ := r17_idx t
  funext y
  unfold iblk17
  rw [View.read_apply]
  show (V c (Pipeline.arrRef spec17 1) : Vec Ideal S64x64 .f32) _ = _
  refine congrArg _ (funext fun a => Fin.ext ?_)
  match a with
  | ⟨0, _⟩ => show win17_1.index t (0 : Fin 2) * 64 + 1 * (y 0).val = (y 0).val; rw [e1a]; omega
  | ⟨1, _⟩ => show win17_1.index t (1 : Fin 2) * 64 + 1 * (y 1).val = (y 1).val; rw [e1b]; omega

/-- What point t writes back is block t of the whole-array function: the product of its row-blocked operand with its weight matrix. -/
theorem r17_flushed (c : Dev nD) (t : Fin cfg17.N) :
    (dat17 V c).flushed 2 t = ((cfg17.win 2).blk t).view.read (Elt Ideal) (MM64 (V c (Pipeline.arrRef spec17 0)) (V c (Pipeline.arrRef spec17 1))) := by
  show (cfg17.win 2).cut (grid17.coords t) ((dat17 V c).after 2 t) = _
  rw [after17_2]
  unfold out17_2
  rw [View.canon_unit_zero zero_offsets]
  simp only [View.ld_unit_zero (S := S5000x64) zero_offsets, View.ld_unit_zero (S := S64x64) zero_offsets]
  obtain ⟨e0a, e0b, e1a, e1b, e2a, e2b⟩ := r17_idx t
  funext j
  show k2_pay1 (F := Ideal) (iblk17 V c 0 t) (iblk17 V c 1 t) ((cfg17.win 2).xinj (grid17.coords t) j)
      = MM64 (V c (Pipeline.arrRef spec17 0)) (V c (Pipeline.arrRef spec17 1)) (((cfg17.win 2).blk t).view.emb j)
  refine mm64_block (V c (Pipeline.arrRef spec17 0)) (V c (Pipeline.arrRef spec17 1)) (iblk17 V c 0 t) (iblk17 V c 1 t) t.val
    (fun y i h0 h1 => r17_blk0 V c t y i h0 h1) (r17_blk1 V c t) ((cfg17.win 2).xinj (grid17.coords t) j) (((cfg17.win 2).blk t).view.emb j) ?_ ?_
  · show win17_2.index t (0 : Fin 2) * 5000 + 1 * (j 0).val = t.val * 5000 + (j 0).val; rw [e2a]; omega
  · show win17_2.index t (1 : Fin 2) * 64 + 1 * (j 1).val = (j 1).val; rw [e2b]; omega

/-- An entry of the output array is in point t's block iff each coordinate is in the block's range on its axis. -/
theorem r17_mem_blk (t : Fin cfg17.N) (i : S50000x64.Idx) :
    i ∈ ((cfg17.win 2).blk t).view.set ↔ ∀ a : Fin 2, win17_2.index t a * S5000x64.size a ≤ (i a).val ∧ (i a).val < win17_2.index t a * S5000x64.size a + S5000x64.size a := by
  show i ∈ ((View.whole main_v234).slice (win17_2.rect t)).set ↔ _
  rw [View.set_slice_whole, Rect.mem_set_unit]
  exact Iff.rfl

/-- Every entry of the output array is in some point's block: row r is in the block of point r / 5000. -/
theorem r17_cover (i : S50000x64.Idx) :
    ∃ t : Fin cfg17.N, (cfg17.win 2).flush t = true ∧ i ∈ ((cfg17.win 2).blk t).view.set := by
  have hi0 : (i 0).val < 50000 := (i 0).isLt
  have hi1 : (i 1).val < 64 := (i 1).isLt
  have hN : cfg17.N = 10 := N_17
  obtain ⟨t, ht⟩ : ∃ t : Fin cfg17.N, t.val = (i 0).val / 5000 := ⟨⟨(i 0).val / 5000, by rw [hN]; omega⟩, rfl⟩
  obtain ⟨e0a, e0b, e1a, e1b, e2a, e2b⟩ := r17_idx t
  refine ⟨t, flush17_2 t, ?_⟩
  rw [r17_mem_blk]
  intro a
  match a with
  | ⟨0, _⟩ => show win17_2.index t (0 : Fin 2) * 5000 ≤ (i 0).val ∧ (i 0).val < win17_2.index t (0 : Fin 2) * 5000 + 5000; rw [e2a, ht]; omega
  | ⟨1, _⟩ => show win17_2.index t (1 : Fin 2) * 64 ≤ (i 1).val ∧ (i 1).val < win17_2.index t (1 : Fin 2) * 64 + 64; rw [e2b]; omega

/-- THE VALUE OF REGION 17: its output array after the region is the product of its row-blocked operand with its weight matrix, as the region finds them. -/
theorem region17_value (c : Dev nD) :
    (dat17 V c).arrAt 2 cfg17.N = MM64 (V c (Pipeline.arrRef spec17 0)) (V c (Pipeline.arrRef spec17 1)) :=
  (dat17 V c).arrAt_eq_of_cover 2 (MM64 (V c (Pipeline.arrRef spec17 0)) (V c (Pipeline.arrRef spec17 1))) (fun t _ => r17_flushed V c t) r17_cover

end Cert.KernelIdeal.KV

end
-- ==== Proof.KR18.lean ====
/-
  Region 18 of the network's forward pass (a bias row added and a clamp at zero, rows tiled by 5000 over ten grid points): each point's
  loaded blocks are rows of the arrays the region reads, what the point writes back is its block of one whole-array
  function of those arrays, the ten blocks cover the output array, so the output array ends holding that function.
-/
import proofs.«117928_j61658550502081_1_alg».proof.Proof.Gen.KernelIdeal.Frame
import proofs.«117928_j61658550502081_1_alg».proof.Proof.KBlock
import Idealize.ShloMosaic.Lib.Pipeline.Value

set_option maxRecDepth 16384

noncomputable section

namespace Cert.KernelIdeal.KV

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The index maps of region 18's windows, decided over the ten grid points: a row-blocked window is at block row t,
    block column 0; a window that stages its whole array is at block (0, 0). -/
theorem r18_idx : ∀ t : Fin cfg18.N,
    win18_0.index t (0 : Fin 2) = t.val ∧ win18_0.index t (1 : Fin 2) = 0
    ∧ win18_1.index t (0 : Fin 2) = 0 ∧ win18_1.index t (1 : Fin 2) = 0
    ∧ win18_2.index t (0 : Fin 2) = t.val ∧ win18_2.index t (1 : Fin 2) = 0 :=
  (by decide +kernel : ∀ t : Fin grid18.N, _)

/-- Window 0's block at point t is rows t * 5000 … t * 5000 + 4999 of its array. -/
theorem r18_blk0 (c : Dev nD) (t : Fin cfg18.N) (y : S5000x64.Idx) (i : S50000x64.Idx)
    (h0 : (i 0).val = t.val * 5000 + (y 0).val) (h1 : (i 1).val = (y 1).val) :
    (iblk18 V c 0 t : Vec Ideal S5000x64 .f32) y = (V c (Pipeline.arrRef spec18 0) : Vec Ideal S50000x64 .f32) i := by
  obtain ⟨e0a, e0b, e1a, e1b, e2a, e2b⟩ := r18_idx t
  unfold iblk18
  rw [View.read_apply]
  show (V c (Pipeline.arrRef spec18 0) : Vec Ideal S50000x64 .f32) _ = _
  refine congrArg _ (funext fun a => Fin.ext ?_)
  match a with
  | ⟨0, _⟩ => show win18_0.index t (0 : Fin 2) * 5000 + 1 * (y 0).val = (i 0).val; rw [e0a, h0]; omega
  | ⟨1, _⟩ => show win18_0.index t (1 : Fin 2) * 64 + 1 * (y 1).val = (i 1).val; rw [e0b, h1]; omega

/-- Window 1's block at every point is its whole array. -/
theorem r18_blk1 (c : Dev nD) (t : Fin cfg18.N) :
    (iblk18 V c 1 t : Vec Ideal S1x64 .f32) = (V c (Pipeline.arrRef spec18 1) : Vec Ideal S1x64 .f32) := by
  obtain ⟨e0a, e0b, e1a, e1b, e2a, e2b⟩ := r18_idx t
  funext y
  unfold iblk18
  rw [View.read_apply]
  show (V c (Pipeline.arrRef spec18 1) : Vec Ideal S1x64 .f32) _ = _
  refine congrArg _ (funext fun a => Fin.ext ?_)
  match a with
  | ⟨0, _⟩ => show win18_1.index t (0 : Fin 2) * 1 + 1 * (y 0).val = (y 0).val; rw [e1a]; omega
  | ⟨1, _⟩ => show win18_1.index t (1 : Fin 2) * 64 + 1 * (y 1).val = (y 1).val; rw [e1b]; omega

/-- What point t writes back is block t of the whole-array function: its operand with the bias row added to every row, clamped below at zero. -/
theorem r18_flushed (c : Dev nD) (t : Fin cfg18.N) :
    (dat18 V c).flushed 2 t = ((cfg18.win 2).blk t).view.read (Elt Ideal) (BR (V c (Pipeline.arrRef spec18 0)) (V c (Pipeline.arrRef spec18 1))) := by
  show (cfg18.win 2).cut (grid18.coords t) ((dat18 V c).after 2 t) = _
  rw [after18_2]
  unfold out18_2
  rw [View.canon_unit_zero zero_offsets]
  simp only [View.ld_unit_zero (S := S5000x64) zero_offsets, View.ld_unit_zero (S := S1x64) zero_offsets]
  obtain ⟨e0a, e0b, e1a, e1b, e2a, e2b⟩ := r18_idx t
  funext j
  show k1_pay1 (F := Ideal) (iblk18 V c 0 t) (iblk18 V c 1 t) ((cfg18.win 2).xinj (grid18.coords t) j)
      = BR (V c (Pipeline.arrRef spec18 0)) (V c (Pipeline.arrRef spec18 1)) (((cfg18.win 2).blk t).view.emb j)
  refine br_block (V c (Pipeline.arrRef spec18 0)) (V c (Pipeline.arrRef spec18 1)) (iblk18 V c 0 t) (iblk18 V c 1 t) t.val
    (fun y i h0 h1 => r18_blk0 V c t y i h0 h1) (r18_blk1 V c t) ((cfg18.win 2).xinj (grid18.coords t) j) (((cfg18.win 2).blk t).view.emb j) ?_ ?_
  · show win18_2.index t (0 : Fin 2) * 5000 + 1 * (j 0).val = t.val * 5000 + (j 0).val; rw [e2a]; omega
  · show win18_2.index t (1 : Fin 2) * 64 + 1 * (j 1).val = (j 1).val; rw [e2b]; omega

/-- An entry of the output array is in point t's block iff each coordinate is in the block's range on its axis. -/
theorem r18_mem_blk (t : Fin cfg18.N) (i : S50000x64.Idx) :
    i ∈ ((cfg18.win 2).blk t).view.set ↔ ∀ a : Fin 2, win18_2.index t a * S5000x64.size a ≤ (i a).val ∧ (i a).val < win18_2.index t a * S5000x64.size a + S5000x64.size a := by
  show i ∈ ((View.whole main_v249).slice (win18_2.rect t)).set ↔ _
  rw [View.set_slice_whole, Rect.mem_set_unit]
  exact Iff.rfl

/-- Every entry of the output array is in some point's block: row r is in the block of point r / 5000. -/
theorem r18_cover (i : S50000x64.Idx) :
    ∃ t : Fin cfg18.N, (cfg18.win 2).flush t = true ∧ i ∈ ((cfg18.win 2).blk t).view.set := by
  have hi0 : (i 0).val < 50000 := (i 0).isLt
  have hi1 : (i 1).val < 64 := (i 1).isLt
  have hN : cfg18.N = 10 := N_18
  obtain ⟨t, ht⟩ : ∃ t : Fin cfg18.N, t.val = (i 0).val / 5000 := ⟨⟨(i 0).val / 5000, by rw [hN]; omega⟩, rfl⟩
  obtain ⟨e0a, e0b, e1a, e1b, e2a, e2b⟩ := r18_idx t
  refine ⟨t, flush18_2 t, ?_⟩
  rw [r18_mem_blk]
  intro a
  match a with
  | ⟨0, _⟩ => show win18_2.index t (0 : Fin 2) * 5000 ≤ (i 0).val ∧ (i 0).val < win18_2.index t (0 : Fin 2) * 5000 + 5000; rw [e2a, ht]; omega
  | ⟨1, _⟩ => show win18_2.index t (1 : Fin 2) * 64 ≤ (i 1).val ∧ (i 1).val < win18_2.index t (1 : Fin 2) * 64 + 64; rw [e2b]; omega

/-- THE VALUE OF REGION 18: its output array after the region is its operand with the bias row added to every row, clamped below at zero, as the region finds them. -/
theorem region18_value (c : Dev nD) :
    (dat18 V c).arrAt 2 cfg18.N = BR (V c (Pipeline.arrRef spec18 0)) (V c (Pipeline.arrRef spec18 1)) :=
  (dat18 V c).arrAt_eq_of_cover 2 (BR (V c (Pipeline.arrRef spec18 0)) (V c (Pipeline.arrRef spec18 1))) (fun t _ => r18_flushed V c t) r18_cover

end Cert.KernelIdeal.KV

end
-- ==== Proof.KR19.lean ====
/-
  Region 19 of the network's forward pass (a matrix product, rows tiled by 5000 over ten grid points): each point's
  loaded blocks are rows of the arrays the region reads, what the point writes back is its block of one whole-array
  function of those arrays, the ten blocks cover the output array, so the output array ends holding that function.
-/
import proofs.«117928_j61658550502081_1_alg».proof.Proof.Gen.KernelIdeal.Frame
import proofs.«117928_j61658550502081_1_alg».proof.Proof.KBlock
import Idealize.ShloMosaic.Lib.Pipeline.Value

set_option maxRecDepth 16384

noncomputable section

namespace Cert.KernelIdeal.KV

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The index maps of region 19's windows, decided over the ten grid points: a row-blocked window is at block row t,
    block column 0; a window that stages its whole array is at block (0, 0). -/
theorem r19_idx : ∀ t : Fin cfg19.N,
    win19_0.index t (0 : Fin 2) = t.val ∧ win19_0.index t (1 : Fin 2) = 0
    ∧ win19_1.index t (0 : Fin 2) = 0 ∧ win19_1.index t (1 : Fin 2) = 0
    ∧ win19_2.index t (0 : Fin 2) = t.val ∧ win19_2.index t (1 : Fin 2) = 0 :=
  (by decide +kernel : ∀ t : Fin grid19.N, _)

/-- Window 0's block at point t is rows t * 5000 … t * 5000 + 4999 of its array. -/
theorem r19_blk0 (c : Dev nD) (t : Fin cfg19.N) (y : S5000x64.Idx) (i : S50000x64.Idx)
    (h0 : (i 0).val = t.val * 5000 + (y 0).val) (h1 : (i 1).val = (y 1).val) :
    (iblk19 V c 0 t : Vec Ideal S5000x64 .f32) y = (V c (Pipeline.arrRef spec19 0) : Vec Ideal S50000x64 .f32) i := by
  obtain ⟨e0a, e0b, e1a, e1b, e2a, e2b⟩ := r19_idx t
  unfold iblk19
  rw [View.read_apply]
  show (V c (Pipeline.arrRef spec19 0) : Vec Ideal S50000x64 .f32) _ = _
  refine congrArg _ (funext fun a => Fin.ext ?_)
  match a with
  | ⟨0, _⟩ => show win19_0.index t (0 : Fin 2) * 5000 + 1 * (y 0).val = (i 0).val; rw [e0a, h0]; omega
  | ⟨1, _⟩ => show win19_0.index t (1 : Fin 2) * 64 + 1 * (y 1).val = (i 1).val; rw [e0b, h1]; omega

/-- Window 1's block at every point is its whole array. -/
theorem r19_blk1 (c : Dev nD) (t : Fin cfg19.N) :
    (iblk19 V c 1 t : Vec Ideal S64x64 .f32) = (V c (Pipeline.arrRef spec19 1) : Vec Ideal S64x64 .f32) := by
  obtain ⟨e0a, e0b, e1a, e1b, e2a, e2b⟩ := r19_idx t
  funext y
  unfold iblk19
  rw [View.read_apply]
  show (V c (Pipeline.arrRef spec19 1) : Vec Ideal S64x64 .f32) _ = _
  refine congrArg _ (funext fun a => Fin.ext ?_)
  match a with
  | ⟨0, _⟩ => show win19_1.index t (0 : Fin 2) * 64 + 1 * (y 0).val = (y 0).val; rw [e1a]; omega
  | ⟨1, _⟩ => show win19_1.index t (1 : Fin 2) * 64 + 1 * (y 1).val = (y 1).val; rw [e1b]; omega

/-- What point t writes back is block t of the whole-array function: the product of its row-blocked operand with its weight matrix. -/
theorem r19_flushed (c : Dev nD) (t : Fin cfg19.N) :
    (dat19 V c).flushed 2 t = ((cfg19.win 2).blk t).view.read (Elt Ideal) (MM64 (V c (Pipeline.arrRef spec19 0)) (V c (Pipeline.arrRef spec19 1))) := by
  show (cfg19.win 2).cut (grid19.coords t) ((dat19 V c).after 2 t) = _
  rw [after19_2]
  unfold out19_2
  rw [View.canon_unit_zero zero_offsets]
  simp only [View.ld_unit_zero (S := S5000x64) zero_offsets, View.ld_unit_zero (S := S64x64) zero_offsets]
  obtain ⟨e0a, e0b, e1a, e1b, e2a, e2b⟩ := r19_idx t
  funext j
  show k2_pay1 (F := Ideal) (iblk19 V c 0 t) (iblk19 V c 1 t) ((cfg19.win 2).xinj (grid19.coords t) j)
      = MM64 (V c (Pipeline.arrRef spec19 0)) (V c (Pipeline.arrRef spec19 1)) (((cfg19.win 2).blk t).view.emb j)
  refine mm64_block (V c (Pipeline.arrRef spec19 0)) (V c (Pipeline.arrRef spec19 1)) (iblk19 V c 0 t) (iblk19 V c 1 t) t.val
    (fun y i h0 h1 => r19_blk0 V c t y i h0 h1) (r19_blk1 V c t) ((cfg19.win 2).xinj (grid19.coords t) j) (((cfg19.win 2).blk t).view.emb j) ?_ ?_
  · show win19_2.index t (0 : Fin 2) * 5000 + 1 * (j 0).val = t.val * 5000 + (j 0).val; rw [e2a]; omega
  · show win19_2.index t (1 : Fin 2) * 64 + 1 * (j 1).val = (j 1).val; rw [e2b]; omega

/-- An entry of the output array is in point t's block iff each coordinate is in the block's range on its axis. -/
theorem r19_mem_blk (t : Fin cfg19.N) (i : S50000x64.Idx) :
    i ∈ ((cfg19.win 2).blk t).view.set ↔ ∀ a : Fin 2, win19_2.index t a * S5000x64.size a ≤ (i a).val ∧ (i a).val < win19_2.index t a * S5000x64.size a + S5000x64.size a := by
  show i ∈ ((View.whole main_v254).slice (win19_2.rect t)).set ↔ _
  rw [View.set_slice_whole, Rect.mem_set_unit]
  exact Iff.rfl

/-- Every entry of the output array is in some point's block: row r is in the block of point r / 5000. -/
theorem r19_cover (i : S50000x64.Idx) :
    ∃ t : Fin cfg19.N, (cfg19.win 2).flush t = true ∧ i ∈ ((cfg19.win 2).blk t).view.set := by
  have hi0 : (i 0).val < 50000 := (i 0).isLt
  have hi1 : (i 1).val < 64 := (i 1).isLt
  have hN : cfg19.N = 10 := N_19
  obtain ⟨t, ht⟩ : ∃ t : Fin cfg19.N, t.val = (i 0).val / 5000 := ⟨⟨(i 0).val / 5000, by rw [hN]; omega⟩, rfl⟩
  obtain ⟨e0a, e0b, e1a, e1b, e2a, e2b⟩ := r19_idx t
  refine ⟨t, flush19_2 t, ?_⟩
  rw [r19_mem_blk]
  intro a
  match a with
  | ⟨0, _⟩ => show win19_2.index t (0 : Fin 2) * 5000 ≤ (i 0).val ∧ (i 0).val < win19_2.index t (0 : Fin 2) * 5000 + 5000; rw [e2a, ht]; omega
  | ⟨1, _⟩ => show win19_2.index t (1 : Fin 2) * 64 ≤ (i 1).val ∧ (i 1).val < win19_2.index t (1 : Fin 2) * 64 + 64; rw [e2b]; omega

/-- THE VALUE OF REGION 19: its output array after the region is the product of its row-blocked operand with its weight matrix, as the region finds them. -/
theorem region19_value (c : Dev nD) :
    (dat19 V c).arrAt 2 cfg19.N = MM64 (V c (Pipeline.arrRef spec19 0)) (V c (Pipeline.arrRef spec19 1)) :=
  (dat19 V c).arrAt_eq_of_cover 2 (MM64 (V c (Pipeline.arrRef spec19 0)) (V c (Pipeline.arrRef spec19 1))) (fun t _ => r19_flushed V c t) r19_cover

end Cert.KernelIdeal.KV

end
-- ==== Proof.KR20.lean ====
/-
  Region 20 of the network's forward pass (a bias row added and a clamp at zero, rows tiled by 5000 over ten grid points): each point's
  loaded blocks are rows of the arrays the region reads, what the point writes back is its block of one whole-array
  function of those arrays, the ten blocks cover the output array, so the output array ends holding that function.
-/
import proofs.«117928_j61658550502081_1_alg».proof.Proof.Gen.KernelIdeal.Frame
import proofs.«117928_j61658550502081_1_alg».proof.Proof.KBlock
import Idealize.ShloMosaic.Lib.Pipeline.Value

set_option maxRecDepth 16384

noncomputable section

namespace Cert.KernelIdeal.KV

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The index maps of region 20's windows, decided over the ten grid points: a row-blocked window is at block row t,
    block column 0; a window that stages its whole array is at block (0, 0). -/
theorem r20_idx : ∀ t : Fin cfg20.N,
    win20_0.index t (0 : Fin 2) = t.val ∧ win20_0.index t (1 : Fin 2) = 0
    ∧ win20_1.index t (0 : Fin 2) = 0 ∧ win20_1.index t (1 : Fin 2) = 0
    ∧ win20_2.index t (0 : Fin 2) = t.val ∧ win20_2.index t (1 : Fin 2) = 0 :=
  (by decide +kernel : ∀ t : Fin grid20.N, _)

/-- Window 0's block at point t is rows t * 5000 … t * 5000 + 4999 of its array. -/
theorem r20_blk0 (c : Dev nD) (t : Fin cfg20.N) (y : S5000x64.Idx) (i : S50000x64.Idx)
    (h0 : (i 0).val = t.val * 5000 + (y 0).val) (h1 : (i 1).val = (y 1).val) :
    (iblk20 V c 0 t : Vec Ideal S5000x64 .f32) y = (V c (Pipeline.arrRef spec20 0) : Vec Ideal S50000x64 .f32) i := by
  obtain ⟨e0a, e0b, e1a, e1b, e2a, e2b⟩ := r20_idx t
  unfold iblk20
  rw [View.read_apply]
  show (V c (Pipeline.arrRef spec20 0) : Vec Ideal S50000x64 .f32) _ = _
  refine congrArg _ (funext fun a => Fin.ext ?_)
  match a with
  | ⟨0, _⟩ => show win20_0.index t (0 : Fin 2) * 5000 + 1 * (y 0).val = (i 0).val; rw [e0a, h0]; omega
  | ⟨1, _⟩ => show win20_0.index t (1 : Fin 2) * 64 + 1 * (y 1).val = (i 1).val; rw [e0b, h1]; omega

/-- Window 1's block at every point is its whole array. -/
theorem r20_blk1 (c : Dev nD) (t : Fin cfg20.N) :
    (iblk20 V c 1 t : Vec Ideal S1x64 .f32) = (V c (Pipeline.arrRef spec20 1) : Vec Ideal S1x64 .f32) := by
  obtain ⟨e0a, e0b, e1a, e1b, e2a, e2b⟩ := r20_idx t
  funext y
  unfold iblk20
  rw [View.read_apply]
  show (V c (Pipeline.arrRef spec20 1) : Vec Ideal S1x64 .f32) _ = _
  refine congrArg _ (funext fun a => Fin.ext ?_)
  match a with
  | ⟨0, _⟩ => show win20_1.index t (0 : Fin 2) * 1 + 1 * (y 0).val = (y 0).val; rw [e1a]; omega
  | ⟨1, _⟩ => show win20_1.index t (1 : Fin 2) * 64 + 1 * (y 1).val = (y 1).val; rw [e1b]; omega

/-- What point t writes back is block t of the whole-array function: its operand with the bias row added to every row, clamped below at zero. -/
theorem r20_flushed (c : Dev nD) (t : Fin cfg20.N) :
    (dat20 V c).flushed 2 t = ((cfg20.win 2).blk t).view.read (Elt Ideal) (BR (V c (Pipeline.arrRef spec20 0)) (V c (Pipeline.arrRef spec20 1))) := by
  show (cfg20.win 2).cut (grid20.coords t) ((dat20 V c).after 2 t) = _
  rw [after20_2]
  unfold out20_2
  rw [View.canon_unit_zero zero_offsets]
  simp only [View.ld_unit_zero (S := S5000x64) zero_offsets, View.ld_unit_zero (S := S1x64) zero_offsets]
  obtain ⟨e0a, e0b, e1a, e1b, e2a, e2b⟩ := r20_idx t
  funext j
  show k1_pay1 (F := Ideal) (iblk20 V c 0 t) (iblk20 V c 1 t) ((cfg20.win 2).xinj (grid20.coords t) j)
      = BR (V c (Pipeline.arrRef spec20 0)) (V c (Pipeline.arrRef spec20 1)) (((cfg20.win 2).blk t).view.emb j)
  refine br_block (V c (Pipeline.arrRef spec20 0)) (V c (Pipeline.arrRef spec20 1)) (iblk20 V c 0 t) (iblk20 V c 1 t) t.val
    (fun y i h0 h1 => r20_blk0 V c t y i h0 h1) (r20_blk1 V c t) ((cfg20.win 2).xinj (grid20.coords t) j) (((cfg20.win 2).blk t).view.emb j) ?_ ?_
  · show win20_2.index t (0 : Fin 2) * 5000 + 1 * (j 0).val = t.val * 5000 + (j 0).val; rw [e2a]; omega
  · show win20_2.index t (1 : Fin 2) * 64 + 1 * (j 1).val = (j 1).val; rw [e2b]; omega

/-- An entry of the output array is in point t's block iff each coordinate is in the block's range on its axis. -/
theorem r20_mem_blk (t : Fin cfg20.N) (i : S50000x64.Idx) :
    i ∈ ((cfg20.win 2).blk t).view.set ↔ ∀ a : Fin 2, win20_2.index t a * S5000x64.size a ≤ (i a).val ∧ (i a).val < win20_2.index t a * S5000x64.size a + S5000x64.size a := by
  show i ∈ ((View.whole main_v269).slice (win20_2.rect t)).set ↔ _
  rw [View.set_slice_whole, Rect.mem_set_unit]
  exact Iff.rfl

/-- Every entry of the output array is in some point's block: row r is in the block of point r / 5000. -/
theorem r20_cover (i : S50000x64.Idx) :
    ∃ t : Fin cfg20.N, (cfg20.win 2).flush t = true ∧ i ∈ ((cfg20.win 2).blk t).view.set := by
  have hi0 : (i 0).val < 50000 := (i 0).isLt
  have hi1 : (i 1).val < 64 := (i 1).isLt
  have hN : cfg20.N = 10 := N_20
  obtain ⟨t, ht⟩ : ∃ t : Fin cfg20.N, t.val = (i 0).val / 5000 := ⟨⟨(i 0).val / 5000, by rw [hN]; omega⟩, rfl⟩
  obtain ⟨e0a, e0b, e1a, e1b, e2a, e2b⟩ := r20_idx t
  refine ⟨t, flush20_2 t, ?_⟩
  rw [r20_mem_blk]
  intro a
  match a with
  | ⟨0, _⟩ => show win20_2.index t (0 : Fin 2) * 5000 ≤ (i 0).val ∧ (i 0).val < win20_2.index t (0 : Fin 2) * 5000 + 5000; rw [e2a, ht]; omega
  | ⟨1, _⟩ => show win20_2.index t (1 : Fin 2) * 64 ≤ (i 1).val ∧ (i 1).val < win20_2.index t (1 : Fin 2) * 64 + 64; rw [e2b]; omega

/-- THE VALUE OF REGION 20: its output array after the region is its operand with the bias row added to every row, clamped below at zero, as the region finds them. -/
theorem region20_value (c : Dev nD) :
    (dat20 V c).arrAt 2 cfg20.N = BR (V c (Pipeline.arrRef spec20 0)) (V c (Pipeline.arrRef spec20 1)) :=
  (dat20 V c).arrAt_eq_of_cover 2 (BR (V c (Pipeline.arrRef spec20 0)) (V c (Pipeline.arrRef spec20 1))) (fun t _ => r20_flushed V c t) r20_cover

end Cert.KernelIdeal.KV

end
-- ==== Proof.KR21.lean ====
/-
  Region 21 of the network's forward pass (a convex combination, rows tiled by 5000 over ten grid points): each point's
  loaded blocks are rows of the arrays the region reads, what the point writes back is its block of one whole-array
  function of those arrays, the ten blocks cover the output array, so the output array ends holding that function.
-/
import proofs.«117928_j61658550502081_1_alg».proof.Proof.Gen.KernelIdeal.Frame
import proofs.«117928_j61658550502081_1_alg».proof.Proof.KBlock
import Idealize.ShloMosaic.Lib.Pipeline.Value

set_option maxRecDepth 16384

noncomputable section

namespace Cert.KernelIdeal.KV

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The index maps of region 21's windows, decided over the ten grid points: a row-blocked window is at block row t,
    block column 0; a window that stages its whole array is at block (0, 0). -/
theorem r21_idx : ∀ t : Fin cfg21.N,
    win21_0.index t (0 : Fin 2) = t.val ∧ win21_0.index t (1 : Fin 2) = 0
    ∧ win21_1.index t (0 : Fin 2) = t.val ∧ win21_1.index t (1 : Fin 2) = 0
    ∧ win21_2.index t (0 : Fin 2) = t.val ∧ win21_2.index t (1 : Fin 2) = 0
    ∧ win21_3.index t (0 : Fin 2) = t.val ∧ win21_3.index t (1 : Fin 2) = 0 :=
  (by decide +kernel : ∀ t : Fin grid21.N, _)

/-- Window 0's block at point t is rows t * 5000 … t * 5000 + 4999 of its array. -/
theorem r21_blk0 (c : Dev nD) (t : Fin cfg21.N) (y : S5000x64.Idx) (i : S50000x64.Idx)
    (h0 : (i 0).val = t.val * 5000 + (y 0).val) (h1 : (i 1).val = (y 1).val) :
    (iblk21 V c 0 t : Vec Ideal S5000x64 .f32) y = (V c (Pipeline.arrRef spec21 0) : Vec Ideal S50000x64 .f32) i := by
  obtain ⟨e0a, e0b, e1a, e1b, e2a, e2b, e3a, e3b⟩ := r21_idx t
  unfold iblk21
  rw [View.read_apply]
  show (V c (Pipeline.arrRef spec21 0) : Vec Ideal S50000x64 .f32) _ = _
  refine congrArg _ (funext fun a => Fin.ext ?_)
  match a with
  | ⟨0, _⟩ => show win21_0.index t (0 : Fin 2) * 5000 + 1 * (y 0).val = (i 0).val; rw [e0a, h0]; omega
  | ⟨1, _⟩ => show win21_0.index t (1 : Fin 2) * 64 + 1 * (y 1).val = (i 1).val; rw [e0b, h1]; omega

/-- Window 1's block at point t is rows t * 5000 … t * 5000 + 4999 of its array. -/
theorem r21_blk1 (c : Dev nD) (t : Fin cfg21.N) (y : S5000x64.Idx) (i : S50000x64.Idx)
    (h0 : (i 0).val = t.val * 5000 + (y 0).val) (h1 : (i 1).val = (y 1).val) :
    (iblk21 V c 1 t : Vec Ideal S5000x64 .f32) y = (V c (Pipeline.arrRef spec21 1) : Vec Ideal S50000x64 .f32) i := by
  obtain ⟨e0a, e0b, e1a, e1b, e2a, e2b, e3a, e3b⟩ := r21_idx t
  unfold iblk21
  rw [View.read_apply]
  show (V c (Pipeline.arrRef spec21 1) : Vec Ideal S50000x64 .f32) _ = _
  refine congrArg _ (funext fun a => Fin.ext ?_)
  match a with
  | ⟨0, _⟩ => show win21_1.index t (0 : Fin 2) * 5000 + 1 * (y 0).val = (i 0).val; rw [e1a, h0]; omega
  | ⟨1, _⟩ => show win21_1.index t (1 : Fin 2) * 64 + 1 * (y 1).val = (i 1).val; rw [e1b, h1]; omega

/-- Window 2's block at point t is rows t * 5000 … t * 5000 + 4999 of its array. -/
theorem r21_blk2 (c : Dev nD) (t : Fin cfg21.N) (y : S5000x64.Idx) (i : S50000x64.Idx)
    (h0 : (i 0).val = t.val * 5000 + (y 0).val) (h1 : (i 1).val = (y 1).val) :
    (iblk21 V c 2 t : Vec Ideal S5000x64 .f32) y = (V c (Pipeline.arrRef spec21 2) : Vec Ideal S50000x64 .f32) i := by
  obtain ⟨e0a, e0b, e1a, e1b, e2a, e2b, e3a, e3b⟩ := r21_idx t
  unfold iblk21
  rw [View.read_apply]
  show (V c (Pipeline.arrRef spec21 2) : Vec Ideal S50000x64 .f32) _ = _
  refine congrArg _ (funext fun a => Fin.ext ?_)
  match a with
  | ⟨0, _⟩ => show win21_2.index t (0 : Fin 2) * 5000 + 1 * (y 0).val = (i 0).val; rw [e2a, h0]; omega
  | ⟨1, _⟩ => show win21_2.index t (1 : Fin 2) * 64 + 1 * (y 1).val = (i 1).val; rw [e2b, h1]; omega

/-- What point t writes back is block t of the whole-array function: the convex combination of its two operands by the third. -/
theorem r21_flushed (c : Dev nD) (t : Fin cfg21.N) :
    (dat21 V c).flushed 3 t = ((cfg21.win 3).blk t).view.read (Elt Ideal) (CB (V c (Pipeline.arrRef spec21 2)) (V c (Pipeline.arrRef spec21 0)) (V c (Pipeline.arrRef spec21 1))) := by
  show (cfg21.win 3).cut (grid21.coords t) ((dat21 V c).after 3 t) = _
  rw [after21_3]
  unfold out21_3
  rw [View.canon_unit_zero zero_offsets]
  simp only [View.ld_unit_zero (S := S5000x64) zero_offsets]
  obtain ⟨e0a, e0b, e1a, e1b, e2a, e2b, e3a, e3b⟩ := r21_idx t
  funext j
  show k6_pay1 (F := Ideal) (iblk21 V c 2 t) (iblk21 V c 0 t) (iblk21 V c 1 t) ((cfg21.win 3).xinj (grid21.coords t) j)
      = CB (V c (Pipeline.arrRef spec21 2)) (V c (Pipeline.arrRef spec21 0)) (V c (Pipeline.arrRef spec21 1)) (((cfg21.win 3).blk t).view.emb j)
  refine cb_block (V c (Pipeline.arrRef spec21 2)) (V c (Pipeline.arrRef spec21 0)) (V c (Pipeline.arrRef spec21 1)) (iblk21 V c 2 t) (iblk21 V c 0 t) (iblk21 V c 1 t) t.val
    (fun y i h0 h1 => r21_blk2 V c t y i h0 h1) (fun y i h0 h1 => r21_blk0 V c t y i h0 h1) (fun y i h0 h1 => r21_blk1 V c t y i h0 h1) ((cfg21.win 3).xinj (grid21.coords t) j) (((cfg21.win 3).blk t).view.emb j) ?_ ?_
  · show win21_3.index t (0 : Fin 2) * 5000 + 1 * (j 0).val = t.val * 5000 + (j 0).val; rw [e3a]; omega
  · show win21_3.index t (1 : Fin 2) * 64 + 1 * (j 1).val = (j 1).val; rw [e3b]; omega

/-- An entry of the output array is in point t's block iff each coordinate is in the block's range on its axis. -/
theorem r21_mem_blk (t : Fin cfg21.N) (i : S50000x64.Idx) :
    i ∈ ((cfg21.win 3).blk t).view.set ↔ ∀ a : Fin 2, win21_3.index t a * S5000x64.size a ≤ (i a).val ∧ (i a).val < win21_3.index t a * S5000x64.size a + S5000x64.size a := by
  show i ∈ ((View.whole main_v293).slice (win21_3.rect t)).set ↔ _
  rw [View.set_slice_whole, Rect.mem_set_unit]
  exact Iff.rfl

/-- Every entry of the output array is in some point's block: row r is in the block of point r / 5000. -/
theorem r21_cover (i : S50000x64.Idx) :
    ∃ t : Fin cfg21.N, (cfg21.win 3).flush t = true ∧ i ∈ ((cfg21.win 3).blk t).view.set := by
  have hi0 : (i 0).val < 50000 := (i 0).isLt
  have hi1 : (i 1).val < 64 := (i 1).isLt
  have hN : cfg21.N = 10 := N_21
  obtain ⟨t, ht⟩ : ∃ t : Fin cfg21.N, t.val = (i 0).val / 5000 := ⟨⟨(i 0).val / 5000, by rw [hN]; omega⟩, rfl⟩
  obtain ⟨e0a, e0b, e1a, e1b, e2a, e2b, e3a, e3b⟩ := r21_idx t
  refine ⟨t, flush21_3 t, ?_⟩
  rw [r21_mem_blk]
  intro a
  match a with
  | ⟨0, _⟩ => show win21_3.index t (0 : Fin 2) * 5000 ≤ (i 0).val ∧ (i 0).val < win21_3.index t (0 : Fin 2) * 5000 + 5000; rw [e3a, ht]; omega
  | ⟨1, _⟩ => show win21_3.index t (1 : Fin 2) * 64 ≤ (i 1).val ∧ (i 1).val < win21_3.index t (1 : Fin 2) * 64 + 64; rw [e3b]; omega

/-- THE VALUE OF REGION 21: its output array after the region is the convex combination of its two operands by the third, as the region finds them. -/
theorem region21_value (c : Dev nD) :
    (dat21 V c).arrAt 3 cfg21.N = CB (V c (Pipeline.arrRef spec21 2)) (V c (Pipeline.arrRef spec21 0)) (V c (Pipeline.arrRef spec21 1)) :=
  (dat21 V c).arrAt_eq_of_cover 3 (CB (V c (Pipeline.arrRef spec21 2)) (V c (Pipeline.arrRef spec21 0)) (V c (Pipeline.arrRef spec21 1))) (fun t _ => r21_flushed V c t) r21_cover

end Cert.KernelIdeal.KV

end
-- ==== Proof.LibUnitAxes.lean ====
/-
  Small layout reads and a column reduction, at an index.

  A [1, 1, a] array cast to [a] reads at i the operand at (0, 0, i), and an [a] array cast to [1, 1, a] reads at
  (u, v, i) the operand at i: the row-major position is the same. A lane sum of an [a, b] matrix along axis 0 reads at
  column q the sum over the a entries of the column.
-/
import Idealize.ShloMosaic.PureOps.Ideal.Laws
import Idealize.ShloMosaic.Lib.Pipeline.Value
import Idealize.ShloMosaic.Lib.ValueIdx

noncomputable section

namespace Cert.LibUnitAxes

open Idealize.ShloMosaic Idealize.ShloMosaic.ValueIdx

variable {α : Type}

/-- A [1, 1, a] array cast to [a] reads, at i, the operand at (0, 0, i). -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    rw [Nat.zero_mul, Nat.zero_add])

/-- An [a] array cast to [1, 1, a] reads, at (u, v, i), the operand at i. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv, Nat.zero_mul, Nat.zero_add])

/-- The reduced index q of a reduction along axis 0 with coordinate k put back is (k, q). -/
theorem lift_col {a b : ℕ} (h : (⟨2, ![a, b]⟩ : Shape).Reduces [0] ⟨1, ![b]⟩) (q : Fin b)
    (k : Fin ((⟨2, ![a, b]⟩ : Shape).size 0)) : h.lift (ix1 q) k = ix2 (⟨k.val, k.isLt⟩ : Fin a) q := by
  funext c; apply Fin.ext
  match c with
  | ⟨0, _⟩ => rfl
  | ⟨1, _⟩ => rfl

/-- A lane sum along axis 0, at column q: the sum of the column. -/
theorem multiReduction_add_col {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ k : Fin a, src (ix2 k q) :=
  (Ideal.multiReduction_add_single src acc h hφ hacc (ix1 q)).trans
    (Finset.sum_congr rfl fun k _ => congrArg src (lift_col h q k))

end Cert.LibUnitAxes

end
-- ==== Proof.KHeadOps.lean ====
/-
  The head's body, read as the head.

  The body of the last kernel computes, from the eleven blocks it loads, three payloads in sequence. Each is a
  composition of four kinds of step: a matrix-unit product of activations with weights narrowed to bf16 into a zero
  accumulator (over the extended reals the plain matrix product, the narrowing the identity); a [1, M] row broadcast
  down the 500 rows and added; the batch normalisation over the rows (lane sums along axis 0 cast to [1, 64] rows,
  divided by 500, broadcast back, the reciprocal square root of the variance plus ε, the scale and shift rows), and
  the rectifier against a splat zero. Each step is read at an entry (p, q); composed, the stored value is `HEAD` of
  the loaded blocks.
-/
import proofs.«117928_j61658550502081_1_alg».proof.Proof.Gen.KernelIdeal.Skeleton
import proofs.«117928_j61658550502081_1_alg».proof.Proof.KHead
import proofs.«117928_j61658550502081_1_alg».proof.Proof.LibDotApply
import proofs.«117928_j61658550502081_1_alg».proof.Proof.LibUnitAxes
import Idealize.ShloMosaic.PureOps.Ideal.Laws
import Idealize.ShloMosaic.Lib.ValueIdx
import Idealize.ShloMosaic.Lib.Pipeline.Value

noncomputable section

namespace Cert.KernelIdeal.KV

open Idealize.ShloMosaic Idealize.ShloMosaic.ValueIdx Cert.KernelIdeal Cert.KernelIdeal.Gen

/-! ## Layout operations at an entry -/

/-- A [1, M] row broadcast down 500 rows reads, at (p, q), the row's entry q. -/
theorem broadcastTo_row_apply {α : Type} {M : Nat} (r : (⟨2, ![1, M]⟩ : Shape).Idx → α)
    (h : (⟨2, ![1, M]⟩ : Shape).Broadcasts ⟨2, ![500, M]⟩) (p : Fin 500) (q : Fin M) :
    broadcastTo ⟨2, ![500, M]⟩ r h (ix2 p q) = r (ix2 0 q) :=
  broadcastTo_apply r h (ix2 p q) (ix2 0 q) (fun a => match a with
    | ⟨0, _⟩ => by show (0 : Nat) = if (1 : Nat) = 1 then 0 else _; rw [if_pos rfl]
    | ⟨1, _⟩ => by
      show q.val = if M = 1 then 0 else q.val
      have := q.isLt
      split
      · omega
      · rfl)

/-- A [64] vector cast to a [1, 64] row reads, at (0, q), the vector's entry q. -/
theorem shapeCast_vec_row_apply {α : Type} (v : S64.Idx → α) (h : S64.ShapeCasts S1x64) (q : Fin 64) :
    shapeCast S1x64 v h (ix2 0 q) = v (ix1 q) :=
  shapeCast_apply v h (ix2 0 q) (ix1 q) (by
    rw [Shape.rowMajor_val_one, Shape.rowMajor_val_two]
    show q.val = 0 * 64 + q.val
    omega)

/-- A lane sum of a [500, 64] matrix along axis 0 reads, at column q, the sum of the column. -/
theorem colsum_apply (src : FVec Ideal S500x64 .f32) (h : S500x64.Reduces [0] S64) (hφ : FKind.Formats .f32)
    (hacc : (0x00000000#32 : BitVec 32) = 0x00000000#32) (q : Fin 64) :
    multiReduction .add [0] S64 src 0x00000000#32 h hφ hacc (ix1 q) = ∑ p : Fin 500, src (ix2 p q) :=
  Cert.LibUnitAxes.multiReduction_add_col src 0x00000000#32 h hφ hacc q

/-! ## The kernel's spelling of a dense layer -/

/-- The two dot records of the head are plain matrix products. -/
theorem plain_dot64 : Cert.LibPlainDot.IsPlain dot_S500x64_S64x64_S500x64_1_0_0_1_n_n := ⟨rfl, rfl, rfl, rfl, rfl, rfl⟩
theorem plain_dot1 : Cert.LibPlainDot.IsPlain dot_S500x64_S64x1_S500x1_1_0_0_1_n_n := ⟨rfl, rfl, rfl, rfl, rfl, rfl⟩

/-- A change of float format is the identity on extended reals. -/
theorem truncf_bf16_eq {s : Shape} (x : FVec Ideal s .f32) (h : FTy.bits .bf16 < FTy.bits .f32) :
    (truncf .bf16 x h : s.Idx → EReal) = x := rfl

/-- The matrix unit's product of the activations with the weights narrowed to bf16, into a zero accumulator, is the
    matrix product. -/
theorem kmm_eq {M : Nat} {φ : FTy} (d : DotDims ⟨2, ![500, 64]⟩ ⟨2, ![64, M]⟩ ⟨2, ![500, M]⟩) (hd : Cert.LibPlainDot.IsPlain d)
    (h : FVec Ideal ⟨2, ![500, 64]⟩ φ) (W : FVec Ideal ⟨2, ![64, M]⟩ .f32) (hlt : FTy.bits .bf16 < FTy.bits .f32) :
    matmul d none h (truncf .bf16 W hlt) (constant ⟨2, ![500, M]⟩ .f32 0x00000000#32) = mm h W := by
  funext i
  obtain ⟨p, q, rfl⟩ : ∃ (p : Fin 500) (q : Fin M), i = ix2 p q := ⟨i 0, i 1, eq_ix2 i⟩
  exact Cert.LibDotApply.matmul_zero_apply d hd none h (truncf .bf16 W hlt) p q

/-- Adding a [1, M] row broadcast down the 500 rows is adding the row to every row. -/
theorem kAddRow_eq {M : Nat} (y : FVec Ideal ⟨2, ![500, M]⟩ .f32) (r : FVec Ideal ⟨2, ![1, M]⟩ .f32)
    (hbc : (⟨2, ![1, M]⟩ : Shape).Broadcasts ⟨2, ![500, M]⟩) :
    addf y (broadcastTo ⟨2, ![500, M]⟩ r hbc) = addRow y r := by
  funext i
  obtain ⟨p, q, rfl⟩ : ∃ (p : Fin 500) (q : Fin M), i = ix2 p q := ⟨i 0, i 1, eq_ix2 i⟩
  show y (ix2 p q) + broadcastTo ⟨2, ![500, M]⟩ r hbc (ix2 p q) = y (ix2 p q) + r (ix2 0 q)
  rw [broadcastTo_row_apply]

/-! ## The kernel's spelling of the normalisation -/

section Bn
variable (y : FVec Ideal S500x64 .f32) (g b : FVec Ideal S1x64 .f32)
  (hred : S500x64.Reduces [0] S64) (hsc : S64.ShapeCasts S1x64) (hbc : S1x64.Broadcasts S500x64)

/-- The row of column means: the lane sum along the rows, as a [1, 64] row, over 500. -/
def kMeanRow : FVec Ideal S1x64 .f32 :=
  divf (shapeCast S1x64 (multiReduction .add [0] S64 y 0x00000000#32 hred (.inl rfl) rfl) hsc)
    (broadcast S1x64 (Scalar.ofBits .f32 0x43FA0000#32))

/-- The matrix with its column means taken off. -/
def kCentered : FVec Ideal S500x64 .f32 := subf y (broadcastTo S500x64 (kMeanRow y hred hsc) hbc)

/-- The row of column variances. -/
def kVarRow : FVec Ideal S1x64 .f32 :=
  divf (shapeCast S1x64 (multiReduction .add [0] S64 (mulf (kCentered y hred hsc hbc) (kCentered y hred hsc hbc))
      0x00000000#32 hred (.inl rfl) rfl) hsc)
    (broadcast S1x64 (Scalar.ofBits .f32 0x43FA0000#32))

/-- The normalisation with scale and shift rows, then the rectifier, as the kernel spells it. -/
def kBn : FVec Ideal S500x64 .f32 :=
  maximumf
    (addf
      (mulf
        (mulf (kCentered y hred hsc hbc)
          (broadcastTo S500x64 (rsqrt (addf (kVarRow y hred hsc hbc) (broadcast S1x64 (Scalar.ofBits .f32 0x3727C5AC#32)))) hbc))
        (broadcastTo S500x64 g hbc))
      (broadcastTo S500x64 b hbc))
    (broadcast S500x64 (Scalar.ofBits .f32 0x00000000#32))

theorem kMeanRow_apply (q : Fin 64) : kMeanRow y hred hsc (ix2 0 q) = colMean y q := by
  show Ideal.div (shapeCast S1x64 (multiReduction .add [0] S64 y 0x00000000#32 hred (.inl rfl) rfl) hsc (ix2 0 q)) rows500 = _
  rw [shapeCast_vec_row_apply, colsum_apply]
  rfl

theorem kCentered_apply (p : Fin 500) (q : Fin 64) :
    kCentered y hred hsc hbc (ix2 p q) = y (ix2 p q) - colMean y q := by
  show y (ix2 p q) - broadcastTo S500x64 (kMeanRow y hred hsc) hbc (ix2 p q) = _
  rw [broadcastTo_row_apply, kMeanRow_apply]

theorem kVarRow_apply (q : Fin 64) : kVarRow y hred hsc hbc (ix2 0 q) = colVar y q := by
  show Ideal.div (shapeCast S1x64 (multiReduction .add [0] S64 (mulf (kCentered y hred hsc hbc) (kCentered y hred hsc hbc))
      0x00000000#32 hred (.inl rfl) rfl) hsc (ix2 0 q)) rows500 = _
  rw [shapeCast_vec_row_apply, colsum_apply]
  unfold colVar
  refine congrArg (fun s => Ideal.div s rows500) (Finset.sum_congr rfl fun p _ => ?_)
  show kCentered y hred hsc hbc (ix2 p q) * kCentered y hred hsc hbc (ix2 p q) = _
  rw [kCentered_apply]

theorem kBn_eq : kBn y g b hred hsc hbc = bnrelu y g b := by
  funext i
  obtain ⟨p, q, rfl⟩ : ∃ (p : Fin 500) (q : Fin 64), i = ix2 p q := ⟨i 0, i 1, eq_ix2 i⟩
  show max (((kCentered y hred hsc hbc (ix2 p q)
        * broadcastTo S500x64 (rsqrt (addf (kVarRow y hred hsc hbc) (broadcast S1x64 (Scalar.ofBits .f32 0x3727C5AC#32)))) hbc (ix2 p q))
        * broadcastTo S500x64 g hbc (ix2 p q)) + broadcastTo S500x64 b hbc (ix2 p q)) fzero = _
  rw [broadcastTo_row_apply, broadcastTo_row_apply, broadcastTo_row_apply, kCentered_apply]
  show max ((((y (ix2 p q) - colMean y q) * Ideal.rsqrt (kVarRow y hred hsc hbc (ix2 0 q) + bnEps)) * g (ix2 0 q)) + b (ix2 0 q)) fzero = _
  rw [kVarRow_apply]
  rfl

end Bn

/-! ## The three payloads of the head's body -/

section Pay

/-- Statements 1–40: the first dense layer and its normalisation. -/
theorem pay1_eq (x0 : Vec Ideal S500x64 .f32) (x1 : Vec Ideal S64x64 .f32) (x2 g bb : Vec Ideal S1x64 .f32) :
    k22_pay1 x0 x1 x2 g bb = bnrelu (dense x0 x1 x2) g bb := by
  have e : k22_pay1 x0 x1 x2 g bb
      = kBn (addf (matmul dot_S500x64_S64x64_S500x64_1_0_0_1_n_n none
              (truncf .bf16 (shapeCast S500x64 x0 Facts₀.shapeCasts_S500x64_S500x64) Facts₀.bitsLt_bf16_f32)
              (truncf .bf16 x1 Facts₀.bitsLt_bf16_f32) (constant S500x64 .f32 0x00000000#32))
            (broadcastTo S500x64 (shapeCast S1x64 x2 Facts₀.shapeCasts_S1x64_S1x64) Facts₀.broadcasts_S1x64_S500x64))
          (shapeCast S1x64 g Facts₀.shapeCasts_S1x64_S1x64) (shapeCast S1x64 bb Facts₀.shapeCasts_S1x64_S1x64)
          Facts₀.reduces_S500x64_S64 Facts₀.shapeCasts_S64_S1x64 Facts₀.broadcasts_S1x64_S500x64 := rfl
  rw [e, shapeCast_self, shapeCast_self, shapeCast_self, shapeCast_self, kBn_eq, kmm_eq _ plain_dot64, kAddRow_eq]
  rfl

/-- Statements 41–81: the second dense layer, its normalisation, and the third layer's matrix product. -/
theorem pay2_eq (v40 : FVec Ideal S500x64 .bf16) (x3 : Vec Ideal S64x64 .f32) (x4 g bb : Vec Ideal S1x64 .f32)
    (x5 : Vec Ideal S64x64 .f32) :
    k22_pay2 v40 x3 x4 g bb x5 = mm (bnrelu (dense v40 x3 x4) g bb) x5 := by
  have e : k22_pay2 v40 x3 x4 g bb x5
      = matmul dot_S500x64_S64x64_S500x64_1_0_0_1_n_n none
          (truncf .bf16
            (kBn (addf (matmul dot_S500x64_S64x64_S500x64_1_0_0_1_n_n none v40
                    (truncf .bf16 x3 Facts₀.bitsLt_bf16_f32) (constant S500x64 .f32 0x00000000#32))
                  (broadcastTo S500x64 (shapeCast S1x64 x4 Facts₀.shapeCasts_S1x64_S1x64) Facts₀.broadcasts_S1x64_S500x64))
              (shapeCast S1x64 g Facts₀.shapeCasts_S1x64_S1x64) (shapeCast S1x64 bb Facts₀.shapeCasts_S1x64_S1x64)
              Facts₀.reduces_S500x64_S64 Facts₀.shapeCasts_S64_S1x64 Facts₀.broadcasts_S1x64_S500x64)
            Facts₀.bitsLt_bf16_f32)
          (truncf .bf16 x5 Facts₀.bitsLt_bf16_f32) (constant S500x64 .f32 0x00000000#32) := rfl
  rw [e, shapeCast_self, shapeCast_self, shapeCast_self, kBn_eq, kmm_eq _ plain_dot64, kmm_eq _ plain_dot64, kAddRow_eq]
  rfl

/-- Statements 82–123: the third layer's bias and normalisation, and the last dense layer. -/
theorem pay3_eq (v81 : FVec Ideal S500x64 .f32) (x6 g bb : Vec Ideal S1x64 .f32) (x7 : Vec Ideal S64x1 .f32)
    (x8 : Vec Ideal S1x1 .f32) :
    k22_pay3 v81 x6 g bb x7 x8 = dense (bnrelu (addRow v81 x6) g bb) x7 x8 := by
  have e : k22_pay3 v81 x6 g bb x7 x8
      = addf (matmul dot_S500x64_S64x1_S500x1_1_0_0_1_n_n none
          (truncf .bf16
            (kBn (addf v81
                  (broadcastTo S500x64 (shapeCast S1x64 x6 Facts₀.shapeCasts_S1x64_S1x64) Facts₀.broadcasts_S1x64_S500x64))
              (shapeCast S1x64 g Facts₀.shapeCasts_S1x64_S1x64) (shapeCast S1x64 bb Facts₀.shapeCasts_S1x64_S1x64)
              Facts₀.reduces_S500x64_S64 Facts₀.shapeCasts_S64_S1x64 Facts₀.broadcasts_S1x64_S500x64)
            Facts₀.bitsLt_bf16_f32)
          (truncf .bf16 x7 Facts₀.bitsLt_bf16_f32) (constant S500x1 .f32 0x00000000#32))
        (broadcastTo S500x1 (shapeCast S1x1 x8 Facts₀.shapeCasts_S1x1_S1x1) Facts₀.broadcasts_S1x1_S500x1) := rfl
  rw [e, shapeCast_self, shapeCast_self, shapeCast_self, shapeCast_self, kBn_eq, kmm_eq _ plain_dot1, kAddRow_eq, kAddRow_eq]
  rfl

/-- The body's stored value, of the eleven blocks it loads: the head. -/
theorem head_payload (x0 : Vec Ideal S500x64 .f32) (x1 : Vec Ideal S64x64 .f32) (x2 : Vec Ideal S1x64 .f32)
    (x3 : Vec Ideal S64x64 .f32) (x4 : Vec Ideal S1x64 .f32) (x5 : Vec Ideal S64x64 .f32) (x6 : Vec Ideal S1x64 .f32)
    (x7 : Vec Ideal S64x1 .f32) (x8 : Vec Ideal S1x1 .f32) (g bb : Vec Ideal S1x64 .f32) :
    k22_pay3 (k22_pay2 (k22_pay1 x0 x1 x2 g bb) x3 x4 g bb x5) x6 g bb x7 x8
      = HEAD x0 x1 x2 x3 x4 x5 x6 x7 x8 g bb := by
  rw [pay1_eq, pay2_eq, pay3_eq]
  rfl

end Pay

end Cert.KernelIdeal.KV

end
-- ==== Proof.KHeadRegion.lean ====
/-
  The value of the last region: after it the [500, 1] output array holds the head of the region's eleven input
  arrays.

  The region has one grid point and every window's block is its whole array at block index (0, 0): so each input
  block read off its array is the array, the body's one store leaves the head of those (the three payloads composed),
  the one write-back writes that whole array, and its block covers the output.
-/
import proofs.«117928_j61658550502081_1_alg».proof.Proof.Gen.KernelIdeal.Frame
import proofs.«117928_j61658550502081_1_alg».proof.Proof.KHeadOps
import Idealize.ShloMosaic.Lib.Pipeline.Value

set_option maxRecDepth 16384

noncomputable section

namespace Cert.KernelIdeal.KV

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The body's accesses are at zero offsets. -/
theorem offsets_zero : (![0, 0] : Fin 2 → Nat) = fun _ => 0 := funext fun a => by fin_cases a <;> rfl

/-- The printed index maps, decided over the grid's one point: every window sits at block (0, 0). -/
theorem index_zero : ∀ t : Fin cfg22.N,
    (win22_0.index t (0 : Fin 2) = 0 ∧ win22_0.index t (1 : Fin 2) = 0)
    ∧ (win22_1.index t (0 : Fin 2) = 0 ∧ win22_1.index t (1 : Fin 2) = 0)
    ∧ (win22_2.index t (0 : Fin 2) = 0 ∧ win22_2.index t (1 : Fin 2) = 0)
    ∧ (win22_3.index t (0 : Fin 2) = 0 ∧ win22_3.index t (1 : Fin 2) = 0)
    ∧ (win22_4.index t (0 : Fin 2) = 0 ∧ win22_4.index t (1 : Fin 2) = 0)
    ∧ (win22_5.index t (0 : Fin 2) = 0 ∧ win22_5.index t (1 : Fin 2) = 0)
    ∧ (win22_6.index t (0 : Fin 2) = 0 ∧ win22_6.index t (1 : Fin 2) = 0)
    ∧ (win22_7.index t (0 : Fin 2) = 0 ∧ win22_7.index t (1 : Fin 2) = 0)
    ∧ (win22_8.index t (0 : Fin 2) = 0 ∧ win22_8.index t (1 : Fin 2) = 0)
    ∧ (win22_9.index t (0 : Fin 2) = 0 ∧ win22_9.index t (1 : Fin 2) = 0)
    ∧ (win22_10.index t (0 : Fin 2) = 0 ∧ win22_10.index t (1 : Fin 2) = 0)
    ∧ (win22_11.index t (0 : Fin 2) = 0 ∧ win22_11.index t (1 : Fin 2) = 0) :=
  (by decide +kernel : ∀ t : Fin grid22.N, _)

/-- What the body leaves in the output's staging buffer, of any eleven input blocks: their head (the one store covers
    the buffer and every load reads its whole block). -/
theorem out22_eq (x0 : Vec Ideal S500x64 .f32) (x1 : Vec Ideal S64x64 .f32) (x2 : Vec Ideal S1x64 .f32)
    (x3 : Vec Ideal S64x64 .f32) (x4 : Vec Ideal S1x64 .f32) (x5 : Vec Ideal S64x64 .f32) (x6 : Vec Ideal S1x64 .f32)
    (x7 : Vec Ideal S64x1 .f32) (x8 : Vec Ideal S1x1 .f32) (x9 x10 : Vec Ideal S1x64 .f32) :
    out22_11 x0 x1 x2 x3 x4 x5 x6 x7 x8 x9 x10 = HEAD x0 x1 x2 x3 x4 x5 x6 x7 x8 x9 x10 := by
  unfold out22_11
  rw [View.canon_unit_zero offsets_zero]
  simp only [View.ld_unit_zero (S := S500x64) offsets_zero, View.ld_unit_zero (S := S64x64) offsets_zero,
    View.ld_unit_zero (S := S1x64) offsets_zero, View.ld_unit_zero (S := S64x1) offsets_zero,
    View.ld_unit_zero (S := S1x1) offsets_zero]
  exact head_payload x0 x1 x2 x3 x4 x5 x6 x7 x8 x9 x10

/-! ## Each window's block is its whole array -/

/-- Window 0's block at the one grid point, read off any contents of its array, is those contents. -/
theorem blk_read_0 (t : Fin cfg22.N) (G : main_v296.ty.Contents (Elt Ideal)) :
    ((cfg22.win 0).blk t).view.read (Elt Ideal) G = G := by
  have e := (index_zero t).1
  have hz' : (fun a => win22_0.index t a * main_v296.ty.shape.size a) = fun _ => 0 := funext fun a => by
    match a with
    | ⟨0, _⟩ => show win22_0.index t (0 : Fin 2) * 500 = 0; rw [e.1]
    | ⟨1, _⟩ => show win22_0.index t (1 : Fin 2) * 64 = 0; rw [e.2]
  exact Memref.read_access_unit_zero (Elt Ideal) main_v296 hz' (fun a => by rw [congrFun hz' a]; simp) G

/-- Window 1's block at the one grid point, read off any contents of its array, is those contents. -/
theorem blk_read_1 (t : Fin cfg22.N) (G : main_arg9.ty.Contents (Elt Ideal)) :
    ((cfg22.win 1).blk t).view.read (Elt Ideal) G = G := by
  have e := (index_zero t).2.1
  have hz' : (fun a => win22_1.index t a * main_arg9.ty.shape.size a) = fun _ => 0 := funext fun a => by
    match a with
    | ⟨0, _⟩ => show win22_1.index t (0 : Fin 2) * 64 = 0; rw [e.1]
    | ⟨1, _⟩ => show win22_1.index t (1 : Fin 2) * 64 = 0; rw [e.2]
  exact Memref.read_access_unit_zero (Elt Ideal) main_arg9 hz' (fun a => by rw [congrFun hz' a]; simp) G

/-- Window 2's block at the one grid point, read off any contents of its array, is those contents. -/
theorem blk_read_2 (t : Fin cfg22.N) (G : main_v297.ty.Contents (Elt Ideal)) :
    ((cfg22.win 2).blk t).view.read (Elt Ideal) G = G := by
  have e := (index_zero t).2.2.1
  have hz' : (fun a => win22_2.index t a * main_v297.ty.shape.size a) = fun _ => 0 := funext fun a => by
    match a with
    | ⟨0, _⟩ => show win22_2.index t (0 : Fin 2) * 1 = 0; rw [e.1]
    | ⟨1, _⟩ => show win22_2.index t (1 : Fin 2) * 64 = 0; rw [e.2]
  exact Memref.read_access_unit_zero (Elt Ideal) main_v297 hz' (fun a => by rw [congrFun hz' a]; simp) G

/-- Window 3's block at the one grid point, read off any contents of its array, is those contents. -/
theorem blk_read_3 (t : Fin cfg22.N) (G : main_arg11.ty.Contents (Elt Ideal)) :
    ((cfg22.win 3).blk t).view.read (Elt Ideal) G = G := by
  have e := (index_zero t).2.2.2.1
  have hz' : (fun a => win22_3.index t a * main_arg11.ty.shape.size a) = fun _ => 0 := funext fun a => by
    match a with
    | ⟨0, _⟩ => show win22_3.index t (0 : Fin 2) * 64 = 0; rw [e.1]
    | ⟨1, _⟩ => show win22_3.index t (1 : Fin 2) * 64 = 0; rw [e.2]
  exact Memref.read_access_unit_zero (Elt Ideal) main_arg11 hz' (fun a => by rw [congrFun hz' a]; simp) G

/-- Window 4's block at the one grid point, read off any contents of its array, is those contents. -/
theorem blk_read_4 (t : Fin cfg22.N) (G : main_v298.ty.Contents (Elt Ideal)) :
    ((cfg22.win 4).blk t).view.read (Elt Ideal) G = G := by
  have e := (index_zero t).2.2.2.2.1
  have hz' : (fun a => win22_4.index t a * main_v298.ty.shape.size a) = fun _ => 0 := funext fun a => by
    match a with
    | ⟨0, _⟩ => show win22_4.index t (0 : Fin 2) * 1 = 0; rw [e.1]
    | ⟨1, _⟩ => show win22_4.index t (1 : Fin 2) * 64 = 0; rw [e.2]
  exact Memref.read_access_unit_zero (Elt Ideal) main_v298 hz' (fun a => by rw [congrFun hz' a]; simp) G

/-- Window 5's block at the one grid point, read off any contents of its array, is those contents. -/
theorem blk_read_5 (t : Fin cfg22.N) (G : main_arg13.ty.Contents (Elt Ideal)) :
    ((cfg22.win 5).blk t).view.read (Elt Ideal) G = G := by
  have e := (index_zero t).2.2.2.2.2.1
  have hz' : (fun a => win22_5.index t a * main_arg13.ty.shape.size a) = fun _ => 0 := funext fun a => by
    match a with
    | ⟨0, _⟩ => show win22_5.index t (0 : Fin 2) * 64 = 0; rw [e.1]
    | ⟨1, _⟩ => show win22_5.index t (1 : Fin 2) * 64 = 0; rw [e.2]
  exact Memref.read_access_unit_zero (Elt Ideal) main_arg13 hz' (fun a => by rw [congrFun hz' a]; simp) G

/-- Window 6's block at the one grid point, read off any contents of its array, is those contents. -/
theorem blk_read_6 (t : Fin cfg22.N) (G : main_v299.ty.Contents (Elt Ideal)) :
    ((cfg22.win 6).blk t).view.read (Elt Ideal) G = G := by
  have e := (index_zero t).2.2.2.2.2.2.1
  have hz' : (fun a => win22_6.index t a * main_v299.ty.shape.size a) = fun _ => 0 := funext fun a => by
    match a with
    | ⟨0, _⟩ => show win22_6.index t (0 : Fin 2) * 1 = 0; rw [e.1]
    | ⟨1, _⟩ => show win22_6.index t (1 : Fin 2) * 64 = 0; rw [e.2]
  exact Memref.read_access_unit_zero (Elt Ideal) main_v299 hz' (fun a => by rw [congrFun hz' a]; simp) G

/-- Window 7's block at the one grid point, read off any contents of its array, is those contents. -/
theorem blk_read_7 (t : Fin cfg22.N) (G : main_arg15.ty.Contents (Elt Ideal)) :
    ((cfg22.win 7).blk t).view.read (Elt Ideal) G = G := by
  have e := (index_zero t).2.2.2.2.2.2.2.1
  have hz' : (fun a => win22_7.index t a * main_arg15.ty.shape.size a) = fun _ => 0 := funext fun a => by
    match a with
    | ⟨0, _⟩ => show win22_7.index t (0 : Fin 2) * 64 = 0; rw [e.1]
    | ⟨1, _⟩ => show win22_7.index t (1 : Fin 2) * 1 = 0; rw [e.2]
  exact Memref.read_access_unit_zero (Elt Ideal) main_arg15 hz' (fun a => by rw [congrFun hz' a]; simp) G

/-- Window 8's block at the one grid point, read off any contents of its array, is those contents. -/
theorem blk_read_8 (t : Fin cfg22.N) (G : main_v300.ty.Contents (Elt Ideal)) :
    ((cfg22.win 8).blk t).view.read (Elt Ideal) G = G := by
  have e := (index_zero t).2.2.2.2.2.2.2.2.1
  have hz' : (fun a => win22_8.index t a * main_v300.ty.shape.size a) = fun _ => 0 := funext fun a => by
    match a with
    | ⟨0, _⟩ => show win22_8.index t (0 : Fin 2) * 1 = 0; rw [e.1]
    | ⟨1, _⟩ => show win22_8.index t (1 : Fin 2) * 1 = 0; rw [e.2]
  exact Memref.read_access_unit_zero (Elt Ideal) main_v300 hz' (fun a => by rw [congrFun hz' a]; simp) G

/-- Window 9's block at the one grid point, read off any contents of its array, is those contents. -/
theorem blk_read_9 (t : Fin cfg22.N) (G : main_v301.ty.Contents (Elt Ideal)) :
    ((cfg22.win 9).blk t).view.read (Elt Ideal) G = G := by
  have e := (index_zero t).2.2.2.2.2.2.2.2.2.1
  have hz' : (fun a => win22_9.index t a * main_v301.ty.shape.size a) = fun _ => 0 := funext fun a => by
    match a with
    | ⟨0, _⟩ => show win22_9.index t (0 : Fin 2) * 1 = 0; rw [e.1]
    | ⟨1, _⟩ => show win22_9.index t (1 : Fin 2) * 64 = 0; rw [e.2]
  exact Memref.read_access_unit_zero (Elt Ideal) main_v301 hz' (fun a => by rw [congrFun hz' a]; simp) G

/-- Window 10's block at the one grid point, read off any contents of its array, is those contents. -/
theorem blk_read_10 (t : Fin cfg22.N) (G : main_v302.ty.Contents (Elt Ideal)) :
    ((cfg22.win 10).blk t).view.read (Elt Ideal) G = G := by
  have e := (index_zero t).2.2.2.2.2.2.2.2.2.2.1
  have hz' : (fun a => win22_10.index t a * main_v302.ty.shape.size a) = fun _ => 0 := funext fun a => by
    match a with
    | ⟨0, _⟩ => show win22_10.index t (0 : Fin 2) * 1 = 0; rw [e.1]
    | ⟨1, _⟩ => show win22_10.index t (1 : Fin 2) * 64 = 0; rw [e.2]
  exact Memref.read_access_unit_zero (Elt Ideal) main_v302 hz' (fun a => by rw [congrFun hz' a]; simp) G

/-- Window 11's block at the one grid point, read off any contents of its array, is those contents. -/
theorem blk_read_11 (t : Fin cfg22.N) (G : main_v303.ty.Contents (Elt Ideal)) :
    ((cfg22.win 11).blk t).view.read (Elt Ideal) G = G := by
  have e := (index_zero t).2.2.2.2.2.2.2.2.2.2.2
  have hz' : (fun a => win22_11.index t a * main_v303.ty.shape.size a) = fun _ => 0 := funext fun a => by
    match a with
    | ⟨0, _⟩ => show win22_11.index t (0 : Fin 2) * 500 = 0; rw [e.1]
    | ⟨1, _⟩ => show win22_11.index t (1 : Fin 2) * 1 = 0; rw [e.2]
  exact Memref.read_access_unit_zero (Elt Ideal) main_v303 hz' (fun a => by rw [congrFun hz' a]; simp) G

theorem iblk22_0 (c : Dev nD) (t : Fin cfg22.N) : iblk22 V c 0 t = V c (Pipeline.arrRef spec22 0) := by
  unfold iblk22; exact blk_read_0 t _
theorem iblk22_1 (c : Dev nD) (t : Fin cfg22.N) : iblk22 V c 1 t = V c (Pipeline.arrRef spec22 1) := by
  unfold iblk22; exact blk_read_1 t _
theorem iblk22_2 (c : Dev nD) (t : Fin cfg22.N) : iblk22 V c 2 t = V c (Pipeline.arrRef spec22 2) := by
  unfold iblk22; exact blk_read_2 t _
theorem iblk22_3 (c : Dev nD) (t : Fin cfg22.N) : iblk22 V c 3 t = V c (Pipeline.arrRef spec22 3) := by
  unfold iblk22; exact blk_read_3 t _
theorem iblk22_4 (c : Dev nD) (t : Fin cfg22.N) : iblk22 V c 4 t = V c (Pipeline.arrRef spec22 4) := by
  unfold iblk22; exact blk_read_4 t _
theorem iblk22_5 (c : Dev nD) (t : Fin cfg22.N) : iblk22 V c 5 t = V c (Pipeline.arrRef spec22 5) := by
  unfold iblk22; exact blk_read_5 t _
theorem iblk22_6 (c : Dev nD) (t : Fin cfg22.N) : iblk22 V c 6 t = V c (Pipeline.arrRef spec22 6) := by
  unfold iblk22; exact blk_read_6 t _
theorem iblk22_7 (c : Dev nD) (t : Fin cfg22.N) : iblk22 V c 7 t = V c (Pipeline.arrRef spec22 7) := by
  unfold iblk22; exact blk_read_7 t _
theorem iblk22_8 (c : Dev nD) (t : Fin cfg22.N) : iblk22 V c 8 t = V c (Pipeline.arrRef spec22 8) := by
  unfold iblk22; exact blk_read_8 t _
theorem iblk22_9 (c : Dev nD) (t : Fin cfg22.N) : iblk22 V c 9 t = V c (Pipeline.arrRef spec22 9) := by
  unfold iblk22; exact blk_read_9 t _
theorem iblk22_10 (c : Dev nD) (t : Fin cfg22.N) : iblk22 V c 10 t = V c (Pipeline.arrRef spec22 10) := by
  unfold iblk22; exact blk_read_10 t _

/-! ## What the one point writes back, and the array after the region -/

/-- The head of the eleven input blocks is the head of the eleven arrays. -/
theorem head_blocks (c : Dev nD) (t : Fin cfg22.N) :
    HEAD (iblk22 V c 0 t) (iblk22 V c 1 t) (iblk22 V c 2 t) (iblk22 V c 3 t) (iblk22 V c 4 t) (iblk22 V c 5 t) (iblk22 V c 6 t) (iblk22 V c 7 t) (iblk22 V c 8 t) (iblk22 V c 9 t) (iblk22 V c 10 t)
      = HEAD (V c (Pipeline.arrRef spec22 0)) (V c (Pipeline.arrRef spec22 1)) (V c (Pipeline.arrRef spec22 2)) (V c (Pipeline.arrRef spec22 3)) (V c (Pipeline.arrRef spec22 4)) (V c (Pipeline.arrRef spec22 5)) (V c (Pipeline.arrRef spec22 6)) (V c (Pipeline.arrRef spec22 7)) (V c (Pipeline.arrRef spec22 8)) (V c (Pipeline.arrRef spec22 9)) (V c (Pipeline.arrRef spec22 10)) :=
  congr (congr (congr (congr (congr (congr (congr (congr (congr (congr (congrArg HEAD (iblk22_0 V c t)) (iblk22_1 V c t)) (iblk22_2 V c t)) (iblk22_3 V c t)) (iblk22_4 V c t)) (iblk22_5 V c t)) (iblk22_6 V c t)) (iblk22_7 V c t)) (iblk22_8 V c t)) (iblk22_9 V c t)) (iblk22_10 V c t)

set_option maxHeartbeats 1000000 in
/-- The one point writes back the head of the eleven arrays as the region finds them. -/
theorem flushed22_eq (c : Dev nD) (t : Fin cfg22.N) :
    (dat22 V c).flushed 11 t = ((cfg22.win 11).blk t).view.read (Elt Ideal)
      (HEAD (V c (Pipeline.arrRef spec22 0)) (V c (Pipeline.arrRef spec22 1)) (V c (Pipeline.arrRef spec22 2)) (V c (Pipeline.arrRef spec22 3)) (V c (Pipeline.arrRef spec22 4)) (V c (Pipeline.arrRef spec22 5)) (V c (Pipeline.arrRef spec22 6)) (V c (Pipeline.arrRef spec22 7)) (V c (Pipeline.arrRef spec22 8)) (V c (Pipeline.arrRef spec22 9)) (V c (Pipeline.arrRef spec22 10))) := by
  show (cfg22.win 11).cut (grid22.coords t) ((dat22 V c).after 11 t) = _
  rw [after22_11, out22_eq, head_blocks V c t]
  exact (blk_read_11 t _).symm

/-- The one point's block covers the output array. -/
theorem cover22 (i : S500x1.Idx) :
    ∃ t : Fin cfg22.N, (cfg22.win 11).flush t = true ∧ i ∈ ((cfg22.win 11).blk t).view.set := by
  refine ⟨t22_0, flush22_11 t22_0, ?_⟩
  obtain ⟨e0, e1⟩ := (index_zero t22_0).2.2.2.2.2.2.2.2.2.2.2
  show i ∈ ((View.whole main_v303).slice (win22_11.rect t22_0)).set
  rw [View.set_slice_whole, Rect.mem_set_unit]
  intro a
  have h0 : (i 0 : Nat) < 500 := (i 0).isLt
  have h1 : (i 1 : Nat) < 1 := (i 1).isLt
  match a with
  | ⟨0, _⟩ =>
    show win22_11.index t22_0 (0 : Fin 2) * 500 ≤ (i 0 : Nat) ∧ (i 0 : Nat) < win22_11.index t22_0 (0 : Fin 2) * 500 + 500
    rw [e0]; omega
  | ⟨1, _⟩ =>
    show win22_11.index t22_0 (1 : Fin 2) * 1 ≤ (i 1 : Nat) ∧ (i 1 : Nat) < win22_11.index t22_0 (1 : Fin 2) * 1 + 1
    rw [e1]; omega

/-- THE VALUE OF THE REGION: after it the output array holds the head of the eleven arrays as the region finds them. -/
theorem region22_value (c : Dev nD) :
    (dat22 V c).arrAt 11 cfg22.N
      = HEAD (V c (Pipeline.arrRef spec22 0)) (V c (Pipeline.arrRef spec22 1)) (V c (Pipeline.arrRef spec22 2)) (V c (Pipeline.arrRef spec22 3)) (V c (Pipeline.arrRef spec22 4)) (V c (Pipeline.arrRef spec22 5)) (V c (Pipeline.arrRef spec22 6)) (V c (Pipeline.arrRef spec22 7)) (V c (Pipeline.arrRef spec22 8)) (V c (Pipeline.arrRef spec22 9)) (V c (Pipeline.arrRef spec22 10)) :=
  (dat22 V c).arrAt_eq_of_cover 11 _ (fun t _ => flushed22_eq V c t) cover22

end Cert.KernelIdeal.KV

end
-- ==== Proof.KRegions.lean ====
/-
  The buffer contents at the kernel's return, with what each of the 23 regions writes supplied: the matrix products,
  the biased and clamped arrays, the convex combinations and the head, each proved region by region from the body's
  arithmetic and the tiling of the rows.
-/
import proofs.«117928_j61658550502081_1_alg».proof.Proof.KFold
import proofs.«117928_j61658550502081_1_alg».proof.Proof.KR0
import proofs.«117928_j61658550502081_1_alg».proof.Proof.KR1
import proofs.«117928_j61658550502081_1_alg».proof.Proof.KR2
import proofs.«117928_j61658550502081_1_alg».proof.Proof.KR3
import proofs.«117928_j61658550502081_1_alg».proof.Proof.KR4
import proofs.«117928_j61658550502081_1_alg».proof.Proof.KR5
import proofs.«117928_j61658550502081_1_alg».proof.Proof.KR6
import proofs.«117928_j61658550502081_1_alg».proof.Proof.KR7
import proofs.«117928_j61658550502081_1_alg».proof.Proof.KR8
import proofs.«117928_j61658550502081_1_alg».proof.Proof.KR9
import proofs.«117928_j61658550502081_1_alg».proof.Proof.KR10
import proofs.«117928_j61658550502081_1_alg».proof.Proof.KR11
import proofs.«117928_j61658550502081_1_alg».proof.Proof.KR12
import proofs.«117928_j61658550502081_1_alg».proof.Proof.KR13
import proofs.«117928_j61658550502081_1_alg».proof.Proof.KR14
import proofs.«117928_j61658550502081_1_alg».proof.Proof.KR15
import proofs.«117928_j61658550502081_1_alg».proof.Proof.KR16
import proofs.«117928_j61658550502081_1_alg».proof.Proof.KR17
import proofs.«117928_j61658550502081_1_alg».proof.Proof.KR18
import proofs.«117928_j61658550502081_1_alg».proof.Proof.KR19
import proofs.«117928_j61658550502081_1_alg».proof.Proof.KR20
import proofs.«117928_j61658550502081_1_alg».proof.Proof.KR21
import proofs.«117928_j61658550502081_1_alg».proof.Proof.KHeadRegion

noncomputable section

namespace Cert.KernelIdeal.KV

open Cert.KernelIdeal Cert.KernelIdeal.Gen Idealize.ShloMosaic

set_option maxHeartbeats 4000000 in
/-- The contents at the return are the whole line of operations applied to the launch contents. -/
theorem W47_is_fold (m : (ℓ : Loc nD τ sig) → Buf (Elt Ideal) ℓ) (ρ : Dev nD → PrngReg) (c : Dev nD) :
    W47 m ρ c = StableHlo.after kops (W0 m ρ c) :=
  W47_eq m ρ
    region0_value
    region1_value
    region2_value
    region3_value
    region4_value
    region5_value
    region6_value
    region7_value
    region8_value
    region9_value
    region10_value
    region11_value
    region12_value
    region13_value
    region14_value
    region15_value
    region16_value
    region17_value
    region18_value
    region19_value
    region20_value
    region21_value
    region22_value
    c

end Cert.KernelIdeal.KV

end
-- ==== Proof.KVDefs.lean ====
/-
  The host computations of the network between its dense kernels, each as ONE function of whole arrays: the edge
  array's two rows, the same with one self-loop per node appended, the symmetric edge normalisation, the out-degrees,
  the pieces cut out of the stacked weights, the normalised neighbourhood sum, the gradient gate, the per-graph
  pooling and the edge energy. Each is the composition of the array operations the program applies, in the program's
  order and with its shape records; floats are extended reals.
-/
import proofs.«117928_j61658550502081_1_alg».proof.KernelIdeal
import Idealize.ShloMosaic.PureOps.Ideal.Laws

noncomputable section

namespace Cert.KernelIdeal.KV

open Idealize.ShloMosaic Cert.KernelIdeal

variable [Facts₀]
open Facts₀

/-- The edges' source nodes: row 0 of the edge array, as a vector. -/
def src (ei : Vec Ideal S2x800000 .i32) : Vec Ideal S800000 .i32 :=
  fun i => shapeCast S800000 (((extractStridedSlice S1x800000 ![0, 0] · slices_S2x800000_S1x800000_0_0) : (⟨S2x800000, .i32⟩ : BufTy).Contents (Elt Ideal) → (⟨S1x800000, .i32⟩ : BufTy).Contents (Elt Ideal)) ei) shapeCasts_S1x800000_S800000 i

/-- The edges' target nodes: row 1 of the edge array, as a vector. -/
def dst (ei : Vec Ideal S2x800000 .i32) : Vec Ideal S800000 .i32 :=
  fun i => shapeCast S800000 (((extractStridedSlice S1x800000 ![1, 0] · slices_S2x800000_S1x800000_1_0) : (⟨S2x800000, .i32⟩ : BufTy).Contents (Elt Ideal) → (⟨S1x800000, .i32⟩ : BufTy).Contents (Elt Ideal)) ei) shapeCasts_S1x800000_S800000 i

/-- The sources followed by every node once (one self-loop per node). -/
def sfull (s : Vec Ideal S800000 .i32) : Vec Ideal S850000 .i32 :=
  ((fun a b => concatenate S850000 0 [⟨S800000, a⟩, ⟨S50000, b⟩] concatenates_S800000_S50000_S850000_d0) : (⟨S800000, .i32⟩ : BufTy).Contents (Elt Ideal) → (⟨S50000, .i32⟩ : BufTy).Contents (Elt Ideal) → (⟨S850000, .i32⟩ : BufTy).Contents (Elt Ideal)) s (iotaInDim S50000 32 0)

/-- The targets followed by every node once (one self-loop per node). -/
def dfull (d : Vec Ideal S800000 .i32) : Vec Ideal S850000 .i32 :=
  ((fun a b => concatenate S850000 0 [⟨S800000, a⟩, ⟨S50000, b⟩] concatenates_S800000_S50000_S850000_d0) : (⟨S800000, .i32⟩ : BufTy).Contents (Elt Ideal) → (⟨S50000, .i32⟩ : BufTy).Contents (Elt Ideal) → (⟨S850000, .i32⟩ : BufTy).Contents (Elt Ideal)) d (iotaInDim S50000 32 0)

/-- The symmetric normalisation of each edge and self-loop: with deg the number of times a node occurs among the targets, clamped below at one, the product of deg's inverse square roots at the edge's two ends (an index below zero wraps round by the number of nodes). -/
def norm (sf : Vec Ideal S850000 .i32) (df : Vec Ideal S850000 .i32) : Vec Ideal S850000 .f32 :=
  (mulf (F := Ideal) (φ := .f32) : (⟨S850000, .f32⟩ : BufTy).Contents (Elt Ideal) → (⟨S850000, .f32⟩ : BufTy).Contents (Elt Ideal) → (⟨S850000, .f32⟩ : BufTy).Contents (Elt Ideal)) (((fun x i => Host.gather gather_S50000_S850000x1_S850000_n_0_n_n_0_1_1 x i) : (⟨S50000, .f32⟩ : BufTy).Contents (Elt Ideal) → (⟨S850000x1, .i32⟩ : BufTy).Contents (Elt Ideal) → (⟨S850000, .f32⟩ : BufTy).Contents (Elt Ideal)) ((Host.rsqrt (F := Ideal) (φ := .f32) : (⟨S50000, .f32⟩ : BufTy).Contents (Elt Ideal) → (⟨S50000, .f32⟩ : BufTy).Contents (Elt Ideal)) ((maximumf (F := Ideal) (φ := .f32) : (⟨S50000, .f32⟩ : BufTy).Contents (Elt Ideal) → (⟨S50000, .f32⟩ : BufTy).Contents (Elt Ideal) → (⟨S50000, .f32⟩ : BufTy).Contents (Elt Ideal)) (((fun x i u => Host.scatterAdd (F := Ideal) (φ := .f32) scatter_S50000_S850000x1_S850000_n_0_0_1 x i u) : (⟨S50000, .f32⟩ : BufTy).Contents (Elt Ideal) → (⟨S850000x1, .i32⟩ : BufTy).Contents (Elt Ideal) → (⟨S850000, .f32⟩ : BufTy).Contents (Elt Ideal) → (⟨S50000, .f32⟩ : BufTy).Contents (Elt Ideal)) ((broadcastInDim S50000 ![] bcast_S_S50000 : (⟨S_, .f32⟩ : BufTy).Contents (Elt Ideal) → (⟨S50000, .f32⟩ : BufTy).Contents (Elt Ideal)) (constant (F := Ideal) S_ .f32 0x00000000#32)) ((broadcastInDim S850000x1 ![0] bcast_S850000_S850000x1_0 : (⟨S850000, .i32⟩ : BufTy).Contents (Elt Ideal) → (⟨S850000x1, .i32⟩ : BufTy).Contents (Elt Ideal)) df) ((broadcastInDim S850000 ![] bcast_S_S850000 : (⟨S_, .f32⟩ : BufTy).Contents (Elt Ideal) → (⟨S850000, .f32⟩ : BufTy).Contents (Elt Ideal)) (constant (F := Ideal) S_ .f32 0x3F800000#32))) ((broadcastInDim S50000 ![] bcast_S_S50000 : (⟨S_, .f32⟩ : BufTy).Contents (Elt Ideal) → (⟨S50000, .f32⟩ : BufTy).Contents (Elt Ideal)) (constant (F := Ideal) S_ .f32 0x3F800000#32)))) ((broadcastInDim S850000x1 ![0] bcast_S850000_S850000x1_0 : (⟨S850000, .i32⟩ : BufTy).Contents (Elt Ideal) → (⟨S850000x1, .i32⟩ : BufTy).Contents (Elt Ideal)) ((select : (⟨S850000, .i1⟩ : BufTy).Contents (Elt Ideal) → (⟨S850000, .i32⟩ : BufTy).Contents (Elt Ideal) → (⟨S850000, .i32⟩ : BufTy).Contents (Elt Ideal) → (⟨S850000, .i32⟩ : BufTy).Contents (Elt Ideal)) ((cmpi .slt : (⟨S850000, .i32⟩ : BufTy).Contents (Elt Ideal) → (⟨S850000, .i32⟩ : BufTy).Contents (Elt Ideal) → (⟨S850000, .i1⟩ : BufTy).Contents (Elt Ideal)) sf ((broadcastInDim S850000 ![] bcast_S_S850000 : (⟨S_, .i32⟩ : BufTy).Contents (Elt Ideal) → (⟨S850000, .i32⟩ : BufTy).Contents (Elt Ideal)) (constantI S_ 32 0#32))) ((addi : (⟨S850000, .i32⟩ : BufTy).Contents (Elt Ideal) → (⟨S850000, .i32⟩ : BufTy).Contents (Elt Ideal) → (⟨S850000, .i32⟩ : BufTy).Contents (Elt Ideal)) sf ((broadcastInDim S850000 ![] bcast_S_S850000 : (⟨S_, .i32⟩ : BufTy).Contents (Elt Ideal) → (⟨S850000, .i32⟩ : BufTy).Contents (Elt Ideal)) (constantI S_ 32 50000#32))) sf))) (((fun x i => Host.gather gather_S50000_S850000x1_S850000_n_0_n_n_0_1_1 x i) : (⟨S50000, .f32⟩ : BufTy).Contents (Elt Ideal) → (⟨S850000x1, .i32⟩ : BufTy).Contents (Elt Ideal) → (⟨S850000, .f32⟩ : BufTy).Contents (Elt Ideal)) ((Host.rsqrt (F := Ideal) (φ := .f32) : (⟨S50000, .f32⟩ : BufTy).Contents (Elt Ideal) → (⟨S50000, .f32⟩ : BufTy).Contents (Elt Ideal)) ((maximumf (F := Ideal) (φ := .f32) : (⟨S50000, .f32⟩ : BufTy).Contents (Elt Ideal) → (⟨S50000, .f32⟩ : BufTy).Contents (Elt Ideal) → (⟨S50000, .f32⟩ : BufTy).Contents (Elt Ideal)) (((fun x i u => Host.scatterAdd (F := Ideal) (φ := .f32) scatter_S50000_S850000x1_S850000_n_0_0_1 x i u) : (⟨S50000, .f32⟩ : BufTy).Contents (Elt Ideal) → (⟨S850000x1, .i32⟩ : BufTy).Contents (Elt Ideal) → (⟨S850000, .f32⟩ : BufTy).Contents (Elt Ideal) → (⟨S50000, .f32⟩ : BufTy).Contents (Elt Ideal)) ((broadcastInDim S50000 ![] bcast_S_S50000 : (⟨S_, .f32⟩ : BufTy).Contents (Elt Ideal) → (⟨S50000, .f32⟩ : BufTy).Contents (Elt Ideal)) (constant (F := Ideal) S_ .f32 0x00000000#32)) ((broadcastInDim S850000x1 ![0] bcast_S850000_S850000x1_0 : (⟨S850000, .i32⟩ : BufTy).Contents (Elt Ideal) → (⟨S850000x1, .i32⟩ : BufTy).Contents (Elt Ideal)) df) ((broadcastInDim S850000 ![] bcast_S_S850000 : (⟨S_, .f32⟩ : BufTy).Contents (Elt Ideal) → (⟨S850000, .f32⟩ : BufTy).Contents (Elt Ideal)) (constant (F := Ideal) S_ .f32 0x3F800000#32))) ((broadcastInDim S50000 ![] bcast_S_S50000 : (⟨S_, .f32⟩ : BufTy).Contents (Elt Ideal) → (⟨S50000, .f32⟩ : BufTy).Contents (Elt Ideal)) (constant (F := Ideal) S_ .f32 0x3F800000#32)))) ((broadcastInDim S850000x1 ![0] bcast_S850000_S850000x1_0 : (⟨S850000, .i32⟩ : BufTy).Contents (Elt Ideal) → (⟨S850000x1, .i32⟩ : BufTy).Contents (Elt Ideal)) ((select : (⟨S850000, .i1⟩ : BufTy).Contents (Elt Ideal) → (⟨S850000, .i32⟩ : BufTy).Contents (Elt Ideal) → (⟨S850000, .i32⟩ : BufTy).Contents (Elt Ideal) → (⟨S850000, .i32⟩ : BufTy).Contents (Elt Ideal)) ((cmpi .slt : (⟨S850000, .i32⟩ : BufTy).Contents (Elt Ideal) → (⟨S850000, .i32⟩ : BufTy).Contents (Elt Ideal) → (⟨S850000, .i1⟩ : BufTy).Contents (Elt Ideal)) df ((broadcastInDim S850000 ![] bcast_S_S850000 : (⟨S_, .i32⟩ : BufTy).Contents (Elt Ideal) → (⟨S850000, .i32⟩ : BufTy).Contents (Elt Ideal)) (constantI S_ 32 0#32))) ((addi : (⟨S850000, .i32⟩ : BufTy).Contents (Elt Ideal) → (⟨S850000, .i32⟩ : BufTy).Contents (Elt Ideal) → (⟨S850000, .i32⟩ : BufTy).Contents (Elt Ideal)) df ((broadcastInDim S850000 ![] bcast_S_S850000 : (⟨S_, .i32⟩ : BufTy).Contents (Elt Ideal) → (⟨S850000, .i32⟩ : BufTy).Contents (Elt Ideal)) (constantI S_ 32 50000#32))) df)))

/-- How many edges leave each node, clamped below at one. -/
def cnt (s : Vec Ideal S800000 .i32) : Vec Ideal S50000 .f32 :=
  (maximumf (F := Ideal) (φ := .f32) : (⟨S50000, .f32⟩ : BufTy).Contents (Elt Ideal) → (⟨S50000, .f32⟩ : BufTy).Contents (Elt Ideal) → (⟨S50000, .f32⟩ : BufTy).Contents (Elt Ideal)) (((fun x i u => Host.scatterAdd (F := Ideal) (φ := .f32) scatter_S50000_S800000x1_S800000_n_0_0_1 x i u) : (⟨S50000, .f32⟩ : BufTy).Contents (Elt Ideal) → (⟨S800000x1, .i32⟩ : BufTy).Contents (Elt Ideal) → (⟨S800000, .f32⟩ : BufTy).Contents (Elt Ideal) → (⟨S50000, .f32⟩ : BufTy).Contents (Elt Ideal)) ((broadcastInDim S50000 ![] bcast_S_S50000 : (⟨S_, .f32⟩ : BufTy).Contents (Elt Ideal) → (⟨S50000, .f32⟩ : BufTy).Contents (Elt Ideal)) (constant (F := Ideal) S_ .f32 0x00000000#32)) ((broadcastInDim S800000x1 ![0] bcast_S800000_S800000x1_0 : (⟨S800000, .i32⟩ : BufTy).Contents (Elt Ideal) → (⟨S800000x1, .i32⟩ : BufTy).Contents (Elt Ideal)) s) ((broadcastInDim S800000 ![] bcast_S_S800000 : (⟨S_, .f32⟩ : BufTy).Contents (Elt Ideal) → (⟨S800000, .f32⟩ : BufTy).Contents (Elt Ideal)) (constant (F := Ideal) S_ .f32 0x3F800000#32))) ((broadcastInDim S50000 ![] bcast_S_S50000 : (⟨S_, .f32⟩ : BufTy).Contents (Elt Ideal) → (⟨S50000, .f32⟩ : BufTy).Contents (Elt Ideal)) (constant (F := Ideal) S_ .f32 0x3F800000#32))

/-- A vector of 64 entries as a one-row matrix. -/
def row64 (b : Vec Ideal S64 .f32) : Vec Ideal S1x64 .f32 :=
  fun i => shapeCast S1x64 b shapeCasts_S64_S1x64 i

/-- A vector of one entry as a one-by-one matrix. -/
def row1 (b : Vec Ideal S1 .f32) : Vec Ideal S1x1 .f32 :=
  fun i => shapeCast S1x1 b shapeCasts_S1_S1x1 i

/-- The first of the four stacked [64, 64] weight matrices. -/
def cW0 (w : Vec Ideal S4x64x64 .f32) : Vec Ideal S64x64 .f32 :=
  fun i => shapeCast S64x64 (((extractStridedSlice S1x64x64 ![0, 0, 0] · slices_S4x64x64_S1x64x64_0_0_0) : (⟨S4x64x64, .f32⟩ : BufTy).Contents (Elt Ideal) → (⟨S1x64x64, .f32⟩ : BufTy).Contents (Elt Ideal)) w) shapeCasts_S1x64x64_S64x64 i

/-- The first of the four stacked bias vectors. -/
def cb0 (b : Vec Ideal S4x64 .f32) : Vec Ideal S64 .f32 :=
  fun i => shapeCast S64 (((extractStridedSlice S1x64 ![0, 0] · slices_S4x64_S1x64_0_0) : (⟨S4x64, .f32⟩ : BufTy).Contents (Elt Ideal) → (⟨S1x64, .f32⟩ : BufTy).Contents (Elt Ideal)) b) shapeCasts_S1x64_S64 i

/-- The second of the four stacked [64, 64] weight matrices. -/
def cW1 (w : Vec Ideal S4x64x64 .f32) : Vec Ideal S64x64 .f32 :=
  fun i => shapeCast S64x64 (((extractStridedSlice S1x64x64 ![1, 0, 0] · slices_S4x64x64_S1x64x64_1_0_0) : (⟨S4x64x64, .f32⟩ : BufTy).Contents (Elt Ideal) → (⟨S1x64x64, .f32⟩ : BufTy).Contents (Elt Ideal)) w) shapeCasts_S1x64x64_S64x64 i

/-- The second of the four stacked bias vectors. -/
def cb1 (b : Vec Ideal S4x64 .f32) : Vec Ideal S64 .f32 :=
  fun i => shapeCast S64 (((extractStridedSlice S1x64 ![1, 0] · slices_S4x64_S1x64_1_0) : (⟨S4x64, .f32⟩ : BufTy).Contents (Elt Ideal) → (⟨S1x64, .f32⟩ : BufTy).Contents (Elt Ideal)) b) shapeCasts_S1x64_S64 i

/-- The third of the four stacked [64, 64] weight matrices. -/
def cW2 (w : Vec Ideal S4x64x64 .f32) : Vec Ideal S64x64 .f32 :=
  fun i => shapeCast S64x64 (((extractStridedSlice S1x64x64 ![2, 0, 0] · slices_S4x64x64_S1x64x64_2_0_0) : (⟨S4x64x64, .f32⟩ : BufTy).Contents (Elt Ideal) → (⟨S1x64x64, .f32⟩ : BufTy).Contents (Elt Ideal)) w) shapeCasts_S1x64x64_S64x64 i

/-- The third of the four stacked bias vectors. -/
def cb2 (b : Vec Ideal S4x64 .f32) : Vec Ideal S64 .f32 :=
  fun i => shapeCast S64 (((extractStridedSlice S1x64 ![2, 0] · slices_S4x64_S1x64_2_0) : (⟨S4x64, .f32⟩ : BufTy).Contents (Elt Ideal) → (⟨S1x64, .f32⟩ : BufTy).Contents (Elt Ideal)) b) shapeCasts_S1x64_S64 i

/-- The fourth of the four stacked [64, 64] weight matrices. -/
def cW3 (w : Vec Ideal S4x64x64 .f32) : Vec Ideal S64x64 .f32 :=
  fun i => shapeCast S64x64 (((extractStridedSlice S1x64x64 ![3, 0, 0] · slices_S4x64x64_S1x64x64_3_0_0) : (⟨S4x64x64, .f32⟩ : BufTy).Contents (Elt Ideal) → (⟨S1x64x64, .f32⟩ : BufTy).Contents (Elt Ideal)) w) shapeCasts_S1x64x64_S64x64 i

/-- The fourth of the four stacked bias vectors. -/
def cb3 (b : Vec Ideal S4x64 .f32) : Vec Ideal S64 .f32 :=
  fun i => shapeCast S64 (((extractStridedSlice S1x64 ![3, 0] · slices_S4x64_S1x64_3_0) : (⟨S4x64, .f32⟩ : BufTy).Contents (Elt Ideal) → (⟨S1x64, .f32⟩ : BufTy).Contents (Elt Ideal)) b) shapeCasts_S1x64_S64 i

/-- The normalised neighbourhood sum: row e of h's rows gathered at the sources (an index below zero wraps round by the number of nodes) is scaled by the edge's normalisation, and the scaled rows are added up at the targets, from zero. -/
def agg (h : Vec Ideal S50000x64 .f32) (sf : Vec Ideal S850000 .i32) (df : Vec Ideal S850000 .i32) (nm : Vec Ideal S850000 .f32) : Vec Ideal S50000x64 .f32 :=
  ((fun x i u => Host.scatterAdd (F := Ideal) (φ := .f32) scatter_S50000x64_S850000x1_S850000x64_1_0_0_1 x i u) : (⟨S50000x64, .f32⟩ : BufTy).Contents (Elt Ideal) → (⟨S850000x1, .i32⟩ : BufTy).Contents (Elt Ideal) → (⟨S850000x64, .f32⟩ : BufTy).Contents (Elt Ideal) → (⟨S50000x64, .f32⟩ : BufTy).Contents (Elt Ideal)) ((broadcastInDim S50000x64 ![] bcast_S_S50000x64 : (⟨S_, .f32⟩ : BufTy).Contents (Elt Ideal) → (⟨S50000x64, .f32⟩ : BufTy).Contents (Elt Ideal)) (constant (F := Ideal) S_ .f32 0x00000000#32)) ((broadcastInDim S850000x1 ![0] bcast_S850000_S850000x1_0 : (⟨S850000, .i32⟩ : BufTy).Contents (Elt Ideal) → (⟨S850000x1, .i32⟩ : BufTy).Contents (Elt Ideal)) df) ((mulf (F := Ideal) (φ := .f32) : (⟨S850000x64, .f32⟩ : BufTy).Contents (Elt Ideal) → (⟨S850000x64, .f32⟩ : BufTy).Contents (Elt Ideal) → (⟨S850000x64, .f32⟩ : BufTy).Contents (Elt Ideal)) (((fun x i => Host.gather gather_S50000x64_S850000x1_S850000x64_1_0_n_n_0_1_164 x i) : (⟨S50000x64, .f32⟩ : BufTy).Contents (Elt Ideal) → (⟨S850000x1, .i32⟩ : BufTy).Contents (Elt Ideal) → (⟨S850000x64, .f32⟩ : BufTy).Contents (Elt Ideal)) h ((broadcastInDim S850000x1 ![0] bcast_S850000_S850000x1_0 : (⟨S850000, .i32⟩ : BufTy).Contents (Elt Ideal) → (⟨S850000x1, .i32⟩ : BufTy).Contents (Elt Ideal)) ((select : (⟨S850000, .i1⟩ : BufTy).Contents (Elt Ideal) → (⟨S850000, .i32⟩ : BufTy).Contents (Elt Ideal) → (⟨S850000, .i32⟩ : BufTy).Contents (Elt Ideal) → (⟨S850000, .i32⟩ : BufTy).Contents (Elt Ideal)) ((cmpi .slt : (⟨S850000, .i32⟩ : BufTy).Contents (Elt Ideal) → (⟨S850000, .i32⟩ : BufTy).Contents (Elt Ideal) → (⟨S850000, .i1⟩ : BufTy).Contents (Elt Ideal)) sf ((broadcastInDim S850000 ![] bcast_S_S850000 : (⟨S_, .i32⟩ : BufTy).Contents (Elt Ideal) → (⟨S850000, .i32⟩ : BufTy).Contents (Elt Ideal)) (constantI S_ 32 0#32))) ((addi : (⟨S850000, .i32⟩ : BufTy).Contents (Elt Ideal) → (⟨S850000, .i32⟩ : BufTy).Contents (Elt Ideal) → (⟨S850000, .i32⟩ : BufTy).Contents (Elt Ideal)) sf ((broadcastInDim S850000 ![] bcast_S_S850000 : (⟨S_, .i32⟩ : BufTy).Contents (Elt Ideal) → (⟨S850000, .i32⟩ : BufTy).Contents (Elt Ideal)) (constantI S_ 32 50000#32))) sf))) ((broadcastInDim S850000x64 ![0, 1] bcast_S850000x1_S850000x64_0_1 : (⟨S850000x1, .f32⟩ : BufTy).Contents (Elt Ideal) → (⟨S850000x64, .f32⟩ : BufTy).Contents (Elt Ideal)) ((broadcastInDim S850000x1 ![0] bcast_S850000_S850000x1_0 : (⟨S850000, .f32⟩ : BufTy).Contents (Elt Ideal) → (⟨S850000x1, .f32⟩ : BufTy).Contents (Elt Ideal)) nm)))

/-- The gradient gate: per edge the squared difference of xc's rows at its source and its target (an index below zero wraps round by the number of nodes), added up at the sources from zero, divided by the number of edges leaving the node, then the hyperbolic tangent. -/
def gate (xc : Vec Ideal S50000x64 .f32) (s : Vec Ideal S800000 .i32) (d : Vec Ideal S800000 .i32) (c : Vec Ideal S50000 .f32) : Vec Ideal S50000x64 .f32 :=
  (Host.tanh (F := Ideal) (φ := .f32) : (⟨S50000x64, .f32⟩ : BufTy).Contents (Elt Ideal) → (⟨S50000x64, .f32⟩ : BufTy).Contents (Elt Ideal)) ((Host.divf (F := Ideal) (φ := .f32) : (⟨S50000x64, .f32⟩ : BufTy).Contents (Elt Ideal) → (⟨S50000x64, .f32⟩ : BufTy).Contents (Elt Ideal) → (⟨S50000x64, .f32⟩ : BufTy).Contents (Elt Ideal)) (((fun x i u => Host.scatterAdd (F := Ideal) (φ := .f32) scatter_S50000x64_S800000x1_S800000x64_1_0_0_1 x i u) : (⟨S50000x64, .f32⟩ : BufTy).Contents (Elt Ideal) → (⟨S800000x1, .i32⟩ : BufTy).Contents (Elt Ideal) → (⟨S800000x64, .f32⟩ : BufTy).Contents (Elt Ideal) → (⟨S50000x64, .f32⟩ : BufTy).Contents (Elt Ideal)) ((broadcastInDim S50000x64 ![] bcast_S_S50000x64 : (⟨S_, .f32⟩ : BufTy).Contents (Elt Ideal) → (⟨S50000x64, .f32⟩ : BufTy).Contents (Elt Ideal)) (constant (F := Ideal) S_ .f32 0x00000000#32)) ((broadcastInDim S800000x1 ![0] bcast_S800000_S800000x1_0 : (⟨S800000, .i32⟩ : BufTy).Contents (Elt Ideal) → (⟨S800000x1, .i32⟩ : BufTy).Contents (Elt Ideal)) s) ((mulf (F := Ideal) (φ := .f32) : (⟨S800000x64, .f32⟩ : BufTy).Contents (Elt Ideal) → (⟨S800000x64, .f32⟩ : BufTy).Contents (Elt Ideal) → (⟨S800000x64, .f32⟩ : BufTy).Contents (Elt Ideal)) ((subf (F := Ideal) (φ := .f32) : (⟨S800000x64, .f32⟩ : BufTy).Contents (Elt Ideal) → (⟨S800000x64, .f32⟩ : BufTy).Contents (Elt Ideal) → (⟨S800000x64, .f32⟩ : BufTy).Contents (Elt Ideal)) (((fun x i => Host.gather gather_S50000x64_S800000x1_S800000x64_1_0_n_n_0_1_164 x i) : (⟨S50000x64, .f32⟩ : BufTy).Contents (Elt Ideal) → (⟨S800000x1, .i32⟩ : BufTy).Contents (Elt Ideal) → (⟨S800000x64, .f32⟩ : BufTy).Contents (Elt Ideal)) xc ((broadcastInDim S800000x1 ![0] bcast_S800000_S800000x1_0 : (⟨S800000, .i32⟩ : BufTy).Contents (Elt Ideal) → (⟨S800000x1, .i32⟩ : BufTy).Contents (Elt Ideal)) ((select : (⟨S800000, .i1⟩ : BufTy).Contents (Elt Ideal) → (⟨S800000, .i32⟩ : BufTy).Contents (Elt Ideal) → (⟨S800000, .i32⟩ : BufTy).Contents (Elt Ideal) → (⟨S800000, .i32⟩ : BufTy).Contents (Elt Ideal)) ((cmpi .slt : (⟨S800000, .i32⟩ : BufTy).Contents (Elt Ideal) → (⟨S800000, .i32⟩ : BufTy).Contents (Elt Ideal) → (⟨S800000, .i1⟩ : BufTy).Contents (Elt Ideal)) s ((broadcastInDim S800000 ![] bcast_S_S800000 : (⟨S_, .i32⟩ : BufTy).Contents (Elt Ideal) → (⟨S800000, .i32⟩ : BufTy).Contents (Elt Ideal)) (constantI S_ 32 0#32))) ((addi : (⟨S800000, .i32⟩ : BufTy).Contents (Elt Ideal) → (⟨S800000, .i32⟩ : BufTy).Contents (Elt Ideal) → (⟨S800000, .i32⟩ : BufTy).Contents (Elt Ideal)) s ((broadcastInDim S800000 ![] bcast_S_S800000 : (⟨S_, .i32⟩ : BufTy).Contents (Elt Ideal) → (⟨S800000, .i32⟩ : BufTy).Contents (Elt Ideal)) (constantI S_ 32 50000#32))) s))) (((fun x i => Host.gather gather_S50000x64_S800000x1_S800000x64_1_0_n_n_0_1_164 x i) : (⟨S50000x64, .f32⟩ : BufTy).Contents (Elt Ideal) → (⟨S800000x1, .i32⟩ : BufTy).Contents (Elt Ideal) → (⟨S800000x64, .f32⟩ : BufTy).Contents (Elt Ideal)) xc ((broadcastInDim S800000x1 ![0] bcast_S800000_S800000x1_0 : (⟨S800000, .i32⟩ : BufTy).Contents (Elt Ideal) → (⟨S800000x1, .i32⟩ : BufTy).Contents (Elt Ideal)) ((select : (⟨S800000, .i1⟩ : BufTy).Contents (Elt Ideal) → (⟨S800000, .i32⟩ : BufTy).Contents (Elt Ideal) → (⟨S800000, .i32⟩ : BufTy).Contents (Elt Ideal) → (⟨S800000, .i32⟩ : BufTy).Contents (Elt Ideal)) ((cmpi .slt : (⟨S800000, .i32⟩ : BufTy).Contents (Elt Ideal) → (⟨S800000, .i32⟩ : BufTy).Contents (Elt Ideal) → (⟨S800000, .i1⟩ : BufTy).Contents (Elt Ideal)) d ((broadcastInDim S800000 ![] bcast_S_S800000 : (⟨S_, .i32⟩ : BufTy).Contents (Elt Ideal) → (⟨S800000, .i32⟩ : BufTy).Contents (Elt Ideal)) (constantI S_ 32 0#32))) ((addi : (⟨S800000, .i32⟩ : BufTy).Contents (Elt Ideal) → (⟨S800000, .i32⟩ : BufTy).Contents (Elt Ideal) → (⟨S800000, .i32⟩ : BufTy).Contents (Elt Ideal)) d ((broadcastInDim S800000 ![] bcast_S_S800000 : (⟨S_, .i32⟩ : BufTy).Contents (Elt Ideal) → (⟨S800000, .i32⟩ : BufTy).Contents (Elt Ideal)) (constantI S_ 32 50000#32))) d)))) ((subf (F := Ideal) (φ := .f32) : (⟨S800000x64, .f32⟩ : BufTy).Contents (Elt Ideal) → (⟨S800000x64, .f32⟩ : BufTy).Contents (Elt Ideal) → (⟨S800000x64, .f32⟩ : BufTy).Contents (Elt Ideal)) (((fun x i => Host.gather gather_S50000x64_S800000x1_S800000x64_1_0_n_n_0_1_164 x i) : (⟨S50000x64, .f32⟩ : BufTy).Contents (Elt Ideal) → (⟨S800000x1, .i32⟩ : BufTy).Contents (Elt Ideal) → (⟨S800000x64, .f32⟩ : BufTy).Contents (Elt Ideal)) xc ((broadcastInDim S800000x1 ![0] bcast_S800000_S800000x1_0 : (⟨S800000, .i32⟩ : BufTy).Contents (Elt Ideal) → (⟨S800000x1, .i32⟩ : BufTy).Contents (Elt Ideal)) ((select : (⟨S800000, .i1⟩ : BufTy).Contents (Elt Ideal) → (⟨S800000, .i32⟩ : BufTy).Contents (Elt Ideal) → (⟨S800000, .i32⟩ : BufTy).Contents (Elt Ideal) → (⟨S800000, .i32⟩ : BufTy).Contents (Elt Ideal)) ((cmpi .slt : (⟨S800000, .i32⟩ : BufTy).Contents (Elt Ideal) → (⟨S800000, .i32⟩ : BufTy).Contents (Elt Ideal) → (⟨S800000, .i1⟩ : BufTy).Contents (Elt Ideal)) s ((broadcastInDim S800000 ![] bcast_S_S800000 : (⟨S_, .i32⟩ : BufTy).Contents (Elt Ideal) → (⟨S800000, .i32⟩ : BufTy).Contents (Elt Ideal)) (constantI S_ 32 0#32))) ((addi : (⟨S800000, .i32⟩ : BufTy).Contents (Elt Ideal) → (⟨S800000, .i32⟩ : BufTy).Contents (Elt Ideal) → (⟨S800000, .i32⟩ : BufTy).Contents (Elt Ideal)) s ((broadcastInDim S800000 ![] bcast_S_S800000 : (⟨S_, .i32⟩ : BufTy).Contents (Elt Ideal) → (⟨S800000, .i32⟩ : BufTy).Contents (Elt Ideal)) (constantI S_ 32 50000#32))) s))) (((fun x i => Host.gather gather_S50000x64_S800000x1_S800000x64_1_0_n_n_0_1_164 x i) : (⟨S50000x64, .f32⟩ : BufTy).Contents (Elt Ideal) → (⟨S800000x1, .i32⟩ : BufTy).Contents (Elt Ideal) → (⟨S800000x64, .f32⟩ : BufTy).Contents (Elt Ideal)) xc ((broadcastInDim S800000x1 ![0] bcast_S800000_S800000x1_0 : (⟨S800000, .i32⟩ : BufTy).Contents (Elt Ideal) → (⟨S800000x1, .i32⟩ : BufTy).Contents (Elt Ideal)) ((select : (⟨S800000, .i1⟩ : BufTy).Contents (Elt Ideal) → (⟨S800000, .i32⟩ : BufTy).Contents (Elt Ideal) → (⟨S800000, .i32⟩ : BufTy).Contents (Elt Ideal) → (⟨S800000, .i32⟩ : BufTy).Contents (Elt Ideal)) ((cmpi .slt : (⟨S800000, .i32⟩ : BufTy).Contents (Elt Ideal) → (⟨S800000, .i32⟩ : BufTy).Contents (Elt Ideal) → (⟨S800000, .i1⟩ : BufTy).Contents (Elt Ideal)) d ((broadcastInDim S800000 ![] bcast_S_S800000 : (⟨S_, .i32⟩ : BufTy).Contents (Elt Ideal) → (⟨S800000, .i32⟩ : BufTy).Contents (Elt Ideal)) (constantI S_ 32 0#32))) ((addi : (⟨S800000, .i32⟩ : BufTy).Contents (Elt Ideal) → (⟨S800000, .i32⟩ : BufTy).Contents (Elt Ideal) → (⟨S800000, .i32⟩ : BufTy).Contents (Elt Ideal)) d ((broadcastInDim S800000 ![] bcast_S_S800000 : (⟨S_, .i32⟩ : BufTy).Contents (Elt Ideal) → (⟨S800000, .i32⟩ : BufTy).Contents (Elt Ideal)) (constantI S_ 32 50000#32))) d)))))) ((broadcastInDim S50000x64 ![0, 1] bcast_S50000x1_S50000x64_0_1 : (⟨S50000x1, .f32⟩ : BufTy).Contents (Elt Ideal) → (⟨S50000x64, .f32⟩ : BufTy).Contents (Elt Ideal)) ((broadcastInDim S50000x1 ![0] bcast_S50000_S50000x1_0 : (⟨S50000, .f32⟩ : BufTy).Contents (Elt Ideal) → (⟨S50000x1, .f32⟩ : BufTy).Contents (Elt Ideal)) c)))

/-- The sum of the rows of x over each graph of the batch, from zero. -/
def pool (x : Vec Ideal S50000x64 .f32) (batch : Vec Ideal S50000 .i32) : Vec Ideal S500x64 .f32 :=
  ((fun x i u => Host.scatterAdd (F := Ideal) (φ := .f32) scatter_S500x64_S50000x1_S50000x64_1_0_0_1 x i u) : (⟨S500x64, .f32⟩ : BufTy).Contents (Elt Ideal) → (⟨S50000x1, .i32⟩ : BufTy).Contents (Elt Ideal) → (⟨S50000x64, .f32⟩ : BufTy).Contents (Elt Ideal) → (⟨S500x64, .f32⟩ : BufTy).Contents (Elt Ideal)) ((broadcastInDim S500x64 ![] bcast_S_S500x64 : (⟨S_, .f32⟩ : BufTy).Contents (Elt Ideal) → (⟨S500x64, .f32⟩ : BufTy).Contents (Elt Ideal)) (constant (F := Ideal) S_ .f32 0x00000000#32)) ((broadcastInDim S50000x1 ![0] bcast_S50000_S50000x1_0 : (⟨S50000, .i32⟩ : BufTy).Contents (Elt Ideal) → (⟨S50000x1, .i32⟩ : BufTy).Contents (Elt Ideal)) batch) x

/-- Half the sum, over all edges and features, of the squared difference of x's rows at the edge's two ends. -/
def energy (x : Vec Ideal S50000x64 .f32) (s : Vec Ideal S800000 .i32) (d : Vec Ideal S800000 .i32) : Vec Ideal S_ .f32 :=
  (mulf (F := Ideal) (φ := .f32) : (⟨S_, .f32⟩ : BufTy).Contents (Elt Ideal) → (⟨S_, .f32⟩ : BufTy).Contents (Elt Ideal) → (⟨S_, .f32⟩ : BufTy).Contents (Elt Ideal)) (constant (F := Ideal) S_ .f32 0x3F000000#32) (((fun x v => Host.reduceAdd (F := Ideal) (φ := .f32) x v reducesTo_S800000x64_S_d0_1 h_S_) : (⟨S800000x64, .f32⟩ : BufTy).Contents (Elt Ideal) → (⟨S_, .f32⟩ : BufTy).Contents (Elt Ideal) → (⟨S_, .f32⟩ : BufTy).Contents (Elt Ideal)) ((mulf (F := Ideal) (φ := .f32) : (⟨S800000x64, .f32⟩ : BufTy).Contents (Elt Ideal) → (⟨S800000x64, .f32⟩ : BufTy).Contents (Elt Ideal) → (⟨S800000x64, .f32⟩ : BufTy).Contents (Elt Ideal)) ((subf (F := Ideal) (φ := .f32) : (⟨S800000x64, .f32⟩ : BufTy).Contents (Elt Ideal) → (⟨S800000x64, .f32⟩ : BufTy).Contents (Elt Ideal) → (⟨S800000x64, .f32⟩ : BufTy).Contents (Elt Ideal)) (((fun x i => Host.gather gather_S50000x64_S800000x1_S800000x64_1_0_n_n_0_1_164 x i) : (⟨S50000x64, .f32⟩ : BufTy).Contents (Elt Ideal) → (⟨S800000x1, .i32⟩ : BufTy).Contents (Elt Ideal) → (⟨S800000x64, .f32⟩ : BufTy).Contents (Elt Ideal)) x ((broadcastInDim S800000x1 ![0] bcast_S800000_S800000x1_0 : (⟨S800000, .i32⟩ : BufTy).Contents (Elt Ideal) → (⟨S800000x1, .i32⟩ : BufTy).Contents (Elt Ideal)) ((select : (⟨S800000, .i1⟩ : BufTy).Contents (Elt Ideal) → (⟨S800000, .i32⟩ : BufTy).Contents (Elt Ideal) → (⟨S800000, .i32⟩ : BufTy).Contents (Elt Ideal) → (⟨S800000, .i32⟩ : BufTy).Contents (Elt Ideal)) ((cmpi .slt : (⟨S800000, .i32⟩ : BufTy).Contents (Elt Ideal) → (⟨S800000, .i32⟩ : BufTy).Contents (Elt Ideal) → (⟨S800000, .i1⟩ : BufTy).Contents (Elt Ideal)) s ((broadcastInDim S800000 ![] bcast_S_S800000 : (⟨S_, .i32⟩ : BufTy).Contents (Elt Ideal) → (⟨S800000, .i32⟩ : BufTy).Contents (Elt Ideal)) (constantI S_ 32 0#32))) ((addi : (⟨S800000, .i32⟩ : BufTy).Contents (Elt Ideal) → (⟨S800000, .i32⟩ : BufTy).Contents (Elt Ideal) → (⟨S800000, .i32⟩ : BufTy).Contents (Elt Ideal)) s ((broadcastInDim S800000 ![] bcast_S_S800000 : (⟨S_, .i32⟩ : BufTy).Contents (Elt Ideal) → (⟨S800000, .i32⟩ : BufTy).Contents (Elt Ideal)) (constantI S_ 32 50000#32))) s))) (((fun x i => Host.gather gather_S50000x64_S800000x1_S800000x64_1_0_n_n_0_1_164 x i) : (⟨S50000x64, .f32⟩ : BufTy).Contents (Elt Ideal) → (⟨S800000x1, .i32⟩ : BufTy).Contents (Elt Ideal) → (⟨S800000x64, .f32⟩ : BufTy).Contents (Elt Ideal)) x ((broadcastInDim S800000x1 ![0] bcast_S800000_S800000x1_0 : (⟨S800000, .i32⟩ : BufTy).Contents (Elt Ideal) → (⟨S800000x1, .i32⟩ : BufTy).Contents (Elt Ideal)) ((select : (⟨S800000, .i1⟩ : BufTy).Contents (Elt Ideal) → (⟨S800000, .i32⟩ : BufTy).Contents (Elt Ideal) → (⟨S800000, .i32⟩ : BufTy).Contents (Elt Ideal) → (⟨S800000, .i32⟩ : BufTy).Contents (Elt Ideal)) ((cmpi .slt : (⟨S800000, .i32⟩ : BufTy).Contents (Elt Ideal) → (⟨S800000, .i32⟩ : BufTy).Contents (Elt Ideal) → (⟨S800000, .i1⟩ : BufTy).Contents (Elt Ideal)) d ((broadcastInDim S800000 ![] bcast_S_S800000 : (⟨S_, .i32⟩ : BufTy).Contents (Elt Ideal) → (⟨S800000, .i32⟩ : BufTy).Contents (Elt Ideal)) (constantI S_ 32 0#32))) ((addi : (⟨S800000, .i32⟩ : BufTy).Contents (Elt Ideal) → (⟨S800000, .i32⟩ : BufTy).Contents (Elt Ideal) → (⟨S800000, .i32⟩ : BufTy).Contents (Elt Ideal)) d ((broadcastInDim S800000 ![] bcast_S_S800000 : (⟨S_, .i32⟩ : BufTy).Contents (Elt Ideal) → (⟨S800000, .i32⟩ : BufTy).Contents (Elt Ideal)) (constantI S_ 32 50000#32))) d)))) ((subf (F := Ideal) (φ := .f32) : (⟨S800000x64, .f32⟩ : BufTy).Contents (Elt Ideal) → (⟨S800000x64, .f32⟩ : BufTy).Contents (Elt Ideal) → (⟨S800000x64, .f32⟩ : BufTy).Contents (Elt Ideal)) (((fun x i => Host.gather gather_S50000x64_S800000x1_S800000x64_1_0_n_n_0_1_164 x i) : (⟨S50000x64, .f32⟩ : BufTy).Contents (Elt Ideal) → (⟨S800000x1, .i32⟩ : BufTy).Contents (Elt Ideal) → (⟨S800000x64, .f32⟩ : BufTy).Contents (Elt Ideal)) x ((broadcastInDim S800000x1 ![0] bcast_S800000_S800000x1_0 : (⟨S800000, .i32⟩ : BufTy).Contents (Elt Ideal) → (⟨S800000x1, .i32⟩ : BufTy).Contents (Elt Ideal)) ((select : (⟨S800000, .i1⟩ : BufTy).Contents (Elt Ideal) → (⟨S800000, .i32⟩ : BufTy).Contents (Elt Ideal) → (⟨S800000, .i32⟩ : BufTy).Contents (Elt Ideal) → (⟨S800000, .i32⟩ : BufTy).Contents (Elt Ideal)) ((cmpi .slt : (⟨S800000, .i32⟩ : BufTy).Contents (Elt Ideal) → (⟨S800000, .i32⟩ : BufTy).Contents (Elt Ideal) → (⟨S800000, .i1⟩ : BufTy).Contents (Elt Ideal)) s ((broadcastInDim S800000 ![] bcast_S_S800000 : (⟨S_, .i32⟩ : BufTy).Contents (Elt Ideal) → (⟨S800000, .i32⟩ : BufTy).Contents (Elt Ideal)) (constantI S_ 32 0#32))) ((addi : (⟨S800000, .i32⟩ : BufTy).Contents (Elt Ideal) → (⟨S800000, .i32⟩ : BufTy).Contents (Elt Ideal) → (⟨S800000, .i32⟩ : BufTy).Contents (Elt Ideal)) s ((broadcastInDim S800000 ![] bcast_S_S800000 : (⟨S_, .i32⟩ : BufTy).Contents (Elt Ideal) → (⟨S800000, .i32⟩ : BufTy).Contents (Elt Ideal)) (constantI S_ 32 50000#32))) s))) (((fun x i => Host.gather gather_S50000x64_S800000x1_S800000x64_1_0_n_n_0_1_164 x i) : (⟨S50000x64, .f32⟩ : BufTy).Contents (Elt Ideal) → (⟨S800000x1, .i32⟩ : BufTy).Contents (Elt Ideal) → (⟨S800000x64, .f32⟩ : BufTy).Contents (Elt Ideal)) x ((broadcastInDim S800000x1 ![0] bcast_S800000_S800000x1_0 : (⟨S800000, .i32⟩ : BufTy).Contents (Elt Ideal) → (⟨S800000x1, .i32⟩ : BufTy).Contents (Elt Ideal)) ((select : (⟨S800000, .i1⟩ : BufTy).Contents (Elt Ideal) → (⟨S800000, .i32⟩ : BufTy).Contents (Elt Ideal) → (⟨S800000, .i32⟩ : BufTy).Contents (Elt Ideal) → (⟨S800000, .i32⟩ : BufTy).Contents (Elt Ideal)) ((cmpi .slt : (⟨S800000, .i32⟩ : BufTy).Contents (Elt Ideal) → (⟨S800000, .i32⟩ : BufTy).Contents (Elt Ideal) → (⟨S800000, .i1⟩ : BufTy).Contents (Elt Ideal)) d ((broadcastInDim S800000 ![] bcast_S_S800000 : (⟨S_, .i32⟩ : BufTy).Contents (Elt Ideal) → (⟨S800000, .i32⟩ : BufTy).Contents (Elt Ideal)) (constantI S_ 32 0#32))) ((addi : (⟨S800000, .i32⟩ : BufTy).Contents (Elt Ideal) → (⟨S800000, .i32⟩ : BufTy).Contents (Elt Ideal) → (⟨S800000, .i32⟩ : BufTy).Contents (Elt Ideal)) d ((broadcastInDim S800000 ![] bcast_S_S800000 : (⟨S_, .i32⟩ : BufTy).Contents (Elt Ideal) → (⟨S800000, .i32⟩ : BufTy).Contents (Elt Ideal)) (constantI S_ 32 50000#32))) d))))) (constant (F := Ideal) S_ .f32 0x00000000#32))

/-- The gate's weight matrix of layer 0 is cut out of its stack as the convolution's is. -/
abbrev gW0 := @cW0
/-- The gate's bias of layer 0 is cut out of its stack as the convolution's is. -/
abbrev gb0 := @cb0
/-- The gate's weight matrix of layer 1 is cut out of its stack as the convolution's is. -/
abbrev gW1 := @cW1
/-- The gate's bias of layer 1 is cut out of its stack as the convolution's is. -/
abbrev gb1 := @cb1
/-- The gate's weight matrix of layer 2 is cut out of its stack as the convolution's is. -/
abbrev gW2 := @cW2
/-- The gate's bias of layer 2 is cut out of its stack as the convolution's is. -/
abbrev gb2 := @cb2
/-- The gate's weight matrix of layer 3 is cut out of its stack as the convolution's is. -/
abbrev gW3 := @cW3
/-- The gate's bias of layer 3 is cut out of its stack as the convolution's is. -/
abbrev gb3 := @cb3

end Cert.KernelIdeal.KV

end
-- ==== Proof.KVLayer.lean ====
/-
  The network as a composition of whole-array functions over the extended reals: the input projection, one
  message-passing layer with its gradient gate, the node features after the four layers, and the two results — the
  head applied to the features pooled per graph, and the edge energy of the features.
-/
import proofs.«117928_j61658550502081_1_alg».proof.Proof.KVDefs
import proofs.«117928_j61658550502081_1_alg».proof.Proof.KOps
import proofs.«117928_j61658550502081_1_alg».proof.Proof.KHead

noncomputable section

namespace Cert.KernelIdeal.KV

open Idealize.ShloMosaic Cert.KernelIdeal

variable [Facts₀]

/-- The input projection: the features times the projection matrix, plus the bias row, clamped below at zero. -/
def pre (x : Vec Ideal S50000x128 .f32) (preW : Vec Ideal S128x64 .f32) (preb : Vec Ideal S64 .f32) : Vec Ideal S50000x64 .f32 :=
  BR (MM128 x preW) (row64 preb)

/-- A graph convolution followed by the rectifier: the normalised neighbourhood sum of x times W, plus the bias row,
    clamped below at zero. -/
def gcnrelu (x : Vec Ideal S50000x64 .f32) (W : Vec Ideal S64x64 .f32) (b : Vec Ideal S64 .f32)
    (sf df : Vec Ideal S850000 .i32) (nm : Vec Ideal S850000 .f32) : Vec Ideal S50000x64 .f32 :=
  BR (agg (MM64 x W) sf df nm) (row64 b)

/-- One layer: with t the gradient gate of the convolution of x by the gate's weights, the convex combination
    (1 - t) * x + t * (the convolution of x by the layer's weights). -/
def layer (x : Vec Ideal S50000x64 .f32) (W : Vec Ideal S64x64 .f32) (b : Vec Ideal S64 .f32) (gW : Vec Ideal S64x64 .f32)
    (gb : Vec Ideal S64 .f32) (s d : Vec Ideal S800000 .i32) (sf df : Vec Ideal S850000 .i32) (nm : Vec Ideal S850000 .f32) (c : Vec Ideal S50000 .f32) : Vec Ideal S50000x64 .f32 :=
  CB (gate (gcnrelu x gW gb sf df nm) s d c) x (gcnrelu x W b sf df nm)

/-- One layer over the graph the edge array gives: sources, targets, both with the self-loops appended, the
    normalisation and the out-degrees all computed from it. -/
def step (ei : Vec Ideal S2x800000 .i32) (x : Vec Ideal S50000x64 .f32) (W : Vec Ideal S64x64 .f32) (b : Vec Ideal S64 .f32)
    (gW : Vec Ideal S64x64 .f32) (gb : Vec Ideal S64 .f32) : Vec Ideal S50000x64 .f32 :=
  layer x W b gW gb (src ei) (dst ei) (sfull (src ei)) (dfull (dst ei)) (norm (sfull (src ei)) (dfull (dst ei)))
    (cnt (src ei))

/-- The node features after the input projection and the four layers. -/
def feat (x : Vec Ideal S50000x128 .f32) (ei : Vec Ideal S2x800000 .i32) (preW : Vec Ideal S128x64 .f32)
    (preb : Vec Ideal S64 .f32) (convW : Vec Ideal S4x64x64 .f32) (convb : Vec Ideal S4x64 .f32)
    (ggW : Vec Ideal S4x64x64 .f32) (ggb : Vec Ideal S4x64 .f32) : Vec Ideal S50000x64 .f32 :=
  step ei (step ei (step ei (step ei (pre x preW preb)
    (cW0 convW) (cb0 convb) (gW0 ggW) (gb0 ggb))
    (cW1 convW) (cb1 convb) (gW1 ggW) (gb1 ggb))
    (cW2 convW) (cb2 convb) (gW2 ggW) (gb2 ggb))
    (cW3 convW) (cb3 convb) (gW3 ggW) (gb3 ggb)

/-- The first result: the head applied to the features summed over each graph, its bias and scale vectors as rows. -/
def out (x : Vec Ideal S50000x128 .f32) (ei : Vec Ideal S2x800000 .i32) (batch : Vec Ideal S50000 .i32)
    (preW : Vec Ideal S128x64 .f32) (preb : Vec Ideal S64 .f32)
    (convW : Vec Ideal S4x64x64 .f32) (convb : Vec Ideal S4x64 .f32) (ggW : Vec Ideal S4x64x64 .f32) (ggb : Vec Ideal S4x64 .f32)
    (lin1W : Vec Ideal S64x64 .f32) (lin1b : Vec Ideal S64 .f32) (lin2W : Vec Ideal S64x64 .f32) (lin2b : Vec Ideal S64 .f32)
    (lin3W : Vec Ideal S64x64 .f32) (lin3b : Vec Ideal S64 .f32) (lin4W : Vec Ideal S64x1 .f32) (lin4b : Vec Ideal S1 .f32)
    (bn_g : Vec Ideal S64 .f32) (bn_b : Vec Ideal S64 .f32) : Vec Ideal S500x1 .f32 :=
  HEAD (pool (feat x ei preW preb convW convb ggW ggb) batch) lin1W (row64 lin1b) lin2W (row64 lin2b) lin3W (row64 lin3b)
    lin4W (row1 lin4b) (row64 bn_g) (row64 bn_b)

/-- The second result: the edge energy of the features. -/
def energyOut (x : Vec Ideal S50000x128 .f32) (ei : Vec Ideal S2x800000 .i32) (batch : Vec Ideal S50000 .i32)
    (preW : Vec Ideal S128x64 .f32) (preb : Vec Ideal S64 .f32)
    (convW : Vec Ideal S4x64x64 .f32) (convb : Vec Ideal S4x64 .f32) (ggW : Vec Ideal S4x64x64 .f32) (ggb : Vec Ideal S4x64 .f32)
    (lin1W : Vec Ideal S64x64 .f32) (lin1b : Vec Ideal S64 .f32) (lin2W : Vec Ideal S64x64 .f32) (lin2b : Vec Ideal S64 .f32)
    (lin3W : Vec Ideal S64x64 .f32) (lin3b : Vec Ideal S64 .f32) (lin4W : Vec Ideal S64x1 .f32) (lin4b : Vec Ideal S1 .f32)
    (bn_g : Vec Ideal S64 .f32) (bn_b : Vec Ideal S64 .f32) : Vec Ideal S_ .f32 :=
  energy (feat x ei preW preb convW convb ggW ggb) (src ei) (dst ei)

end Cert.KernelIdeal.KV

end
-- ==== Proof.KVFrame.lean ====
/-
  Buffers a line of operations leaves alone, and what every chunk of the program carries to the next.

  A reference outside the list of the references a line writes holds afterwards what it held before. From the
  prelude on, every chunk finds the same things in place: the arguments the later chunks read, and the graph's
  quantities the prelude computed from the edge array — sources, targets, both with the self-loops appended, the
  edge normalisation and the out-degrees.
-/
import proofs.«117928_j61658550502081_1_alg».proof.Proof.KVDefs
import Idealize.ShloMosaic.Lib.StableHlo.Run

noncomputable section

namespace Cert.KernelIdeal.KV

open Cert.KernelIdeal
open Idealize.ShloMosaic Idealize.ShloMosaic.TcCoe

/-- If the buffers a line's operations write are, one by one, the references of a list, each operation writes inside
    that list. -/
theorem forall_writes_sub {Val : EltTy → Type} (ops : List (HloOp τ sig Val)) (ys : List (Ref sig .tc))
    (h : ops.map (fun op => op.writes) = ys.map fun y => ({Proc.devRef .tc y} : Finset (DevRef τ sig))) :
    ops.Forall fun op => op.writes ⊆ (ys.map (Proc.devRef (τ := τ) .tc)).toFinset := by
  rw [List.forall_iff_forall_mem]
  intro op hop
  have hm : op.writes ∈ ops.map (fun op => op.writes) := List.mem_map_of_mem hop
  rw [h] at hm
  obtain ⟨y, hy, he⟩ := List.mem_map.mp hm
  rw [← he, Finset.singleton_subset_iff, List.mem_toFinset]
  exact List.mem_map_of_mem hy

/-- A reference outside the list of the references a line writes keeps its contents. -/
theorem after_keep {Val : EltTy → Type} (ops : List (HloOp τ sig Val)) (ys : List (Ref sig .tc))
    (h : ops.map (fun op => op.writes) = ys.map fun y => ({Proc.devRef .tc y} : Finset (DevRef τ sig)))
    (V : Valuation τ sig Val) {r : Ref sig .tc} (hr : r ∉ ys) :
    StableHlo.after ops V (Proc.devRef .tc r) = V (Proc.devRef .tc r) :=
  StableHlo.after_of_writes_sub ops V (forall_writes_sub ops ys h) hr

/-- The contents after six lines run one after the other, as six nested folds. -/
theorem after_append6 {Val : EltTy → Type} (a b c d e f : List (HloOp τ sig Val)) (V : Valuation τ sig Val) :
    StableHlo.after (a ++ b ++ c ++ d ++ e ++ f) V
      = StableHlo.after f (StableHlo.after e (StableHlo.after d (StableHlo.after c (StableHlo.after b (StableHlo.after a V))))) := by
  have happ : ∀ (l₁ l₂ : List (HloOp τ sig Val)) (W : Valuation τ sig Val),
      StableHlo.after (l₁ ++ l₂) W = StableHlo.after l₂ (StableHlo.after l₁ W) := by
    intro l₁
    induction l₁ with
    | nil => intro l₂ W; rfl
    | cons op l ih => intro l₂ W; simp only [List.cons_append, StableHlo.after_cons, ih]
  rw [happ, happ, happ, happ, happ]

/-- The references every chunk after the prelude finds in place and leaves in place. -/
abbrev carriedRefs : List (Ref sig .tc) := [main_arg2, main_arg5, main_arg6, main_arg7, main_arg8, main_arg9, main_arg10, main_arg11, main_arg12, main_arg13, main_arg14, main_arg15, main_arg16, main_arg17, main_arg18, main_v1, main_v3, main_v5, main_v6, main_v28, main_v34]

variable [Facts₀]

/-- Relative to the contents `V` the program starts from, contents `W` hold the arguments the later chunks read as
    `V` does, and the graph's quantities as the functions of the edge array that they are. -/
structure Carried (V W : Valuation τ sig (Elt Ideal)) : Prop where
  arg2 : W (Proc.devRef .tc main_arg2) = V (Proc.devRef .tc main_arg2)
  arg5 : W (Proc.devRef .tc main_arg5) = V (Proc.devRef .tc main_arg5)
  arg6 : W (Proc.devRef .tc main_arg6) = V (Proc.devRef .tc main_arg6)
  arg7 : W (Proc.devRef .tc main_arg7) = V (Proc.devRef .tc main_arg7)
  arg8 : W (Proc.devRef .tc main_arg8) = V (Proc.devRef .tc main_arg8)
  arg9 : W (Proc.devRef .tc main_arg9) = V (Proc.devRef .tc main_arg9)
  arg10 : W (Proc.devRef .tc main_arg10) = V (Proc.devRef .tc main_arg10)
  arg11 : W (Proc.devRef .tc main_arg11) = V (Proc.devRef .tc main_arg11)
  arg12 : W (Proc.devRef .tc main_arg12) = V (Proc.devRef .tc main_arg12)
  arg13 : W (Proc.devRef .tc main_arg13) = V (Proc.devRef .tc main_arg13)
  arg14 : W (Proc.devRef .tc main_arg14) = V (Proc.devRef .tc main_arg14)
  arg15 : W (Proc.devRef .tc main_arg15) = V (Proc.devRef .tc main_arg15)
  arg16 : W (Proc.devRef .tc main_arg16) = V (Proc.devRef .tc main_arg16)
  arg17 : W (Proc.devRef .tc main_arg17) = V (Proc.devRef .tc main_arg17)
  arg18 : W (Proc.devRef .tc main_arg18) = V (Proc.devRef .tc main_arg18)
  s : W (Proc.devRef .tc main_v1) = src (V (Proc.devRef .tc main_arg1))
  d : W (Proc.devRef .tc main_v3) = dst (V (Proc.devRef .tc main_arg1))
  sf : W (Proc.devRef .tc main_v5) = sfull (src (V (Proc.devRef .tc main_arg1)))
  df : W (Proc.devRef .tc main_v6) = dfull (dst (V (Proc.devRef .tc main_arg1)))
  nm : W (Proc.devRef .tc main_v28) = norm (sfull (src (V (Proc.devRef .tc main_arg1)))) (dfull (dst (V (Proc.devRef .tc main_arg1))))
  c : W (Proc.devRef .tc main_v34) = cnt (src (V (Proc.devRef .tc main_arg1)))

/-- Contents that agree with carried ones on the carried references are carried. -/
theorem Carried.of_agree {V W W' : Valuation τ sig (Elt Ideal)} (h : Carried V W)
    (hk : ∀ r ∈ carriedRefs, W' (Proc.devRef .tc r) = W (Proc.devRef .tc r)) : Carried V W' where
  arg2 := (hk main_arg2 (by decide)).trans h.arg2
  arg5 := (hk main_arg5 (by decide)).trans h.arg5
  arg6 := (hk main_arg6 (by decide)).trans h.arg6
  arg7 := (hk main_arg7 (by decide)).trans h.arg7
  arg8 := (hk main_arg8 (by decide)).trans h.arg8
  arg9 := (hk main_arg9 (by decide)).trans h.arg9
  arg10 := (hk main_arg10 (by decide)).trans h.arg10
  arg11 := (hk main_arg11 (by decide)).trans h.arg11
  arg12 := (hk main_arg12 (by decide)).trans h.arg12
  arg13 := (hk main_arg13 (by decide)).trans h.arg13
  arg14 := (hk main_arg14 (by decide)).trans h.arg14
  arg15 := (hk main_arg15 (by decide)).trans h.arg15
  arg16 := (hk main_arg16 (by decide)).trans h.arg16
  arg17 := (hk main_arg17 (by decide)).trans h.arg17
  arg18 := (hk main_arg18 (by decide)).trans h.arg18
  s := (hk main_v1 (by decide)).trans h.s
  d := (hk main_v3 (by decide)).trans h.d
  sf := (hk main_v5 (by decide)).trans h.sf
  df := (hk main_v6 (by decide)).trans h.df
  nm := (hk main_v28 (by decide)).trans h.nm
  c := (hk main_v34 (by decide)).trans h.c

/-- A line that writes none of the carried references keeps carried contents carried. -/
theorem Carried.after {V W : Valuation τ sig (Elt Ideal)} (h : Carried V W) (ops : List (HloOp τ sig (Elt Ideal)))
    (ys : List (Ref sig .tc))
    (hw : ops.map (fun op => op.writes) = ys.map fun y => ({Proc.devRef .tc y} : Finset (DevRef τ sig)))
    (hys : ∀ r ∈ carriedRefs, r ∉ ys) : Carried V (StableHlo.after ops W) :=
  h.of_agree fun r hr => after_keep ops ys hw W (hys r hr)

end Cert.KernelIdeal.KV

end
-- ==== Proof.KVReadPre.lean ====
/-
  What the prelude leaves behind: the graph's quantities as functions of the edge array, and the projected input
  features; the arguments the later chunks read are left as they were.
-/
import proofs.«117928_j61658550502081_1_alg».proof.Proof.KRops
import proofs.«117928_j61658550502081_1_alg».proof.Proof.KVLayer
import proofs.«117928_j61658550502081_1_alg».proof.Proof.KVFrame
import proofs.«117928_j61658550502081_1_alg».proof.Proof.LibRegionOp

noncomputable section

namespace Cert.KernelIdeal.KV

open Cert.KernelIdeal Cert.KernelIdeal.Gen
open Idealize.ShloMosaic Idealize.ShloMosaic.TcCoe

/-- The references the prelude writes, in order. -/
abbrev wPre : List (Ref sig .tc) := [main_v0, main_v1, main_v2, main_v3, main_v4, main_v5, main_v6, main_cst, main_v7, main_cst_0, main_v8, main_v9, main_v10, main_cst_1, main_v11, main_v12, main_v13, main_c, main_v14, main_v15, main_c_2, main_v16, main_v17, main_v18, main_v19, main_v20, main_c_3, main_v21, main_v22, main_c_4, main_v23, main_v24, main_v25, main_v26, main_v27, main_v28, main_cst_5, main_v29, main_cst_6, main_v30, main_v31, main_v32, main_cst_7, main_v33, main_v34, main_v35, main_v36, main_v37]

/-- Operation by operation, the prelude writes exactly those. -/
theorem wPre_eq : kPre.map (fun op => op.writes) = wPre.map fun y => ({Proc.devRef .tc y} : Finset (DevRef τ sig)) := rfl

set_option maxHeartbeats 4000000 in
/-- After the prelude, buffer %1 holds the sources. -/
theorem pre_s (V : Valuation τ sig (Elt Ideal)) :
    StableHlo.after kPre V (Proc.devRef .tc main_v1) = src (V (Proc.devRef .tc main_arg1)) := by
  simp only [kPre, Pipeline.after_append_eq]
  after_results_simp
  rfl

set_option maxHeartbeats 4000000 in
/-- After the prelude, buffer %3 holds the targets. -/
theorem pre_d (V : Valuation τ sig (Elt Ideal)) :
    StableHlo.after kPre V (Proc.devRef .tc main_v3) = dst (V (Proc.devRef .tc main_arg1)) := by
  simp only [kPre, Pipeline.after_append_eq]
  after_results_simp
  rfl

set_option maxHeartbeats 4000000 in
/-- After the prelude, buffer %5 holds the sources with the self-loops. -/
theorem pre_sf (V : Valuation τ sig (Elt Ideal)) :
    StableHlo.after kPre V (Proc.devRef .tc main_v5) = sfull (src (V (Proc.devRef .tc main_arg1))) := by
  simp only [kPre, Pipeline.after_append_eq]
  after_results_simp
  rfl

set_option maxHeartbeats 4000000 in
/-- After the prelude, buffer %6 holds the targets with the self-loops. -/
theorem pre_df (V : Valuation τ sig (Elt Ideal)) :
    StableHlo.after kPre V (Proc.devRef .tc main_v6) = dfull (dst (V (Proc.devRef .tc main_arg1))) := by
  simp only [kPre, Pipeline.after_append_eq]
  after_results_simp
  rfl

set_option maxHeartbeats 4000000 in
/-- After the prelude, buffer %28 holds the edge normalisation. -/
theorem pre_nm (V : Valuation τ sig (Elt Ideal)) :
    StableHlo.after kPre V (Proc.devRef .tc main_v28) = norm (sfull (src (V (Proc.devRef .tc main_arg1)))) (dfull (dst (V (Proc.devRef .tc main_arg1)))) := by
  simp only [kPre, Pipeline.after_append_eq]
  after_results_simp
  rfl

set_option maxHeartbeats 4000000 in
/-- After the prelude, buffer %34 holds the out-degrees. -/
theorem pre_c (V : Valuation τ sig (Elt Ideal)) :
    StableHlo.after kPre V (Proc.devRef .tc main_v34) = cnt (src (V (Proc.devRef .tc main_arg1))) := by
  simp only [kPre, Pipeline.after_append_eq]
  after_results_simp
  rfl

set_option maxHeartbeats 4000000 in
/-- After the prelude, the projected input features. -/
theorem pre_x (V : Valuation τ sig (Elt Ideal)) :
    StableHlo.after kPre V (Proc.devRef .tc main_v37) = pre (V (Proc.devRef .tc main_arg0)) (V (Proc.devRef .tc main_arg3)) (V (Proc.devRef .tc main_arg4)) := by
  simp only [kPre, Pipeline.after_append_eq]
  after_results_simp
  rfl

/-- After the prelude the carried references hold what the later chunks expect. -/
theorem pre_carried (V : Valuation τ sig (Elt Ideal)) : Carried V (StableHlo.after kPre V) where
  arg2 := after_keep kPre wPre wPre_eq V (by decide)
  arg5 := after_keep kPre wPre wPre_eq V (by decide)
  arg6 := after_keep kPre wPre wPre_eq V (by decide)
  arg7 := after_keep kPre wPre wPre_eq V (by decide)
  arg8 := after_keep kPre wPre wPre_eq V (by decide)
  arg9 := after_keep kPre wPre wPre_eq V (by decide)
  arg10 := after_keep kPre wPre wPre_eq V (by decide)
  arg11 := after_keep kPre wPre wPre_eq V (by decide)
  arg12 := after_keep kPre wPre wPre_eq V (by decide)
  arg13 := after_keep kPre wPre wPre_eq V (by decide)
  arg14 := after_keep kPre wPre wPre_eq V (by decide)
  arg15 := after_keep kPre wPre wPre_eq V (by decide)
  arg16 := after_keep kPre wPre wPre_eq V (by decide)
  arg17 := after_keep kPre wPre wPre_eq V (by decide)
  arg18 := after_keep kPre wPre wPre_eq V (by decide)
  s := pre_s V
  d := pre_d V
  sf := pre_sf V
  df := pre_df V
  nm := pre_nm V
  c := pre_c V

end Cert.KernelIdeal.KV

end
-- ==== Proof.KVReadL0.lean ====
/-
  Layer 0 of the message passing, read off its chunk of the line: the features it leaves are the layer function of the
  features it finds, of its four weight pieces cut out of the stacks, and of the graph's quantities.
-/
import proofs.«117928_j61658550502081_1_alg».proof.Proof.KRops
import proofs.«117928_j61658550502081_1_alg».proof.Proof.KVLayer
import proofs.«117928_j61658550502081_1_alg».proof.Proof.KVFrame
import proofs.«117928_j61658550502081_1_alg».proof.Proof.LibRegionOp

noncomputable section

namespace Cert.KernelIdeal.KV

open Cert.KernelIdeal Cert.KernelIdeal.Gen
open Idealize.ShloMosaic Idealize.ShloMosaic.TcCoe

/-- The references layer 0's chunk writes, in order. -/
abbrev wL0 : List (Ref sig .tc) := [main_v38, main_v39, main_v40, main_v41, main_v42, main_c_8, main_v43, main_v44, main_c_9, main_v45, main_v46, main_v47, main_v48, main_v49, main_v50, main_v51, main_v52, main_cst_10, main_v53, main_v54, main_v55, main_v56, main_v57, main_v58, main_v59, main_v60, main_v61, main_v62, main_c_11, main_v63, main_v64, main_c_12, main_v65, main_v66, main_v67, main_v68, main_v69, main_v70, main_v71, main_v72, main_cst_13, main_v73, main_v74, main_v75, main_v76, main_v77, main_c_14, main_v78, main_v79, main_c_15, main_v80, main_v81, main_v82, main_v83, main_v84, main_c_16, main_v85, main_v86, main_c_17, main_v87, main_v88, main_v89, main_v90, main_v91, main_v92, main_v93, main_cst_18, main_v94, main_v95, main_v96, main_v97, main_v98, main_v99, main_v100, main_v101]

/-- Operation by operation, layer 0's chunk writes exactly those. -/
theorem wL0_eq : kLayer0.map (fun op => op.writes) = wL0.map fun y => ({Proc.devRef .tc y} : Finset (DevRef τ sig)) := rfl

/-- Layer 0's chunk writes none of the carried references. -/
theorem wL0_carried : ∀ r ∈ carriedRefs, r ∉ wL0 := by decide

set_option maxHeartbeats 4000000 in
/-- After layer 0's chunk, its output buffer holds the layer function of what the chunk found. -/
theorem readL0 (V : Valuation τ sig (Elt Ideal)) :
    StableHlo.after kLayer0 V (Proc.devRef .tc main_v101) = layer (V (Proc.devRef .tc main_v37)) (cW0 (V (Proc.devRef .tc main_arg5))) (cb0 (V (Proc.devRef .tc main_arg6))) (gW0 (V (Proc.devRef .tc main_arg7))) (gb0 (V (Proc.devRef .tc main_arg8)))
        (V (Proc.devRef .tc main_v1)) (V (Proc.devRef .tc main_v3)) (V (Proc.devRef .tc main_v5)) (V (Proc.devRef .tc main_v6)) (V (Proc.devRef .tc main_v28)) (V (Proc.devRef .tc main_v34)) := by
  simp only [kLayer0, Pipeline.after_append_eq]
  after_results_simp
  rfl

/-- From carried contents, layer 0's chunk leaves the layer over the edge array's graph, of the features it found. -/
theorem stepL0 {V W : Valuation τ sig (Elt Ideal)} (h : Carried V W) :
    StableHlo.after kLayer0 W (Proc.devRef .tc main_v101)
      = step (V (Proc.devRef .tc main_arg1)) (W (Proc.devRef .tc main_v37)) (cW0 (V (Proc.devRef .tc main_arg5))) (cb0 (V (Proc.devRef .tc main_arg6))) (gW0 (V (Proc.devRef .tc main_arg7))) (gb0 (V (Proc.devRef .tc main_arg8))) := by
  rw [readL0 W, h.arg5, h.arg6, h.arg7, h.arg8, h.s, h.d, h.sf, h.df, h.nm, h.c]
  rfl

end Cert.KernelIdeal.KV

end
-- ==== Proof.KVReadL1.lean ====
/-
  Layer 1 of the message passing, read off its chunk of the line: the features it leaves are the layer function of the
  features it finds, of its four weight pieces cut out of the stacks, and of the graph's quantities.
-/
import proofs.«117928_j61658550502081_1_alg».proof.Proof.KRops
import proofs.«117928_j61658550502081_1_alg».proof.Proof.KVLayer
import proofs.«117928_j61658550502081_1_alg».proof.Proof.KVFrame
import proofs.«117928_j61658550502081_1_alg».proof.Proof.LibRegionOp

noncomputable section

namespace Cert.KernelIdeal.KV

open Cert.KernelIdeal Cert.KernelIdeal.Gen
open Idealize.ShloMosaic Idealize.ShloMosaic.TcCoe

/-- The references layer 1's chunk writes, in order. -/
abbrev wL1 : List (Ref sig .tc) := [main_v102, main_v103, main_v104, main_v105, main_v106, main_c_19, main_v107, main_v108, main_c_20, main_v109, main_v110, main_v111, main_v112, main_v113, main_v114, main_v115, main_v116, main_cst_21, main_v117, main_v118, main_v119, main_v120, main_v121, main_v122, main_v123, main_v124, main_v125, main_v126, main_c_22, main_v127, main_v128, main_c_23, main_v129, main_v130, main_v131, main_v132, main_v133, main_v134, main_v135, main_v136, main_cst_24, main_v137, main_v138, main_v139, main_v140, main_v141, main_c_25, main_v142, main_v143, main_c_26, main_v144, main_v145, main_v146, main_v147, main_v148, main_c_27, main_v149, main_v150, main_c_28, main_v151, main_v152, main_v153, main_v154, main_v155, main_v156, main_v157, main_cst_29, main_v158, main_v159, main_v160, main_v161, main_v162, main_v163, main_v164, main_v165]

/-- Operation by operation, layer 1's chunk writes exactly those. -/
theorem wL1_eq : kLayer1.map (fun op => op.writes) = wL1.map fun y => ({Proc.devRef .tc y} : Finset (DevRef τ sig)) := rfl

/-- Layer 1's chunk writes none of the carried references. -/
theorem wL1_carried : ∀ r ∈ carriedRefs, r ∉ wL1 := by decide

set_option maxHeartbeats 4000000 in
/-- After layer 1's chunk, its output buffer holds the layer function of what the chunk found. -/
theorem readL1 (V : Valuation τ sig (Elt Ideal)) :
    StableHlo.after kLayer1 V (Proc.devRef .tc main_v165) = layer (V (Proc.devRef .tc main_v101)) (cW1 (V (Proc.devRef .tc main_arg5))) (cb1 (V (Proc.devRef .tc main_arg6))) (gW1 (V (Proc.devRef .tc main_arg7))) (gb1 (V (Proc.devRef .tc main_arg8)))
        (V (Proc.devRef .tc main_v1)) (V (Proc.devRef .tc main_v3)) (V (Proc.devRef .tc main_v5)) (V (Proc.devRef .tc main_v6)) (V (Proc.devRef .tc main_v28)) (V (Proc.devRef .tc main_v34)) := by
  simp only [kLayer1, Pipeline.after_append_eq]
  after_results_simp
  rfl

/-- From carried contents, layer 1's chunk leaves the layer over the edge array's graph, of the features it found. -/
theorem stepL1 {V W : Valuation τ sig (Elt Ideal)} (h : Carried V W) :
    StableHlo.after kLayer1 W (Proc.devRef .tc main_v165)
      = step (V (Proc.devRef .tc main_arg1)) (W (Proc.devRef .tc main_v101)) (cW1 (V (Proc.devRef .tc main_arg5))) (cb1 (V (Proc.devRef .tc main_arg6))) (gW1 (V (Proc.devRef .tc main_arg7))) (gb1 (V (Proc.devRef .tc main_arg8))) := by
  rw [readL1 W, h.arg5, h.arg6, h.arg7, h.arg8, h.s, h.d, h.sf, h.df, h.nm, h.c]
  rfl

end Cert.KernelIdeal.KV

end
-- ==== Proof.KVReadL2.lean ====
/-
  Layer 2 of the message passing, read off its chunk of the line: the features it leaves are the layer function of the
  features it finds, of its four weight pieces cut out of the stacks, and of the graph's quantities.
-/
import proofs.«117928_j61658550502081_1_alg».proof.Proof.KRops
import proofs.«117928_j61658550502081_1_alg».proof.Proof.KVLayer
import proofs.«117928_j61658550502081_1_alg».proof.Proof.KVFrame
import proofs.«117928_j61658550502081_1_alg».proof.Proof.LibRegionOp

noncomputable section

namespace Cert.KernelIdeal.KV

open Cert.KernelIdeal Cert.KernelIdeal.Gen
open Idealize.ShloMosaic Idealize.ShloMosaic.TcCoe

/-- The references layer 2's chunk writes, in order. -/
abbrev wL2 : List (Ref sig .tc) := [main_v166, main_v167, main_v168, main_v169, main_v170, main_c_30, main_v171, main_v172, main_c_31, main_v173, main_v174, main_v175, main_v176, main_v177, main_v178, main_v179, main_v180, main_cst_32, main_v181, main_v182, main_v183, main_v184, main_v185, main_v186, main_v187, main_v188, main_v189, main_v190, main_c_33, main_v191, main_v192, main_c_34, main_v193, main_v194, main_v195, main_v196, main_v197, main_v198, main_v199, main_v200, main_cst_35, main_v201, main_v202, main_v203, main_v204, main_v205, main_c_36, main_v206, main_v207, main_c_37, main_v208, main_v209, main_v210, main_v211, main_v212, main_c_38, main_v213, main_v214, main_c_39, main_v215, main_v216, main_v217, main_v218, main_v219, main_v220, main_v221, main_cst_40, main_v222, main_v223, main_v224, main_v225, main_v226, main_v227, main_v228, main_v229]

/-- Operation by operation, layer 2's chunk writes exactly those. -/
theorem wL2_eq : kLayer2.map (fun op => op.writes) = wL2.map fun y => ({Proc.devRef .tc y} : Finset (DevRef τ sig)) := rfl

/-- Layer 2's chunk writes none of the carried references. -/
theorem wL2_carried : ∀ r ∈ carriedRefs, r ∉ wL2 := by decide

set_option maxHeartbeats 4000000 in
/-- After layer 2's chunk, its output buffer holds the layer function of what the chunk found. -/
theorem readL2 (V : Valuation τ sig (Elt Ideal)) :
    StableHlo.after kLayer2 V (Proc.devRef .tc main_v229) = layer (V (Proc.devRef .tc main_v165)) (cW2 (V (Proc.devRef .tc main_arg5))) (cb2 (V (Proc.devRef .tc main_arg6))) (gW2 (V (Proc.devRef .tc main_arg7))) (gb2 (V (Proc.devRef .tc main_arg8)))
        (V (Proc.devRef .tc main_v1)) (V (Proc.devRef .tc main_v3)) (V (Proc.devRef .tc main_v5)) (V (Proc.devRef .tc main_v6)) (V (Proc.devRef .tc main_v28)) (V (Proc.devRef .tc main_v34)) := by
  simp only [kLayer2, Pipeline.after_append_eq]
  after_results_simp
  rfl

/-- From carried contents, layer 2's chunk leaves the layer over the edge array's graph, of the features it found. -/
theorem stepL2 {V W : Valuation τ sig (Elt Ideal)} (h : Carried V W) :
    StableHlo.after kLayer2 W (Proc.devRef .tc main_v229)
      = step (V (Proc.devRef .tc main_arg1)) (W (Proc.devRef .tc main_v165)) (cW2 (V (Proc.devRef .tc main_arg5))) (cb2 (V (Proc.devRef .tc main_arg6))) (gW2 (V (Proc.devRef .tc main_arg7))) (gb2 (V (Proc.devRef .tc main_arg8))) := by
  rw [readL2 W, h.arg5, h.arg6, h.arg7, h.arg8, h.s, h.d, h.sf, h.df, h.nm, h.c]
  rfl

end Cert.KernelIdeal.KV

end
-- ==== Proof.KVReadL3.lean ====
/-
  Layer 3 of the message passing, read off its chunk of the line: the features it leaves are the layer function of the
  features it finds, of its four weight pieces cut out of the stacks, and of the graph's quantities.
-/
import proofs.«117928_j61658550502081_1_alg».proof.Proof.KRops
import proofs.«117928_j61658550502081_1_alg».proof.Proof.KVLayer
import proofs.«117928_j61658550502081_1_alg».proof.Proof.KVFrame
import proofs.«117928_j61658550502081_1_alg».proof.Proof.LibRegionOp

noncomputable section

namespace Cert.KernelIdeal.KV

open Cert.KernelIdeal Cert.KernelIdeal.Gen
open Idealize.ShloMosaic Idealize.ShloMosaic.TcCoe

/-- The references layer 3's chunk writes, in order. -/
abbrev wL3 : List (Ref sig .tc) := [main_v230, main_v231, main_v232, main_v233, main_v234, main_c_41, main_v235, main_v236, main_c_42, main_v237, main_v238, main_v239, main_v240, main_v241, main_v242, main_v243, main_v244, main_cst_43, main_v245, main_v246, main_v247, main_v248, main_v249, main_v250, main_v251, main_v252, main_v253, main_v254, main_c_44, main_v255, main_v256, main_c_45, main_v257, main_v258, main_v259, main_v260, main_v261, main_v262, main_v263, main_v264, main_cst_46, main_v265, main_v266, main_v267, main_v268, main_v269, main_c_47, main_v270, main_v271, main_c_48, main_v272, main_v273, main_v274, main_v275, main_v276, main_c_49, main_v277, main_v278, main_c_50, main_v279, main_v280, main_v281, main_v282, main_v283, main_v284, main_v285, main_cst_51, main_v286, main_v287, main_v288, main_v289, main_v290, main_v291, main_v292, main_v293]

/-- Operation by operation, layer 3's chunk writes exactly those. -/
theorem wL3_eq : kLayer3.map (fun op => op.writes) = wL3.map fun y => ({Proc.devRef .tc y} : Finset (DevRef τ sig)) := rfl

/-- Layer 3's chunk writes none of the carried references. -/
theorem wL3_carried : ∀ r ∈ carriedRefs, r ∉ wL3 := by decide

set_option maxHeartbeats 4000000 in
/-- After layer 3's chunk, its output buffer holds the layer function of what the chunk found. -/
theorem readL3 (V : Valuation τ sig (Elt Ideal)) :
    StableHlo.after kLayer3 V (Proc.devRef .tc main_v293) = layer (V (Proc.devRef .tc main_v229)) (cW3 (V (Proc.devRef .tc main_arg5))) (cb3 (V (Proc.devRef .tc main_arg6))) (gW3 (V (Proc.devRef .tc main_arg7))) (gb3 (V (Proc.devRef .tc main_arg8)))
        (V (Proc.devRef .tc main_v1)) (V (Proc.devRef .tc main_v3)) (V (Proc.devRef .tc main_v5)) (V (Proc.devRef .tc main_v6)) (V (Proc.devRef .tc main_v28)) (V (Proc.devRef .tc main_v34)) := by
  simp only [kLayer3, Pipeline.after_append_eq]
  after_results_simp
  rfl

/-- From carried contents, layer 3's chunk leaves the layer over the edge array's graph, of the features it found. -/
theorem stepL3 {V W : Valuation τ sig (Elt Ideal)} (h : Carried V W) :
    StableHlo.after kLayer3 W (Proc.devRef .tc main_v293)
      = step (V (Proc.devRef .tc main_arg1)) (W (Proc.devRef .tc main_v229)) (cW3 (V (Proc.devRef .tc main_arg5))) (cb3 (V (Proc.devRef .tc main_arg6))) (gW3 (V (Proc.devRef .tc main_arg7))) (gb3 (V (Proc.devRef .tc main_arg8))) := by
  rw [readL3 W, h.arg5, h.arg6, h.arg7, h.arg8, h.s, h.d, h.sf, h.df, h.nm, h.c]
  rfl

end Cert.KernelIdeal.KV

end
-- ==== Proof.KVReadTail.lean ====
/-
  The tail of the line: the per-graph pooling and the reshapes of the head's vectors, the head itself, then the edge
  energy. The first result is the head of the pooled features; the second the energy of the features.
-/
import proofs.«117928_j61658550502081_1_alg».proof.Proof.KRops
import proofs.«117928_j61658550502081_1_alg».proof.Proof.KVLayer
import proofs.«117928_j61658550502081_1_alg».proof.Proof.KVFrame
import proofs.«117928_j61658550502081_1_alg».proof.Proof.LibRegionOp

noncomputable section

namespace Cert.KernelIdeal.KV

open Cert.KernelIdeal Cert.KernelIdeal.Gen
open Idealize.ShloMosaic Idealize.ShloMosaic.TcCoe

/-- The references the stretch before the head writes. -/
abbrev w22 : List (Ref sig .tc) := [main_cst_52, main_v294, main_v295, main_v296, main_v297, main_v298, main_v299, main_v300, main_v301, main_v302]
theorem w22_eq : (hostOps22 (F := Ideal)).map (fun op => op.writes) = w22.map fun y => ({Proc.devRef .tc y} : Finset (DevRef τ sig)) := rfl
/-- The references the stretch before the head and the head write. -/
abbrev w22r : List (Ref sig .tc) := [main_cst_52, main_v294, main_v295, main_v296, main_v297, main_v298, main_v299, main_v300, main_v301, main_v302, main_v303]
theorem w22r_eq : (hostOps22 (F := Ideal) ++ [rop22]).map (fun op => op.writes) = w22r.map fun y => ({Proc.devRef .tc y} : Finset (DevRef τ sig)) := rfl
/-- The references the stretch after the head writes. -/
abbrev w23 : List (Ref sig .tc) := [main_c_53, main_v304, main_v305, main_c_54, main_v306, main_v307, main_v308, main_v309, main_v310, main_c_55, main_v311, main_v312, main_c_56, main_v313, main_v314, main_v315, main_v316, main_v317, main_v318, main_v319, main_cst_57, main_v320, main_cst_58, main_v321]
theorem w23_eq : (hostOps23 (F := Ideal)).map (fun op => op.writes) = w23.map fun y => ({Proc.devRef .tc y} : Finset (DevRef τ sig)) := rfl

/-- The stretch before the head leaves the features summed over each graph. -/
theorem read22_pool (V : Valuation τ sig (Elt Ideal)) :
    StableHlo.after (hostOps22 (F := Ideal)) V (Proc.devRef .tc main_v296) = pool (V (Proc.devRef .tc main_v293)) (V (Proc.devRef .tc main_arg2)) := by
  after_results_simp
  rfl
/-- The stretch before the head leaves argument 10's vector as a row. -/
theorem read22_v297 (V : Valuation τ sig (Elt Ideal)) :
    StableHlo.after (hostOps22 (F := Ideal)) V (Proc.devRef .tc main_v297) = row64 (V (Proc.devRef .tc main_arg10)) := by
  after_results_simp
  rfl
/-- The stretch before the head leaves argument 12's vector as a row. -/
theorem read22_v298 (V : Valuation τ sig (Elt Ideal)) :
    StableHlo.after (hostOps22 (F := Ideal)) V (Proc.devRef .tc main_v298) = row64 (V (Proc.devRef .tc main_arg12)) := by
  after_results_simp
  rfl
/-- The stretch before the head leaves argument 14's vector as a row. -/
theorem read22_v299 (V : Valuation τ sig (Elt Ideal)) :
    StableHlo.after (hostOps22 (F := Ideal)) V (Proc.devRef .tc main_v299) = row64 (V (Proc.devRef .tc main_arg14)) := by
  after_results_simp
  rfl
/-- The stretch before the head leaves argument 17's vector as a row. -/
theorem read22_v301 (V : Valuation τ sig (Elt Ideal)) :
    StableHlo.after (hostOps22 (F := Ideal)) V (Proc.devRef .tc main_v301) = row64 (V (Proc.devRef .tc main_arg17)) := by
  after_results_simp
  rfl
/-- The stretch before the head leaves argument 18's vector as a row. -/
theorem read22_v302 (V : Valuation τ sig (Elt Ideal)) :
    StableHlo.after (hostOps22 (F := Ideal)) V (Proc.devRef .tc main_v302) = row64 (V (Proc.devRef .tc main_arg18)) := by
  after_results_simp
  rfl
/-- The stretch before the head leaves the last bias as a one-by-one matrix. -/
theorem read22_v300 (V : Valuation τ sig (Elt Ideal)) :
    StableHlo.after (hostOps22 (F := Ideal)) V (Proc.devRef .tc main_v300) = row1 (V (Proc.devRef .tc main_arg16)) := by
  after_results_simp
  rfl
/-- The stretch after the head leaves the edge energy of the features. -/
theorem read23_energy (V : Valuation τ sig (Elt Ideal)) :
    StableHlo.after (hostOps23 (F := Ideal)) V (Proc.devRef .tc main_v321) = energy (V (Proc.devRef .tc main_v293)) (V (Proc.devRef .tc main_v1)) (V (Proc.devRef .tc main_v3)) := by
  after_results_simp
  rfl

/-- The tail is its last stretch after the rest. -/
theorem tail_split (V : Valuation τ sig (Elt Ideal)) :
    StableHlo.after kTail V = StableHlo.after (hostOps23 (F := Ideal)) (StableHlo.after (hostOps22 (F := Ideal) ++ [rop22]) V) :=
  Pipeline.after_append_eq _ _ V

/-- The head's operation after the stretch before it. -/
theorem tail_split22 (V : Valuation τ sig (Elt Ideal)) :
    StableHlo.after (hostOps22 (F := Ideal) ++ [rop22]) V = StableHlo.after [rop22] (StableHlo.after (hostOps22 (F := Ideal)) V) :=
  Pipeline.after_append_eq _ _ V

/-- After the tail, the first result is the head of the pooled features and of the head's arguments. -/
theorem tail_out (V : Valuation τ sig (Elt Ideal)) :
    StableHlo.after kTail V (Proc.devRef .tc main_v303)
      = HEAD (pool (V (Proc.devRef .tc main_v293)) (V (Proc.devRef .tc main_arg2))) (V (Proc.devRef .tc main_arg9)) (row64 (V (Proc.devRef .tc main_arg10))) (V (Proc.devRef .tc main_arg11)) (row64 (V (Proc.devRef .tc main_arg12)))
        (V (Proc.devRef .tc main_arg13)) (row64 (V (Proc.devRef .tc main_arg14))) (V (Proc.devRef .tc main_arg15)) (row1 (V (Proc.devRef .tc main_arg16))) (row64 (V (Proc.devRef .tc main_arg17))) (row64 (V (Proc.devRef .tc main_arg18))) := by
  rw [tail_split, after_keep (hostOps23 (F := Ideal)) w23 w23_eq _ (by decide : main_v303 ∉ w23), tail_split22,
    StableHlo.after_cons, StableHlo.after_nil, StableHlo.nary_result]
  show HEAD (StableHlo.after (hostOps22 (F := Ideal)) V (Proc.devRef .tc main_v296))
      (StableHlo.after (hostOps22 (F := Ideal)) V (Proc.devRef .tc main_arg9))
      (StableHlo.after (hostOps22 (F := Ideal)) V (Proc.devRef .tc main_v297))
      (StableHlo.after (hostOps22 (F := Ideal)) V (Proc.devRef .tc main_arg11))
      (StableHlo.after (hostOps22 (F := Ideal)) V (Proc.devRef .tc main_v298))
      (StableHlo.after (hostOps22 (F := Ideal)) V (Proc.devRef .tc main_arg13))
      (StableHlo.after (hostOps22 (F := Ideal)) V (Proc.devRef .tc main_v299))
      (StableHlo.after (hostOps22 (F := Ideal)) V (Proc.devRef .tc main_arg15))
      (StableHlo.after (hostOps22 (F := Ideal)) V (Proc.devRef .tc main_v300))
      (StableHlo.after (hostOps22 (F := Ideal)) V (Proc.devRef .tc main_v301))
      (StableHlo.after (hostOps22 (F := Ideal)) V (Proc.devRef .tc main_v302)) = _
  rw [read22_pool, read22_v297, read22_v298, read22_v299, read22_v300, read22_v301, read22_v302,
    after_keep (hostOps22 (F := Ideal)) w22 w22_eq V (by decide : main_arg9 ∉ w22),
    after_keep (hostOps22 (F := Ideal)) w22 w22_eq V (by decide : main_arg11 ∉ w22),
    after_keep (hostOps22 (F := Ideal)) w22 w22_eq V (by decide : main_arg13 ∉ w22),
    after_keep (hostOps22 (F := Ideal)) w22 w22_eq V (by decide : main_arg15 ∉ w22)]

/-- After the tail, the second result is the edge energy of the features. -/
theorem tail_energy (V : Valuation τ sig (Elt Ideal)) :
    StableHlo.after kTail V (Proc.devRef .tc main_v321) = energy (V (Proc.devRef .tc main_v293)) (V (Proc.devRef .tc main_v1)) (V (Proc.devRef .tc main_v3)) := by
  rw [tail_split, read23_energy,
    after_keep _ w22r w22r_eq V (by decide : main_v293 ∉ w22r), after_keep _ w22r w22r_eq V (by decide : main_v1 ∉ w22r),
    after_keep _ w22r w22r_eq V (by decide : main_v3 ∉ w22r)]

end Cert.KernelIdeal.KV

end
-- ==== Proof.KVValue.lean ====
/-
  The two results of the program as functions of its nineteen arguments: the chunks of the line composed. The prelude
  sets up what every layer carries; each layer turns the features it finds into the next; the tail reads the results
  off the last features.
-/
import proofs.«117928_j61658550502081_1_alg».proof.Proof.KRops
import proofs.«117928_j61658550502081_1_alg».proof.Proof.KVLayer
import proofs.«117928_j61658550502081_1_alg».proof.Proof.KVFrame
import proofs.«117928_j61658550502081_1_alg».proof.Proof.LibRegionOp
import proofs.«117928_j61658550502081_1_alg».proof.Proof.KVReadPre
import proofs.«117928_j61658550502081_1_alg».proof.Proof.KVReadL0
import proofs.«117928_j61658550502081_1_alg».proof.Proof.KVReadL1
import proofs.«117928_j61658550502081_1_alg».proof.Proof.KVReadL2
import proofs.«117928_j61658550502081_1_alg».proof.Proof.KVReadL3
import proofs.«117928_j61658550502081_1_alg».proof.Proof.KVReadTail

noncomputable section

namespace Cert.KernelIdeal.KV

open Cert.KernelIdeal Cert.KernelIdeal.Gen
open Idealize.ShloMosaic Idealize.ShloMosaic.TcCoe

/-- The whole line as its six chunks, one after the other. -/
theorem after_kops (V : Valuation τ sig (Elt Ideal)) :
    StableHlo.after kops V
      = StableHlo.after kTail (StableHlo.after kLayer3 (StableHlo.after kLayer2 (StableHlo.after kLayer1
          (StableHlo.after kLayer0 (StableHlo.after kPre V))))) :=
  after_append6 kPre kLayer0 kLayer1 kLayer2 kLayer3 kTail V

/-- After the four layers, the features' buffer holds the feature function of the arguments, and the carried
    references are still in place. -/
theorem feat_value (V : Valuation τ sig (Elt Ideal)) :
    Carried V (StableHlo.after kLayer3 (StableHlo.after kLayer2 (StableHlo.after kLayer1 (StableHlo.after kLayer0 (StableHlo.after kPre V)))))
    ∧ StableHlo.after kLayer3 (StableHlo.after kLayer2 (StableHlo.after kLayer1 (StableHlo.after kLayer0 (StableHlo.after kPre V)))) (Proc.devRef .tc main_v293)
      = feat (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  have c0 := pre_carried V
  have c1 := c0.after kLayer0 wL0 wL0_eq wL0_carried
  have c2 := c1.after kLayer1 wL1 wL1_eq wL1_carried
  have c3 := c2.after kLayer2 wL2 wL2_eq wL2_carried
  have c4 := c3.after kLayer3 wL3 wL3_eq wL3_carried
  have x1 := stepL0 c0
  rw [pre_x V] at x1
  have x2 := stepL1 c1
  rw [x1] at x2
  have x3 := stepL2 c2
  rw [x2] at x3
  have x4 := stepL3 c3
  rw [x3] at x4
  exact ⟨c4, x4⟩

/-- The first result of the line, as the network function of the nineteen arguments. -/
theorem value_out (V : Valuation τ sig (Elt Ideal)) :
    StableHlo.after kops V (Proc.devRef .tc main_v303) = out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) := by
  obtain ⟨c4, x4⟩ := feat_value V
  rw [after_kops, tail_out, x4, c4.arg2, c4.arg9, c4.arg10, c4.arg11, c4.arg12, c4.arg13, c4.arg14, c4.arg15, c4.arg16, c4.arg17, c4.arg18]
  rfl

/-- The second result of the line, the energy, as a function of the nineteen arguments. -/
theorem value_energy (V : Valuation τ sig (Elt Ideal)) :
    StableHlo.after kops V (Proc.devRef .tc main_v321) = energyOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) := by
  obtain ⟨c4, x4⟩ := feat_value V
  rw [after_kops, tail_energy, x4, c4.s, c4.d]
  rfl

end Cert.KernelIdeal.KV

end
-- ==== Proof.RVDefs.lean ====
/- What the reference program computes, as a few named whole-array functions at the ideal instance (floats extended reals,
   every operation exact). Each function is the composition of the program's own operations over its stretch, in the program's
   order and with the program's shape records: nothing is simplified, the index wrap-arounds and the two-step broadcasts stay. -/
import proofs.«117928_j61658550502081_1_alg».proof.Proof.Gen.ReferenceIdeal
import Idealize.ShloMosaic.PureOps.Ideal

noncomputable section

namespace Cert.ReferenceIdeal.RV

open Cert.ReferenceIdeal Cert.ReferenceIdeal.Gen Idealize.ShloMosaic

/-- Row 0 of the edge table: the edges' source nodes. -/
def src (e : (⟨S2x800000, .i32⟩ : BufTy).Contents (Elt Ideal)) :
    (⟨S800000, .i32⟩ : BufTy).Contents (Elt Ideal) :=
  shapeCast S800000 (extractStridedSlice S1x800000 ![0, 0] e slices_S2x800000_S1x800000_0_0) shapeCasts_S1x800000_S800000

/-- Row 1 of the edge table: the edges' destination nodes. -/
def dst (e : (⟨S2x800000, .i32⟩ : BufTy).Contents (Elt Ideal)) :
    (⟨S800000, .i32⟩ : BufTy).Contents (Elt Ideal) :=
  shapeCast S800000 (extractStridedSlice S1x800000 ![1, 0] e slices_S2x800000_S1x800000_1_0) shapeCasts_S1x800000_S800000

/-- The rectifier max(x, 0), element by element. -/
def relu (x : (⟨S50000x64, .f32⟩ : BufTy).Contents (Elt Ideal)) :
    (⟨S50000x64, .f32⟩ : BufTy).Contents (Elt Ideal) :=
  (maximumf (F := Ideal) (φ := .f32) : (⟨S50000x64, .f32⟩ : BufTy).Contents (Elt Ideal) → (⟨S50000x64, .f32⟩ : BufTy).Contents (Elt Ideal) → (⟨S50000x64, .f32⟩ : BufTy).Contents (Elt Ideal)) x ((broadcastInDim S50000x64 ![] bcast_S_S50000x64 : (⟨S_, .f32⟩ : BufTy).Contents (Elt Ideal) → (⟨S50000x64, .f32⟩ : BufTy).Contents (Elt Ideal)) (constant (F := Ideal) S_ .f32 0x00000000#32))

/-- The input projection: the rectifier of x·W + b, b broadcast along the rows. -/
def pre (x : (⟨S50000x128, .f32⟩ : BufTy).Contents (Elt Ideal)) (W : (⟨S128x64, .f32⟩ : BufTy).Contents (Elt Ideal)) (b : (⟨S64, .f32⟩ : BufTy).Contents (Elt Ideal)) :
    (⟨S50000x64, .f32⟩ : BufTy).Contents (Elt Ideal) :=
  relu ((addf (F := Ideal) (φ := .f32) : (⟨S50000x64, .f32⟩ : BufTy).Contents (Elt Ideal) → (⟨S50000x64, .f32⟩ : BufTy).Contents (Elt Ideal) → (⟨S50000x64, .f32⟩ : BufTy).Contents (Elt Ideal)) (Host.dotGeneral (F := Ideal) (φ₁ := .f32) (φ₂ := .f32) dot_S50000x128_S128x64_S50000x64_1_0_0_1_n_n none x W) ((broadcastInDim S50000x64 ![0, 1] bcast_S1x64_S50000x64_0_1 : (⟨S1x64, .f32⟩ : BufTy).Contents (Elt Ideal) → (⟨S50000x64, .f32⟩ : BufTy).Contents (Elt Ideal)) ((broadcastInDim S1x64 ![1] bcast_S64_S1x64_1 : (⟨S64, .f32⟩ : BufTy).Contents (Elt Ideal) → (⟨S1x64, .f32⟩ : BufTy).Contents (Elt Ideal)) b)))

/-- Slice 0 of a stack of four 64×64 matrices. -/
def convW0 (w : (⟨S4x64x64, .f32⟩ : BufTy).Contents (Elt Ideal)) :
    (⟨S64x64, .f32⟩ : BufTy).Contents (Elt Ideal) :=
  shapeCast S64x64 (extractStridedSlice S1x64x64 ![0, 0, 0] w slices_S4x64x64_S1x64x64_0_0_0) shapeCasts_S1x64x64_S64x64

/-- Row 0 of a stack of four 64-vectors. -/
def convb0 (b : (⟨S4x64, .f32⟩ : BufTy).Contents (Elt Ideal)) :
    (⟨S64, .f32⟩ : BufTy).Contents (Elt Ideal) :=
  shapeCast S64 (extractStridedSlice S1x64 ![0, 0] b slices_S4x64_S1x64_0_0) shapeCasts_S1x64_S64

/-- Slice 0 of a stack of four 64×64 matrices. -/
def ggW0 (w : (⟨S4x64x64, .f32⟩ : BufTy).Contents (Elt Ideal)) :
    (⟨S64x64, .f32⟩ : BufTy).Contents (Elt Ideal) :=
  shapeCast S64x64 (extractStridedSlice S1x64x64 ![0, 0, 0] w slices_S4x64x64_S1x64x64_0_0_0) shapeCasts_S1x64x64_S64x64

/-- Row 0 of a stack of four 64-vectors. -/
def ggb0 (b : (⟨S4x64, .f32⟩ : BufTy).Contents (Elt Ideal)) :
    (⟨S64, .f32⟩ : BufTy).Contents (Elt Ideal) :=
  shapeCast S64 (extractStridedSlice S1x64 ![0, 0] b slices_S4x64_S1x64_0_0) shapeCasts_S1x64_S64

/-- Slice 1 of a stack of four 64×64 matrices. -/
def convW1 (w : (⟨S4x64x64, .f32⟩ : BufTy).Contents (Elt Ideal)) :
    (⟨S64x64, .f32⟩ : BufTy).Contents (Elt Ideal) :=
  shapeCast S64x64 (extractStridedSlice S1x64x64 ![1, 0, 0] w slices_S4x64x64_S1x64x64_1_0_0) shapeCasts_S1x64x64_S64x64

/-- Row 1 of a stack of four 64-vectors. -/
def convb1 (b : (⟨S4x64, .f32⟩ : BufTy).Contents (Elt Ideal)) :
    (⟨S64, .f32⟩ : BufTy).Contents (Elt Ideal) :=
  shapeCast S64 (extractStridedSlice S1x64 ![1, 0] b slices_S4x64_S1x64_1_0) shapeCasts_S1x64_S64

/-- Slice 1 of a stack of four 64×64 matrices. -/
def ggW1 (w : (⟨S4x64x64, .f32⟩ : BufTy).Contents (Elt Ideal)) :
    (⟨S64x64, .f32⟩ : BufTy).Contents (Elt Ideal) :=
  shapeCast S64x64 (extractStridedSlice S1x64x64 ![1, 0, 0] w slices_S4x64x64_S1x64x64_1_0_0) shapeCasts_S1x64x64_S64x64

/-- Row 1 of a stack of four 64-vectors. -/
def ggb1 (b : (⟨S4x64, .f32⟩ : BufTy).Contents (Elt Ideal)) :
    (⟨S64, .f32⟩ : BufTy).Contents (Elt Ideal) :=
  shapeCast S64 (extractStridedSlice S1x64 ![1, 0] b slices_S4x64_S1x64_1_0) shapeCasts_S1x64_S64

/-- Slice 2 of a stack of four 64×64 matrices. -/
def convW2 (w : (⟨S4x64x64, .f32⟩ : BufTy).Contents (Elt Ideal)) :
    (⟨S64x64, .f32⟩ : BufTy).Contents (Elt Ideal) :=
  shapeCast S64x64 (extractStridedSlice S1x64x64 ![2, 0, 0] w slices_S4x64x64_S1x64x64_2_0_0) shapeCasts_S1x64x64_S64x64

/-- Row 2 of a stack of four 64-vectors. -/
def convb2 (b : (⟨S4x64, .f32⟩ : BufTy).Contents (Elt Ideal)) :
    (⟨S64, .f32⟩ : BufTy).Contents (Elt Ideal) :=
  shapeCast S64 (extractStridedSlice S1x64 ![2, 0] b slices_S4x64_S1x64_2_0) shapeCasts_S1x64_S64

/-- Slice 2 of a stack of four 64×64 matrices. -/
def ggW2 (w : (⟨S4x64x64, .f32⟩ : BufTy).Contents (Elt Ideal)) :
    (⟨S64x64, .f32⟩ : BufTy).Contents (Elt Ideal) :=
  shapeCast S64x64 (extractStridedSlice S1x64x64 ![2, 0, 0] w slices_S4x64x64_S1x64x64_2_0_0) shapeCasts_S1x64x64_S64x64

/-- Row 2 of a stack of four 64-vectors. -/
def ggb2 (b : (⟨S4x64, .f32⟩ : BufTy).Contents (Elt Ideal)) :
    (⟨S64, .f32⟩ : BufTy).Contents (Elt Ideal) :=
  shapeCast S64 (extractStridedSlice S1x64 ![2, 0] b slices_S4x64_S1x64_2_0) shapeCasts_S1x64_S64

/-- Slice 3 of a stack of four 64×64 matrices. -/
def convW3 (w : (⟨S4x64x64, .f32⟩ : BufTy).Contents (Elt Ideal)) :
    (⟨S64x64, .f32⟩ : BufTy).Contents (Elt Ideal) :=
  shapeCast S64x64 (extractStridedSlice S1x64x64 ![3, 0, 0] w slices_S4x64x64_S1x64x64_3_0_0) shapeCasts_S1x64x64_S64x64

/-- Row 3 of a stack of four 64-vectors. -/
def convb3 (b : (⟨S4x64, .f32⟩ : BufTy).Contents (Elt Ideal)) :
    (⟨S64, .f32⟩ : BufTy).Contents (Elt Ideal) :=
  shapeCast S64 (extractStridedSlice S1x64 ![3, 0] b slices_S4x64_S1x64_3_0) shapeCasts_S1x64_S64

/-- Slice 3 of a stack of four 64×64 matrices. -/
def ggW3 (w : (⟨S4x64x64, .f32⟩ : BufTy).Contents (Elt Ideal)) :
    (⟨S64x64, .f32⟩ : BufTy).Contents (Elt Ideal) :=
  shapeCast S64x64 (extractStridedSlice S1x64x64 ![3, 0, 0] w slices_S4x64x64_S1x64x64_3_0_0) shapeCasts_S1x64x64_S64x64

/-- Row 3 of a stack of four 64-vectors. -/
def ggb3 (b : (⟨S4x64, .f32⟩ : BufTy).Contents (Elt Ideal)) :
    (⟨S64, .f32⟩ : BufTy).Contents (Elt Ideal) :=
  shapeCast S64 (extractStridedSlice S1x64 ![3, 0] b slices_S4x64_S1x64_3_0) shapeCasts_S1x64_S64

/-- An edge-end list followed by 0, 1, …, 49999: the edges and one self loop per node. -/
def selfLoops (i : (⟨S800000, .i32⟩ : BufTy).Contents (Elt Ideal)) :
    (⟨S850000, .i32⟩ : BufTy).Contents (Elt Ideal) :=
  concatenate S850000 0 [⟨S800000, i⟩, ⟨S50000, (iotaInDim S50000 32 0)⟩] concatenates_S800000_S50000_S850000_d0

/-- Index wrap-around on 850000 indices: a negative index i is read as i + 50000. -/
def wrap850 (i : (⟨S850000, .i32⟩ : BufTy).Contents (Elt Ideal)) :
    (⟨S850000, .i32⟩ : BufTy).Contents (Elt Ideal) :=
  (select : (⟨S850000, .i1⟩ : BufTy).Contents (Elt Ideal) → (⟨S850000, .i32⟩ : BufTy).Contents (Elt Ideal) → (⟨S850000, .i32⟩ : BufTy).Contents (Elt Ideal) → (⟨S850000, .i32⟩ : BufTy).Contents (Elt Ideal)) ((cmpi .slt : (⟨S850000, .i32⟩ : BufTy).Contents (Elt Ideal) → (⟨S850000, .i32⟩ : BufTy).Contents (Elt Ideal) → (⟨S850000, .i1⟩ : BufTy).Contents (Elt Ideal)) i ((broadcastInDim S850000 ![] bcast_S_S850000 : (⟨S_, .i32⟩ : BufTy).Contents (Elt Ideal) → (⟨S850000, .i32⟩ : BufTy).Contents (Elt Ideal)) (constantI S_ 32 0#32))) ((addi : (⟨S850000, .i32⟩ : BufTy).Contents (Elt Ideal) → (⟨S850000, .i32⟩ : BufTy).Contents (Elt Ideal) → (⟨S850000, .i32⟩ : BufTy).Contents (Elt Ideal)) i ((broadcastInDim S850000 ![] bcast_S_S850000 : (⟨S_, .i32⟩ : BufTy).Contents (Elt Ideal) → (⟨S850000, .i32⟩ : BufTy).Contents (Elt Ideal)) (constantI S_ 32 50000#32))) i

/-- Node degrees: for each node the number of entries of d equal to it (a sum of ones scattered at d). -/
def deg (d : (⟨S850000, .i32⟩ : BufTy).Contents (Elt Ideal)) :
    (⟨S50000, .f32⟩ : BufTy).Contents (Elt Ideal) :=
  Host.scatterAdd (F := Ideal) (φ := .f32) scatter_S50000_S850000x1_S850000_n_0_0_1 ((broadcastInDim S50000 ![] bcast_S_S50000 : (⟨S_, .f32⟩ : BufTy).Contents (Elt Ideal) → (⟨S50000, .f32⟩ : BufTy).Contents (Elt Ideal)) (constant (F := Ideal) S_ .f32 0x00000000#32)) ((broadcastInDim S850000x1 ![0] bcast_S850000_S850000x1_0 : (⟨S850000, .i32⟩ : BufTy).Contents (Elt Ideal) → (⟨S850000x1, .i32⟩ : BufTy).Contents (Elt Ideal)) d) ((broadcastInDim S850000 ![] bcast_S_S850000 : (⟨S_, .f32⟩ : BufTy).Contents (Elt Ideal) → (⟨S850000, .f32⟩ : BufTy).Contents (Elt Ideal)) (constant (F := Ideal) S_ .f32 0x3F800000#32))

/-- The inverse square root of max(degree, 1). -/
def dinv (d : (⟨S850000, .i32⟩ : BufTy).Contents (Elt Ideal)) :
    (⟨S50000, .f32⟩ : BufTy).Contents (Elt Ideal) :=
  (Host.rsqrt (F := Ideal) (φ := .f32) : (⟨S50000, .f32⟩ : BufTy).Contents (Elt Ideal) → (⟨S50000, .f32⟩ : BufTy).Contents (Elt Ideal)) ((maximumf (F := Ideal) (φ := .f32) : (⟨S50000, .f32⟩ : BufTy).Contents (Elt Ideal) → (⟨S50000, .f32⟩ : BufTy).Contents (Elt Ideal) → (⟨S50000, .f32⟩ : BufTy).Contents (Elt Ideal)) (deg d) ((broadcastInDim S50000 ![] bcast_S_S50000 : (⟨S_, .f32⟩ : BufTy).Contents (Elt Ideal) → (⟨S50000, .f32⟩ : BufTy).Contents (Elt Ideal)) (constant (F := Ideal) S_ .f32 0x3F800000#32)))

/-- The symmetric normalisation of each edge: dinv at its source times dinv at its destination. -/
def norm (s : (⟨S850000, .i32⟩ : BufTy).Contents (Elt Ideal)) (d : (⟨S850000, .i32⟩ : BufTy).Contents (Elt Ideal)) :
    (⟨S850000, .f32⟩ : BufTy).Contents (Elt Ideal) :=
  (mulf (F := Ideal) (φ := .f32) : (⟨S850000, .f32⟩ : BufTy).Contents (Elt Ideal) → (⟨S850000, .f32⟩ : BufTy).Contents (Elt Ideal) → (⟨S850000, .f32⟩ : BufTy).Contents (Elt Ideal)) (Host.gather gather_S50000_S850000x1_S850000_n_0_n_n_0_1_1 (dinv d) ((broadcastInDim S850000x1 ![0] bcast_S850000_S850000x1_0 : (⟨S850000, .i32⟩ : BufTy).Contents (Elt Ideal) → (⟨S850000x1, .i32⟩ : BufTy).Contents (Elt Ideal)) (wrap850 s))) (Host.gather gather_S50000_S850000x1_S850000_n_0_n_n_0_1_1 (dinv d) ((broadcastInDim S850000x1 ![0] bcast_S850000_S850000x1_0 : (⟨S850000, .i32⟩ : BufTy).Contents (Elt Ideal) → (⟨S850000x1, .i32⟩ : BufTy).Contents (Elt Ideal)) (wrap850 d)))

/-- One graph convolution D^(-1/2) (A + I) D^(-1/2) (x·W) + b: the rows of x·W gathered at the edges' sources (self loops included), scaled by the edge normalisation, summed at the edges' destinations, plus the bias. -/
def gcn (x : (⟨S50000x64, .f32⟩ : BufTy).Contents (Elt Ideal)) (W : (⟨S64x64, .f32⟩ : BufTy).Contents (Elt Ideal)) (b : (⟨S64, .f32⟩ : BufTy).Contents (Elt Ideal)) (src : (⟨S800000, .i32⟩ : BufTy).Contents (Elt Ideal)) (dst : (⟨S800000, .i32⟩ : BufTy).Contents (Elt Ideal)) :
    (⟨S50000x64, .f32⟩ : BufTy).Contents (Elt Ideal) :=
  (addf (F := Ideal) (φ := .f32) : (⟨S50000x64, .f32⟩ : BufTy).Contents (Elt Ideal) → (⟨S50000x64, .f32⟩ : BufTy).Contents (Elt Ideal) → (⟨S50000x64, .f32⟩ : BufTy).Contents (Elt Ideal)) (Host.scatterAdd (F := Ideal) (φ := .f32) scatter_S50000x64_S850000x1_S850000x64_1_0_0_1 ((broadcastInDim S50000x64 ![] bcast_S_S50000x64 : (⟨S_, .f32⟩ : BufTy).Contents (Elt Ideal) → (⟨S50000x64, .f32⟩ : BufTy).Contents (Elt Ideal)) (constant (F := Ideal) S_ .f32 0x00000000#32)) ((broadcastInDim S850000x1 ![0] bcast_S850000_S850000x1_0 : (⟨S850000, .i32⟩ : BufTy).Contents (Elt Ideal) → (⟨S850000x1, .i32⟩ : BufTy).Contents (Elt Ideal)) (selfLoops dst)) ((mulf (F := Ideal) (φ := .f32) : (⟨S850000x64, .f32⟩ : BufTy).Contents (Elt Ideal) → (⟨S850000x64, .f32⟩ : BufTy).Contents (Elt Ideal) → (⟨S850000x64, .f32⟩ : BufTy).Contents (Elt Ideal)) (Host.gather gather_S50000x64_S850000x1_S850000x64_1_0_n_n_0_1_164 (Host.dotGeneral (F := Ideal) (φ₁ := .f32) (φ₂ := .f32) dot_S50000x64_S64x64_S50000x64_1_0_0_1_n_n none x W) ((broadcastInDim S850000x1 ![0] bcast_S850000_S850000x1_0 : (⟨S850000, .i32⟩ : BufTy).Contents (Elt Ideal) → (⟨S850000x1, .i32⟩ : BufTy).Contents (Elt Ideal)) (wrap850 (selfLoops src)))) ((broadcastInDim S850000x64 ![0, 1] bcast_S850000x1_S850000x64_0_1 : (⟨S850000x1, .f32⟩ : BufTy).Contents (Elt Ideal) → (⟨S850000x64, .f32⟩ : BufTy).Contents (Elt Ideal)) ((broadcastInDim S850000x1 ![0] bcast_S850000_S850000x1_0 : (⟨S850000, .f32⟩ : BufTy).Contents (Elt Ideal) → (⟨S850000x1, .f32⟩ : BufTy).Contents (Elt Ideal)) (norm (selfLoops src) (selfLoops dst)))))) ((broadcastInDim S50000x64 ![0, 1] bcast_S1x64_S50000x64_0_1 : (⟨S1x64, .f32⟩ : BufTy).Contents (Elt Ideal) → (⟨S50000x64, .f32⟩ : BufTy).Contents (Elt Ideal)) ((broadcastInDim S1x64 ![1] bcast_S64_S1x64_1 : (⟨S64, .f32⟩ : BufTy).Contents (Elt Ideal) → (⟨S1x64, .f32⟩ : BufTy).Contents (Elt Ideal)) b))

/-- Index wrap-around on 800000 indices: a negative index i is read as i + 50000. -/
def wrap800 (i : (⟨S800000, .i32⟩ : BufTy).Contents (Elt Ideal)) :
    (⟨S800000, .i32⟩ : BufTy).Contents (Elt Ideal) :=
  (select : (⟨S800000, .i1⟩ : BufTy).Contents (Elt Ideal) → (⟨S800000, .i32⟩ : BufTy).Contents (Elt Ideal) → (⟨S800000, .i32⟩ : BufTy).Contents (Elt Ideal) → (⟨S800000, .i32⟩ : BufTy).Contents (Elt Ideal)) ((cmpi .slt : (⟨S800000, .i32⟩ : BufTy).Contents (Elt Ideal) → (⟨S800000, .i32⟩ : BufTy).Contents (Elt Ideal) → (⟨S800000, .i1⟩ : BufTy).Contents (Elt Ideal)) i ((broadcastInDim S800000 ![] bcast_S_S800000 : (⟨S_, .i32⟩ : BufTy).Contents (Elt Ideal) → (⟨S800000, .i32⟩ : BufTy).Contents (Elt Ideal)) (constantI S_ 32 0#32))) ((addi : (⟨S800000, .i32⟩ : BufTy).Contents (Elt Ideal) → (⟨S800000, .i32⟩ : BufTy).Contents (Elt Ideal) → (⟨S800000, .i32⟩ : BufTy).Contents (Elt Ideal)) i ((broadcastInDim S800000 ![] bcast_S_S800000 : (⟨S_, .i32⟩ : BufTy).Contents (Elt Ideal) → (⟨S800000, .i32⟩ : BufTy).Contents (Elt Ideal)) (constantI S_ 32 50000#32))) i

/-- For each node the number of edges leaving it (a sum of ones scattered at the sources). -/
def cnt (src : (⟨S800000, .i32⟩ : BufTy).Contents (Elt Ideal)) :
    (⟨S50000, .f32⟩ : BufTy).Contents (Elt Ideal) :=
  Host.scatterAdd (F := Ideal) (φ := .f32) scatter_S50000_S800000x1_S800000_n_0_0_1 ((broadcastInDim S50000 ![] bcast_S_S50000 : (⟨S_, .f32⟩ : BufTy).Contents (Elt Ideal) → (⟨S50000, .f32⟩ : BufTy).Contents (Elt Ideal)) (constant (F := Ideal) S_ .f32 0x00000000#32)) ((broadcastInDim S800000x1 ![0] bcast_S800000_S800000x1_0 : (⟨S800000, .i32⟩ : BufTy).Contents (Elt Ideal) → (⟨S800000x1, .i32⟩ : BufTy).Contents (Elt Ideal)) src) ((broadcastInDim S800000 ![] bcast_S_S800000 : (⟨S_, .f32⟩ : BufTy).Contents (Elt Ideal) → (⟨S800000, .f32⟩ : BufTy).Contents (Elt Ideal)) (constant (F := Ideal) S_ .f32 0x3F800000#32))

/-- The gradient gate: tanh of the mean over a node's outgoing edges of |xc[src] − xc[dst]|², the mean's divisor max(count, 1). -/
def tau (xc : (⟨S50000x64, .f32⟩ : BufTy).Contents (Elt Ideal)) (src : (⟨S800000, .i32⟩ : BufTy).Contents (Elt Ideal)) (dst : (⟨S800000, .i32⟩ : BufTy).Contents (Elt Ideal)) :
    (⟨S50000x64, .f32⟩ : BufTy).Contents (Elt Ideal) :=
  (Host.tanh (F := Ideal) (φ := .f32) : (⟨S50000x64, .f32⟩ : BufTy).Contents (Elt Ideal) → (⟨S50000x64, .f32⟩ : BufTy).Contents (Elt Ideal)) ((Host.divf (F := Ideal) (φ := .f32) : (⟨S50000x64, .f32⟩ : BufTy).Contents (Elt Ideal) → (⟨S50000x64, .f32⟩ : BufTy).Contents (Elt Ideal) → (⟨S50000x64, .f32⟩ : BufTy).Contents (Elt Ideal)) (Host.scatterAdd (F := Ideal) (φ := .f32) scatter_S50000x64_S800000x1_S800000x64_1_0_0_1 ((broadcastInDim S50000x64 ![] bcast_S_S50000x64 : (⟨S_, .f32⟩ : BufTy).Contents (Elt Ideal) → (⟨S50000x64, .f32⟩ : BufTy).Contents (Elt Ideal)) (constant (F := Ideal) S_ .f32 0x00000000#32)) ((broadcastInDim S800000x1 ![0] bcast_S800000_S800000x1_0 : (⟨S800000, .i32⟩ : BufTy).Contents (Elt Ideal) → (⟨S800000x1, .i32⟩ : BufTy).Contents (Elt Ideal)) src) ((Host.powf (F := Ideal) (φ := .f32) : (⟨S800000x64, .f32⟩ : BufTy).Contents (Elt Ideal) → (⟨S800000x64, .f32⟩ : BufTy).Contents (Elt Ideal) → (⟨S800000x64, .f32⟩ : BufTy).Contents (Elt Ideal)) ((Host.absf (F := Ideal) (φ := .f32) : (⟨S800000x64, .f32⟩ : BufTy).Contents (Elt Ideal) → (⟨S800000x64, .f32⟩ : BufTy).Contents (Elt Ideal)) ((subf (F := Ideal) (φ := .f32) : (⟨S800000x64, .f32⟩ : BufTy).Contents (Elt Ideal) → (⟨S800000x64, .f32⟩ : BufTy).Contents (Elt Ideal) → (⟨S800000x64, .f32⟩ : BufTy).Contents (Elt Ideal)) (Host.gather gather_S50000x64_S800000x1_S800000x64_1_0_n_n_0_1_164 xc ((broadcastInDim S800000x1 ![0] bcast_S800000_S800000x1_0 : (⟨S800000, .i32⟩ : BufTy).Contents (Elt Ideal) → (⟨S800000x1, .i32⟩ : BufTy).Contents (Elt Ideal)) (wrap800 src))) (Host.gather gather_S50000x64_S800000x1_S800000x64_1_0_n_n_0_1_164 xc ((broadcastInDim S800000x1 ![0] bcast_S800000_S800000x1_0 : (⟨S800000, .i32⟩ : BufTy).Contents (Elt Ideal) → (⟨S800000x1, .i32⟩ : BufTy).Contents (Elt Ideal)) (wrap800 dst))))) ((broadcastInDim S800000x64 ![] bcast_S_S800000x64 : (⟨S_, .f32⟩ : BufTy).Contents (Elt Ideal) → (⟨S800000x64, .f32⟩ : BufTy).Contents (Elt Ideal)) (constant (F := Ideal) S_ .f32 0x40000000#32)))) ((broadcastInDim S50000x64 ![0, 1] bcast_S50000x1_S50000x64_0_1 : (⟨S50000x1, .f32⟩ : BufTy).Contents (Elt Ideal) → (⟨S50000x64, .f32⟩ : BufTy).Contents (Elt Ideal)) ((broadcastInDim S50000x1 ![0] bcast_S50000_S50000x1_0 : (⟨S50000, .f32⟩ : BufTy).Contents (Elt Ideal) → (⟨S50000x1, .f32⟩ : BufTy).Contents (Elt Ideal)) ((maximumf (F := Ideal) (φ := .f32) : (⟨S50000, .f32⟩ : BufTy).Contents (Elt Ideal) → (⟨S50000, .f32⟩ : BufTy).Contents (Elt Ideal) → (⟨S50000, .f32⟩ : BufTy).Contents (Elt Ideal)) (cnt src) ((broadcastInDim S50000 ![] bcast_S_S50000 : (⟨S_, .f32⟩ : BufTy).Contents (Elt Ideal) → (⟨S50000, .f32⟩ : BufTy).Contents (Elt Ideal)) (constant (F := Ideal) S_ .f32 0x3F800000#32))))))

/-- The gated combination (1 − τ)·x + τ·xconv, with τ the gate of xc. -/
def mix (x : (⟨S50000x64, .f32⟩ : BufTy).Contents (Elt Ideal)) (xconv : (⟨S50000x64, .f32⟩ : BufTy).Contents (Elt Ideal)) (xc : (⟨S50000x64, .f32⟩ : BufTy).Contents (Elt Ideal)) (src : (⟨S800000, .i32⟩ : BufTy).Contents (Elt Ideal)) (dst : (⟨S800000, .i32⟩ : BufTy).Contents (Elt Ideal)) :
    (⟨S50000x64, .f32⟩ : BufTy).Contents (Elt Ideal) :=
  (addf (F := Ideal) (φ := .f32) : (⟨S50000x64, .f32⟩ : BufTy).Contents (Elt Ideal) → (⟨S50000x64, .f32⟩ : BufTy).Contents (Elt Ideal) → (⟨S50000x64, .f32⟩ : BufTy).Contents (Elt Ideal)) ((mulf (F := Ideal) (φ := .f32) : (⟨S50000x64, .f32⟩ : BufTy).Contents (Elt Ideal) → (⟨S50000x64, .f32⟩ : BufTy).Contents (Elt Ideal) → (⟨S50000x64, .f32⟩ : BufTy).Contents (Elt Ideal)) ((subf (F := Ideal) (φ := .f32) : (⟨S50000x64, .f32⟩ : BufTy).Contents (Elt Ideal) → (⟨S50000x64, .f32⟩ : BufTy).Contents (Elt Ideal) → (⟨S50000x64, .f32⟩ : BufTy).Contents (Elt Ideal)) ((broadcastInDim S50000x64 ![] bcast_S_S50000x64 : (⟨S_, .f32⟩ : BufTy).Contents (Elt Ideal) → (⟨S50000x64, .f32⟩ : BufTy).Contents (Elt Ideal)) (constant (F := Ideal) S_ .f32 0x3F800000#32)) (tau xc src dst)) x) ((mulf (F := Ideal) (φ := .f32) : (⟨S50000x64, .f32⟩ : BufTy).Contents (Elt Ideal) → (⟨S50000x64, .f32⟩ : BufTy).Contents (Elt Ideal) → (⟨S50000x64, .f32⟩ : BufTy).Contents (Elt Ideal)) (tau xc src dst) xconv)

/-- One gated layer: (1 − τ)·x + τ·relu(gcn x W b), with τ the gate of relu(gcn x gW gb). -/
def layer (x : (⟨S50000x64, .f32⟩ : BufTy).Contents (Elt Ideal)) (W : (⟨S64x64, .f32⟩ : BufTy).Contents (Elt Ideal)) (b : (⟨S64, .f32⟩ : BufTy).Contents (Elt Ideal)) (gW : (⟨S64x64, .f32⟩ : BufTy).Contents (Elt Ideal)) (gb : (⟨S64, .f32⟩ : BufTy).Contents (Elt Ideal)) (src : (⟨S800000, .i32⟩ : BufTy).Contents (Elt Ideal)) (dst : (⟨S800000, .i32⟩ : BufTy).Contents (Elt Ideal)) :
    (⟨S50000x64, .f32⟩ : BufTy).Contents (Elt Ideal) :=
  mix x (relu (gcn x W b src dst)) (relu (gcn x gW gb src dst)) src dst

/-- Sum pooling: the rows of x summed per graph, row n into graph batch[n]. -/
def pool (x : (⟨S50000x64, .f32⟩ : BufTy).Contents (Elt Ideal)) (batch : (⟨S50000, .i32⟩ : BufTy).Contents (Elt Ideal)) :
    (⟨S500x64, .f32⟩ : BufTy).Contents (Elt Ideal) :=
  Host.scatterAdd (F := Ideal) (φ := .f32) scatter_S500x64_S50000x1_S50000x64_1_0_0_1 ((broadcastInDim S500x64 ![] bcast_S_S500x64 : (⟨S_, .f32⟩ : BufTy).Contents (Elt Ideal) → (⟨S500x64, .f32⟩ : BufTy).Contents (Elt Ideal)) (constant (F := Ideal) S_ .f32 0x00000000#32)) ((broadcastInDim S50000x1 ![0] bcast_S50000_S50000x1_0 : (⟨S50000, .i32⟩ : BufTy).Contents (Elt Ideal) → (⟨S50000x1, .i32⟩ : BufTy).Contents (Elt Ideal)) batch) x

/-- h·W + b on 500 rows, b broadcast along the rows. -/
def lin (h : (⟨S500x64, .f32⟩ : BufTy).Contents (Elt Ideal)) (W : (⟨S64x64, .f32⟩ : BufTy).Contents (Elt Ideal)) (b : (⟨S64, .f32⟩ : BufTy).Contents (Elt Ideal)) :
    (⟨S500x64, .f32⟩ : BufTy).Contents (Elt Ideal) :=
  (addf (F := Ideal) (φ := .f32) : (⟨S500x64, .f32⟩ : BufTy).Contents (Elt Ideal) → (⟨S500x64, .f32⟩ : BufTy).Contents (Elt Ideal) → (⟨S500x64, .f32⟩ : BufTy).Contents (Elt Ideal)) (Host.dotGeneral (F := Ideal) (φ₁ := .f32) (φ₂ := .f32) dot_S500x64_S64x64_S500x64_1_0_0_1_n_n none h W) ((broadcastInDim S500x64 ![0, 1] bcast_S1x64_S500x64_0_1 : (⟨S1x64, .f32⟩ : BufTy).Contents (Elt Ideal) → (⟨S500x64, .f32⟩ : BufTy).Contents (Elt Ideal)) ((broadcastInDim S1x64 ![1] bcast_S64_S1x64_1 : (⟨S64, .f32⟩ : BufTy).Contents (Elt Ideal) → (⟨S1x64, .f32⟩ : BufTy).Contents (Elt Ideal)) b))

/-- The column means of a 500-row array: column sums divided by 500. -/
def mean (y : (⟨S500x64, .f32⟩ : BufTy).Contents (Elt Ideal)) :
    (⟨S64, .f32⟩ : BufTy).Contents (Elt Ideal) :=
  (Host.divf (F := Ideal) (φ := .f32) : (⟨S64, .f32⟩ : BufTy).Contents (Elt Ideal) → (⟨S64, .f32⟩ : BufTy).Contents (Elt Ideal) → (⟨S64, .f32⟩ : BufTy).Contents (Elt Ideal)) (Host.reduceAdd (F := Ideal) (φ := .f32) y (constant (F := Ideal) S_ .f32 0x00000000#32) reducesTo_S500x64_S64_d0 h_S_) ((broadcastInDim S64 ![] bcast_S_S64 : (⟨S_, .f32⟩ : BufTy).Contents (Elt Ideal) → (⟨S64, .f32⟩ : BufTy).Contents (Elt Ideal)) (constant (F := Ideal) S_ .f32 0x43FA0000#32))

/-- The column variances of a 500-row array with 0 degrees of freedom removed: the column sums of (y − column sums / 500)² divided by 500 − 0, kept where 500 − 0 > 0. -/
def var (y : (⟨S500x64, .f32⟩ : BufTy).Contents (Elt Ideal)) :
    (⟨S64, .f32⟩ : BufTy).Contents (Elt Ideal) :=
  select (broadcastInDim S64 ![] bcast_S_S64 ((cmpf (F := Ideal) (φ := .f32) .ogt : (⟨S_, .f32⟩ : BufTy).Contents (Elt Ideal) → (⟨S_, .f32⟩ : BufTy).Contents (Elt Ideal) → (⟨S_, .i1⟩ : BufTy).Contents (Elt Ideal)) ((subf (F := Ideal) (φ := .f32) : (⟨S_, .f32⟩ : BufTy).Contents (Elt Ideal) → (⟨S_, .f32⟩ : BufTy).Contents (Elt Ideal) → (⟨S_, .f32⟩ : BufTy).Contents (Elt Ideal)) (constant (F := Ideal) S_ .f32 0x43FA0000#32) ((sitofp (F := Ideal) .f32 : (⟨S_, .i32⟩ : BufTy).Contents (Elt Ideal) → (⟨S_, .f32⟩ : BufTy).Contents (Elt Ideal)) (constantI S_ 32 0#32))) (constant (F := Ideal) S_ .f32 0x00000000#32))) ((Host.divf (F := Ideal) (φ := .f32) : (⟨S64, .f32⟩ : BufTy).Contents (Elt Ideal) → (⟨S64, .f32⟩ : BufTy).Contents (Elt Ideal) → (⟨S64, .f32⟩ : BufTy).Contents (Elt Ideal)) (Host.reduceAdd (F := Ideal) (φ := .f32) ((mulf (F := Ideal) (φ := .f32) : (⟨S500x64, .f32⟩ : BufTy).Contents (Elt Ideal) → (⟨S500x64, .f32⟩ : BufTy).Contents (Elt Ideal) → (⟨S500x64, .f32⟩ : BufTy).Contents (Elt Ideal)) ((subf (F := Ideal) (φ := .f32) : (⟨S500x64, .f32⟩ : BufTy).Contents (Elt Ideal) → (⟨S500x64, .f32⟩ : BufTy).Contents (Elt Ideal) → (⟨S500x64, .f32⟩ : BufTy).Contents (Elt Ideal)) y ((broadcastInDim S500x64 ![0, 1] bcast_S1x64_S500x64_0_1 : (⟨S1x64, .f32⟩ : BufTy).Contents (Elt Ideal) → (⟨S500x64, .f32⟩ : BufTy).Contents (Elt Ideal)) ((Host.divf (F := Ideal) (φ := .f32) : (⟨S1x64, .f32⟩ : BufTy).Contents (Elt Ideal) → (⟨S1x64, .f32⟩ : BufTy).Contents (Elt Ideal) → (⟨S1x64, .f32⟩ : BufTy).Contents (Elt Ideal)) ((broadcastInDim S1x64 ![1] bcast_S64_S1x64_1 : (⟨S64, .f32⟩ : BufTy).Contents (Elt Ideal) → (⟨S1x64, .f32⟩ : BufTy).Contents (Elt Ideal)) (Host.reduceAdd (F := Ideal) (φ := .f32) y (constant (F := Ideal) S_ .f32 0x00000000#32) reducesTo_S500x64_S64_d0 h_S_)) ((broadcastInDim S1x64 ![] bcast_S_S1x64 : (⟨S_, .f32⟩ : BufTy).Contents (Elt Ideal) → (⟨S1x64, .f32⟩ : BufTy).Contents (Elt Ideal)) (constant (F := Ideal) S_ .f32 0x43FA0000#32))))) ((subf (F := Ideal) (φ := .f32) : (⟨S500x64, .f32⟩ : BufTy).Contents (Elt Ideal) → (⟨S500x64, .f32⟩ : BufTy).Contents (Elt Ideal) → (⟨S500x64, .f32⟩ : BufTy).Contents (Elt Ideal)) y ((broadcastInDim S500x64 ![0, 1] bcast_S1x64_S500x64_0_1 : (⟨S1x64, .f32⟩ : BufTy).Contents (Elt Ideal) → (⟨S500x64, .f32⟩ : BufTy).Contents (Elt Ideal)) ((Host.divf (F := Ideal) (φ := .f32) : (⟨S1x64, .f32⟩ : BufTy).Contents (Elt Ideal) → (⟨S1x64, .f32⟩ : BufTy).Contents (Elt Ideal) → (⟨S1x64, .f32⟩ : BufTy).Contents (Elt Ideal)) ((broadcastInDim S1x64 ![1] bcast_S64_S1x64_1 : (⟨S64, .f32⟩ : BufTy).Contents (Elt Ideal) → (⟨S1x64, .f32⟩ : BufTy).Contents (Elt Ideal)) (Host.reduceAdd (F := Ideal) (φ := .f32) y (constant (F := Ideal) S_ .f32 0x00000000#32) reducesTo_S500x64_S64_d0 h_S_)) ((broadcastInDim S1x64 ![] bcast_S_S1x64 : (⟨S_, .f32⟩ : BufTy).Contents (Elt Ideal) → (⟨S1x64, .f32⟩ : BufTy).Contents (Elt Ideal)) (constant (F := Ideal) S_ .f32 0x43FA0000#32)))))) (constant (F := Ideal) S_ .f32 0x00000000#32) reducesTo_S500x64_S64_d0 h_S_) ((broadcastInDim S64 ![] bcast_S_S64 : (⟨S_, .f32⟩ : BufTy).Contents (Elt Ideal) → (⟨S64, .f32⟩ : BufTy).Contents (Elt Ideal)) ((subf (F := Ideal) (φ := .f32) : (⟨S_, .f32⟩ : BufTy).Contents (Elt Ideal) → (⟨S_, .f32⟩ : BufTy).Contents (Elt Ideal) → (⟨S_, .f32⟩ : BufTy).Contents (Elt Ideal)) (constant (F := Ideal) S_ .f32 0x43FA0000#32) ((sitofp (F := Ideal) .f32 : (⟨S_, .i32⟩ : BufTy).Contents (Elt Ideal) → (⟨S_, .f32⟩ : BufTy).Contents (Elt Ideal)) (constantI S_ 32 0#32))))) ((broadcastInDim S64 ![] bcast_S_S64 : (⟨S_, .f32⟩ : BufTy).Contents (Elt Ideal) → (⟨S64, .f32⟩ : BufTy).Contents (Elt Ideal)) (constant (F := Ideal) S_ .f32 0x7FC00000#32))

/-- The rectifier max(y, 0) on a 500-row array. -/
def relu0 (y : (⟨S500x64, .f32⟩ : BufTy).Contents (Elt Ideal)) :
    (⟨S500x64, .f32⟩ : BufTy).Contents (Elt Ideal) :=
  (maximumf (F := Ideal) (φ := .f32) : (⟨S500x64, .f32⟩ : BufTy).Contents (Elt Ideal) → (⟨S500x64, .f32⟩ : BufTy).Contents (Elt Ideal) → (⟨S500x64, .f32⟩ : BufTy).Contents (Elt Ideal)) y ((broadcastInDim S500x64 ![] bcast_S_S500x64 : (⟨S_, .f32⟩ : BufTy).Contents (Elt Ideal) → (⟨S500x64, .f32⟩ : BufTy).Contents (Elt Ideal)) (constant (F := Ideal) S_ .f32 0x00000000#32))

/-- Batch normalisation over the 500 rows, then the rectifier: relu((y − mean)·rsqrt(var + ε)·g + b), ε = 1e-5 as a single-precision constant. -/
def bnrelu (y : (⟨S500x64, .f32⟩ : BufTy).Contents (Elt Ideal)) (g : (⟨S64, .f32⟩ : BufTy).Contents (Elt Ideal)) (b : (⟨S64, .f32⟩ : BufTy).Contents (Elt Ideal)) :
    (⟨S500x64, .f32⟩ : BufTy).Contents (Elt Ideal) :=
  relu0 ((addf (F := Ideal) (φ := .f32) : (⟨S500x64, .f32⟩ : BufTy).Contents (Elt Ideal) → (⟨S500x64, .f32⟩ : BufTy).Contents (Elt Ideal) → (⟨S500x64, .f32⟩ : BufTy).Contents (Elt Ideal)) ((mulf (F := Ideal) (φ := .f32) : (⟨S500x64, .f32⟩ : BufTy).Contents (Elt Ideal) → (⟨S500x64, .f32⟩ : BufTy).Contents (Elt Ideal) → (⟨S500x64, .f32⟩ : BufTy).Contents (Elt Ideal)) ((mulf (F := Ideal) (φ := .f32) : (⟨S500x64, .f32⟩ : BufTy).Contents (Elt Ideal) → (⟨S500x64, .f32⟩ : BufTy).Contents (Elt Ideal) → (⟨S500x64, .f32⟩ : BufTy).Contents (Elt Ideal)) ((subf (F := Ideal) (φ := .f32) : (⟨S500x64, .f32⟩ : BufTy).Contents (Elt Ideal) → (⟨S500x64, .f32⟩ : BufTy).Contents (Elt Ideal) → (⟨S500x64, .f32⟩ : BufTy).Contents (Elt Ideal)) y ((broadcastInDim S500x64 ![0, 1] bcast_S1x64_S500x64_0_1 : (⟨S1x64, .f32⟩ : BufTy).Contents (Elt Ideal) → (⟨S500x64, .f32⟩ : BufTy).Contents (Elt Ideal)) ((broadcastInDim S1x64 ![1] bcast_S64_S1x64_1 : (⟨S64, .f32⟩ : BufTy).Contents (Elt Ideal) → (⟨S1x64, .f32⟩ : BufTy).Contents (Elt Ideal)) (mean y)))) ((broadcastInDim S500x64 ![0, 1] bcast_S1x64_S500x64_0_1 : (⟨S1x64, .f32⟩ : BufTy).Contents (Elt Ideal) → (⟨S500x64, .f32⟩ : BufTy).Contents (Elt Ideal)) ((broadcastInDim S1x64 ![1] bcast_S64_S1x64_1 : (⟨S64, .f32⟩ : BufTy).Contents (Elt Ideal) → (⟨S1x64, .f32⟩ : BufTy).Contents (Elt Ideal)) ((Host.rsqrt (F := Ideal) (φ := .f32) : (⟨S64, .f32⟩ : BufTy).Contents (Elt Ideal) → (⟨S64, .f32⟩ : BufTy).Contents (Elt Ideal)) ((addf (F := Ideal) (φ := .f32) : (⟨S64, .f32⟩ : BufTy).Contents (Elt Ideal) → (⟨S64, .f32⟩ : BufTy).Contents (Elt Ideal) → (⟨S64, .f32⟩ : BufTy).Contents (Elt Ideal)) (var y) ((broadcastInDim S64 ![] bcast_S_S64 : (⟨S_, .f32⟩ : BufTy).Contents (Elt Ideal) → (⟨S64, .f32⟩ : BufTy).Contents (Elt Ideal)) (constant (F := Ideal) S_ .f32 0x3727C5AC#32))))))) ((broadcastInDim S500x64 ![0, 1] bcast_S1x64_S500x64_0_1 : (⟨S1x64, .f32⟩ : BufTy).Contents (Elt Ideal) → (⟨S500x64, .f32⟩ : BufTy).Contents (Elt Ideal)) ((broadcastInDim S1x64 ![1] bcast_S64_S1x64_1 : (⟨S64, .f32⟩ : BufTy).Contents (Elt Ideal) → (⟨S1x64, .f32⟩ : BufTy).Contents (Elt Ideal)) g))) ((broadcastInDim S500x64 ![0, 1] bcast_S1x64_S500x64_0_1 : (⟨S1x64, .f32⟩ : BufTy).Contents (Elt Ideal) → (⟨S500x64, .f32⟩ : BufTy).Contents (Elt Ideal)) ((broadcastInDim S1x64 ![1] bcast_S64_S1x64_1 : (⟨S64, .f32⟩ : BufTy).Contents (Elt Ideal) → (⟨S1x64, .f32⟩ : BufTy).Contents (Elt Ideal)) b)))

/-- h·W + b with a single output column. -/
def lin4 (h : (⟨S500x64, .f32⟩ : BufTy).Contents (Elt Ideal)) (W : (⟨S64x1, .f32⟩ : BufTy).Contents (Elt Ideal)) (b : (⟨S1, .f32⟩ : BufTy).Contents (Elt Ideal)) :
    (⟨S500x1, .f32⟩ : BufTy).Contents (Elt Ideal) :=
  (addf (F := Ideal) (φ := .f32) : (⟨S500x1, .f32⟩ : BufTy).Contents (Elt Ideal) → (⟨S500x1, .f32⟩ : BufTy).Contents (Elt Ideal) → (⟨S500x1, .f32⟩ : BufTy).Contents (Elt Ideal)) (Host.dotGeneral (F := Ideal) (φ₁ := .f32) (φ₂ := .f32) dot_S500x64_S64x1_S500x1_1_0_0_1_n_n none h W) ((broadcastInDim S500x1 ![0, 1] bcast_S1x1_S500x1_0_1 : (⟨S1x1, .f32⟩ : BufTy).Contents (Elt Ideal) → (⟨S500x1, .f32⟩ : BufTy).Contents (Elt Ideal)) ((broadcastInDim S1x1 ![1] bcast_S1_S1x1_1 : (⟨S1, .f32⟩ : BufTy).Contents (Elt Ideal) → (⟨S1x1, .f32⟩ : BufTy).Contents (Elt Ideal)) b))

/-- The read-out head: three times a linear map, batch normalisation and rectifier, then a last linear map to one column. -/
def head (h : (⟨S500x64, .f32⟩ : BufTy).Contents (Elt Ideal)) (lin1W : (⟨S64x64, .f32⟩ : BufTy).Contents (Elt Ideal)) (lin1b : (⟨S64, .f32⟩ : BufTy).Contents (Elt Ideal)) (lin2W : (⟨S64x64, .f32⟩ : BufTy).Contents (Elt Ideal)) (lin2b : (⟨S64, .f32⟩ : BufTy).Contents (Elt Ideal)) (lin3W : (⟨S64x64, .f32⟩ : BufTy).Contents (Elt Ideal)) (lin3b : (⟨S64, .f32⟩ : BufTy).Contents (Elt Ideal)) (lin4W : (⟨S64x1, .f32⟩ : BufTy).Contents (Elt Ideal)) (lin4b : (⟨S1, .f32⟩ : BufTy).Contents (Elt Ideal)) (bn_g : (⟨S64, .f32⟩ : BufTy).Contents (Elt Ideal)) (bn_b : (⟨S64, .f32⟩ : BufTy).Contents (Elt Ideal)) :
    (⟨S500x1, .f32⟩ : BufTy).Contents (Elt Ideal) :=
  lin4 (bnrelu (lin (bnrelu (lin (bnrelu (lin h lin1W lin1b) bn_g bn_b) lin2W lin2b) bn_g bn_b) lin3W lin3b) bn_g bn_b) lin4W lin4b

/-- The Dirichlet energy ½ Σ over edges and columns of (x[src] − x[dst])². -/
def energy (x : (⟨S50000x64, .f32⟩ : BufTy).Contents (Elt Ideal)) (src : (⟨S800000, .i32⟩ : BufTy).Contents (Elt Ideal)) (dst : (⟨S800000, .i32⟩ : BufTy).Contents (Elt Ideal)) :
    (⟨S_, .f32⟩ : BufTy).Contents (Elt Ideal) :=
  (mulf (F := Ideal) (φ := .f32) : (⟨S_, .f32⟩ : BufTy).Contents (Elt Ideal) → (⟨S_, .f32⟩ : BufTy).Contents (Elt Ideal) → (⟨S_, .f32⟩ : BufTy).Contents (Elt Ideal)) (constant (F := Ideal) S_ .f32 0x3F000000#32) (Host.reduceAdd (F := Ideal) (φ := .f32) ((mulf (F := Ideal) (φ := .f32) : (⟨S800000x64, .f32⟩ : BufTy).Contents (Elt Ideal) → (⟨S800000x64, .f32⟩ : BufTy).Contents (Elt Ideal) → (⟨S800000x64, .f32⟩ : BufTy).Contents (Elt Ideal)) ((subf (F := Ideal) (φ := .f32) : (⟨S800000x64, .f32⟩ : BufTy).Contents (Elt Ideal) → (⟨S800000x64, .f32⟩ : BufTy).Contents (Elt Ideal) → (⟨S800000x64, .f32⟩ : BufTy).Contents (Elt Ideal)) (Host.gather gather_S50000x64_S800000x1_S800000x64_1_0_n_n_0_1_164 x ((broadcastInDim S800000x1 ![0] bcast_S800000_S800000x1_0 : (⟨S800000, .i32⟩ : BufTy).Contents (Elt Ideal) → (⟨S800000x1, .i32⟩ : BufTy).Contents (Elt Ideal)) (wrap800 src))) (Host.gather gather_S50000x64_S800000x1_S800000x64_1_0_n_n_0_1_164 x ((broadcastInDim S800000x1 ![0] bcast_S800000_S800000x1_0 : (⟨S800000, .i32⟩ : BufTy).Contents (Elt Ideal) → (⟨S800000x1, .i32⟩ : BufTy).Contents (Elt Ideal)) (wrap800 dst)))) ((subf (F := Ideal) (φ := .f32) : (⟨S800000x64, .f32⟩ : BufTy).Contents (Elt Ideal) → (⟨S800000x64, .f32⟩ : BufTy).Contents (Elt Ideal) → (⟨S800000x64, .f32⟩ : BufTy).Contents (Elt Ideal)) (Host.gather gather_S50000x64_S800000x1_S800000x64_1_0_n_n_0_1_164 x ((broadcastInDim S800000x1 ![0] bcast_S800000_S800000x1_0 : (⟨S800000, .i32⟩ : BufTy).Contents (Elt Ideal) → (⟨S800000x1, .i32⟩ : BufTy).Contents (Elt Ideal)) (wrap800 src))) (Host.gather gather_S50000x64_S800000x1_S800000x64_1_0_n_n_0_1_164 x ((broadcastInDim S800000x1 ![0] bcast_S800000_S800000x1_0 : (⟨S800000, .i32⟩ : BufTy).Contents (Elt Ideal) → (⟨S800000x1, .i32⟩ : BufTy).Contents (Elt Ideal)) (wrap800 dst))))) (constant (F := Ideal) S_ .f32 0x00000000#32) reducesTo_S800000x64_S_d0_1 h_S_)

/-- The reference's first (and second) result as a function of its nineteen arguments. -/
def out (x : (⟨S50000x128, .f32⟩ : BufTy).Contents (Elt Ideal)) (edge_index : (⟨S2x800000, .i32⟩ : BufTy).Contents (Elt Ideal)) (batch : (⟨S50000, .i32⟩ : BufTy).Contents (Elt Ideal)) (preW : (⟨S128x64, .f32⟩ : BufTy).Contents (Elt Ideal)) (preb : (⟨S64, .f32⟩ : BufTy).Contents (Elt Ideal)) (convW : (⟨S4x64x64, .f32⟩ : BufTy).Contents (Elt Ideal)) (convb : (⟨S4x64, .f32⟩ : BufTy).Contents (Elt Ideal)) (ggW : (⟨S4x64x64, .f32⟩ : BufTy).Contents (Elt Ideal)) (ggb : (⟨S4x64, .f32⟩ : BufTy).Contents (Elt Ideal)) (lin1W : (⟨S64x64, .f32⟩ : BufTy).Contents (Elt Ideal)) (lin1b : (⟨S64, .f32⟩ : BufTy).Contents (Elt Ideal)) (lin2W : (⟨S64x64, .f32⟩ : BufTy).Contents (Elt Ideal)) (lin2b : (⟨S64, .f32⟩ : BufTy).Contents (Elt Ideal)) (lin3W : (⟨S64x64, .f32⟩ : BufTy).Contents (Elt Ideal)) (lin3b : (⟨S64, .f32⟩ : BufTy).Contents (Elt Ideal)) (lin4W : (⟨S64x1, .f32⟩ : BufTy).Contents (Elt Ideal)) (lin4b : (⟨S1, .f32⟩ : BufTy).Contents (Elt Ideal)) (bn_g : (⟨S64, .f32⟩ : BufTy).Contents (Elt Ideal)) (bn_b : (⟨S64, .f32⟩ : BufTy).Contents (Elt Ideal)) :
    (⟨S500x1, .f32⟩ : BufTy).Contents (Elt Ideal) :=
  head (pool (layer (layer (layer (layer (pre x preW preb) (convW0 convW) (convb0 convb) (ggW0 ggW) (ggb0 ggb) (src edge_index) (dst edge_index)) (convW1 convW) (convb1 convb) (ggW1 ggW) (ggb1 ggb) (src edge_index) (dst edge_index)) (convW2 convW) (convb2 convb) (ggW2 ggW) (ggb2 ggb) (src edge_index) (dst edge_index)) (convW3 convW) (convb3 convb) (ggW3 ggW) (ggb3 ggb) (src edge_index) (dst edge_index)) batch) lin1W lin1b lin2W lin2b lin3W lin3b lin4W lin4b bn_g bn_b

/-- The reference's third result as a function of its nineteen arguments. -/
def energyOut (x : (⟨S50000x128, .f32⟩ : BufTy).Contents (Elt Ideal)) (edge_index : (⟨S2x800000, .i32⟩ : BufTy).Contents (Elt Ideal)) (batch : (⟨S50000, .i32⟩ : BufTy).Contents (Elt Ideal)) (preW : (⟨S128x64, .f32⟩ : BufTy).Contents (Elt Ideal)) (preb : (⟨S64, .f32⟩ : BufTy).Contents (Elt Ideal)) (convW : (⟨S4x64x64, .f32⟩ : BufTy).Contents (Elt Ideal)) (convb : (⟨S4x64, .f32⟩ : BufTy).Contents (Elt Ideal)) (ggW : (⟨S4x64x64, .f32⟩ : BufTy).Contents (Elt Ideal)) (ggb : (⟨S4x64, .f32⟩ : BufTy).Contents (Elt Ideal)) (lin1W : (⟨S64x64, .f32⟩ : BufTy).Contents (Elt Ideal)) (lin1b : (⟨S64, .f32⟩ : BufTy).Contents (Elt Ideal)) (lin2W : (⟨S64x64, .f32⟩ : BufTy).Contents (Elt Ideal)) (lin2b : (⟨S64, .f32⟩ : BufTy).Contents (Elt Ideal)) (lin3W : (⟨S64x64, .f32⟩ : BufTy).Contents (Elt Ideal)) (lin3b : (⟨S64, .f32⟩ : BufTy).Contents (Elt Ideal)) (lin4W : (⟨S64x1, .f32⟩ : BufTy).Contents (Elt Ideal)) (lin4b : (⟨S1, .f32⟩ : BufTy).Contents (Elt Ideal)) (bn_g : (⟨S64, .f32⟩ : BufTy).Contents (Elt Ideal)) (bn_b : (⟨S64, .f32⟩ : BufTy).Contents (Elt Ideal)) :
    (⟨S_, .f32⟩ : BufTy).Contents (Elt Ideal) :=
  energy (layer (layer (layer (layer (pre x preW preb) (convW0 convW) (convb0 convb) (ggW0 ggW) (ggb0 ggb) (src edge_index) (dst edge_index)) (convW1 convW) (convb1 convb) (ggW1 ggW) (ggb1 ggb) (src edge_index) (dst edge_index)) (convW2 convW) (convb2 convb) (ggW2 ggW) (ggb2 ggb) (src edge_index) (dst edge_index)) (convW3 convW) (convb3 convb) (ggW3 ggW) (ggb3 ggb) (src edge_index) (dst edge_index)) (src edge_index) (dst edge_index)

end Cert.ReferenceIdeal.RV

end
-- ==== Proof.RVReadPre.lean ====
/- A stretch of the reference program (the two rows of the edge table and the input projection): its 11 operations as a list, in program order and as the program
   writes them (an outlined function's operations stand at its call, over that call's buffers); the buffers they write; and what the
   run of the list from ANY contents V leaves in the stretch's results: the named whole-array function of V's contents at the buffers the
   stretch reads. The fold of the list is unrolled one operation at a time, each operation's function applied to what the
   earlier ones left, and the composed term is the function's definition read literally. -/
import proofs.«117928_j61658550502081_1_alg».proof.Proof.RVDefs
import Idealize.ShloMosaic.Lib.StableHlo.Run

noncomputable section

namespace Cert.ReferenceIdeal.RV

open Cert.ReferenceIdeal Cert.ReferenceIdeal.Gen Idealize.ShloMosaic Idealize.ShloMosaic.TcCoe Idealize.SL.Sem Idealize.ShloMosaic.StableHlo

section
variable {F : FTy → Type} [FloatOps F]

/-- The stretch's 11 operations, in order. -/
abbrev rvPre : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.binary main_arg0 main_arg3 main_v4 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg4 main_v5 (broadcastInDim S1x64 ![1] bcast_S64_S1x64_1 : (⟨S64, .f32⟩ : BufTy).Contents (Elt F) → (⟨S1x64, .f32⟩ : BufTy).Contents (Elt F)),
    StableHlo.unary main_v5 main_v6 (broadcastInDim S50000x64 ![0, 1] bcast_S1x64_S50000x64_0_1 : (⟨S1x64, .f32⟩ : BufTy).Contents (Elt F) → (⟨S50000x64, .f32⟩ : BufTy).Contents (Elt F)),
    StableHlo.binary main_v4 main_v6 main_v7 (addf : (⟨S50000x64, .f32⟩ : BufTy).Contents (Elt F) → (⟨S50000x64, .f32⟩ : BufTy).Contents (Elt F) → (⟨S50000x64, .f32⟩ : BufTy).Contents (Elt F)),
    StableHlo.TRef.nullary main_call0.cst (constant S_ .f32 0x00000000#32),
    StableHlo.TRef.unary main_call0.cst main_call0.v0 (broadcastInDim S50000x64 ![] bcast_S_S50000x64),
    StableHlo.TRef.binary (.of main_v7 : StableHlo.TRef sig ⟨S50000x64, .f32⟩) main_call0.v0 main_call0.v1 maximumf ]

/-- The buffers the stretch writes, in order. -/
abbrev rvPre_W : List (Ref sig .tc) :=
  [main_v0, main_v1, main_v2, main_v3, main_v4, main_v5, main_v6, main_v7, main_call0_cst, main_call0_v0, main_v8]

set_option maxRecDepth 4096 in
/-- Each operation writes one buffer of that list. -/
theorem rvPre_writes : (rvPre : List (HloOp τ sig (Elt F))).Forall fun op => op.writes ⊆ (rvPre_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩

/-- A buffer the stretch does not write keeps its contents through it. -/
theorem rvPre_keep (V : Valuation τ sig (Elt F)) (r : Ref sig .tc) (h : r ∉ rvPre_W) :
    after (rvPre (F := F)) V (Proc.devRef .tc r) = V (Proc.devRef .tc r) :=
  after_of_writes_sub rvPre V rvPre_writes h

end

attribute [local irreducible] Host.scatterAdd Host.gather Host.reduceAdd concatenate in
set_option maxRecDepth 8192 in
set_option maxHeartbeats 4000000 in
/-- What the stretch leaves in main_v1, from any contents V. -/
theorem read_Pre_v1 (V : Valuation τ sig (Elt Ideal)) :
    after (rvPre (F := Ideal)) V (Proc.devRef .tc main_v1 : DevRef τ sig)
      = src (V (Proc.devRef .tc main_arg1 : DevRef τ sig)) := by
  simp only [rvPre]
  after_results_simp
  rfl

attribute [local irreducible] Host.scatterAdd Host.gather Host.reduceAdd concatenate in
set_option maxRecDepth 8192 in
set_option maxHeartbeats 4000000 in
/-- What the stretch leaves in main_v3, from any contents V. -/
theorem read_Pre_v3 (V : Valuation τ sig (Elt Ideal)) :
    after (rvPre (F := Ideal)) V (Proc.devRef .tc main_v3 : DevRef τ sig)
      = dst (V (Proc.devRef .tc main_arg1 : DevRef τ sig)) := by
  simp only [rvPre]
  after_results_simp
  rfl

attribute [local irreducible] Host.scatterAdd Host.gather Host.reduceAdd concatenate in
set_option maxRecDepth 8192 in
set_option maxHeartbeats 4000000 in
/-- What the stretch leaves in main_v8, from any contents V. -/
theorem read_Pre_v8 (V : Valuation τ sig (Elt Ideal)) :
    after (rvPre (F := Ideal)) V (Proc.devRef .tc main_v8 : DevRef τ sig)
      = pre (V (Proc.devRef .tc main_arg0 : DevRef τ sig)) (V (Proc.devRef .tc main_arg3 : DevRef τ sig)) (V (Proc.devRef .tc main_arg4 : DevRef τ sig)) := by
  simp only [rvPre]
  after_results_simp
  rfl

end Cert.ReferenceIdeal.RV

end
-- ==== Proof.RVReadL0a.lean ====
/- A stretch of the reference program (layer 0: the slices of the convolution's weights and the graph convolution): its 56 operations as a list, in program order and as the program
   writes them (an outlined function's operations stand at its call, over that call's buffers); the buffers they write; and what the
   run of the list from ANY contents V leaves in the stretch's result: the named whole-array function of V's contents at the buffers the
   stretch reads. The fold of the list is unrolled one operation at a time, each operation's function applied to what the
   earlier ones left, and the composed term is the function's definition read literally. -/
import proofs.«117928_j61658550502081_1_alg».proof.Proof.RVDefs
import Idealize.ShloMosaic.Lib.StableHlo.Run

noncomputable section

namespace Cert.ReferenceIdeal.RV

open Cert.ReferenceIdeal Cert.ReferenceIdeal.Gen Idealize.ShloMosaic Idealize.ShloMosaic.TcCoe Idealize.SL.Sem Idealize.ShloMosaic.StableHlo

section
variable {F : FTy → Type} [FloatOps F]

/-- The stretch's 56 operations, in order. -/
abbrev rvL0a : List (HloOp τ sig (Elt F)) :=
  [ StableHlo.unary main_arg5 main_v9 ((extractStridedSlice S1x64x64 ![0, 0, 0] · slices_S4x64x64_S1x64x64_0_0_0) : (⟨S4x64x64, .f32⟩ : BufTy).Contents (Elt F) → (⟨S1x64x64, .f32⟩ : BufTy).Contents (Elt F)),
    StableHlo.reshape main_v9 main_v10 rfl shapeCasts_S1x64x64_S64x64,
    StableHlo.unary main_arg6 main_v11 ((extractStridedSlice S1x64 ![0, 0] · slices_S4x64_S1x64_0_0) : (⟨S4x64, .f32⟩ : BufTy).Contents (Elt F) → (⟨S1x64, .f32⟩ : BufTy).Contents (Elt F)),
    StableHlo.reshape main_v11 main_v12 rfl shapeCasts_S1x64_S64,
    StableHlo.binary main_v8 main_v10 main_v13 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.nullary main_v14 (iotaInDim S50000 32 0),
    StableHlo.binary main_v1 main_v14 main_v15 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v14 main_v16 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v17 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v18 (broadcastInDim S50000 ![] bcast_S_S50000 : (⟨S_, .f32⟩ : BufTy).Contents (Elt F) → (⟨S50000, .f32⟩ : BufTy).Contents (Elt F)),
    StableHlo.unary main_v16 main_v19 (broadcastInDim S850000x1 ![0] bcast_S850000_S850000x1_0 : (⟨S850000, .i32⟩ : BufTy).Contents (Elt F) → (⟨S850000x1, .i32⟩ : BufTy).Contents (Elt F)),
    StableHlo.ternary main_v18 main_v19 main_v17 main_v20 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x3F800000#32),
    StableHlo.unary main_cst_1 main_v21 (broadcastInDim S50000 ![] bcast_S_S50000 : (⟨S_, .f32⟩ : BufTy).Contents (Elt F) → (⟨S50000, .f32⟩ : BufTy).Contents (Elt F)),
    StableHlo.binary main_v20 main_v21 main_v22 (maximumf : (⟨S50000, .f32⟩ : BufTy).Contents (Elt F) → (⟨S50000, .f32⟩ : BufTy).Contents (Elt F) → (⟨S50000, .f32⟩ : BufTy).Contents (Elt F)),
    StableHlo.unary main_v22 main_v23 (Host.rsqrt : (⟨S50000, .f32⟩ : BufTy).Contents (Elt F) → (⟨S50000, .f32⟩ : BufTy).Contents (Elt F)),
    StableHlo.nullary main_c (constantI S_ 32 0#32),
    StableHlo.unary main_c main_v24 (broadcastInDim S850000 ![] bcast_S_S850000 : (⟨S_, .i32⟩ : BufTy).Contents (Elt F) → (⟨S850000, .i32⟩ : BufTy).Contents (Elt F)),
    StableHlo.binary main_v15 main_v24 main_v25 (cmpi .slt : (⟨S850000, .i32⟩ : BufTy).Contents (Elt F) → (⟨S850000, .i32⟩ : BufTy).Contents (Elt F) → (⟨S850000, .i1⟩ : BufTy).Contents (Elt F)),
    StableHlo.nullary main_c_2 (constantI S_ 32 50000#32),
    StableHlo.unary main_c_2 main_v26 (broadcastInDim S850000 ![] bcast_S_S850000 : (⟨S_, .i32⟩ : BufTy).Contents (Elt F) → (⟨S850000, .i32⟩ : BufTy).Contents (Elt F)),
    StableHlo.binary main_v15 main_v26 main_v27 (addi : (⟨S850000, .i32⟩ : BufTy).Contents (Elt F) → (⟨S850000, .i32⟩ : BufTy).Contents (Elt F) → (⟨S850000, .i32⟩ : BufTy).Contents (Elt F)),
    StableHlo.ternary main_v25 main_v27 main_v15 main_v28 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v28 main_v29 (broadcastInDim S850000x1 ![0] bcast_S850000_S850000x1_0 : (⟨S850000, .i32⟩ : BufTy).Contents (Elt F) → (⟨S850000x1, .i32⟩ : BufTy).Contents (Elt F)),
    StableHlo.binary main_v23 main_v29 main_v30 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_3 (constantI S_ 32 0#32),
    StableHlo.unary main_c_3 main_v31 (broadcastInDim S850000 ![] bcast_S_S850000 : (⟨S_, .i32⟩ : BufTy).Contents (Elt F) → (⟨S850000, .i32⟩ : BufTy).Contents (Elt F)),
    StableHlo.binary main_v16 main_v31 main_v32 (cmpi .slt : (⟨S850000, .i32⟩ : BufTy).Contents (Elt F) → (⟨S850000, .i32⟩ : BufTy).Contents (Elt F) → (⟨S850000, .i1⟩ : BufTy).Contents (Elt F)),
    StableHlo.nullary main_c_4 (constantI S_ 32 50000#32),
    StableHlo.unary main_c_4 main_v33 (broadcastInDim S850000 ![] bcast_S_S850000 : (⟨S_, .i32⟩ : BufTy).Contents (Elt F) → (⟨S850000, .i32⟩ : BufTy).Contents (Elt F)),
    StableHlo.binary main_v16 main_v33 main_v34 (addi : (⟨S850000, .i32⟩ : BufTy).Contents (Elt F) → (⟨S850000, .i32⟩ : BufTy).Contents (Elt F) → (⟨S850000, .i32⟩ : BufTy).Contents (Elt F)),
    StableHlo.ternary main_v32 main_v34 main_v16 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v35 main_v36 (broadcastInDim S850000x1 ![0] bcast_S850000_S850000x1_0 : (⟨S850000, .i32⟩ : BufTy).Contents (Elt F) → (⟨S850000x1, .i32⟩ : BufTy).Contents (Elt F)),
    StableHlo.binary main_v23 main_v36 main_v37 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v30 main_v37 main_v38 (mulf : (⟨S850000, .f32⟩ : BufTy).Contents (Elt F) → (⟨S850000, .f32⟩ : BufTy).Contents (Elt F) → (⟨S850000, .f32⟩ : BufTy).Contents (Elt F)),
    StableHlo.unary main_v38 main_v39 (broadcastInDim S850000x1 ![0] bcast_S850000_S850000x1_0 : (⟨S850000, .f32⟩ : BufTy).Contents (Elt F) → (⟨S850000x1, .f32⟩ : BufTy).Contents (Elt F)),
    StableHlo.nullary main_c_5 (constantI S_ 32 0#32),
    StableHlo.unary main_c_5 main_v40 (broadcastInDim S850000 ![] bcast_S_S850000 : (⟨S_, .i32⟩ : BufTy).Contents (Elt F) → (⟨S850000, .i32⟩ : BufTy).Contents (Elt F)),
    StableHlo.binary main_v15 main_v40 main_v41 (cmpi .slt : (⟨S850000, .i32⟩ : BufTy).Contents (Elt F) → (⟨S850000, .i32⟩ : BufTy).Contents (Elt F) → (⟨S850000, .i1⟩ : BufTy).Contents (Elt F)),
    StableHlo.nullary main_c_6 (constantI S_ 32 50000#32),
    StableHlo.unary main_c_6 main_v42 (broadcastInDim S850000 ![] bcast_S_S850000 : (⟨S_, .i32⟩ : BufTy).Contents (Elt F) → (⟨S850000, .i32⟩ : BufTy).Contents (Elt F)),
    StableHlo.binary main_v15 main_v42 main_v43 (addi : (⟨S850000, .i32⟩ : BufTy).Contents (Elt F) → (⟨S850000, .i32⟩ : BufTy).Contents (Elt F) → (⟨S850000, .i32⟩ : BufTy).Contents (Elt F)),
    StableHlo.ternary main_v41 main_v43 main_v15 main_v44 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v44 main_v45 (broadcastInDim S850000x1 ![0] bcast_S850000_S850000x1_0 : (⟨S850000, .i32⟩ : BufTy).Contents (Elt F) → (⟨S850000x1, .i32⟩ : BufTy).Contents (Elt F)),
    StableHlo.binary main_v13 main_v45 main_v46 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v39 main_v47 (broadcastInDim S850000x64 ![0, 1] bcast_S850000x1_S850000x64_0_1 : (⟨S850000x1, .f32⟩ : BufTy).Contents (Elt F) → (⟨S850000x64, .f32⟩ : BufTy).Contents (Elt F)),
    StableHlo.binary main_v46 main_v47 main_v48 (mulf : (⟨S850000x64, .f32⟩ : BufTy).Contents (Elt F) → (⟨S850000x64, .f32⟩ : BufTy).Contents (Elt F) → (⟨S850000x64, .f32⟩ : BufTy).Contents (Elt F)),
    StableHlo.nullary main_cst_7 (constant S_ .f32 0x00000000#32),
    StableHlo.unary main_cst_7 main_v49 (broadcastInDim S50000x64 ![] bcast_S_S50000x64 : (⟨S_, .f32⟩ : BufTy).Contents (Elt F) → (⟨S50000x64, .f32⟩ : BufTy).Contents (Elt F)),
    StableHlo.unary main_v16 main_v50 (broadcastInDim S850000x1 ![0] bcast_S850000_S850000x1_0 : (⟨S850000, .i32⟩ : BufTy).Contents (Elt F) → (⟨S850000x1, .i32⟩ : BufTy).Contents (Elt F)),
    StableHlo.ternary main_v49 main_v50 main_v48 main_v51 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.unary main_v12 main_v52 (broadcastInDim S1x64 ![1] bcast_S64_S1x64_1 : (⟨S64, .f32⟩ : BufTy).Contents (Elt F) → (⟨S1x64, .f32⟩ : BufTy).Contents (Elt F)),
    StableHlo.unary main_v52 main_v53 (broadcastInDim S50000x64 ![0, 1] bcast_S1x64_S50000x64_0_1 : (⟨S1x64, .f32⟩ : BufTy).Contents (Elt F) → (⟨S50000x64, .f32⟩ : BufTy).Contents (Elt F)),
    StableHlo.binary main_v51 main_v53 main_v54 (addf : (⟨S50000x64, .f32⟩ : BufTy).Contents (Elt F) → (⟨S50000x64, .f32⟩ : BufTy).Contents (Elt F) → (⟨S50000x64, .f32⟩ : BufTy).Contents (Elt F)) ]

/-- The buffers the stretch writes, in order. -/
abbrev rvL0a_W : List (Ref sig .tc) :=
  [main_v9, main_v10, main_v11, main_v12, main_v13, main_v14, main_v15, main_v16, main_cst, main_v17, main_cst_0, main_v18, main_v19, main_v20, main_cst_1, main_v21, main_v22, main_v23, main_c, main_v24, main_v25, main_c_2, main_v26, main_v27, main_v28, main_v29, main_v30, main_c_3, main_v31, main_v32, main_c_4, main_v33, main_v34, main_v35, main_v36, main_v37, main_v38, main_v39, main_c_5, main_v40, main_v41, main_c_6, main_v42, main_v43, main_v44, main_v45, main_v46, main_v47, main_v48, main_cst_7, main_v49, main_v50, main_v51, main_v52, main_v53, main_v54]

set_option maxRecDepth 4096 in
/-- Each operation writes one buffer of that list. -/
theorem rvL0a_writes : (rvL0a : List (HloOp τ sig (Elt F))).Forall fun op => op.writes ⊆ (rvL0a_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩

/-- A buffer the stretch does not write keeps its contents through it. -/
theorem rvL0a_keep (V : Valuation τ sig (Elt F)) (r : Ref sig .tc) (h : r ∉ rvL0a_W) :
    after (rvL0a (F := F)) V (Proc.devRef .tc r) = V (Proc.devRef .tc r) :=
  after_of_writes_sub rvL0a V rvL0a_writes h

end

attribute [local irreducible] Host.scatterAdd Host.gather Host.reduceAdd concatenate in
set_option maxRecDepth 8192 in
set_option maxHeartbeats 4000000 in
/-- What the stretch leaves in main_v54, from any contents V. -/
theorem read_L0a_v54 (V : Valuation τ sig (Elt Ideal)) :
    after (rvL0a (F := Ideal)) V (Proc.devRef .tc main_v54 : DevRef τ sig)
      = gcn (V (Proc.devRef .tc main_v8 : DevRef τ sig)) (convW0 (V (Proc.devRef .tc main_arg5 : DevRef τ sig))) (convb0 (V (Proc.devRef .tc main_arg6 : DevRef τ sig))) (V (Proc.devRef .tc main_v1 : DevRef τ sig)) (V (Proc.devRef .tc main_v3 : DevRef τ sig)) := by
  simp only [rvL0a]
  after_results_simp
  rfl

end Cert.ReferenceIdeal.RV

end
-- ==== Proof.RVReadL0ar.lean ====
/- A stretch of the reference program (layer 0: the rectifier of the convolution): its 3 operations as a list, in program order and as the program
   writes them (an outlined function's operations stand at its call, over that call's buffers); the buffers they write; and what the
   run of the list from ANY contents V leaves in the stretch's result: the named whole-array function of V's contents at the buffers the
   stretch reads. The fold of the list is unrolled one operation at a time, each operation's function applied to what the
   earlier ones left, and the composed term is the function's definition read literally. -/
import proofs.«117928_j61658550502081_1_alg».proof.Proof.RVDefs
import Idealize.ShloMosaic.Lib.StableHlo.Run

noncomputable section

namespace Cert.ReferenceIdeal.RV

open Cert.ReferenceIdeal Cert.ReferenceIdeal.Gen Idealize.ShloMosaic Idealize.ShloMosaic.TcCoe Idealize.SL.Sem Idealize.ShloMosaic.StableHlo

section
variable {F : FTy → Type} [FloatOps F]

/-- The stretch's 3 operations, in order. -/
abbrev rvL0ar : List (HloOp τ sig (Elt F)) :=
  [ StableHlo.TRef.nullary main_call1.cst (constant S_ .f32 0x00000000#32),
    StableHlo.TRef.unary main_call1.cst main_call1.v0 (broadcastInDim S50000x64 ![] bcast_S_S50000x64),
    StableHlo.TRef.binary (.of main_v54 : StableHlo.TRef sig ⟨S50000x64, .f32⟩) main_call1.v0 main_call1.v1 maximumf ]

/-- The buffers the stretch writes, in order. -/
abbrev rvL0ar_W : List (Ref sig .tc) :=
  [main_call1_cst, main_call1_v0, main_v55]

set_option maxRecDepth 4096 in
/-- Each operation writes one buffer of that list. -/
theorem rvL0ar_writes : (rvL0ar : List (HloOp τ sig (Elt F))).Forall fun op => op.writes ⊆ (rvL0ar_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩

/-- A buffer the stretch does not write keeps its contents through it. -/
theorem rvL0ar_keep (V : Valuation τ sig (Elt F)) (r : Ref sig .tc) (h : r ∉ rvL0ar_W) :
    after (rvL0ar (F := F)) V (Proc.devRef .tc r) = V (Proc.devRef .tc r) :=
  after_of_writes_sub rvL0ar V rvL0ar_writes h

end

attribute [local irreducible] Host.scatterAdd Host.gather Host.reduceAdd concatenate in
set_option maxRecDepth 8192 in
set_option maxHeartbeats 4000000 in
/-- What the stretch leaves in main_v55, from any contents V. -/
theorem read_L0ar_v55 (V : Valuation τ sig (Elt Ideal)) :
    after (rvL0ar (F := Ideal)) V (Proc.devRef .tc main_v55 : DevRef τ sig)
      = relu (V (Proc.devRef .tc main_v54 : DevRef τ sig)) := by
  simp only [rvL0ar]
  after_results_simp
  rfl

end Cert.ReferenceIdeal.RV

end
-- ==== Proof.RVReadL0b.lean ====
/- A stretch of the reference program (layer 0: the slices of the gate's weights and the gate's graph convolution): its 56 operations as a list, in program order and as the program
   writes them (an outlined function's operations stand at its call, over that call's buffers); the buffers they write; and what the
   run of the list from ANY contents V leaves in the stretch's result: the named whole-array function of V's contents at the buffers the
   stretch reads. The fold of the list is unrolled one operation at a time, each operation's function applied to what the
   earlier ones left, and the composed term is the function's definition read literally. -/
import proofs.«117928_j61658550502081_1_alg».proof.Proof.RVDefs
import Idealize.ShloMosaic.Lib.StableHlo.Run

noncomputable section

namespace Cert.ReferenceIdeal.RV

open Cert.ReferenceIdeal Cert.ReferenceIdeal.Gen Idealize.ShloMosaic Idealize.ShloMosaic.TcCoe Idealize.SL.Sem Idealize.ShloMosaic.StableHlo

section
variable {F : FTy → Type} [FloatOps F]

/-- The stretch's 56 operations, in order. -/
abbrev rvL0b : List (HloOp τ sig (Elt F)) :=
  [ StableHlo.unary main_arg7 main_v56 ((extractStridedSlice S1x64x64 ![0, 0, 0] · slices_S4x64x64_S1x64x64_0_0_0) : (⟨S4x64x64, .f32⟩ : BufTy).Contents (Elt F) → (⟨S1x64x64, .f32⟩ : BufTy).Contents (Elt F)),
    StableHlo.reshape main_v56 main_v57 rfl shapeCasts_S1x64x64_S64x64,
    StableHlo.unary main_arg8 main_v58 ((extractStridedSlice S1x64 ![0, 0] · slices_S4x64_S1x64_0_0) : (⟨S4x64, .f32⟩ : BufTy).Contents (Elt F) → (⟨S1x64, .f32⟩ : BufTy).Contents (Elt F)),
    StableHlo.reshape main_v58 main_v59 rfl shapeCasts_S1x64_S64,
    StableHlo.binary main_v8 main_v57 main_v60 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.nullary main_v61 (iotaInDim S50000 32 0),
    StableHlo.binary main_v1 main_v61 main_v62 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v61 main_v63 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst_8 (constant S_ .f32 0x3F800000#32),
    StableHlo.unary main_cst_8 main_v64 (broadcastInDim S850000 ![] bcast_S_S850000 : (⟨S_, .f32⟩ : BufTy).Contents (Elt F) → (⟨S850000, .f32⟩ : BufTy).Contents (Elt F)),
    StableHlo.nullary main_cst_9 (constant S_ .f32 0x00000000#32),
    StableHlo.unary main_cst_9 main_v65 (broadcastInDim S50000 ![] bcast_S_S50000 : (⟨S_, .f32⟩ : BufTy).Contents (Elt F) → (⟨S50000, .f32⟩ : BufTy).Contents (Elt F)),
    StableHlo.unary main_v63 main_v66 (broadcastInDim S850000x1 ![0] bcast_S850000_S850000x1_0 : (⟨S850000, .i32⟩ : BufTy).Contents (Elt F) → (⟨S850000x1, .i32⟩ : BufTy).Contents (Elt F)),
    StableHlo.ternary main_v65 main_v66 main_v64 main_v67 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_10 (constant S_ .f32 0x3F800000#32),
    StableHlo.unary main_cst_10 main_v68 (broadcastInDim S50000 ![] bcast_S_S50000 : (⟨S_, .f32⟩ : BufTy).Contents (Elt F) → (⟨S50000, .f32⟩ : BufTy).Contents (Elt F)),
    StableHlo.binary main_v67 main_v68 main_v69 (maximumf : (⟨S50000, .f32⟩ : BufTy).Contents (Elt F) → (⟨S50000, .f32⟩ : BufTy).Contents (Elt F) → (⟨S50000, .f32⟩ : BufTy).Contents (Elt F)),
    StableHlo.unary main_v69 main_v70 (Host.rsqrt : (⟨S50000, .f32⟩ : BufTy).Contents (Elt F) → (⟨S50000, .f32⟩ : BufTy).Contents (Elt F)),
    StableHlo.nullary main_c_11 (constantI S_ 32 0#32),
    StableHlo.unary main_c_11 main_v71 (broadcastInDim S850000 ![] bcast_S_S850000 : (⟨S_, .i32⟩ : BufTy).Contents (Elt F) → (⟨S850000, .i32⟩ : BufTy).Contents (Elt F)),
    StableHlo.binary main_v62 main_v71 main_v72 (cmpi .slt : (⟨S850000, .i32⟩ : BufTy).Contents (Elt F) → (⟨S850000, .i32⟩ : BufTy).Contents (Elt F) → (⟨S850000, .i1⟩ : BufTy).Contents (Elt F)),
    StableHlo.nullary main_c_12 (constantI S_ 32 50000#32),
    StableHlo.unary main_c_12 main_v73 (broadcastInDim S850000 ![] bcast_S_S850000 : (⟨S_, .i32⟩ : BufTy).Contents (Elt F) → (⟨S850000, .i32⟩ : BufTy).Contents (Elt F)),
    StableHlo.binary main_v62 main_v73 main_v74 (addi : (⟨S850000, .i32⟩ : BufTy).Contents (Elt F) → (⟨S850000, .i32⟩ : BufTy).Contents (Elt F) → (⟨S850000, .i32⟩ : BufTy).Contents (Elt F)),
    StableHlo.ternary main_v72 main_v74 main_v62 main_v75 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v75 main_v76 (broadcastInDim S850000x1 ![0] bcast_S850000_S850000x1_0 : (⟨S850000, .i32⟩ : BufTy).Contents (Elt F) → (⟨S850000x1, .i32⟩ : BufTy).Contents (Elt F)),
    StableHlo.binary main_v70 main_v76 main_v77 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_13 (constantI S_ 32 0#32),
    StableHlo.unary main_c_13 main_v78 (broadcastInDim S850000 ![] bcast_S_S850000 : (⟨S_, .i32⟩ : BufTy).Contents (Elt F) → (⟨S850000, .i32⟩ : BufTy).Contents (Elt F)),
    StableHlo.binary main_v63 main_v78 main_v79 (cmpi .slt : (⟨S850000, .i32⟩ : BufTy).Contents (Elt F) → (⟨S850000, .i32⟩ : BufTy).Contents (Elt F) → (⟨S850000, .i1⟩ : BufTy).Contents (Elt F)),
    StableHlo.nullary main_c_14 (constantI S_ 32 50000#32),
    StableHlo.unary main_c_14 main_v80 (broadcastInDim S850000 ![] bcast_S_S850000 : (⟨S_, .i32⟩ : BufTy).Contents (Elt F) → (⟨S850000, .i32⟩ : BufTy).Contents (Elt F)),
    StableHlo.binary main_v63 main_v80 main_v81 (addi : (⟨S850000, .i32⟩ : BufTy).Contents (Elt F) → (⟨S850000, .i32⟩ : BufTy).Contents (Elt F) → (⟨S850000, .i32⟩ : BufTy).Contents (Elt F)),
    StableHlo.ternary main_v79 main_v81 main_v63 main_v82 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v82 main_v83 (broadcastInDim S850000x1 ![0] bcast_S850000_S850000x1_0 : (⟨S850000, .i32⟩ : BufTy).Contents (Elt F) → (⟨S850000x1, .i32⟩ : BufTy).Contents (Elt F)),
    StableHlo.binary main_v70 main_v83 main_v84 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v77 main_v84 main_v85 (mulf : (⟨S850000, .f32⟩ : BufTy).Contents (Elt F) → (⟨S850000, .f32⟩ : BufTy).Contents (Elt F) → (⟨S850000, .f32⟩ : BufTy).Contents (Elt F)),
    StableHlo.unary main_v85 main_v86 (broadcastInDim S850000x1 ![0] bcast_S850000_S850000x1_0 : (⟨S850000, .f32⟩ : BufTy).Contents (Elt F) → (⟨S850000x1, .f32⟩ : BufTy).Contents (Elt F)),
    StableHlo.nullary main_c_15 (constantI S_ 32 0#32),
    StableHlo.unary main_c_15 main_v87 (broadcastInDim S850000 ![] bcast_S_S850000 : (⟨S_, .i32⟩ : BufTy).Contents (Elt F) → (⟨S850000, .i32⟩ : BufTy).Contents (Elt F)),
    StableHlo.binary main_v62 main_v87 main_v88 (cmpi .slt : (⟨S850000, .i32⟩ : BufTy).Contents (Elt F) → (⟨S850000, .i32⟩ : BufTy).Contents (Elt F) → (⟨S850000, .i1⟩ : BufTy).Contents (Elt F)),
    StableHlo.nullary main_c_16 (constantI S_ 32 50000#32),
    StableHlo.unary main_c_16 main_v89 (broadcastInDim S850000 ![] bcast_S_S850000 : (⟨S_, .i32⟩ : BufTy).Contents (Elt F) → (⟨S850000, .i32⟩ : BufTy).Contents (Elt F)),
    StableHlo.binary main_v62 main_v89 main_v90 (addi : (⟨S850000, .i32⟩ : BufTy).Contents (Elt F) → (⟨S850000, .i32⟩ : BufTy).Contents (Elt F) → (⟨S850000, .i32⟩ : BufTy).Contents (Elt F)),
    StableHlo.ternary main_v88 main_v90 main_v62 main_v91 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v91 main_v92 (broadcastInDim S850000x1 ![0] bcast_S850000_S850000x1_0 : (⟨S850000, .i32⟩ : BufTy).Contents (Elt F) → (⟨S850000x1, .i32⟩ : BufTy).Contents (Elt F)),
    StableHlo.binary main_v60 main_v92 main_v93 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v86 main_v94 (broadcastInDim S850000x64 ![0, 1] bcast_S850000x1_S850000x64_0_1 : (⟨S850000x1, .f32⟩ : BufTy).Contents (Elt F) → (⟨S850000x64, .f32⟩ : BufTy).Contents (Elt F)),
    StableHlo.binary main_v93 main_v94 main_v95 (mulf : (⟨S850000x64, .f32⟩ : BufTy).Contents (Elt F) → (⟨S850000x64, .f32⟩ : BufTy).Contents (Elt F) → (⟨S850000x64, .f32⟩ : BufTy).Contents (Elt F)),
    StableHlo.nullary main_cst_17 (constant S_ .f32 0x00000000#32),
    StableHlo.unary main_cst_17 main_v96 (broadcastInDim S50000x64 ![] bcast_S_S50000x64 : (⟨S_, .f32⟩ : BufTy).Contents (Elt F) → (⟨S50000x64, .f32⟩ : BufTy).Contents (Elt F)),
    StableHlo.unary main_v63 main_v97 (broadcastInDim S850000x1 ![0] bcast_S850000_S850000x1_0 : (⟨S850000, .i32⟩ : BufTy).Contents (Elt F) → (⟨S850000x1, .i32⟩ : BufTy).Contents (Elt F)),
    StableHlo.ternary main_v96 main_v97 main_v95 main_v98 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.unary main_v59 main_v99 (broadcastInDim S1x64 ![1] bcast_S64_S1x64_1 : (⟨S64, .f32⟩ : BufTy).Contents (Elt F) → (⟨S1x64, .f32⟩ : BufTy).Contents (Elt F)),
    StableHlo.unary main_v99 main_v100 (broadcastInDim S50000x64 ![0, 1] bcast_S1x64_S50000x64_0_1 : (⟨S1x64, .f32⟩ : BufTy).Contents (Elt F) → (⟨S50000x64, .f32⟩ : BufTy).Contents (Elt F)),
    StableHlo.binary main_v98 main_v100 main_v101 (addf : (⟨S50000x64, .f32⟩ : BufTy).Contents (Elt F) → (⟨S50000x64, .f32⟩ : BufTy).Contents (Elt F) → (⟨S50000x64, .f32⟩ : BufTy).Contents (Elt F)) ]

/-- The buffers the stretch writes, in order. -/
abbrev rvL0b_W : List (Ref sig .tc) :=
  [main_v56, main_v57, main_v58, main_v59, main_v60, main_v61, main_v62, main_v63, main_cst_8, main_v64, main_cst_9, main_v65, main_v66, main_v67, main_cst_10, main_v68, main_v69, main_v70, main_c_11, main_v71, main_v72, main_c_12, main_v73, main_v74, main_v75, main_v76, main_v77, main_c_13, main_v78, main_v79, main_c_14, main_v80, main_v81, main_v82, main_v83, main_v84, main_v85, main_v86, main_c_15, main_v87, main_v88, main_c_16, main_v89, main_v90, main_v91, main_v92, main_v93, main_v94, main_v95, main_cst_17, main_v96, main_v97, main_v98, main_v99, main_v100, main_v101]

set_option maxRecDepth 4096 in
/-- Each operation writes one buffer of that list. -/
theorem rvL0b_writes : (rvL0b : List (HloOp τ sig (Elt F))).Forall fun op => op.writes ⊆ (rvL0b_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩

/-- A buffer the stretch does not write keeps its contents through it. -/
theorem rvL0b_keep (V : Valuation τ sig (Elt F)) (r : Ref sig .tc) (h : r ∉ rvL0b_W) :
    after (rvL0b (F := F)) V (Proc.devRef .tc r) = V (Proc.devRef .tc r) :=
  after_of_writes_sub rvL0b V rvL0b_writes h

end

attribute [local irreducible] Host.scatterAdd Host.gather Host.reduceAdd concatenate in
set_option maxRecDepth 8192 in
set_option maxHeartbeats 4000000 in
/-- What the stretch leaves in main_v101, from any contents V. -/
theorem read_L0b_v101 (V : Valuation τ sig (Elt Ideal)) :
    after (rvL0b (F := Ideal)) V (Proc.devRef .tc main_v101 : DevRef τ sig)
      = gcn (V (Proc.devRef .tc main_v8 : DevRef τ sig)) (ggW0 (V (Proc.devRef .tc main_arg7 : DevRef τ sig))) (ggb0 (V (Proc.devRef .tc main_arg8 : DevRef τ sig))) (V (Proc.devRef .tc main_v1 : DevRef τ sig)) (V (Proc.devRef .tc main_v3 : DevRef τ sig)) := by
  simp only [rvL0b]
  after_results_simp
  rfl

end Cert.ReferenceIdeal.RV

end
-- ==== Proof.RVReadL0br.lean ====
/- A stretch of the reference program (layer 0: the rectifier of the gate's convolution): its 3 operations as a list, in program order and as the program
   writes them (an outlined function's operations stand at its call, over that call's buffers); the buffers they write; and what the
   run of the list from ANY contents V leaves in the stretch's result: the named whole-array function of V's contents at the buffers the
   stretch reads. The fold of the list is unrolled one operation at a time, each operation's function applied to what the
   earlier ones left, and the composed term is the function's definition read literally. -/
import proofs.«117928_j61658550502081_1_alg».proof.Proof.RVDefs
import Idealize.ShloMosaic.Lib.StableHlo.Run

noncomputable section

namespace Cert.ReferenceIdeal.RV

open Cert.ReferenceIdeal Cert.ReferenceIdeal.Gen Idealize.ShloMosaic Idealize.ShloMosaic.TcCoe Idealize.SL.Sem Idealize.ShloMosaic.StableHlo

section
variable {F : FTy → Type} [FloatOps F]

/-- The stretch's 3 operations, in order. -/
abbrev rvL0br : List (HloOp τ sig (Elt F)) :=
  [ StableHlo.TRef.nullary main_call2.cst (constant S_ .f32 0x00000000#32),
    StableHlo.TRef.unary main_call2.cst main_call2.v0 (broadcastInDim S50000x64 ![] bcast_S_S50000x64),
    StableHlo.TRef.binary (.of main_v101 : StableHlo.TRef sig ⟨S50000x64, .f32⟩) main_call2.v0 main_call2.v1 maximumf ]

/-- The buffers the stretch writes, in order. -/
abbrev rvL0br_W : List (Ref sig .tc) :=
  [main_call2_cst, main_call2_v0, main_v102]

set_option maxRecDepth 4096 in
/-- Each operation writes one buffer of that list. -/
theorem rvL0br_writes : (rvL0br : List (HloOp τ sig (Elt F))).Forall fun op => op.writes ⊆ (rvL0br_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩

/-- A buffer the stretch does not write keeps its contents through it. -/
theorem rvL0br_keep (V : Valuation τ sig (Elt F)) (r : Ref sig .tc) (h : r ∉ rvL0br_W) :
    after (rvL0br (F := F)) V (Proc.devRef .tc r) = V (Proc.devRef .tc r) :=
  after_of_writes_sub rvL0br V rvL0br_writes h

end

attribute [local irreducible] Host.scatterAdd Host.gather Host.reduceAdd concatenate in
set_option maxRecDepth 8192 in
set_option maxHeartbeats 4000000 in
/-- What the stretch leaves in main_v102, from any contents V. -/
theorem read_L0br_v102 (V : Valuation τ sig (Elt Ideal)) :
    after (rvL0br (F := Ideal)) V (Proc.devRef .tc main_v102 : DevRef τ sig)
      = relu (V (Proc.devRef .tc main_v101 : DevRef τ sig)) := by
  simp only [rvL0br]
  after_results_simp
  rfl

end Cert.ReferenceIdeal.RV

end
-- ==== Proof.RVReadL0c.lean ====
/- A stretch of the reference program (layer 0: the gradient gate and the gated combination): its 46 operations as a list, in program order and as the program
   writes them (an outlined function's operations stand at its call, over that call's buffers); the buffers they write; and what the
   run of the list from ANY contents V leaves in the stretch's result: the named whole-array function of V's contents at the buffers the
   stretch reads. The fold of the list is unrolled one operation at a time, each operation's function applied to what the
   earlier ones left, and the composed term is the function's definition read literally. -/
import proofs.«117928_j61658550502081_1_alg».proof.Proof.RVDefs
import Idealize.ShloMosaic.Lib.StableHlo.Run

noncomputable section

namespace Cert.ReferenceIdeal.RV

open Cert.ReferenceIdeal Cert.ReferenceIdeal.Gen Idealize.ShloMosaic Idealize.ShloMosaic.TcCoe Idealize.SL.Sem Idealize.ShloMosaic.StableHlo

section
variable {F : FTy → Type} [FloatOps F]

/-- The stretch's 46 operations, in order. -/
abbrev rvL0c : List (HloOp τ sig (Elt F)) :=
  [ StableHlo.nullary main_c_18 (constantI S_ 32 0#32),
    StableHlo.unary main_c_18 main_v103 (broadcastInDim S800000 ![] bcast_S_S800000 : (⟨S_, .i32⟩ : BufTy).Contents (Elt F) → (⟨S800000, .i32⟩ : BufTy).Contents (Elt F)),
    StableHlo.binary main_v1 main_v103 main_v104 (cmpi .slt : (⟨S800000, .i32⟩ : BufTy).Contents (Elt F) → (⟨S800000, .i32⟩ : BufTy).Contents (Elt F) → (⟨S800000, .i1⟩ : BufTy).Contents (Elt F)),
    StableHlo.nullary main_c_19 (constantI S_ 32 50000#32),
    StableHlo.unary main_c_19 main_v105 (broadcastInDim S800000 ![] bcast_S_S800000 : (⟨S_, .i32⟩ : BufTy).Contents (Elt F) → (⟨S800000, .i32⟩ : BufTy).Contents (Elt F)),
    StableHlo.binary main_v1 main_v105 main_v106 (addi : (⟨S800000, .i32⟩ : BufTy).Contents (Elt F) → (⟨S800000, .i32⟩ : BufTy).Contents (Elt F) → (⟨S800000, .i32⟩ : BufTy).Contents (Elt F)),
    StableHlo.ternary main_v104 main_v106 main_v1 main_v107 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v107 main_v108 (broadcastInDim S800000x1 ![0] bcast_S800000_S800000x1_0 : (⟨S800000, .i32⟩ : BufTy).Contents (Elt F) → (⟨S800000x1, .i32⟩ : BufTy).Contents (Elt F)),
    StableHlo.binary main_v102 main_v108 main_v109 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_c_20 (constantI S_ 32 0#32),
    StableHlo.unary main_c_20 main_v110 (broadcastInDim S800000 ![] bcast_S_S800000 : (⟨S_, .i32⟩ : BufTy).Contents (Elt F) → (⟨S800000, .i32⟩ : BufTy).Contents (Elt F)),
    StableHlo.binary main_v3 main_v110 main_v111 (cmpi .slt : (⟨S800000, .i32⟩ : BufTy).Contents (Elt F) → (⟨S800000, .i32⟩ : BufTy).Contents (Elt F) → (⟨S800000, .i1⟩ : BufTy).Contents (Elt F)),
    StableHlo.nullary main_c_21 (constantI S_ 32 50000#32),
    StableHlo.unary main_c_21 main_v112 (broadcastInDim S800000 ![] bcast_S_S800000 : (⟨S_, .i32⟩ : BufTy).Contents (Elt F) → (⟨S800000, .i32⟩ : BufTy).Contents (Elt F)),
    StableHlo.binary main_v3 main_v112 main_v113 (addi : (⟨S800000, .i32⟩ : BufTy).Contents (Elt F) → (⟨S800000, .i32⟩ : BufTy).Contents (Elt F) → (⟨S800000, .i32⟩ : BufTy).Contents (Elt F)),
    StableHlo.ternary main_v111 main_v113 main_v3 main_v114 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v114 main_v115 (broadcastInDim S800000x1 ![0] bcast_S800000_S800000x1_0 : (⟨S800000, .i32⟩ : BufTy).Contents (Elt F) → (⟨S800000x1, .i32⟩ : BufTy).Contents (Elt F)),
    StableHlo.binary main_v102 main_v115 main_v116 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.binary main_v109 main_v116 main_v117 (subf : (⟨S800000x64, .f32⟩ : BufTy).Contents (Elt F) → (⟨S800000x64, .f32⟩ : BufTy).Contents (Elt F) → (⟨S800000x64, .f32⟩ : BufTy).Contents (Elt F)),
    StableHlo.unary main_v117 main_v118 (Host.absf : (⟨S800000x64, .f32⟩ : BufTy).Contents (Elt F) → (⟨S800000x64, .f32⟩ : BufTy).Contents (Elt F)),
    StableHlo.nullary main_cst_22 (constant S_ .f32 0x40000000#32),
    StableHlo.unary main_cst_22 main_v119 (broadcastInDim S800000x64 ![] bcast_S_S800000x64 : (⟨S_, .f32⟩ : BufTy).Contents (Elt F) → (⟨S800000x64, .f32⟩ : BufTy).Contents (Elt F)),
    StableHlo.binary main_v118 main_v119 main_v120 (Host.powf : (⟨S800000x64, .f32⟩ : BufTy).Contents (Elt F) → (⟨S800000x64, .f32⟩ : BufTy).Contents (Elt F) → (⟨S800000x64, .f32⟩ : BufTy).Contents (Elt F)),
    StableHlo.nullary main_cst_23 (constant S_ .f32 0x00000000#32),
    StableHlo.unary main_cst_23 main_v121 (broadcastInDim S50000x64 ![] bcast_S_S50000x64 : (⟨S_, .f32⟩ : BufTy).Contents (Elt F) → (⟨S50000x64, .f32⟩ : BufTy).Contents (Elt F)),
    StableHlo.unary main_v1 main_v122 (broadcastInDim S800000x1 ![0] bcast_S800000_S800000x1_0 : (⟨S800000, .i32⟩ : BufTy).Contents (Elt F) → (⟨S800000x1, .i32⟩ : BufTy).Contents (Elt F)),
    StableHlo.ternary main_v121 main_v122 main_v120 main_v123 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.nullary main_cst_24 (constant S_ .f32 0x3F800000#32),
    StableHlo.unary main_cst_24 main_v124 (broadcastInDim S800000 ![] bcast_S_S800000 : (⟨S_, .f32⟩ : BufTy).Contents (Elt F) → (⟨S800000, .f32⟩ : BufTy).Contents (Elt F)),
    StableHlo.nullary main_cst_25 (constant S_ .f32 0x00000000#32),
    StableHlo.unary main_cst_25 main_v125 (broadcastInDim S50000 ![] bcast_S_S50000 : (⟨S_, .f32⟩ : BufTy).Contents (Elt F) → (⟨S50000, .f32⟩ : BufTy).Contents (Elt F)),
    StableHlo.unary main_v1 main_v126 (broadcastInDim S800000x1 ![0] bcast_S800000_S800000x1_0 : (⟨S800000, .i32⟩ : BufTy).Contents (Elt F) → (⟨S800000x1, .i32⟩ : BufTy).Contents (Elt F)),
    StableHlo.ternary main_v125 main_v126 main_v124 main_v127 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_26 (constant S_ .f32 0x3F800000#32),
    StableHlo.unary main_cst_26 main_v128 (broadcastInDim S50000 ![] bcast_S_S50000 : (⟨S_, .f32⟩ : BufTy).Contents (Elt F) → (⟨S50000, .f32⟩ : BufTy).Contents (Elt F)),
    StableHlo.binary main_v127 main_v128 main_v129 (maximumf : (⟨S50000, .f32⟩ : BufTy).Contents (Elt F) → (⟨S50000, .f32⟩ : BufTy).Contents (Elt F) → (⟨S50000, .f32⟩ : BufTy).Contents (Elt F)),
    StableHlo.unary main_v129 main_v130 (broadcastInDim S50000x1 ![0] bcast_S50000_S50000x1_0 : (⟨S50000, .f32⟩ : BufTy).Contents (Elt F) → (⟨S50000x1, .f32⟩ : BufTy).Contents (Elt F)),
    StableHlo.unary main_v130 main_v131 (broadcastInDim S50000x64 ![0, 1] bcast_S50000x1_S50000x64_0_1 : (⟨S50000x1, .f32⟩ : BufTy).Contents (Elt F) → (⟨S50000x64, .f32⟩ : BufTy).Contents (Elt F)),
    StableHlo.binary main_v123 main_v131 main_v132 (Host.divf : (⟨S50000x64, .f32⟩ : BufTy).Contents (Elt F) → (⟨S50000x64, .f32⟩ : BufTy).Contents (Elt F) → (⟨S50000x64, .f32⟩ : BufTy).Contents (Elt F)),
    StableHlo.unary main_v132 main_v133 (Host.tanh : (⟨S50000x64, .f32⟩ : BufTy).Contents (Elt F) → (⟨S50000x64, .f32⟩ : BufTy).Contents (Elt F)),
    StableHlo.nullary main_cst_27 (constant S_ .f32 0x3F800000#32),
    StableHlo.unary main_cst_27 main_v134 (broadcastInDim S50000x64 ![] bcast_S_S50000x64 : (⟨S_, .f32⟩ : BufTy).Contents (Elt F) → (⟨S50000x64, .f32⟩ : BufTy).Contents (Elt F)),
    StableHlo.binary main_v134 main_v133 main_v135 (subf : (⟨S50000x64, .f32⟩ : BufTy).Contents (Elt F) → (⟨S50000x64, .f32⟩ : BufTy).Contents (Elt F) → (⟨S50000x64, .f32⟩ : BufTy).Contents (Elt F)),
    StableHlo.binary main_v135 main_v8 main_v136 (mulf : (⟨S50000x64, .f32⟩ : BufTy).Contents (Elt F) → (⟨S50000x64, .f32⟩ : BufTy).Contents (Elt F) → (⟨S50000x64, .f32⟩ : BufTy).Contents (Elt F)),
    StableHlo.binary main_v133 main_v55 main_v137 (mulf : (⟨S50000x64, .f32⟩ : BufTy).Contents (Elt F) → (⟨S50000x64, .f32⟩ : BufTy).Contents (Elt F) → (⟨S50000x64, .f32⟩ : BufTy).Contents (Elt F)),
    StableHlo.binary main_v136 main_v137 main_v138 (addf : (⟨S50000x64, .f32⟩ : BufTy).Contents (Elt F) → (⟨S50000x64, .f32⟩ : BufTy).Contents (Elt F) → (⟨S50000x64, .f32⟩ : BufTy).Contents (Elt F)) ]

/-- The buffers the stretch writes, in order. -/
abbrev rvL0c_W : List (Ref sig .tc) :=
  [main_c_18, main_v103, main_v104, main_c_19, main_v105, main_v106, main_v107, main_v108, main_v109, main_c_20, main_v110, main_v111, main_c_21, main_v112, main_v113, main_v114, main_v115, main_v116, main_v117, main_v118, main_cst_22, main_v119, main_v120, main_cst_23, main_v121, main_v122, main_v123, main_cst_24, main_v124, main_cst_25, main_v125, main_v126, main_v127, main_cst_26, main_v128, main_v129, main_v130, main_v131, main_v132, main_v133, main_cst_27, main_v134, main_v135, main_v136, main_v137, main_v138]

set_option maxRecDepth 4096 in
/-- Each operation writes one buffer of that list. -/
theorem rvL0c_writes : (rvL0c : List (HloOp τ sig (Elt F))).Forall fun op => op.writes ⊆ (rvL0c_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩

/-- A buffer the stretch does not write keeps its contents through it. -/
theorem rvL0c_keep (V : Valuation τ sig (Elt F)) (r : Ref sig .tc) (h : r ∉ rvL0c_W) :
    after (rvL0c (F := F)) V (Proc.devRef .tc r) = V (Proc.devRef .tc r) :=
  after_of_writes_sub rvL0c V rvL0c_writes h

end

attribute [local irreducible] Host.scatterAdd Host.gather Host.reduceAdd concatenate in
set_option maxRecDepth 8192 in
set_option maxHeartbeats 4000000 in
/-- What the stretch leaves in main_v138, from any contents V. -/
theorem read_L0c_v138 (V : Valuation τ sig (Elt Ideal)) :
    after (rvL0c (F := Ideal)) V (Proc.devRef .tc main_v138 : DevRef τ sig)
      = mix (V (Proc.devRef .tc main_v8 : DevRef τ sig)) (V (Proc.devRef .tc main_v55 : DevRef τ sig)) (V (Proc.devRef .tc main_v102 : DevRef τ sig)) (V (Proc.devRef .tc main_v1 : DevRef τ sig)) (V (Proc.devRef .tc main_v3 : DevRef τ sig)) := by
  simp only [rvL0c]
  after_results_simp
  rfl

end Cert.ReferenceIdeal.RV

end
-- ==== Proof.RVReadL0.lean ====
/- Layer 0 of the reference program as one run: its operation list is the three stretches (convolution, gate's convolution, gate and
   combination) one after the other (each convolution followed by its rectifier), and what the run leaves in the layer's result, from any contents V, is the layer function of
   V's contents at the buffers the layer reads: each stretch's result is read by its own lemma, a buffer a stretch does not write
   is carried through it unchanged. -/
import proofs.«117928_j61658550502081_1_alg».proof.Proof.RVReadL0a
import proofs.«117928_j61658550502081_1_alg».proof.Proof.RVReadL0ar
import proofs.«117928_j61658550502081_1_alg».proof.Proof.RVReadL0b
import proofs.«117928_j61658550502081_1_alg».proof.Proof.RVReadL0br
import proofs.«117928_j61658550502081_1_alg».proof.Proof.RVReadL0c
import proofs.«117928_j61658550502081_1_alg».proof.Proof.RefOpsL0
import Idealize.ShloMosaic.Lib.StableHlo.Run

noncomputable section

namespace Cert.ReferenceIdeal.RV

open Cert.ReferenceIdeal Cert.ReferenceIdeal.Gen Cert.ReferenceIdeal.RefRun Idealize.ShloMosaic Idealize.ShloMosaic.TcCoe Idealize.SL.Sem Idealize.ShloMosaic.StableHlo

set_option maxRecDepth 16384 in
/-- The layer's operations are the three stretches' operations, in order. -/
theorem opsLayer0_eq {F : FTy → Type} [FloatOps F] :
    (opsLayer0 : List (HloOp τ sig (Elt F))) = rvL0a ++ (rvL0ar ++ (rvL0b ++ (rvL0br ++ (rvL0c)))) := rfl

/-- What the layer's run leaves in main_v138, from any contents V. -/
theorem read_layer0 (V : Valuation τ sig (Elt Ideal)) :
    after (opsLayer0 (F := Ideal)) V (Proc.devRef .tc main_v138 : DevRef τ sig)
      = layer (V (Proc.devRef .tc main_v8 : DevRef τ sig)) (convW0 (V (Proc.devRef .tc main_arg5 : DevRef τ sig))) (convb0 (V (Proc.devRef .tc main_arg6 : DevRef τ sig))) (ggW0 (V (Proc.devRef .tc main_arg7 : DevRef τ sig))) (ggb0 (V (Proc.devRef .tc main_arg8 : DevRef τ sig))) (V (Proc.devRef .tc main_v1 : DevRef τ sig)) (V (Proc.devRef .tc main_v3 : DevRef τ sig)) := by
  rw [opsLayer0_eq, after_append, after_append, after_append, after_append, read_L0c_v138]
  rw [rvL0br_keep (F := Ideal) _ main_v8 (by decide),
    rvL0br_keep (F := Ideal) _ main_v55 (by decide),
    read_L0br_v102,
    rvL0br_keep (F := Ideal) _ main_v1 (by decide),
    rvL0br_keep (F := Ideal) _ main_v3 (by decide)]
  rw [rvL0b_keep (F := Ideal) _ main_v8 (by decide),
    rvL0b_keep (F := Ideal) _ main_v55 (by decide),
    read_L0b_v101,
    rvL0b_keep (F := Ideal) _ main_v1 (by decide),
    rvL0b_keep (F := Ideal) _ main_v3 (by decide)]
  rw [rvL0ar_keep (F := Ideal) _ main_v8 (by decide),
    read_L0ar_v55,
    rvL0ar_keep (F := Ideal) _ main_arg7 (by decide),
    rvL0ar_keep (F := Ideal) _ main_arg8 (by decide),
    rvL0ar_keep (F := Ideal) _ main_v1 (by decide),
    rvL0ar_keep (F := Ideal) _ main_v3 (by decide)]
  rw [rvL0a_keep (F := Ideal) _ main_v8 (by decide),
    read_L0a_v54,
    rvL0a_keep (F := Ideal) _ main_arg7 (by decide),
    rvL0a_keep (F := Ideal) _ main_arg8 (by decide),
    rvL0a_keep (F := Ideal) _ main_v1 (by decide),
    rvL0a_keep (F := Ideal) _ main_v3 (by decide)]
  all_goals rfl

end Cert.ReferenceIdeal.RV

end
-- ==== Proof.RVReadL1a.lean ====
/- A stretch of the reference program (layer 1: the slices of the convolution's weights and the graph convolution): its 56 operations as a list, in program order and as the program
   writes them (an outlined function's operations stand at its call, over that call's buffers); the buffers they write; and what the
   run of the list from ANY contents V leaves in the stretch's result: the named whole-array function of V's contents at the buffers the
   stretch reads. The fold of the list is unrolled one operation at a time, each operation's function applied to what the
   earlier ones left, and the composed term is the function's definition read literally. -/
import proofs.«117928_j61658550502081_1_alg».proof.Proof.RVDefs
import Idealize.ShloMosaic.Lib.StableHlo.Run

noncomputable section

namespace Cert.ReferenceIdeal.RV

open Cert.ReferenceIdeal Cert.ReferenceIdeal.Gen Idealize.ShloMosaic Idealize.ShloMosaic.TcCoe Idealize.SL.Sem Idealize.ShloMosaic.StableHlo

section
variable {F : FTy → Type} [FloatOps F]

/-- The stretch's 56 operations, in order. -/
abbrev rvL1a : List (HloOp τ sig (Elt F)) :=
  [ StableHlo.unary main_arg5 main_v139 ((extractStridedSlice S1x64x64 ![1, 0, 0] · slices_S4x64x64_S1x64x64_1_0_0) : (⟨S4x64x64, .f32⟩ : BufTy).Contents (Elt F) → (⟨S1x64x64, .f32⟩ : BufTy).Contents (Elt F)),
    StableHlo.reshape main_v139 main_v140 rfl shapeCasts_S1x64x64_S64x64,
    StableHlo.unary main_arg6 main_v141 ((extractStridedSlice S1x64 ![1, 0] · slices_S4x64_S1x64_1_0) : (⟨S4x64, .f32⟩ : BufTy).Contents (Elt F) → (⟨S1x64, .f32⟩ : BufTy).Contents (Elt F)),
    StableHlo.reshape main_v141 main_v142 rfl shapeCasts_S1x64_S64,
    StableHlo.binary main_v138 main_v140 main_v143 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.nullary main_v144 (iotaInDim S50000 32 0),
    StableHlo.binary main_v1 main_v144 main_v145 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v144 main_v146 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst_28 (constant S_ .f32 0x3F800000#32),
    StableHlo.unary main_cst_28 main_v147 (broadcastInDim S850000 ![] bcast_S_S850000 : (⟨S_, .f32⟩ : BufTy).Contents (Elt F) → (⟨S850000, .f32⟩ : BufTy).Contents (Elt F)),
    StableHlo.nullary main_cst_29 (constant S_ .f32 0x00000000#32),
    StableHlo.unary main_cst_29 main_v148 (broadcastInDim S50000 ![] bcast_S_S50000 : (⟨S_, .f32⟩ : BufTy).Contents (Elt F) → (⟨S50000, .f32⟩ : BufTy).Contents (Elt F)),
    StableHlo.unary main_v146 main_v149 (broadcastInDim S850000x1 ![0] bcast_S850000_S850000x1_0 : (⟨S850000, .i32⟩ : BufTy).Contents (Elt F) → (⟨S850000x1, .i32⟩ : BufTy).Contents (Elt F)),
    StableHlo.ternary main_v148 main_v149 main_v147 main_v150 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_30 (constant S_ .f32 0x3F800000#32),
    StableHlo.unary main_cst_30 main_v151 (broadcastInDim S50000 ![] bcast_S_S50000 : (⟨S_, .f32⟩ : BufTy).Contents (Elt F) → (⟨S50000, .f32⟩ : BufTy).Contents (Elt F)),
    StableHlo.binary main_v150 main_v151 main_v152 (maximumf : (⟨S50000, .f32⟩ : BufTy).Contents (Elt F) → (⟨S50000, .f32⟩ : BufTy).Contents (Elt F) → (⟨S50000, .f32⟩ : BufTy).Contents (Elt F)),
    StableHlo.unary main_v152 main_v153 (Host.rsqrt : (⟨S50000, .f32⟩ : BufTy).Contents (Elt F) → (⟨S50000, .f32⟩ : BufTy).Contents (Elt F)),
    StableHlo.nullary main_c_31 (constantI S_ 32 0#32),
    StableHlo.unary main_c_31 main_v154 (broadcastInDim S850000 ![] bcast_S_S850000 : (⟨S_, .i32⟩ : BufTy).Contents (Elt F) → (⟨S850000, .i32⟩ : BufTy).Contents (Elt F)),
    StableHlo.binary main_v145 main_v154 main_v155 (cmpi .slt : (⟨S850000, .i32⟩ : BufTy).Contents (Elt F) → (⟨S850000, .i32⟩ : BufTy).Contents (Elt F) → (⟨S850000, .i1⟩ : BufTy).Contents (Elt F)),
    StableHlo.nullary main_c_32 (constantI S_ 32 50000#32),
    StableHlo.unary main_c_32 main_v156 (broadcastInDim S850000 ![] bcast_S_S850000 : (⟨S_, .i32⟩ : BufTy).Contents (Elt F) → (⟨S850000, .i32⟩ : BufTy).Contents (Elt F)),
    StableHlo.binary main_v145 main_v156 main_v157 (addi : (⟨S850000, .i32⟩ : BufTy).Contents (Elt F) → (⟨S850000, .i32⟩ : BufTy).Contents (Elt F) → (⟨S850000, .i32⟩ : BufTy).Contents (Elt F)),
    StableHlo.ternary main_v155 main_v157 main_v145 main_v158 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v158 main_v159 (broadcastInDim S850000x1 ![0] bcast_S850000_S850000x1_0 : (⟨S850000, .i32⟩ : BufTy).Contents (Elt F) → (⟨S850000x1, .i32⟩ : BufTy).Contents (Elt F)),
    StableHlo.binary main_v153 main_v159 main_v160 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_33 (constantI S_ 32 0#32),
    StableHlo.unary main_c_33 main_v161 (broadcastInDim S850000 ![] bcast_S_S850000 : (⟨S_, .i32⟩ : BufTy).Contents (Elt F) → (⟨S850000, .i32⟩ : BufTy).Contents (Elt F)),
    StableHlo.binary main_v146 main_v161 main_v162 (cmpi .slt : (⟨S850000, .i32⟩ : BufTy).Contents (Elt F) → (⟨S850000, .i32⟩ : BufTy).Contents (Elt F) → (⟨S850000, .i1⟩ : BufTy).Contents (Elt F)),
    StableHlo.nullary main_c_34 (constantI S_ 32 50000#32),
    StableHlo.unary main_c_34 main_v163 (broadcastInDim S850000 ![] bcast_S_S850000 : (⟨S_, .i32⟩ : BufTy).Contents (Elt F) → (⟨S850000, .i32⟩ : BufTy).Contents (Elt F)),
    StableHlo.binary main_v146 main_v163 main_v164 (addi : (⟨S850000, .i32⟩ : BufTy).Contents (Elt F) → (⟨S850000, .i32⟩ : BufTy).Contents (Elt F) → (⟨S850000, .i32⟩ : BufTy).Contents (Elt F)),
    StableHlo.ternary main_v162 main_v164 main_v146 main_v165 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v165 main_v166 (broadcastInDim S850000x1 ![0] bcast_S850000_S850000x1_0 : (⟨S850000, .i32⟩ : BufTy).Contents (Elt F) → (⟨S850000x1, .i32⟩ : BufTy).Contents (Elt F)),
    StableHlo.binary main_v153 main_v166 main_v167 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v160 main_v167 main_v168 (mulf : (⟨S850000, .f32⟩ : BufTy).Contents (Elt F) → (⟨S850000, .f32⟩ : BufTy).Contents (Elt F) → (⟨S850000, .f32⟩ : BufTy).Contents (Elt F)),
    StableHlo.unary main_v168 main_v169 (broadcastInDim S850000x1 ![0] bcast_S850000_S850000x1_0 : (⟨S850000, .f32⟩ : BufTy).Contents (Elt F) → (⟨S850000x1, .f32⟩ : BufTy).Contents (Elt F)),
    StableHlo.nullary main_c_35 (constantI S_ 32 0#32),
    StableHlo.unary main_c_35 main_v170 (broadcastInDim S850000 ![] bcast_S_S850000 : (⟨S_, .i32⟩ : BufTy).Contents (Elt F) → (⟨S850000, .i32⟩ : BufTy).Contents (Elt F)),
    StableHlo.binary main_v145 main_v170 main_v171 (cmpi .slt : (⟨S850000, .i32⟩ : BufTy).Contents (Elt F) → (⟨S850000, .i32⟩ : BufTy).Contents (Elt F) → (⟨S850000, .i1⟩ : BufTy).Contents (Elt F)),
    StableHlo.nullary main_c_36 (constantI S_ 32 50000#32),
    StableHlo.unary main_c_36 main_v172 (broadcastInDim S850000 ![] bcast_S_S850000 : (⟨S_, .i32⟩ : BufTy).Contents (Elt F) → (⟨S850000, .i32⟩ : BufTy).Contents (Elt F)),
    StableHlo.binary main_v145 main_v172 main_v173 (addi : (⟨S850000, .i32⟩ : BufTy).Contents (Elt F) → (⟨S850000, .i32⟩ : BufTy).Contents (Elt F) → (⟨S850000, .i32⟩ : BufTy).Contents (Elt F)),
    StableHlo.ternary main_v171 main_v173 main_v145 main_v174 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v174 main_v175 (broadcastInDim S850000x1 ![0] bcast_S850000_S850000x1_0 : (⟨S850000, .i32⟩ : BufTy).Contents (Elt F) → (⟨S850000x1, .i32⟩ : BufTy).Contents (Elt F)),
    StableHlo.binary main_v143 main_v175 main_v176 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v169 main_v177 (broadcastInDim S850000x64 ![0, 1] bcast_S850000x1_S850000x64_0_1 : (⟨S850000x1, .f32⟩ : BufTy).Contents (Elt F) → (⟨S850000x64, .f32⟩ : BufTy).Contents (Elt F)),
    StableHlo.binary main_v176 main_v177 main_v178 (mulf : (⟨S850000x64, .f32⟩ : BufTy).Contents (Elt F) → (⟨S850000x64, .f32⟩ : BufTy).Contents (Elt F) → (⟨S850000x64, .f32⟩ : BufTy).Contents (Elt F)),
    StableHlo.nullary main_cst_37 (constant S_ .f32 0x00000000#32),
    StableHlo.unary main_cst_37 main_v179 (broadcastInDim S50000x64 ![] bcast_S_S50000x64 : (⟨S_, .f32⟩ : BufTy).Contents (Elt F) → (⟨S50000x64, .f32⟩ : BufTy).Contents (Elt F)),
    StableHlo.unary main_v146 main_v180 (broadcastInDim S850000x1 ![0] bcast_S850000_S850000x1_0 : (⟨S850000, .i32⟩ : BufTy).Contents (Elt F) → (⟨S850000x1, .i32⟩ : BufTy).Contents (Elt F)),
    StableHlo.ternary main_v179 main_v180 main_v178 main_v181 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.unary main_v142 main_v182 (broadcastInDim S1x64 ![1] bcast_S64_S1x64_1 : (⟨S64, .f32⟩ : BufTy).Contents (Elt F) → (⟨S1x64, .f32⟩ : BufTy).Contents (Elt F)),
    StableHlo.unary main_v182 main_v183 (broadcastInDim S50000x64 ![0, 1] bcast_S1x64_S50000x64_0_1 : (⟨S1x64, .f32⟩ : BufTy).Contents (Elt F) → (⟨S50000x64, .f32⟩ : BufTy).Contents (Elt F)),
    StableHlo.binary main_v181 main_v183 main_v184 (addf : (⟨S50000x64, .f32⟩ : BufTy).Contents (Elt F) → (⟨S50000x64, .f32⟩ : BufTy).Contents (Elt F) → (⟨S50000x64, .f32⟩ : BufTy).Contents (Elt F)) ]

/-- The buffers the stretch writes, in order. -/
abbrev rvL1a_W : List (Ref sig .tc) :=
  [main_v139, main_v140, main_v141, main_v142, main_v143, main_v144, main_v145, main_v146, main_cst_28, main_v147, main_cst_29, main_v148, main_v149, main_v150, main_cst_30, main_v151, main_v152, main_v153, main_c_31, main_v154, main_v155, main_c_32, main_v156, main_v157, main_v158, main_v159, main_v160, main_c_33, main_v161, main_v162, main_c_34, main_v163, main_v164, main_v165, main_v166, main_v167, main_v168, main_v169, main_c_35, main_v170, main_v171, main_c_36, main_v172, main_v173, main_v174, main_v175, main_v176, main_v177, main_v178, main_cst_37, main_v179, main_v180, main_v181, main_v182, main_v183, main_v184]

set_option maxRecDepth 4096 in
/-- Each operation writes one buffer of that list. -/
theorem rvL1a_writes : (rvL1a : List (HloOp τ sig (Elt F))).Forall fun op => op.writes ⊆ (rvL1a_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩

/-- A buffer the stretch does not write keeps its contents through it. -/
theorem rvL1a_keep (V : Valuation τ sig (Elt F)) (r : Ref sig .tc) (h : r ∉ rvL1a_W) :
    after (rvL1a (F := F)) V (Proc.devRef .tc r) = V (Proc.devRef .tc r) :=
  after_of_writes_sub rvL1a V rvL1a_writes h

end

attribute [local irreducible] Host.scatterAdd Host.gather Host.reduceAdd concatenate in
set_option maxRecDepth 8192 in
set_option maxHeartbeats 4000000 in
/-- What the stretch leaves in main_v184, from any contents V. -/
theorem read_L1a_v184 (V : Valuation τ sig (Elt Ideal)) :
    after (rvL1a (F := Ideal)) V (Proc.devRef .tc main_v184 : DevRef τ sig)
      = gcn (V (Proc.devRef .tc main_v138 : DevRef τ sig)) (convW1 (V (Proc.devRef .tc main_arg5 : DevRef τ sig))) (convb1 (V (Proc.devRef .tc main_arg6 : DevRef τ sig))) (V (Proc.devRef .tc main_v1 : DevRef τ sig)) (V (Proc.devRef .tc main_v3 : DevRef τ sig)) := by
  simp only [rvL1a]
  after_results_simp
  rfl

end Cert.ReferenceIdeal.RV

end
-- ==== Proof.RVReadL1ar.lean ====
/- A stretch of the reference program (layer 1: the rectifier of the convolution): its 3 operations as a list, in program order and as the program
   writes them (an outlined function's operations stand at its call, over that call's buffers); the buffers they write; and what the
   run of the list from ANY contents V leaves in the stretch's result: the named whole-array function of V's contents at the buffers the
   stretch reads. The fold of the list is unrolled one operation at a time, each operation's function applied to what the
   earlier ones left, and the composed term is the function's definition read literally. -/
import proofs.«117928_j61658550502081_1_alg».proof.Proof.RVDefs
import Idealize.ShloMosaic.Lib.StableHlo.Run

noncomputable section

namespace Cert.ReferenceIdeal.RV

open Cert.ReferenceIdeal Cert.ReferenceIdeal.Gen Idealize.ShloMosaic Idealize.ShloMosaic.TcCoe Idealize.SL.Sem Idealize.ShloMosaic.StableHlo

section
variable {F : FTy → Type} [FloatOps F]

/-- The stretch's 3 operations, in order. -/
abbrev rvL1ar : List (HloOp τ sig (Elt F)) :=
  [ StableHlo.TRef.nullary main_call3.cst (constant S_ .f32 0x00000000#32),
    StableHlo.TRef.unary main_call3.cst main_call3.v0 (broadcastInDim S50000x64 ![] bcast_S_S50000x64),
    StableHlo.TRef.binary (.of main_v184 : StableHlo.TRef sig ⟨S50000x64, .f32⟩) main_call3.v0 main_call3.v1 maximumf ]

/-- The buffers the stretch writes, in order. -/
abbrev rvL1ar_W : List (Ref sig .tc) :=
  [main_call3_cst, main_call3_v0, main_v185]

set_option maxRecDepth 4096 in
/-- Each operation writes one buffer of that list. -/
theorem rvL1ar_writes : (rvL1ar : List (HloOp τ sig (Elt F))).Forall fun op => op.writes ⊆ (rvL1ar_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩

/-- A buffer the stretch does not write keeps its contents through it. -/
theorem rvL1ar_keep (V : Valuation τ sig (Elt F)) (r : Ref sig .tc) (h : r ∉ rvL1ar_W) :
    after (rvL1ar (F := F)) V (Proc.devRef .tc r) = V (Proc.devRef .tc r) :=
  after_of_writes_sub rvL1ar V rvL1ar_writes h

end

attribute [local irreducible] Host.scatterAdd Host.gather Host.reduceAdd concatenate in
set_option maxRecDepth 8192 in
set_option maxHeartbeats 4000000 in
/-- What the stretch leaves in main_v185, from any contents V. -/
theorem read_L1ar_v185 (V : Valuation τ sig (Elt Ideal)) :
    after (rvL1ar (F := Ideal)) V (Proc.devRef .tc main_v185 : DevRef τ sig)
      = relu (V (Proc.devRef .tc main_v184 : DevRef τ sig)) := by
  simp only [rvL1ar]
  after_results_simp
  rfl

end Cert.ReferenceIdeal.RV

end
-- ==== Proof.RVReadL1b.lean ====
/- A stretch of the reference program (layer 1: the slices of the gate's weights and the gate's graph convolution): its 56 operations as a list, in program order and as the program
   writes them (an outlined function's operations stand at its call, over that call's buffers); the buffers they write; and what the
   run of the list from ANY contents V leaves in the stretch's result: the named whole-array function of V's contents at the buffers the
   stretch reads. The fold of the list is unrolled one operation at a time, each operation's function applied to what the
   earlier ones left, and the composed term is the function's definition read literally. -/
import proofs.«117928_j61658550502081_1_alg».proof.Proof.RVDefs
import Idealize.ShloMosaic.Lib.StableHlo.Run

noncomputable section

namespace Cert.ReferenceIdeal.RV

open Cert.ReferenceIdeal Cert.ReferenceIdeal.Gen Idealize.ShloMosaic Idealize.ShloMosaic.TcCoe Idealize.SL.Sem Idealize.ShloMosaic.StableHlo

section
variable {F : FTy → Type} [FloatOps F]

/-- The stretch's 56 operations, in order. -/
abbrev rvL1b : List (HloOp τ sig (Elt F)) :=
  [ StableHlo.unary main_arg7 main_v186 ((extractStridedSlice S1x64x64 ![1, 0, 0] · slices_S4x64x64_S1x64x64_1_0_0) : (⟨S4x64x64, .f32⟩ : BufTy).Contents (Elt F) → (⟨S1x64x64, .f32⟩ : BufTy).Contents (Elt F)),
    StableHlo.reshape main_v186 main_v187 rfl shapeCasts_S1x64x64_S64x64,
    StableHlo.unary main_arg8 main_v188 ((extractStridedSlice S1x64 ![1, 0] · slices_S4x64_S1x64_1_0) : (⟨S4x64, .f32⟩ : BufTy).Contents (Elt F) → (⟨S1x64, .f32⟩ : BufTy).Contents (Elt F)),
    StableHlo.reshape main_v188 main_v189 rfl shapeCasts_S1x64_S64,
    StableHlo.binary main_v138 main_v187 main_v190 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.nullary main_v191 (iotaInDim S50000 32 0),
    StableHlo.binary main_v1 main_v191 main_v192 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v191 main_v193 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst_38 (constant S_ .f32 0x3F800000#32),
    StableHlo.unary main_cst_38 main_v194 (broadcastInDim S850000 ![] bcast_S_S850000 : (⟨S_, .f32⟩ : BufTy).Contents (Elt F) → (⟨S850000, .f32⟩ : BufTy).Contents (Elt F)),
    StableHlo.nullary main_cst_39 (constant S_ .f32 0x00000000#32),
    StableHlo.unary main_cst_39 main_v195 (broadcastInDim S50000 ![] bcast_S_S50000 : (⟨S_, .f32⟩ : BufTy).Contents (Elt F) → (⟨S50000, .f32⟩ : BufTy).Contents (Elt F)),
    StableHlo.unary main_v193 main_v196 (broadcastInDim S850000x1 ![0] bcast_S850000_S850000x1_0 : (⟨S850000, .i32⟩ : BufTy).Contents (Elt F) → (⟨S850000x1, .i32⟩ : BufTy).Contents (Elt F)),
    StableHlo.ternary main_v195 main_v196 main_v194 main_v197 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_40 (constant S_ .f32 0x3F800000#32),
    StableHlo.unary main_cst_40 main_v198 (broadcastInDim S50000 ![] bcast_S_S50000 : (⟨S_, .f32⟩ : BufTy).Contents (Elt F) → (⟨S50000, .f32⟩ : BufTy).Contents (Elt F)),
    StableHlo.binary main_v197 main_v198 main_v199 (maximumf : (⟨S50000, .f32⟩ : BufTy).Contents (Elt F) → (⟨S50000, .f32⟩ : BufTy).Contents (Elt F) → (⟨S50000, .f32⟩ : BufTy).Contents (Elt F)),
    StableHlo.unary main_v199 main_v200 (Host.rsqrt : (⟨S50000, .f32⟩ : BufTy).Contents (Elt F) → (⟨S50000, .f32⟩ : BufTy).Contents (Elt F)),
    StableHlo.nullary main_c_41 (constantI S_ 32 0#32),
    StableHlo.unary main_c_41 main_v201 (broadcastInDim S850000 ![] bcast_S_S850000 : (⟨S_, .i32⟩ : BufTy).Contents (Elt F) → (⟨S850000, .i32⟩ : BufTy).Contents (Elt F)),
    StableHlo.binary main_v192 main_v201 main_v202 (cmpi .slt : (⟨S850000, .i32⟩ : BufTy).Contents (Elt F) → (⟨S850000, .i32⟩ : BufTy).Contents (Elt F) → (⟨S850000, .i1⟩ : BufTy).Contents (Elt F)),
    StableHlo.nullary main_c_42 (constantI S_ 32 50000#32),
    StableHlo.unary main_c_42 main_v203 (broadcastInDim S850000 ![] bcast_S_S850000 : (⟨S_, .i32⟩ : BufTy).Contents (Elt F) → (⟨S850000, .i32⟩ : BufTy).Contents (Elt F)),
    StableHlo.binary main_v192 main_v203 main_v204 (addi : (⟨S850000, .i32⟩ : BufTy).Contents (Elt F) → (⟨S850000, .i32⟩ : BufTy).Contents (Elt F) → (⟨S850000, .i32⟩ : BufTy).Contents (Elt F)),
    StableHlo.ternary main_v202 main_v204 main_v192 main_v205 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v205 main_v206 (broadcastInDim S850000x1 ![0] bcast_S850000_S850000x1_0 : (⟨S850000, .i32⟩ : BufTy).Contents (Elt F) → (⟨S850000x1, .i32⟩ : BufTy).Contents (Elt F)),
    StableHlo.binary main_v200 main_v206 main_v207 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_43 (constantI S_ 32 0#32),
    StableHlo.unary main_c_43 main_v208 (broadcastInDim S850000 ![] bcast_S_S850000 : (⟨S_, .i32⟩ : BufTy).Contents (Elt F) → (⟨S850000, .i32⟩ : BufTy).Contents (Elt F)),
    StableHlo.binary main_v193 main_v208 main_v209 (cmpi .slt : (⟨S850000, .i32⟩ : BufTy).Contents (Elt F) → (⟨S850000, .i32⟩ : BufTy).Contents (Elt F) → (⟨S850000, .i1⟩ : BufTy).Contents (Elt F)),
    StableHlo.nullary main_c_44 (constantI S_ 32 50000#32),
    StableHlo.unary main_c_44 main_v210 (broadcastInDim S850000 ![] bcast_S_S850000 : (⟨S_, .i32⟩ : BufTy).Contents (Elt F) → (⟨S850000, .i32⟩ : BufTy).Contents (Elt F)),
    StableHlo.binary main_v193 main_v210 main_v211 (addi : (⟨S850000, .i32⟩ : BufTy).Contents (Elt F) → (⟨S850000, .i32⟩ : BufTy).Contents (Elt F) → (⟨S850000, .i32⟩ : BufTy).Contents (Elt F)),
    StableHlo.ternary main_v209 main_v211 main_v193 main_v212 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v212 main_v213 (broadcastInDim S850000x1 ![0] bcast_S850000_S850000x1_0 : (⟨S850000, .i32⟩ : BufTy).Contents (Elt F) → (⟨S850000x1, .i32⟩ : BufTy).Contents (Elt F)),
    StableHlo.binary main_v200 main_v213 main_v214 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v207 main_v214 main_v215 (mulf : (⟨S850000, .f32⟩ : BufTy).Contents (Elt F) → (⟨S850000, .f32⟩ : BufTy).Contents (Elt F) → (⟨S850000, .f32⟩ : BufTy).Contents (Elt F)),
    StableHlo.unary main_v215 main_v216 (broadcastInDim S850000x1 ![0] bcast_S850000_S850000x1_0 : (⟨S850000, .f32⟩ : BufTy).Contents (Elt F) → (⟨S850000x1, .f32⟩ : BufTy).Contents (Elt F)),
    StableHlo.nullary main_c_45 (constantI S_ 32 0#32),
    StableHlo.unary main_c_45 main_v217 (broadcastInDim S850000 ![] bcast_S_S850000 : (⟨S_, .i32⟩ : BufTy).Contents (Elt F) → (⟨S850000, .i32⟩ : BufTy).Contents (Elt F)),
    StableHlo.binary main_v192 main_v217 main_v218 (cmpi .slt : (⟨S850000, .i32⟩ : BufTy).Contents (Elt F) → (⟨S850000, .i32⟩ : BufTy).Contents (Elt F) → (⟨S850000, .i1⟩ : BufTy).Contents (Elt F)),
    StableHlo.nullary main_c_46 (constantI S_ 32 50000#32),
    StableHlo.unary main_c_46 main_v219 (broadcastInDim S850000 ![] bcast_S_S850000 : (⟨S_, .i32⟩ : BufTy).Contents (Elt F) → (⟨S850000, .i32⟩ : BufTy).Contents (Elt F)),
    StableHlo.binary main_v192 main_v219 main_v220 (addi : (⟨S850000, .i32⟩ : BufTy).Contents (Elt F) → (⟨S850000, .i32⟩ : BufTy).Contents (Elt F) → (⟨S850000, .i32⟩ : BufTy).Contents (Elt F)),
    StableHlo.ternary main_v218 main_v220 main_v192 main_v221 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v221 main_v222 (broadcastInDim S850000x1 ![0] bcast_S850000_S850000x1_0 : (⟨S850000, .i32⟩ : BufTy).Contents (Elt F) → (⟨S850000x1, .i32⟩ : BufTy).Contents (Elt F)),
    StableHlo.binary main_v190 main_v222 main_v223 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v216 main_v224 (broadcastInDim S850000x64 ![0, 1] bcast_S850000x1_S850000x64_0_1 : (⟨S850000x1, .f32⟩ : BufTy).Contents (Elt F) → (⟨S850000x64, .f32⟩ : BufTy).Contents (Elt F)),
    StableHlo.binary main_v223 main_v224 main_v225 (mulf : (⟨S850000x64, .f32⟩ : BufTy).Contents (Elt F) → (⟨S850000x64, .f32⟩ : BufTy).Contents (Elt F) → (⟨S850000x64, .f32⟩ : BufTy).Contents (Elt F)),
    StableHlo.nullary main_cst_47 (constant S_ .f32 0x00000000#32),
    StableHlo.unary main_cst_47 main_v226 (broadcastInDim S50000x64 ![] bcast_S_S50000x64 : (⟨S_, .f32⟩ : BufTy).Contents (Elt F) → (⟨S50000x64, .f32⟩ : BufTy).Contents (Elt F)),
    StableHlo.unary main_v193 main_v227 (broadcastInDim S850000x1 ![0] bcast_S850000_S850000x1_0 : (⟨S850000, .i32⟩ : BufTy).Contents (Elt F) → (⟨S850000x1, .i32⟩ : BufTy).Contents (Elt F)),
    StableHlo.ternary main_v226 main_v227 main_v225 main_v228 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.unary main_v189 main_v229 (broadcastInDim S1x64 ![1] bcast_S64_S1x64_1 : (⟨S64, .f32⟩ : BufTy).Contents (Elt F) → (⟨S1x64, .f32⟩ : BufTy).Contents (Elt F)),
    StableHlo.unary main_v229 main_v230 (broadcastInDim S50000x64 ![0, 1] bcast_S1x64_S50000x64_0_1 : (⟨S1x64, .f32⟩ : BufTy).Contents (Elt F) → (⟨S50000x64, .f32⟩ : BufTy).Contents (Elt F)),
    StableHlo.binary main_v228 main_v230 main_v231 (addf : (⟨S50000x64, .f32⟩ : BufTy).Contents (Elt F) → (⟨S50000x64, .f32⟩ : BufTy).Contents (Elt F) → (⟨S50000x64, .f32⟩ : BufTy).Contents (Elt F)) ]

/-- The buffers the stretch writes, in order. -/
abbrev rvL1b_W : List (Ref sig .tc) :=
  [main_v186, main_v187, main_v188, main_v189, main_v190, main_v191, main_v192, main_v193, main_cst_38, main_v194, main_cst_39, main_v195, main_v196, main_v197, main_cst_40, main_v198, main_v199, main_v200, main_c_41, main_v201, main_v202, main_c_42, main_v203, main_v204, main_v205, main_v206, main_v207, main_c_43, main_v208, main_v209, main_c_44, main_v210, main_v211, main_v212, main_v213, main_v214, main_v215, main_v216, main_c_45, main_v217, main_v218, main_c_46, main_v219, main_v220, main_v221, main_v222, main_v223, main_v224, main_v225, main_cst_47, main_v226, main_v227, main_v228, main_v229, main_v230, main_v231]

set_option maxRecDepth 4096 in
/-- Each operation writes one buffer of that list. -/
theorem rvL1b_writes : (rvL1b : List (HloOp τ sig (Elt F))).Forall fun op => op.writes ⊆ (rvL1b_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩

/-- A buffer the stretch does not write keeps its contents through it. -/
theorem rvL1b_keep (V : Valuation τ sig (Elt F)) (r : Ref sig .tc) (h : r ∉ rvL1b_W) :
    after (rvL1b (F := F)) V (Proc.devRef .tc r) = V (Proc.devRef .tc r) :=
  after_of_writes_sub rvL1b V rvL1b_writes h

end

attribute [local irreducible] Host.scatterAdd Host.gather Host.reduceAdd concatenate in
set_option maxRecDepth 8192 in
set_option maxHeartbeats 4000000 in
/-- What the stretch leaves in main_v231, from any contents V. -/
theorem read_L1b_v231 (V : Valuation τ sig (Elt Ideal)) :
    after (rvL1b (F := Ideal)) V (Proc.devRef .tc main_v231 : DevRef τ sig)
      = gcn (V (Proc.devRef .tc main_v138 : DevRef τ sig)) (ggW1 (V (Proc.devRef .tc main_arg7 : DevRef τ sig))) (ggb1 (V (Proc.devRef .tc main_arg8 : DevRef τ sig))) (V (Proc.devRef .tc main_v1 : DevRef τ sig)) (V (Proc.devRef .tc main_v3 : DevRef τ sig)) := by
  simp only [rvL1b]
  after_results_simp
  rfl

end Cert.ReferenceIdeal.RV

end
-- ==== Proof.RVReadL1br.lean ====
/- A stretch of the reference program (layer 1: the rectifier of the gate's convolution): its 3 operations as a list, in program order and as the program
   writes them (an outlined function's operations stand at its call, over that call's buffers); the buffers they write; and what the
   run of the list from ANY contents V leaves in the stretch's result: the named whole-array function of V's contents at the buffers the
   stretch reads. The fold of the list is unrolled one operation at a time, each operation's function applied to what the
   earlier ones left, and the composed term is the function's definition read literally. -/
import proofs.«117928_j61658550502081_1_alg».proof.Proof.RVDefs
import Idealize.ShloMosaic.Lib.StableHlo.Run

noncomputable section

namespace Cert.ReferenceIdeal.RV

open Cert.ReferenceIdeal Cert.ReferenceIdeal.Gen Idealize.ShloMosaic Idealize.ShloMosaic.TcCoe Idealize.SL.Sem Idealize.ShloMosaic.StableHlo

section
variable {F : FTy → Type} [FloatOps F]

/-- The stretch's 3 operations, in order. -/
abbrev rvL1br : List (HloOp τ sig (Elt F)) :=
  [ StableHlo.TRef.nullary main_call4.cst (constant S_ .f32 0x00000000#32),
    StableHlo.TRef.unary main_call4.cst main_call4.v0 (broadcastInDim S50000x64 ![] bcast_S_S50000x64),
    StableHlo.TRef.binary (.of main_v231 : StableHlo.TRef sig ⟨S50000x64, .f32⟩) main_call4.v0 main_call4.v1 maximumf ]

/-- The buffers the stretch writes, in order. -/
abbrev rvL1br_W : List (Ref sig .tc) :=
  [main_call4_cst, main_call4_v0, main_v232]

set_option maxRecDepth 4096 in
/-- Each operation writes one buffer of that list. -/
theorem rvL1br_writes : (rvL1br : List (HloOp τ sig (Elt F))).Forall fun op => op.writes ⊆ (rvL1br_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩

/-- A buffer the stretch does not write keeps its contents through it. -/
theorem rvL1br_keep (V : Valuation τ sig (Elt F)) (r : Ref sig .tc) (h : r ∉ rvL1br_W) :
    after (rvL1br (F := F)) V (Proc.devRef .tc r) = V (Proc.devRef .tc r) :=
  after_of_writes_sub rvL1br V rvL1br_writes h

end

attribute [local irreducible] Host.scatterAdd Host.gather Host.reduceAdd concatenate in
set_option maxRecDepth 8192 in
set_option maxHeartbeats 4000000 in
/-- What the stretch leaves in main_v232, from any contents V. -/
theorem read_L1br_v232 (V : Valuation τ sig (Elt Ideal)) :
    after (rvL1br (F := Ideal)) V (Proc.devRef .tc main_v232 : DevRef τ sig)
      = relu (V (Proc.devRef .tc main_v231 : DevRef τ sig)) := by
  simp only [rvL1br]
  after_results_simp
  rfl

end Cert.ReferenceIdeal.RV

end
-- ==== Proof.RVReadL1c.lean ====
/- A stretch of the reference program (layer 1: the gradient gate and the gated combination): its 46 operations as a list, in program order and as the program
   writes them (an outlined function's operations stand at its call, over that call's buffers); the buffers they write; and what the
   run of the list from ANY contents V leaves in the stretch's result: the named whole-array function of V's contents at the buffers the
   stretch reads. The fold of the list is unrolled one operation at a time, each operation's function applied to what the
   earlier ones left, and the composed term is the function's definition read literally. -/
import proofs.«117928_j61658550502081_1_alg».proof.Proof.RVDefs
import Idealize.ShloMosaic.Lib.StableHlo.Run

noncomputable section

namespace Cert.ReferenceIdeal.RV

open Cert.ReferenceIdeal Cert.ReferenceIdeal.Gen Idealize.ShloMosaic Idealize.ShloMosaic.TcCoe Idealize.SL.Sem Idealize.ShloMosaic.StableHlo

section
variable {F : FTy → Type} [FloatOps F]

/-- The stretch's 46 operations, in order. -/
abbrev rvL1c : List (HloOp τ sig (Elt F)) :=
  [ StableHlo.nullary main_c_48 (constantI S_ 32 0#32),
    StableHlo.unary main_c_48 main_v233 (broadcastInDim S800000 ![] bcast_S_S800000 : (⟨S_, .i32⟩ : BufTy).Contents (Elt F) → (⟨S800000, .i32⟩ : BufTy).Contents (Elt F)),
    StableHlo.binary main_v1 main_v233 main_v234 (cmpi .slt : (⟨S800000, .i32⟩ : BufTy).Contents (Elt F) → (⟨S800000, .i32⟩ : BufTy).Contents (Elt F) → (⟨S800000, .i1⟩ : BufTy).Contents (Elt F)),
    StableHlo.nullary main_c_49 (constantI S_ 32 50000#32),
    StableHlo.unary main_c_49 main_v235 (broadcastInDim S800000 ![] bcast_S_S800000 : (⟨S_, .i32⟩ : BufTy).Contents (Elt F) → (⟨S800000, .i32⟩ : BufTy).Contents (Elt F)),
    StableHlo.binary main_v1 main_v235 main_v236 (addi : (⟨S800000, .i32⟩ : BufTy).Contents (Elt F) → (⟨S800000, .i32⟩ : BufTy).Contents (Elt F) → (⟨S800000, .i32⟩ : BufTy).Contents (Elt F)),
    StableHlo.ternary main_v234 main_v236 main_v1 main_v237 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v237 main_v238 (broadcastInDim S800000x1 ![0] bcast_S800000_S800000x1_0 : (⟨S800000, .i32⟩ : BufTy).Contents (Elt F) → (⟨S800000x1, .i32⟩ : BufTy).Contents (Elt F)),
    StableHlo.binary main_v232 main_v238 main_v239 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_c_50 (constantI S_ 32 0#32),
    StableHlo.unary main_c_50 main_v240 (broadcastInDim S800000 ![] bcast_S_S800000 : (⟨S_, .i32⟩ : BufTy).Contents (Elt F) → (⟨S800000, .i32⟩ : BufTy).Contents (Elt F)),
    StableHlo.binary main_v3 main_v240 main_v241 (cmpi .slt : (⟨S800000, .i32⟩ : BufTy).Contents (Elt F) → (⟨S800000, .i32⟩ : BufTy).Contents (Elt F) → (⟨S800000, .i1⟩ : BufTy).Contents (Elt F)),
    StableHlo.nullary main_c_51 (constantI S_ 32 50000#32),
    StableHlo.unary main_c_51 main_v242 (broadcastInDim S800000 ![] bcast_S_S800000 : (⟨S_, .i32⟩ : BufTy).Contents (Elt F) → (⟨S800000, .i32⟩ : BufTy).Contents (Elt F)),
    StableHlo.binary main_v3 main_v242 main_v243 (addi : (⟨S800000, .i32⟩ : BufTy).Contents (Elt F) → (⟨S800000, .i32⟩ : BufTy).Contents (Elt F) → (⟨S800000, .i32⟩ : BufTy).Contents (Elt F)),
    StableHlo.ternary main_v241 main_v243 main_v3 main_v244 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v244 main_v245 (broadcastInDim S800000x1 ![0] bcast_S800000_S800000x1_0 : (⟨S800000, .i32⟩ : BufTy).Contents (Elt F) → (⟨S800000x1, .i32⟩ : BufTy).Contents (Elt F)),
    StableHlo.binary main_v232 main_v245 main_v246 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.binary main_v239 main_v246 main_v247 (subf : (⟨S800000x64, .f32⟩ : BufTy).Contents (Elt F) → (⟨S800000x64, .f32⟩ : BufTy).Contents (Elt F) → (⟨S800000x64, .f32⟩ : BufTy).Contents (Elt F)),
    StableHlo.unary main_v247 main_v248 (Host.absf : (⟨S800000x64, .f32⟩ : BufTy).Contents (Elt F) → (⟨S800000x64, .f32⟩ : BufTy).Contents (Elt F)),
    StableHlo.nullary main_cst_52 (constant S_ .f32 0x40000000#32),
    StableHlo.unary main_cst_52 main_v249 (broadcastInDim S800000x64 ![] bcast_S_S800000x64 : (⟨S_, .f32⟩ : BufTy).Contents (Elt F) → (⟨S800000x64, .f32⟩ : BufTy).Contents (Elt F)),
    StableHlo.binary main_v248 main_v249 main_v250 (Host.powf : (⟨S800000x64, .f32⟩ : BufTy).Contents (Elt F) → (⟨S800000x64, .f32⟩ : BufTy).Contents (Elt F) → (⟨S800000x64, .f32⟩ : BufTy).Contents (Elt F)),
    StableHlo.nullary main_cst_53 (constant S_ .f32 0x00000000#32),
    StableHlo.unary main_cst_53 main_v251 (broadcastInDim S50000x64 ![] bcast_S_S50000x64 : (⟨S_, .f32⟩ : BufTy).Contents (Elt F) → (⟨S50000x64, .f32⟩ : BufTy).Contents (Elt F)),
    StableHlo.unary main_v1 main_v252 (broadcastInDim S800000x1 ![0] bcast_S800000_S800000x1_0 : (⟨S800000, .i32⟩ : BufTy).Contents (Elt F) → (⟨S800000x1, .i32⟩ : BufTy).Contents (Elt F)),
    StableHlo.ternary main_v251 main_v252 main_v250 main_v253 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.nullary main_cst_54 (constant S_ .f32 0x3F800000#32),
    StableHlo.unary main_cst_54 main_v254 (broadcastInDim S800000 ![] bcast_S_S800000 : (⟨S_, .f32⟩ : BufTy).Contents (Elt F) → (⟨S800000, .f32⟩ : BufTy).Contents (Elt F)),
    StableHlo.nullary main_cst_55 (constant S_ .f32 0x00000000#32),
    StableHlo.unary main_cst_55 main_v255 (broadcastInDim S50000 ![] bcast_S_S50000 : (⟨S_, .f32⟩ : BufTy).Contents (Elt F) → (⟨S50000, .f32⟩ : BufTy).Contents (Elt F)),
    StableHlo.unary main_v1 main_v256 (broadcastInDim S800000x1 ![0] bcast_S800000_S800000x1_0 : (⟨S800000, .i32⟩ : BufTy).Contents (Elt F) → (⟨S800000x1, .i32⟩ : BufTy).Contents (Elt F)),
    StableHlo.ternary main_v255 main_v256 main_v254 main_v257 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_56 (constant S_ .f32 0x3F800000#32),
    StableHlo.unary main_cst_56 main_v258 (broadcastInDim S50000 ![] bcast_S_S50000 : (⟨S_, .f32⟩ : BufTy).Contents (Elt F) → (⟨S50000, .f32⟩ : BufTy).Contents (Elt F)),
    StableHlo.binary main_v257 main_v258 main_v259 (maximumf : (⟨S50000, .f32⟩ : BufTy).Contents (Elt F) → (⟨S50000, .f32⟩ : BufTy).Contents (Elt F) → (⟨S50000, .f32⟩ : BufTy).Contents (Elt F)),
    StableHlo.unary main_v259 main_v260 (broadcastInDim S50000x1 ![0] bcast_S50000_S50000x1_0 : (⟨S50000, .f32⟩ : BufTy).Contents (Elt F) → (⟨S50000x1, .f32⟩ : BufTy).Contents (Elt F)),
    StableHlo.unary main_v260 main_v261 (broadcastInDim S50000x64 ![0, 1] bcast_S50000x1_S50000x64_0_1 : (⟨S50000x1, .f32⟩ : BufTy).Contents (Elt F) → (⟨S50000x64, .f32⟩ : BufTy).Contents (Elt F)),
    StableHlo.binary main_v253 main_v261 main_v262 (Host.divf : (⟨S50000x64, .f32⟩ : BufTy).Contents (Elt F) → (⟨S50000x64, .f32⟩ : BufTy).Contents (Elt F) → (⟨S50000x64, .f32⟩ : BufTy).Contents (Elt F)),
    StableHlo.unary main_v262 main_v263 (Host.tanh : (⟨S50000x64, .f32⟩ : BufTy).Contents (Elt F) → (⟨S50000x64, .f32⟩ : BufTy).Contents (Elt F)),
    StableHlo.nullary main_cst_57 (constant S_ .f32 0x3F800000#32),
    StableHlo.unary main_cst_57 main_v264 (broadcastInDim S50000x64 ![] bcast_S_S50000x64 : (⟨S_, .f32⟩ : BufTy).Contents (Elt F) → (⟨S50000x64, .f32⟩ : BufTy).Contents (Elt F)),
    StableHlo.binary main_v264 main_v263 main_v265 (subf : (⟨S50000x64, .f32⟩ : BufTy).Contents (Elt F) → (⟨S50000x64, .f32⟩ : BufTy).Contents (Elt F) → (⟨S50000x64, .f32⟩ : BufTy).Contents (Elt F)),
    StableHlo.binary main_v265 main_v138 main_v266 (mulf : (⟨S50000x64, .f32⟩ : BufTy).Contents (Elt F) → (⟨S50000x64, .f32⟩ : BufTy).Contents (Elt F) → (⟨S50000x64, .f32⟩ : BufTy).Contents (Elt F)),
    StableHlo.binary main_v263 main_v185 main_v267 (mulf : (⟨S50000x64, .f32⟩ : BufTy).Contents (Elt F) → (⟨S50000x64, .f32⟩ : BufTy).Contents (Elt F) → (⟨S50000x64, .f32⟩ : BufTy).Contents (Elt F)),
    StableHlo.binary main_v266 main_v267 main_v268 (addf : (⟨S50000x64, .f32⟩ : BufTy).Contents (Elt F) → (⟨S50000x64, .f32⟩ : BufTy).Contents (Elt F) → (⟨S50000x64, .f32⟩ : BufTy).Contents (Elt F)) ]

/-- The buffers the stretch writes, in order. -/
abbrev rvL1c_W : List (Ref sig .tc) :=
  [main_c_48, main_v233, main_v234, main_c_49, main_v235, main_v236, main_v237, main_v238, main_v239, main_c_50, main_v240, main_v241, main_c_51, main_v242, main_v243, main_v244, main_v245, main_v246, main_v247, main_v248, main_cst_52, main_v249, main_v250, main_cst_53, main_v251, main_v252, main_v253, main_cst_54, main_v254, main_cst_55, main_v255, main_v256, main_v257, main_cst_56, main_v258, main_v259, main_v260, main_v261, main_v262, main_v263, main_cst_57, main_v264, main_v265, main_v266, main_v267, main_v268]

set_option maxRecDepth 4096 in
/-- Each operation writes one buffer of that list. -/
theorem rvL1c_writes : (rvL1c : List (HloOp τ sig (Elt F))).Forall fun op => op.writes ⊆ (rvL1c_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩

/-- A buffer the stretch does not write keeps its contents through it. -/
theorem rvL1c_keep (V : Valuation τ sig (Elt F)) (r : Ref sig .tc) (h : r ∉ rvL1c_W) :
    after (rvL1c (F := F)) V (Proc.devRef .tc r) = V (Proc.devRef .tc r) :=
  after_of_writes_sub rvL1c V rvL1c_writes h

end

attribute [local irreducible] Host.scatterAdd Host.gather Host.reduceAdd concatenate in
set_option maxRecDepth 8192 in
set_option maxHeartbeats 4000000 in
/-- What the stretch leaves in main_v268, from any contents V. -/
theorem read_L1c_v268 (V : Valuation τ sig (Elt Ideal)) :
    after (rvL1c (F := Ideal)) V (Proc.devRef .tc main_v268 : DevRef τ sig)
      = mix (V (Proc.devRef .tc main_v138 : DevRef τ sig)) (V (Proc.devRef .tc main_v185 : DevRef τ sig)) (V (Proc.devRef .tc main_v232 : DevRef τ sig)) (V (Proc.devRef .tc main_v1 : DevRef τ sig)) (V (Proc.devRef .tc main_v3 : DevRef τ sig)) := by
  simp only [rvL1c]
  after_results_simp
  rfl

end Cert.ReferenceIdeal.RV

end
-- ==== Proof.RVReadL1.lean ====
/- Layer 1 of the reference program as one run: its operation list is the three stretches (convolution, gate's convolution, gate and
   combination) one after the other (each convolution followed by its rectifier), and what the run leaves in the layer's result, from any contents V, is the layer function of
   V's contents at the buffers the layer reads: each stretch's result is read by its own lemma, a buffer a stretch does not write
   is carried through it unchanged. -/
import proofs.«117928_j61658550502081_1_alg».proof.Proof.RVReadL1a
import proofs.«117928_j61658550502081_1_alg».proof.Proof.RVReadL1ar
import proofs.«117928_j61658550502081_1_alg».proof.Proof.RVReadL1b
import proofs.«117928_j61658550502081_1_alg».proof.Proof.RVReadL1br
import proofs.«117928_j61658550502081_1_alg».proof.Proof.RVReadL1c
import proofs.«117928_j61658550502081_1_alg».proof.Proof.RefOpsL1
import Idealize.ShloMosaic.Lib.StableHlo.Run

noncomputable section

namespace Cert.ReferenceIdeal.RV

open Cert.ReferenceIdeal Cert.ReferenceIdeal.Gen Cert.ReferenceIdeal.RefRun Idealize.ShloMosaic Idealize.ShloMosaic.TcCoe Idealize.SL.Sem Idealize.ShloMosaic.StableHlo

set_option maxRecDepth 16384 in
/-- The layer's operations are the three stretches' operations, in order. -/
theorem opsLayer1_eq {F : FTy → Type} [FloatOps F] :
    (opsLayer1 : List (HloOp τ sig (Elt F))) = rvL1a ++ (rvL1ar ++ (rvL1b ++ (rvL1br ++ (rvL1c)))) := rfl

/-- What the layer's run leaves in main_v268, from any contents V. -/
theorem read_layer1 (V : Valuation τ sig (Elt Ideal)) :
    after (opsLayer1 (F := Ideal)) V (Proc.devRef .tc main_v268 : DevRef τ sig)
      = layer (V (Proc.devRef .tc main_v138 : DevRef τ sig)) (convW1 (V (Proc.devRef .tc main_arg5 : DevRef τ sig))) (convb1 (V (Proc.devRef .tc main_arg6 : DevRef τ sig))) (ggW1 (V (Proc.devRef .tc main_arg7 : DevRef τ sig))) (ggb1 (V (Proc.devRef .tc main_arg8 : DevRef τ sig))) (V (Proc.devRef .tc main_v1 : DevRef τ sig)) (V (Proc.devRef .tc main_v3 : DevRef τ sig)) := by
  rw [opsLayer1_eq, after_append, after_append, after_append, after_append, read_L1c_v268]
  rw [rvL1br_keep (F := Ideal) _ main_v138 (by decide),
    rvL1br_keep (F := Ideal) _ main_v185 (by decide),
    read_L1br_v232,
    rvL1br_keep (F := Ideal) _ main_v1 (by decide),
    rvL1br_keep (F := Ideal) _ main_v3 (by decide)]
  rw [rvL1b_keep (F := Ideal) _ main_v138 (by decide),
    rvL1b_keep (F := Ideal) _ main_v185 (by decide),
    read_L1b_v231,
    rvL1b_keep (F := Ideal) _ main_v1 (by decide),
    rvL1b_keep (F := Ideal) _ main_v3 (by decide)]
  rw [rvL1ar_keep (F := Ideal) _ main_v138 (by decide),
    read_L1ar_v185,
    rvL1ar_keep (F := Ideal) _ main_arg7 (by decide),
    rvL1ar_keep (F := Ideal) _ main_arg8 (by decide),
    rvL1ar_keep (F := Ideal) _ main_v1 (by decide),
    rvL1ar_keep (F := Ideal) _ main_v3 (by decide)]
  rw [rvL1a_keep (F := Ideal) _ main_v138 (by decide),
    read_L1a_v184,
    rvL1a_keep (F := Ideal) _ main_arg7 (by decide),
    rvL1a_keep (F := Ideal) _ main_arg8 (by decide),
    rvL1a_keep (F := Ideal) _ main_v1 (by decide),
    rvL1a_keep (F := Ideal) _ main_v3 (by decide)]
  all_goals rfl

end Cert.ReferenceIdeal.RV

end
-- ==== Proof.RVReadL2a.lean ====
/- A stretch of the reference program (layer 2: the slices of the convolution's weights and the graph convolution): its 56 operations as a list, in program order and as the program
   writes them (an outlined function's operations stand at its call, over that call's buffers); the buffers they write; and what the
   run of the list from ANY contents V leaves in the stretch's result: the named whole-array function of V's contents at the buffers the
   stretch reads. The fold of the list is unrolled one operation at a time, each operation's function applied to what the
   earlier ones left, and the composed term is the function's definition read literally. -/
import proofs.«117928_j61658550502081_1_alg».proof.Proof.RVDefs
import Idealize.ShloMosaic.Lib.StableHlo.Run

noncomputable section

namespace Cert.ReferenceIdeal.RV

open Cert.ReferenceIdeal Cert.ReferenceIdeal.Gen Idealize.ShloMosaic Idealize.ShloMosaic.TcCoe Idealize.SL.Sem Idealize.ShloMosaic.StableHlo

section
variable {F : FTy → Type} [FloatOps F]

/-- The stretch's 56 operations, in order. -/
abbrev rvL2a : List (HloOp τ sig (Elt F)) :=
  [ StableHlo.unary main_arg5 main_v269 ((extractStridedSlice S1x64x64 ![2, 0, 0] · slices_S4x64x64_S1x64x64_2_0_0) : (⟨S4x64x64, .f32⟩ : BufTy).Contents (Elt F) → (⟨S1x64x64, .f32⟩ : BufTy).Contents (Elt F)),
    StableHlo.reshape main_v269 main_v270 rfl shapeCasts_S1x64x64_S64x64,
    StableHlo.unary main_arg6 main_v271 ((extractStridedSlice S1x64 ![2, 0] · slices_S4x64_S1x64_2_0) : (⟨S4x64, .f32⟩ : BufTy).Contents (Elt F) → (⟨S1x64, .f32⟩ : BufTy).Contents (Elt F)),
    StableHlo.reshape main_v271 main_v272 rfl shapeCasts_S1x64_S64,
    StableHlo.binary main_v268 main_v270 main_v273 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.nullary main_v274 (iotaInDim S50000 32 0),
    StableHlo.binary main_v1 main_v274 main_v275 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v274 main_v276 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst_58 (constant S_ .f32 0x3F800000#32),
    StableHlo.unary main_cst_58 main_v277 (broadcastInDim S850000 ![] bcast_S_S850000 : (⟨S_, .f32⟩ : BufTy).Contents (Elt F) → (⟨S850000, .f32⟩ : BufTy).Contents (Elt F)),
    StableHlo.nullary main_cst_59 (constant S_ .f32 0x00000000#32),
    StableHlo.unary main_cst_59 main_v278 (broadcastInDim S50000 ![] bcast_S_S50000 : (⟨S_, .f32⟩ : BufTy).Contents (Elt F) → (⟨S50000, .f32⟩ : BufTy).Contents (Elt F)),
    StableHlo.unary main_v276 main_v279 (broadcastInDim S850000x1 ![0] bcast_S850000_S850000x1_0 : (⟨S850000, .i32⟩ : BufTy).Contents (Elt F) → (⟨S850000x1, .i32⟩ : BufTy).Contents (Elt F)),
    StableHlo.ternary main_v278 main_v279 main_v277 main_v280 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_60 (constant S_ .f32 0x3F800000#32),
    StableHlo.unary main_cst_60 main_v281 (broadcastInDim S50000 ![] bcast_S_S50000 : (⟨S_, .f32⟩ : BufTy).Contents (Elt F) → (⟨S50000, .f32⟩ : BufTy).Contents (Elt F)),
    StableHlo.binary main_v280 main_v281 main_v282 (maximumf : (⟨S50000, .f32⟩ : BufTy).Contents (Elt F) → (⟨S50000, .f32⟩ : BufTy).Contents (Elt F) → (⟨S50000, .f32⟩ : BufTy).Contents (Elt F)),
    StableHlo.unary main_v282 main_v283 (Host.rsqrt : (⟨S50000, .f32⟩ : BufTy).Contents (Elt F) → (⟨S50000, .f32⟩ : BufTy).Contents (Elt F)),
    StableHlo.nullary main_c_61 (constantI S_ 32 0#32),
    StableHlo.unary main_c_61 main_v284 (broadcastInDim S850000 ![] bcast_S_S850000 : (⟨S_, .i32⟩ : BufTy).Contents (Elt F) → (⟨S850000, .i32⟩ : BufTy).Contents (Elt F)),
    StableHlo.binary main_v275 main_v284 main_v285 (cmpi .slt : (⟨S850000, .i32⟩ : BufTy).Contents (Elt F) → (⟨S850000, .i32⟩ : BufTy).Contents (Elt F) → (⟨S850000, .i1⟩ : BufTy).Contents (Elt F)),
    StableHlo.nullary main_c_62 (constantI S_ 32 50000#32),
    StableHlo.unary main_c_62 main_v286 (broadcastInDim S850000 ![] bcast_S_S850000 : (⟨S_, .i32⟩ : BufTy).Contents (Elt F) → (⟨S850000, .i32⟩ : BufTy).Contents (Elt F)),
    StableHlo.binary main_v275 main_v286 main_v287 (addi : (⟨S850000, .i32⟩ : BufTy).Contents (Elt F) → (⟨S850000, .i32⟩ : BufTy).Contents (Elt F) → (⟨S850000, .i32⟩ : BufTy).Contents (Elt F)),
    StableHlo.ternary main_v285 main_v287 main_v275 main_v288 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v288 main_v289 (broadcastInDim S850000x1 ![0] bcast_S850000_S850000x1_0 : (⟨S850000, .i32⟩ : BufTy).Contents (Elt F) → (⟨S850000x1, .i32⟩ : BufTy).Contents (Elt F)),
    StableHlo.binary main_v283 main_v289 main_v290 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_63 (constantI S_ 32 0#32),
    StableHlo.unary main_c_63 main_v291 (broadcastInDim S850000 ![] bcast_S_S850000 : (⟨S_, .i32⟩ : BufTy).Contents (Elt F) → (⟨S850000, .i32⟩ : BufTy).Contents (Elt F)),
    StableHlo.binary main_v276 main_v291 main_v292 (cmpi .slt : (⟨S850000, .i32⟩ : BufTy).Contents (Elt F) → (⟨S850000, .i32⟩ : BufTy).Contents (Elt F) → (⟨S850000, .i1⟩ : BufTy).Contents (Elt F)),
    StableHlo.nullary main_c_64 (constantI S_ 32 50000#32),
    StableHlo.unary main_c_64 main_v293 (broadcastInDim S850000 ![] bcast_S_S850000 : (⟨S_, .i32⟩ : BufTy).Contents (Elt F) → (⟨S850000, .i32⟩ : BufTy).Contents (Elt F)),
    StableHlo.binary main_v276 main_v293 main_v294 (addi : (⟨S850000, .i32⟩ : BufTy).Contents (Elt F) → (⟨S850000, .i32⟩ : BufTy).Contents (Elt F) → (⟨S850000, .i32⟩ : BufTy).Contents (Elt F)),
    StableHlo.ternary main_v292 main_v294 main_v276 main_v295 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v295 main_v296 (broadcastInDim S850000x1 ![0] bcast_S850000_S850000x1_0 : (⟨S850000, .i32⟩ : BufTy).Contents (Elt F) → (⟨S850000x1, .i32⟩ : BufTy).Contents (Elt F)),
    StableHlo.binary main_v283 main_v296 main_v297 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v290 main_v297 main_v298 (mulf : (⟨S850000, .f32⟩ : BufTy).Contents (Elt F) → (⟨S850000, .f32⟩ : BufTy).Contents (Elt F) → (⟨S850000, .f32⟩ : BufTy).Contents (Elt F)),
    StableHlo.unary main_v298 main_v299 (broadcastInDim S850000x1 ![0] bcast_S850000_S850000x1_0 : (⟨S850000, .f32⟩ : BufTy).Contents (Elt F) → (⟨S850000x1, .f32⟩ : BufTy).Contents (Elt F)),
    StableHlo.nullary main_c_65 (constantI S_ 32 0#32),
    StableHlo.unary main_c_65 main_v300 (broadcastInDim S850000 ![] bcast_S_S850000 : (⟨S_, .i32⟩ : BufTy).Contents (Elt F) → (⟨S850000, .i32⟩ : BufTy).Contents (Elt F)),
    StableHlo.binary main_v275 main_v300 main_v301 (cmpi .slt : (⟨S850000, .i32⟩ : BufTy).Contents (Elt F) → (⟨S850000, .i32⟩ : BufTy).Contents (Elt F) → (⟨S850000, .i1⟩ : BufTy).Contents (Elt F)),
    StableHlo.nullary main_c_66 (constantI S_ 32 50000#32),
    StableHlo.unary main_c_66 main_v302 (broadcastInDim S850000 ![] bcast_S_S850000 : (⟨S_, .i32⟩ : BufTy).Contents (Elt F) → (⟨S850000, .i32⟩ : BufTy).Contents (Elt F)),
    StableHlo.binary main_v275 main_v302 main_v303 (addi : (⟨S850000, .i32⟩ : BufTy).Contents (Elt F) → (⟨S850000, .i32⟩ : BufTy).Contents (Elt F) → (⟨S850000, .i32⟩ : BufTy).Contents (Elt F)),
    StableHlo.ternary main_v301 main_v303 main_v275 main_v304 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v304 main_v305 (broadcastInDim S850000x1 ![0] bcast_S850000_S850000x1_0 : (⟨S850000, .i32⟩ : BufTy).Contents (Elt F) → (⟨S850000x1, .i32⟩ : BufTy).Contents (Elt F)),
    StableHlo.binary main_v273 main_v305 main_v306 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v299 main_v307 (broadcastInDim S850000x64 ![0, 1] bcast_S850000x1_S850000x64_0_1 : (⟨S850000x1, .f32⟩ : BufTy).Contents (Elt F) → (⟨S850000x64, .f32⟩ : BufTy).Contents (Elt F)),
    StableHlo.binary main_v306 main_v307 main_v308 (mulf : (⟨S850000x64, .f32⟩ : BufTy).Contents (Elt F) → (⟨S850000x64, .f32⟩ : BufTy).Contents (Elt F) → (⟨S850000x64, .f32⟩ : BufTy).Contents (Elt F)),
    StableHlo.nullary main_cst_67 (constant S_ .f32 0x00000000#32),
    StableHlo.unary main_cst_67 main_v309 (broadcastInDim S50000x64 ![] bcast_S_S50000x64 : (⟨S_, .f32⟩ : BufTy).Contents (Elt F) → (⟨S50000x64, .f32⟩ : BufTy).Contents (Elt F)),
    StableHlo.unary main_v276 main_v310 (broadcastInDim S850000x1 ![0] bcast_S850000_S850000x1_0 : (⟨S850000, .i32⟩ : BufTy).Contents (Elt F) → (⟨S850000x1, .i32⟩ : BufTy).Contents (Elt F)),
    StableHlo.ternary main_v309 main_v310 main_v308 main_v311 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.unary main_v272 main_v312 (broadcastInDim S1x64 ![1] bcast_S64_S1x64_1 : (⟨S64, .f32⟩ : BufTy).Contents (Elt F) → (⟨S1x64, .f32⟩ : BufTy).Contents (Elt F)),
    StableHlo.unary main_v312 main_v313 (broadcastInDim S50000x64 ![0, 1] bcast_S1x64_S50000x64_0_1 : (⟨S1x64, .f32⟩ : BufTy).Contents (Elt F) → (⟨S50000x64, .f32⟩ : BufTy).Contents (Elt F)),
    StableHlo.binary main_v311 main_v313 main_v314 (addf : (⟨S50000x64, .f32⟩ : BufTy).Contents (Elt F) → (⟨S50000x64, .f32⟩ : BufTy).Contents (Elt F) → (⟨S50000x64, .f32⟩ : BufTy).Contents (Elt F)) ]

/-- The buffers the stretch writes, in order. -/
abbrev rvL2a_W : List (Ref sig .tc) :=
  [main_v269, main_v270, main_v271, main_v272, main_v273, main_v274, main_v275, main_v276, main_cst_58, main_v277, main_cst_59, main_v278, main_v279, main_v280, main_cst_60, main_v281, main_v282, main_v283, main_c_61, main_v284, main_v285, main_c_62, main_v286, main_v287, main_v288, main_v289, main_v290, main_c_63, main_v291, main_v292, main_c_64, main_v293, main_v294, main_v295, main_v296, main_v297, main_v298, main_v299, main_c_65, main_v300, main_v301, main_c_66, main_v302, main_v303, main_v304, main_v305, main_v306, main_v307, main_v308, main_cst_67, main_v309, main_v310, main_v311, main_v312, main_v313, main_v314]

set_option maxRecDepth 4096 in
/-- Each operation writes one buffer of that list. -/
theorem rvL2a_writes : (rvL2a : List (HloOp τ sig (Elt F))).Forall fun op => op.writes ⊆ (rvL2a_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩

/-- A buffer the stretch does not write keeps its contents through it. -/
theorem rvL2a_keep (V : Valuation τ sig (Elt F)) (r : Ref sig .tc) (h : r ∉ rvL2a_W) :
    after (rvL2a (F := F)) V (Proc.devRef .tc r) = V (Proc.devRef .tc r) :=
  after_of_writes_sub rvL2a V rvL2a_writes h

end

attribute [local irreducible] Host.scatterAdd Host.gather Host.reduceAdd concatenate in
set_option maxRecDepth 8192 in
set_option maxHeartbeats 4000000 in
/-- What the stretch leaves in main_v314, from any contents V. -/
theorem read_L2a_v314 (V : Valuation τ sig (Elt Ideal)) :
    after (rvL2a (F := Ideal)) V (Proc.devRef .tc main_v314 : DevRef τ sig)
      = gcn (V (Proc.devRef .tc main_v268 : DevRef τ sig)) (convW2 (V (Proc.devRef .tc main_arg5 : DevRef τ sig))) (convb2 (V (Proc.devRef .tc main_arg6 : DevRef τ sig))) (V (Proc.devRef .tc main_v1 : DevRef τ sig)) (V (Proc.devRef .tc main_v3 : DevRef τ sig)) := by
  simp only [rvL2a]
  after_results_simp
  rfl

end Cert.ReferenceIdeal.RV

end
-- ==== Proof.RVReadL2ar.lean ====
/- A stretch of the reference program (layer 2: the rectifier of the convolution): its 3 operations as a list, in program order and as the program
   writes them (an outlined function's operations stand at its call, over that call's buffers); the buffers they write; and what the
   run of the list from ANY contents V leaves in the stretch's result: the named whole-array function of V's contents at the buffers the
   stretch reads. The fold of the list is unrolled one operation at a time, each operation's function applied to what the
   earlier ones left, and the composed term is the function's definition read literally. -/
import proofs.«117928_j61658550502081_1_alg».proof.Proof.RVDefs
import Idealize.ShloMosaic.Lib.StableHlo.Run

noncomputable section

namespace Cert.ReferenceIdeal.RV

open Cert.ReferenceIdeal Cert.ReferenceIdeal.Gen Idealize.ShloMosaic Idealize.ShloMosaic.TcCoe Idealize.SL.Sem Idealize.ShloMosaic.StableHlo

section
variable {F : FTy → Type} [FloatOps F]

/-- The stretch's 3 operations, in order. -/
abbrev rvL2ar : List (HloOp τ sig (Elt F)) :=
  [ StableHlo.TRef.nullary main_call5.cst (constant S_ .f32 0x00000000#32),
    StableHlo.TRef.unary main_call5.cst main_call5.v0 (broadcastInDim S50000x64 ![] bcast_S_S50000x64),
    StableHlo.TRef.binary (.of main_v314 : StableHlo.TRef sig ⟨S50000x64, .f32⟩) main_call5.v0 main_call5.v1 maximumf ]

/-- The buffers the stretch writes, in order. -/
abbrev rvL2ar_W : List (Ref sig .tc) :=
  [main_call5_cst, main_call5_v0, main_v315]

set_option maxRecDepth 4096 in
/-- Each operation writes one buffer of that list. -/
theorem rvL2ar_writes : (rvL2ar : List (HloOp τ sig (Elt F))).Forall fun op => op.writes ⊆ (rvL2ar_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩

/-- A buffer the stretch does not write keeps its contents through it. -/
theorem rvL2ar_keep (V : Valuation τ sig (Elt F)) (r : Ref sig .tc) (h : r ∉ rvL2ar_W) :
    after (rvL2ar (F := F)) V (Proc.devRef .tc r) = V (Proc.devRef .tc r) :=
  after_of_writes_sub rvL2ar V rvL2ar_writes h

end

attribute [local irreducible] Host.scatterAdd Host.gather Host.reduceAdd concatenate in
set_option maxRecDepth 8192 in
set_option maxHeartbeats 4000000 in
/-- What the stretch leaves in main_v315, from any contents V. -/
theorem read_L2ar_v315 (V : Valuation τ sig (Elt Ideal)) :
    after (rvL2ar (F := Ideal)) V (Proc.devRef .tc main_v315 : DevRef τ sig)
      = relu (V (Proc.devRef .tc main_v314 : DevRef τ sig)) := by
  simp only [rvL2ar]
  after_results_simp
  rfl

end Cert.ReferenceIdeal.RV

end
-- ==== Proof.RVReadL2b.lean ====
/- A stretch of the reference program (layer 2: the slices of the gate's weights and the gate's graph convolution): its 56 operations as a list, in program order and as the program
   writes them (an outlined function's operations stand at its call, over that call's buffers); the buffers they write; and what the
   run of the list from ANY contents V leaves in the stretch's result: the named whole-array function of V's contents at the buffers the
   stretch reads. The fold of the list is unrolled one operation at a time, each operation's function applied to what the
   earlier ones left, and the composed term is the function's definition read literally. -/
import proofs.«117928_j61658550502081_1_alg».proof.Proof.RVDefs
import Idealize.ShloMosaic.Lib.StableHlo.Run

noncomputable section

namespace Cert.ReferenceIdeal.RV

open Cert.ReferenceIdeal Cert.ReferenceIdeal.Gen Idealize.ShloMosaic Idealize.ShloMosaic.TcCoe Idealize.SL.Sem Idealize.ShloMosaic.StableHlo

section
variable {F : FTy → Type} [FloatOps F]

/-- The stretch's 56 operations, in order. -/
abbrev rvL2b : List (HloOp τ sig (Elt F)) :=
  [ StableHlo.unary main_arg7 main_v316 ((extractStridedSlice S1x64x64 ![2, 0, 0] · slices_S4x64x64_S1x64x64_2_0_0) : (⟨S4x64x64, .f32⟩ : BufTy).Contents (Elt F) → (⟨S1x64x64, .f32⟩ : BufTy).Contents (Elt F)),
    StableHlo.reshape main_v316 main_v317 rfl shapeCasts_S1x64x64_S64x64,
    StableHlo.unary main_arg8 main_v318 ((extractStridedSlice S1x64 ![2, 0] · slices_S4x64_S1x64_2_0) : (⟨S4x64, .f32⟩ : BufTy).Contents (Elt F) → (⟨S1x64, .f32⟩ : BufTy).Contents (Elt F)),
    StableHlo.reshape main_v318 main_v319 rfl shapeCasts_S1x64_S64,
    StableHlo.binary main_v268 main_v317 main_v320 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.nullary main_v321 (iotaInDim S50000 32 0),
    StableHlo.binary main_v1 main_v321 main_v322 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v321 main_v323 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst_68 (constant S_ .f32 0x3F800000#32),
    StableHlo.unary main_cst_68 main_v324 (broadcastInDim S850000 ![] bcast_S_S850000 : (⟨S_, .f32⟩ : BufTy).Contents (Elt F) → (⟨S850000, .f32⟩ : BufTy).Contents (Elt F)),
    StableHlo.nullary main_cst_69 (constant S_ .f32 0x00000000#32),
    StableHlo.unary main_cst_69 main_v325 (broadcastInDim S50000 ![] bcast_S_S50000 : (⟨S_, .f32⟩ : BufTy).Contents (Elt F) → (⟨S50000, .f32⟩ : BufTy).Contents (Elt F)),
    StableHlo.unary main_v323 main_v326 (broadcastInDim S850000x1 ![0] bcast_S850000_S850000x1_0 : (⟨S850000, .i32⟩ : BufTy).Contents (Elt F) → (⟨S850000x1, .i32⟩ : BufTy).Contents (Elt F)),
    StableHlo.ternary main_v325 main_v326 main_v324 main_v327 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_70 (constant S_ .f32 0x3F800000#32),
    StableHlo.unary main_cst_70 main_v328 (broadcastInDim S50000 ![] bcast_S_S50000 : (⟨S_, .f32⟩ : BufTy).Contents (Elt F) → (⟨S50000, .f32⟩ : BufTy).Contents (Elt F)),
    StableHlo.binary main_v327 main_v328 main_v329 (maximumf : (⟨S50000, .f32⟩ : BufTy).Contents (Elt F) → (⟨S50000, .f32⟩ : BufTy).Contents (Elt F) → (⟨S50000, .f32⟩ : BufTy).Contents (Elt F)),
    StableHlo.unary main_v329 main_v330 (Host.rsqrt : (⟨S50000, .f32⟩ : BufTy).Contents (Elt F) → (⟨S50000, .f32⟩ : BufTy).Contents (Elt F)),
    StableHlo.nullary main_c_71 (constantI S_ 32 0#32),
    StableHlo.unary main_c_71 main_v331 (broadcastInDim S850000 ![] bcast_S_S850000 : (⟨S_, .i32⟩ : BufTy).Contents (Elt F) → (⟨S850000, .i32⟩ : BufTy).Contents (Elt F)),
    StableHlo.binary main_v322 main_v331 main_v332 (cmpi .slt : (⟨S850000, .i32⟩ : BufTy).Contents (Elt F) → (⟨S850000, .i32⟩ : BufTy).Contents (Elt F) → (⟨S850000, .i1⟩ : BufTy).Contents (Elt F)),
    StableHlo.nullary main_c_72 (constantI S_ 32 50000#32),
    StableHlo.unary main_c_72 main_v333 (broadcastInDim S850000 ![] bcast_S_S850000 : (⟨S_, .i32⟩ : BufTy).Contents (Elt F) → (⟨S850000, .i32⟩ : BufTy).Contents (Elt F)),
    StableHlo.binary main_v322 main_v333 main_v334 (addi : (⟨S850000, .i32⟩ : BufTy).Contents (Elt F) → (⟨S850000, .i32⟩ : BufTy).Contents (Elt F) → (⟨S850000, .i32⟩ : BufTy).Contents (Elt F)),
    StableHlo.ternary main_v332 main_v334 main_v322 main_v335 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v335 main_v336 (broadcastInDim S850000x1 ![0] bcast_S850000_S850000x1_0 : (⟨S850000, .i32⟩ : BufTy).Contents (Elt F) → (⟨S850000x1, .i32⟩ : BufTy).Contents (Elt F)),
    StableHlo.binary main_v330 main_v336 main_v337 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_73 (constantI S_ 32 0#32),
    StableHlo.unary main_c_73 main_v338 (broadcastInDim S850000 ![] bcast_S_S850000 : (⟨S_, .i32⟩ : BufTy).Contents (Elt F) → (⟨S850000, .i32⟩ : BufTy).Contents (Elt F)),
    StableHlo.binary main_v323 main_v338 main_v339 (cmpi .slt : (⟨S850000, .i32⟩ : BufTy).Contents (Elt F) → (⟨S850000, .i32⟩ : BufTy).Contents (Elt F) → (⟨S850000, .i1⟩ : BufTy).Contents (Elt F)),
    StableHlo.nullary main_c_74 (constantI S_ 32 50000#32),
    StableHlo.unary main_c_74 main_v340 (broadcastInDim S850000 ![] bcast_S_S850000 : (⟨S_, .i32⟩ : BufTy).Contents (Elt F) → (⟨S850000, .i32⟩ : BufTy).Contents (Elt F)),
    StableHlo.binary main_v323 main_v340 main_v341 (addi : (⟨S850000, .i32⟩ : BufTy).Contents (Elt F) → (⟨S850000, .i32⟩ : BufTy).Contents (Elt F) → (⟨S850000, .i32⟩ : BufTy).Contents (Elt F)),
    StableHlo.ternary main_v339 main_v341 main_v323 main_v342 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v342 main_v343 (broadcastInDim S850000x1 ![0] bcast_S850000_S850000x1_0 : (⟨S850000, .i32⟩ : BufTy).Contents (Elt F) → (⟨S850000x1, .i32⟩ : BufTy).Contents (Elt F)),
    StableHlo.binary main_v330 main_v343 main_v344 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v337 main_v344 main_v345 (mulf : (⟨S850000, .f32⟩ : BufTy).Contents (Elt F) → (⟨S850000, .f32⟩ : BufTy).Contents (Elt F) → (⟨S850000, .f32⟩ : BufTy).Contents (Elt F)),
    StableHlo.unary main_v345 main_v346 (broadcastInDim S850000x1 ![0] bcast_S850000_S850000x1_0 : (⟨S850000, .f32⟩ : BufTy).Contents (Elt F) → (⟨S850000x1, .f32⟩ : BufTy).Contents (Elt F)),
    StableHlo.nullary main_c_75 (constantI S_ 32 0#32),
    StableHlo.unary main_c_75 main_v347 (broadcastInDim S850000 ![] bcast_S_S850000 : (⟨S_, .i32⟩ : BufTy).Contents (Elt F) → (⟨S850000, .i32⟩ : BufTy).Contents (Elt F)),
    StableHlo.binary main_v322 main_v347 main_v348 (cmpi .slt : (⟨S850000, .i32⟩ : BufTy).Contents (Elt F) → (⟨S850000, .i32⟩ : BufTy).Contents (Elt F) → (⟨S850000, .i1⟩ : BufTy).Contents (Elt F)),
    StableHlo.nullary main_c_76 (constantI S_ 32 50000#32),
    StableHlo.unary main_c_76 main_v349 (broadcastInDim S850000 ![] bcast_S_S850000 : (⟨S_, .i32⟩ : BufTy).Contents (Elt F) → (⟨S850000, .i32⟩ : BufTy).Contents (Elt F)),
    StableHlo.binary main_v322 main_v349 main_v350 (addi : (⟨S850000, .i32⟩ : BufTy).Contents (Elt F) → (⟨S850000, .i32⟩ : BufTy).Contents (Elt F) → (⟨S850000, .i32⟩ : BufTy).Contents (Elt F)),
    StableHlo.ternary main_v348 main_v350 main_v322 main_v351 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v351 main_v352 (broadcastInDim S850000x1 ![0] bcast_S850000_S850000x1_0 : (⟨S850000, .i32⟩ : BufTy).Contents (Elt F) → (⟨S850000x1, .i32⟩ : BufTy).Contents (Elt F)),
    StableHlo.binary main_v320 main_v352 main_v353 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v346 main_v354 (broadcastInDim S850000x64 ![0, 1] bcast_S850000x1_S850000x64_0_1 : (⟨S850000x1, .f32⟩ : BufTy).Contents (Elt F) → (⟨S850000x64, .f32⟩ : BufTy).Contents (Elt F)),
    StableHlo.binary main_v353 main_v354 main_v355 (mulf : (⟨S850000x64, .f32⟩ : BufTy).Contents (Elt F) → (⟨S850000x64, .f32⟩ : BufTy).Contents (Elt F) → (⟨S850000x64, .f32⟩ : BufTy).Contents (Elt F)),
    StableHlo.nullary main_cst_77 (constant S_ .f32 0x00000000#32),
    StableHlo.unary main_cst_77 main_v356 (broadcastInDim S50000x64 ![] bcast_S_S50000x64 : (⟨S_, .f32⟩ : BufTy).Contents (Elt F) → (⟨S50000x64, .f32⟩ : BufTy).Contents (Elt F)),
    StableHlo.unary main_v323 main_v357 (broadcastInDim S850000x1 ![0] bcast_S850000_S850000x1_0 : (⟨S850000, .i32⟩ : BufTy).Contents (Elt F) → (⟨S850000x1, .i32⟩ : BufTy).Contents (Elt F)),
    StableHlo.ternary main_v356 main_v357 main_v355 main_v358 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.unary main_v319 main_v359 (broadcastInDim S1x64 ![1] bcast_S64_S1x64_1 : (⟨S64, .f32⟩ : BufTy).Contents (Elt F) → (⟨S1x64, .f32⟩ : BufTy).Contents (Elt F)),
    StableHlo.unary main_v359 main_v360 (broadcastInDim S50000x64 ![0, 1] bcast_S1x64_S50000x64_0_1 : (⟨S1x64, .f32⟩ : BufTy).Contents (Elt F) → (⟨S50000x64, .f32⟩ : BufTy).Contents (Elt F)),
    StableHlo.binary main_v358 main_v360 main_v361 (addf : (⟨S50000x64, .f32⟩ : BufTy).Contents (Elt F) → (⟨S50000x64, .f32⟩ : BufTy).Contents (Elt F) → (⟨S50000x64, .f32⟩ : BufTy).Contents (Elt F)) ]

/-- The buffers the stretch writes, in order. -/
abbrev rvL2b_W : List (Ref sig .tc) :=
  [main_v316, main_v317, main_v318, main_v319, main_v320, main_v321, main_v322, main_v323, main_cst_68, main_v324, main_cst_69, main_v325, main_v326, main_v327, main_cst_70, main_v328, main_v329, main_v330, main_c_71, main_v331, main_v332, main_c_72, main_v333, main_v334, main_v335, main_v336, main_v337, main_c_73, main_v338, main_v339, main_c_74, main_v340, main_v341, main_v342, main_v343, main_v344, main_v345, main_v346, main_c_75, main_v347, main_v348, main_c_76, main_v349, main_v350, main_v351, main_v352, main_v353, main_v354, main_v355, main_cst_77, main_v356, main_v357, main_v358, main_v359, main_v360, main_v361]

set_option maxRecDepth 4096 in
/-- Each operation writes one buffer of that list. -/
theorem rvL2b_writes : (rvL2b : List (HloOp τ sig (Elt F))).Forall fun op => op.writes ⊆ (rvL2b_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩

/-- A buffer the stretch does not write keeps its contents through it. -/
theorem rvL2b_keep (V : Valuation τ sig (Elt F)) (r : Ref sig .tc) (h : r ∉ rvL2b_W) :
    after (rvL2b (F := F)) V (Proc.devRef .tc r) = V (Proc.devRef .tc r) :=
  after_of_writes_sub rvL2b V rvL2b_writes h

end

attribute [local irreducible] Host.scatterAdd Host.gather Host.reduceAdd concatenate in
set_option maxRecDepth 8192 in
set_option maxHeartbeats 4000000 in
/-- What the stretch leaves in main_v361, from any contents V. -/
theorem read_L2b_v361 (V : Valuation τ sig (Elt Ideal)) :
    after (rvL2b (F := Ideal)) V (Proc.devRef .tc main_v361 : DevRef τ sig)
      = gcn (V (Proc.devRef .tc main_v268 : DevRef τ sig)) (ggW2 (V (Proc.devRef .tc main_arg7 : DevRef τ sig))) (ggb2 (V (Proc.devRef .tc main_arg8 : DevRef τ sig))) (V (Proc.devRef .tc main_v1 : DevRef τ sig)) (V (Proc.devRef .tc main_v3 : DevRef τ sig)) := by
  simp only [rvL2b]
  after_results_simp
  rfl

end Cert.ReferenceIdeal.RV

end
-- ==== Proof.RVReadL2br.lean ====
/- A stretch of the reference program (layer 2: the rectifier of the gate's convolution): its 3 operations as a list, in program order and as the program
   writes them (an outlined function's operations stand at its call, over that call's buffers); the buffers they write; and what the
   run of the list from ANY contents V leaves in the stretch's result: the named whole-array function of V's contents at the buffers the
   stretch reads. The fold of the list is unrolled one operation at a time, each operation's function applied to what the
   earlier ones left, and the composed term is the function's definition read literally. -/
import proofs.«117928_j61658550502081_1_alg».proof.Proof.RVDefs
import Idealize.ShloMosaic.Lib.StableHlo.Run

noncomputable section

namespace Cert.ReferenceIdeal.RV

open Cert.ReferenceIdeal Cert.ReferenceIdeal.Gen Idealize.ShloMosaic Idealize.ShloMosaic.TcCoe Idealize.SL.Sem Idealize.ShloMosaic.StableHlo

section
variable {F : FTy → Type} [FloatOps F]

/-- The stretch's 3 operations, in order. -/
abbrev rvL2br : List (HloOp τ sig (Elt F)) :=
  [ StableHlo.TRef.nullary main_call6.cst (constant S_ .f32 0x00000000#32),
    StableHlo.TRef.unary main_call6.cst main_call6.v0 (broadcastInDim S50000x64 ![] bcast_S_S50000x64),
    StableHlo.TRef.binary (.of main_v361 : StableHlo.TRef sig ⟨S50000x64, .f32⟩) main_call6.v0 main_call6.v1 maximumf ]

/-- The buffers the stretch writes, in order. -/
abbrev rvL2br_W : List (Ref sig .tc) :=
  [main_call6_cst, main_call6_v0, main_v362]

set_option maxRecDepth 4096 in
/-- Each operation writes one buffer of that list. -/
theorem rvL2br_writes : (rvL2br : List (HloOp τ sig (Elt F))).Forall fun op => op.writes ⊆ (rvL2br_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩

/-- A buffer the stretch does not write keeps its contents through it. -/
theorem rvL2br_keep (V : Valuation τ sig (Elt F)) (r : Ref sig .tc) (h : r ∉ rvL2br_W) :
    after (rvL2br (F := F)) V (Proc.devRef .tc r) = V (Proc.devRef .tc r) :=
  after_of_writes_sub rvL2br V rvL2br_writes h

end

attribute [local irreducible] Host.scatterAdd Host.gather Host.reduceAdd concatenate in
set_option maxRecDepth 8192 in
set_option maxHeartbeats 4000000 in
/-- What the stretch leaves in main_v362, from any contents V. -/
theorem read_L2br_v362 (V : Valuation τ sig (Elt Ideal)) :
    after (rvL2br (F := Ideal)) V (Proc.devRef .tc main_v362 : DevRef τ sig)
      = relu (V (Proc.devRef .tc main_v361 : DevRef τ sig)) := by
  simp only [rvL2br]
  after_results_simp
  rfl

end Cert.ReferenceIdeal.RV

end
-- ==== Proof.RVReadL2c.lean ====
/- A stretch of the reference program (layer 2: the gradient gate and the gated combination): its 46 operations as a list, in program order and as the program
   writes them (an outlined function's operations stand at its call, over that call's buffers); the buffers they write; and what the
   run of the list from ANY contents V leaves in the stretch's result: the named whole-array function of V's contents at the buffers the
   stretch reads. The fold of the list is unrolled one operation at a time, each operation's function applied to what the
   earlier ones left, and the composed term is the function's definition read literally. -/
import proofs.«117928_j61658550502081_1_alg».proof.Proof.RVDefs
import Idealize.ShloMosaic.Lib.StableHlo.Run

noncomputable section

namespace Cert.ReferenceIdeal.RV

open Cert.ReferenceIdeal Cert.ReferenceIdeal.Gen Idealize.ShloMosaic Idealize.ShloMosaic.TcCoe Idealize.SL.Sem Idealize.ShloMosaic.StableHlo

section
variable {F : FTy → Type} [FloatOps F]

/-- The stretch's 46 operations, in order. -/
abbrev rvL2c : List (HloOp τ sig (Elt F)) :=
  [ StableHlo.nullary main_c_78 (constantI S_ 32 0#32),
    StableHlo.unary main_c_78 main_v363 (broadcastInDim S800000 ![] bcast_S_S800000 : (⟨S_, .i32⟩ : BufTy).Contents (Elt F) → (⟨S800000, .i32⟩ : BufTy).Contents (Elt F)),
    StableHlo.binary main_v1 main_v363 main_v364 (cmpi .slt : (⟨S800000, .i32⟩ : BufTy).Contents (Elt F) → (⟨S800000, .i32⟩ : BufTy).Contents (Elt F) → (⟨S800000, .i1⟩ : BufTy).Contents (Elt F)),
    StableHlo.nullary main_c_79 (constantI S_ 32 50000#32),
    StableHlo.unary main_c_79 main_v365 (broadcastInDim S800000 ![] bcast_S_S800000 : (⟨S_, .i32⟩ : BufTy).Contents (Elt F) → (⟨S800000, .i32⟩ : BufTy).Contents (Elt F)),
    StableHlo.binary main_v1 main_v365 main_v366 (addi : (⟨S800000, .i32⟩ : BufTy).Contents (Elt F) → (⟨S800000, .i32⟩ : BufTy).Contents (Elt F) → (⟨S800000, .i32⟩ : BufTy).Contents (Elt F)),
    StableHlo.ternary main_v364 main_v366 main_v1 main_v367 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v367 main_v368 (broadcastInDim S800000x1 ![0] bcast_S800000_S800000x1_0 : (⟨S800000, .i32⟩ : BufTy).Contents (Elt F) → (⟨S800000x1, .i32⟩ : BufTy).Contents (Elt F)),
    StableHlo.binary main_v362 main_v368 main_v369 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_c_80 (constantI S_ 32 0#32),
    StableHlo.unary main_c_80 main_v370 (broadcastInDim S800000 ![] bcast_S_S800000 : (⟨S_, .i32⟩ : BufTy).Contents (Elt F) → (⟨S800000, .i32⟩ : BufTy).Contents (Elt F)),
    StableHlo.binary main_v3 main_v370 main_v371 (cmpi .slt : (⟨S800000, .i32⟩ : BufTy).Contents (Elt F) → (⟨S800000, .i32⟩ : BufTy).Contents (Elt F) → (⟨S800000, .i1⟩ : BufTy).Contents (Elt F)),
    StableHlo.nullary main_c_81 (constantI S_ 32 50000#32),
    StableHlo.unary main_c_81 main_v372 (broadcastInDim S800000 ![] bcast_S_S800000 : (⟨S_, .i32⟩ : BufTy).Contents (Elt F) → (⟨S800000, .i32⟩ : BufTy).Contents (Elt F)),
    StableHlo.binary main_v3 main_v372 main_v373 (addi : (⟨S800000, .i32⟩ : BufTy).Contents (Elt F) → (⟨S800000, .i32⟩ : BufTy).Contents (Elt F) → (⟨S800000, .i32⟩ : BufTy).Contents (Elt F)),
    StableHlo.ternary main_v371 main_v373 main_v3 main_v374 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v374 main_v375 (broadcastInDim S800000x1 ![0] bcast_S800000_S800000x1_0 : (⟨S800000, .i32⟩ : BufTy).Contents (Elt F) → (⟨S800000x1, .i32⟩ : BufTy).Contents (Elt F)),
    StableHlo.binary main_v362 main_v375 main_v376 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.binary main_v369 main_v376 main_v377 (subf : (⟨S800000x64, .f32⟩ : BufTy).Contents (Elt F) → (⟨S800000x64, .f32⟩ : BufTy).Contents (Elt F) → (⟨S800000x64, .f32⟩ : BufTy).Contents (Elt F)),
    StableHlo.unary main_v377 main_v378 (Host.absf : (⟨S800000x64, .f32⟩ : BufTy).Contents (Elt F) → (⟨S800000x64, .f32⟩ : BufTy).Contents (Elt F)),
    StableHlo.nullary main_cst_82 (constant S_ .f32 0x40000000#32),
    StableHlo.unary main_cst_82 main_v379 (broadcastInDim S800000x64 ![] bcast_S_S800000x64 : (⟨S_, .f32⟩ : BufTy).Contents (Elt F) → (⟨S800000x64, .f32⟩ : BufTy).Contents (Elt F)),
    StableHlo.binary main_v378 main_v379 main_v380 (Host.powf : (⟨S800000x64, .f32⟩ : BufTy).Contents (Elt F) → (⟨S800000x64, .f32⟩ : BufTy).Contents (Elt F) → (⟨S800000x64, .f32⟩ : BufTy).Contents (Elt F)),
    StableHlo.nullary main_cst_83 (constant S_ .f32 0x00000000#32),
    StableHlo.unary main_cst_83 main_v381 (broadcastInDim S50000x64 ![] bcast_S_S50000x64 : (⟨S_, .f32⟩ : BufTy).Contents (Elt F) → (⟨S50000x64, .f32⟩ : BufTy).Contents (Elt F)),
    StableHlo.unary main_v1 main_v382 (broadcastInDim S800000x1 ![0] bcast_S800000_S800000x1_0 : (⟨S800000, .i32⟩ : BufTy).Contents (Elt F) → (⟨S800000x1, .i32⟩ : BufTy).Contents (Elt F)),
    StableHlo.ternary main_v381 main_v382 main_v380 main_v383 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.nullary main_cst_84 (constant S_ .f32 0x3F800000#32),
    StableHlo.unary main_cst_84 main_v384 (broadcastInDim S800000 ![] bcast_S_S800000 : (⟨S_, .f32⟩ : BufTy).Contents (Elt F) → (⟨S800000, .f32⟩ : BufTy).Contents (Elt F)),
    StableHlo.nullary main_cst_85 (constant S_ .f32 0x00000000#32),
    StableHlo.unary main_cst_85 main_v385 (broadcastInDim S50000 ![] bcast_S_S50000 : (⟨S_, .f32⟩ : BufTy).Contents (Elt F) → (⟨S50000, .f32⟩ : BufTy).Contents (Elt F)),
    StableHlo.unary main_v1 main_v386 (broadcastInDim S800000x1 ![0] bcast_S800000_S800000x1_0 : (⟨S800000, .i32⟩ : BufTy).Contents (Elt F) → (⟨S800000x1, .i32⟩ : BufTy).Contents (Elt F)),
    StableHlo.ternary main_v385 main_v386 main_v384 main_v387 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_86 (constant S_ .f32 0x3F800000#32),
    StableHlo.unary main_cst_86 main_v388 (broadcastInDim S50000 ![] bcast_S_S50000 : (⟨S_, .f32⟩ : BufTy).Contents (Elt F) → (⟨S50000, .f32⟩ : BufTy).Contents (Elt F)),
    StableHlo.binary main_v387 main_v388 main_v389 (maximumf : (⟨S50000, .f32⟩ : BufTy).Contents (Elt F) → (⟨S50000, .f32⟩ : BufTy).Contents (Elt F) → (⟨S50000, .f32⟩ : BufTy).Contents (Elt F)),
    StableHlo.unary main_v389 main_v390 (broadcastInDim S50000x1 ![0] bcast_S50000_S50000x1_0 : (⟨S50000, .f32⟩ : BufTy).Contents (Elt F) → (⟨S50000x1, .f32⟩ : BufTy).Contents (Elt F)),
    StableHlo.unary main_v390 main_v391 (broadcastInDim S50000x64 ![0, 1] bcast_S50000x1_S50000x64_0_1 : (⟨S50000x1, .f32⟩ : BufTy).Contents (Elt F) → (⟨S50000x64, .f32⟩ : BufTy).Contents (Elt F)),
    StableHlo.binary main_v383 main_v391 main_v392 (Host.divf : (⟨S50000x64, .f32⟩ : BufTy).Contents (Elt F) → (⟨S50000x64, .f32⟩ : BufTy).Contents (Elt F) → (⟨S50000x64, .f32⟩ : BufTy).Contents (Elt F)),
    StableHlo.unary main_v392 main_v393 (Host.tanh : (⟨S50000x64, .f32⟩ : BufTy).Contents (Elt F) → (⟨S50000x64, .f32⟩ : BufTy).Contents (Elt F)),
    StableHlo.nullary main_cst_87 (constant S_ .f32 0x3F800000#32),
    StableHlo.unary main_cst_87 main_v394 (broadcastInDim S50000x64 ![] bcast_S_S50000x64 : (⟨S_, .f32⟩ : BufTy).Contents (Elt F) → (⟨S50000x64, .f32⟩ : BufTy).Contents (Elt F)),
    StableHlo.binary main_v394 main_v393 main_v395 (subf : (⟨S50000x64, .f32⟩ : BufTy).Contents (Elt F) → (⟨S50000x64, .f32⟩ : BufTy).Contents (Elt F) → (⟨S50000x64, .f32⟩ : BufTy).Contents (Elt F)),
    StableHlo.binary main_v395 main_v268 main_v396 (mulf : (⟨S50000x64, .f32⟩ : BufTy).Contents (Elt F) → (⟨S50000x64, .f32⟩ : BufTy).Contents (Elt F) → (⟨S50000x64, .f32⟩ : BufTy).Contents (Elt F)),
    StableHlo.binary main_v393 main_v315 main_v397 (mulf : (⟨S50000x64, .f32⟩ : BufTy).Contents (Elt F) → (⟨S50000x64, .f32⟩ : BufTy).Contents (Elt F) → (⟨S50000x64, .f32⟩ : BufTy).Contents (Elt F)),
    StableHlo.binary main_v396 main_v397 main_v398 (addf : (⟨S50000x64, .f32⟩ : BufTy).Contents (Elt F) → (⟨S50000x64, .f32⟩ : BufTy).Contents (Elt F) → (⟨S50000x64, .f32⟩ : BufTy).Contents (Elt F)) ]

/-- The buffers the stretch writes, in order. -/
abbrev rvL2c_W : List (Ref sig .tc) :=
  [main_c_78, main_v363, main_v364, main_c_79, main_v365, main_v366, main_v367, main_v368, main_v369, main_c_80, main_v370, main_v371, main_c_81, main_v372, main_v373, main_v374, main_v375, main_v376, main_v377, main_v378, main_cst_82, main_v379, main_v380, main_cst_83, main_v381, main_v382, main_v383, main_cst_84, main_v384, main_cst_85, main_v385, main_v386, main_v387, main_cst_86, main_v388, main_v389, main_v390, main_v391, main_v392, main_v393, main_cst_87, main_v394, main_v395, main_v396, main_v397, main_v398]

set_option maxRecDepth 4096 in
/-- Each operation writes one buffer of that list. -/
theorem rvL2c_writes : (rvL2c : List (HloOp τ sig (Elt F))).Forall fun op => op.writes ⊆ (rvL2c_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩

/-- A buffer the stretch does not write keeps its contents through it. -/
theorem rvL2c_keep (V : Valuation τ sig (Elt F)) (r : Ref sig .tc) (h : r ∉ rvL2c_W) :
    after (rvL2c (F := F)) V (Proc.devRef .tc r) = V (Proc.devRef .tc r) :=
  after_of_writes_sub rvL2c V rvL2c_writes h

end

attribute [local irreducible] Host.scatterAdd Host.gather Host.reduceAdd concatenate in
set_option maxRecDepth 8192 in
set_option maxHeartbeats 4000000 in
/-- What the stretch leaves in main_v398, from any contents V. -/
theorem read_L2c_v398 (V : Valuation τ sig (Elt Ideal)) :
    after (rvL2c (F := Ideal)) V (Proc.devRef .tc main_v398 : DevRef τ sig)
      = mix (V (Proc.devRef .tc main_v268 : DevRef τ sig)) (V (Proc.devRef .tc main_v315 : DevRef τ sig)) (V (Proc.devRef .tc main_v362 : DevRef τ sig)) (V (Proc.devRef .tc main_v1 : DevRef τ sig)) (V (Proc.devRef .tc main_v3 : DevRef τ sig)) := by
  simp only [rvL2c]
  after_results_simp
  rfl

end Cert.ReferenceIdeal.RV

end
-- ==== Proof.RVReadL2.lean ====
/- Layer 2 of the reference program as one run: its operation list is the three stretches (convolution, gate's convolution, gate and
   combination) one after the other (each convolution followed by its rectifier), and what the run leaves in the layer's result, from any contents V, is the layer function of
   V's contents at the buffers the layer reads: each stretch's result is read by its own lemma, a buffer a stretch does not write
   is carried through it unchanged. -/
import proofs.«117928_j61658550502081_1_alg».proof.Proof.RVReadL2a
import proofs.«117928_j61658550502081_1_alg».proof.Proof.RVReadL2ar
import proofs.«117928_j61658550502081_1_alg».proof.Proof.RVReadL2b
import proofs.«117928_j61658550502081_1_alg».proof.Proof.RVReadL2br
import proofs.«117928_j61658550502081_1_alg».proof.Proof.RVReadL2c
import proofs.«117928_j61658550502081_1_alg».proof.Proof.RefOpsL2
import Idealize.ShloMosaic.Lib.StableHlo.Run

noncomputable section

namespace Cert.ReferenceIdeal.RV

open Cert.ReferenceIdeal Cert.ReferenceIdeal.Gen Cert.ReferenceIdeal.RefRun Idealize.ShloMosaic Idealize.ShloMosaic.TcCoe Idealize.SL.Sem Idealize.ShloMosaic.StableHlo

set_option maxRecDepth 16384 in
/-- The layer's operations are the three stretches' operations, in order. -/
theorem opsLayer2_eq {F : FTy → Type} [FloatOps F] :
    (opsLayer2 : List (HloOp τ sig (Elt F))) = rvL2a ++ (rvL2ar ++ (rvL2b ++ (rvL2br ++ (rvL2c)))) := rfl

/-- What the layer's run leaves in main_v398, from any contents V. -/
theorem read_layer2 (V : Valuation τ sig (Elt Ideal)) :
    after (opsLayer2 (F := Ideal)) V (Proc.devRef .tc main_v398 : DevRef τ sig)
      = layer (V (Proc.devRef .tc main_v268 : DevRef τ sig)) (convW2 (V (Proc.devRef .tc main_arg5 : DevRef τ sig))) (convb2 (V (Proc.devRef .tc main_arg6 : DevRef τ sig))) (ggW2 (V (Proc.devRef .tc main_arg7 : DevRef τ sig))) (ggb2 (V (Proc.devRef .tc main_arg8 : DevRef τ sig))) (V (Proc.devRef .tc main_v1 : DevRef τ sig)) (V (Proc.devRef .tc main_v3 : DevRef τ sig)) := by
  rw [opsLayer2_eq, after_append, after_append, after_append, after_append, read_L2c_v398]
  rw [rvL2br_keep (F := Ideal) _ main_v268 (by decide),
    rvL2br_keep (F := Ideal) _ main_v315 (by decide),
    read_L2br_v362,
    rvL2br_keep (F := Ideal) _ main_v1 (by decide),
    rvL2br_keep (F := Ideal) _ main_v3 (by decide)]
  rw [rvL2b_keep (F := Ideal) _ main_v268 (by decide),
    rvL2b_keep (F := Ideal) _ main_v315 (by decide),
    read_L2b_v361,
    rvL2b_keep (F := Ideal) _ main_v1 (by decide),
    rvL2b_keep (F := Ideal) _ main_v3 (by decide)]
  rw [rvL2ar_keep (F := Ideal) _ main_v268 (by decide),
    read_L2ar_v315,
    rvL2ar_keep (F := Ideal) _ main_arg7 (by decide),
    rvL2ar_keep (F := Ideal) _ main_arg8 (by decide),
    rvL2ar_keep (F := Ideal) _ main_v1 (by decide),
    rvL2ar_keep (F := Ideal) _ main_v3 (by decide)]
  rw [rvL2a_keep (F := Ideal) _ main_v268 (by decide),
    read_L2a_v314,
    rvL2a_keep (F := Ideal) _ main_arg7 (by decide),
    rvL2a_keep (F := Ideal) _ main_arg8 (by decide),
    rvL2a_keep (F := Ideal) _ main_v1 (by decide),
    rvL2a_keep (F := Ideal) _ main_v3 (by decide)]
  all_goals rfl

end Cert.ReferenceIdeal.RV

end
-- ==== Proof.RVReadL3a.lean ====
/- A stretch of the reference program (layer 3: the slices of the convolution's weights and the graph convolution): its 56 operations as a list, in program order and as the program
   writes them (an outlined function's operations stand at its call, over that call's buffers); the buffers they write; and what the
   run of the list from ANY contents V leaves in the stretch's result: the named whole-array function of V's contents at the buffers the
   stretch reads. The fold of the list is unrolled one operation at a time, each operation's function applied to what the
   earlier ones left, and the composed term is the function's definition read literally. -/
import proofs.«117928_j61658550502081_1_alg».proof.Proof.RVDefs
import Idealize.ShloMosaic.Lib.StableHlo.Run

noncomputable section

namespace Cert.ReferenceIdeal.RV

open Cert.ReferenceIdeal Cert.ReferenceIdeal.Gen Idealize.ShloMosaic Idealize.ShloMosaic.TcCoe Idealize.SL.Sem Idealize.ShloMosaic.StableHlo

section
variable {F : FTy → Type} [FloatOps F]

/-- The stretch's 56 operations, in order. -/
abbrev rvL3a : List (HloOp τ sig (Elt F)) :=
  [ StableHlo.unary main_arg5 main_v399 ((extractStridedSlice S1x64x64 ![3, 0, 0] · slices_S4x64x64_S1x64x64_3_0_0) : (⟨S4x64x64, .f32⟩ : BufTy).Contents (Elt F) → (⟨S1x64x64, .f32⟩ : BufTy).Contents (Elt F)),
    StableHlo.reshape main_v399 main_v400 rfl shapeCasts_S1x64x64_S64x64,
    StableHlo.unary main_arg6 main_v401 ((extractStridedSlice S1x64 ![3, 0] · slices_S4x64_S1x64_3_0) : (⟨S4x64, .f32⟩ : BufTy).Contents (Elt F) → (⟨S1x64, .f32⟩ : BufTy).Contents (Elt F)),
    StableHlo.reshape main_v401 main_v402 rfl shapeCasts_S1x64_S64,
    StableHlo.binary main_v398 main_v400 main_v403 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.nullary main_v404 (iotaInDim S50000 32 0),
    StableHlo.binary main_v1 main_v404 main_v405 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v404 main_v406 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst_88 (constant S_ .f32 0x3F800000#32),
    StableHlo.unary main_cst_88 main_v407 (broadcastInDim S850000 ![] bcast_S_S850000 : (⟨S_, .f32⟩ : BufTy).Contents (Elt F) → (⟨S850000, .f32⟩ : BufTy).Contents (Elt F)),
    StableHlo.nullary main_cst_89 (constant S_ .f32 0x00000000#32),
    StableHlo.unary main_cst_89 main_v408 (broadcastInDim S50000 ![] bcast_S_S50000 : (⟨S_, .f32⟩ : BufTy).Contents (Elt F) → (⟨S50000, .f32⟩ : BufTy).Contents (Elt F)),
    StableHlo.unary main_v406 main_v409 (broadcastInDim S850000x1 ![0] bcast_S850000_S850000x1_0 : (⟨S850000, .i32⟩ : BufTy).Contents (Elt F) → (⟨S850000x1, .i32⟩ : BufTy).Contents (Elt F)),
    StableHlo.ternary main_v408 main_v409 main_v407 main_v410 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_90 (constant S_ .f32 0x3F800000#32),
    StableHlo.unary main_cst_90 main_v411 (broadcastInDim S50000 ![] bcast_S_S50000 : (⟨S_, .f32⟩ : BufTy).Contents (Elt F) → (⟨S50000, .f32⟩ : BufTy).Contents (Elt F)),
    StableHlo.binary main_v410 main_v411 main_v412 (maximumf : (⟨S50000, .f32⟩ : BufTy).Contents (Elt F) → (⟨S50000, .f32⟩ : BufTy).Contents (Elt F) → (⟨S50000, .f32⟩ : BufTy).Contents (Elt F)),
    StableHlo.unary main_v412 main_v413 (Host.rsqrt : (⟨S50000, .f32⟩ : BufTy).Contents (Elt F) → (⟨S50000, .f32⟩ : BufTy).Contents (Elt F)),
    StableHlo.nullary main_c_91 (constantI S_ 32 0#32),
    StableHlo.unary main_c_91 main_v414 (broadcastInDim S850000 ![] bcast_S_S850000 : (⟨S_, .i32⟩ : BufTy).Contents (Elt F) → (⟨S850000, .i32⟩ : BufTy).Contents (Elt F)),
    StableHlo.binary main_v405 main_v414 main_v415 (cmpi .slt : (⟨S850000, .i32⟩ : BufTy).Contents (Elt F) → (⟨S850000, .i32⟩ : BufTy).Contents (Elt F) → (⟨S850000, .i1⟩ : BufTy).Contents (Elt F)),
    StableHlo.nullary main_c_92 (constantI S_ 32 50000#32),
    StableHlo.unary main_c_92 main_v416 (broadcastInDim S850000 ![] bcast_S_S850000 : (⟨S_, .i32⟩ : BufTy).Contents (Elt F) → (⟨S850000, .i32⟩ : BufTy).Contents (Elt F)),
    StableHlo.binary main_v405 main_v416 main_v417 (addi : (⟨S850000, .i32⟩ : BufTy).Contents (Elt F) → (⟨S850000, .i32⟩ : BufTy).Contents (Elt F) → (⟨S850000, .i32⟩ : BufTy).Contents (Elt F)),
    StableHlo.ternary main_v415 main_v417 main_v405 main_v418 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v418 main_v419 (broadcastInDim S850000x1 ![0] bcast_S850000_S850000x1_0 : (⟨S850000, .i32⟩ : BufTy).Contents (Elt F) → (⟨S850000x1, .i32⟩ : BufTy).Contents (Elt F)),
    StableHlo.binary main_v413 main_v419 main_v420 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_93 (constantI S_ 32 0#32),
    StableHlo.unary main_c_93 main_v421 (broadcastInDim S850000 ![] bcast_S_S850000 : (⟨S_, .i32⟩ : BufTy).Contents (Elt F) → (⟨S850000, .i32⟩ : BufTy).Contents (Elt F)),
    StableHlo.binary main_v406 main_v421 main_v422 (cmpi .slt : (⟨S850000, .i32⟩ : BufTy).Contents (Elt F) → (⟨S850000, .i32⟩ : BufTy).Contents (Elt F) → (⟨S850000, .i1⟩ : BufTy).Contents (Elt F)),
    StableHlo.nullary main_c_94 (constantI S_ 32 50000#32),
    StableHlo.unary main_c_94 main_v423 (broadcastInDim S850000 ![] bcast_S_S850000 : (⟨S_, .i32⟩ : BufTy).Contents (Elt F) → (⟨S850000, .i32⟩ : BufTy).Contents (Elt F)),
    StableHlo.binary main_v406 main_v423 main_v424 (addi : (⟨S850000, .i32⟩ : BufTy).Contents (Elt F) → (⟨S850000, .i32⟩ : BufTy).Contents (Elt F) → (⟨S850000, .i32⟩ : BufTy).Contents (Elt F)),
    StableHlo.ternary main_v422 main_v424 main_v406 main_v425 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v425 main_v426 (broadcastInDim S850000x1 ![0] bcast_S850000_S850000x1_0 : (⟨S850000, .i32⟩ : BufTy).Contents (Elt F) → (⟨S850000x1, .i32⟩ : BufTy).Contents (Elt F)),
    StableHlo.binary main_v413 main_v426 main_v427 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v420 main_v427 main_v428 (mulf : (⟨S850000, .f32⟩ : BufTy).Contents (Elt F) → (⟨S850000, .f32⟩ : BufTy).Contents (Elt F) → (⟨S850000, .f32⟩ : BufTy).Contents (Elt F)),
    StableHlo.unary main_v428 main_v429 (broadcastInDim S850000x1 ![0] bcast_S850000_S850000x1_0 : (⟨S850000, .f32⟩ : BufTy).Contents (Elt F) → (⟨S850000x1, .f32⟩ : BufTy).Contents (Elt F)),
    StableHlo.nullary main_c_95 (constantI S_ 32 0#32),
    StableHlo.unary main_c_95 main_v430 (broadcastInDim S850000 ![] bcast_S_S850000 : (⟨S_, .i32⟩ : BufTy).Contents (Elt F) → (⟨S850000, .i32⟩ : BufTy).Contents (Elt F)),
    StableHlo.binary main_v405 main_v430 main_v431 (cmpi .slt : (⟨S850000, .i32⟩ : BufTy).Contents (Elt F) → (⟨S850000, .i32⟩ : BufTy).Contents (Elt F) → (⟨S850000, .i1⟩ : BufTy).Contents (Elt F)),
    StableHlo.nullary main_c_96 (constantI S_ 32 50000#32),
    StableHlo.unary main_c_96 main_v432 (broadcastInDim S850000 ![] bcast_S_S850000 : (⟨S_, .i32⟩ : BufTy).Contents (Elt F) → (⟨S850000, .i32⟩ : BufTy).Contents (Elt F)),
    StableHlo.binary main_v405 main_v432 main_v433 (addi : (⟨S850000, .i32⟩ : BufTy).Contents (Elt F) → (⟨S850000, .i32⟩ : BufTy).Contents (Elt F) → (⟨S850000, .i32⟩ : BufTy).Contents (Elt F)),
    StableHlo.ternary main_v431 main_v433 main_v405 main_v434 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v434 main_v435 (broadcastInDim S850000x1 ![0] bcast_S850000_S850000x1_0 : (⟨S850000, .i32⟩ : BufTy).Contents (Elt F) → (⟨S850000x1, .i32⟩ : BufTy).Contents (Elt F)),
    StableHlo.binary main_v403 main_v435 main_v436 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v429 main_v437 (broadcastInDim S850000x64 ![0, 1] bcast_S850000x1_S850000x64_0_1 : (⟨S850000x1, .f32⟩ : BufTy).Contents (Elt F) → (⟨S850000x64, .f32⟩ : BufTy).Contents (Elt F)),
    StableHlo.binary main_v436 main_v437 main_v438 (mulf : (⟨S850000x64, .f32⟩ : BufTy).Contents (Elt F) → (⟨S850000x64, .f32⟩ : BufTy).Contents (Elt F) → (⟨S850000x64, .f32⟩ : BufTy).Contents (Elt F)),
    StableHlo.nullary main_cst_97 (constant S_ .f32 0x00000000#32),
    StableHlo.unary main_cst_97 main_v439 (broadcastInDim S50000x64 ![] bcast_S_S50000x64 : (⟨S_, .f32⟩ : BufTy).Contents (Elt F) → (⟨S50000x64, .f32⟩ : BufTy).Contents (Elt F)),
    StableHlo.unary main_v406 main_v440 (broadcastInDim S850000x1 ![0] bcast_S850000_S850000x1_0 : (⟨S850000, .i32⟩ : BufTy).Contents (Elt F) → (⟨S850000x1, .i32⟩ : BufTy).Contents (Elt F)),
    StableHlo.ternary main_v439 main_v440 main_v438 main_v441 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.unary main_v402 main_v442 (broadcastInDim S1x64 ![1] bcast_S64_S1x64_1 : (⟨S64, .f32⟩ : BufTy).Contents (Elt F) → (⟨S1x64, .f32⟩ : BufTy).Contents (Elt F)),
    StableHlo.unary main_v442 main_v443 (broadcastInDim S50000x64 ![0, 1] bcast_S1x64_S50000x64_0_1 : (⟨S1x64, .f32⟩ : BufTy).Contents (Elt F) → (⟨S50000x64, .f32⟩ : BufTy).Contents (Elt F)),
    StableHlo.binary main_v441 main_v443 main_v444 (addf : (⟨S50000x64, .f32⟩ : BufTy).Contents (Elt F) → (⟨S50000x64, .f32⟩ : BufTy).Contents (Elt F) → (⟨S50000x64, .f32⟩ : BufTy).Contents (Elt F)) ]

/-- The buffers the stretch writes, in order. -/
abbrev rvL3a_W : List (Ref sig .tc) :=
  [main_v399, main_v400, main_v401, main_v402, main_v403, main_v404, main_v405, main_v406, main_cst_88, main_v407, main_cst_89, main_v408, main_v409, main_v410, main_cst_90, main_v411, main_v412, main_v413, main_c_91, main_v414, main_v415, main_c_92, main_v416, main_v417, main_v418, main_v419, main_v420, main_c_93, main_v421, main_v422, main_c_94, main_v423, main_v424, main_v425, main_v426, main_v427, main_v428, main_v429, main_c_95, main_v430, main_v431, main_c_96, main_v432, main_v433, main_v434, main_v435, main_v436, main_v437, main_v438, main_cst_97, main_v439, main_v440, main_v441, main_v442, main_v443, main_v444]

set_option maxRecDepth 4096 in
/-- Each operation writes one buffer of that list. -/
theorem rvL3a_writes : (rvL3a : List (HloOp τ sig (Elt F))).Forall fun op => op.writes ⊆ (rvL3a_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩

/-- A buffer the stretch does not write keeps its contents through it. -/
theorem rvL3a_keep (V : Valuation τ sig (Elt F)) (r : Ref sig .tc) (h : r ∉ rvL3a_W) :
    after (rvL3a (F := F)) V (Proc.devRef .tc r) = V (Proc.devRef .tc r) :=
  after_of_writes_sub rvL3a V rvL3a_writes h

end

attribute [local irreducible] Host.scatterAdd Host.gather Host.reduceAdd concatenate in
set_option maxRecDepth 8192 in
set_option maxHeartbeats 4000000 in
/-- What the stretch leaves in main_v444, from any contents V. -/
theorem read_L3a_v444 (V : Valuation τ sig (Elt Ideal)) :
    after (rvL3a (F := Ideal)) V (Proc.devRef .tc main_v444 : DevRef τ sig)
      = gcn (V (Proc.devRef .tc main_v398 : DevRef τ sig)) (convW3 (V (Proc.devRef .tc main_arg5 : DevRef τ sig))) (convb3 (V (Proc.devRef .tc main_arg6 : DevRef τ sig))) (V (Proc.devRef .tc main_v1 : DevRef τ sig)) (V (Proc.devRef .tc main_v3 : DevRef τ sig)) := by
  simp only [rvL3a]
  after_results_simp
  rfl

end Cert.ReferenceIdeal.RV

end
-- ==== Proof.RVReadL3ar.lean ====
/- A stretch of the reference program (layer 3: the rectifier of the convolution): its 3 operations as a list, in program order and as the program
   writes them (an outlined function's operations stand at its call, over that call's buffers); the buffers they write; and what the
   run of the list from ANY contents V leaves in the stretch's result: the named whole-array function of V's contents at the buffers the
   stretch reads. The fold of the list is unrolled one operation at a time, each operation's function applied to what the
   earlier ones left, and the composed term is the function's definition read literally. -/
import proofs.«117928_j61658550502081_1_alg».proof.Proof.RVDefs
import Idealize.ShloMosaic.Lib.StableHlo.Run

noncomputable section

namespace Cert.ReferenceIdeal.RV

open Cert.ReferenceIdeal Cert.ReferenceIdeal.Gen Idealize.ShloMosaic Idealize.ShloMosaic.TcCoe Idealize.SL.Sem Idealize.ShloMosaic.StableHlo

section
variable {F : FTy → Type} [FloatOps F]

/-- The stretch's 3 operations, in order. -/
abbrev rvL3ar : List (HloOp τ sig (Elt F)) :=
  [ StableHlo.TRef.nullary main_call7.cst (constant S_ .f32 0x00000000#32),
    StableHlo.TRef.unary main_call7.cst main_call7.v0 (broadcastInDim S50000x64 ![] bcast_S_S50000x64),
    StableHlo.TRef.binary (.of main_v444 : StableHlo.TRef sig ⟨S50000x64, .f32⟩) main_call7.v0 main_call7.v1 maximumf ]

/-- The buffers the stretch writes, in order. -/
abbrev rvL3ar_W : List (Ref sig .tc) :=
  [main_call7_cst, main_call7_v0, main_v445]

set_option maxRecDepth 4096 in
/-- Each operation writes one buffer of that list. -/
theorem rvL3ar_writes : (rvL3ar : List (HloOp τ sig (Elt F))).Forall fun op => op.writes ⊆ (rvL3ar_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩

/-- A buffer the stretch does not write keeps its contents through it. -/
theorem rvL3ar_keep (V : Valuation τ sig (Elt F)) (r : Ref sig .tc) (h : r ∉ rvL3ar_W) :
    after (rvL3ar (F := F)) V (Proc.devRef .tc r) = V (Proc.devRef .tc r) :=
  after_of_writes_sub rvL3ar V rvL3ar_writes h

end

attribute [local irreducible] Host.scatterAdd Host.gather Host.reduceAdd concatenate in
set_option maxRecDepth 8192 in
set_option maxHeartbeats 4000000 in
/-- What the stretch leaves in main_v445, from any contents V. -/
theorem read_L3ar_v445 (V : Valuation τ sig (Elt Ideal)) :
    after (rvL3ar (F := Ideal)) V (Proc.devRef .tc main_v445 : DevRef τ sig)
      = relu (V (Proc.devRef .tc main_v444 : DevRef τ sig)) := by
  simp only [rvL3ar]
  after_results_simp
  rfl

end Cert.ReferenceIdeal.RV

end
-- ==== Proof.RVReadL3b.lean ====
/- A stretch of the reference program (layer 3: the slices of the gate's weights and the gate's graph convolution): its 56 operations as a list, in program order and as the program
   writes them (an outlined function's operations stand at its call, over that call's buffers); the buffers they write; and what the
   run of the list from ANY contents V leaves in the stretch's result: the named whole-array function of V's contents at the buffers the
   stretch reads. The fold of the list is unrolled one operation at a time, each operation's function applied to what the
   earlier ones left, and the composed term is the function's definition read literally. -/
import proofs.«117928_j61658550502081_1_alg».proof.Proof.RVDefs
import Idealize.ShloMosaic.Lib.StableHlo.Run

noncomputable section

namespace Cert.ReferenceIdeal.RV

open Cert.ReferenceIdeal Cert.ReferenceIdeal.Gen Idealize.ShloMosaic Idealize.ShloMosaic.TcCoe Idealize.SL.Sem Idealize.ShloMosaic.StableHlo

section
variable {F : FTy → Type} [FloatOps F]

/-- The stretch's 56 operations, in order. -/
abbrev rvL3b : List (HloOp τ sig (Elt F)) :=
  [ StableHlo.unary main_arg7 main_v446 ((extractStridedSlice S1x64x64 ![3, 0, 0] · slices_S4x64x64_S1x64x64_3_0_0) : (⟨S4x64x64, .f32⟩ : BufTy).Contents (Elt F) → (⟨S1x64x64, .f32⟩ : BufTy).Contents (Elt F)),
    StableHlo.reshape main_v446 main_v447 rfl shapeCasts_S1x64x64_S64x64,
    StableHlo.unary main_arg8 main_v448 ((extractStridedSlice S1x64 ![3, 0] · slices_S4x64_S1x64_3_0) : (⟨S4x64, .f32⟩ : BufTy).Contents (Elt F) → (⟨S1x64, .f32⟩ : BufTy).Contents (Elt F)),
    StableHlo.reshape main_v448 main_v449 rfl shapeCasts_S1x64_S64,
    StableHlo.binary main_v398 main_v447 main_v450 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.nullary main_v451 (iotaInDim S50000 32 0),
    StableHlo.binary main_v1 main_v451 main_v452 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v451 main_v453 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst_98 (constant S_ .f32 0x3F800000#32),
    StableHlo.unary main_cst_98 main_v454 (broadcastInDim S850000 ![] bcast_S_S850000 : (⟨S_, .f32⟩ : BufTy).Contents (Elt F) → (⟨S850000, .f32⟩ : BufTy).Contents (Elt F)),
    StableHlo.nullary main_cst_99 (constant S_ .f32 0x00000000#32),
    StableHlo.unary main_cst_99 main_v455 (broadcastInDim S50000 ![] bcast_S_S50000 : (⟨S_, .f32⟩ : BufTy).Contents (Elt F) → (⟨S50000, .f32⟩ : BufTy).Contents (Elt F)),
    StableHlo.unary main_v453 main_v456 (broadcastInDim S850000x1 ![0] bcast_S850000_S850000x1_0 : (⟨S850000, .i32⟩ : BufTy).Contents (Elt F) → (⟨S850000x1, .i32⟩ : BufTy).Contents (Elt F)),
    StableHlo.ternary main_v455 main_v456 main_v454 main_v457 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_100 (constant S_ .f32 0x3F800000#32),
    StableHlo.unary main_cst_100 main_v458 (broadcastInDim S50000 ![] bcast_S_S50000 : (⟨S_, .f32⟩ : BufTy).Contents (Elt F) → (⟨S50000, .f32⟩ : BufTy).Contents (Elt F)),
    StableHlo.binary main_v457 main_v458 main_v459 (maximumf : (⟨S50000, .f32⟩ : BufTy).Contents (Elt F) → (⟨S50000, .f32⟩ : BufTy).Contents (Elt F) → (⟨S50000, .f32⟩ : BufTy).Contents (Elt F)),
    StableHlo.unary main_v459 main_v460 (Host.rsqrt : (⟨S50000, .f32⟩ : BufTy).Contents (Elt F) → (⟨S50000, .f32⟩ : BufTy).Contents (Elt F)),
    StableHlo.nullary main_c_101 (constantI S_ 32 0#32),
    StableHlo.unary main_c_101 main_v461 (broadcastInDim S850000 ![] bcast_S_S850000 : (⟨S_, .i32⟩ : BufTy).Contents (Elt F) → (⟨S850000, .i32⟩ : BufTy).Contents (Elt F)),
    StableHlo.binary main_v452 main_v461 main_v462 (cmpi .slt : (⟨S850000, .i32⟩ : BufTy).Contents (Elt F) → (⟨S850000, .i32⟩ : BufTy).Contents (Elt F) → (⟨S850000, .i1⟩ : BufTy).Contents (Elt F)),
    StableHlo.nullary main_c_102 (constantI S_ 32 50000#32),
    StableHlo.unary main_c_102 main_v463 (broadcastInDim S850000 ![] bcast_S_S850000 : (⟨S_, .i32⟩ : BufTy).Contents (Elt F) → (⟨S850000, .i32⟩ : BufTy).Contents (Elt F)),
    StableHlo.binary main_v452 main_v463 main_v464 (addi : (⟨S850000, .i32⟩ : BufTy).Contents (Elt F) → (⟨S850000, .i32⟩ : BufTy).Contents (Elt F) → (⟨S850000, .i32⟩ : BufTy).Contents (Elt F)),
    StableHlo.ternary main_v462 main_v464 main_v452 main_v465 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v465 main_v466 (broadcastInDim S850000x1 ![0] bcast_S850000_S850000x1_0 : (⟨S850000, .i32⟩ : BufTy).Contents (Elt F) → (⟨S850000x1, .i32⟩ : BufTy).Contents (Elt F)),
    StableHlo.binary main_v460 main_v466 main_v467 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_103 (constantI S_ 32 0#32),
    StableHlo.unary main_c_103 main_v468 (broadcastInDim S850000 ![] bcast_S_S850000 : (⟨S_, .i32⟩ : BufTy).Contents (Elt F) → (⟨S850000, .i32⟩ : BufTy).Contents (Elt F)),
    StableHlo.binary main_v453 main_v468 main_v469 (cmpi .slt : (⟨S850000, .i32⟩ : BufTy).Contents (Elt F) → (⟨S850000, .i32⟩ : BufTy).Contents (Elt F) → (⟨S850000, .i1⟩ : BufTy).Contents (Elt F)),
    StableHlo.nullary main_c_104 (constantI S_ 32 50000#32),
    StableHlo.unary main_c_104 main_v470 (broadcastInDim S850000 ![] bcast_S_S850000 : (⟨S_, .i32⟩ : BufTy).Contents (Elt F) → (⟨S850000, .i32⟩ : BufTy).Contents (Elt F)),
    StableHlo.binary main_v453 main_v470 main_v471 (addi : (⟨S850000, .i32⟩ : BufTy).Contents (Elt F) → (⟨S850000, .i32⟩ : BufTy).Contents (Elt F) → (⟨S850000, .i32⟩ : BufTy).Contents (Elt F)),
    StableHlo.ternary main_v469 main_v471 main_v453 main_v472 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v472 main_v473 (broadcastInDim S850000x1 ![0] bcast_S850000_S850000x1_0 : (⟨S850000, .i32⟩ : BufTy).Contents (Elt F) → (⟨S850000x1, .i32⟩ : BufTy).Contents (Elt F)),
    StableHlo.binary main_v460 main_v473 main_v474 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v467 main_v474 main_v475 (mulf : (⟨S850000, .f32⟩ : BufTy).Contents (Elt F) → (⟨S850000, .f32⟩ : BufTy).Contents (Elt F) → (⟨S850000, .f32⟩ : BufTy).Contents (Elt F)),
    StableHlo.unary main_v475 main_v476 (broadcastInDim S850000x1 ![0] bcast_S850000_S850000x1_0 : (⟨S850000, .f32⟩ : BufTy).Contents (Elt F) → (⟨S850000x1, .f32⟩ : BufTy).Contents (Elt F)),
    StableHlo.nullary main_c_105 (constantI S_ 32 0#32),
    StableHlo.unary main_c_105 main_v477 (broadcastInDim S850000 ![] bcast_S_S850000 : (⟨S_, .i32⟩ : BufTy).Contents (Elt F) → (⟨S850000, .i32⟩ : BufTy).Contents (Elt F)),
    StableHlo.binary main_v452 main_v477 main_v478 (cmpi .slt : (⟨S850000, .i32⟩ : BufTy).Contents (Elt F) → (⟨S850000, .i32⟩ : BufTy).Contents (Elt F) → (⟨S850000, .i1⟩ : BufTy).Contents (Elt F)),
    StableHlo.nullary main_c_106 (constantI S_ 32 50000#32),
    StableHlo.unary main_c_106 main_v479 (broadcastInDim S850000 ![] bcast_S_S850000 : (⟨S_, .i32⟩ : BufTy).Contents (Elt F) → (⟨S850000, .i32⟩ : BufTy).Contents (Elt F)),
    StableHlo.binary main_v452 main_v479 main_v480 (addi : (⟨S850000, .i32⟩ : BufTy).Contents (Elt F) → (⟨S850000, .i32⟩ : BufTy).Contents (Elt F) → (⟨S850000, .i32⟩ : BufTy).Contents (Elt F)),
    StableHlo.ternary main_v478 main_v480 main_v452 main_v481 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v481 main_v482 (broadcastInDim S850000x1 ![0] bcast_S850000_S850000x1_0 : (⟨S850000, .i32⟩ : BufTy).Contents (Elt F) → (⟨S850000x1, .i32⟩ : BufTy).Contents (Elt F)),
    StableHlo.binary main_v450 main_v482 main_v483 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v476 main_v484 (broadcastInDim S850000x64 ![0, 1] bcast_S850000x1_S850000x64_0_1 : (⟨S850000x1, .f32⟩ : BufTy).Contents (Elt F) → (⟨S850000x64, .f32⟩ : BufTy).Contents (Elt F)),
    StableHlo.binary main_v483 main_v484 main_v485 (mulf : (⟨S850000x64, .f32⟩ : BufTy).Contents (Elt F) → (⟨S850000x64, .f32⟩ : BufTy).Contents (Elt F) → (⟨S850000x64, .f32⟩ : BufTy).Contents (Elt F)),
    StableHlo.nullary main_cst_107 (constant S_ .f32 0x00000000#32),
    StableHlo.unary main_cst_107 main_v486 (broadcastInDim S50000x64 ![] bcast_S_S50000x64 : (⟨S_, .f32⟩ : BufTy).Contents (Elt F) → (⟨S50000x64, .f32⟩ : BufTy).Contents (Elt F)),
    StableHlo.unary main_v453 main_v487 (broadcastInDim S850000x1 ![0] bcast_S850000_S850000x1_0 : (⟨S850000, .i32⟩ : BufTy).Contents (Elt F) → (⟨S850000x1, .i32⟩ : BufTy).Contents (Elt F)),
    StableHlo.ternary main_v486 main_v487 main_v485 main_v488 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.unary main_v449 main_v489 (broadcastInDim S1x64 ![1] bcast_S64_S1x64_1 : (⟨S64, .f32⟩ : BufTy).Contents (Elt F) → (⟨S1x64, .f32⟩ : BufTy).Contents (Elt F)),
    StableHlo.unary main_v489 main_v490 (broadcastInDim S50000x64 ![0, 1] bcast_S1x64_S50000x64_0_1 : (⟨S1x64, .f32⟩ : BufTy).Contents (Elt F) → (⟨S50000x64, .f32⟩ : BufTy).Contents (Elt F)),
    StableHlo.binary main_v488 main_v490 main_v491 (addf : (⟨S50000x64, .f32⟩ : BufTy).Contents (Elt F) → (⟨S50000x64, .f32⟩ : BufTy).Contents (Elt F) → (⟨S50000x64, .f32⟩ : BufTy).Contents (Elt F)) ]

/-- The buffers the stretch writes, in order. -/
abbrev rvL3b_W : List (Ref sig .tc) :=
  [main_v446, main_v447, main_v448, main_v449, main_v450, main_v451, main_v452, main_v453, main_cst_98, main_v454, main_cst_99, main_v455, main_v456, main_v457, main_cst_100, main_v458, main_v459, main_v460, main_c_101, main_v461, main_v462, main_c_102, main_v463, main_v464, main_v465, main_v466, main_v467, main_c_103, main_v468, main_v469, main_c_104, main_v470, main_v471, main_v472, main_v473, main_v474, main_v475, main_v476, main_c_105, main_v477, main_v478, main_c_106, main_v479, main_v480, main_v481, main_v482, main_v483, main_v484, main_v485, main_cst_107, main_v486, main_v487, main_v488, main_v489, main_v490, main_v491]

set_option maxRecDepth 4096 in
/-- Each operation writes one buffer of that list. -/
theorem rvL3b_writes : (rvL3b : List (HloOp τ sig (Elt F))).Forall fun op => op.writes ⊆ (rvL3b_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩

/-- A buffer the stretch does not write keeps its contents through it. -/
theorem rvL3b_keep (V : Valuation τ sig (Elt F)) (r : Ref sig .tc) (h : r ∉ rvL3b_W) :
    after (rvL3b (F := F)) V (Proc.devRef .tc r) = V (Proc.devRef .tc r) :=
  after_of_writes_sub rvL3b V rvL3b_writes h

end

attribute [local irreducible] Host.scatterAdd Host.gather Host.reduceAdd concatenate in
set_option maxRecDepth 8192 in
set_option maxHeartbeats 4000000 in
/-- What the stretch leaves in main_v491, from any contents V. -/
theorem read_L3b_v491 (V : Valuation τ sig (Elt Ideal)) :
    after (rvL3b (F := Ideal)) V (Proc.devRef .tc main_v491 : DevRef τ sig)
      = gcn (V (Proc.devRef .tc main_v398 : DevRef τ sig)) (ggW3 (V (Proc.devRef .tc main_arg7 : DevRef τ sig))) (ggb3 (V (Proc.devRef .tc main_arg8 : DevRef τ sig))) (V (Proc.devRef .tc main_v1 : DevRef τ sig)) (V (Proc.devRef .tc main_v3 : DevRef τ sig)) := by
  simp only [rvL3b]
  after_results_simp
  rfl

end Cert.ReferenceIdeal.RV

end
-- ==== Proof.RVReadL3br.lean ====
/- A stretch of the reference program (layer 3: the rectifier of the gate's convolution): its 3 operations as a list, in program order and as the program
   writes them (an outlined function's operations stand at its call, over that call's buffers); the buffers they write; and what the
   run of the list from ANY contents V leaves in the stretch's result: the named whole-array function of V's contents at the buffers the
   stretch reads. The fold of the list is unrolled one operation at a time, each operation's function applied to what the
   earlier ones left, and the composed term is the function's definition read literally. -/
import proofs.«117928_j61658550502081_1_alg».proof.Proof.RVDefs
import Idealize.ShloMosaic.Lib.StableHlo.Run

noncomputable section

namespace Cert.ReferenceIdeal.RV

open Cert.ReferenceIdeal Cert.ReferenceIdeal.Gen Idealize.ShloMosaic Idealize.ShloMosaic.TcCoe Idealize.SL.Sem Idealize.ShloMosaic.StableHlo

section
variable {F : FTy → Type} [FloatOps F]

/-- The stretch's 3 operations, in order. -/
abbrev rvL3br : List (HloOp τ sig (Elt F)) :=
  [ StableHlo.TRef.nullary main_call8.cst (constant S_ .f32 0x00000000#32),
    StableHlo.TRef.unary main_call8.cst main_call8.v0 (broadcastInDim S50000x64 ![] bcast_S_S50000x64),
    StableHlo.TRef.binary (.of main_v491 : StableHlo.TRef sig ⟨S50000x64, .f32⟩) main_call8.v0 main_call8.v1 maximumf ]

/-- The buffers the stretch writes, in order. -/
abbrev rvL3br_W : List (Ref sig .tc) :=
  [main_call8_cst, main_call8_v0, main_v492]

set_option maxRecDepth 4096 in
/-- Each operation writes one buffer of that list. -/
theorem rvL3br_writes : (rvL3br : List (HloOp τ sig (Elt F))).Forall fun op => op.writes ⊆ (rvL3br_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩

/-- A buffer the stretch does not write keeps its contents through it. -/
theorem rvL3br_keep (V : Valuation τ sig (Elt F)) (r : Ref sig .tc) (h : r ∉ rvL3br_W) :
    after (rvL3br (F := F)) V (Proc.devRef .tc r) = V (Proc.devRef .tc r) :=
  after_of_writes_sub rvL3br V rvL3br_writes h

end

attribute [local irreducible] Host.scatterAdd Host.gather Host.reduceAdd concatenate in
set_option maxRecDepth 8192 in
set_option maxHeartbeats 4000000 in
/-- What the stretch leaves in main_v492, from any contents V. -/
theorem read_L3br_v492 (V : Valuation τ sig (Elt Ideal)) :
    after (rvL3br (F := Ideal)) V (Proc.devRef .tc main_v492 : DevRef τ sig)
      = relu (V (Proc.devRef .tc main_v491 : DevRef τ sig)) := by
  simp only [rvL3br]
  after_results_simp
  rfl

end Cert.ReferenceIdeal.RV

end
-- ==== Proof.RVReadL3c.lean ====
/- A stretch of the reference program (layer 3: the gradient gate and the gated combination): its 46 operations as a list, in program order and as the program
   writes them (an outlined function's operations stand at its call, over that call's buffers); the buffers they write; and what the
   run of the list from ANY contents V leaves in the stretch's result: the named whole-array function of V's contents at the buffers the
   stretch reads. The fold of the list is unrolled one operation at a time, each operation's function applied to what the
   earlier ones left, and the composed term is the function's definition read literally. -/
import proofs.«117928_j61658550502081_1_alg».proof.Proof.RVDefs
import Idealize.ShloMosaic.Lib.StableHlo.Run

noncomputable section

namespace Cert.ReferenceIdeal.RV

open Cert.ReferenceIdeal Cert.ReferenceIdeal.Gen Idealize.ShloMosaic Idealize.ShloMosaic.TcCoe Idealize.SL.Sem Idealize.ShloMosaic.StableHlo

section
variable {F : FTy → Type} [FloatOps F]

/-- The stretch's 46 operations, in order. -/
abbrev rvL3c : List (HloOp τ sig (Elt F)) :=
  [ StableHlo.nullary main_c_108 (constantI S_ 32 0#32),
    StableHlo.unary main_c_108 main_v493 (broadcastInDim S800000 ![] bcast_S_S800000 : (⟨S_, .i32⟩ : BufTy).Contents (Elt F) → (⟨S800000, .i32⟩ : BufTy).Contents (Elt F)),
    StableHlo.binary main_v1 main_v493 main_v494 (cmpi .slt : (⟨S800000, .i32⟩ : BufTy).Contents (Elt F) → (⟨S800000, .i32⟩ : BufTy).Contents (Elt F) → (⟨S800000, .i1⟩ : BufTy).Contents (Elt F)),
    StableHlo.nullary main_c_109 (constantI S_ 32 50000#32),
    StableHlo.unary main_c_109 main_v495 (broadcastInDim S800000 ![] bcast_S_S800000 : (⟨S_, .i32⟩ : BufTy).Contents (Elt F) → (⟨S800000, .i32⟩ : BufTy).Contents (Elt F)),
    StableHlo.binary main_v1 main_v495 main_v496 (addi : (⟨S800000, .i32⟩ : BufTy).Contents (Elt F) → (⟨S800000, .i32⟩ : BufTy).Contents (Elt F) → (⟨S800000, .i32⟩ : BufTy).Contents (Elt F)),
    StableHlo.ternary main_v494 main_v496 main_v1 main_v497 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v497 main_v498 (broadcastInDim S800000x1 ![0] bcast_S800000_S800000x1_0 : (⟨S800000, .i32⟩ : BufTy).Contents (Elt F) → (⟨S800000x1, .i32⟩ : BufTy).Contents (Elt F)),
    StableHlo.binary main_v492 main_v498 main_v499 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_c_110 (constantI S_ 32 0#32),
    StableHlo.unary main_c_110 main_v500 (broadcastInDim S800000 ![] bcast_S_S800000 : (⟨S_, .i32⟩ : BufTy).Contents (Elt F) → (⟨S800000, .i32⟩ : BufTy).Contents (Elt F)),
    StableHlo.binary main_v3 main_v500 main_v501 (cmpi .slt : (⟨S800000, .i32⟩ : BufTy).Contents (Elt F) → (⟨S800000, .i32⟩ : BufTy).Contents (Elt F) → (⟨S800000, .i1⟩ : BufTy).Contents (Elt F)),
    StableHlo.nullary main_c_111 (constantI S_ 32 50000#32),
    StableHlo.unary main_c_111 main_v502 (broadcastInDim S800000 ![] bcast_S_S800000 : (⟨S_, .i32⟩ : BufTy).Contents (Elt F) → (⟨S800000, .i32⟩ : BufTy).Contents (Elt F)),
    StableHlo.binary main_v3 main_v502 main_v503 (addi : (⟨S800000, .i32⟩ : BufTy).Contents (Elt F) → (⟨S800000, .i32⟩ : BufTy).Contents (Elt F) → (⟨S800000, .i32⟩ : BufTy).Contents (Elt F)),
    StableHlo.ternary main_v501 main_v503 main_v3 main_v504 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v504 main_v505 (broadcastInDim S800000x1 ![0] bcast_S800000_S800000x1_0 : (⟨S800000, .i32⟩ : BufTy).Contents (Elt F) → (⟨S800000x1, .i32⟩ : BufTy).Contents (Elt F)),
    StableHlo.binary main_v492 main_v505 main_v506 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.binary main_v499 main_v506 main_v507 (subf : (⟨S800000x64, .f32⟩ : BufTy).Contents (Elt F) → (⟨S800000x64, .f32⟩ : BufTy).Contents (Elt F) → (⟨S800000x64, .f32⟩ : BufTy).Contents (Elt F)),
    StableHlo.unary main_v507 main_v508 (Host.absf : (⟨S800000x64, .f32⟩ : BufTy).Contents (Elt F) → (⟨S800000x64, .f32⟩ : BufTy).Contents (Elt F)),
    StableHlo.nullary main_cst_112 (constant S_ .f32 0x40000000#32),
    StableHlo.unary main_cst_112 main_v509 (broadcastInDim S800000x64 ![] bcast_S_S800000x64 : (⟨S_, .f32⟩ : BufTy).Contents (Elt F) → (⟨S800000x64, .f32⟩ : BufTy).Contents (Elt F)),
    StableHlo.binary main_v508 main_v509 main_v510 (Host.powf : (⟨S800000x64, .f32⟩ : BufTy).Contents (Elt F) → (⟨S800000x64, .f32⟩ : BufTy).Contents (Elt F) → (⟨S800000x64, .f32⟩ : BufTy).Contents (Elt F)),
    StableHlo.nullary main_cst_113 (constant S_ .f32 0x00000000#32),
    StableHlo.unary main_cst_113 main_v511 (broadcastInDim S50000x64 ![] bcast_S_S50000x64 : (⟨S_, .f32⟩ : BufTy).Contents (Elt F) → (⟨S50000x64, .f32⟩ : BufTy).Contents (Elt F)),
    StableHlo.unary main_v1 main_v512 (broadcastInDim S800000x1 ![0] bcast_S800000_S800000x1_0 : (⟨S800000, .i32⟩ : BufTy).Contents (Elt F) → (⟨S800000x1, .i32⟩ : BufTy).Contents (Elt F)),
    StableHlo.ternary main_v511 main_v512 main_v510 main_v513 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.nullary main_cst_114 (constant S_ .f32 0x3F800000#32),
    StableHlo.unary main_cst_114 main_v514 (broadcastInDim S800000 ![] bcast_S_S800000 : (⟨S_, .f32⟩ : BufTy).Contents (Elt F) → (⟨S800000, .f32⟩ : BufTy).Contents (Elt F)),
    StableHlo.nullary main_cst_115 (constant S_ .f32 0x00000000#32),
    StableHlo.unary main_cst_115 main_v515 (broadcastInDim S50000 ![] bcast_S_S50000 : (⟨S_, .f32⟩ : BufTy).Contents (Elt F) → (⟨S50000, .f32⟩ : BufTy).Contents (Elt F)),
    StableHlo.unary main_v1 main_v516 (broadcastInDim S800000x1 ![0] bcast_S800000_S800000x1_0 : (⟨S800000, .i32⟩ : BufTy).Contents (Elt F) → (⟨S800000x1, .i32⟩ : BufTy).Contents (Elt F)),
    StableHlo.ternary main_v515 main_v516 main_v514 main_v517 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_116 (constant S_ .f32 0x3F800000#32),
    StableHlo.unary main_cst_116 main_v518 (broadcastInDim S50000 ![] bcast_S_S50000 : (⟨S_, .f32⟩ : BufTy).Contents (Elt F) → (⟨S50000, .f32⟩ : BufTy).Contents (Elt F)),
    StableHlo.binary main_v517 main_v518 main_v519 (maximumf : (⟨S50000, .f32⟩ : BufTy).Contents (Elt F) → (⟨S50000, .f32⟩ : BufTy).Contents (Elt F) → (⟨S50000, .f32⟩ : BufTy).Contents (Elt F)),
    StableHlo.unary main_v519 main_v520 (broadcastInDim S50000x1 ![0] bcast_S50000_S50000x1_0 : (⟨S50000, .f32⟩ : BufTy).Contents (Elt F) → (⟨S50000x1, .f32⟩ : BufTy).Contents (Elt F)),
    StableHlo.unary main_v520 main_v521 (broadcastInDim S50000x64 ![0, 1] bcast_S50000x1_S50000x64_0_1 : (⟨S50000x1, .f32⟩ : BufTy).Contents (Elt F) → (⟨S50000x64, .f32⟩ : BufTy).Contents (Elt F)),
    StableHlo.binary main_v513 main_v521 main_v522 (Host.divf : (⟨S50000x64, .f32⟩ : BufTy).Contents (Elt F) → (⟨S50000x64, .f32⟩ : BufTy).Contents (Elt F) → (⟨S50000x64, .f32⟩ : BufTy).Contents (Elt F)),
    StableHlo.unary main_v522 main_v523 (Host.tanh : (⟨S50000x64, .f32⟩ : BufTy).Contents (Elt F) → (⟨S50000x64, .f32⟩ : BufTy).Contents (Elt F)),
    StableHlo.nullary main_cst_117 (constant S_ .f32 0x3F800000#32),
    StableHlo.unary main_cst_117 main_v524 (broadcastInDim S50000x64 ![] bcast_S_S50000x64 : (⟨S_, .f32⟩ : BufTy).Contents (Elt F) → (⟨S50000x64, .f32⟩ : BufTy).Contents (Elt F)),
    StableHlo.binary main_v524 main_v523 main_v525 (subf : (⟨S50000x64, .f32⟩ : BufTy).Contents (Elt F) → (⟨S50000x64, .f32⟩ : BufTy).Contents (Elt F) → (⟨S50000x64, .f32⟩ : BufTy).Contents (Elt F)),
    StableHlo.binary main_v525 main_v398 main_v526 (mulf : (⟨S50000x64, .f32⟩ : BufTy).Contents (Elt F) → (⟨S50000x64, .f32⟩ : BufTy).Contents (Elt F) → (⟨S50000x64, .f32⟩ : BufTy).Contents (Elt F)),
    StableHlo.binary main_v523 main_v445 main_v527 (mulf : (⟨S50000x64, .f32⟩ : BufTy).Contents (Elt F) → (⟨S50000x64, .f32⟩ : BufTy).Contents (Elt F) → (⟨S50000x64, .f32⟩ : BufTy).Contents (Elt F)),
    StableHlo.binary main_v526 main_v527 main_v528 (addf : (⟨S50000x64, .f32⟩ : BufTy).Contents (Elt F) → (⟨S50000x64, .f32⟩ : BufTy).Contents (Elt F) → (⟨S50000x64, .f32⟩ : BufTy).Contents (Elt F)) ]

/-- The buffers the stretch writes, in order. -/
abbrev rvL3c_W : List (Ref sig .tc) :=
  [main_c_108, main_v493, main_v494, main_c_109, main_v495, main_v496, main_v497, main_v498, main_v499, main_c_110, main_v500, main_v501, main_c_111, main_v502, main_v503, main_v504, main_v505, main_v506, main_v507, main_v508, main_cst_112, main_v509, main_v510, main_cst_113, main_v511, main_v512, main_v513, main_cst_114, main_v514, main_cst_115, main_v515, main_v516, main_v517, main_cst_116, main_v518, main_v519, main_v520, main_v521, main_v522, main_v523, main_cst_117, main_v524, main_v525, main_v526, main_v527, main_v528]

set_option maxRecDepth 4096 in
/-- Each operation writes one buffer of that list. -/
theorem rvL3c_writes : (rvL3c : List (HloOp τ sig (Elt F))).Forall fun op => op.writes ⊆ (rvL3c_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩

/-- A buffer the stretch does not write keeps its contents through it. -/
theorem rvL3c_keep (V : Valuation τ sig (Elt F)) (r : Ref sig .tc) (h : r ∉ rvL3c_W) :
    after (rvL3c (F := F)) V (Proc.devRef .tc r) = V (Proc.devRef .tc r) :=
  after_of_writes_sub rvL3c V rvL3c_writes h

end

attribute [local irreducible] Host.scatterAdd Host.gather Host.reduceAdd concatenate in
set_option maxRecDepth 8192 in
set_option maxHeartbeats 4000000 in
/-- What the stretch leaves in main_v528, from any contents V. -/
theorem read_L3c_v528 (V : Valuation τ sig (Elt Ideal)) :
    after (rvL3c (F := Ideal)) V (Proc.devRef .tc main_v528 : DevRef τ sig)
      = mix (V (Proc.devRef .tc main_v398 : DevRef τ sig)) (V (Proc.devRef .tc main_v445 : DevRef τ sig)) (V (Proc.devRef .tc main_v492 : DevRef τ sig)) (V (Proc.devRef .tc main_v1 : DevRef τ sig)) (V (Proc.devRef .tc main_v3 : DevRef τ sig)) := by
  simp only [rvL3c]
  after_results_simp
  rfl

end Cert.ReferenceIdeal.RV

end
-- ==== Proof.RVReadL3.lean ====
/- Layer 3 of the reference program as one run: its operation list is the three stretches (convolution, gate's convolution, gate and
   combination) one after the other (each convolution followed by its rectifier), and what the run leaves in the layer's result, from any contents V, is the layer function of
   V's contents at the buffers the layer reads: each stretch's result is read by its own lemma, a buffer a stretch does not write
   is carried through it unchanged. -/
import proofs.«117928_j61658550502081_1_alg».proof.Proof.RVReadL3a
import proofs.«117928_j61658550502081_1_alg».proof.Proof.RVReadL3ar
import proofs.«117928_j61658550502081_1_alg».proof.Proof.RVReadL3b
import proofs.«117928_j61658550502081_1_alg».proof.Proof.RVReadL3br
import proofs.«117928_j61658550502081_1_alg».proof.Proof.RVReadL3c
import proofs.«117928_j61658550502081_1_alg».proof.Proof.RefOpsL3
import Idealize.ShloMosaic.Lib.StableHlo.Run

noncomputable section

namespace Cert.ReferenceIdeal.RV

open Cert.ReferenceIdeal Cert.ReferenceIdeal.Gen Cert.ReferenceIdeal.RefRun Idealize.ShloMosaic Idealize.ShloMosaic.TcCoe Idealize.SL.Sem Idealize.ShloMosaic.StableHlo

set_option maxRecDepth 16384 in
/-- The layer's operations are the three stretches' operations, in order. -/
theorem opsLayer3_eq {F : FTy → Type} [FloatOps F] :
    (opsLayer3 : List (HloOp τ sig (Elt F))) = rvL3a ++ (rvL3ar ++ (rvL3b ++ (rvL3br ++ (rvL3c)))) := rfl

/-- What the layer's run leaves in main_v528, from any contents V. -/
theorem read_layer3 (V : Valuation τ sig (Elt Ideal)) :
    after (opsLayer3 (F := Ideal)) V (Proc.devRef .tc main_v528 : DevRef τ sig)
      = layer (V (Proc.devRef .tc main_v398 : DevRef τ sig)) (convW3 (V (Proc.devRef .tc main_arg5 : DevRef τ sig))) (convb3 (V (Proc.devRef .tc main_arg6 : DevRef τ sig))) (ggW3 (V (Proc.devRef .tc main_arg7 : DevRef τ sig))) (ggb3 (V (Proc.devRef .tc main_arg8 : DevRef τ sig))) (V (Proc.devRef .tc main_v1 : DevRef τ sig)) (V (Proc.devRef .tc main_v3 : DevRef τ sig)) := by
  rw [opsLayer3_eq, after_append, after_append, after_append, after_append, read_L3c_v528]
  rw [rvL3br_keep (F := Ideal) _ main_v398 (by decide),
    rvL3br_keep (F := Ideal) _ main_v445 (by decide),
    read_L3br_v492,
    rvL3br_keep (F := Ideal) _ main_v1 (by decide),
    rvL3br_keep (F := Ideal) _ main_v3 (by decide)]
  rw [rvL3b_keep (F := Ideal) _ main_v398 (by decide),
    rvL3b_keep (F := Ideal) _ main_v445 (by decide),
    read_L3b_v491,
    rvL3b_keep (F := Ideal) _ main_v1 (by decide),
    rvL3b_keep (F := Ideal) _ main_v3 (by decide)]
  rw [rvL3ar_keep (F := Ideal) _ main_v398 (by decide),
    read_L3ar_v445,
    rvL3ar_keep (F := Ideal) _ main_arg7 (by decide),
    rvL3ar_keep (F := Ideal) _ main_arg8 (by decide),
    rvL3ar_keep (F := Ideal) _ main_v1 (by decide),
    rvL3ar_keep (F := Ideal) _ main_v3 (by decide)]
  rw [rvL3a_keep (F := Ideal) _ main_v398 (by decide),
    read_L3a_v444,
    rvL3a_keep (F := Ideal) _ main_arg7 (by decide),
    rvL3a_keep (F := Ideal) _ main_arg8 (by decide),
    rvL3a_keep (F := Ideal) _ main_v1 (by decide),
    rvL3a_keep (F := Ideal) _ main_v3 (by decide)]
  all_goals rfl

end Cert.ReferenceIdeal.RV

end
-- ==== Proof.RVReadT1.lean ====
/- A stretch of the reference program (the pooling and head stage 1: linear map, batch normalisation, rectifier): its 55 operations as a list, in program order and as the program
   writes them (an outlined function's operations stand at its call, over that call's buffers); the buffers they write; and what the
   run of the list from ANY contents V leaves in the stretch's result: the named whole-array function of V's contents at the buffers the
   stretch reads. The fold of the list is unrolled one operation at a time, each operation's function applied to what the
   earlier ones left, and the composed term is the function's definition read literally. -/
import proofs.«117928_j61658550502081_1_alg».proof.Proof.RVDefs
import Idealize.ShloMosaic.Lib.StableHlo.Run

noncomputable section

namespace Cert.ReferenceIdeal.RV

open Cert.ReferenceIdeal Cert.ReferenceIdeal.Gen Idealize.ShloMosaic Idealize.ShloMosaic.TcCoe Idealize.SL.Sem Idealize.ShloMosaic.StableHlo

section
variable {F : FTy → Type} [FloatOps F]

/-- The stretch's 55 operations, in order. -/
abbrev rvT1 : List (HloOp τ sig (Elt F)) :=
  [ StableHlo.nullary main_cst_118 (constant S_ .f32 0x00000000#32),
    StableHlo.unary main_cst_118 main_v529 (broadcastInDim S500x64 ![] bcast_S_S500x64 : (⟨S_, .f32⟩ : BufTy).Contents (Elt F) → (⟨S500x64, .f32⟩ : BufTy).Contents (Elt F)),
    StableHlo.unary main_arg2 main_v530 (broadcastInDim S50000x1 ![0] bcast_S50000_S50000x1_0 : (⟨S50000, .i32⟩ : BufTy).Contents (Elt F) → (⟨S50000x1, .i32⟩ : BufTy).Contents (Elt F)),
    StableHlo.ternary main_v529 main_v530 main_v528 main_v531 ((fun x i u => Host.scatterAdd scatter_S500x64_S50000x1_S50000x64_1_0_0_1 x i u) : (⟨S500x64, .f32⟩ : BufTy).Contents (Elt F) → (⟨S50000x1, .i32⟩ : BufTy).Contents (Elt F) → (⟨S50000x64, .f32⟩ : BufTy).Contents (Elt F) → (⟨S500x64, .f32⟩ : BufTy).Contents (Elt F)),
    StableHlo.binary main_v531 main_arg9 main_v532 ((fun l r => Host.dotGeneral dot_S500x64_S64x64_S500x64_1_0_0_1_n_n none l r) : (⟨S500x64, .f32⟩ : BufTy).Contents (Elt F) → (⟨S64x64, .f32⟩ : BufTy).Contents (Elt F) → (⟨S500x64, .f32⟩ : BufTy).Contents (Elt F)),
    StableHlo.unary main_arg10 main_v533 (broadcastInDim S1x64 ![1] bcast_S64_S1x64_1 : (⟨S64, .f32⟩ : BufTy).Contents (Elt F) → (⟨S1x64, .f32⟩ : BufTy).Contents (Elt F)),
    StableHlo.unary main_v533 main_v534 (broadcastInDim S500x64 ![0, 1] bcast_S1x64_S500x64_0_1 : (⟨S1x64, .f32⟩ : BufTy).Contents (Elt F) → (⟨S500x64, .f32⟩ : BufTy).Contents (Elt F)),
    StableHlo.binary main_v532 main_v534 main_v535 (addf : (⟨S500x64, .f32⟩ : BufTy).Contents (Elt F) → (⟨S500x64, .f32⟩ : BufTy).Contents (Elt F) → (⟨S500x64, .f32⟩ : BufTy).Contents (Elt F)),
    StableHlo.nullary main_cst_119 (constant S_ .f32 0x00000000#32),
    StableHlo.binary main_v535 main_cst_119 main_v536 ((fun x v => Host.reduceAdd x v reducesTo_S500x64_S64_d0 h_S_) : (⟨S500x64, .f32⟩ : BufTy).Contents (Elt F) → (⟨S_, .f32⟩ : BufTy).Contents (Elt F) → (⟨S64, .f32⟩ : BufTy).Contents (Elt F)),
    StableHlo.nullary main_cst_120 (constant S_ .f32 0x43FA0000#32),
    StableHlo.unary main_cst_120 main_v537 (broadcastInDim S64 ![] bcast_S_S64 : (⟨S_, .f32⟩ : BufTy).Contents (Elt F) → (⟨S64, .f32⟩ : BufTy).Contents (Elt F)),
    StableHlo.binary main_v536 main_v537 main_v538 (Host.divf : (⟨S64, .f32⟩ : BufTy).Contents (Elt F) → (⟨S64, .f32⟩ : BufTy).Contents (Elt F) → (⟨S64, .f32⟩ : BufTy).Contents (Elt F)),
    StableHlo.nullary main_c_121 (constantI S_ 32 0#32),
    StableHlo.TRef.nullary main_call9.cst (constant S_ .f32 0x00000000#32),
    StableHlo.TRef.binary (.of main_v535 : StableHlo.TRef sig ⟨S500x64, .f32⟩) main_call9.cst main_call9.v0 (fun x v => Host.reduceAdd x v reducesTo_S500x64_S64_d0 h_S_),
    StableHlo.TRef.unary main_call9.v0 main_call9.v1 (broadcastInDim S1x64 ![1] bcast_S64_S1x64_1),
    StableHlo.TRef.nullary main_call9.cst_0 (constant S_ .f32 0x43FA0000#32),
    StableHlo.TRef.unary main_call9.cst_0 main_call9.v2 (broadcastInDim S1x64 ![] bcast_S_S1x64),
    StableHlo.TRef.binary main_call9.v1 main_call9.v2 main_call9.v3 Host.divf,
    StableHlo.TRef.unary main_call9.v3 main_call9.v4 (broadcastInDim S500x64 ![0, 1] bcast_S1x64_S500x64_0_1),
    StableHlo.TRef.binary (.of main_v535 : StableHlo.TRef sig ⟨S500x64, .f32⟩) main_call9.v4 main_call9.v5 subf,
    StableHlo.TRef.binary main_call9.v5 main_call9.v5 main_call9.v6 mulf,
    StableHlo.TRef.unary (.of main_c_121 : StableHlo.TRef sig ⟨S_, .i32⟩) main_call9.v7 (sitofp .f32),
    StableHlo.TRef.nullary main_call9.cst_1 (constant S_ .f32 0x43FA0000#32),
    StableHlo.TRef.binary main_call9.cst_1 main_call9.v7 main_call9.v8 subf,
    StableHlo.TRef.nullary main_call9.cst_2 (constant S_ .f32 0x00000000#32),
    StableHlo.TRef.binary main_call9.v6 main_call9.cst_2 main_call9.v9 (fun x v => Host.reduceAdd x v reducesTo_S500x64_S64_d0 h_S_),
    StableHlo.TRef.unary main_call9.v8 main_call9.v10 (broadcastInDim S64 ![] bcast_S_S64),
    StableHlo.TRef.binary main_call9.v9 main_call9.v10 main_call9.v11 Host.divf,
    StableHlo.TRef.nullary main_call9.cst_3 (constant S_ .f32 0x00000000#32),
    StableHlo.TRef.binary main_call9.v8 main_call9.cst_3 main_call9.v12 (cmpf .ogt),
    StableHlo.TRef.nullary main_call9.cst_4 (constant S_ .f32 0x7FC00000#32),
    StableHlo.TRef.unary main_call9.cst_4 main_call9.call0.v0 id,
    StableHlo.TRef.unary main_call9.call0.v0 main_call9.call0.v1 (broadcastInDim S64 ![] bcast_S_S64),
    StableHlo.TRef.ternary main_call9.v12 main_call9.v11 main_call9.call0.v1 main_call9.call0.v2 (fun p a b => select (broadcastInDim S64 ![] bcast_S_S64 p) a b),
    StableHlo.unary main_v538 main_v540 (broadcastInDim S1x64 ![1] bcast_S64_S1x64_1 : (⟨S64, .f32⟩ : BufTy).Contents (Elt F) → (⟨S1x64, .f32⟩ : BufTy).Contents (Elt F)),
    StableHlo.unary main_v540 main_v541 (broadcastInDim S500x64 ![0, 1] bcast_S1x64_S500x64_0_1 : (⟨S1x64, .f32⟩ : BufTy).Contents (Elt F) → (⟨S500x64, .f32⟩ : BufTy).Contents (Elt F)),
    StableHlo.binary main_v535 main_v541 main_v542 (subf : (⟨S500x64, .f32⟩ : BufTy).Contents (Elt F) → (⟨S500x64, .f32⟩ : BufTy).Contents (Elt F) → (⟨S500x64, .f32⟩ : BufTy).Contents (Elt F)),
    StableHlo.nullary main_cst_122 (constant S_ .f32 0x3727C5AC#32),
    StableHlo.unary main_cst_122 main_v543 (broadcastInDim S64 ![] bcast_S_S64 : (⟨S_, .f32⟩ : BufTy).Contents (Elt F) → (⟨S64, .f32⟩ : BufTy).Contents (Elt F)),
    StableHlo.binary main_v539 main_v543 main_v544 (addf : (⟨S64, .f32⟩ : BufTy).Contents (Elt F) → (⟨S64, .f32⟩ : BufTy).Contents (Elt F) → (⟨S64, .f32⟩ : BufTy).Contents (Elt F)),
    StableHlo.unary main_v544 main_v545 (Host.rsqrt : (⟨S64, .f32⟩ : BufTy).Contents (Elt F) → (⟨S64, .f32⟩ : BufTy).Contents (Elt F)),
    StableHlo.unary main_v545 main_v546 (broadcastInDim S1x64 ![1] bcast_S64_S1x64_1 : (⟨S64, .f32⟩ : BufTy).Contents (Elt F) → (⟨S1x64, .f32⟩ : BufTy).Contents (Elt F)),
    StableHlo.unary main_v546 main_v547 (broadcastInDim S500x64 ![0, 1] bcast_S1x64_S500x64_0_1 : (⟨S1x64, .f32⟩ : BufTy).Contents (Elt F) → (⟨S500x64, .f32⟩ : BufTy).Contents (Elt F)),
    StableHlo.binary main_v542 main_v547 main_v548 (mulf : (⟨S500x64, .f32⟩ : BufTy).Contents (Elt F) → (⟨S500x64, .f32⟩ : BufTy).Contents (Elt F) → (⟨S500x64, .f32⟩ : BufTy).Contents (Elt F)),
    StableHlo.unary main_arg17 main_v549 (broadcastInDim S1x64 ![1] bcast_S64_S1x64_1 : (⟨S64, .f32⟩ : BufTy).Contents (Elt F) → (⟨S1x64, .f32⟩ : BufTy).Contents (Elt F)),
    StableHlo.unary main_v549 main_v550 (broadcastInDim S500x64 ![0, 1] bcast_S1x64_S500x64_0_1 : (⟨S1x64, .f32⟩ : BufTy).Contents (Elt F) → (⟨S500x64, .f32⟩ : BufTy).Contents (Elt F)),
    StableHlo.binary main_v548 main_v550 main_v551 (mulf : (⟨S500x64, .f32⟩ : BufTy).Contents (Elt F) → (⟨S500x64, .f32⟩ : BufTy).Contents (Elt F) → (⟨S500x64, .f32⟩ : BufTy).Contents (Elt F)),
    StableHlo.unary main_arg18 main_v552 (broadcastInDim S1x64 ![1] bcast_S64_S1x64_1 : (⟨S64, .f32⟩ : BufTy).Contents (Elt F) → (⟨S1x64, .f32⟩ : BufTy).Contents (Elt F)),
    StableHlo.unary main_v552 main_v553 (broadcastInDim S500x64 ![0, 1] bcast_S1x64_S500x64_0_1 : (⟨S1x64, .f32⟩ : BufTy).Contents (Elt F) → (⟨S500x64, .f32⟩ : BufTy).Contents (Elt F)),
    StableHlo.binary main_v551 main_v553 main_v554 (addf : (⟨S500x64, .f32⟩ : BufTy).Contents (Elt F) → (⟨S500x64, .f32⟩ : BufTy).Contents (Elt F) → (⟨S500x64, .f32⟩ : BufTy).Contents (Elt F)),
    StableHlo.TRef.nullary main_call10.cst (constant S_ .f32 0x00000000#32),
    StableHlo.TRef.unary main_call10.cst main_call10.v0 (broadcastInDim S500x64 ![] bcast_S_S500x64),
    StableHlo.TRef.binary (.of main_v554 : StableHlo.TRef sig ⟨S500x64, .f32⟩) main_call10.v0 main_call10.v1 maximumf ]

/-- The buffers the stretch writes, in order. -/
abbrev rvT1_W : List (Ref sig .tc) :=
  [main_cst_118, main_v529, main_v530, main_v531, main_v532, main_v533, main_v534, main_v535, main_cst_119, main_v536, main_cst_120, main_v537, main_v538, main_c_121, main_call9_cst, main_call9_v0, main_call9_v1, main_call9_cst_0, main_call9_v2, main_call9_v3, main_call9_v4, main_call9_v5, main_call9_v6, main_call9_v7, main_call9_cst_1, main_call9_v8, main_call9_cst_2, main_call9_v9, main_call9_v10, main_call9_v11, main_call9_cst_3, main_call9_v12, main_call9_cst_4, main_call9_call0_v0, main_call9_call0_v1, main_v539, main_v540, main_v541, main_v542, main_cst_122, main_v543, main_v544, main_v545, main_v546, main_v547, main_v548, main_v549, main_v550, main_v551, main_v552, main_v553, main_v554, main_call10_cst, main_call10_v0, main_v555]

set_option maxRecDepth 4096 in
/-- Each operation writes one buffer of that list. -/
theorem rvT1_writes : (rvT1 : List (HloOp τ sig (Elt F))).Forall fun op => op.writes ⊆ (rvT1_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩

/-- A buffer the stretch does not write keeps its contents through it. -/
theorem rvT1_keep (V : Valuation τ sig (Elt F)) (r : Ref sig .tc) (h : r ∉ rvT1_W) :
    after (rvT1 (F := F)) V (Proc.devRef .tc r) = V (Proc.devRef .tc r) :=
  after_of_writes_sub rvT1 V rvT1_writes h

end

attribute [local irreducible] Host.scatterAdd Host.gather Host.reduceAdd concatenate in
set_option maxRecDepth 8192 in
set_option maxHeartbeats 4000000 in
/-- What the stretch leaves in main_v555, from any contents V. -/
theorem read_T1_v555 (V : Valuation τ sig (Elt Ideal)) :
    after (rvT1 (F := Ideal)) V (Proc.devRef .tc main_v555 : DevRef τ sig)
      = bnrelu (lin (pool (V (Proc.devRef .tc main_v528 : DevRef τ sig)) (V (Proc.devRef .tc main_arg2 : DevRef τ sig))) (V (Proc.devRef .tc main_arg9 : DevRef τ sig)) (V (Proc.devRef .tc main_arg10 : DevRef τ sig))) (V (Proc.devRef .tc main_arg17 : DevRef τ sig)) (V (Proc.devRef .tc main_arg18 : DevRef τ sig)) := by
  simp only [rvT1]
  after_results_simp
  rfl

end Cert.ReferenceIdeal.RV

end
-- ==== Proof.RVReadT2.lean ====
/- A stretch of the reference program (head stage 2: linear map, batch normalisation, rectifier): its 51 operations as a list, in program order and as the program
   writes them (an outlined function's operations stand at its call, over that call's buffers); the buffers they write; and what the
   run of the list from ANY contents V leaves in the stretch's result: the named whole-array function of V's contents at the buffers the
   stretch reads. The fold of the list is unrolled one operation at a time, each operation's function applied to what the
   earlier ones left, and the composed term is the function's definition read literally. -/
import proofs.«117928_j61658550502081_1_alg».proof.Proof.RVDefs
import Idealize.ShloMosaic.Lib.StableHlo.Run

noncomputable section

namespace Cert.ReferenceIdeal.RV

open Cert.ReferenceIdeal Cert.ReferenceIdeal.Gen Idealize.ShloMosaic Idealize.ShloMosaic.TcCoe Idealize.SL.Sem Idealize.ShloMosaic.StableHlo

section
variable {F : FTy → Type} [FloatOps F]

/-- The stretch's 51 operations, in order. -/
abbrev rvT2 : List (HloOp τ sig (Elt F)) :=
  [ StableHlo.binary main_v555 main_arg11 main_v556 ((fun l r => Host.dotGeneral dot_S500x64_S64x64_S500x64_1_0_0_1_n_n none l r) : (⟨S500x64, .f32⟩ : BufTy).Contents (Elt F) → (⟨S64x64, .f32⟩ : BufTy).Contents (Elt F) → (⟨S500x64, .f32⟩ : BufTy).Contents (Elt F)),
    StableHlo.unary main_arg12 main_v557 (broadcastInDim S1x64 ![1] bcast_S64_S1x64_1 : (⟨S64, .f32⟩ : BufTy).Contents (Elt F) → (⟨S1x64, .f32⟩ : BufTy).Contents (Elt F)),
    StableHlo.unary main_v557 main_v558 (broadcastInDim S500x64 ![0, 1] bcast_S1x64_S500x64_0_1 : (⟨S1x64, .f32⟩ : BufTy).Contents (Elt F) → (⟨S500x64, .f32⟩ : BufTy).Contents (Elt F)),
    StableHlo.binary main_v556 main_v558 main_v559 (addf : (⟨S500x64, .f32⟩ : BufTy).Contents (Elt F) → (⟨S500x64, .f32⟩ : BufTy).Contents (Elt F) → (⟨S500x64, .f32⟩ : BufTy).Contents (Elt F)),
    StableHlo.nullary main_cst_123 (constant S_ .f32 0x00000000#32),
    StableHlo.binary main_v559 main_cst_123 main_v560 ((fun x v => Host.reduceAdd x v reducesTo_S500x64_S64_d0 h_S_) : (⟨S500x64, .f32⟩ : BufTy).Contents (Elt F) → (⟨S_, .f32⟩ : BufTy).Contents (Elt F) → (⟨S64, .f32⟩ : BufTy).Contents (Elt F)),
    StableHlo.nullary main_cst_124 (constant S_ .f32 0x43FA0000#32),
    StableHlo.unary main_cst_124 main_v561 (broadcastInDim S64 ![] bcast_S_S64 : (⟨S_, .f32⟩ : BufTy).Contents (Elt F) → (⟨S64, .f32⟩ : BufTy).Contents (Elt F)),
    StableHlo.binary main_v560 main_v561 main_v562 (Host.divf : (⟨S64, .f32⟩ : BufTy).Contents (Elt F) → (⟨S64, .f32⟩ : BufTy).Contents (Elt F) → (⟨S64, .f32⟩ : BufTy).Contents (Elt F)),
    StableHlo.nullary main_c_125 (constantI S_ 32 0#32),
    StableHlo.TRef.nullary main_call11.cst (constant S_ .f32 0x00000000#32),
    StableHlo.TRef.binary (.of main_v559 : StableHlo.TRef sig ⟨S500x64, .f32⟩) main_call11.cst main_call11.v0 (fun x v => Host.reduceAdd x v reducesTo_S500x64_S64_d0 h_S_),
    StableHlo.TRef.unary main_call11.v0 main_call11.v1 (broadcastInDim S1x64 ![1] bcast_S64_S1x64_1),
    StableHlo.TRef.nullary main_call11.cst_0 (constant S_ .f32 0x43FA0000#32),
    StableHlo.TRef.unary main_call11.cst_0 main_call11.v2 (broadcastInDim S1x64 ![] bcast_S_S1x64),
    StableHlo.TRef.binary main_call11.v1 main_call11.v2 main_call11.v3 Host.divf,
    StableHlo.TRef.unary main_call11.v3 main_call11.v4 (broadcastInDim S500x64 ![0, 1] bcast_S1x64_S500x64_0_1),
    StableHlo.TRef.binary (.of main_v559 : StableHlo.TRef sig ⟨S500x64, .f32⟩) main_call11.v4 main_call11.v5 subf,
    StableHlo.TRef.binary main_call11.v5 main_call11.v5 main_call11.v6 mulf,
    StableHlo.TRef.unary (.of main_c_125 : StableHlo.TRef sig ⟨S_, .i32⟩) main_call11.v7 (sitofp .f32),
    StableHlo.TRef.nullary main_call11.cst_1 (constant S_ .f32 0x43FA0000#32),
    StableHlo.TRef.binary main_call11.cst_1 main_call11.v7 main_call11.v8 subf,
    StableHlo.TRef.nullary main_call11.cst_2 (constant S_ .f32 0x00000000#32),
    StableHlo.TRef.binary main_call11.v6 main_call11.cst_2 main_call11.v9 (fun x v => Host.reduceAdd x v reducesTo_S500x64_S64_d0 h_S_),
    StableHlo.TRef.unary main_call11.v8 main_call11.v10 (broadcastInDim S64 ![] bcast_S_S64),
    StableHlo.TRef.binary main_call11.v9 main_call11.v10 main_call11.v11 Host.divf,
    StableHlo.TRef.nullary main_call11.cst_3 (constant S_ .f32 0x00000000#32),
    StableHlo.TRef.binary main_call11.v8 main_call11.cst_3 main_call11.v12 (cmpf .ogt),
    StableHlo.TRef.nullary main_call11.cst_4 (constant S_ .f32 0x7FC00000#32),
    StableHlo.TRef.unary main_call11.cst_4 main_call11.call0.v0 id,
    StableHlo.TRef.unary main_call11.call0.v0 main_call11.call0.v1 (broadcastInDim S64 ![] bcast_S_S64),
    StableHlo.TRef.ternary main_call11.v12 main_call11.v11 main_call11.call0.v1 main_call11.call0.v2 (fun p a b => select (broadcastInDim S64 ![] bcast_S_S64 p) a b),
    StableHlo.unary main_v562 main_v564 (broadcastInDim S1x64 ![1] bcast_S64_S1x64_1 : (⟨S64, .f32⟩ : BufTy).Contents (Elt F) → (⟨S1x64, .f32⟩ : BufTy).Contents (Elt F)),
    StableHlo.unary main_v564 main_v565 (broadcastInDim S500x64 ![0, 1] bcast_S1x64_S500x64_0_1 : (⟨S1x64, .f32⟩ : BufTy).Contents (Elt F) → (⟨S500x64, .f32⟩ : BufTy).Contents (Elt F)),
    StableHlo.binary main_v559 main_v565 main_v566 (subf : (⟨S500x64, .f32⟩ : BufTy).Contents (Elt F) → (⟨S500x64, .f32⟩ : BufTy).Contents (Elt F) → (⟨S500x64, .f32⟩ : BufTy).Contents (Elt F)),
    StableHlo.nullary main_cst_126 (constant S_ .f32 0x3727C5AC#32),
    StableHlo.unary main_cst_126 main_v567 (broadcastInDim S64 ![] bcast_S_S64 : (⟨S_, .f32⟩ : BufTy).Contents (Elt F) → (⟨S64, .f32⟩ : BufTy).Contents (Elt F)),
    StableHlo.binary main_v563 main_v567 main_v568 (addf : (⟨S64, .f32⟩ : BufTy).Contents (Elt F) → (⟨S64, .f32⟩ : BufTy).Contents (Elt F) → (⟨S64, .f32⟩ : BufTy).Contents (Elt F)),
    StableHlo.unary main_v568 main_v569 (Host.rsqrt : (⟨S64, .f32⟩ : BufTy).Contents (Elt F) → (⟨S64, .f32⟩ : BufTy).Contents (Elt F)),
    StableHlo.unary main_v569 main_v570 (broadcastInDim S1x64 ![1] bcast_S64_S1x64_1 : (⟨S64, .f32⟩ : BufTy).Contents (Elt F) → (⟨S1x64, .f32⟩ : BufTy).Contents (Elt F)),
    StableHlo.unary main_v570 main_v571 (broadcastInDim S500x64 ![0, 1] bcast_S1x64_S500x64_0_1 : (⟨S1x64, .f32⟩ : BufTy).Contents (Elt F) → (⟨S500x64, .f32⟩ : BufTy).Contents (Elt F)),
    StableHlo.binary main_v566 main_v571 main_v572 (mulf : (⟨S500x64, .f32⟩ : BufTy).Contents (Elt F) → (⟨S500x64, .f32⟩ : BufTy).Contents (Elt F) → (⟨S500x64, .f32⟩ : BufTy).Contents (Elt F)),
    StableHlo.unary main_arg17 main_v573 (broadcastInDim S1x64 ![1] bcast_S64_S1x64_1 : (⟨S64, .f32⟩ : BufTy).Contents (Elt F) → (⟨S1x64, .f32⟩ : BufTy).Contents (Elt F)),
    StableHlo.unary main_v573 main_v574 (broadcastInDim S500x64 ![0, 1] bcast_S1x64_S500x64_0_1 : (⟨S1x64, .f32⟩ : BufTy).Contents (Elt F) → (⟨S500x64, .f32⟩ : BufTy).Contents (Elt F)),
    StableHlo.binary main_v572 main_v574 main_v575 (mulf : (⟨S500x64, .f32⟩ : BufTy).Contents (Elt F) → (⟨S500x64, .f32⟩ : BufTy).Contents (Elt F) → (⟨S500x64, .f32⟩ : BufTy).Contents (Elt F)),
    StableHlo.unary main_arg18 main_v576 (broadcastInDim S1x64 ![1] bcast_S64_S1x64_1 : (⟨S64, .f32⟩ : BufTy).Contents (Elt F) → (⟨S1x64, .f32⟩ : BufTy).Contents (Elt F)),
    StableHlo.unary main_v576 main_v577 (broadcastInDim S500x64 ![0, 1] bcast_S1x64_S500x64_0_1 : (⟨S1x64, .f32⟩ : BufTy).Contents (Elt F) → (⟨S500x64, .f32⟩ : BufTy).Contents (Elt F)),
    StableHlo.binary main_v575 main_v577 main_v578 (addf : (⟨S500x64, .f32⟩ : BufTy).Contents (Elt F) → (⟨S500x64, .f32⟩ : BufTy).Contents (Elt F) → (⟨S500x64, .f32⟩ : BufTy).Contents (Elt F)),
    StableHlo.TRef.nullary main_call12.cst (constant S_ .f32 0x00000000#32),
    StableHlo.TRef.unary main_call12.cst main_call12.v0 (broadcastInDim S500x64 ![] bcast_S_S500x64),
    StableHlo.TRef.binary (.of main_v578 : StableHlo.TRef sig ⟨S500x64, .f32⟩) main_call12.v0 main_call12.v1 maximumf ]

/-- The buffers the stretch writes, in order. -/
abbrev rvT2_W : List (Ref sig .tc) :=
  [main_v556, main_v557, main_v558, main_v559, main_cst_123, main_v560, main_cst_124, main_v561, main_v562, main_c_125, main_call11_cst, main_call11_v0, main_call11_v1, main_call11_cst_0, main_call11_v2, main_call11_v3, main_call11_v4, main_call11_v5, main_call11_v6, main_call11_v7, main_call11_cst_1, main_call11_v8, main_call11_cst_2, main_call11_v9, main_call11_v10, main_call11_v11, main_call11_cst_3, main_call11_v12, main_call11_cst_4, main_call11_call0_v0, main_call11_call0_v1, main_v563, main_v564, main_v565, main_v566, main_cst_126, main_v567, main_v568, main_v569, main_v570, main_v571, main_v572, main_v573, main_v574, main_v575, main_v576, main_v577, main_v578, main_call12_cst, main_call12_v0, main_v579]

set_option maxRecDepth 4096 in
/-- Each operation writes one buffer of that list. -/
theorem rvT2_writes : (rvT2 : List (HloOp τ sig (Elt F))).Forall fun op => op.writes ⊆ (rvT2_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩

/-- A buffer the stretch does not write keeps its contents through it. -/
theorem rvT2_keep (V : Valuation τ sig (Elt F)) (r : Ref sig .tc) (h : r ∉ rvT2_W) :
    after (rvT2 (F := F)) V (Proc.devRef .tc r) = V (Proc.devRef .tc r) :=
  after_of_writes_sub rvT2 V rvT2_writes h

end

attribute [local irreducible] Host.scatterAdd Host.gather Host.reduceAdd concatenate in
set_option maxRecDepth 8192 in
set_option maxHeartbeats 4000000 in
/-- What the stretch leaves in main_v579, from any contents V. -/
theorem read_T2_v579 (V : Valuation τ sig (Elt Ideal)) :
    after (rvT2 (F := Ideal)) V (Proc.devRef .tc main_v579 : DevRef τ sig)
      = bnrelu (lin (V (Proc.devRef .tc main_v555 : DevRef τ sig)) (V (Proc.devRef .tc main_arg11 : DevRef τ sig)) (V (Proc.devRef .tc main_arg12 : DevRef τ sig))) (V (Proc.devRef .tc main_arg17 : DevRef τ sig)) (V (Proc.devRef .tc main_arg18 : DevRef τ sig)) := by
  simp only [rvT2]
  after_results_simp
  rfl

end Cert.ReferenceIdeal.RV

end
-- ==== Proof.RVReadT3.lean ====
/- A stretch of the reference program (head stage 3: linear map, batch normalisation, rectifier): its 51 operations as a list, in program order and as the program
   writes them (an outlined function's operations stand at its call, over that call's buffers); the buffers they write; and what the
   run of the list from ANY contents V leaves in the stretch's result: the named whole-array function of V's contents at the buffers the
   stretch reads. The fold of the list is unrolled one operation at a time, each operation's function applied to what the
   earlier ones left, and the composed term is the function's definition read literally. -/
import proofs.«117928_j61658550502081_1_alg».proof.Proof.RVDefs
import Idealize.ShloMosaic.Lib.StableHlo.Run

noncomputable section

namespace Cert.ReferenceIdeal.RV

open Cert.ReferenceIdeal Cert.ReferenceIdeal.Gen Idealize.ShloMosaic Idealize.ShloMosaic.TcCoe Idealize.SL.Sem Idealize.ShloMosaic.StableHlo

section
variable {F : FTy → Type} [FloatOps F]

/-- The stretch's 51 operations, in order. -/
abbrev rvT3 : List (HloOp τ sig (Elt F)) :=
  [ StableHlo.binary main_v579 main_arg13 main_v580 ((fun l r => Host.dotGeneral dot_S500x64_S64x64_S500x64_1_0_0_1_n_n none l r) : (⟨S500x64, .f32⟩ : BufTy).Contents (Elt F) → (⟨S64x64, .f32⟩ : BufTy).Contents (Elt F) → (⟨S500x64, .f32⟩ : BufTy).Contents (Elt F)),
    StableHlo.unary main_arg14 main_v581 (broadcastInDim S1x64 ![1] bcast_S64_S1x64_1 : (⟨S64, .f32⟩ : BufTy).Contents (Elt F) → (⟨S1x64, .f32⟩ : BufTy).Contents (Elt F)),
    StableHlo.unary main_v581 main_v582 (broadcastInDim S500x64 ![0, 1] bcast_S1x64_S500x64_0_1 : (⟨S1x64, .f32⟩ : BufTy).Contents (Elt F) → (⟨S500x64, .f32⟩ : BufTy).Contents (Elt F)),
    StableHlo.binary main_v580 main_v582 main_v583 (addf : (⟨S500x64, .f32⟩ : BufTy).Contents (Elt F) → (⟨S500x64, .f32⟩ : BufTy).Contents (Elt F) → (⟨S500x64, .f32⟩ : BufTy).Contents (Elt F)),
    StableHlo.nullary main_cst_127 (constant S_ .f32 0x00000000#32),
    StableHlo.binary main_v583 main_cst_127 main_v584 ((fun x v => Host.reduceAdd x v reducesTo_S500x64_S64_d0 h_S_) : (⟨S500x64, .f32⟩ : BufTy).Contents (Elt F) → (⟨S_, .f32⟩ : BufTy).Contents (Elt F) → (⟨S64, .f32⟩ : BufTy).Contents (Elt F)),
    StableHlo.nullary main_cst_128 (constant S_ .f32 0x43FA0000#32),
    StableHlo.unary main_cst_128 main_v585 (broadcastInDim S64 ![] bcast_S_S64 : (⟨S_, .f32⟩ : BufTy).Contents (Elt F) → (⟨S64, .f32⟩ : BufTy).Contents (Elt F)),
    StableHlo.binary main_v584 main_v585 main_v586 (Host.divf : (⟨S64, .f32⟩ : BufTy).Contents (Elt F) → (⟨S64, .f32⟩ : BufTy).Contents (Elt F) → (⟨S64, .f32⟩ : BufTy).Contents (Elt F)),
    StableHlo.nullary main_c_129 (constantI S_ 32 0#32),
    StableHlo.TRef.nullary main_call13.cst (constant S_ .f32 0x00000000#32),
    StableHlo.TRef.binary (.of main_v583 : StableHlo.TRef sig ⟨S500x64, .f32⟩) main_call13.cst main_call13.v0 (fun x v => Host.reduceAdd x v reducesTo_S500x64_S64_d0 h_S_),
    StableHlo.TRef.unary main_call13.v0 main_call13.v1 (broadcastInDim S1x64 ![1] bcast_S64_S1x64_1),
    StableHlo.TRef.nullary main_call13.cst_0 (constant S_ .f32 0x43FA0000#32),
    StableHlo.TRef.unary main_call13.cst_0 main_call13.v2 (broadcastInDim S1x64 ![] bcast_S_S1x64),
    StableHlo.TRef.binary main_call13.v1 main_call13.v2 main_call13.v3 Host.divf,
    StableHlo.TRef.unary main_call13.v3 main_call13.v4 (broadcastInDim S500x64 ![0, 1] bcast_S1x64_S500x64_0_1),
    StableHlo.TRef.binary (.of main_v583 : StableHlo.TRef sig ⟨S500x64, .f32⟩) main_call13.v4 main_call13.v5 subf,
    StableHlo.TRef.binary main_call13.v5 main_call13.v5 main_call13.v6 mulf,
    StableHlo.TRef.unary (.of main_c_129 : StableHlo.TRef sig ⟨S_, .i32⟩) main_call13.v7 (sitofp .f32),
    StableHlo.TRef.nullary main_call13.cst_1 (constant S_ .f32 0x43FA0000#32),
    StableHlo.TRef.binary main_call13.cst_1 main_call13.v7 main_call13.v8 subf,
    StableHlo.TRef.nullary main_call13.cst_2 (constant S_ .f32 0x00000000#32),
    StableHlo.TRef.binary main_call13.v6 main_call13.cst_2 main_call13.v9 (fun x v => Host.reduceAdd x v reducesTo_S500x64_S64_d0 h_S_),
    StableHlo.TRef.unary main_call13.v8 main_call13.v10 (broadcastInDim S64 ![] bcast_S_S64),
    StableHlo.TRef.binary main_call13.v9 main_call13.v10 main_call13.v11 Host.divf,
    StableHlo.TRef.nullary main_call13.cst_3 (constant S_ .f32 0x00000000#32),
    StableHlo.TRef.binary main_call13.v8 main_call13.cst_3 main_call13.v12 (cmpf .ogt),
    StableHlo.TRef.nullary main_call13.cst_4 (constant S_ .f32 0x7FC00000#32),
    StableHlo.TRef.unary main_call13.cst_4 main_call13.call0.v0 id,
    StableHlo.TRef.unary main_call13.call0.v0 main_call13.call0.v1 (broadcastInDim S64 ![] bcast_S_S64),
    StableHlo.TRef.ternary main_call13.v12 main_call13.v11 main_call13.call0.v1 main_call13.call0.v2 (fun p a b => select (broadcastInDim S64 ![] bcast_S_S64 p) a b),
    StableHlo.unary main_v586 main_v588 (broadcastInDim S1x64 ![1] bcast_S64_S1x64_1 : (⟨S64, .f32⟩ : BufTy).Contents (Elt F) → (⟨S1x64, .f32⟩ : BufTy).Contents (Elt F)),
    StableHlo.unary main_v588 main_v589 (broadcastInDim S500x64 ![0, 1] bcast_S1x64_S500x64_0_1 : (⟨S1x64, .f32⟩ : BufTy).Contents (Elt F) → (⟨S500x64, .f32⟩ : BufTy).Contents (Elt F)),
    StableHlo.binary main_v583 main_v589 main_v590 (subf : (⟨S500x64, .f32⟩ : BufTy).Contents (Elt F) → (⟨S500x64, .f32⟩ : BufTy).Contents (Elt F) → (⟨S500x64, .f32⟩ : BufTy).Contents (Elt F)),
    StableHlo.nullary main_cst_130 (constant S_ .f32 0x3727C5AC#32),
    StableHlo.unary main_cst_130 main_v591 (broadcastInDim S64 ![] bcast_S_S64 : (⟨S_, .f32⟩ : BufTy).Contents (Elt F) → (⟨S64, .f32⟩ : BufTy).Contents (Elt F)),
    StableHlo.binary main_v587 main_v591 main_v592 (addf : (⟨S64, .f32⟩ : BufTy).Contents (Elt F) → (⟨S64, .f32⟩ : BufTy).Contents (Elt F) → (⟨S64, .f32⟩ : BufTy).Contents (Elt F)),
    StableHlo.unary main_v592 main_v593 (Host.rsqrt : (⟨S64, .f32⟩ : BufTy).Contents (Elt F) → (⟨S64, .f32⟩ : BufTy).Contents (Elt F)),
    StableHlo.unary main_v593 main_v594 (broadcastInDim S1x64 ![1] bcast_S64_S1x64_1 : (⟨S64, .f32⟩ : BufTy).Contents (Elt F) → (⟨S1x64, .f32⟩ : BufTy).Contents (Elt F)),
    StableHlo.unary main_v594 main_v595 (broadcastInDim S500x64 ![0, 1] bcast_S1x64_S500x64_0_1 : (⟨S1x64, .f32⟩ : BufTy).Contents (Elt F) → (⟨S500x64, .f32⟩ : BufTy).Contents (Elt F)),
    StableHlo.binary main_v590 main_v595 main_v596 (mulf : (⟨S500x64, .f32⟩ : BufTy).Contents (Elt F) → (⟨S500x64, .f32⟩ : BufTy).Contents (Elt F) → (⟨S500x64, .f32⟩ : BufTy).Contents (Elt F)),
    StableHlo.unary main_arg17 main_v597 (broadcastInDim S1x64 ![1] bcast_S64_S1x64_1 : (⟨S64, .f32⟩ : BufTy).Contents (Elt F) → (⟨S1x64, .f32⟩ : BufTy).Contents (Elt F)),
    StableHlo.unary main_v597 main_v598 (broadcastInDim S500x64 ![0, 1] bcast_S1x64_S500x64_0_1 : (⟨S1x64, .f32⟩ : BufTy).Contents (Elt F) → (⟨S500x64, .f32⟩ : BufTy).Contents (Elt F)),
    StableHlo.binary main_v596 main_v598 main_v599 (mulf : (⟨S500x64, .f32⟩ : BufTy).Contents (Elt F) → (⟨S500x64, .f32⟩ : BufTy).Contents (Elt F) → (⟨S500x64, .f32⟩ : BufTy).Contents (Elt F)),
    StableHlo.unary main_arg18 main_v600 (broadcastInDim S1x64 ![1] bcast_S64_S1x64_1 : (⟨S64, .f32⟩ : BufTy).Contents (Elt F) → (⟨S1x64, .f32⟩ : BufTy).Contents (Elt F)),
    StableHlo.unary main_v600 main_v601 (broadcastInDim S500x64 ![0, 1] bcast_S1x64_S500x64_0_1 : (⟨S1x64, .f32⟩ : BufTy).Contents (Elt F) → (⟨S500x64, .f32⟩ : BufTy).Contents (Elt F)),
    StableHlo.binary main_v599 main_v601 main_v602 (addf : (⟨S500x64, .f32⟩ : BufTy).Contents (Elt F) → (⟨S500x64, .f32⟩ : BufTy).Contents (Elt F) → (⟨S500x64, .f32⟩ : BufTy).Contents (Elt F)),
    StableHlo.TRef.nullary main_call14.cst (constant S_ .f32 0x00000000#32),
    StableHlo.TRef.unary main_call14.cst main_call14.v0 (broadcastInDim S500x64 ![] bcast_S_S500x64),
    StableHlo.TRef.binary (.of main_v602 : StableHlo.TRef sig ⟨S500x64, .f32⟩) main_call14.v0 main_call14.v1 maximumf ]

/-- The buffers the stretch writes, in order. -/
abbrev rvT3_W : List (Ref sig .tc) :=
  [main_v580, main_v581, main_v582, main_v583, main_cst_127, main_v584, main_cst_128, main_v585, main_v586, main_c_129, main_call13_cst, main_call13_v0, main_call13_v1, main_call13_cst_0, main_call13_v2, main_call13_v3, main_call13_v4, main_call13_v5, main_call13_v6, main_call13_v7, main_call13_cst_1, main_call13_v8, main_call13_cst_2, main_call13_v9, main_call13_v10, main_call13_v11, main_call13_cst_3, main_call13_v12, main_call13_cst_4, main_call13_call0_v0, main_call13_call0_v1, main_v587, main_v588, main_v589, main_v590, main_cst_130, main_v591, main_v592, main_v593, main_v594, main_v595, main_v596, main_v597, main_v598, main_v599, main_v600, main_v601, main_v602, main_call14_cst, main_call14_v0, main_v603]

set_option maxRecDepth 4096 in
/-- Each operation writes one buffer of that list. -/
theorem rvT3_writes : (rvT3 : List (HloOp τ sig (Elt F))).Forall fun op => op.writes ⊆ (rvT3_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩

/-- A buffer the stretch does not write keeps its contents through it. -/
theorem rvT3_keep (V : Valuation τ sig (Elt F)) (r : Ref sig .tc) (h : r ∉ rvT3_W) :
    after (rvT3 (F := F)) V (Proc.devRef .tc r) = V (Proc.devRef .tc r) :=
  after_of_writes_sub rvT3 V rvT3_writes h

end

attribute [local irreducible] Host.scatterAdd Host.gather Host.reduceAdd concatenate in
set_option maxRecDepth 8192 in
set_option maxHeartbeats 4000000 in
/-- What the stretch leaves in main_v603, from any contents V. -/
theorem read_T3_v603 (V : Valuation τ sig (Elt Ideal)) :
    after (rvT3 (F := Ideal)) V (Proc.devRef .tc main_v603 : DevRef τ sig)
      = bnrelu (lin (V (Proc.devRef .tc main_v579 : DevRef τ sig)) (V (Proc.devRef .tc main_arg13 : DevRef τ sig)) (V (Proc.devRef .tc main_arg14 : DevRef τ sig))) (V (Proc.devRef .tc main_arg17 : DevRef τ sig)) (V (Proc.devRef .tc main_arg18 : DevRef τ sig)) := by
  simp only [rvT3]
  after_results_simp
  rfl

end Cert.ReferenceIdeal.RV

end
-- ==== Proof.RVReadT4.lean ====
/- A stretch of the reference program (the last linear map and the Dirichlet energy): its 28 operations as a list, in program order and as the program
   writes them (an outlined function's operations stand at its call, over that call's buffers); the buffers they write; and what the
   run of the list from ANY contents V leaves in the stretch's results: the named whole-array function of V's contents at the buffers the
   stretch reads. The fold of the list is unrolled one operation at a time, each operation's function applied to what the
   earlier ones left, and the composed term is the function's definition read literally. -/
import proofs.«117928_j61658550502081_1_alg».proof.Proof.RVDefs
import Idealize.ShloMosaic.Lib.StableHlo.Run

noncomputable section

namespace Cert.ReferenceIdeal.RV

open Cert.ReferenceIdeal Cert.ReferenceIdeal.Gen Idealize.ShloMosaic Idealize.ShloMosaic.TcCoe Idealize.SL.Sem Idealize.ShloMosaic.StableHlo

section
variable {F : FTy → Type} [FloatOps F]

/-- The stretch's 28 operations, in order. -/
abbrev rvT4 : List (HloOp τ sig (Elt F)) :=
  [ StableHlo.binary main_v603 main_arg15 main_v604 ((fun l r => Host.dotGeneral dot_S500x64_S64x1_S500x1_1_0_0_1_n_n none l r) : (⟨S500x64, .f32⟩ : BufTy).Contents (Elt F) → (⟨S64x1, .f32⟩ : BufTy).Contents (Elt F) → (⟨S500x1, .f32⟩ : BufTy).Contents (Elt F)),
    StableHlo.unary main_arg16 main_v605 (broadcastInDim S1x1 ![1] bcast_S1_S1x1_1 : (⟨S1, .f32⟩ : BufTy).Contents (Elt F) → (⟨S1x1, .f32⟩ : BufTy).Contents (Elt F)),
    StableHlo.unary main_v605 main_v606 (broadcastInDim S500x1 ![0, 1] bcast_S1x1_S500x1_0_1 : (⟨S1x1, .f32⟩ : BufTy).Contents (Elt F) → (⟨S500x1, .f32⟩ : BufTy).Contents (Elt F)),
    StableHlo.binary main_v604 main_v606 main_v607 (addf : (⟨S500x1, .f32⟩ : BufTy).Contents (Elt F) → (⟨S500x1, .f32⟩ : BufTy).Contents (Elt F) → (⟨S500x1, .f32⟩ : BufTy).Contents (Elt F)),
    StableHlo.nullary main_c_131 (constantI S_ 32 0#32),
    StableHlo.unary main_c_131 main_v608 (broadcastInDim S800000 ![] bcast_S_S800000 : (⟨S_, .i32⟩ : BufTy).Contents (Elt F) → (⟨S800000, .i32⟩ : BufTy).Contents (Elt F)),
    StableHlo.binary main_v1 main_v608 main_v609 (cmpi .slt : (⟨S800000, .i32⟩ : BufTy).Contents (Elt F) → (⟨S800000, .i32⟩ : BufTy).Contents (Elt F) → (⟨S800000, .i1⟩ : BufTy).Contents (Elt F)),
    StableHlo.nullary main_c_132 (constantI S_ 32 50000#32),
    StableHlo.unary main_c_132 main_v610 (broadcastInDim S800000 ![] bcast_S_S800000 : (⟨S_, .i32⟩ : BufTy).Contents (Elt F) → (⟨S800000, .i32⟩ : BufTy).Contents (Elt F)),
    StableHlo.binary main_v1 main_v610 main_v611 (addi : (⟨S800000, .i32⟩ : BufTy).Contents (Elt F) → (⟨S800000, .i32⟩ : BufTy).Contents (Elt F) → (⟨S800000, .i32⟩ : BufTy).Contents (Elt F)),
    StableHlo.ternary main_v609 main_v611 main_v1 main_v612 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v612 main_v613 (broadcastInDim S800000x1 ![0] bcast_S800000_S800000x1_0 : (⟨S800000, .i32⟩ : BufTy).Contents (Elt F) → (⟨S800000x1, .i32⟩ : BufTy).Contents (Elt F)),
    StableHlo.binary main_v528 main_v613 main_v614 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_c_133 (constantI S_ 32 0#32),
    StableHlo.unary main_c_133 main_v615 (broadcastInDim S800000 ![] bcast_S_S800000 : (⟨S_, .i32⟩ : BufTy).Contents (Elt F) → (⟨S800000, .i32⟩ : BufTy).Contents (Elt F)),
    StableHlo.binary main_v3 main_v615 main_v616 (cmpi .slt : (⟨S800000, .i32⟩ : BufTy).Contents (Elt F) → (⟨S800000, .i32⟩ : BufTy).Contents (Elt F) → (⟨S800000, .i1⟩ : BufTy).Contents (Elt F)),
    StableHlo.nullary main_c_134 (constantI S_ 32 50000#32),
    StableHlo.unary main_c_134 main_v617 (broadcastInDim S800000 ![] bcast_S_S800000 : (⟨S_, .i32⟩ : BufTy).Contents (Elt F) → (⟨S800000, .i32⟩ : BufTy).Contents (Elt F)),
    StableHlo.binary main_v3 main_v617 main_v618 (addi : (⟨S800000, .i32⟩ : BufTy).Contents (Elt F) → (⟨S800000, .i32⟩ : BufTy).Contents (Elt F) → (⟨S800000, .i32⟩ : BufTy).Contents (Elt F)),
    StableHlo.ternary main_v616 main_v618 main_v3 main_v619 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v619 main_v620 (broadcastInDim S800000x1 ![0] bcast_S800000_S800000x1_0 : (⟨S800000, .i32⟩ : BufTy).Contents (Elt F) → (⟨S800000x1, .i32⟩ : BufTy).Contents (Elt F)),
    StableHlo.binary main_v528 main_v620 main_v621 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.binary main_v614 main_v621 main_v622 (subf : (⟨S800000x64, .f32⟩ : BufTy).Contents (Elt F) → (⟨S800000x64, .f32⟩ : BufTy).Contents (Elt F) → (⟨S800000x64, .f32⟩ : BufTy).Contents (Elt F)),
    StableHlo.binary main_v622 main_v622 main_v623 (mulf : (⟨S800000x64, .f32⟩ : BufTy).Contents (Elt F) → (⟨S800000x64, .f32⟩ : BufTy).Contents (Elt F) → (⟨S800000x64, .f32⟩ : BufTy).Contents (Elt F)),
    StableHlo.nullary main_cst_135 (constant S_ .f32 0x00000000#32),
    StableHlo.binary main_v623 main_cst_135 main_v624 ((fun x v => Host.reduceAdd x v reducesTo_S800000x64_S_d0_1 h_S_) : (⟨S800000x64, .f32⟩ : BufTy).Contents (Elt F) → (⟨S_, .f32⟩ : BufTy).Contents (Elt F) → (⟨S_, .f32⟩ : BufTy).Contents (Elt F)),
    StableHlo.nullary main_cst_136 (constant S_ .f32 0x3F000000#32),
    StableHlo.binary main_cst_136 main_v624 main_v625 (mulf : (⟨S_, .f32⟩ : BufTy).Contents (Elt F) → (⟨S_, .f32⟩ : BufTy).Contents (Elt F) → (⟨S_, .f32⟩ : BufTy).Contents (Elt F)) ]

/-- The buffers the stretch writes, in order. -/
abbrev rvT4_W : List (Ref sig .tc) :=
  [main_v604, main_v605, main_v606, main_v607, main_c_131, main_v608, main_v609, main_c_132, main_v610, main_v611, main_v612, main_v613, main_v614, main_c_133, main_v615, main_v616, main_c_134, main_v617, main_v618, main_v619, main_v620, main_v621, main_v622, main_v623, main_cst_135, main_v624, main_cst_136, main_v625]

set_option maxRecDepth 4096 in
/-- Each operation writes one buffer of that list. -/
theorem rvT4_writes : (rvT4 : List (HloOp τ sig (Elt F))).Forall fun op => op.writes ⊆ (rvT4_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩

/-- A buffer the stretch does not write keeps its contents through it. -/
theorem rvT4_keep (V : Valuation τ sig (Elt F)) (r : Ref sig .tc) (h : r ∉ rvT4_W) :
    after (rvT4 (F := F)) V (Proc.devRef .tc r) = V (Proc.devRef .tc r) :=
  after_of_writes_sub rvT4 V rvT4_writes h

end

attribute [local irreducible] Host.scatterAdd Host.gather Host.reduceAdd concatenate in
set_option maxRecDepth 8192 in
set_option maxHeartbeats 4000000 in
/-- What the stretch leaves in main_v607, from any contents V. -/
theorem read_T4_v607 (V : Valuation τ sig (Elt Ideal)) :
    after (rvT4 (F := Ideal)) V (Proc.devRef .tc main_v607 : DevRef τ sig)
      = lin4 (V (Proc.devRef .tc main_v603 : DevRef τ sig)) (V (Proc.devRef .tc main_arg15 : DevRef τ sig)) (V (Proc.devRef .tc main_arg16 : DevRef τ sig)) := by
  simp only [rvT4]
  after_results_simp
  rfl

attribute [local irreducible] Host.scatterAdd Host.gather Host.reduceAdd concatenate in
set_option maxRecDepth 8192 in
set_option maxHeartbeats 4000000 in
/-- What the stretch leaves in main_v625, from any contents V. -/
theorem read_T4_v625 (V : Valuation τ sig (Elt Ideal)) :
    after (rvT4 (F := Ideal)) V (Proc.devRef .tc main_v625 : DevRef τ sig)
      = energy (V (Proc.devRef .tc main_v528 : DevRef τ sig)) (V (Proc.devRef .tc main_v1 : DevRef τ sig)) (V (Proc.devRef .tc main_v3 : DevRef τ sig)) := by
  simp only [rvT4]
  after_results_simp
  rfl

end Cert.ReferenceIdeal.RV

end
-- ==== Proof.RVReadTail.lean ====
/- The tail of the reference program as one run: its operation list is the four stretches (pooling and first head stage, second and
   third head stages, last linear map and energy) one after the other, and what the run leaves in the two results, from any contents V,
   is the head function, and the energy function, of V's contents at the buffers the tail reads. -/
import proofs.«117928_j61658550502081_1_alg».proof.Proof.RVReadT1
import proofs.«117928_j61658550502081_1_alg».proof.Proof.RVReadT2
import proofs.«117928_j61658550502081_1_alg».proof.Proof.RVReadT3
import proofs.«117928_j61658550502081_1_alg».proof.Proof.RVReadT4
import proofs.«117928_j61658550502081_1_alg».proof.Proof.RefOpsTail
import Idealize.ShloMosaic.Lib.StableHlo.Run

noncomputable section

namespace Cert.ReferenceIdeal.RV

open Cert.ReferenceIdeal Cert.ReferenceIdeal.Gen Cert.ReferenceIdeal.RefRun Idealize.ShloMosaic Idealize.ShloMosaic.TcCoe Idealize.SL.Sem Idealize.ShloMosaic.StableHlo

set_option maxRecDepth 16384 in
/-- The tail's operations are the four stretches' operations, in order. -/
theorem opsTail_eq {F : FTy → Type} [FloatOps F] :
    (opsTail : List (HloOp τ sig (Elt F))) = rvT1 ++ (rvT2 ++ (rvT3 ++ rvT4)) := rfl

/-- What the tail's run leaves in main_v607, from any contents V. -/
theorem read_tail_v607 (V : Valuation τ sig (Elt Ideal)) :
    after (opsTail (F := Ideal)) V (Proc.devRef .tc main_v607 : DevRef τ sig)
      = head (pool (V (Proc.devRef .tc main_v528 : DevRef τ sig)) (V (Proc.devRef .tc main_arg2 : DevRef τ sig))) (V (Proc.devRef .tc main_arg9 : DevRef τ sig)) (V (Proc.devRef .tc main_arg10 : DevRef τ sig)) (V (Proc.devRef .tc main_arg11 : DevRef τ sig)) (V (Proc.devRef .tc main_arg12 : DevRef τ sig)) (V (Proc.devRef .tc main_arg13 : DevRef τ sig)) (V (Proc.devRef .tc main_arg14 : DevRef τ sig)) (V (Proc.devRef .tc main_arg15 : DevRef τ sig)) (V (Proc.devRef .tc main_arg16 : DevRef τ sig)) (V (Proc.devRef .tc main_arg17 : DevRef τ sig)) (V (Proc.devRef .tc main_arg18 : DevRef τ sig)) := by
  rw [opsTail_eq, after_append, after_append, after_append, read_T4_v607]
  rw [read_T3_v603,
    rvT3_keep (F := Ideal) _ main_arg15 (by decide),
    rvT3_keep (F := Ideal) _ main_arg16 (by decide)]
  rw [read_T2_v579,
    rvT2_keep (F := Ideal) _ main_arg13 (by decide),
    rvT2_keep (F := Ideal) _ main_arg14 (by decide),
    rvT2_keep (F := Ideal) _ main_arg17 (by decide),
    rvT2_keep (F := Ideal) _ main_arg18 (by decide),
    rvT2_keep (F := Ideal) _ main_arg15 (by decide),
    rvT2_keep (F := Ideal) _ main_arg16 (by decide)]
  rw [read_T1_v555,
    rvT1_keep (F := Ideal) _ main_arg11 (by decide),
    rvT1_keep (F := Ideal) _ main_arg12 (by decide),
    rvT1_keep (F := Ideal) _ main_arg17 (by decide),
    rvT1_keep (F := Ideal) _ main_arg18 (by decide),
    rvT1_keep (F := Ideal) _ main_arg13 (by decide),
    rvT1_keep (F := Ideal) _ main_arg14 (by decide),
    rvT1_keep (F := Ideal) _ main_arg15 (by decide),
    rvT1_keep (F := Ideal) _ main_arg16 (by decide)]
  all_goals rfl

/-- What the tail's run leaves in main_v625, from any contents V. -/
theorem read_tail_v625 (V : Valuation τ sig (Elt Ideal)) :
    after (opsTail (F := Ideal)) V (Proc.devRef .tc main_v625 : DevRef τ sig)
      = energy (V (Proc.devRef .tc main_v528 : DevRef τ sig)) (V (Proc.devRef .tc main_v1 : DevRef τ sig)) (V (Proc.devRef .tc main_v3 : DevRef τ sig)) := by
  rw [opsTail_eq, after_append, after_append, after_append, read_T4_v625]
  rw [rvT3_keep (F := Ideal) _ main_v528 (by decide),
    rvT3_keep (F := Ideal) _ main_v1 (by decide),
    rvT3_keep (F := Ideal) _ main_v3 (by decide)]
  rw [rvT2_keep (F := Ideal) _ main_v528 (by decide),
    rvT2_keep (F := Ideal) _ main_v1 (by decide),
    rvT2_keep (F := Ideal) _ main_v3 (by decide)]
  rw [rvT1_keep (F := Ideal) _ main_v528 (by decide),
    rvT1_keep (F := Ideal) _ main_v1 (by decide),
    rvT1_keep (F := Ideal) _ main_v3 (by decide)]
  all_goals rfl

end Cert.ReferenceIdeal.RV

end
-- ==== Proof.RVValue.lean ====
/- The whole reference program read back: from any contents V, the run of all its operations leaves in the first result the function
   out, and in the energy result the function energyOut, of V's contents at the nineteen argument buffers. The run is the six chunks in
   order (input projection, four layers, tail); each chunk's result is read by its own lemma and a buffer a chunk does not write is
   carried through it unchanged. -/
import proofs.«117928_j61658550502081_1_alg».proof.Proof.RVReadPre
import proofs.«117928_j61658550502081_1_alg».proof.Proof.RVReadL0
import proofs.«117928_j61658550502081_1_alg».proof.Proof.RVReadL1
import proofs.«117928_j61658550502081_1_alg».proof.Proof.RVReadL2
import proofs.«117928_j61658550502081_1_alg».proof.Proof.RVReadL3
import proofs.«117928_j61658550502081_1_alg».proof.Proof.RVReadTail
import proofs.«117928_j61658550502081_1_alg».proof.Proof.RefOps
import Idealize.ShloMosaic.Lib.StableHlo.Run

noncomputable section

namespace Cert.ReferenceIdeal.RV

open Cert.ReferenceIdeal Cert.ReferenceIdeal.Gen Cert.ReferenceIdeal.RefRun Idealize.ShloMosaic Idealize.ShloMosaic.TcCoe Idealize.SL.Sem Idealize.ShloMosaic.StableHlo

/-- The first chunk's operations are the first stretch's. -/
theorem opsPre_eq {F : FTy → Type} [FloatOps F] : (opsPre : List (HloOp τ sig (Elt F))) = rvPre := rfl

/-- What the whole run leaves in main_v607, from any contents V. -/
theorem value_out (V : Valuation τ sig (Elt Ideal)) :
    after (ops (F := Ideal)) V (Proc.devRef .tc main_v607 : DevRef τ sig)
      = out (V (Proc.devRef .tc main_arg0 : DevRef τ sig)) (V (Proc.devRef .tc main_arg1 : DevRef τ sig)) (V (Proc.devRef .tc main_arg2 : DevRef τ sig)) (V (Proc.devRef .tc main_arg3 : DevRef τ sig)) (V (Proc.devRef .tc main_arg4 : DevRef τ sig)) (V (Proc.devRef .tc main_arg5 : DevRef τ sig)) (V (Proc.devRef .tc main_arg6 : DevRef τ sig)) (V (Proc.devRef .tc main_arg7 : DevRef τ sig)) (V (Proc.devRef .tc main_arg8 : DevRef τ sig)) (V (Proc.devRef .tc main_arg9 : DevRef τ sig)) (V (Proc.devRef .tc main_arg10 : DevRef τ sig)) (V (Proc.devRef .tc main_arg11 : DevRef τ sig)) (V (Proc.devRef .tc main_arg12 : DevRef τ sig)) (V (Proc.devRef .tc main_arg13 : DevRef τ sig)) (V (Proc.devRef .tc main_arg14 : DevRef τ sig)) (V (Proc.devRef .tc main_arg15 : DevRef τ sig)) (V (Proc.devRef .tc main_arg16 : DevRef τ sig)) (V (Proc.devRef .tc main_arg17 : DevRef τ sig)) (V (Proc.devRef .tc main_arg18 : DevRef τ sig)) := by
  rw [after_ops, opsPre_eq, read_tail_v607]
  rw [read_layer3,
    opsLayer3_keep (F := Ideal) _ main_arg2 (by decide),
    opsLayer3_keep (F := Ideal) _ main_arg9 (by decide),
    opsLayer3_keep (F := Ideal) _ main_arg10 (by decide),
    opsLayer3_keep (F := Ideal) _ main_arg11 (by decide),
    opsLayer3_keep (F := Ideal) _ main_arg12 (by decide),
    opsLayer3_keep (F := Ideal) _ main_arg13 (by decide),
    opsLayer3_keep (F := Ideal) _ main_arg14 (by decide),
    opsLayer3_keep (F := Ideal) _ main_arg15 (by decide),
    opsLayer3_keep (F := Ideal) _ main_arg16 (by decide),
    opsLayer3_keep (F := Ideal) _ main_arg17 (by decide),
    opsLayer3_keep (F := Ideal) _ main_arg18 (by decide)]
  rw [read_layer2,
    opsLayer2_keep (F := Ideal) _ main_arg5 (by decide),
    opsLayer2_keep (F := Ideal) _ main_arg6 (by decide),
    opsLayer2_keep (F := Ideal) _ main_arg7 (by decide),
    opsLayer2_keep (F := Ideal) _ main_arg8 (by decide),
    opsLayer2_keep (F := Ideal) _ main_v1 (by decide),
    opsLayer2_keep (F := Ideal) _ main_v3 (by decide),
    opsLayer2_keep (F := Ideal) _ main_arg2 (by decide),
    opsLayer2_keep (F := Ideal) _ main_arg9 (by decide),
    opsLayer2_keep (F := Ideal) _ main_arg10 (by decide),
    opsLayer2_keep (F := Ideal) _ main_arg11 (by decide),
    opsLayer2_keep (F := Ideal) _ main_arg12 (by decide),
    opsLayer2_keep (F := Ideal) _ main_arg13 (by decide),
    opsLayer2_keep (F := Ideal) _ main_arg14 (by decide),
    opsLayer2_keep (F := Ideal) _ main_arg15 (by decide),
    opsLayer2_keep (F := Ideal) _ main_arg16 (by decide),
    opsLayer2_keep (F := Ideal) _ main_arg17 (by decide),
    opsLayer2_keep (F := Ideal) _ main_arg18 (by decide)]
  rw [read_layer1,
    opsLayer1_keep (F := Ideal) _ main_arg5 (by decide),
    opsLayer1_keep (F := Ideal) _ main_arg6 (by decide),
    opsLayer1_keep (F := Ideal) _ main_arg7 (by decide),
    opsLayer1_keep (F := Ideal) _ main_arg8 (by decide),
    opsLayer1_keep (F := Ideal) _ main_v1 (by decide),
    opsLayer1_keep (F := Ideal) _ main_v3 (by decide),
    opsLayer1_keep (F := Ideal) _ main_arg2 (by decide),
    opsLayer1_keep (F := Ideal) _ main_arg9 (by decide),
    opsLayer1_keep (F := Ideal) _ main_arg10 (by decide),
    opsLayer1_keep (F := Ideal) _ main_arg11 (by decide),
    opsLayer1_keep (F := Ideal) _ main_arg12 (by decide),
    opsLayer1_keep (F := Ideal) _ main_arg13 (by decide),
    opsLayer1_keep (F := Ideal) _ main_arg14 (by decide),
    opsLayer1_keep (F := Ideal) _ main_arg15 (by decide),
    opsLayer1_keep (F := Ideal) _ main_arg16 (by decide),
    opsLayer1_keep (F := Ideal) _ main_arg17 (by decide),
    opsLayer1_keep (F := Ideal) _ main_arg18 (by decide)]
  rw [read_layer0,
    opsLayer0_keep (F := Ideal) _ main_arg5 (by decide),
    opsLayer0_keep (F := Ideal) _ main_arg6 (by decide),
    opsLayer0_keep (F := Ideal) _ main_arg7 (by decide),
    opsLayer0_keep (F := Ideal) _ main_arg8 (by decide),
    opsLayer0_keep (F := Ideal) _ main_v1 (by decide),
    opsLayer0_keep (F := Ideal) _ main_v3 (by decide),
    opsLayer0_keep (F := Ideal) _ main_arg2 (by decide),
    opsLayer0_keep (F := Ideal) _ main_arg9 (by decide),
    opsLayer0_keep (F := Ideal) _ main_arg10 (by decide),
    opsLayer0_keep (F := Ideal) _ main_arg11 (by decide),
    opsLayer0_keep (F := Ideal) _ main_arg12 (by decide),
    opsLayer0_keep (F := Ideal) _ main_arg13 (by decide),
    opsLayer0_keep (F := Ideal) _ main_arg14 (by decide),
    opsLayer0_keep (F := Ideal) _ main_arg15 (by decide),
    opsLayer0_keep (F := Ideal) _ main_arg16 (by decide),
    opsLayer0_keep (F := Ideal) _ main_arg17 (by decide),
    opsLayer0_keep (F := Ideal) _ main_arg18 (by decide)]
  rw [read_Pre_v8,
    rvPre_keep (F := Ideal) _ main_arg5 (by decide),
    rvPre_keep (F := Ideal) _ main_arg6 (by decide),
    rvPre_keep (F := Ideal) _ main_arg7 (by decide),
    rvPre_keep (F := Ideal) _ main_arg8 (by decide),
    read_Pre_v1,
    read_Pre_v3,
    rvPre_keep (F := Ideal) _ main_arg2 (by decide),
    rvPre_keep (F := Ideal) _ main_arg9 (by decide),
    rvPre_keep (F := Ideal) _ main_arg10 (by decide),
    rvPre_keep (F := Ideal) _ main_arg11 (by decide),
    rvPre_keep (F := Ideal) _ main_arg12 (by decide),
    rvPre_keep (F := Ideal) _ main_arg13 (by decide),
    rvPre_keep (F := Ideal) _ main_arg14 (by decide),
    rvPre_keep (F := Ideal) _ main_arg15 (by decide),
    rvPre_keep (F := Ideal) _ main_arg16 (by decide),
    rvPre_keep (F := Ideal) _ main_arg17 (by decide),
    rvPre_keep (F := Ideal) _ main_arg18 (by decide)]
  all_goals rfl

/-- What the whole run leaves in main_v625, from any contents V. -/
theorem value_energy (V : Valuation τ sig (Elt Ideal)) :
    after (ops (F := Ideal)) V (Proc.devRef .tc main_v625 : DevRef τ sig)
      = energyOut (V (Proc.devRef .tc main_arg0 : DevRef τ sig)) (V (Proc.devRef .tc main_arg1 : DevRef τ sig)) (V (Proc.devRef .tc main_arg2 : DevRef τ sig)) (V (Proc.devRef .tc main_arg3 : DevRef τ sig)) (V (Proc.devRef .tc main_arg4 : DevRef τ sig)) (V (Proc.devRef .tc main_arg5 : DevRef τ sig)) (V (Proc.devRef .tc main_arg6 : DevRef τ sig)) (V (Proc.devRef .tc main_arg7 : DevRef τ sig)) (V (Proc.devRef .tc main_arg8 : DevRef τ sig)) (V (Proc.devRef .tc main_arg9 : DevRef τ sig)) (V (Proc.devRef .tc main_arg10 : DevRef τ sig)) (V (Proc.devRef .tc main_arg11 : DevRef τ sig)) (V (Proc.devRef .tc main_arg12 : DevRef τ sig)) (V (Proc.devRef .tc main_arg13 : DevRef τ sig)) (V (Proc.devRef .tc main_arg14 : DevRef τ sig)) (V (Proc.devRef .tc main_arg15 : DevRef τ sig)) (V (Proc.devRef .tc main_arg16 : DevRef τ sig)) (V (Proc.devRef .tc main_arg17 : DevRef τ sig)) (V (Proc.devRef .tc main_arg18 : DevRef τ sig)) := by
  rw [after_ops, opsPre_eq, read_tail_v625]
  rw [read_layer3,
    opsLayer3_keep (F := Ideal) _ main_v1 (by decide),
    opsLayer3_keep (F := Ideal) _ main_v3 (by decide)]
  rw [read_layer2,
    opsLayer2_keep (F := Ideal) _ main_arg5 (by decide),
    opsLayer2_keep (F := Ideal) _ main_arg6 (by decide),
    opsLayer2_keep (F := Ideal) _ main_arg7 (by decide),
    opsLayer2_keep (F := Ideal) _ main_arg8 (by decide),
    opsLayer2_keep (F := Ideal) _ main_v1 (by decide),
    opsLayer2_keep (F := Ideal) _ main_v3 (by decide)]
  rw [read_layer1,
    opsLayer1_keep (F := Ideal) _ main_arg5 (by decide),
    opsLayer1_keep (F := Ideal) _ main_arg6 (by decide),
    opsLayer1_keep (F := Ideal) _ main_arg7 (by decide),
    opsLayer1_keep (F := Ideal) _ main_arg8 (by decide),
    opsLayer1_keep (F := Ideal) _ main_v1 (by decide),
    opsLayer1_keep (F := Ideal) _ main_v3 (by decide)]
  rw [read_layer0,
    opsLayer0_keep (F := Ideal) _ main_arg5 (by decide),
    opsLayer0_keep (F := Ideal) _ main_arg6 (by decide),
    opsLayer0_keep (F := Ideal) _ main_arg7 (by decide),
    opsLayer0_keep (F := Ideal) _ main_arg8 (by decide),
    opsLayer0_keep (F := Ideal) _ main_v1 (by decide),
    opsLayer0_keep (F := Ideal) _ main_v3 (by decide)]
  rw [read_Pre_v8,
    rvPre_keep (F := Ideal) _ main_arg5 (by decide),
    rvPre_keep (F := Ideal) _ main_arg6 (by decide),
    rvPre_keep (F := Ideal) _ main_arg7 (by decide),
    rvPre_keep (F := Ideal) _ main_arg8 (by decide),
    read_Pre_v1,
    read_Pre_v3]
  all_goals rfl

end Cert.ReferenceIdeal.RV

end
-- ==== Proof.LibSquareAbs.lean ====
/-
  The square of an extended real, spelt two ways.

  A host program that writes |d| ** 2.0 applies `power` to an absolute value and the literal 2; a program that writes
  d * d multiplies. On the extended reals the two agree everywhere: on a real d both are d², and at either infinity
  |d| is +∞, whose square — as a power with a positive exponent and as a product — is +∞.
-/
import Idealize.ShloMosaic.PureOps.Ideal.Laws
import Idealize.ShloMosaic.Lib.IdealHost

noncomputable section

namespace Idealize.ShloMosaic

open Idealize.ShloMosaic.TcCoe

/-- The f32 pattern `0x40000000` is the real two. -/
theorem Ideal.ofBits_two_f32 : Ideal.ofBits .f32 0x40000000#32 = ((2 : ℝ) : EReal) := by
  simp [Ideal.ofBits, Ideal.ieee, -EReal.coe_mul]; norm_num

/-- |d|² = d·d on every extended real: on the reals by `Real.rpow` at a natural exponent, at ±∞ both sides +∞. -/
theorem Ideal.pow_abs_two (d : EReal) : Ideal.pow (max d (-d)) ((2 : ℝ) : EReal) = d * d := by
  have h2 : (0 : EReal) < ((2 : ℝ) : EReal) := by exact_mod_cast (by norm_num : (0 : ℝ) < 2)
  induction d using EReal.rec with
  | bot =>
    rw [show max (⊥ : EReal) (-⊥) = ⊤ by simp, Ideal.pow_top, if_pos h2]; simp
  | top =>
    rw [show max (⊤ : EReal) (-⊤) = ⊤ by simp, Ideal.pow_top, if_pos h2]; simp
  | coe r =>
    have hm : max (r : EReal) (-(r : EReal)) = ((|r| : ℝ) : EReal) := by
      rw [← EReal.coe_neg]
      rcases le_total r (-r) with h | h
      · rw [max_eq_right (EReal.coe_le_coe_iff.mpr h), abs_of_nonpos (by linarith)]
      · rw [max_eq_left (EReal.coe_le_coe_iff.mpr h), abs_of_nonneg (by linarith)]
    rw [hm, Ideal.pow_coe_coe, ← EReal.coe_mul]
    congr 1
    show Real.rpow |r| 2 = r * r
    have : Real.rpow |r| 2 = |r| ^ (2 : ℕ) := by
      have := Real.rpow_natCast |r| 2
      simpa using this
    rw [this, sq_abs, sq]

/-- Entry by entry: the host's `power` of an absolute value and an all-2.0 vector is the product of the vector with
    itself. -/
theorem Host.powf_absf_two {s : Shape} (d two : FVec Ideal s .f32)
    (h2 : ∀ i, two i = Ideal.ofBits .f32 0x40000000#32) :
    Host.powf (Host.absf d) two = mulf d d := by
  funext i
  simp only [Host.powf, Host.absf, mulf, Ideal.hostPowf_def, Ideal.hostAbsf_def, Ideal.absf_def, Ideal.mulf_def, h2 i,
    Ideal.ofBits_two_f32]
  exact Ideal.pow_abs_two _

end Idealize.ShloMosaic

end
-- ==== Proof.JoinDense.lean ====
/-
  The dense per-node operations, in the kernel's spelling and in the host's.

  Over the extended reals a host `dot_general` of an [n, K] array with a [K, 64] array is, entry by entry, the sum
  over k of x (p, k) · w (k, q) — the kernel's matrix product into a zero accumulator. A bias vector broadcast along
  the rows and added, then clamped at zero, is the same entry max (y (p, q) + b q) 0 whether the vector is first
  cast to one row and that row broadcast, or broadcast in two steps. The convex combination (1 − t)·x + t·x' is the
  same sum of two products entry by entry.
-/
import proofs.«117928_j61658550502081_1_alg».proof.Proof.Gen.ReferenceIdeal
import proofs.«117928_j61658550502081_1_alg».proof.Proof.Gen.KernelIdeal
import proofs.«117928_j61658550502081_1_alg».proof.Proof.KOps
import proofs.«117928_j61658550502081_1_alg».proof.Proof.LibDotApply
import Idealize.ShloMosaic.Lib.Pipeline.Value
import Idealize.ShloMosaic.Lib.ValueLayout
import Idealize.ShloMosaic.Lib.IdealHost

noncomputable section

namespace Cert.Join

open Idealize.ShloMosaic Idealize.ShloMosaic.ValueIdx
open Cert.KernelIdeal.KV

/-- The host's [50000, 64] · [64, 64] product is the entrywise sum over the contracted coordinate. -/
theorem dot64_eq (x : (⟨Cert.ReferenceIdeal.S50000x64, .f32⟩ : BufTy).Contents (Elt Ideal)) (w : (⟨Cert.ReferenceIdeal.S64x64, .f32⟩ : BufTy).Contents (Elt Ideal)) :
    Host.dotGeneral (F := Ideal) (φ₁ := .f32) (φ₂ := .f32) Cert.ReferenceIdeal.dot_S50000x64_S64x64_S50000x64_1_0_0_1_n_n none x w
      = MM64 x w := by
  funext i
  obtain ⟨p, q, rfl⟩ : ∃ (p : Fin 50000) (q : Fin 64), i = ix2 p q := ⟨i 0, i 1, eq_ix2 i⟩
  exact (Cert.LibDotApply.dotGeneral_apply Cert.ReferenceIdeal.dot_S50000x64_S64x64_S50000x64_1_0_0_1_n_n
    ⟨rfl, rfl, rfl, rfl, rfl, rfl⟩ none _ x w p q).trans (MM64_apply x w p q).symm

/-- The host's [50000, 128] · [128, 64] product likewise. -/
theorem dot128_eq (x : (⟨Cert.ReferenceIdeal.S50000x128, .f32⟩ : BufTy).Contents (Elt Ideal)) (w : (⟨Cert.ReferenceIdeal.S128x64, .f32⟩ : BufTy).Contents (Elt Ideal)) :
    Host.dotGeneral (F := Ideal) (φ₁ := .f32) (φ₂ := .f32) Cert.ReferenceIdeal.dot_S50000x128_S128x64_S50000x64_1_0_0_1_n_n none x w
      = MM128 x w := by
  funext i
  obtain ⟨p, q, rfl⟩ : ∃ (p : Fin 50000) (q : Fin 64), i = ix2 p q := ⟨i 0, i 1, eq_ix2 i⟩
  exact (Cert.LibDotApply.dotGeneral_apply Cert.ReferenceIdeal.dot_S50000x128_S128x64_S50000x64_1_0_0_1_n_n
    ⟨rfl, rfl, rfl, rfl, rfl, rfl⟩ none _ x w p q).trans (MM128_apply x w p q).symm

/-- A bias vector broadcast along the rows in two steps, added and clamped at zero, is the bias cast to one row,
    that row added to every row, clamped at zero. -/
theorem biasRelu_eq (y : (⟨Cert.ReferenceIdeal.S50000x64, .f32⟩ : BufTy).Contents (Elt Ideal)) (b : (⟨Cert.ReferenceIdeal.S64, .f32⟩ : BufTy).Contents (Elt Ideal))
    (h1 : Cert.ReferenceIdeal.S64.BroadcastsInDim Cert.ReferenceIdeal.S1x64 (![1] : Fin 1 → Fin Cert.ReferenceIdeal.S1x64.rank))
    (h2 : Cert.ReferenceIdeal.S1x64.BroadcastsInDim Cert.ReferenceIdeal.S50000x64 (![0, 1] : Fin 2 → Fin Cert.ReferenceIdeal.S50000x64.rank))
    (h0 : Cert.ReferenceIdeal.S_.BroadcastsInDim Cert.ReferenceIdeal.S50000x64 (![] : Fin 0 → Fin Cert.ReferenceIdeal.S50000x64.rank))
    (hc : Cert.KernelIdeal.S64.ShapeCasts Cert.KernelIdeal.S1x64) :
    (maximumf (F := Ideal) (φ := .f32)
        (addf (F := Ideal) (φ := .f32) y
          (broadcastInDim Cert.ReferenceIdeal.S50000x64 ![0, 1] h2
            (broadcastInDim Cert.ReferenceIdeal.S1x64 ![1] h1 b)))
        (broadcastInDim Cert.ReferenceIdeal.S50000x64 ![] h0
          (constant (F := Ideal) Cert.ReferenceIdeal.S_ .f32 0x00000000#32)) : (⟨Cert.ReferenceIdeal.S50000x64, .f32⟩ : BufTy).Contents (Elt Ideal))
      = BR y (shapeCast Cert.KernelIdeal.S1x64 b hc) := by
  funext i
  obtain ⟨p, q, rfl⟩ : ∃ (p : Fin 50000) (q : Fin 64), i = ix2 p q := ⟨i 0, i 1, eq_ix2 i⟩
  rw [BR_apply]
  have hrow : shapeCast Cert.KernelIdeal.S1x64 b hc (ix2 (0 : Fin 1) q) = b (ix1 q) :=
    shapeCast_a_1a_apply b _ 0 q
  have hb : broadcastInDim Cert.ReferenceIdeal.S50000x64 ![0, 1] h2
      (broadcastInDim Cert.ReferenceIdeal.S1x64 ![1] h1 b) (ix2 p q) = b (ix1 q) := by
    refine (broadcastInDim_apply _ _ _ (ix2 p q) (ix2 (0 : Fin 1) q) (fun a => by
      match a with
      | ⟨0, _⟩ => rfl
      | ⟨1, _⟩ => rfl)).trans ?_
    exact broadcastInDim_apply _ _ b (ix2 (0 : Fin 1) q) (ix1 q) (fun a => by
      match a with
      | ⟨0, _⟩ => rfl)
  have hz : broadcastInDim Cert.ReferenceIdeal.S50000x64 ![] h0
      (constant (F := Ideal) Cert.ReferenceIdeal.S_ .f32 0x00000000#32) (ix2 p q) = (0 : EReal) := by
    rw [broadcastInDim_scalar_apply]
    exact Ideal.ofBits_zero_f32
  show max ((y (ix2 p q) : EReal) + _) _ = _
  rw [hrow]
  exact congrArg₂ max (congrArg (y (ix2 p q) + ·) hb) hz

/-- The convex combination, entry by entry: the host's subtract / multiply / add of whole arrays. -/
theorem combine_eq (t x y : (⟨Cert.ReferenceIdeal.S50000x64, .f32⟩ : BufTy).Contents (Elt Ideal))
    (h0 : Cert.ReferenceIdeal.S_.BroadcastsInDim Cert.ReferenceIdeal.S50000x64 (![] : Fin 0 → Fin Cert.ReferenceIdeal.S50000x64.rank)) :
    (addf (F := Ideal) (φ := .f32)
        (mulf (F := Ideal) (φ := .f32)
          (subf (F := Ideal) (φ := .f32)
            (broadcastInDim Cert.ReferenceIdeal.S50000x64 ![] h0
              (constant (F := Ideal) Cert.ReferenceIdeal.S_ .f32 0x3F800000#32)) t) x)
        (mulf (F := Ideal) (φ := .f32) t y) : (⟨Cert.ReferenceIdeal.S50000x64, .f32⟩ : BufTy).Contents (Elt Ideal))
      = CB t x y := by
  funext i
  rw [CB_apply]
  have h1 : broadcastInDim Cert.ReferenceIdeal.S50000x64 ![] h0
      (constant (F := Ideal) Cert.ReferenceIdeal.S_ .f32 0x3F800000#32) i = Ideal.ofBits .f32 0x3F800000#32 := by
    rw [broadcastInDim_scalar_apply]; rfl
  show ((_ : EReal) - t i) * x i + t i * y i = _
  rw [h1]

end Cert.Join

end
-- ==== Proof.KHeadHost.lean ====
/-
  The reference's batch normalisation stage, read as the kernel's.

  The reference normalises a [500, 64] matrix y with [64] scale and shift vectors: the column means are the host's
  sums over the rows divided by 500; the column variances are the sums of the squared deviations (from the means
  kept as a [1, 64] row) divided by 500 less the integer 0 converted to a float, selected over a NaN word's value
  where that divisor is positive — it is: the word 0x43FA0000 denotes 500 —; then (y − mean) · rsqrt (var + ε) · g + b
  with every [64] vector broadcast in two steps, and the rectifier against a broadcast scalar zero. Entry by entry
  over the extended reals this is `bnrelu y (row g) (row b)`, the rows being the vectors cast to [1, 64].
-/
import proofs.«117928_j61658550502081_1_alg».proof.Proof.RVDefs
import proofs.«117928_j61658550502081_1_alg».proof.Proof.KHead
import proofs.«117928_j61658550502081_1_alg».proof.Proof.LibUnitAxes
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost

noncomputable section

namespace Cert.KernelIdeal.KV

open Idealize.ShloMosaic Idealize.ShloMosaic.ValueIdx

/-! ## The two literals the host's variance decides on -/

/-- The float word 0x43FA0000 denotes the real number 500. -/
theorem rows500_eq : rows500 = ((500 : ℝ) : EReal) := by
  simp [Ideal.ofBits, Ideal.ieee, -EReal.coe_mul]; norm_num

/-- It is positive. -/
theorem rows500_pos : (0 : EReal) < rows500 := by
  rw [rows500_eq]; exact EReal.coe_pos.mpr (by norm_num)

/-- 500 less the integer 0 converted to a float is 500. -/
theorem rows500_sub_zero : rows500 - (((0#32 : BitVec 32).toInt : ℝ) : EReal) = rows500 := by
  have h : (((0#32 : BitVec 32).toInt : ℝ) : EReal) = 0 := by
    rw [show (0#32 : BitVec 32).toInt = 0 from by decide]; norm_num
  rw [h, sub_zero]

/-! ## The host's spelling of the normalisation, over any evidence for its shape relations -/

/-- The scalar shape. -/
abbrev S0 : Shape := ⟨0, ![]⟩

section Host
variable (y : FVec Ideal S500x64 .f32)
  (h' : S500x64.ReducesTo [0] S64) (hu : 0 < S0.numel)
  (h1 : S64.BroadcastsInDim S1x64 (![1] : Fin 1 → Fin 2)) (h2 : S1x64.BroadcastsInDim S500x64 (![0, 1] : Fin 2 → Fin 2))
  (hb : S0.BroadcastsInDim S64 (![] : Fin 0 → Fin 1)) (hb1 : S0.BroadcastsInDim S1x64 (![] : Fin 0 → Fin 2))
  (hb2 : S0.BroadcastsInDim S500x64 (![] : Fin 0 → Fin 2))

/-- The host's sum over the rows from a zero initial value, at column q: the sum of the column. -/
theorem hostColsum_apply (q : Fin 64) :
    Host.reduceAdd (F := Ideal) (φ := .f32) y (constant (F := Ideal) S0 .f32 0x00000000#32) h' hu (ix1 q)
      = ∑ p : Fin 500, y (ix2 p q) := by
  have hr : S500x64.Reduces [0] S64 := by decide
  show Ideal.hostReduceAdd h' y (Ideal.ofBits .f32 0x00000000#32) (ix1 q) = _
  rw [Ideal.hostReduceAdd_single h' hr, Ideal.ofBits_zero_f32, zero_add]
  exact Finset.sum_congr rfl fun k _ => congrArg y (Cert.LibUnitAxes.lift_col hr q k)

/-- A [64] vector as a [1, 64] row reads, at (0, q), its entry q. -/
theorem vecRow_apply {α : Type} (v : S64.Idx → α) (q : Fin 64) :
    broadcastInDim S1x64 ![1] h1 v (ix2 (0 : Fin 1) q) = v (ix1 q) :=
  broadcastInDim_apply _ h1 v (ix2 (0 : Fin 1) q) (ix1 q) (fun a => by match a with | ⟨0, _⟩ => rfl)

/-- A [1, 64] row broadcast down the 500 rows reads, at (p, q), its entry (0, q). -/
theorem rowDown_apply {α : Type} (r : S1x64.Idx → α) (p : Fin 500) (q : Fin 64) :
    broadcastInDim S500x64 ![0, 1] h2 r (ix2 p q) = r (ix2 (0 : Fin 1) q) :=
  broadcastInDim_apply _ h2 r (ix2 p q) (ix2 (0 : Fin 1) q) (fun a => by
    match a with
    | ⟨0, _⟩ => rfl
    | ⟨1, _⟩ => rfl)

/-- A [64] vector broadcast in the two steps reads, at (p, q), its entry q. -/
theorem vecDown_apply {α : Type} (v : S64.Idx → α) (p : Fin 500) (q : Fin 64) :
    broadcastInDim S500x64 ![0, 1] h2 (broadcastInDim S1x64 ![1] h1 v) (ix2 p q) = v (ix1 q) :=
  (rowDown_apply h2 _ p q).trans (vecRow_apply h1 v q)

/-- The host's vector of column means. -/
def hMean : FVec Ideal S64 .f32 :=
  Host.divf (F := Ideal) (φ := .f32)
    (Host.reduceAdd (F := Ideal) (φ := .f32) y (constant (F := Ideal) S0 .f32 0x00000000#32) h' hu)
    (broadcastInDim S64 ![] hb (constant (F := Ideal) S0 .f32 0x43FA0000#32))

/-- The host's row of column means, inside its variance. -/
def hMeanRow : FVec Ideal S1x64 .f32 :=
  Host.divf (F := Ideal) (φ := .f32)
    (broadcastInDim S1x64 ![1] h1
      (Host.reduceAdd (F := Ideal) (φ := .f32) y (constant (F := Ideal) S0 .f32 0x00000000#32) h' hu))
    (broadcastInDim S1x64 ![] hb1 (constant (F := Ideal) S0 .f32 0x43FA0000#32))

/-- The matrix with the row of means taken off every row. -/
def hCentered : FVec Ideal S500x64 .f32 :=
  subf (F := Ideal) (φ := .f32) y (broadcastInDim S500x64 ![0, 1] h2 (hMeanRow y h' hu h1 hb1))

/-- The variance's divisor: 500 less the integer 0 converted. -/
def hDen : FVec Ideal S0 .f32 :=
  subf (F := Ideal) (φ := .f32) (constant (F := Ideal) S0 .f32 0x43FA0000#32)
    (sitofp (F := Ideal) .f32 (constantI S0 32 0#32))

/-- The host's vector of column variances: the quotient where the divisor is positive, a NaN word's value elsewhere. -/
def hVar : FVec Ideal S64 .f32 :=
  select (broadcastInDim S64 ![] hb
      (cmpf (F := Ideal) (φ := .f32) .ogt hDen (constant (F := Ideal) S0 .f32 0x00000000#32)))
    (Host.divf (F := Ideal) (φ := .f32)
      (Host.reduceAdd (F := Ideal) (φ := .f32)
        (mulf (F := Ideal) (φ := .f32) (hCentered y h' hu h1 h2 hb1) (hCentered y h' hu h1 h2 hb1))
        (constant (F := Ideal) S0 .f32 0x00000000#32) h' hu)
      (broadcastInDim S64 ![] hb hDen))
    (broadcastInDim S64 ![] hb (constant (F := Ideal) S0 .f32 0x7FC00000#32))

/-- The host's normalisation with scale and shift vectors, then its rectifier. -/
def hBn (g b : FVec Ideal S64 .f32) : FVec Ideal S500x64 .f32 :=
  maximumf (F := Ideal) (φ := .f32)
    (addf (F := Ideal) (φ := .f32)
      (mulf (F := Ideal) (φ := .f32)
        (mulf (F := Ideal) (φ := .f32)
          (subf (F := Ideal) (φ := .f32) y
            (broadcastInDim S500x64 ![0, 1] h2 (broadcastInDim S1x64 ![1] h1 (hMean y h' hu hb))))
          (broadcastInDim S500x64 ![0, 1] h2 (broadcastInDim S1x64 ![1] h1
            (Host.rsqrt (F := Ideal) (φ := .f32)
              (addf (F := Ideal) (φ := .f32) (hVar y h' hu h1 h2 hb hb1)
                (broadcastInDim S64 ![] hb (constant (F := Ideal) S0 .f32 0x3727C5AC#32)))))))
        (broadcastInDim S500x64 ![0, 1] h2 (broadcastInDim S1x64 ![1] h1 g)))
      (broadcastInDim S500x64 ![0, 1] h2 (broadcastInDim S1x64 ![1] h1 b)))
    (broadcastInDim S500x64 ![] hb2 (constant (F := Ideal) S0 .f32 0x00000000#32))

theorem hMean_apply (q : Fin 64) : hMean y h' hu hb (ix1 q) = colMean y q := by
  show Ideal.div (Host.reduceAdd (F := Ideal) (φ := .f32) y (constant (F := Ideal) S0 .f32 0x00000000#32) h' hu (ix1 q))
      (broadcastInDim S64 ![] hb (constant (F := Ideal) S0 .f32 0x43FA0000#32) (ix1 q)) = _
  rw [hostColsum_apply, broadcastInDim_scalar_apply]
  rfl

theorem hMeanRow_apply (q : Fin 64) : hMeanRow y h' hu h1 hb1 (ix2 (0 : Fin 1) q) = colMean y q := by
  show Ideal.div (broadcastInDim S1x64 ![1] h1
        (Host.reduceAdd (F := Ideal) (φ := .f32) y (constant (F := Ideal) S0 .f32 0x00000000#32) h' hu) (ix2 (0 : Fin 1) q))
      (broadcastInDim S1x64 ![] hb1 (constant (F := Ideal) S0 .f32 0x43FA0000#32) (ix2 (0 : Fin 1) q)) = _
  rw [vecRow_apply, hostColsum_apply, broadcastInDim_scalar_apply]
  rfl

theorem hCentered_apply (p : Fin 500) (q : Fin 64) :
    hCentered y h' hu h1 h2 hb1 (ix2 p q) = y (ix2 p q) - colMean y q := by
  show y (ix2 p q) - broadcastInDim S500x64 ![0, 1] h2 (hMeanRow y h' hu h1 hb1) (ix2 p q) = _
  rw [rowDown_apply, hMeanRow_apply]

theorem hDen_apply : hDen ix0 = rows500 := rows500_sub_zero

theorem hVar_apply (q : Fin 64) : hVar y h' hu h1 h2 hb hb1 (ix1 q) = colVar y q := by
  show Scalar.select
      (broadcastInDim S64 ![] hb
        (cmpf (F := Ideal) (φ := .f32) .ogt hDen (constant (F := Ideal) S0 .f32 0x00000000#32)) (ix1 q))
      (Ideal.div
        (Host.reduceAdd (F := Ideal) (φ := .f32)
          (mulf (F := Ideal) (φ := .f32) (hCentered y h' hu h1 h2 hb1) (hCentered y h' hu h1 h2 hb1))
          (constant (F := Ideal) S0 .f32 0x00000000#32) h' hu (ix1 q))
        (broadcastInDim S64 ![] hb hDen (ix1 q)))
      (broadcastInDim S64 ![] hb (constant (F := Ideal) S0 .f32 0x7FC00000#32) (ix1 q)) = _
  rw [broadcastInDim_scalar_apply, broadcastInDim_scalar_apply, hostColsum_apply, hDen_apply]
  have hc : cmpf (F := Ideal) (φ := .f32) .ogt hDen (constant (F := Ideal) S0 .f32 0x00000000#32) ix0 = 1#1 := by
    show Ideal.cmp .ogt (hDen ix0) (Ideal.ofBits .f32 0x00000000#32) = 1#1
    rw [hDen_apply, Ideal.ofBits_zero_f32]
    show BitVec.ofBool (decide ((0 : EReal) < rows500)) = 1#1
    rw [decide_eq_true rows500_pos]
    rfl
  rw [hc, select_one]
  unfold colVar
  refine congrArg (fun s => Ideal.div s rows500) (Finset.sum_congr rfl fun p _ => ?_)
  show hCentered y h' hu h1 h2 hb1 (ix2 p q) * hCentered y h' hu h1 h2 hb1 (ix2 p q) = _
  rw [hCentered_apply]

/-- The host's normalisation is the normalisation, the scale and shift vectors cast to rows. -/
theorem hBn_eq (g b : FVec Ideal S64 .f32) (hsc : S64.ShapeCasts S1x64) :
    hBn y h' hu h1 h2 hb hb1 hb2 g b = bnrelu y (shapeCast S1x64 g hsc) (shapeCast S1x64 b hsc) := by
  funext i
  obtain ⟨p, q, rfl⟩ : ∃ (p : Fin 500) (q : Fin 64), i = ix2 p q := ⟨i 0, i 1, eq_ix2 i⟩
  show max ((((y (ix2 p q)
          - broadcastInDim S500x64 ![0, 1] h2 (broadcastInDim S1x64 ![1] h1 (hMean y h' hu hb)) (ix2 p q))
        * broadcastInDim S500x64 ![0, 1] h2 (broadcastInDim S1x64 ![1] h1
            (Host.rsqrt (F := Ideal) (φ := .f32)
              (addf (F := Ideal) (φ := .f32) (hVar y h' hu h1 h2 hb hb1)
                (broadcastInDim S64 ![] hb (constant (F := Ideal) S0 .f32 0x3727C5AC#32))))) (ix2 p q))
        * broadcastInDim S500x64 ![0, 1] h2 (broadcastInDim S1x64 ![1] h1 g) (ix2 p q))
        + broadcastInDim S500x64 ![0, 1] h2 (broadcastInDim S1x64 ![1] h1 b) (ix2 p q))
      (broadcastInDim S500x64 ![] hb2 (constant (F := Ideal) S0 .f32 0x00000000#32) (ix2 p q)) = _
  rw [vecDown_apply, vecDown_apply, vecDown_apply, vecDown_apply, broadcastInDim_scalar_apply, hMean_apply]
  show max ((((y (ix2 p q) - colMean y q)
        * Ideal.rsqrt (hVar y h' hu h1 h2 hb hb1 (ix1 q)
            + broadcastInDim S64 ![] hb (constant (F := Ideal) S0 .f32 0x3727C5AC#32) (ix1 q)))
        * g (ix1 q)) + b (ix1 q)) fzero = _
  rw [hVar_apply, broadcastInDim_scalar_apply, bnrelu_ix2, shapeCast_a_1a_apply, shapeCast_a_1a_apply]
  rfl

end Host

/-- THE REFERENCE'S NORMALISATION STAGE is the kernel's, its scale and shift vectors cast to [1, 64] rows. -/
theorem host_bnrelu_eq (y : (⟨Cert.ReferenceIdeal.S500x64, .f32⟩ : BufTy).Contents (Elt Ideal))
    (g b : (⟨Cert.ReferenceIdeal.S64, .f32⟩ : BufTy).Contents (Elt Ideal))
    (hsc : Cert.KernelIdeal.S64.ShapeCasts Cert.KernelIdeal.S1x64) :
    Cert.ReferenceIdeal.RV.bnrelu y g b
      = bnrelu y (shapeCast Cert.KernelIdeal.S1x64 g hsc) (shapeCast Cert.KernelIdeal.S1x64 b hsc) :=
  hBn_eq y _ _ _ _ _ _ _ g b hsc

end Cert.KernelIdeal.KV

end
-- ==== Proof.JoinHead.lean ====
/-
  The read-out head in the host's spelling and in the kernel's.

  A linear stage h·W + b is, entry by entry, the sum over the contracted coordinate of h (p, k) · W (k, q) plus the bias
  entry q — whether the bias vector is broadcast in two steps (to one row, then along the 500 rows), as the host does,
  or first read as a one-row matrix whose row is added to every row. The head is three such stages of width 64, each
  followed by the batch normalisation and rectifier, and a last stage of width 1; with the normalisation stages equal,
  the heads are equal by rewriting stage by stage. Nothing here needs a value to be finite: both sides are the same
  arithmetic in the same order.
-/
import proofs.«117928_j61658550502081_1_alg».proof.Proof.Gen.ReferenceIdeal
import proofs.«117928_j61658550502081_1_alg».proof.Proof.Gen.KernelIdeal
import proofs.«117928_j61658550502081_1_alg».proof.Proof.RVDefs
import proofs.«117928_j61658550502081_1_alg».proof.Proof.KHead
import proofs.«117928_j61658550502081_1_alg».proof.Proof.KVDefs
import proofs.«117928_j61658550502081_1_alg».proof.Proof.LibDotApply
import Idealize.ShloMosaic.Lib.Pipeline.Value
import Idealize.ShloMosaic.Lib.ValueLayout
import Idealize.ShloMosaic.Lib.IdealHost
import proofs.«117928_j61658550502081_1_alg».proof.Proof.KHeadHost

noncomputable section

namespace Cert.Join

open Idealize.ShloMosaic Idealize.ShloMosaic.ValueIdx

/-- A 64-vector broadcast to [500, 64] in two steps (first to one row, then along the rows) reads, at (p, q), the
    vector's entry q. -/
theorem bias64_apply (b : (⟨Cert.ReferenceIdeal.S64, .f32⟩ : BufTy).Contents (Elt Ideal))
    (h1 : Cert.ReferenceIdeal.S64.BroadcastsInDim Cert.ReferenceIdeal.S1x64 (![1] : Fin 1 → Fin Cert.ReferenceIdeal.S1x64.rank))
    (h2 : Cert.ReferenceIdeal.S1x64.BroadcastsInDim Cert.ReferenceIdeal.S500x64 (![0, 1] : Fin 2 → Fin Cert.ReferenceIdeal.S500x64.rank))
    (p : Fin 500) (q : Fin 64) :
    broadcastInDim Cert.ReferenceIdeal.S500x64 ![0, 1] h2 (broadcastInDim Cert.ReferenceIdeal.S1x64 ![1] h1 b) (ix2 p q) = b (ix1 q) := by
  refine (broadcastInDim_apply _ _ _ (ix2 p q) (ix2 (0 : Fin 1) q) (fun a => by
    match a with
    | ⟨0, _⟩ => rfl
    | ⟨1, _⟩ => rfl)).trans ?_
  exact broadcastInDim_apply _ _ b (ix2 (0 : Fin 1) q) (ix1 q) (fun a => by
    match a with
    | ⟨0, _⟩ => rfl)

/-- A 1-vector broadcast to [500, 1] in two steps reads, at (p, 0), the vector's one entry. -/
theorem bias1_apply (b : (⟨Cert.ReferenceIdeal.S1, .f32⟩ : BufTy).Contents (Elt Ideal))
    (h1 : Cert.ReferenceIdeal.S1.BroadcastsInDim Cert.ReferenceIdeal.S1x1 (![1] : Fin 1 → Fin Cert.ReferenceIdeal.S1x1.rank))
    (h2 : Cert.ReferenceIdeal.S1x1.BroadcastsInDim Cert.ReferenceIdeal.S500x1 (![0, 1] : Fin 2 → Fin Cert.ReferenceIdeal.S500x1.rank))
    (p : Fin 500) :
    broadcastInDim Cert.ReferenceIdeal.S500x1 ![0, 1] h2 (broadcastInDim Cert.ReferenceIdeal.S1x1 ![1] h1 b) (ix2 p (0 : Fin 1)) = b (ix1 (0 : Fin 1)) := by
  refine (broadcastInDim_apply _ _ _ (ix2 p (0 : Fin 1)) (ix2 (0 : Fin 1) (0 : Fin 1)) (fun a => by
    match a with
    | ⟨0, _⟩ => rfl
    | ⟨1, _⟩ => rfl)).trans ?_
  exact broadcastInDim_apply _ _ b (ix2 (0 : Fin 1) (0 : Fin 1)) (ix1 (0 : Fin 1)) (fun a => by
    match a with
    | ⟨0, _⟩ => rfl)

/-- A linear stage of width 64: the host's product plus the bias broadcast in two steps is, entry by entry, the sum
    over the contracted coordinate plus the bias read as a one-row matrix. -/
theorem lin_join (h : (⟨Cert.ReferenceIdeal.S500x64, .f32⟩ : BufTy).Contents (Elt Ideal)) (W : (⟨Cert.ReferenceIdeal.S64x64, .f32⟩ : BufTy).Contents (Elt Ideal)) (b : (⟨Cert.ReferenceIdeal.S64, .f32⟩ : BufTy).Contents (Elt Ideal)) :
    Cert.ReferenceIdeal.RV.lin h W b = Cert.KernelIdeal.KV.dense h W (Cert.KernelIdeal.KV.row64 b) := by
  funext i
  obtain ⟨p, q, rfl⟩ : ∃ (p : Fin 500) (q : Fin 64), i = ix2 p q := ⟨i 0, i 1, eq_ix2 i⟩
  rw [Cert.KernelIdeal.KV.dense_ix2]
  have hdot : Host.dotGeneral (F := Ideal) (φ₁ := .f32) (φ₂ := .f32) Cert.ReferenceIdeal.dot_S500x64_S64x64_S500x64_1_0_0_1_n_n none h W (ix2 p q)
      = ∑ k : Fin 64, h (ix2 p k) * W (ix2 k q) :=
    Cert.LibDotApply.dotGeneral_apply Cert.ReferenceIdeal.dot_S500x64_S64x64_S500x64_1_0_0_1_n_n ⟨rfl, rfl, rfl, rfl, rfl, rfl⟩ none _ h W p q
  have hrow : Cert.KernelIdeal.KV.row64 b (ix2 (0 : Fin 1) q) = b (ix1 q) := shapeCast_a_1a_apply b _ 0 q
  rw [hrow]
  show (Host.dotGeneral (F := Ideal) (φ₁ := .f32) (φ₂ := .f32) Cert.ReferenceIdeal.dot_S500x64_S64x64_S500x64_1_0_0_1_n_n none h W (ix2 p q) : EReal)
      + broadcastInDim Cert.ReferenceIdeal.S500x64 ![0, 1] _ (broadcastInDim Cert.ReferenceIdeal.S1x64 ![1] _ b) (ix2 p q) = _
  rw [hdot, bias64_apply]

/-- The last linear stage, of width 1, likewise. -/
theorem lin4_join (h : (⟨Cert.ReferenceIdeal.S500x64, .f32⟩ : BufTy).Contents (Elt Ideal)) (W : (⟨Cert.ReferenceIdeal.S64x1, .f32⟩ : BufTy).Contents (Elt Ideal)) (b : (⟨Cert.ReferenceIdeal.S1, .f32⟩ : BufTy).Contents (Elt Ideal)) :
    Cert.ReferenceIdeal.RV.lin4 h W b = Cert.KernelIdeal.KV.dense h W (Cert.KernelIdeal.KV.row1 b) := by
  funext i
  obtain ⟨p, q, rfl⟩ : ∃ (p : Fin 500) (q : Fin 1), i = ix2 p q := ⟨i 0, i 1, eq_ix2 i⟩
  obtain rfl : q = 0 := Subsingleton.elim q 0
  rw [Cert.KernelIdeal.KV.dense_ix2]
  have hdot : Host.dotGeneral (F := Ideal) (φ₁ := .f32) (φ₂ := .f32) Cert.ReferenceIdeal.dot_S500x64_S64x1_S500x1_1_0_0_1_n_n none h W (ix2 p (0 : Fin 1))
      = ∑ k : Fin 64, h (ix2 p k) * W (ix2 k (0 : Fin 1)) :=
    Cert.LibDotApply.dotGeneral_apply Cert.ReferenceIdeal.dot_S500x64_S64x1_S500x1_1_0_0_1_n_n ⟨rfl, rfl, rfl, rfl, rfl, rfl⟩ none _ h W p 0
  have hrow : Cert.KernelIdeal.KV.row1 b (ix2 (0 : Fin 1) (0 : Fin 1)) = b (ix1 (0 : Fin 1)) := shapeCast_a_1a_apply b _ 0 0
  rw [hrow]
  show (Host.dotGeneral (F := Ideal) (φ₁ := .f32) (φ₂ := .f32) Cert.ReferenceIdeal.dot_S500x64_S64x1_S500x1_1_0_0_1_n_n none h W (ix2 p (0 : Fin 1)) : EReal)
      + broadcastInDim Cert.ReferenceIdeal.S500x1 ![0, 1] _ (broadcastInDim Cert.ReferenceIdeal.S1x1 ![1] _ b) (ix2 p (0 : Fin 1)) = _
  rw [hdot, bias1_apply]

/-- The head, stage by stage: once the normalisation stage of the two spellings agrees, the two heads agree — three
    linear stages each followed by the normalisation, then the last linear stage. -/
theorem head_join_of
    (hbn : ∀ (y : (⟨Cert.ReferenceIdeal.S500x64, .f32⟩ : BufTy).Contents (Elt Ideal)) (g b : (⟨Cert.ReferenceIdeal.S64, .f32⟩ : BufTy).Contents (Elt Ideal)),
      Cert.ReferenceIdeal.RV.bnrelu y g b = Cert.KernelIdeal.KV.bnrelu y (Cert.KernelIdeal.KV.row64 g) (Cert.KernelIdeal.KV.row64 b))
    (h : (⟨Cert.ReferenceIdeal.S500x64, .f32⟩ : BufTy).Contents (Elt Ideal)) (W1 : (⟨Cert.ReferenceIdeal.S64x64, .f32⟩ : BufTy).Contents (Elt Ideal)) (b1 : (⟨Cert.ReferenceIdeal.S64, .f32⟩ : BufTy).Contents (Elt Ideal)) (W2 : (⟨Cert.ReferenceIdeal.S64x64, .f32⟩ : BufTy).Contents (Elt Ideal)) (b2 : (⟨Cert.ReferenceIdeal.S64, .f32⟩ : BufTy).Contents (Elt Ideal))
    (W3 : (⟨Cert.ReferenceIdeal.S64x64, .f32⟩ : BufTy).Contents (Elt Ideal)) (b3 : (⟨Cert.ReferenceIdeal.S64, .f32⟩ : BufTy).Contents (Elt Ideal)) (W4 : (⟨Cert.ReferenceIdeal.S64x1, .f32⟩ : BufTy).Contents (Elt Ideal)) (b4 : (⟨Cert.ReferenceIdeal.S1, .f32⟩ : BufTy).Contents (Elt Ideal)) (g bb : (⟨Cert.ReferenceIdeal.S64, .f32⟩ : BufTy).Contents (Elt Ideal)) :
    Cert.ReferenceIdeal.RV.head h W1 b1 W2 b2 W3 b3 W4 b4 g bb
      = Cert.KernelIdeal.KV.HEAD h W1 (Cert.KernelIdeal.KV.row64 b1) W2 (Cert.KernelIdeal.KV.row64 b2) W3 (Cert.KernelIdeal.KV.row64 b3) W4 (Cert.KernelIdeal.KV.row1 b4)
          (Cert.KernelIdeal.KV.row64 g) (Cert.KernelIdeal.KV.row64 bb) := by
  unfold Cert.ReferenceIdeal.RV.head Cert.KernelIdeal.KV.HEAD
  rw [lin_join h W1 b1, hbn, lin_join _ W2 b2, hbn, lin_join _ W3 b3, hbn, lin4_join _ W4 b4]

/-- The read-out head of the host program is the kernel's head of the same arrays, the five vectors read as one-row
    matrices. -/
theorem head_join (h : (⟨Cert.ReferenceIdeal.S500x64, .f32⟩ : BufTy).Contents (Elt Ideal)) (W1 : (⟨Cert.ReferenceIdeal.S64x64, .f32⟩ : BufTy).Contents (Elt Ideal)) (b1 : (⟨Cert.ReferenceIdeal.S64, .f32⟩ : BufTy).Contents (Elt Ideal)) (W2 : (⟨Cert.ReferenceIdeal.S64x64, .f32⟩ : BufTy).Contents (Elt Ideal)) (b2 : (⟨Cert.ReferenceIdeal.S64, .f32⟩ : BufTy).Contents (Elt Ideal))
    (W3 : (⟨Cert.ReferenceIdeal.S64x64, .f32⟩ : BufTy).Contents (Elt Ideal)) (b3 : (⟨Cert.ReferenceIdeal.S64, .f32⟩ : BufTy).Contents (Elt Ideal)) (W4 : (⟨Cert.ReferenceIdeal.S64x1, .f32⟩ : BufTy).Contents (Elt Ideal)) (b4 : (⟨Cert.ReferenceIdeal.S1, .f32⟩ : BufTy).Contents (Elt Ideal)) (g bb : (⟨Cert.ReferenceIdeal.S64, .f32⟩ : BufTy).Contents (Elt Ideal)) :
    Cert.ReferenceIdeal.RV.head h W1 b1 W2 b2 W3 b3 W4 b4 g bb
      = Cert.KernelIdeal.KV.HEAD h W1 (Cert.KernelIdeal.KV.row64 b1) W2 (Cert.KernelIdeal.KV.row64 b2) W3 (Cert.KernelIdeal.KV.row64 b3) W4 (Cert.KernelIdeal.KV.row1 b4)
          (Cert.KernelIdeal.KV.row64 g) (Cert.KernelIdeal.KV.row64 bb) :=
  head_join_of (fun y g b => Cert.KernelIdeal.KV.host_bnrelu_eq y g b _) h W1 b1 W2 b2 W3 b3 W4 b4 g bb

end Cert.Join

end
-- ==== Proof.JoinOut.lean ====
/-
  The whole network in the host's spelling and in the kernel's.

  The two programs apply the same array operations in the same order between their dense stages: the edge rows, the
  self-loops appended, the symmetric edge normalisation, the out-degrees, the slices of the stacked weights, the
  normalised neighbourhood sum, the pooling and the edge energy are the same compositions under two sets of names, equal
  by unfolding the names. The dense stages differ in spelling only: a host product is the entrywise sum over the
  contracted coordinate; a bias broadcast in two steps, added and clamped, is the bias row added to every row and
  clamped; the gate's square is a power 2 of an absolute value on one side and a product on the other; the convex
  combination is the same two products. Layer by layer, then through the pooling and the head (or the energy), the two
  results are the same functions of the nineteen arguments.
-/
import proofs.«117928_j61658550502081_1_alg».proof.Proof.Gen.ReferenceIdeal
import proofs.«117928_j61658550502081_1_alg».proof.Proof.Gen.KernelIdeal
import proofs.«117928_j61658550502081_1_alg».proof.Proof.RVDefs
import proofs.«117928_j61658550502081_1_alg».proof.Proof.KVLayer
import proofs.«117928_j61658550502081_1_alg».proof.Proof.LibSquareAbs
import proofs.«117928_j61658550502081_1_alg».proof.Proof.JoinDense
import proofs.«117928_j61658550502081_1_alg».proof.Proof.JoinHead
import Idealize.ShloMosaic.Lib.IdealHost

noncomputable section

namespace Cert.Join

open Idealize.ShloMosaic Idealize.ShloMosaic.ValueIdx

/-! ## The same compositions, named in the two programs -/

theorem src_eq (e : (⟨Cert.ReferenceIdeal.S2x800000, .i32⟩ : BufTy).Contents (Elt Ideal)) : Cert.ReferenceIdeal.RV.src e = Cert.KernelIdeal.KV.src e := rfl
theorem dst_eq (e : (⟨Cert.ReferenceIdeal.S2x800000, .i32⟩ : BufTy).Contents (Elt Ideal)) : Cert.ReferenceIdeal.RV.dst e = Cert.KernelIdeal.KV.dst e := rfl
theorem sfull_eq (s : (⟨Cert.ReferenceIdeal.S800000, .i32⟩ : BufTy).Contents (Elt Ideal)) : Cert.ReferenceIdeal.RV.selfLoops s = Cert.KernelIdeal.KV.sfull s := rfl
theorem dfull_eq (d : (⟨Cert.ReferenceIdeal.S800000, .i32⟩ : BufTy).Contents (Elt Ideal)) : Cert.ReferenceIdeal.RV.selfLoops d = Cert.KernelIdeal.KV.dfull d := rfl
theorem norm_eq (s d : (⟨Cert.ReferenceIdeal.S850000, .i32⟩ : BufTy).Contents (Elt Ideal)) : Cert.ReferenceIdeal.RV.norm s d = Cert.KernelIdeal.KV.norm s d := rfl
theorem pool_eq (x : (⟨Cert.ReferenceIdeal.S50000x64, .f32⟩ : BufTy).Contents (Elt Ideal)) (batch : (⟨Cert.ReferenceIdeal.S50000, .i32⟩ : BufTy).Contents (Elt Ideal)) : Cert.ReferenceIdeal.RV.pool x batch = Cert.KernelIdeal.KV.pool x batch := rfl
theorem energy_eq (x : (⟨Cert.ReferenceIdeal.S50000x64, .f32⟩ : BufTy).Contents (Elt Ideal)) (s d : (⟨Cert.ReferenceIdeal.S800000, .i32⟩ : BufTy).Contents (Elt Ideal)) : Cert.ReferenceIdeal.RV.energy x s d = Cert.KernelIdeal.KV.energy x s d := rfl
theorem convW0_eq (w : (⟨Cert.ReferenceIdeal.S4x64x64, .f32⟩ : BufTy).Contents (Elt Ideal)) : Cert.ReferenceIdeal.RV.convW0 w = Cert.KernelIdeal.KV.cW0 w := rfl
theorem convb0_eq (b : (⟨Cert.ReferenceIdeal.S4x64, .f32⟩ : BufTy).Contents (Elt Ideal)) : Cert.ReferenceIdeal.RV.convb0 b = Cert.KernelIdeal.KV.cb0 b := rfl
theorem ggW0_eq (w : (⟨Cert.ReferenceIdeal.S4x64x64, .f32⟩ : BufTy).Contents (Elt Ideal)) : Cert.ReferenceIdeal.RV.ggW0 w = Cert.KernelIdeal.KV.gW0 w := rfl
theorem ggb0_eq (b : (⟨Cert.ReferenceIdeal.S4x64, .f32⟩ : BufTy).Contents (Elt Ideal)) : Cert.ReferenceIdeal.RV.ggb0 b = Cert.KernelIdeal.KV.gb0 b := rfl
theorem convW1_eq (w : (⟨Cert.ReferenceIdeal.S4x64x64, .f32⟩ : BufTy).Contents (Elt Ideal)) : Cert.ReferenceIdeal.RV.convW1 w = Cert.KernelIdeal.KV.cW1 w := rfl
theorem convb1_eq (b : (⟨Cert.ReferenceIdeal.S4x64, .f32⟩ : BufTy).Contents (Elt Ideal)) : Cert.ReferenceIdeal.RV.convb1 b = Cert.KernelIdeal.KV.cb1 b := rfl
theorem ggW1_eq (w : (⟨Cert.ReferenceIdeal.S4x64x64, .f32⟩ : BufTy).Contents (Elt Ideal)) : Cert.ReferenceIdeal.RV.ggW1 w = Cert.KernelIdeal.KV.gW1 w := rfl
theorem ggb1_eq (b : (⟨Cert.ReferenceIdeal.S4x64, .f32⟩ : BufTy).Contents (Elt Ideal)) : Cert.ReferenceIdeal.RV.ggb1 b = Cert.KernelIdeal.KV.gb1 b := rfl
theorem convW2_eq (w : (⟨Cert.ReferenceIdeal.S4x64x64, .f32⟩ : BufTy).Contents (Elt Ideal)) : Cert.ReferenceIdeal.RV.convW2 w = Cert.KernelIdeal.KV.cW2 w := rfl
theorem convb2_eq (b : (⟨Cert.ReferenceIdeal.S4x64, .f32⟩ : BufTy).Contents (Elt Ideal)) : Cert.ReferenceIdeal.RV.convb2 b = Cert.KernelIdeal.KV.cb2 b := rfl
theorem ggW2_eq (w : (⟨Cert.ReferenceIdeal.S4x64x64, .f32⟩ : BufTy).Contents (Elt Ideal)) : Cert.ReferenceIdeal.RV.ggW2 w = Cert.KernelIdeal.KV.gW2 w := rfl
theorem ggb2_eq (b : (⟨Cert.ReferenceIdeal.S4x64, .f32⟩ : BufTy).Contents (Elt Ideal)) : Cert.ReferenceIdeal.RV.ggb2 b = Cert.KernelIdeal.KV.gb2 b := rfl
theorem convW3_eq (w : (⟨Cert.ReferenceIdeal.S4x64x64, .f32⟩ : BufTy).Contents (Elt Ideal)) : Cert.ReferenceIdeal.RV.convW3 w = Cert.KernelIdeal.KV.cW3 w := rfl
theorem convb3_eq (b : (⟨Cert.ReferenceIdeal.S4x64, .f32⟩ : BufTy).Contents (Elt Ideal)) : Cert.ReferenceIdeal.RV.convb3 b = Cert.KernelIdeal.KV.cb3 b := rfl
theorem ggW3_eq (w : (⟨Cert.ReferenceIdeal.S4x64x64, .f32⟩ : BufTy).Contents (Elt Ideal)) : Cert.ReferenceIdeal.RV.ggW3 w = Cert.KernelIdeal.KV.gW3 w := rfl
theorem ggb3_eq (b : (⟨Cert.ReferenceIdeal.S4x64, .f32⟩ : BufTy).Contents (Elt Ideal)) : Cert.ReferenceIdeal.RV.ggb3 b = Cert.KernelIdeal.KV.gb3 b := rfl

/-! ## The input projection -/

/-- The input projection: the host's product, two-step bias broadcast and rectifier are the entrywise product, the
    bias row added to every row, and the clamp at zero. -/
theorem pre_join (x : (⟨Cert.ReferenceIdeal.S50000x128, .f32⟩ : BufTy).Contents (Elt Ideal)) (W : (⟨Cert.ReferenceIdeal.S128x64, .f32⟩ : BufTy).Contents (Elt Ideal)) (b : (⟨Cert.ReferenceIdeal.S64, .f32⟩ : BufTy).Contents (Elt Ideal)) :
    Cert.ReferenceIdeal.RV.pre x W b = Cert.KernelIdeal.KV.pre x W b := by
  unfold Cert.ReferenceIdeal.RV.pre
  rw [dot128_eq]
  exact biasRelu_eq _ b _ _ _ _

/-! ## A graph convolution and its rectifier -/

/-- The convolution before its bias: the normalised neighbourhood sum of the product x·W over the graph with one
    self-loop per node appended. -/
theorem gcn_eq (x : (⟨Cert.ReferenceIdeal.S50000x64, .f32⟩ : BufTy).Contents (Elt Ideal)) (W : (⟨Cert.ReferenceIdeal.S64x64, .f32⟩ : BufTy).Contents (Elt Ideal)) (b : (⟨Cert.ReferenceIdeal.S64, .f32⟩ : BufTy).Contents (Elt Ideal)) (src dst : (⟨Cert.ReferenceIdeal.S800000, .i32⟩ : BufTy).Contents (Elt Ideal)) :
    Cert.ReferenceIdeal.RV.gcn x W b src dst
      = addf (F := Ideal) (φ := .f32)
          (Cert.KernelIdeal.KV.agg (Host.dotGeneral (F := Ideal) (φ₁ := .f32) (φ₂ := .f32) Cert.ReferenceIdeal.dot_S50000x64_S64x64_S50000x64_1_0_0_1_n_n none x W)
            (Cert.KernelIdeal.KV.sfull src) (Cert.KernelIdeal.KV.dfull dst) (Cert.KernelIdeal.KV.norm (Cert.KernelIdeal.KV.sfull src) (Cert.KernelIdeal.KV.dfull dst)))
          (broadcastInDim Cert.ReferenceIdeal.S50000x64 ![0, 1] Cert.ReferenceIdeal.Gen.bcast_S1x64_S50000x64_0_1 (broadcastInDim Cert.ReferenceIdeal.S1x64 ![1] Cert.ReferenceIdeal.Gen.bcast_S64_S1x64_1 b)) := by
  unfold Cert.ReferenceIdeal.RV.gcn
  rw [sfull_eq src, dfull_eq dst, norm_eq]
  rfl

/-- A graph convolution followed by the rectifier. -/
theorem gcnrelu_join (x : (⟨Cert.ReferenceIdeal.S50000x64, .f32⟩ : BufTy).Contents (Elt Ideal)) (W : (⟨Cert.ReferenceIdeal.S64x64, .f32⟩ : BufTy).Contents (Elt Ideal)) (b : (⟨Cert.ReferenceIdeal.S64, .f32⟩ : BufTy).Contents (Elt Ideal)) (src dst : (⟨Cert.ReferenceIdeal.S800000, .i32⟩ : BufTy).Contents (Elt Ideal)) :
    Cert.ReferenceIdeal.RV.relu (Cert.ReferenceIdeal.RV.gcn x W b src dst)
      = Cert.KernelIdeal.KV.gcnrelu x W b (Cert.KernelIdeal.KV.sfull src) (Cert.KernelIdeal.KV.dfull dst) (Cert.KernelIdeal.KV.norm (Cert.KernelIdeal.KV.sfull src) (Cert.KernelIdeal.KV.dfull dst)) := by
  rw [gcn_eq, dot64_eq]
  exact biasRelu_eq _ b _ _ _ _

/-! ## The gradient gate -/

/-- The gate: the host's power 2 of an absolute value is the product of the difference with itself; the mean's
    divisor is the out-degree clamped below at one. -/
theorem tau_join (xc : (⟨Cert.ReferenceIdeal.S50000x64, .f32⟩ : BufTy).Contents (Elt Ideal)) (src dst : (⟨Cert.ReferenceIdeal.S800000, .i32⟩ : BufTy).Contents (Elt Ideal)) :
    Cert.ReferenceIdeal.RV.tau xc src dst = Cert.KernelIdeal.KV.gate xc src dst (Cert.KernelIdeal.KV.cnt src) := by
  unfold Cert.ReferenceIdeal.RV.tau
  have h2 : ∀ i, (broadcastInDim Cert.ReferenceIdeal.S800000x64 ![] Cert.ReferenceIdeal.Gen.bcast_S_S800000x64 (constant (F := Ideal) Cert.ReferenceIdeal.S_ .f32 0x40000000#32)
      : (⟨Cert.ReferenceIdeal.S800000x64, .f32⟩ : BufTy).Contents (Elt Ideal)) i = Ideal.ofBits .f32 0x40000000#32 := fun i => by
    rw [broadcastInDim_scalar_apply]; rfl
  rw [Host.powf_absf_two _ _ h2]
  rfl

/-! ## One layer, the four layers, the two results -/

/-- One gated layer. -/
theorem layer_join (x : (⟨Cert.ReferenceIdeal.S50000x64, .f32⟩ : BufTy).Contents (Elt Ideal)) (W : (⟨Cert.ReferenceIdeal.S64x64, .f32⟩ : BufTy).Contents (Elt Ideal)) (b : (⟨Cert.ReferenceIdeal.S64, .f32⟩ : BufTy).Contents (Elt Ideal)) (gW : (⟨Cert.ReferenceIdeal.S64x64, .f32⟩ : BufTy).Contents (Elt Ideal)) (gb : (⟨Cert.ReferenceIdeal.S64, .f32⟩ : BufTy).Contents (Elt Ideal))
    (src dst : (⟨Cert.ReferenceIdeal.S800000, .i32⟩ : BufTy).Contents (Elt Ideal)) :
    Cert.ReferenceIdeal.RV.layer x W b gW gb src dst
      = Cert.KernelIdeal.KV.layer x W b gW gb src dst (Cert.KernelIdeal.KV.sfull src) (Cert.KernelIdeal.KV.dfull dst)
          (Cert.KernelIdeal.KV.norm (Cert.KernelIdeal.KV.sfull src) (Cert.KernelIdeal.KV.dfull dst)) (Cert.KernelIdeal.KV.cnt src) := by
  unfold Cert.ReferenceIdeal.RV.layer Cert.ReferenceIdeal.RV.mix
  rw [gcnrelu_join x W b src dst, gcnrelu_join x gW gb src dst, tau_join]
  exact combine_eq _ _ _ _

/-- One layer over the graph the edge array gives. -/
theorem step_join (e : (⟨Cert.ReferenceIdeal.S2x800000, .i32⟩ : BufTy).Contents (Elt Ideal)) (x : (⟨Cert.ReferenceIdeal.S50000x64, .f32⟩ : BufTy).Contents (Elt Ideal)) (W : (⟨Cert.ReferenceIdeal.S64x64, .f32⟩ : BufTy).Contents (Elt Ideal)) (b : (⟨Cert.ReferenceIdeal.S64, .f32⟩ : BufTy).Contents (Elt Ideal)) (gW : (⟨Cert.ReferenceIdeal.S64x64, .f32⟩ : BufTy).Contents (Elt Ideal))
    (gb : (⟨Cert.ReferenceIdeal.S64, .f32⟩ : BufTy).Contents (Elt Ideal)) :
    Cert.ReferenceIdeal.RV.layer x W b gW gb (Cert.ReferenceIdeal.RV.src e) (Cert.ReferenceIdeal.RV.dst e) = Cert.KernelIdeal.KV.step e x W b gW gb := by
  rw [layer_join, src_eq, dst_eq]
  rfl

/-- The node features after the input projection and the four layers. -/
theorem feat_join (x : (⟨Cert.ReferenceIdeal.S50000x128, .f32⟩ : BufTy).Contents (Elt Ideal)) (e : (⟨Cert.ReferenceIdeal.S2x800000, .i32⟩ : BufTy).Contents (Elt Ideal)) (preW : (⟨Cert.ReferenceIdeal.S128x64, .f32⟩ : BufTy).Contents (Elt Ideal)) (preb : (⟨Cert.ReferenceIdeal.S64, .f32⟩ : BufTy).Contents (Elt Ideal))
    (convW : (⟨Cert.ReferenceIdeal.S4x64x64, .f32⟩ : BufTy).Contents (Elt Ideal)) (convb : (⟨Cert.ReferenceIdeal.S4x64, .f32⟩ : BufTy).Contents (Elt Ideal)) (ggW : (⟨Cert.ReferenceIdeal.S4x64x64, .f32⟩ : BufTy).Contents (Elt Ideal)) (ggb : (⟨Cert.ReferenceIdeal.S4x64, .f32⟩ : BufTy).Contents (Elt Ideal)) :
    Cert.ReferenceIdeal.RV.layer (Cert.ReferenceIdeal.RV.layer (Cert.ReferenceIdeal.RV.layer (Cert.ReferenceIdeal.RV.layer (Cert.ReferenceIdeal.RV.pre x preW preb) (Cert.ReferenceIdeal.RV.convW0 convW) (Cert.ReferenceIdeal.RV.convb0 convb) (Cert.ReferenceIdeal.RV.ggW0 ggW) (Cert.ReferenceIdeal.RV.ggb0 ggb) (Cert.ReferenceIdeal.RV.src e) (Cert.ReferenceIdeal.RV.dst e)) (Cert.ReferenceIdeal.RV.convW1 convW) (Cert.ReferenceIdeal.RV.convb1 convb) (Cert.ReferenceIdeal.RV.ggW1 ggW) (Cert.ReferenceIdeal.RV.ggb1 ggb) (Cert.ReferenceIdeal.RV.src e) (Cert.ReferenceIdeal.RV.dst e)) (Cert.ReferenceIdeal.RV.convW2 convW) (Cert.ReferenceIdeal.RV.convb2 convb) (Cert.ReferenceIdeal.RV.ggW2 ggW) (Cert.ReferenceIdeal.RV.ggb2 ggb) (Cert.ReferenceIdeal.RV.src e) (Cert.ReferenceIdeal.RV.dst e)) (Cert.ReferenceIdeal.RV.convW3 convW) (Cert.ReferenceIdeal.RV.convb3 convb) (Cert.ReferenceIdeal.RV.ggW3 ggW) (Cert.ReferenceIdeal.RV.ggb3 ggb) (Cert.ReferenceIdeal.RV.src e) (Cert.ReferenceIdeal.RV.dst e)
      = Cert.KernelIdeal.KV.feat x e preW preb convW convb ggW ggb := by
  rw [step_join, step_join, step_join, step_join, pre_join]
  rw [convW0_eq, convb0_eq, ggW0_eq, ggb0_eq, convW1_eq, convb1_eq, ggW1_eq, ggb1_eq, convW2_eq, convb2_eq, ggW2_eq, ggb2_eq, convW3_eq, convb3_eq, ggW3_eq, ggb3_eq]
  rfl

/-- The first result (returned twice): the head of the pooled features. -/
theorem out_join
    (x : (⟨Cert.ReferenceIdeal.S50000x128, .f32⟩ : BufTy).Contents (Elt Ideal))
    (e : (⟨Cert.ReferenceIdeal.S2x800000, .i32⟩ : BufTy).Contents (Elt Ideal))
    (batch : (⟨Cert.ReferenceIdeal.S50000, .i32⟩ : BufTy).Contents (Elt Ideal))
    (preW : (⟨Cert.ReferenceIdeal.S128x64, .f32⟩ : BufTy).Contents (Elt Ideal))
    (preb : (⟨Cert.ReferenceIdeal.S64, .f32⟩ : BufTy).Contents (Elt Ideal))
    (convW : (⟨Cert.ReferenceIdeal.S4x64x64, .f32⟩ : BufTy).Contents (Elt Ideal))
    (convb : (⟨Cert.ReferenceIdeal.S4x64, .f32⟩ : BufTy).Contents (Elt Ideal))
    (ggW : (⟨Cert.ReferenceIdeal.S4x64x64, .f32⟩ : BufTy).Contents (Elt Ideal))
    (ggb : (⟨Cert.ReferenceIdeal.S4x64, .f32⟩ : BufTy).Contents (Elt Ideal))
    (lin1W : (⟨Cert.ReferenceIdeal.S64x64, .f32⟩ : BufTy).Contents (Elt Ideal))
    (lin1b : (⟨Cert.ReferenceIdeal.S64, .f32⟩ : BufTy).Contents (Elt Ideal))
    (lin2W : (⟨Cert.ReferenceIdeal.S64x64, .f32⟩ : BufTy).Contents (Elt Ideal))
    (lin2b : (⟨Cert.ReferenceIdeal.S64, .f32⟩ : BufTy).Contents (Elt Ideal))
    (lin3W : (⟨Cert.ReferenceIdeal.S64x64, .f32⟩ : BufTy).Contents (Elt Ideal))
    (lin3b : (⟨Cert.ReferenceIdeal.S64, .f32⟩ : BufTy).Contents (Elt Ideal))
    (lin4W : (⟨Cert.ReferenceIdeal.S64x1, .f32⟩ : BufTy).Contents (Elt Ideal))
    (lin4b : (⟨Cert.ReferenceIdeal.S1, .f32⟩ : BufTy).Contents (Elt Ideal))
    (bn_g : (⟨Cert.ReferenceIdeal.S64, .f32⟩ : BufTy).Contents (Elt Ideal))
    (bn_b : (⟨Cert.ReferenceIdeal.S64, .f32⟩ : BufTy).Contents (Elt Ideal)) :
    Cert.ReferenceIdeal.RV.out x e batch preW preb convW convb ggW ggb lin1W lin1b lin2W lin2b lin3W lin3b lin4W lin4b bn_g bn_b = Cert.KernelIdeal.KV.out x e batch preW preb convW convb ggW ggb lin1W lin1b lin2W lin2b lin3W lin3b lin4W lin4b bn_g bn_b := by
  unfold Cert.ReferenceIdeal.RV.out Cert.KernelIdeal.KV.out
  rw [feat_join, pool_eq, head_join]

/-- The last result: the edge energy of the features. -/
theorem energy_join
    (x : (⟨Cert.ReferenceIdeal.S50000x128, .f32⟩ : BufTy).Contents (Elt Ideal))
    (e : (⟨Cert.ReferenceIdeal.S2x800000, .i32⟩ : BufTy).Contents (Elt Ideal))
    (batch : (⟨Cert.ReferenceIdeal.S50000, .i32⟩ : BufTy).Contents (Elt Ideal))
    (preW : (⟨Cert.ReferenceIdeal.S128x64, .f32⟩ : BufTy).Contents (Elt Ideal))
    (preb : (⟨Cert.ReferenceIdeal.S64, .f32⟩ : BufTy).Contents (Elt Ideal))
    (convW : (⟨Cert.ReferenceIdeal.S4x64x64, .f32⟩ : BufTy).Contents (Elt Ideal))
    (convb : (⟨Cert.ReferenceIdeal.S4x64, .f32⟩ : BufTy).Contents (Elt Ideal))
    (ggW : (⟨Cert.ReferenceIdeal.S4x64x64, .f32⟩ : BufTy).Contents (Elt Ideal))
    (ggb : (⟨Cert.ReferenceIdeal.S4x64, .f32⟩ : BufTy).Contents (Elt Ideal))
    (lin1W : (⟨Cert.ReferenceIdeal.S64x64, .f32⟩ : BufTy).Contents (Elt Ideal))
    (lin1b : (⟨Cert.ReferenceIdeal.S64, .f32⟩ : BufTy).Contents (Elt Ideal))
    (lin2W : (⟨Cert.ReferenceIdeal.S64x64, .f32⟩ : BufTy).Contents (Elt Ideal))
    (lin2b : (⟨Cert.ReferenceIdeal.S64, .f32⟩ : BufTy).Contents (Elt Ideal))
    (lin3W : (⟨Cert.ReferenceIdeal.S64x64, .f32⟩ : BufTy).Contents (Elt Ideal))
    (lin3b : (⟨Cert.ReferenceIdeal.S64, .f32⟩ : BufTy).Contents (Elt Ideal))
    (lin4W : (⟨Cert.ReferenceIdeal.S64x1, .f32⟩ : BufTy).Contents (Elt Ideal))
    (lin4b : (⟨Cert.ReferenceIdeal.S1, .f32⟩ : BufTy).Contents (Elt Ideal))
    (bn_g : (⟨Cert.ReferenceIdeal.S64, .f32⟩ : BufTy).Contents (Elt Ideal))
    (bn_b : (⟨Cert.ReferenceIdeal.S64, .f32⟩ : BufTy).Contents (Elt Ideal)) :
    Cert.ReferenceIdeal.RV.energyOut x e batch preW preb convW convb ggW ggb lin1W lin1b lin2W lin2b lin3W lin3b lin4W lin4b bn_g bn_b = Cert.KernelIdeal.KV.energyOut x e batch preW preb convW convb ggW ggb lin1W lin1b lin2W lin2b lin3W lin3b lin4W lin4b bn_g bn_b := by
  unfold Cert.ReferenceIdeal.RV.energyOut Cert.KernelIdeal.KV.energyOut
  rw [feat_join, src_eq, dst_eq, energy_eq]

end Cert.Join

end
-- ==== Proof.Alg.lean ====
/-
  The two idealized programs compute one function.

  Run from memories that agree on the nineteen arguments, the idealized kernel ends with its two results at the fold
  of its operations — 23 regions, each one whole-array operation, among the host operations — over the launch
  contents, and the idealized reference at the fold of its own operation list. Read as mathematics both folds are the
  same composition: the input projection, four gated graph-convolution layers, sum pooling and the batch-normalised
  head for the [500, 1] output; the energy of the last features for the scalar. The two spellings differ only in
  a matrix product written as a kernel's accumulation or as a host contraction, in a bias broadcast in one step or
  two, and in |d|² written as a power or as a product; each pair is equal entry by entry on the extended reals.
-/
import proofs.«117928_j61658550502081_1_alg».proof.Defs
import proofs.«117928_j61658550502081_1_alg».proof.Proof.Gen.KernelIdeal.Frame
import proofs.«117928_j61658550502081_1_alg».proof.Proof.Gen.Pre_finite_inputs
import proofs.«117928_j61658550502081_1_alg».proof.Proof.KRun
import proofs.«117928_j61658550502081_1_alg».proof.Proof.KRegions
import proofs.«117928_j61658550502081_1_alg».proof.Proof.KVValue
import proofs.«117928_j61658550502081_1_alg».proof.Proof.RVValue
import proofs.«117928_j61658550502081_1_alg».proof.Proof.RefRunRaw
import proofs.«117928_j61658550502081_1_alg».proof.Proof.JoinOut

set_option maxRecDepth 16384

noncomputable section

namespace Cert.Proof.Alg

open Idealize.ShloMosaic Idealize.ShloMosaic.TcCoe Idealize.SL.Sem

/-- The idealized kernel's and the idealized reference's results are equal as extended reals, element by element. -/
theorem algebraic : Cert.algebraic_KernelIdeal_ReferenceIdeal := by
  intro m g m' g' _ hagree
  refine ⟨fun c => Cert.KernelIdeal.KV.out (Cert.KernelIdeal.Gen.W0 m g c (Proc.devRef .tc Cert.KernelIdeal.main_arg0)) (Cert.KernelIdeal.Gen.W0 m g c (Proc.devRef .tc Cert.KernelIdeal.main_arg1)) (Cert.KernelIdeal.Gen.W0 m g c (Proc.devRef .tc Cert.KernelIdeal.main_arg2)) (Cert.KernelIdeal.Gen.W0 m g c (Proc.devRef .tc Cert.KernelIdeal.main_arg3)) (Cert.KernelIdeal.Gen.W0 m g c (Proc.devRef .tc Cert.KernelIdeal.main_arg4)) (Cert.KernelIdeal.Gen.W0 m g c (Proc.devRef .tc Cert.KernelIdeal.main_arg5)) (Cert.KernelIdeal.Gen.W0 m g c (Proc.devRef .tc Cert.KernelIdeal.main_arg6)) (Cert.KernelIdeal.Gen.W0 m g c (Proc.devRef .tc Cert.KernelIdeal.main_arg7)) (Cert.KernelIdeal.Gen.W0 m g c (Proc.devRef .tc Cert.KernelIdeal.main_arg8)) (Cert.KernelIdeal.Gen.W0 m g c (Proc.devRef .tc Cert.KernelIdeal.main_arg9)) (Cert.KernelIdeal.Gen.W0 m g c (Proc.devRef .tc Cert.KernelIdeal.main_arg10)) (Cert.KernelIdeal.Gen.W0 m g c (Proc.devRef .tc Cert.KernelIdeal.main_arg11)) (Cert.KernelIdeal.Gen.W0 m g c (Proc.devRef .tc Cert.KernelIdeal.main_arg12)) (Cert.KernelIdeal.Gen.W0 m g c (Proc.devRef .tc Cert.KernelIdeal.main_arg13)) (Cert.KernelIdeal.Gen.W0 m g c (Proc.devRef .tc Cert.KernelIdeal.main_arg14)) (Cert.KernelIdeal.Gen.W0 m g c (Proc.devRef .tc Cert.KernelIdeal.main_arg15)) (Cert.KernelIdeal.Gen.W0 m g c (Proc.devRef .tc Cert.KernelIdeal.main_arg16)) (Cert.KernelIdeal.Gen.W0 m g c (Proc.devRef .tc Cert.KernelIdeal.main_arg17)) (Cert.KernelIdeal.Gen.W0 m g c (Proc.devRef .tc Cert.KernelIdeal.main_arg18)),
    fun c => Cert.KernelIdeal.KV.out (Cert.KernelIdeal.Gen.W0 m g c (Proc.devRef .tc Cert.KernelIdeal.main_arg0)) (Cert.KernelIdeal.Gen.W0 m g c (Proc.devRef .tc Cert.KernelIdeal.main_arg1)) (Cert.KernelIdeal.Gen.W0 m g c (Proc.devRef .tc Cert.KernelIdeal.main_arg2)) (Cert.KernelIdeal.Gen.W0 m g c (Proc.devRef .tc Cert.KernelIdeal.main_arg3)) (Cert.KernelIdeal.Gen.W0 m g c (Proc.devRef .tc Cert.KernelIdeal.main_arg4)) (Cert.KernelIdeal.Gen.W0 m g c (Proc.devRef .tc Cert.KernelIdeal.main_arg5)) (Cert.KernelIdeal.Gen.W0 m g c (Proc.devRef .tc Cert.KernelIdeal.main_arg6)) (Cert.KernelIdeal.Gen.W0 m g c (Proc.devRef .tc Cert.KernelIdeal.main_arg7)) (Cert.KernelIdeal.Gen.W0 m g c (Proc.devRef .tc Cert.KernelIdeal.main_arg8)) (Cert.KernelIdeal.Gen.W0 m g c (Proc.devRef .tc Cert.KernelIdeal.main_arg9)) (Cert.KernelIdeal.Gen.W0 m g c (Proc.devRef .tc Cert.KernelIdeal.main_arg10)) (Cert.KernelIdeal.Gen.W0 m g c (Proc.devRef .tc Cert.KernelIdeal.main_arg11)) (Cert.KernelIdeal.Gen.W0 m g c (Proc.devRef .tc Cert.KernelIdeal.main_arg12)) (Cert.KernelIdeal.Gen.W0 m g c (Proc.devRef .tc Cert.KernelIdeal.main_arg13)) (Cert.KernelIdeal.Gen.W0 m g c (Proc.devRef .tc Cert.KernelIdeal.main_arg14)) (Cert.KernelIdeal.Gen.W0 m g c (Proc.devRef .tc Cert.KernelIdeal.main_arg15)) (Cert.KernelIdeal.Gen.W0 m g c (Proc.devRef .tc Cert.KernelIdeal.main_arg16)) (Cert.KernelIdeal.Gen.W0 m g c (Proc.devRef .tc Cert.KernelIdeal.main_arg17)) (Cert.KernelIdeal.Gen.W0 m g c (Proc.devRef .tc Cert.KernelIdeal.main_arg18)),
    fun c => Cert.KernelIdeal.KV.energyOut (Cert.KernelIdeal.Gen.W0 m g c (Proc.devRef .tc Cert.KernelIdeal.main_arg0)) (Cert.KernelIdeal.Gen.W0 m g c (Proc.devRef .tc Cert.KernelIdeal.main_arg1)) (Cert.KernelIdeal.Gen.W0 m g c (Proc.devRef .tc Cert.KernelIdeal.main_arg2)) (Cert.KernelIdeal.Gen.W0 m g c (Proc.devRef .tc Cert.KernelIdeal.main_arg3)) (Cert.KernelIdeal.Gen.W0 m g c (Proc.devRef .tc Cert.KernelIdeal.main_arg4)) (Cert.KernelIdeal.Gen.W0 m g c (Proc.devRef .tc Cert.KernelIdeal.main_arg5)) (Cert.KernelIdeal.Gen.W0 m g c (Proc.devRef .tc Cert.KernelIdeal.main_arg6)) (Cert.KernelIdeal.Gen.W0 m g c (Proc.devRef .tc Cert.KernelIdeal.main_arg7)) (Cert.KernelIdeal.Gen.W0 m g c (Proc.devRef .tc Cert.KernelIdeal.main_arg8)) (Cert.KernelIdeal.Gen.W0 m g c (Proc.devRef .tc Cert.KernelIdeal.main_arg9)) (Cert.KernelIdeal.Gen.W0 m g c (Proc.devRef .tc Cert.KernelIdeal.main_arg10)) (Cert.KernelIdeal.Gen.W0 m g c (Proc.devRef .tc Cert.KernelIdeal.main_arg11)) (Cert.KernelIdeal.Gen.W0 m g c (Proc.devRef .tc Cert.KernelIdeal.main_arg12)) (Cert.KernelIdeal.Gen.W0 m g c (Proc.devRef .tc Cert.KernelIdeal.main_arg13)) (Cert.KernelIdeal.Gen.W0 m g c (Proc.devRef .tc Cert.KernelIdeal.main_arg14)) (Cert.KernelIdeal.Gen.W0 m g c (Proc.devRef .tc Cert.KernelIdeal.main_arg15)) (Cert.KernelIdeal.Gen.W0 m g c (Proc.devRef .tc Cert.KernelIdeal.main_arg16)) (Cert.KernelIdeal.Gen.W0 m g c (Proc.devRef .tc Cert.KernelIdeal.main_arg17)) (Cert.KernelIdeal.Gen.W0 m g c (Proc.devRef .tc Cert.KernelIdeal.main_arg18)), ?_, ?_⟩
  · refine (θ_run (Cert.KernelIdeal.defs (F := Ideal)) _ _).mono (fun r h c => ?_) (Cert.KernelIdeal.KRun.run_W47 (F := Ideal) m g)
    have eo := (congrFun (Cert.KernelIdeal.KV.W47_is_fold m g c) (Proc.devRef .tc Cert.KernelIdeal.main_v303)).trans
      (Cert.KernelIdeal.KV.value_out (Cert.KernelIdeal.Gen.W0 m g c))
    have ee := (congrFun (Cert.KernelIdeal.KV.W47_is_fold m g c) (Proc.devRef .tc Cert.KernelIdeal.main_v321)).trans
      (Cert.KernelIdeal.KV.value_energy (Cert.KernelIdeal.Gen.W0 m g c))
    exact ⟨(h c).1.trans eo, (h c).1.trans eo, (h c).2.1.trans ee, (h c).2.2⟩
  · refine (θ_run (Cert.ReferenceIdeal.defs (F := Ideal)) _ _).mono (fun r h c => ?_) (Cert.ReferenceIdeal.RefRun.run_raw (F := Ideal) m' g')
    obtain ⟨h0, h1, h2, h3, h4, h5, h6, h7, h8, h9, h10, h11, h12, h13, h14, h15, h16, h17, h18⟩ := hagree c
    have eo : StableHlo.after (Cert.ReferenceIdeal.RefRun.ops (F := Ideal)) (StableHlo.launchContents m' c) (Proc.devRef .tc Cert.ReferenceIdeal.main_v607)
        = Cert.KernelIdeal.KV.out (Cert.KernelIdeal.Gen.W0 m g c (Proc.devRef .tc Cert.KernelIdeal.main_arg0)) (Cert.KernelIdeal.Gen.W0 m g c (Proc.devRef .tc Cert.KernelIdeal.main_arg1)) (Cert.KernelIdeal.Gen.W0 m g c (Proc.devRef .tc Cert.KernelIdeal.main_arg2)) (Cert.KernelIdeal.Gen.W0 m g c (Proc.devRef .tc Cert.KernelIdeal.main_arg3)) (Cert.KernelIdeal.Gen.W0 m g c (Proc.devRef .tc Cert.KernelIdeal.main_arg4)) (Cert.KernelIdeal.Gen.W0 m g c (Proc.devRef .tc Cert.KernelIdeal.main_arg5)) (Cert.KernelIdeal.Gen.W0 m g c (Proc.devRef .tc Cert.KernelIdeal.main_arg6)) (Cert.KernelIdeal.Gen.W0 m g c (Proc.devRef .tc Cert.KernelIdeal.main_arg7)) (Cert.KernelIdeal.Gen.W0 m g c (Proc.devRef .tc Cert.KernelIdeal.main_arg8)) (Cert.KernelIdeal.Gen.W0 m g c (Proc.devRef .tc Cert.KernelIdeal.main_arg9)) (Cert.KernelIdeal.Gen.W0 m g c (Proc.devRef .tc Cert.KernelIdeal.main_arg10)) (Cert.KernelIdeal.Gen.W0 m g c (Proc.devRef .tc Cert.KernelIdeal.main_arg11)) (Cert.KernelIdeal.Gen.W0 m g c (Proc.devRef .tc Cert.KernelIdeal.main_arg12)) (Cert.KernelIdeal.Gen.W0 m g c (Proc.devRef .tc Cert.KernelIdeal.main_arg13)) (Cert.KernelIdeal.Gen.W0 m g c (Proc.devRef .tc Cert.KernelIdeal.main_arg14)) (Cert.KernelIdeal.Gen.W0 m g c (Proc.devRef .tc Cert.KernelIdeal.main_arg15)) (Cert.KernelIdeal.Gen.W0 m g c (Proc.devRef .tc Cert.KernelIdeal.main_arg16)) (Cert.KernelIdeal.Gen.W0 m g c (Proc.devRef .tc Cert.KernelIdeal.main_arg17)) (Cert.KernelIdeal.Gen.W0 m g c (Proc.devRef .tc Cert.KernelIdeal.main_arg18)) := by
      rw [Cert.ReferenceIdeal.RV.value_out, Cert.Join.out_join]
      rw [show StableHlo.launchContents m' c (Proc.devRef .tc Cert.ReferenceIdeal.main_arg0) = Cert.KernelIdeal.Gen.W0 m g c (Proc.devRef .tc Cert.KernelIdeal.main_arg0) from h0,
      show StableHlo.launchContents m' c (Proc.devRef .tc Cert.ReferenceIdeal.main_arg1) = Cert.KernelIdeal.Gen.W0 m g c (Proc.devRef .tc Cert.KernelIdeal.main_arg1) from h1,
      show StableHlo.launchContents m' c (Proc.devRef .tc Cert.ReferenceIdeal.main_arg2) = Cert.KernelIdeal.Gen.W0 m g c (Proc.devRef .tc Cert.KernelIdeal.main_arg2) from h2,
      show StableHlo.launchContents m' c (Proc.devRef .tc Cert.ReferenceIdeal.main_arg3) = Cert.KernelIdeal.Gen.W0 m g c (Proc.devRef .tc Cert.KernelIdeal.main_arg3) from h3,
      show StableHlo.launchContents m' c (Proc.devRef .tc Cert.ReferenceIdeal.main_arg4) = Cert.KernelIdeal.Gen.W0 m g c (Proc.devRef .tc Cert.KernelIdeal.main_arg4) from h4,
      show StableHlo.launchContents m' c (Proc.devRef .tc Cert.ReferenceIdeal.main_arg5) = Cert.KernelIdeal.Gen.W0 m g c (Proc.devRef .tc Cert.KernelIdeal.main_arg5) from h5,
      show StableHlo.launchContents m' c (Proc.devRef .tc Cert.ReferenceIdeal.main_arg6) = Cert.KernelIdeal.Gen.W0 m g c (Proc.devRef .tc Cert.KernelIdeal.main_arg6) from h6,
      show StableHlo.launchContents m' c (Proc.devRef .tc Cert.ReferenceIdeal.main_arg7) = Cert.KernelIdeal.Gen.W0 m g c (Proc.devRef .tc Cert.KernelIdeal.main_arg7) from h7,
      show StableHlo.launchContents m' c (Proc.devRef .tc Cert.ReferenceIdeal.main_arg8) = Cert.KernelIdeal.Gen.W0 m g c (Proc.devRef .tc Cert.KernelIdeal.main_arg8) from h8,
      show StableHlo.launchContents m' c (Proc.devRef .tc Cert.ReferenceIdeal.main_arg9) = Cert.KernelIdeal.Gen.W0 m g c (Proc.devRef .tc Cert.KernelIdeal.main_arg9) from h9,
      show StableHlo.launchContents m' c (Proc.devRef .tc Cert.ReferenceIdeal.main_arg10) = Cert.KernelIdeal.Gen.W0 m g c (Proc.devRef .tc Cert.KernelIdeal.main_arg10) from h10,
      show StableHlo.launchContents m' c (Proc.devRef .tc Cert.ReferenceIdeal.main_arg11) = Cert.KernelIdeal.Gen.W0 m g c (Proc.devRef .tc Cert.KernelIdeal.main_arg11) from h11,
      show StableHlo.launchContents m' c (Proc.devRef .tc Cert.ReferenceIdeal.main_arg12) = Cert.KernelIdeal.Gen.W0 m g c (Proc.devRef .tc Cert.KernelIdeal.main_arg12) from h12,
      show StableHlo.launchContents m' c (Proc.devRef .tc Cert.ReferenceIdeal.main_arg13) = Cert.KernelIdeal.Gen.W0 m g c (Proc.devRef .tc Cert.KernelIdeal.main_arg13) from h13,
      show StableHlo.launchContents m' c (Proc.devRef .tc Cert.ReferenceIdeal.main_arg14) = Cert.KernelIdeal.Gen.W0 m g c (Proc.devRef .tc Cert.KernelIdeal.main_arg14) from h14,
      show StableHlo.launchContents m' c (Proc.devRef .tc Cert.ReferenceIdeal.main_arg15) = Cert.KernelIdeal.Gen.W0 m g c (Proc.devRef .tc Cert.KernelIdeal.main_arg15) from h15,
      show StableHlo.launchContents m' c (Proc.devRef .tc Cert.ReferenceIdeal.main_arg16) = Cert.KernelIdeal.Gen.W0 m g c (Proc.devRef .tc Cert.KernelIdeal.main_arg16) from h16,
      show StableHlo.launchContents m' c (Proc.devRef .tc Cert.ReferenceIdeal.main_arg17) = Cert.KernelIdeal.Gen.W0 m g c (Proc.devRef .tc Cert.KernelIdeal.main_arg17) from h17,
      show StableHlo.launchContents m' c (Proc.devRef .tc Cert.ReferenceIdeal.main_arg18) = Cert.KernelIdeal.Gen.W0 m g c (Proc.devRef .tc Cert.KernelIdeal.main_arg18) from h18]
    have ee : StableHlo.after (Cert.ReferenceIdeal.RefRun.ops (F := Ideal)) (StableHlo.launchContents m' c) (Proc.devRef .tc Cert.ReferenceIdeal.main_v625)
        = Cert.KernelIdeal.KV.energyOut (Cert.KernelIdeal.Gen.W0 m g c (Proc.devRef .tc Cert.KernelIdeal.main_arg0)) (Cert.KernelIdeal.Gen.W0 m g c (Proc.devRef .tc Cert.KernelIdeal.main_arg1)) (Cert.KernelIdeal.Gen.W0 m g c (Proc.devRef .tc Cert.KernelIdeal.main_arg2)) (Cert.KernelIdeal.Gen.W0 m g c (Proc.devRef .tc Cert.KernelIdeal.main_arg3)) (Cert.KernelIdeal.Gen.W0 m g c (Proc.devRef .tc Cert.KernelIdeal.main_arg4)) (Cert.KernelIdeal.Gen.W0 m g c (Proc.devRef .tc Cert.KernelIdeal.main_arg5)) (Cert.KernelIdeal.Gen.W0 m g c (Proc.devRef .tc Cert.KernelIdeal.main_arg6)) (Cert.KernelIdeal.Gen.W0 m g c (Proc.devRef .tc Cert.KernelIdeal.main_arg7)) (Cert.KernelIdeal.Gen.W0 m g c (Proc.devRef .tc Cert.KernelIdeal.main_arg8)) (Cert.KernelIdeal.Gen.W0 m g c (Proc.devRef .tc Cert.KernelIdeal.main_arg9)) (Cert.KernelIdeal.Gen.W0 m g c (Proc.devRef .tc Cert.KernelIdeal.main_arg10)) (Cert.KernelIdeal.Gen.W0 m g c (Proc.devRef .tc Cert.KernelIdeal.main_arg11)) (Cert.KernelIdeal.Gen.W0 m g c (Proc.devRef .tc Cert.KernelIdeal.main_arg12)) (Cert.KernelIdeal.Gen.W0 m g c (Proc.devRef .tc Cert.KernelIdeal.main_arg13)) (Cert.KernelIdeal.Gen.W0 m g c (Proc.devRef .tc Cert.KernelIdeal.main_arg14)) (Cert.KernelIdeal.Gen.W0 m g c (Proc.devRef .tc Cert.KernelIdeal.main_arg15)) (Cert.KernelIdeal.Gen.W0 m g c (Proc.devRef .tc Cert.KernelIdeal.main_arg16)) (Cert.KernelIdeal.Gen.W0 m g c (Proc.devRef .tc Cert.KernelIdeal.main_arg17)) (Cert.KernelIdeal.Gen.W0 m g c (Proc.devRef .tc Cert.KernelIdeal.main_arg18)) := by
      rw [Cert.ReferenceIdeal.RV.value_energy, Cert.Join.energy_join]
      rw [show StableHlo.launchContents m' c (Proc.devRef .tc Cert.ReferenceIdeal.main_arg0) = Cert.KernelIdeal.Gen.W0 m g c (Proc.devRef .tc Cert.KernelIdeal.main_arg0) from h0,
      show StableHlo.launchContents m' c (Proc.devRef .tc Cert.ReferenceIdeal.main_arg1) = Cert.KernelIdeal.Gen.W0 m g c (Proc.devRef .tc Cert.KernelIdeal.main_arg1) from h1,
      show StableHlo.launchContents m' c (Proc.devRef .tc Cert.ReferenceIdeal.main_arg2) = Cert.KernelIdeal.Gen.W0 m g c (Proc.devRef .tc Cert.KernelIdeal.main_arg2) from h2,
      show StableHlo.launchContents m' c (Proc.devRef .tc Cert.ReferenceIdeal.main_arg3) = Cert.KernelIdeal.Gen.W0 m g c (Proc.devRef .tc Cert.KernelIdeal.main_arg3) from h3,
      show StableHlo.launchContents m' c (Proc.devRef .tc Cert.ReferenceIdeal.main_arg4) = Cert.KernelIdeal.Gen.W0 m g c (Proc.devRef .tc Cert.KernelIdeal.main_arg4) from h4,
      show StableHlo.launchContents m' c (Proc.devRef .tc Cert.ReferenceIdeal.main_arg5) = Cert.KernelIdeal.Gen.W0 m g c (Proc.devRef .tc Cert.KernelIdeal.main_arg5) from h5,
      show StableHlo.launchContents m' c (Proc.devRef .tc Cert.ReferenceIdeal.main_arg6) = Cert.KernelIdeal.Gen.W0 m g c (Proc.devRef .tc Cert.KernelIdeal.main_arg6) from h6,
      show StableHlo.launchContents m' c (Proc.devRef .tc Cert.ReferenceIdeal.main_arg7) = Cert.KernelIdeal.Gen.W0 m g c (Proc.devRef .tc Cert.KernelIdeal.main_arg7) from h7,
      show StableHlo.launchContents m' c (Proc.devRef .tc Cert.ReferenceIdeal.main_arg8) = Cert.KernelIdeal.Gen.W0 m g c (Proc.devRef .tc Cert.KernelIdeal.main_arg8) from h8,
      show StableHlo.launchContents m' c (Proc.devRef .tc Cert.ReferenceIdeal.main_arg9) = Cert.KernelIdeal.Gen.W0 m g c (Proc.devRef .tc Cert.KernelIdeal.main_arg9) from h9,
      show StableHlo.launchContents m' c (Proc.devRef .tc Cert.ReferenceIdeal.main_arg10) = Cert.KernelIdeal.Gen.W0 m g c (Proc.devRef .tc Cert.KernelIdeal.main_arg10) from h10,
      show StableHlo.launchContents m' c (Proc.devRef .tc Cert.ReferenceIdeal.main_arg11) = Cert.KernelIdeal.Gen.W0 m g c (Proc.devRef .tc Cert.KernelIdeal.main_arg11) from h11,
      show StableHlo.launchContents m' c (Proc.devRef .tc Cert.ReferenceIdeal.main_arg12) = Cert.KernelIdeal.Gen.W0 m g c (Proc.devRef .tc Cert.KernelIdeal.main_arg12) from h12,
      show StableHlo.launchContents m' c (Proc.devRef .tc Cert.ReferenceIdeal.main_arg13) = Cert.KernelIdeal.Gen.W0 m g c (Proc.devRef .tc Cert.KernelIdeal.main_arg13) from h13,
      show StableHlo.launchContents m' c (Proc.devRef .tc Cert.ReferenceIdeal.main_arg14) = Cert.KernelIdeal.Gen.W0 m g c (Proc.devRef .tc Cert.KernelIdeal.main_arg14) from h14,
      show StableHlo.launchContents m' c (Proc.devRef .tc Cert.ReferenceIdeal.main_arg15) = Cert.KernelIdeal.Gen.W0 m g c (Proc.devRef .tc Cert.KernelIdeal.main_arg15) from h15,
      show StableHlo.launchContents m' c (Proc.devRef .tc Cert.ReferenceIdeal.main_arg16) = Cert.KernelIdeal.Gen.W0 m g c (Proc.devRef .tc Cert.KernelIdeal.main_arg16) from h16,
      show StableHlo.launchContents m' c (Proc.devRef .tc Cert.ReferenceIdeal.main_arg17) = Cert.KernelIdeal.Gen.W0 m g c (Proc.devRef .tc Cert.KernelIdeal.main_arg17) from h17,
      show StableHlo.launchContents m' c (Proc.devRef .tc Cert.ReferenceIdeal.main_arg18) = Cert.KernelIdeal.Gen.W0 m g c (Proc.devRef .tc Cert.KernelIdeal.main_arg18) from h18]
    exact ⟨(h c).1.trans eo, (h c).1.trans eo, (h c).2.1.trans ee, (h c).2.2⟩

end Cert.Proof.Alg

end
-- ==== Proof.lean ====
/-
  The certificate of the gated graph-convolution network: the Pallas kernel program, its idealization and the jnp
  reference.

  Three frames: each program, run from any memory in which the float inputs are finite, terminates under every weakly
  fair schedule, faults nothing and leaves its nineteen argument arrays as launched — the two kernel programs by the
  frame of their 23 pipelined regions among host operations, the reference by the run of its straight line of host
  operations. The idealization rewrote no operation, so there is nothing to preserve. And at the ideal instance the
  idealized kernel and the idealized reference, run from memories agreeing on the arguments, end with equal results
  (Proof/Alg.lean): no step of that comparison needs the inputs' finiteness.
-/
import proofs.«117928_j61658550502081_1_alg».proof.Defs
import proofs.«117928_j61658550502081_1_alg».proof.Proof.Gen.Kernel
import proofs.«117928_j61658550502081_1_alg».proof.Proof.Gen.Kernel.Skeleton
import proofs.«117928_j61658550502081_1_alg».proof.Proof.Gen.Kernel.Launch
import proofs.«117928_j61658550502081_1_alg».proof.Proof.Gen.Kernel.Points
import proofs.«117928_j61658550502081_1_alg».proof.Proof.Gen.Kernel.Frame
import proofs.«117928_j61658550502081_1_alg».proof.Proof.Gen.KernelIdeal
import proofs.«117928_j61658550502081_1_alg».proof.Proof.Gen.KernelIdeal.Skeleton
import proofs.«117928_j61658550502081_1_alg».proof.Proof.Gen.KernelIdeal.Launch
import proofs.«117928_j61658550502081_1_alg».proof.Proof.Gen.KernelIdeal.Points
import proofs.«117928_j61658550502081_1_alg».proof.Proof.Gen.KernelIdeal.Frame
import proofs.«117928_j61658550502081_1_alg».proof.Proof.Gen.ReferenceIdeal
import proofs.«117928_j61658550502081_1_alg».proof.Proof.Gen.Pre_finite_inputs
import proofs.«117928_j61658550502081_1_alg».proof.Proof.RefFrame
import proofs.«117928_j61658550502081_1_alg».proof.Proof.Alg
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  Cert.ReferenceIdeal.RefRun.frame_ri,
  trivial,
  Cert.Proof.Alg.algebraic⟩

end Cert.Proof

end
